-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024 .f32) (main_arg16 : FVec F S1024 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S10x1024 .f32) (main_arg10 : FVec F S10 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S10x1024 .f32 := Host.absf main_arg9
  let main_cst_16 : FVec F S_ .f32 := constant S_ .f32 0x7F800000#32
  let main_v45 : FVec F S10x1024 .f32 := broadcastInDim S10x1024 ![] bcast_S_S10x1024 main_cst_16
  let main_v46 : IVec S10x1024 1 := cmpf .olt main_v44 main_v45
  let main_c_17 : IVec S_ 1 := constantI S_ 1 1#1
  let main_v47 : IVec S_ 1 := (fun x v => Host.reduce IntOp.andi x v reducesTo_S10x1024_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S10x1024 .f32) (main_arg10 : FVec F S10 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x784 .f32) (main_arg1 : FVec F S1024x784 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S10x1024 .f32) (main_arg10 : FVec F S10 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩
abbrev S1024x1 : Shape := ⟨2, ![1024, 1]⟩
abbrev S784x1024 : Shape := ⟨2, ![784, 1024]⟩
abbrev S10x1 : Shape := ⟨2, ![10, 1]⟩
abbrev S1024x10 : Shape := ⟨2, ![1024, 10]⟩
abbrev S1024x128 : Shape := ⟨2, ![1024, 128]⟩
abbrev S1x10 : Shape := ⟨2, ![1, 10]⟩
abbrev S1x128 : Shape := ⟨2, ![1, 128]⟩
abbrev S1x1024 : Shape := ⟨2, ![1, 1024]⟩
abbrev S16384x1024 : Shape := ⟨2, ![16384, 1024]⟩
abbrev S2x1x1024 : Shape := ⟨3, ![2, 1, 1024]⟩
abbrev S512x784 : Shape := ⟨2, ![512, 784]⟩
abbrev S512x1024 : Shape := ⟨2, ![512, 1024]⟩
abbrev S1x1x1024 : Shape := ⟨3, ![1, 1, 1024]⟩
abbrev S2x1024 : Shape := ⟨2, ![2, 1024]⟩
abbrev S16384x128 : Shape := ⟨2, ![16384, 128]⟩
abbrev S512x128 : Shape := ⟨2, ![512, 128]⟩
abbrev S16384x10 : Shape := ⟨2, ![16384, 10]⟩
abbrev S16384 : Shape := ⟨1, ![16384]⟩
abbrev S16384x1 : Shape := ⟨2, ![16384, 1]⟩

abbrev nBuf : Space → Nat
  | .hbm => 219
  | .vmem => 70
  | .smem => 0
  | _ => 0

abbrev hbmTy0_0 (i : Nat) : BufTy := match i % 128 with
  | 0 => ⟨S16384x784, .f32⟩
  | 1 => ⟨S1024x784, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S10x1024, .f32⟩
  | 10 => ⟨S10, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024x784, .f32⟩
  | 20 => ⟨S_, .f32⟩
  | 21 => ⟨S1024, .f32⟩
  | 22 => ⟨S1024x1, .f32⟩
  | 23 => ⟨S_, .f32⟩
  | 24 => ⟨S1024x1, .f32⟩
  | 25 => ⟨S1024x1, .f32⟩
  | 26 => ⟨S1024x784, .f32⟩
  | 27 => ⟨S1024x784, .f32⟩
  | 28 => ⟨S1024x784, .f32⟩
  | 29 => ⟨S784x1024, .f32⟩
  | 30 => ⟨S784x1024, .bf16⟩
  | 31 => ⟨S1024x1024, .f32⟩
  | 32 => ⟨S_, .f32⟩
  | 33 => ⟨S1024, .f32⟩
  | 34 => ⟨S1024x1, .f32⟩
  | 35 => ⟨S_, .f32⟩
  | 36 => ⟨S1024x1, .f32⟩
  | 37 => ⟨S1024x1, .f32⟩
  | 38 => ⟨S1024x1024, .f32⟩
  | 39 => ⟨S1024x1024, .f32⟩
  | 40 => ⟨S1024x1024, .f32⟩
  | 41 => ⟨S1024x1024, .f32⟩
  | 42 => ⟨S1024x1024, .bf16⟩
  | 43 => ⟨S1024x1024, .f32⟩
  | 44 => ⟨S_, .f32⟩
  | 45 => ⟨S1024, .f32⟩
  | 46 => ⟨S1024x1, .f32⟩
  | 47 => ⟨S_, .f32⟩
  | 48 => ⟨S1024x1, .f32⟩
  | 49 => ⟨S1024x1, .f32⟩
  | 50 => ⟨S1024x1024, .f32⟩
  | 51 => ⟨S1024x1024, .f32⟩
  | 52 => ⟨S1024x1024, .f32⟩
  | 53 => ⟨S1024x1024, .f32⟩
  | 54 => ⟨S1024x1024, .bf16⟩
  | 55 => ⟨S1024x1024, .f32⟩
  | 56 => ⟨S_, .f32⟩
  | 57 => ⟨S1024, .f32⟩
  | 58 => ⟨S1024x1, .f32⟩
  | 59 => ⟨S_, .f32⟩
  | 60 => ⟨S1024x1, .f32⟩
  | 61 => ⟨S1024x1, .f32⟩
  | 62 => ⟨S1024x1024, .f32⟩
  | 63 => ⟨S1024x1024, .f32⟩
  | 64 => ⟨S1024x1024, .f32⟩
  | 65 => ⟨S1024x1024, .f32⟩
  | 66 => ⟨S1024x1024, .bf16⟩
  | 67 => ⟨S10x1024, .f32⟩
  | 68 => ⟨S_, .f32⟩
  | 69 => ⟨S10, .f32⟩
  | 70 => ⟨S10x1, .f32⟩
  | 71 => ⟨S_, .f32⟩
  | 72 => ⟨S10x1, .f32⟩
  | 73 => ⟨S10x1, .f32⟩
  | 74 => ⟨S10x1024, .f32⟩
  | 75 => ⟨S10x1024, .f32⟩
  | 76 => ⟨S10x1024, .f32⟩
  | 77 => ⟨S1024x10, .f32⟩
  | 78 => ⟨S1024x10, .bf16⟩
  | 79 => ⟨S_, .i32⟩
  | 80 => ⟨S_, .bf16⟩
  | 81 => ⟨S1024x128, .bf16⟩
  | 82 => ⟨S1x10, .f32⟩
  | 83 => ⟨S_, .i32⟩
  | 84 => ⟨S_, .f32⟩
  | 85 => ⟨S1x128, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S16384x1024, .f32⟩
  | 99 => ⟨S2x1x1024, .f32⟩
  | 100 => ⟨S2x1x1024, .f32⟩
  | 101 => ⟨S2x1024, .f32⟩
  | 102 => ⟨S_, .f32⟩
  | 103 => ⟨S1024, .f32⟩
  | 104 => ⟨S1x1024, .f32⟩
  | 105 => ⟨S2x1024, .f32⟩
  | 106 => ⟨S_, .f32⟩
  | 107 => ⟨S1024, .f32⟩
  | 108 => ⟨S1x1024, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S16384x1024, .f32⟩
  | 125 => ⟨S2x1x1024, .f32⟩
  | 126 => ⟨S2x1x1024, .f32⟩
  | 127 => ⟨S2x1024, .f32⟩
  | _ => ⟨S16384x784, .f32⟩

abbrev hbmTy0_1 (i : Nat) : BufTy := match i % 128 with
  | 0 => ⟨S_, .f32⟩
  | 1 => ⟨S1024, .f32⟩
  | 2 => ⟨S1x1024, .f32⟩
  | 3 => ⟨S2x1024, .f32⟩
  | 4 => ⟨S_, .f32⟩
  | 5 => ⟨S1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S16384x1024, .f32⟩
  | 23 => ⟨S2x1x1024, .f32⟩
  | 24 => ⟨S2x1x1024, .f32⟩
  | 25 => ⟨S2x1024, .f32⟩
  | 26 => ⟨S_, .f32⟩
  | 27 => ⟨S1024, .f32⟩
  | 28 => ⟨S1x1024, .f32⟩
  | 29 => ⟨S2x1024, .f32⟩
  | 30 => ⟨S_, .f32⟩
  | 31 => ⟨S1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S16384x1024, .f32⟩
  | 49 => ⟨S2x1x1024, .f32⟩
  | 50 => ⟨S2x1x1024, .f32⟩
  | 51 => ⟨S2x1024, .f32⟩
  | 52 => ⟨S_, .f32⟩
  | 53 => ⟨S1024, .f32⟩
  | 54 => ⟨S1x1024, .f32⟩
  | 55 => ⟨S2x1024, .f32⟩
  | 56 => ⟨S_, .f32⟩
  | 57 => ⟨S1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S16384x128, .f32⟩
  | 75 => ⟨S16384x10, .f32⟩
  | 76 => ⟨S_, .f32⟩
  | 77 => ⟨S16384, .f32⟩
  | 78 => ⟨S_, .f32⟩
  | 79 => ⟨S16384, .f32⟩
  | 80 => ⟨S16384, .f32⟩
  | 81 => ⟨S16384x1, .f32⟩
  | 82 => ⟨S16384x10, .f32⟩
  | 83 => ⟨S16384x10, .f32⟩
  | 84 => ⟨S16384x10, .f32⟩
  | 85 => ⟨S_, .f32⟩
  | 86 => ⟨S16384, .f32⟩
  | 87 => ⟨S16384x1, .f32⟩
  | 88 => ⟨S16384x1, .f32⟩
  | 89 => ⟨S16384x10, .f32⟩
  | 90 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | .local _ .vmem, ⟨0, _⟩ => ⟨S512x784, .f32⟩
  | .local _ .vmem, ⟨1, _⟩ => ⟨S512x784, .f32⟩
  | .local _ .vmem, ⟨2, _⟩ => ⟨S784x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1024x1024, .bf16⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S1x1x1024, .f32⟩
  | .local _ .vmem, ⟨39, _⟩ => ⟨S1x1x1024, .f32⟩
  | .local _ .vmem, ⟨40, _⟩ => ⟨S1x1x1024, .f32⟩
  | .local _ .vmem, ⟨41, _⟩ => ⟨S1x1x1024, .f32⟩
  | .local _ .vmem, ⟨42, _⟩ => ⟨S1x1024, .f32⟩
  | .local _ .vmem, ⟨43, _⟩ => ⟨S1x1024, .f32⟩
  | .local _ .vmem, ⟨44, _⟩ => ⟨S512x1024, .f32⟩
  | .local _ .vmem, ⟨45, _⟩ => ⟨S512x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1024x1024, .bf16⟩
  | .local _ .vmem, ⟨51, _⟩ => ⟨S1x1024, .f32⟩
  | .local _ .vmem, ⟨52, _⟩ => ⟨S512x1024, .f32⟩
  | .local _ .vmem, ⟨53, _⟩ => ⟨S512x1024, .f32⟩
  | .local _ .vmem, ⟨54, _⟩ => ⟨S1x1x1024, .f32⟩
  | .local _ .vmem, ⟨55, _⟩ => ⟨S1x1x1024, .f32⟩
  | .local _ .vmem, ⟨56, _⟩ => ⟨S1x1x1024, .f32⟩
  | .local _ .vmem, ⟨57, _⟩ => ⟨S1x1x1024, .f32⟩
  | .local _ .vmem, ⟨58, _⟩ => ⟨S1x1024, .f32⟩
  | .local _ .vmem, ⟨59, _⟩ => ⟨S1x1024, .f32⟩
  | .local _ .vmem, ⟨60, _⟩ => ⟨S512x1024, .f32⟩
  | .local _ .vmem, ⟨61, _⟩ => ⟨S512x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .vmem, ⟨66, _⟩ => ⟨S1024x128, .bf16⟩
  | .local _ .vmem, ⟨67, _⟩ => ⟨S1x128, .f32⟩
  | .local _ .vmem, ⟨68, _⟩ => ⟨S512x128, .f32⟩
  | .local _ .vmem, ⟨69, _⟩ => ⟨S512x128, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c : Ref sig .tc := ⟨.hbm, 79, rfl⟩
abbrev main_call0_v0 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_call1_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65_0 : Ref sig .tc := ⟨.hbm, 98, rfl⟩
abbrev main_v65_1 : Ref sig .tc := ⟨.hbm, 99, rfl⟩
abbrev main_v65_2 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_v79 : Ref sig .tc := ⟨.hbm, 119, rfl⟩
abbrev main_cst_15 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83_0 : Ref sig .tc := ⟨.hbm, 124, rfl⟩
abbrev main_v83_1 : Ref sig .tc := ⟨.hbm, 125, rfl⟩
abbrev main_v83_2 : Ref sig .tc := ⟨.hbm, 126, rfl⟩
abbrev main_v84 : Ref sig .tc := ⟨.hbm, 127, rfl⟩
abbrev main_cst_16 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_17 : Ref sig .tc := ⟨.hbm, 132, rfl⟩
abbrev main_v88 : Ref sig .tc := ⟨.hbm, 133, rfl⟩
abbrev main_v89 : Ref sig .tc := ⟨.hbm, 134, rfl⟩
abbrev main_cst_18 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_20 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101_0 : Ref sig .tc := ⟨.hbm, 150, rfl⟩
abbrev main_v101_1 : Ref sig .tc := ⟨.hbm, 151, rfl⟩
abbrev main_v101_2 : Ref sig .tc := ⟨.hbm, 152, rfl⟩
abbrev main_v102 : Ref sig .tc := ⟨.hbm, 153, rfl⟩
abbrev main_cst_22 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_23 : Ref sig .tc := ⟨.hbm, 158, rfl⟩
abbrev main_v106 : Ref sig .tc := ⟨.hbm, 159, rfl⟩
abbrev main_v107 : Ref sig .tc := ⟨.hbm, 160, rfl⟩
abbrev main_cst_24 : Ref sig .tc := ⟨.hbm, 161, rfl⟩
abbrev main_v108 : Ref sig .tc := ⟨.hbm, 162, rfl⟩
abbrev main_v109 : Ref sig .tc := ⟨.hbm, 163, rfl⟩
abbrev main_cst_25 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_26 : Ref sig .tc := ⟨.hbm, 169, rfl⟩
abbrev main_v114 : Ref sig .tc := ⟨.hbm, 170, rfl⟩
abbrev main_v115 : Ref sig .tc := ⟨.hbm, 171, rfl⟩
abbrev main_cst_27 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119_0 : Ref sig .tc := ⟨.hbm, 176, rfl⟩
abbrev main_v119_1 : Ref sig .tc := ⟨.hbm, 177, rfl⟩
abbrev main_v119_2 : Ref sig .tc := ⟨.hbm, 178, rfl⟩
abbrev main_v120 : Ref sig .tc := ⟨.hbm, 179, rfl⟩
abbrev main_cst_28 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_cst_29 : Ref sig .tc := ⟨.hbm, 184, rfl⟩
abbrev main_v124 : Ref sig .tc := ⟨.hbm, 185, rfl⟩
abbrev main_v125 : Ref sig .tc := ⟨.hbm, 186, rfl⟩
abbrev main_cst_30 : Ref sig .tc := ⟨.hbm, 187, rfl⟩
abbrev main_v126 : Ref sig .tc := ⟨.hbm, 188, rfl⟩
abbrev main_v127 : Ref sig .tc := ⟨.hbm, 189, rfl⟩
abbrev main_cst_31 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_32 : Ref sig .tc := ⟨.hbm, 195, rfl⟩
abbrev main_v132 : Ref sig .tc := ⟨.hbm, 196, rfl⟩
abbrev main_v133 : Ref sig .tc := ⟨.hbm, 197, rfl⟩
abbrev main_cst_33 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_call2_cst : Ref sig .tc := ⟨.hbm, 204, rfl⟩
abbrev main_call2_v0 : Ref sig .tc := ⟨.hbm, 205, rfl⟩
abbrev main_call2_cst_0 : Ref sig .tc := ⟨.hbm, 206, rfl⟩
abbrev main_call2_v1 : Ref sig .tc := ⟨.hbm, 207, rfl⟩
abbrev main_call2_v2 : Ref sig .tc := ⟨.hbm, 208, rfl⟩
abbrev main_call2_v3 : Ref sig .tc := ⟨.hbm, 209, rfl⟩
abbrev main_call2_v4 : Ref sig .tc := ⟨.hbm, 210, rfl⟩
abbrev main_call2_v5 : Ref sig .tc := ⟨.hbm, 211, rfl⟩
abbrev main_call2_v6 : Ref sig .tc := ⟨.hbm, 212, rfl⟩
abbrev main_call2_cst_1 : Ref sig .tc := ⟨.hbm, 213, rfl⟩
abbrev main_call2_v7 : Ref sig .tc := ⟨.hbm, 214, rfl⟩
abbrev main_call2_v8 : Ref sig .tc := ⟨.hbm, 215, rfl⟩
abbrev main_call2_v9 : Ref sig .tc := ⟨.hbm, 216, rfl⟩
abbrev main_call2_v10 : Ref sig .tc := ⟨.hbm, 217, rfl⟩
abbrev main_v139 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc2_scratch0 : Ref sig .tc := ⟨.vmem, 42, rfl⟩
abbrev cc2_scratch1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg8_1 : Ref sig .tc := ⟨.vmem, 55, rfl⟩
abbrev cc3_stg9_0 : Ref sig .tc := ⟨.vmem, 56, rfl⟩
abbrev cc3_stg9_1 : Ref sig .tc := ⟨.vmem, 57, rfl⟩
abbrev cc3_scratch0 : Ref sig .tc := ⟨.vmem, 58, rfl⟩
abbrev cc3_scratch1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg2_0 : Ref sig .tc := ⟨.vmem, 63, rfl⟩
abbrev cc4_stg3_0 : Ref sig .tc := ⟨.vmem, 64, rfl⟩
abbrev cc4_stg4_0 : Ref sig .tc := ⟨.vmem, 65, rfl⟩
abbrev cc4_stg5_0 : Ref sig .tc := ⟨.vmem, 66, rfl⟩
abbrev cc4_stg6_0 : Ref sig .tc := ⟨.vmem, 67, rfl⟩
abbrev cc4_stg7_0 : Ref sig .tc := ⟨.vmem, 68, rfl⟩
abbrev cc4_stg7_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47
abbrev cc3_sem8_0 : DmaSem sig := 48
abbrev cc3_sem8_1 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem7_1 : DmaSem sig := 61

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_27 : BitVec 32 := 0#32
  let v49 : BitVec 1 := Scalar.cmpi .ne v48 c0_i32_27
  v49

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_27 : BitVec 32 := 0#32
  let v49 : BitVec 1 := Scalar.cmpi .ne v48 c0_i32_27
  v49

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x1x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1x1x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![2, 16], ![false, false]⟩

def k3_cond2 (i : grid3.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_27 : BitVec 32 := 0#32
  let v49 : BitVec 1 := Scalar.cmpi .ne v48 c0_i32_27
  v49

def cc3_transform_0 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x1x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S1x1x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  reducesTo_S1024x784_S1024_d1 : S1024x784.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x784_0_1 : S1024x1.BroadcastsInDim S1024x784 (![0, 1] : Fin 2 → Fin S1024x784.rank)
  transposes_S1024x784_S784x1024_1_0 : S1024x784.Transposes [1, 0] S784x1024
  bitsLt_bf16_f32 : FTy.bits .bf16 < FTy.bits .f32
  reducesTo_S1024x1024_S1024_d1 : S1024x1024.ReducesTo [1] S1024
  bcast_S1024x1_S1024x1024_0_1 : S1024x1.BroadcastsInDim S1024x1024 (![0, 1] : Fin 2 → Fin S1024x1024.rank)
  transposes_S1024x1024_S1024x1024_1_0 : S1024x1024.Transposes [1, 0] S1024x1024
  reducesTo_S10x1024_S10_d1 : S10x1024.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x1024_0_1 : S10x1.BroadcastsInDim S10x1024 (![0, 1] : Fin 2 → Fin S10x1024.rank)
  transposes_S10x1024_S1024x10_1_0 : S10x1024.Transposes [1, 0] S1024x10
  pads_S1024x10_S1024x128_000_01180 : S1024x10.Pads (![0, 0] : Fin 2 → Nat) ![0, 118] ![0, 0] S1024x128
  shapeCasts_S10_S1x10 : S10.ShapeCasts S1x10
  pads_S1x10_S1x128_000_01180 : S1x10.Pads (![0, 0] : Fin 2 → Nat) ![0, 118] ![0, 0] S1x128
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x784_S512x784_0_0 : ∀ a, (![0, 0] : Fin 2 → Nat) a + S512x784.size a ≤ S512x784.size a
  h_S512x784 : 0 < S512x784.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S2x1x1024_S2x1024 : S2x1x1024.ShapeCasts S2x1024
  reducesTo_S2x1024_S1024_d0 : S2x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S16384x128_S16384x10_0_0 : S16384x128.Slices ![0, 0] S16384x10
  reducesTo_S16384x10_S16384_d1 : S16384x10.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S512x784_S784x1024_S512x1024_1_0_0_1_n_n_wf : DotDims.WF S512x784 S784x1024 S512x1024 [1] [0] [0] [1] [] []
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S16384x784.size a
  hwx0_0 : ∀ i : grid0.Coords, EltTy.bits .f32 = 32 ∨ (Rect.block (s := S16384x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .bf16 = 32 ∨ (Rect.block (s := S784x1024) S784x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S2x1x1024.size a
  hwx0_4 : ∀ i : grid0.Coords, EltTy.bits .f32 = 32 ∨ (Rect.block (s := S2x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S2x1x1024.size a
  hwx0_5 : ∀ i : grid0.Coords, EltTy.bits .f32 = 32 ∨ (Rect.block (s := S2x1x1024) S1x1x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S16384x1024.size a
  hwx1_7 : ∀ i : grid1.Coords, EltTy.bits .f32 = 32 ∨ (Rect.block (s := S16384x1024) S512x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1024.size a ≤ S2x1x1024.size a
  hwx1_8 : ∀ i : grid1.Coords, EltTy.bits .f32 = 32 ∨ (Rect.block (s := S2x1x1024) S1x1x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x1024.size a ≤ S2x1x1024.size a
  hwx1_9 : ∀ i : grid1.Coords, EltTy.bits .f32 = 32 ∨ (Rect.block (s := S2x1x1024) S1x1x1024.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .f32 = 32 ∨ (Rect.block (s := S16384x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S16384x1024.size a
  hwx2_7 : ∀ i : grid2.Coords, EltTy.bits .f32 = 32 ∨ (Rect.block (s := S16384x1024) S512x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x1024.size a ≤ S2x1x1024.size a
  hwx2_8 : ∀ i : grid2.Coords, EltTy.bits .f32 = 32 ∨ (Rect.block (s := S2x1x1024) S1x1x1024.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x1024.size a ≤ S2x1x1024.size a
  hwx2_9 : ∀ i : grid2.Coords, EltTy.bits .f32 = 32 ∨ (Rect.block (s := S2x1x1024) S1x1x1024.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S16384x1024.size a
  hwx3_0 : ∀ i : grid3.Coords, EltTy.bits .f32 = 32 ∨ (Rect.block (s := S16384x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S1024x1024.size a
  hwx3_5 : ∀ i : grid3.Coords, EltTy.bits .bf16 = 32 ∨ (Rect.block (s := S1024x1024) S1024x1024.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x1024.size a ≤ S16384x1024.size a
  hwx3_7 : ∀ i : grid3.Coords, EltTy.bits .f32 = 32 ∨ (Rect.block (s := S16384x1024) S512x1024.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1x1024.size a ≤ S2x1x1024.size a
  hwx3_8 : ∀ i : grid3.Coords, EltTy.bits .f32 = 32 ∨ (Rect.block (s := S2x1x1024) S1x1x1024.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x1x1024.size a ≤ S2x1x1024.size a
  hwx3_9 : ∀ i : grid3.Coords, EltTy.bits .f32 = 32 ∨ (Rect.block (s := S2x1x1024) S1x1x1024.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S16384x1024.size a
  hwx4_0 : ∀ i : grid4.Coords, EltTy.bits .f32 = 32 ∨ (Rect.block (s := S16384x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1024.size a ≤ S1x1024.size a
  hwx4_1 : ∀ i : grid4.Coords, EltTy.bits .f32 = 32 ∨ (Rect.block (s := S1x1024) S1x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x1024.size a
  hwx4_3 : ∀ i : grid4.Coords, EltTy.bits .f32 = 32 ∨ (Rect.block (s := S1x1024) S1x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x128.size a ≤ S1024x128.size a
  hwx4_5 : ∀ i : grid4.Coords, EltTy.bits .bf16 = 32 ∨ (Rect.block (s := S1024x128) S1024x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x128.size a ≤ S16384x128.size a
  hwx4_7 : ∀ i : grid4.Coords, EltTy.bits .f32 = 32 ∨ (Rect.block (s := S16384x128) S512x128.size (cc4_transform_7 i) (hinb4_7 i)).WholeWords (EltTy.packing .f32)

variable [Facts₀]

def dot_S512x784_S784x1024_S512x1024_1_0_0_1_n_n : DotDims S512x784 S784x1024 S512x1024 where
  lhsContracting := [1]
  rhsContracting := [0]
  lhsNonContracting := [0]
  rhsNonContracting := [1]
  lhsBatch := []
  rhsBatch := []
  wf := dot_S512x784_S784x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65_1) S1x1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v65_2) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v65_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v83_0) S512x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v83_1) S1x1x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v83_2) S1x1x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v83_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v100) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v101_0) S512x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v101_1) S1x1x1024.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v101_2) S1x1x1024.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | 9 => fun i => !(k2_cond2 i == 1#1) | ⟨_ + 10, h⟩ => absurd h (Nat.not_lt.2 (Nat.le_add_left _ _))

abbrev win3_0 : Pipeline.Window sig grid3 :=
  Pipeline.Window.ofSpec (Memref.whole main_v101_0) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v109) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1024x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v119_0) S512x1024.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v119_1) S1x1x1024.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v119_2) S1x1x1024.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | 9 => fun i => !(k3_cond2 i == 1#1) | ⟨_ + 10, h⟩ => absurd h (Nat.not_lt.2 (Nat.le_add_left _ _))

abbrev win4_0 : Pipeline.Window sig grid4 :=
  Pipeline.Window.ofSpec (Memref.whole main_v119_0) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v127) S1x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v136) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S1024x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v52) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v137) S512x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩
abbrev S1024x1 : Shape := ⟨2, ![1024, 1]⟩
abbrev S784x1024 : Shape := ⟨2, ![784, 1024]⟩
abbrev S16384x1024 : Shape := ⟨2, ![16384, 1024]⟩
abbrev S1x1024 : Shape := ⟨2, ![1, 1024]⟩
abbrev S10x1 : Shape := ⟨2, ![10, 1]⟩
abbrev S1024x10 : Shape := ⟨2, ![1024, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 307
  | .vmem => 0
  | .smem => 0
  | _ => 0

abbrev hbmTy0_0 (i : Nat) : BufTy := match i % 128 with
  | 0 => ⟨S16384x784, .f32⟩
  | 1 => ⟨S1024x784, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S10x1024, .f32⟩
  | 10 => ⟨S10, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024x784, .f32⟩
  | 20 => ⟨S_, .f32⟩
  | 21 => ⟨S1024, .f32⟩
  | 22 => ⟨S1024x1, .f32⟩
  | 23 => ⟨S_, .f32⟩
  | 24 => ⟨S1024x1, .f32⟩
  | 25 => ⟨S1024x1, .f32⟩
  | 26 => ⟨S1024x784, .f32⟩
  | 27 => ⟨S1024x784, .f32⟩
  | 28 => ⟨S1024x784, .f32⟩
  | 29 => ⟨S1024x784, .f32⟩
  | 30 => ⟨S1024x784, .f32⟩
  | 31 => ⟨S784x1024, .f32⟩
  | 32 => ⟨S16384x1024, .f32⟩
  | 33 => ⟨S1x1024, .f32⟩
  | 34 => ⟨S16384x1024, .f32⟩
  | 35 => ⟨S16384x1024, .f32⟩
  | 36 => ⟨S_, .f32⟩
  | 37 => ⟨S1024, .f32⟩
  | 38 => ⟨S_, .f32⟩
  | 39 => ⟨S1024, .f32⟩
  | 40 => ⟨S1024, .f32⟩
  | 41 => ⟨S_, .i32⟩
  | 42 => ⟨S_, .f32⟩
  | 43 => ⟨S1024, .f32⟩
  | 44 => ⟨S1x1024, .f32⟩
  | 45 => ⟨S_, .f32⟩
  | 46 => ⟨S1x1024, .f32⟩
  | 47 => ⟨S1x1024, .f32⟩
  | 48 => ⟨S16384x1024, .f32⟩
  | 49 => ⟨S16384x1024, .f32⟩
  | 50 => ⟨S16384x1024, .f32⟩
  | 51 => ⟨S_, .f32⟩
  | 52 => ⟨S_, .f32⟩
  | 53 => ⟨S_, .f32⟩
  | 54 => ⟨S_, .f32⟩
  | 55 => ⟨S1024, .f32⟩
  | 56 => ⟨S1024, .f32⟩
  | 57 => ⟨S1024, .f32⟩
  | 58 => ⟨S_, .f32⟩
  | 59 => ⟨S_, .i1⟩
  | 60 => ⟨S_, .f32⟩
  | 61 => ⟨S_, .f32⟩
  | 62 => ⟨S1024, .f32⟩
  | 63 => ⟨S1024, .f32⟩
  | 64 => ⟨S1x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S_, .f32⟩
  | 71 => ⟨S1024, .f32⟩
  | 72 => ⟨S1024, .f32⟩
  | 73 => ⟨S1024, .f32⟩
  | 74 => ⟨S1x1024, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S_, .f32⟩
  | 81 => ⟨S16384x1024, .f32⟩
  | 82 => ⟨S16384x1024, .f32⟩
  | 83 => ⟨S1024x1024, .f32⟩
  | 84 => ⟨S_, .f32⟩
  | 85 => ⟨S1024, .f32⟩
  | 86 => ⟨S1024x1, .f32⟩
  | 87 => ⟨S_, .f32⟩
  | 88 => ⟨S1024x1, .f32⟩
  | 89 => ⟨S1024x1, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S16384x1024, .f32⟩
  | 97 => ⟨S1x1024, .f32⟩
  | 98 => ⟨S16384x1024, .f32⟩
  | 99 => ⟨S16384x1024, .f32⟩
  | 100 => ⟨S_, .f32⟩
  | 101 => ⟨S1024, .f32⟩
  | 102 => ⟨S_, .f32⟩
  | 103 => ⟨S1024, .f32⟩
  | 104 => ⟨S1024, .f32⟩
  | 105 => ⟨S_, .i32⟩
  | 106 => ⟨S_, .f32⟩
  | 107 => ⟨S1024, .f32⟩
  | 108 => ⟨S1x1024, .f32⟩
  | 109 => ⟨S_, .f32⟩
  | 110 => ⟨S1x1024, .f32⟩
  | 111 => ⟨S1x1024, .f32⟩
  | 112 => ⟨S16384x1024, .f32⟩
  | 113 => ⟨S16384x1024, .f32⟩
  | 114 => ⟨S16384x1024, .f32⟩
  | 115 => ⟨S_, .f32⟩
  | 116 => ⟨S_, .f32⟩
  | 117 => ⟨S_, .f32⟩
  | 118 => ⟨S_, .f32⟩
  | 119 => ⟨S1024, .f32⟩
  | 120 => ⟨S1024, .f32⟩
  | 121 => ⟨S1024, .f32⟩
  | 122 => ⟨S_, .f32⟩
  | 123 => ⟨S_, .i1⟩
  | 124 => ⟨S_, .f32⟩
  | 125 => ⟨S_, .f32⟩
  | 126 => ⟨S1024, .f32⟩
  | 127 => ⟨S1024, .f32⟩
  | _ => ⟨S16384x784, .f32⟩

abbrev hbmTy0_1 (i : Nat) : BufTy := match i % 128 with
  | 0 => ⟨S1x1024, .f32⟩
  | 1 => ⟨S16384x1024, .f32⟩
  | 2 => ⟨S16384x1024, .f32⟩
  | 3 => ⟨S1x1024, .f32⟩
  | 4 => ⟨S16384x1024, .f32⟩
  | 5 => ⟨S16384x1024, .f32⟩
  | 6 => ⟨S_, .f32⟩
  | 7 => ⟨S1024, .f32⟩
  | 8 => ⟨S1024, .f32⟩
  | 9 => ⟨S1024, .f32⟩
  | 10 => ⟨S1x1024, .f32⟩
  | 11 => ⟨S16384x1024, .f32⟩
  | 12 => ⟨S16384x1024, .f32⟩
  | 13 => ⟨S1x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S1024x1024, .f32⟩
  | 20 => ⟨S_, .f32⟩
  | 21 => ⟨S1024, .f32⟩
  | 22 => ⟨S1024x1, .f32⟩
  | 23 => ⟨S_, .f32⟩
  | 24 => ⟨S1024x1, .f32⟩
  | 25 => ⟨S1024x1, .f32⟩
  | 26 => ⟨S1024x1024, .f32⟩
  | 27 => ⟨S1024x1024, .f32⟩
  | 28 => ⟨S1024x1024, .f32⟩
  | 29 => ⟨S1024x1024, .f32⟩
  | 30 => ⟨S1024x1024, .f32⟩
  | 31 => ⟨S1024x1024, .f32⟩
  | 32 => ⟨S16384x1024, .f32⟩
  | 33 => ⟨S1x1024, .f32⟩
  | 34 => ⟨S16384x1024, .f32⟩
  | 35 => ⟨S16384x1024, .f32⟩
  | 36 => ⟨S_, .f32⟩
  | 37 => ⟨S1024, .f32⟩
  | 38 => ⟨S_, .f32⟩
  | 39 => ⟨S1024, .f32⟩
  | 40 => ⟨S1024, .f32⟩
  | 41 => ⟨S_, .i32⟩
  | 42 => ⟨S_, .f32⟩
  | 43 => ⟨S1024, .f32⟩
  | 44 => ⟨S1x1024, .f32⟩
  | 45 => ⟨S_, .f32⟩
  | 46 => ⟨S1x1024, .f32⟩
  | 47 => ⟨S1x1024, .f32⟩
  | 48 => ⟨S16384x1024, .f32⟩
  | 49 => ⟨S16384x1024, .f32⟩
  | 50 => ⟨S16384x1024, .f32⟩
  | 51 => ⟨S_, .f32⟩
  | 52 => ⟨S_, .f32⟩
  | 53 => ⟨S_, .f32⟩
  | 54 => ⟨S_, .f32⟩
  | 55 => ⟨S1024, .f32⟩
  | 56 => ⟨S1024, .f32⟩
  | 57 => ⟨S1024, .f32⟩
  | 58 => ⟨S_, .f32⟩
  | 59 => ⟨S_, .i1⟩
  | 60 => ⟨S_, .f32⟩
  | 61 => ⟨S_, .f32⟩
  | 62 => ⟨S1024, .f32⟩
  | 63 => ⟨S1024, .f32⟩
  | 64 => ⟨S1x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S_, .f32⟩
  | 71 => ⟨S1024, .f32⟩
  | 72 => ⟨S1024, .f32⟩
  | 73 => ⟨S1024, .f32⟩
  | 74 => ⟨S1x1024, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S_, .f32⟩
  | 81 => ⟨S16384x1024, .f32⟩
  | 82 => ⟨S16384x1024, .f32⟩
  | 83 => ⟨S1024x1024, .f32⟩
  | 84 => ⟨S_, .f32⟩
  | 85 => ⟨S1024, .f32⟩
  | 86 => ⟨S1024x1, .f32⟩
  | 87 => ⟨S_, .f32⟩
  | 88 => ⟨S1024x1, .f32⟩
  | 89 => ⟨S1024x1, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S16384x1024, .f32⟩
  | 97 => ⟨S1x1024, .f32⟩
  | 98 => ⟨S16384x1024, .f32⟩
  | 99 => ⟨S16384x1024, .f32⟩
  | 100 => ⟨S_, .f32⟩
  | 101 => ⟨S1024, .f32⟩
  | 102 => ⟨S_, .f32⟩
  | 103 => ⟨S1024, .f32⟩
  | 104 => ⟨S1024, .f32⟩
  | 105 => ⟨S_, .i32⟩
  | 106 => ⟨S_, .f32⟩
  | 107 => ⟨S1024, .f32⟩
  | 108 => ⟨S1x1024, .f32⟩
  | 109 => ⟨S_, .f32⟩
  | 110 => ⟨S1x1024, .f32⟩
  | 111 => ⟨S1x1024, .f32⟩
  | 112 => ⟨S16384x1024, .f32⟩
  | 113 => ⟨S16384x1024, .f32⟩
  | 114 => ⟨S16384x1024, .f32⟩
  | 115 => ⟨S_, .f32⟩
  | 116 => ⟨S_, .f32⟩
  | 117 => ⟨S_, .f32⟩
  | 118 => ⟨S_, .f32⟩
  | 119 => ⟨S1024, .f32⟩
  | 120 => ⟨S1024, .f32⟩
  | 121 => ⟨S1024, .f32⟩
  | 122 => ⟨S_, .f32⟩
  | 123 => ⟨S_, .i1⟩
  | 124 => ⟨S_, .f32⟩
  | 125 => ⟨S_, .f32⟩
  | 126 => ⟨S1024, .f32⟩
  | 127 => ⟨S1024, .f32⟩
  | _ => ⟨S16384x784, .f32⟩

abbrev hbmTy0_2 (i : Nat) : BufTy := match i % 128 with
  | 0 => ⟨S1x1024, .f32⟩
  | 1 => ⟨S16384x1024, .f32⟩
  | 2 => ⟨S16384x1024, .f32⟩
  | 3 => ⟨S1x1024, .f32⟩
  | 4 => ⟨S16384x1024, .f32⟩
  | 5 => ⟨S16384x1024, .f32⟩
  | 6 => ⟨S_, .f32⟩
  | 7 => ⟨S1024, .f32⟩
  | 8 => ⟨S1024, .f32⟩
  | 9 => ⟨S1024, .f32⟩
  | 10 => ⟨S1x1024, .f32⟩
  | 11 => ⟨S16384x1024, .f32⟩
  | 12 => ⟨S16384x1024, .f32⟩
  | 13 => ⟨S1x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S10x1024, .f32⟩
  | 20 => ⟨S_, .f32⟩
  | 21 => ⟨S10, .f32⟩
  | 22 => ⟨S10x1, .f32⟩
  | 23 => ⟨S_, .f32⟩
  | 24 => ⟨S10x1, .f32⟩
  | 25 => ⟨S10x1, .f32⟩
  | 26 => ⟨S10x1024, .f32⟩
  | 27 => ⟨S10x1024, .f32⟩
  | 28 => ⟨S10x1024, .f32⟩
  | 29 => ⟨S10x1024, .f32⟩
  | 30 => ⟨S10x1024, .f32⟩
  | 31 => ⟨S1024x10, .f32⟩
  | 32 => ⟨S16384x10, .f32⟩
  | 33 => ⟨S1x10, .f32⟩
  | 34 => ⟨S16384x10, .f32⟩
  | 35 => ⟨S16384x10, .f32⟩
  | 36 => ⟨S_, .f32⟩
  | 37 => ⟨S16384, .f32⟩
  | 38 => ⟨S_, .f32⟩
  | 39 => ⟨S16384, .f32⟩
  | 40 => ⟨S16384, .f32⟩
  | 41 => ⟨S16384x1, .f32⟩
  | 42 => ⟨S16384x10, .f32⟩
  | 43 => ⟨S16384x10, .f32⟩
  | 44 => ⟨S16384x10, .f32⟩
  | 45 => ⟨S_, .f32⟩
  | 46 => ⟨S16384, .f32⟩
  | 47 => ⟨S16384x1, .f32⟩
  | 48 => ⟨S16384x1, .f32⟩
  | 49 => ⟨S16384x10, .f32⟩
  | 50 => ⟨S16384x10, .f32⟩
  | _ => ⟨S16384x784, .f32⟩

abbrev hbmTy (i : Nat) : BufTy := match i / 128 with
  | 0 => hbmTy0_0 i
  | 1 => hbmTy0_1 i
  | 2 => hbmTy0_2 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_3 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_call1_cst : Ref sig .tc := ⟨.hbm, 80, rfl⟩
abbrev main_call1_v0 : Ref sig .tc := ⟨.hbm, 81, rfl⟩
abbrev main_v34 : Ref sig .tc := ⟨.hbm, 82, rfl⟩
abbrev main_v35 : Ref sig .tc := ⟨.hbm, 83, rfl⟩
abbrev main_cst_4 : Ref sig .tc := ⟨.hbm, 84, rfl⟩
abbrev main_v36 : Ref sig .tc := ⟨.hbm, 85, rfl⟩
abbrev main_v37 : Ref sig .tc := ⟨.hbm, 86, rfl⟩
abbrev main_cst_5 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_6 : Ref sig .tc := ⟨.hbm, 100, rfl⟩
abbrev main_v50 : Ref sig .tc := ⟨.hbm, 101, rfl⟩
abbrev main_cst_7 : Ref sig .tc := ⟨.hbm, 102, rfl⟩
abbrev main_v51 : Ref sig .tc := ⟨.hbm, 103, rfl⟩
abbrev main_v52 : Ref sig .tc := ⟨.hbm, 104, rfl⟩
abbrev main_c_8 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_cst_3 : Ref sig .tc := ⟨.hbm, 122, rfl⟩
abbrev main_call2_v12 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_cst_9 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_call3_cst : Ref sig .tc := ⟨.hbm, 144, rfl⟩
abbrev main_call3_v0 : Ref sig .tc := ⟨.hbm, 145, rfl⟩
abbrev main_v69 : Ref sig .tc := ⟨.hbm, 146, rfl⟩
abbrev main_v70 : Ref sig .tc := ⟨.hbm, 147, rfl⟩
abbrev main_cst_10 : Ref sig .tc := ⟨.hbm, 148, rfl⟩
abbrev main_v71 : Ref sig .tc := ⟨.hbm, 149, rfl⟩
abbrev main_v72 : Ref sig .tc := ⟨.hbm, 150, rfl⟩
abbrev main_cst_11 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_12 : Ref sig .tc := ⟨.hbm, 164, rfl⟩
abbrev main_v85 : Ref sig .tc := ⟨.hbm, 165, rfl⟩
abbrev main_cst_13 : Ref sig .tc := ⟨.hbm, 166, rfl⟩
abbrev main_v86 : Ref sig .tc := ⟨.hbm, 167, rfl⟩
abbrev main_v87 : Ref sig .tc := ⟨.hbm, 168, rfl⟩
abbrev main_c_14 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_cst_3 : Ref sig .tc := ⟨.hbm, 186, rfl⟩
abbrev main_call4_v12 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_cst_15 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_call5_cst : Ref sig .tc := ⟨.hbm, 208, rfl⟩
abbrev main_call5_v0 : Ref sig .tc := ⟨.hbm, 209, rfl⟩
abbrev main_v104 : Ref sig .tc := ⟨.hbm, 210, rfl⟩
abbrev main_v105 : Ref sig .tc := ⟨.hbm, 211, rfl⟩
abbrev main_cst_16 : Ref sig .tc := ⟨.hbm, 212, rfl⟩
abbrev main_v106 : Ref sig .tc := ⟨.hbm, 213, rfl⟩
abbrev main_v107 : Ref sig .tc := ⟨.hbm, 214, rfl⟩
abbrev main_cst_17 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_cst_18 : Ref sig .tc := ⟨.hbm, 228, rfl⟩
abbrev main_v120 : Ref sig .tc := ⟨.hbm, 229, rfl⟩
abbrev main_cst_19 : Ref sig .tc := ⟨.hbm, 230, rfl⟩
abbrev main_v121 : Ref sig .tc := ⟨.hbm, 231, rfl⟩
abbrev main_v122 : Ref sig .tc := ⟨.hbm, 232, rfl⟩
abbrev main_c_20 : Ref sig .tc := ⟨.hbm, 233, rfl⟩
abbrev main_call6_cst : Ref sig .tc := ⟨.hbm, 234, rfl⟩
abbrev main_call6_v0 : Ref sig .tc := ⟨.hbm, 235, rfl⟩
abbrev main_call6_v1 : Ref sig .tc := ⟨.hbm, 236, rfl⟩
abbrev main_call6_cst_0 : Ref sig .tc := ⟨.hbm, 237, rfl⟩
abbrev main_call6_v2 : Ref sig .tc := ⟨.hbm, 238, rfl⟩
abbrev main_call6_v3 : Ref sig .tc := ⟨.hbm, 239, rfl⟩
abbrev main_call6_v4 : Ref sig .tc := ⟨.hbm, 240, rfl⟩
abbrev main_call6_v5 : Ref sig .tc := ⟨.hbm, 241, rfl⟩
abbrev main_call6_v6 : Ref sig .tc := ⟨.hbm, 242, rfl⟩
abbrev main_call6_v7 : Ref sig .tc := ⟨.hbm, 243, rfl⟩
abbrev main_call6_cst_1 : Ref sig .tc := ⟨.hbm, 244, rfl⟩
abbrev main_call6_v8 : Ref sig .tc := ⟨.hbm, 245, rfl⟩
abbrev main_call6_cst_2 : Ref sig .tc := ⟨.hbm, 246, rfl⟩
abbrev main_call6_v9 : Ref sig .tc := ⟨.hbm, 247, rfl⟩
abbrev main_call6_v10 : Ref sig .tc := ⟨.hbm, 248, rfl⟩
abbrev main_call6_v11 : Ref sig .tc := ⟨.hbm, 249, rfl⟩
abbrev main_call6_cst_3 : Ref sig .tc := ⟨.hbm, 250, rfl⟩
abbrev main_call6_v12 : Ref sig .tc := ⟨.hbm, 251, rfl⟩
abbrev main_call6_cst_4 : Ref sig .tc := ⟨.hbm, 252, rfl⟩
abbrev main_call6_call0_v0 : Ref sig .tc := ⟨.hbm, 253, rfl⟩
abbrev main_call6_call0_v1 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_cst_21 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_call7_cst : Ref sig .tc := ⟨.hbm, 272, rfl⟩
abbrev main_call7_v0 : Ref sig .tc := ⟨.hbm, 273, rfl⟩
abbrev main_v139 : Ref sig .tc := ⟨.hbm, 274, rfl⟩
abbrev main_v140 : Ref sig .tc := ⟨.hbm, 275, rfl⟩
abbrev main_cst_22 : Ref sig .tc := ⟨.hbm, 276, rfl⟩
abbrev main_v141 : Ref sig .tc := ⟨.hbm, 277, rfl⟩
abbrev main_v142 : Ref sig .tc := ⟨.hbm, 278, rfl⟩
abbrev main_cst_23 : Ref sig .tc := ⟨.hbm, 279, rfl⟩
abbrev main_v143 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_v148 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_v153 : Ref sig .tc := ⟨.hbm, 290, rfl⟩
abbrev main_v154 : Ref sig .tc := ⟨.hbm, 291, rfl⟩
abbrev main_call8_cst : Ref sig .tc := ⟨.hbm, 292, rfl⟩
abbrev main_call8_v0 : Ref sig .tc := ⟨.hbm, 293, rfl⟩
abbrev main_call8_cst_0 : Ref sig .tc := ⟨.hbm, 294, rfl⟩
abbrev main_call8_v1 : Ref sig .tc := ⟨.hbm, 295, rfl⟩
abbrev main_call8_v2 : Ref sig .tc := ⟨.hbm, 296, rfl⟩
abbrev main_call8_v3 : Ref sig .tc := ⟨.hbm, 297, rfl⟩
abbrev main_call8_v4 : Ref sig .tc := ⟨.hbm, 298, rfl⟩
abbrev main_call8_v5 : Ref sig .tc := ⟨.hbm, 299, rfl⟩
abbrev main_call8_v6 : Ref sig .tc := ⟨.hbm, 300, rfl⟩
abbrev main_call8_cst_1 : Ref sig .tc := ⟨.hbm, 301, rfl⟩
abbrev main_call8_v7 : Ref sig .tc := ⟨.hbm, 302, rfl⟩
abbrev main_call8_v8 : Ref sig .tc := ⟨.hbm, 303, rfl⟩
abbrev main_call8_v9 : Ref sig .tc := ⟨.hbm, 304, rfl⟩
abbrev main_call8_v10 : Ref sig .tc := ⟨.hbm, 305, rfl⟩
abbrev main_v155 : Ref sig .tc := ⟨.hbm, 306, rfl⟩

abbrev nD : Nat := 1
abbrev τ : Topo := Topo.v7x

variable {F : FTy → Type} [FloatOps F]

class Facts₀ : Prop where
  reducesTo_S1024x784_S1024_d1 : S1024x784.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x784_0_1 : S1024x1.BroadcastsInDim S1024x784 (![0, 1] : Fin 2 → Fin S1024x784.rank)
  transposes_S1024x784_S784x1024_1_0 : S1024x784.Transposes [1, 0] S784x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S1024_d0 : S16384x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S_S16384x1024 : S_.BroadcastsInDim S16384x1024 (![] : Fin 0 → Fin S16384x1024.rank)
  reducesTo_S1024x1024_S1024_d1 : S1024x1024.ReducesTo [1] S1024
  bcast_S1024x1_S1024x1024_0_1 : S1024x1.BroadcastsInDim S1024x1024 (![0, 1] : Fin 2 → Fin S1024x1024.rank)
  transposes_S1024x1024_S1024x1024_1_0 : S1024x1024.Transposes [1, 0] S1024x1024
  reducesTo_S10x1024_S10_d1 : S10x1024.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x1024_0_1 : S10x1.BroadcastsInDim S10x1024 (![0, 1] : Fin 2 → Fin S10x1024.rank)
  transposes_S10x1024_S1024x10_1_0 : S10x1024.Transposes [1, 0] S1024x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x1024_S16384x1024_1_0_0_1_n_n_wf : DotDims.WF S16384x784 S784x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x784_S784x1024_S16384x1024_1_0_0_1_n_n : DotDims S16384x784 S784x1024 S16384x1024 where
  lhsContracting := [1]
  rhsContracting := [0]
  lhsNonContracting := [0]
  rhsNonContracting := [1]
  lhsBatch := []
  rhsBatch := []
  wf := dot_S16384x784_S784x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.BitsR0Runs.lean ====
/-
  Launch 0: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.Kernel.Launch
import proofs.«157065_j74259984548393_2_alg».proof.Proof.Gen.Kernel.Skeleton
import proofs.«157065_j74259984548393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first branch's condition: the second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch's condition: the second coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel

/-- One staging buffer per output window, through which its contents are stated. -/
abbrev VO0_3 : View sig .tc .vmem S512x1024 .f32 := (Memref.whole cc0_stg3_0 : Memref sig .tc .vmem S512x1024 .f32).view
abbrev VO0_4 : View sig .tc .vmem S1x1x1024 .f32 := (Memref.whole cc0_stg4_0 : Memref sig .tc .vmem S1x1x1024 .f32).view
abbrev VO0_5 : View sig .tc .vmem S1x1x1024 .f32 := (Memref.whole cc0_stg5_0 : Memref sig .tc .vmem S1x1x1024 .f32).view
abbrev ms0_0 (t : Fin cfg0.N) : Memref sig .tc .vmem S512x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S784x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
/-- The two running totals: whole scoped buffers of the kernel's own. -/
abbrev scM0_0 : Memref sig .tc .vmem S1x1024 .f32 := Memref.whole cc0_scratch0
abbrev scM0_1 : Memref sig .tc .vmem S1x1024 .f32 := Memref.whole cc0_scratch1
abbrev VS0_0 : View sig .tc .vmem S1x1024 .f32 := scM0_0.view
abbrev VS0_1 : View sig .tc .vmem S1x1024 .f32 := scM0_1.view

/-- The launch's invariant with the two running totals split out, each owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.BitsR0Run.lean ====
/-
  Launch 0, the three cases (A first, then B and C): the body run whole on any staging memrefs — the first point of a half: the running totals are cleared, then the block's column sums added.
  The pieces each buffer ends with are found by the run itself.
-/
import proofs.«157065_j74259984548393_2_alg».proof.Proof.BitsR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__matmul_stats_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
noncomputable def kernelRun0_B (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__matmul_stats_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
noncomputable def kernelRun0_C (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__matmul_stats_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.BitsR0Frame.lean ====
/-
  Launch 0: what every buffer holds after each grid point, the launch's proof data, and the obligation the launch
  asks of the body at every point. The running totals are carried from point to point within a half of the grid: the
  contents after a point are the case's pieces read back, over what the point before left.
-/
import proofs.«157065_j74259984548393_2_alg».proof.Proof.BitsR0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk0_4 : Vec F S1x1x1024 .f32 := VO0_4.read (Elt F) (VO0_4.writes (Elt F) VO0_4.junk [])
def junk0_5 : Vec F S1x1x1024 .f32 := VO0_5.read (Elt F) (VO0_5.writes (Elt F) VO0_5.junk [])

/-! ### Case A -/
theorem cover0_A_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) (y : S512x1024.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S512x1024.size (by sl_kernel_rfl) y
def out0_A_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) : Vec F S512x1024 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)
theorem scover0_A_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1x1024.size (by sl_kernel_rfl) y
def sout0_A_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)
theorem scover0_A_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1x1024.size (by sl_kernel_rfl) y
def sout0_A_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)

/-! ### Case B -/
theorem cover0_B_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) (y : S512x1024.Idx) :
    ∃ pc ∈ (kernelRun0_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).1 S512x1024.size (by sl_kernel_rfl) y
def out0_B_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) : Vec F S512x1024 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)
theorem scover0_B_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S1x1024.size (by sl_kernel_rfl) y
def sout0_B_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.1)
theorem scover0_B_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S1x1024.size (by sl_kernel_rfl) y
def sout0_B_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.1)

/-! ### Case C -/
theorem cover0_C_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).1 S512x1024.size (by sl_kernel_rfl) y
def out0_C_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S512x1024 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1).1)
theorem scover0_C_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.1 S1x1024.size (by sl_kernel_rfl) y
def sout0_C_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1).2.2.2.1)
theorem scover0_C_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.2.1 S1x1024.size (by sl_kernel_rfl) y
def sout0_C_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1).2.2.2.2.1)
theorem cover0_C_4 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1x1024.Idx) :
    ∃ pc ∈ (kernelRun0_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.1 S1x1x1024.size (by sl_kernel_rfl) y
def out0_C_4 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1x1024 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1).2.1)
theorem cover0_C_5 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.1 S1x1x1024.size (by sl_kernel_rfl) y
def out0_C_5 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1x1024 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 xs0 xs1).2.2.1)

/-! ## What the buffers hold after each point -/

/-- After the body at position `n`: the three outputs' staging buffers, then the two running totals. -/
def outsAt0 (c : Dev nD) : (n : ℕ) → n < cfg0.N → Vec F S512x1024 .f32 × Vec F S1x1x1024 .f32 × Vec F S1x1x1024 .f32 × Vec F S1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), junk0_4, junk0_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), junk0_4, junk0_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, junk0_4, junk0_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 16 = 0) (h1 : ¬t.val % 16 = 15) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), junk0_4, junk0_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, junk0_4, junk0_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The launch's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation on the body, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · by_cases h1 : t.val % 16 = 15
    · exfalso; omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [outsAt0_A V c t h0 h1]
    unfold out0_A_3 sout0_A_0 sout0_A_1; (try dsimp only)
    by_cases hz : t.val = 0
    · rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]; · iexists _; iexact H4
      iexists _; iexact H5
    · rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexists _; iexact HS0
      isplitl [HS1]; · iexists _; iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]; · iexists _; iexact H4
      iexists _; iexact H5
  · have hz : t.val ≠ 0 := fun hz => h0 (by rw [hz])
    by_cases h1 : t.val % 16 = 15
    · rw [show (dat0 V c).leavesExact 4 t = owns (c : Thread nD τ) (ms0_4 t) fullShare ((dat0 V c).after 4 t) from by
        unfold Dat.leavesExact; rw [liveAt0_4_C t ((hcond0_1 t).mpr h1)], after0_4]
      rw [show (dat0 V c).leavesExact 5 t = owns (c : Thread nD τ) (ms0_5 t) fullShare ((dat0 V c).after 5 t) from by
        unfold Dat.leavesExact; rw [liveAt0_5_C t ((hcond0_1 t).mpr h1)], after0_5]
      rw [outsAt0_C V c t h0 h1]
      unfold out0_C_3 out0_C_4 out0_C_5 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 (F := F) V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 (F := F) V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 (F := F) V c).Φ (Fin.last cfg0.N) ⊢ Pipeline.ΦA spec0 c :=
  Phi_out0 V c _ (by rw [Fin.val_last]; have : cfg0.N = 32 := N_0; omega)

end Cert.Kernel.Hand

end
-- ==== Proof.BitsR1Runs.lean ====
/-
  Launch 1: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.Kernel.Launch
import proofs.«157065_j74259984548393_2_alg».proof.Proof.Gen.Kernel.Skeleton
import proofs.«157065_j74259984548393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The first branch's condition: the second coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition: the second coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8_C : ∀ t : Fin cfg1.N, cond1_1 (grid1.coords t) → cfg1.idle 8 (grid1.coords t) = false := by decide +kernel
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9_C : ∀ t : Fin cfg1.N, cond1_1 (grid1.coords t) → cfg1.idle 9 (grid1.coords t) = false := by decide +kernel

/-- One staging buffer per output window, through which its contents are stated. -/
abbrev VO1_7 : View sig .tc .vmem S512x1024 .f32 := (Memref.whole cc1_stg7_0 : Memref sig .tc .vmem S512x1024 .f32).view
abbrev VO1_8 : View sig .tc .vmem S1x1x1024 .f32 := (Memref.whole cc1_stg8_0 : Memref sig .tc .vmem S1x1x1024 .f32).view
abbrev VO1_9 : View sig .tc .vmem S1x1x1024 .f32 := (Memref.whole cc1_stg9_0 : Memref sig .tc .vmem S1x1x1024 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1x1024 .f32 := win1_9.stage (cfg1.slots t 9)
abbrev hs1_9 (t : Fin cfg1.N) : (ms1_9 t).IsWhole := hstage1_9 ((cfg1.slots t 9).cast nbuf1_9)
/-- The two running totals: whole scoped buffers of the kernel's own. -/
abbrev scM1_0 : Memref sig .tc .vmem S1x1024 .f32 := Memref.whole cc1_scratch0
abbrev scM1_1 : Memref sig .tc .vmem S1x1024 .f32 := Memref.whole cc1_scratch1
abbrev VS1_0 : View sig .tc .vmem S1x1024 .f32 := scM1_0.view
abbrev VS1_1 : View sig .tc .vmem S1x1024 .f32 := scM1_1.view

/-- The launch's invariant with the two running totals split out, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.BitsR1Run.lean ====
/-
  Launch 1, the three cases (A first, then B and C): the body run whole on any staging memrefs — the first point of a half: the running totals are cleared, then the block's column sums added.
  The pieces each buffer ends with are found by the run itself.
-/
import proofs.«157065_j74259984548393_2_alg».proof.Proof.BitsR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc1__bn_matmul_stats_kernel_eq_skeleton]; unfold cc1__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun1_B (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc1__bn_matmul_stats_kernel_eq_skeleton]; unfold cc1__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun1_C (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1__bn_matmul_stats_kernel_eq_skeleton]; unfold cc1__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]; · iexists _; iexact HO4
    isplitl [HO5]; · iexists _; iexact HO5
    isplitl [HS0]; · iexists _; iexact HS0
    iexists _; iexact HS1

end Cert.Kernel.Hand

end
-- ==== Proof.BitsR1Frame.lean ====
/-
  Launch 1: what every buffer holds after each grid point, the launch's proof data, and the obligation the launch
  asks of the body at every point. The running totals are carried from point to point within a half of the grid: the
  contents after a point are the case's pieces read back, over what the point before left.
-/
import proofs.«157065_j74259984548393_2_alg».proof.Proof.BitsR1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk1_8 : Vec F S1x1x1024 .f32 := VO1_8.read (Elt F) (VO1_8.writes (Elt F) VO1_8.junk [])
def junk1_9 : Vec F S1x1x1024 .f32 := VO1_9.read (Elt F) (VO1_9.writes (Elt F) VO1_9.junk [])

/-! ### Case A -/
theorem cover1_A_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1024.size (by sl_kernel_rfl) y
def out1_A_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S512x1024 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
theorem scover1_A_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1x1024.size (by sl_kernel_rfl) y
def sout1_A_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scover1_A_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1x1024.size (by sl_kernel_rfl) y
def sout1_A_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-! ### Case B -/
theorem cover1_B_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out1_B_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover1_B_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1024.size (by sl_kernel_rfl) y
def sout1_B_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem scover1_B_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1024.size (by sl_kernel_rfl) y
def sout1_B_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ### Case C -/
theorem cover1_C_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out1_C_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover1_C_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1 S1x1024.size (by sl_kernel_rfl) y
def sout1_C_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1)
theorem scover1_C_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1 S1x1024.size (by sl_kernel_rfl) y
def sout1_C_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1)
theorem cover1_C_8 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1x1024.size (by sl_kernel_rfl) y
def out1_C_8 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem cover1_C_9 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1x1024.size (by sl_kernel_rfl) y
def out1_C_9 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ## What the buffers hold after each point -/

/-- After the body at position `n`: the three outputs' staging buffers, then the two running totals. -/
def outsAt1 (c : Dev nD) : (n : ℕ) → n < cfg1.N → Vec F S512x1024 .f32 × Vec F S1x1x1024 .f32 × Vec F S1x1x1024 .f32 × Vec F S1x1024 .f32 × Vec F S1x1024 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), junk1_8, junk1_9, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), junk1_8, junk1_9, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, junk1_8, junk1_9, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2)

theorem outsAt1_A (c : Dev nD) (t : Fin cfg1.N) (h0 : t.val % 16 = 0) (h1 : ¬t.val % 16 = 15) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), junk1_8, junk1_9, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, junk1_8, junk1_9, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The obligation on the body, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 16 = 0
  · by_cases h1 : t.val % 16 = 15
    · exfalso; omega
    rw [Dat.leavesExact_idle (dat1 V c) 8 t (idleAt1_8 t (fun h => h1 ((hcond1_1 t).mp h))) (noFlush1_8 t (fun h => h1 ((hcond1_1 t).mp h)))]
    rw [Dat.leavesExact_idle (dat1 V c) 9 t (idleAt1_9 t (fun h => h1 ((hcond1_1 t).mp h))) (noFlush1_9 t (fun h => h1 ((hcond1_1 t).mp h)))]
    rw [outsAt1_A V c t h0 h1]
    unfold out1_A_7 sout1_A_0 sout1_A_1; (try dsimp only)
    by_cases hz : t.val = 0
    · rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _ _ _ _ _)
      isplitl [H8]; · iexists _; iexact H8
      iexists _; iexact H9
    · rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _ _ _ _ _)
      isplitl [H8]; · iexists _; iexact H8
      iexists _; iexact H9
  · have hz : t.val ≠ 0 := fun hz => h0 (by rw [hz])
    by_cases h1 : t.val % 16 = 15
    · rw [show (dat1 V c).leavesExact 8 t = owns (c : Thread nD τ) (ms1_8 t) fullShare ((dat1 V c).after 8 t) from by
        unfold Dat.leavesExact; rw [liveAt1_8_C t ((hcond1_1 t).mpr h1)], after1_8]
      rw [show (dat1 V c).leavesExact 9 t = owns (c : Thread nD τ) (ms1_9 t) fullShare ((dat1 V c).after 9 t) from by
        unfold Dat.leavesExact; rw [liveAt1_9_C t ((hcond1_1 t).mpr h1)], after1_9]
      rw [outsAt1_C V c t h0 h1]
      unfold out1_C_7 out1_C_8 out1_C_9 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e3, H7⟩, ⟨%e4, H8⟩, ⟨%e5, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [Dat.leavesExact_idle (dat1 V c) 9 t (idleAt1_9 t (fun h => h1 ((hcond1_1 t).mp h))) (noFlush1_9 t (fun h => h1 ((hcond1_1 t).mp h)))]
      rw [outsAt1_B V c t h0 h1]
      unfold out1_B_7 sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _ _ _ _ _ _)
      isplitl [H8]; · iexists _; iexact H8
      iexists _; iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 (F := F) V c).Φ (Fin.last cfg1.N) ⊢ Pipeline.ΦA spec1 c :=
  Phi_out1 V c _ (by rw [Fin.val_last]; have : cfg1.N = 32 := N_1; omega)

end Cert.Kernel.Hand

end
-- ==== Proof.BitsR2Runs.lean ====
/-
  Launch 2: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.Kernel.Launch
import proofs.«157065_j74259984548393_2_alg».proof.Proof.Gen.Kernel.Skeleton
import proofs.«157065_j74259984548393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The first branch's condition: the second coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The second branch's condition: the second coordinate is 15. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8_C : ∀ t : Fin cfg2.N, cond2_1 (grid2.coords t) → cfg2.idle 8 (grid2.coords t) = false := by decide +kernel
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
theorem liveAt2_9_C : ∀ t : Fin cfg2.N, cond2_1 (grid2.coords t) → cfg2.idle 9 (grid2.coords t) = false := by decide +kernel

/-- One staging buffer per output window, through which its contents are stated. -/
abbrev VO2_7 : View sig .tc .vmem S512x1024 .f32 := (Memref.whole cc2_stg7_0 : Memref sig .tc .vmem S512x1024 .f32).view
abbrev VO2_8 : View sig .tc .vmem S1x1x1024 .f32 := (Memref.whole cc2_stg8_0 : Memref sig .tc .vmem S1x1x1024 .f32).view
abbrev VO2_9 : View sig .tc .vmem S1x1x1024 .f32 := (Memref.whole cc2_stg9_0 : Memref sig .tc .vmem S1x1x1024 .f32).view
abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x1x1024 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1x1024 .f32 := win2_9.stage (cfg2.slots t 9)
abbrev hs2_9 (t : Fin cfg2.N) : (ms2_9 t).IsWhole := hstage2_9 ((cfg2.slots t 9).cast nbuf2_9)
/-- The two running totals: whole scoped buffers of the kernel's own. -/
abbrev scM2_0 : Memref sig .tc .vmem S1x1024 .f32 := Memref.whole cc2_scratch0
abbrev scM2_1 : Memref sig .tc .vmem S1x1024 .f32 := Memref.whole cc2_scratch1
abbrev VS2_0 : View sig .tc .vmem S1x1024 .f32 := scM2_0.view
abbrev VS2_1 : View sig .tc .vmem S1x1024 .f32 := scM2_1.view

/-- The launch's invariant with the two running totals split out, each owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.BitsR2Run.lean ====
/-
  Launch 2, the three cases (A first, then B and C): the body run whole on any staging memrefs — the first point of a half: the running totals are cleared, then the block's column sums added.
  The pieces each buffer ends with are found by the run itself.
-/
import proofs.«157065_j74259984548393_2_alg».proof.Proof.BitsR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc2__bn_matmul_stats_kernel_eq_skeleton]; unfold cc2__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun2_B (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc2__bn_matmul_stats_kernel_eq_skeleton]; unfold cc2__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun2_C (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc2__bn_matmul_stats_kernel_eq_skeleton]; unfold cc2__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]; · iexists _; iexact HO4
    isplitl [HO5]; · iexists _; iexact HO5
    isplitl [HS0]; · iexists _; iexact HS0
    iexists _; iexact HS1

end Cert.Kernel.Hand

end
-- ==== Proof.BitsR2Frame.lean ====
/-
  Launch 2: what every buffer holds after each grid point, the launch's proof data, and the obligation the launch
  asks of the body at every point. The running totals are carried from point to point within a half of the grid: the
  contents after a point are the case's pieces read back, over what the point before left.
-/
import proofs.«157065_j74259984548393_2_alg».proof.Proof.BitsR2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk2_8 : Vec F S1x1x1024 .f32 := VO2_8.read (Elt F) (VO2_8.writes (Elt F) VO2_8.junk [])
def junk2_9 : Vec F S1x1x1024 .f32 := VO2_9.read (Elt F) (VO2_9.writes (Elt F) VO2_9.junk [])

/-! ### Case A -/
theorem cover2_A_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S512x1024.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1024.size (by sl_kernel_rfl) y
def out2_A_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S512x1024 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
theorem scover2_A_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1x1024.size (by sl_kernel_rfl) y
def sout2_A_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scover2_A_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1x1024.size (by sl_kernel_rfl) y
def sout2_A_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-! ### Case B -/
theorem cover2_B_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out2_B_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover2_B_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1024.size (by sl_kernel_rfl) y
def sout2_B_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem scover2_B_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1024.size (by sl_kernel_rfl) y
def sout2_B_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ### Case C -/
theorem cover2_C_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out2_C_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover2_C_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1 S1x1024.size (by sl_kernel_rfl) y
def sout2_C_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1)
theorem scover2_C_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1 S1x1024.size (by sl_kernel_rfl) y
def sout2_C_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1)
theorem cover2_C_8 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1x1024.size (by sl_kernel_rfl) y
def out2_C_8 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem cover2_C_9 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1x1024.size (by sl_kernel_rfl) y
def out2_C_9 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ## What the buffers hold after each point -/

/-- After the body at position `n`: the three outputs' staging buffers, then the two running totals. -/
def outsAt2 (c : Dev nD) : (n : ℕ) → n < cfg2.N → Vec F S512x1024 .f32 × Vec F S1x1x1024 .f32 × Vec F S1x1x1024 .f32 × Vec F S1x1024 .f32 × Vec F S1x1024 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), junk2_8, junk2_9, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 16 = 0 then
      if h1 : (n + 1) % 16 = 15 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), junk2_8, junk2_9, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 16 = 15 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, junk2_8, junk2_9, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 16 = 0) (h1 : ¬t.val % 16 = 15) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), junk2_8, junk2_9, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, junk2_8, junk2_9, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The launch's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The obligation on the body, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  by_cases h0 : t.val % 16 = 0
  · by_cases h1 : t.val % 16 = 15
    · exfalso; omega
    rw [Dat.leavesExact_idle (dat2 V c) 8 t (idleAt2_8 t (fun h => h1 ((hcond2_1 t).mp h))) (noFlush2_8 t (fun h => h1 ((hcond2_1 t).mp h)))]
    rw [Dat.leavesExact_idle (dat2 V c) 9 t (idleAt2_9 t (fun h => h1 ((hcond2_1 t).mp h))) (noFlush2_9 t (fun h => h1 ((hcond2_1 t).mp h)))]
    rw [outsAt2_A V c t h0 h1]
    unfold out2_A_7 sout2_A_0 sout2_A_1; (try dsimp only)
    by_cases hz : t.val = 0
    · rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_A_7 c _ _ _ _ _ _ _ _ _ _ _ _ _ _ _ _ _ _ _ _ _ _ _ _ _ _ _ _ _ _ _ _ _ _)
      isplitl [H8]; · iexists _; iexact H8
      iexists _; iexact H9
    · rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_A_7 c _ _ _ _ _ _ _ _ _ _ _ _ _ _ _ _ _ _ _ _ _ _ _ _ _ _ _ _ _ _ _ _ _ _)
      isplitl [H8]; · iexists _; iexact H8
      iexists _; iexact H9
  · have hz : t.val ≠ 0 := fun hz => h0 (by rw [hz])
    by_cases h1 : t.val % 16 = 15
    · rw [show (dat2 V c).leavesExact 8 t = owns (c : Thread nD τ) (ms2_8 t) fullShare ((dat2 V c).after 8 t) from by
        unfold Dat.leavesExact; rw [liveAt2_8_C t ((hcond2_1 t).mpr h1)], after2_8]
      rw [show (dat2 V c).leavesExact 9 t = owns (c : Thread nD τ) (ms2_9 t) fullShare ((dat2 V c).after 9 t) from by
        unfold Dat.leavesExact; rw [liveAt2_9_C t ((hcond2_1 t).mpr h1)], after2_9]
      rw [outsAt2_C V c t h0 h1]
      unfold out2_C_7 out2_C_8 out2_C_9 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e3, H7⟩, ⟨%e4, H8⟩, ⟨%e5, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover2_C_9 c _ _ _ _ _ _ _ _ _ _ _ _ _ _ _ _ _ _ _ _ _ _ _ _ _ _ _ _ _ _ _ _ _ _ _ _)
    · rw [Dat.leavesExact_idle (dat2 V c) 8 t (idleAt2_8 t (fun h => h1 ((hcond2_1 t).mp h))) (noFlush2_8 t (fun h => h1 ((hcond2_1 t).mp h)))]
      rw [Dat.leavesExact_idle (dat2 V c) 9 t (idleAt2_9 t (fun h => h1 ((hcond2_1 t).mp h))) (noFlush2_9 t (fun h => h1 ((hcond2_1 t).mp h)))]
      rw [outsAt2_B V c t h0 h1]
      unfold out2_B_7 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_B_7 c _ _ _ _ _ _ _ _ _ _ _ _ _ _ _ _ _ _ _ _ _ _ _ _ _ _ _ _ _ _ _ _ _ _ _ _)
      isplitl [H8]; · iexists _; iexact H8
      iexists _; iexact H9

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 (F := F) V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 (F := F) V c).Φ (Fin.last cfg2.N) ⊢ Pipeline.ΦA spec2 c :=
  Phi_out2 V c _ (by rw [Fin.val_last]; have : cfg2.N = 32 := N_2; omega)

end Cert.Kernel.Hand

end
-- ==== Proof.BitsR3Runs.lean ====
/-
  Launch 3: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.Kernel.Launch
import proofs.«157065_j74259984548393_2_alg».proof.Proof.Gen.Kernel.Skeleton
import proofs.«157065_j74259984548393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The first branch's condition: the second coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
/-- The second branch's condition: the second coordinate is 15. -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem idleAt3_8 : ∀ t : Fin cfg3.N, ¬cond3_1 (grid3.coords t) → cfg3.idle 8 (grid3.coords t) = true := by decide +kernel
theorem noFlush3_8 : ∀ t : Fin cfg3.N, ¬cond3_1 (grid3.coords t) → (cfg3.win 8).flush t = false := by decide +kernel
theorem liveAt3_8_C : ∀ t : Fin cfg3.N, cond3_1 (grid3.coords t) → cfg3.idle 8 (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9_C : ∀ t : Fin cfg3.N, cond3_1 (grid3.coords t) → cfg3.idle 9 (grid3.coords t) = false := by decide +kernel

/-- One staging buffer per output window, through which its contents are stated. -/
abbrev VO3_7 : View sig .tc .vmem S512x1024 .f32 := (Memref.whole cc3_stg7_0 : Memref sig .tc .vmem S512x1024 .f32).view
abbrev VO3_8 : View sig .tc .vmem S1x1x1024 .f32 := (Memref.whole cc3_stg8_0 : Memref sig .tc .vmem S1x1x1024 .f32).view
abbrev VO3_9 : View sig .tc .vmem S1x1x1024 .f32 := (Memref.whole cc3_stg9_0 : Memref sig .tc .vmem S1x1x1024 .f32).view
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x1024 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x1x1024 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1x1024 .f32 := win3_9.stage (cfg3.slots t 9)
abbrev hs3_9 (t : Fin cfg3.N) : (ms3_9 t).IsWhole := hstage3_9 ((cfg3.slots t 9).cast nbuf3_9)
/-- The two running totals: whole scoped buffers of the kernel's own. -/
abbrev scM3_0 : Memref sig .tc .vmem S1x1024 .f32 := Memref.whole cc3_scratch0
abbrev scM3_1 : Memref sig .tc .vmem S1x1024 .f32 := Memref.whole cc3_scratch1
abbrev VS3_0 : View sig .tc .vmem S1x1024 .f32 := scM3_0.view
abbrev VS3_1 : View sig .tc .vmem S1x1024 .f32 := scM3_1.view

/-- The launch's invariant with the two running totals split out, each owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.BitsR3Run.lean ====
/-
  Launch 3, the three cases (A first, then B and C): the body run whole on any staging memrefs — the first point of a half: the running totals are cleared, then the block's column sums added.
  The pieces each buffer ends with are found by the run itself.
-/
import proofs.«157065_j74259984548393_2_alg».proof.Proof.BitsR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc3__bn_matmul_stats_kernel_eq_skeleton]; unfold cc3__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun3_B (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc3__bn_matmul_stats_kernel_eq_skeleton]; unfold cc3__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun3_C (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc3__bn_matmul_stats_kernel_eq_skeleton]; unfold cc3__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]; · iexists _; iexact HO4
    isplitl [HO5]; · iexists _; iexact HO5
    isplitl [HS0]; · iexists _; iexact HS0
    iexists _; iexact HS1

end Cert.Kernel.Hand

end
-- ==== Proof.BitsR3Frame.lean ====
/-
  Launch 3: what every buffer holds after each grid point, the launch's proof data, and the obligation the launch
  asks of the body at every point. The running totals are carried from point to point within a half of the grid: the
  contents after a point are the case's pieces read back, over what the point before left.
-/
import proofs.«157065_j74259984548393_2_alg».proof.Proof.BitsR3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk3_8 : Vec F S1x1x1024 .f32 := VO3_8.read (Elt F) (VO3_8.writes (Elt F) VO3_8.junk [])
def junk3_9 : Vec F S1x1x1024 .f32 := VO3_9.read (Elt F) (VO3_9.writes (Elt F) VO3_9.junk [])

/-! ### Case A -/
theorem cover3_A_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S512x1024.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1024.size (by sl_kernel_rfl) y
def out3_A_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S512x1024 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
theorem scover3_A_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1x1024.size (by sl_kernel_rfl) y
def sout3_A_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scover3_A_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1x1024.size (by sl_kernel_rfl) y
def sout3_A_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-! ### Case B -/
theorem cover3_B_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out3_B_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover3_B_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1024.size (by sl_kernel_rfl) y
def sout3_B_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem scover3_B_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1024.size (by sl_kernel_rfl) y
def sout3_B_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ### Case C -/
theorem cover3_C_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out3_C_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover3_C_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1 S1x1024.size (by sl_kernel_rfl) y
def sout3_C_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1)
theorem scover3_C_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1 S1x1024.size (by sl_kernel_rfl) y
def sout3_C_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1)
theorem cover3_C_8 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1x1024.size (by sl_kernel_rfl) y
def out3_C_8 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO3_8.read (Elt F) (VO3_8.writes (Elt F) VO3_8.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem cover3_C_9 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1x1024.size (by sl_kernel_rfl) y
def out3_C_9 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO3_9.read (Elt F) (VO3_9.writes (Elt F) VO3_9.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ## What the buffers hold after each point -/

/-- After the body at position `n`: the three outputs' staging buffers, then the two running totals. -/
def outsAt3 (c : Dev nD) : (n : ℕ) → n < cfg3.N → Vec F S512x1024 .f32 × Vec F S1x1x1024 .f32 × Vec F S1x1x1024 .f32 × Vec F S1x1024 .f32 × Vec F S1x1024 .f32
  | 0, hn => (out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩), junk3_8, junk3_9, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩))
  | n + 1, hn =>
    if h0 : (n + 1) % 16 = 0 then
      if h1 : (n + 1) % 16 = 15 then
        False.elim (by omega)
      else
        (out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩), junk3_8, junk3_9, sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩))
    else
      if h1 : (n + 1) % 16 = 15 then
        (out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2)
      else
        (out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, junk3_8, junk3_9, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2)

theorem outsAt3_A (c : Dev nD) (t : Fin cfg3.N) (h0 : t.val % 16 = 0) (h1 : ¬t.val % 16 = 15) :
    outsAt3 V c t.val t.isLt = (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t), junk3_8, junk3_9, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, junk3_8, junk3_9, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The launch's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
    | ⟨8, _⟩ => (outsAt3 V c t.val t.isLt).2.1
    | ⟨9, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]
theorem after3_8 (c : Dev nD) (t : Fin cfg3.N) : (dat3 V c).after 8 t = (outsAt3 V c t.val t.isLt).2.1 := by dsimp only [dat3]
theorem after3_9 (c : Dev nD) (t : Fin cfg3.N) : (dat3 V c).after 9 t = (outsAt3 V c t.val t.isLt).2.2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The obligation on the body, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  rw [show (dat3 V c).leavesExact 7 t = owns (c : Thread nD τ) (ms3_7 t) fullShare ((dat3 V c).after 7 t) from by
    unfold Dat.leavesExact; rw [liveAt3_7 t], after3_7]
  by_cases h0 : t.val % 16 = 0
  · by_cases h1 : t.val % 16 = 15
    · exfalso; omega
    rw [Dat.leavesExact_idle (dat3 V c) 8 t (idleAt3_8 t (fun h => h1 ((hcond3_1 t).mp h))) (noFlush3_8 t (fun h => h1 ((hcond3_1 t).mp h)))]
    rw [Dat.leavesExact_idle (dat3 V c) 9 t (idleAt3_9 t (fun h => h1 ((hcond3_1 t).mp h))) (noFlush3_9 t (fun h => h1 ((hcond3_1 t).mp h)))]
    rw [outsAt3_A V c t h0 h1]
    unfold out3_A_7 sout3_A_0 sout3_A_1; (try dsimp only)
    by_cases hz : t.val = 0
    · rw [PhiS3_castSucc V c t, PhiS3_zero V c _ _ hz, PhiA3_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_A c (grid3.coords t) _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_A_7 c _ _ _ _ _ _ _ _ _ _ _ _ _ _ _ _ _ _ _ _ _ _ _ _ _ _ _ _ _ _ _ _ _ _)
      isplitl [H8]; · iexists _; iexact H8
      iexists _; iexact H9
    · rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_A c (grid3.coords t) _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_A_7 c _ _ _ _ _ _ _ _ _ _ _ _ _ _ _ _ _ _ _ _ _ _ _ _ _ _ _ _ _ _ _ _ _ _)
      isplitl [H8]; · iexists _; iexact H8
      iexists _; iexact H9
  · have hz : t.val ≠ 0 := fun hz => h0 (by rw [hz])
    by_cases h1 : t.val % 16 = 15
    · rw [show (dat3 V c).leavesExact 8 t = owns (c : Thread nD τ) (ms3_8 t) fullShare ((dat3 V c).after 8 t) from by
        unfold Dat.leavesExact; rw [liveAt3_8_C t ((hcond3_1 t).mpr h1)], after3_8]
      rw [show (dat3 V c).leavesExact 9 t = owns (c : Thread nD τ) (ms3_9 t) fullShare ((dat3 V c).after 9 t) from by
        unfold Dat.leavesExact; rw [liveAt3_9_C t ((hcond3_1 t).mpr h1)], after3_9]
      rw [outsAt3_C V c t h0 h1]
      unfold out3_C_7 out3_C_8 out3_C_9 sout3_C_0 sout3_C_1; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_C c (grid3.coords t) _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e3, H7⟩, ⟨%e4, H8⟩, ⟨%e5, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_C_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover3_C_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover3_C_9 c _ _ _ _ _ _ _ _ _ _ _ _ _ _ _ _ _ _ _ _ _ _ _ _ _ _ _ _ _ _ _ _ _ _ _ _)
    · rw [Dat.leavesExact_idle (dat3 V c) 8 t (idleAt3_8 t (fun h => h1 ((hcond3_1 t).mp h))) (noFlush3_8 t (fun h => h1 ((hcond3_1 t).mp h)))]
      rw [Dat.leavesExact_idle (dat3 V c) 9 t (idleAt3_9 t (fun h => h1 ((hcond3_1 t).mp h))) (noFlush3_9 t (fun h => h1 ((hcond3_1 t).mp h)))]
      rw [outsAt3_B V c t h0 h1]
      unfold out3_B_7 sout3_B_0 sout3_B_1; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_B c (grid3.coords t) _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_B_7 c _ _ _ _ _ _ _ _ _ _ _ _ _ _ _ _ _ _ _ _ _ _ _ _ _ _ _ _ _ _ _ _ _ _ _ _)
      isplitl [H8]; · iexists _; iexact H8
      iexists _; iexact H9

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 (F := F) V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 (F := F) V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout3 (c : Dev nD) : (dat3 (F := F) V c).Φ (Fin.last cfg3.N) ⊢ Pipeline.ΦA spec3 c :=
  Phi_out3 V c _ (by rw [Fin.val_last]; have : cfg3.N = 32 := N_3; omega)

end Cert.Kernel.Hand

end
-- ==== Proof.BitsRegion4.lean ====
/-
  The last layer's launch: at each of the 32 grid points a block of 512 rows of the fourth
  pre-activation is normalised, rectified and multiplied into the (padded) weights, plus the bias.
  What the output block holds after the body, the body's triple, the launch's proof data and the
  obligation the launch asks of the body at every point.
-/
import proofs.«157065_j74259984548393_2_alg».proof.Proof.Gen.Kernel.Launch
import proofs.«157065_j74259984548393_2_alg».proof.Proof.Gen.Kernel.Skeleton
import proofs.«157065_j74259984548393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's staging buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

abbrev r4_A : Rect S512x1024 := Rect.unit (s := S512x1024) ![0, 0] S512x1024.size inb_S512x1024_S512x1024_0_0
abbrev r4_V : Rect S1x1024 := Rect.unit (s := S1x1024) ![0, 0] S1x1024.size inb_S1x1024_S1x1024_0_0
abbrev r4_W : Rect S1024x128 := Rect.unit (s := S1024x128) ![0, 0] S1024x128.size inb_S1024x128_S1024x128_0_0
abbrev r4_B : Rect S1x128 := Rect.unit (s := S1x128) ![0, 0] S1x128.size inb_S1x128_S1x128_0_0
abbrev r4_O : Rect S512x128 := Rect.unit (s := S512x128) ![0, 0] S512x128.size inb_S512x128_S512x128_0_0

/-- The output block after the body, from the seven input blocks (activation, mean, inverse deviation, scale, shift,
    weights, bias): its one store. -/
def out4_7 (x0 : Vec F S512x1024 .f32) (x1 x2 x3 x4 : Vec F S1x1024 .f32) (x5 : Vec F S1024x128 .bf16) (x6 : Vec F S1x128 .f32) : Vec F S512x128 .f32 :=
  View.canon [⟨r4_O, k4_pay1 (View.ld x0 r4_A) (View.ld x3 r4_V) (View.ld x1 r4_V) (View.ld x2 r4_V) (View.ld x4 r4_V) (View.ld x5 r4_W) (View.ld x6 r4_B)⟩]

/-- The store covers the block. -/
theorem cover4_7 (p0 : Vec F S512x128 .f32) (y : S512x128.Idx) :
    ∃ pc ∈ ([⟨r4_O, p0⟩] : List (View.Piece (Elt F) S512x128 .f32)), y ∈ pc.1.set :=
  View.cover_of_tiled [⟨r4_O, p0⟩] S512x128.size (by rfl) y

set_option maxHeartbeats 1000000 in
/-- The body on whole staging memrefs: the inputs kept, the output at `out4_7` of them. -/
theorem sound_kernel4 (c : Dev nD) (E : Set ℕ) (i : grid4.Coords)
    (arg1 : Memref sig .tc .vmem S512x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S512x128 .f32) (harg8 : arg8.IsWhole)
    (x0 : Vec F S512x1024 .f32) (x1 x2 x3 x4 : Vec F S1x1024 .f32) (x5 : Vec F S1024x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__bn_matmul_bias_kernel i arg1 harg1 arg2 harg2 arg3 harg3 arg4 harg4 arg5 harg5 arg6 harg6 arg7 harg7 arg8 harg8) K := by
  simp only [cc4__bn_matmul_bias_kernel_eq_skeleton]; unfold cc4__bn_matmul_bias_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The launch's proof data -/

/-- The proof data on core `c`: the arrays as the region finds them; after the body at point `t` each input's buffer
    at its block and the output's at `out4_7` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's obligation on the body, at every point. -/
theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 (F := F) V c).Φ 0 := Idealize.SL.BI.Entails.refl _
theorem hout4 (c : Dev nD) : (dat4 (F := F) V c).Φ (Fin.last cfg4.N) ⊢ Pipeline.ΦA spec4 c := Idealize.SL.BI.Entails.refl _

end Cert.Kernel.Hand

end
-- ==== Proof.BitsKFold.lean ====
/-
  The buffer contents between the sixteen items of the program: a fold from the launch memory
  through the host stretches (each operation's result written over the contents before it) and
  the five launches (each launch's arrays at what its write-backs leave, every other buffer as
  before). The nineteen argument arrays are written by no item, so the fold read at an argument
  walks back to the launch memory.
-/
import proofs.«157065_j74259984548393_2_alg».proof.Proof.BitsR0Frame
import proofs.«157065_j74259984548393_2_alg».proof.Proof.BitsR1Frame
import proofs.«157065_j74259984548393_2_alg».proof.Proof.BitsR2Frame
import proofs.«157065_j74259984548393_2_alg».proof.Proof.BitsR3Frame
import proofs.«157065_j74259984548393_2_alg».proof.Proof.BitsRegion4
import proofs.«157065_j74259984548393_2_alg».proof.Proof.Gen.Kernel.Regions
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After the host stretch `hostOps0`. -/
abbrev W1 : Dev nD → Valuation τ sig (Elt F) := fun c => StableHlo.after hostOps0 (W0 m ρ c)
/-- A reference the stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
/-- A reference the stretch does not write keeps its contents. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
/-- A reference the stretch does not write keeps its contents. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- After the host stretch `hostOps0_3`. -/
abbrev W4 : Dev nD → Valuation τ sig (Elt F) := fun c => StableHlo.after hostOps0_3 (W3 m ρ c)
/-- A reference the stretch does not write keeps its contents. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h

/-- After the host stretch `hostOps0_4`. -/
abbrev W5 : Dev nD → Valuation τ sig (Elt F) := fun c => StableHlo.after hostOps0_4 (W4 m ρ c)
/-- A reference the stretch does not write keeps its contents. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
/-- The same read at the TensorCore's references: launch 0's entry contents. -/
abbrev V5 : (c : Dev nD) → (b : Ref sig .tc) → Buf (Elt F) ((c : Thread nD τ).loc b) := fun c b => W5 m ρ c b

/-- At launch 0's exit: its arrays at what the pipeline leaves (the inputs as entered, each output's
    write-backs folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references: launch 0's exit contents. -/
abbrev V6 : (c : Dev nD) → (b : Ref sig .tc) → Buf (Elt F) ((c : Thread nD τ).loc b) := fun c b => W6 m ρ c b
/-- At launch 0's exit each of its arrays holds what the pipeline leaves, and every other buffer what it held
    at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host stretch `hostOps1`. -/
abbrev W7 : Dev nD → Valuation τ sig (Elt F) := fun c => StableHlo.after hostOps1 (W6 m ρ c)
/-- A reference the stretch does not write keeps its contents. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
/-- The same read at the TensorCore's references: launch 1's entry contents. -/
abbrev V7 : (c : Dev nD) → (b : Ref sig .tc) → Buf (Elt F) ((c : Thread nD τ).loc b) := fun c b => W7 m ρ c b

/-- At launch 1's exit: its arrays at what the pipeline leaves (the inputs as entered, each output's
    write-backs folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references: launch 1's exit contents. -/
abbrev V8 : (c : Dev nD) → (b : Ref sig .tc) → Buf (Elt F) ((c : Thread nD τ).loc b) := fun c b => W8 m ρ c b
/-- At launch 1's exit each of its arrays holds what the pipeline leaves, and every other buffer what it held
    at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the host stretch `hostOps2`. -/
abbrev W9 : Dev nD → Valuation τ sig (Elt F) := fun c => StableHlo.after hostOps2 (W8 m ρ c)
/-- A reference the stretch does not write keeps its contents. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
/-- The same read at the TensorCore's references: launch 2's entry contents. -/
abbrev V9 : (c : Dev nD) → (b : Ref sig .tc) → Buf (Elt F) ((c : Thread nD τ).loc b) := fun c b => W9 m ρ c b

/-- At launch 2's exit: its arrays at what the pipeline leaves (the inputs as entered, each output's
    write-backs folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references: launch 2's exit contents. -/
abbrev V10 : (c : Dev nD) → (b : Ref sig .tc) → Buf (Elt F) ((c : Thread nD τ).loc b) := fun c b => W10 m ρ c b
/-- At launch 2's exit each of its arrays holds what the pipeline leaves, and every other buffer what it held
    at entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After the host stretch `hostOps3`. -/
abbrev W11 : Dev nD → Valuation τ sig (Elt F) := fun c => StableHlo.after hostOps3 (W10 m ρ c)
/-- A reference the stretch does not write keeps its contents. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
/-- The same read at the TensorCore's references: launch 3's entry contents. -/
abbrev V11 : (c : Dev nD) → (b : Ref sig .tc) → Buf (Elt F) ((c : Thread nD τ).loc b) := fun c b => W11 m ρ c b

/-- At launch 3's exit: its arrays at what the pipeline leaves (the inputs as entered, each output's
    write-backs folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references: launch 3's exit contents. -/
abbrev V12 : (c : Dev nD) → (b : Ref sig .tc) → Buf (Elt F) ((c : Thread nD τ).loc b) := fun c b => W12 m ρ c b
/-- At launch 3's exit each of its arrays holds what the pipeline leaves, and every other buffer what it held
    at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After the host stretch `hostOps4`. -/
abbrev W13 : Dev nD → Valuation τ sig (Elt F) := fun c => StableHlo.after hostOps4 (W12 m ρ c)
/-- A reference the stretch does not write keeps its contents. -/
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
/-- The same read at the TensorCore's references: launch 4's entry contents. -/
abbrev V13 : (c : Dev nD) → (b : Ref sig .tc) → Buf (Elt F) ((c : Thread nD τ).loc b) := fun c b => W13 m ρ c b

/-- At launch 4's exit: its arrays at what the pipeline leaves (the inputs as entered, each output's
    write-backs folded), every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- The same read at the TensorCore's references: launch 4's exit contents. -/
abbrev V14 : (c : Dev nD) → (b : Ref sig .tc) → Buf (Elt F) ((c : Thread nD τ).loc b) := fun c b => W14 m ρ c b
/-- At launch 4's exit each of its arrays holds what the pipeline leaves, and every other buffer what it held
    at entry. -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

/-- After the host stretch `hostOps5`. -/
abbrev W15 : Dev nD → Valuation τ sig (Elt F) := fun c => StableHlo.after hostOps5 (W14 m ρ c)
/-- A reference the stretch does not write keeps its contents. -/
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h

/-- After the host stretch `hostOps5_1`. -/
abbrev W16 : Dev nD → Valuation τ sig (Elt F) := fun c => StableHlo.after hostOps5_1 (W15 m ρ c)
/-- A reference the stretch does not write keeps its contents. -/
theorem W16_of (c : Dev nD) (r : Ref sig .tc) (h : r ∉ hostOps5_1_W) : W16 m ρ c (Proc.devRef .tc r) = W15 m ρ c (Proc.devRef .tc r) :=
  StableHlo.after_of_writes_sub hostOps5_1 _ hostOps5_1_writes h

/-! ### The arguments end as launched -/

/-- `main_arg0` reaches the end as launched: no host stretch writes it, launch 0 only reads it through an input window, no other launch has it among its arrays. -/
theorem W16_main_arg0 (c : Dev nD) : W16 m ρ c (Proc.devRef .tc main_arg0) = m ((c : Thread nD τ).loc main_arg0) :=
  (W16_of m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  ((W6_arr m ρ c 0).trans (((dat0 (V5 m ρ) c).arrAt_in 0 rfl _).trans (A_eq0 (V5 m ρ) c 0))).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide)).trans rfl

/-- `main_arg1` reaches the end as launched: no host stretch writes it and no launch has it among its arrays. -/
theorem W16_main_arg1 (c : Dev nD) : W16 m ρ c (Proc.devRef .tc main_arg1) = m ((c : Thread nD τ).loc main_arg1) :=
  (W16_of m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of m ρ c main_arg1 (by decide)).trans <|
  (W3_of m ρ c main_arg1 (by decide)).trans <|
  (W2_of m ρ c main_arg1 (by decide)).trans <|
  (W1_of m ρ c main_arg1 (by decide)).trans rfl

/-- `main_arg2` reaches the end as launched: no host stretch writes it and no launch has it among its arrays. -/
theorem W16_main_arg2 (c : Dev nD) : W16 m ρ c (Proc.devRef .tc main_arg2) = m ((c : Thread nD τ).loc main_arg2) :=
  (W16_of m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide)).trans rfl

/-- `main_arg3` reaches the end as launched: no host stretch writes it and no launch has it among its arrays. -/
theorem W16_main_arg3 (c : Dev nD) : W16 m ρ c (Proc.devRef .tc main_arg3) = m ((c : Thread nD τ).loc main_arg3) :=
  (W16_of m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide)).trans rfl

/-- `main_arg4` reaches the end as launched: no host stretch writes it and no launch has it among its arrays. -/
theorem W16_main_arg4 (c : Dev nD) : W16 m ρ c (Proc.devRef .tc main_arg4) = m ((c : Thread nD τ).loc main_arg4) :=
  (W16_of m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of m ρ c main_arg4 (by decide)).trans <|
  (W3_of m ρ c main_arg4 (by decide)).trans <|
  (W2_of m ρ c main_arg4 (by decide)).trans <|
  (W1_of m ρ c main_arg4 (by decide)).trans rfl

/-- `main_arg5` reaches the end as launched: no host stretch writes it and no launch has it among its arrays. -/
theorem W16_main_arg5 (c : Dev nD) : W16 m ρ c (Proc.devRef .tc main_arg5) = m ((c : Thread nD τ).loc main_arg5) :=
  (W16_of m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of m ρ c main_arg5 (by decide)).trans <|
  (W3_of m ρ c main_arg5 (by decide)).trans <|
  (W2_of m ρ c main_arg5 (by decide)).trans <|
  (W1_of m ρ c main_arg5 (by decide)).trans rfl

/-- `main_arg6` reaches the end as launched: no host stretch writes it and no launch has it among its arrays. -/
theorem W16_main_arg6 (c : Dev nD) : W16 m ρ c (Proc.devRef .tc main_arg6) = m ((c : Thread nD τ).loc main_arg6) :=
  (W16_of m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of m ρ c main_arg6 (by decide)).trans <|
  (W3_of m ρ c main_arg6 (by decide)).trans <|
  (W2_of m ρ c main_arg6 (by decide)).trans <|
  (W1_of m ρ c main_arg6 (by decide)).trans rfl

/-- `main_arg7` reaches the end as launched: no host stretch writes it and no launch has it among its arrays. -/
theorem W16_main_arg7 (c : Dev nD) : W16 m ρ c (Proc.devRef .tc main_arg7) = m ((c : Thread nD τ).loc main_arg7) :=
  (W16_of m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of m ρ c main_arg7 (by decide)).trans <|
  (W3_of m ρ c main_arg7 (by decide)).trans <|
  (W2_of m ρ c main_arg7 (by decide)).trans <|
  (W1_of m ρ c main_arg7 (by decide)).trans rfl

/-- `main_arg8` reaches the end as launched: no host stretch writes it and no launch has it among its arrays. -/
theorem W16_main_arg8 (c : Dev nD) : W16 m ρ c (Proc.devRef .tc main_arg8) = m ((c : Thread nD τ).loc main_arg8) :=
  (W16_of m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of m ρ c main_arg8 (by decide)).trans <|
  (W3_of m ρ c main_arg8 (by decide)).trans <|
  (W2_of m ρ c main_arg8 (by decide)).trans <|
  (W1_of m ρ c main_arg8 (by decide)).trans rfl

/-- `main_arg9` reaches the end as launched: no host stretch writes it and no launch has it among its arrays. -/
theorem W16_main_arg9 (c : Dev nD) : W16 m ρ c (Proc.devRef .tc main_arg9) = m ((c : Thread nD τ).loc main_arg9) :=
  (W16_of m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of m ρ c main_arg9 (by decide)).trans <|
  (W3_of m ρ c main_arg9 (by decide)).trans <|
  (W2_of m ρ c main_arg9 (by decide)).trans <|
  (W1_of m ρ c main_arg9 (by decide)).trans rfl

/-- `main_arg10` reaches the end as launched: no host stretch writes it and no launch has it among its arrays. -/
theorem W16_main_arg10 (c : Dev nD) : W16 m ρ c (Proc.devRef .tc main_arg10) = m ((c : Thread nD τ).loc main_arg10) :=
  (W16_of m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of m ρ c main_arg10 (by decide)).trans <|
  (W3_of m ρ c main_arg10 (by decide)).trans <|
  (W2_of m ρ c main_arg10 (by decide)).trans <|
  (W1_of m ρ c main_arg10 (by decide)).trans rfl

/-- `main_arg11` reaches the end as launched: no host stretch writes it and no launch has it among its arrays. -/
theorem W16_main_arg11 (c : Dev nD) : W16 m ρ c (Proc.devRef .tc main_arg11) = m ((c : Thread nD τ).loc main_arg11) :=
  (W16_of m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of m ρ c main_arg11 (by decide)).trans <|
  (W3_of m ρ c main_arg11 (by decide)).trans <|
  (W2_of m ρ c main_arg11 (by decide)).trans <|
  (W1_of m ρ c main_arg11 (by decide)).trans rfl

/-- `main_arg12` reaches the end as launched: no host stretch writes it and no launch has it among its arrays. -/
theorem W16_main_arg12 (c : Dev nD) : W16 m ρ c (Proc.devRef .tc main_arg12) = m ((c : Thread nD τ).loc main_arg12) :=
  (W16_of m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of m ρ c main_arg12 (by decide)).trans <|
  (W3_of m ρ c main_arg12 (by decide)).trans <|
  (W2_of m ρ c main_arg12 (by decide)).trans <|
  (W1_of m ρ c main_arg12 (by decide)).trans rfl

/-- `main_arg13` reaches the end as launched: no host stretch writes it and no launch has it among its arrays. -/
theorem W16_main_arg13 (c : Dev nD) : W16 m ρ c (Proc.devRef .tc main_arg13) = m ((c : Thread nD τ).loc main_arg13) :=
  (W16_of m ρ c main_arg13 (by decide)).trans <|
  (W15_of m ρ c main_arg13 (by decide)).trans <|
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of m ρ c main_arg13 (by decide)).trans <|
  (W3_of m ρ c main_arg13 (by decide)).trans <|
  (W2_of m ρ c main_arg13 (by decide)).trans <|
  (W1_of m ρ c main_arg13 (by decide)).trans rfl

/-- `main_arg14` reaches the end as launched: no host stretch writes it and no launch has it among its arrays. -/
theorem W16_main_arg14 (c : Dev nD) : W16 m ρ c (Proc.devRef .tc main_arg14) = m ((c : Thread nD τ).loc main_arg14) :=
  (W16_of m ρ c main_arg14 (by decide)).trans <|
  (W15_of m ρ c main_arg14 (by decide)).trans <|
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  (W4_of m ρ c main_arg14 (by decide)).trans <|
  (W3_of m ρ c main_arg14 (by decide)).trans <|
  (W2_of m ρ c main_arg14 (by decide)).trans <|
  (W1_of m ρ c main_arg14 (by decide)).trans rfl

/-- `main_arg15` reaches the end as launched: no host stretch writes it and no launch has it among its arrays. -/
theorem W16_main_arg15 (c : Dev nD) : W16 m ρ c (Proc.devRef .tc main_arg15) = m ((c : Thread nD τ).loc main_arg15) :=
  (W16_of m ρ c main_arg15 (by decide)).trans <|
  (W15_of m ρ c main_arg15 (by decide)).trans <|
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of m ρ c main_arg15 (by decide)).trans <|
  (W3_of m ρ c main_arg15 (by decide)).trans <|
  (W2_of m ρ c main_arg15 (by decide)).trans <|
  (W1_of m ρ c main_arg15 (by decide)).trans rfl

/-- `main_arg16` reaches the end as launched: no host stretch writes it and no launch has it among its arrays. -/
theorem W16_main_arg16 (c : Dev nD) : W16 m ρ c (Proc.devRef .tc main_arg16) = m ((c : Thread nD τ).loc main_arg16) :=
  (W16_of m ρ c main_arg16 (by decide)).trans <|
  (W15_of m ρ c main_arg16 (by decide)).trans <|
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of m ρ c main_arg16 (by decide)).trans <|
  (W3_of m ρ c main_arg16 (by decide)).trans <|
  (W2_of m ρ c main_arg16 (by decide)).trans <|
  (W1_of m ρ c main_arg16 (by decide)).trans rfl

/-- `main_arg17` reaches the end as launched: no host stretch writes it and no launch has it among its arrays. -/
theorem W16_main_arg17 (c : Dev nD) : W16 m ρ c (Proc.devRef .tc main_arg17) = m ((c : Thread nD τ).loc main_arg17) :=
  (W16_of m ρ c main_arg17 (by decide)).trans <|
  (W15_of m ρ c main_arg17 (by decide)).trans <|
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of m ρ c main_arg17 (by decide)).trans <|
  (W3_of m ρ c main_arg17 (by decide)).trans <|
  (W2_of m ρ c main_arg17 (by decide)).trans <|
  (W1_of m ρ c main_arg17 (by decide)).trans rfl

/-- `main_arg18` reaches the end as launched: no host stretch writes it and no launch has it among its arrays. -/
theorem W16_main_arg18 (c : Dev nD) : W16 m ρ c (Proc.devRef .tc main_arg18) = m ((c : Thread nD τ).loc main_arg18) :=
  (W16_of m ρ c main_arg18 (by decide)).trans <|
  (W15_of m ρ c main_arg18 (by decide)).trans <|
  (W14_of_ne m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of_ne m ρ c main_arg18 (by decide)).trans <|
  (W7_of m ρ c main_arg18 (by decide)).trans <|
  (W6_of_ne m ρ c main_arg18 (by decide)).trans <|
  (W5_of m ρ c main_arg18 (by decide)).trans <|
  (W4_of m ρ c main_arg18 (by decide)).trans <|
  (W3_of m ρ c main_arg18 (by decide)).trans <|
  (W2_of m ρ c main_arg18 (by decide)).trans <|
  (W1_of m ρ c main_arg18 (by decide)).trans rfl

end Cert.Kernel.Hand

end
-- ==== Proof.BitsKBase.lean ====
/-
  What every segment of the run shares: the launches' proof data as one family, the state that rides
  beside the buffers through every segment (the generator register at some state, nothing owed), a
  host stretch as a segment, and the last thread state.
-/
import proofs.«157065_j74259984548393_2_alg».proof.Proof.BitsKFold
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every launch's proof data, each at its launch's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding
    along; it ends with those references at the operations' results over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W16 m ρ c) ∗ ∃ r, prngReg c r)

end Cert.Kernel.Hand

end
-- ==== Proof.BitsKReg0.lean ====
/-
  Launch 0 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.BitsKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    rw [Pipeline.ownSems0_none]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsKReg1.lean ====
/-
  Launch 1 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.BitsKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V7 m ρ) c)
    unfold Pipeline.ΦA
    iintro ⟨Hp, -, Hr⟩
    isplitl [Hr]; · iexact Hr
    iexact Hp
  hout c := by
    rw [Pipeline.ownSems0_none]
    refine BIBase.Entails.trans (hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsKReg2.lean ====
/-
  Launch 2 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.BitsKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V9 m ρ) c)
    unfold Pipeline.ΦA
    iintro ⟨Hp, -, Hr⟩
    isplitl [Hr]; · iexact Hr
    iexact Hp
  hout c := by
    rw [Pipeline.ownSems0_none]
    refine BIBase.Entails.trans (hout2 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsKReg3.lean ====
/-
  Launch 3 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.BitsKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V11 m ρ) c)
    unfold Pipeline.ΦA
    iintro ⟨Hp, -, Hr⟩
    isplitl [Hr]; · iexact Hr
    iexact Hp
  hout c := by
    rw [Pipeline.ownSems0_none]
    refine BIBase.Entails.trans (hout3 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsKReg4.lean ====
/-
  Launch 4 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.BitsKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V13 m ρ) c)
    unfold Pipeline.ΦA
    iintro ⟨Hp, -, Hr⟩
    isplitl [Hr]; · iexact Hr
    iexact Hp
  hout c := by
    rw [Pipeline.ownSems0_none]
    refine BIBase.Entails.trans (hout4 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsKRun.lean ====
/-
  The run of the whole program: its sixteen items as segments (a host stretch from the contents before it, a
  launch by its record), the program as the run of those segments, and the launch over them. Every weakly fair
  execution from any memory with zero counters terminates, and the final memory holds every unscoped buffer at the
  last contents of the fold; the nineteen arguments, which no item writes, therefore end as launched.
-/
import proofs.«157065_j74259984548393_2_alg».proof.Proof.BitsKReg0
import proofs.«157065_j74259984548393_2_alg».proof.Proof.BitsKReg1
import proofs.«157065_j74259984548393_2_alg».proof.Proof.BitsKReg2
import proofs.«157065_j74259984548393_2_alg».proof.Proof.BitsKReg3
import proofs.«157065_j74259984548393_2_alg».proof.Proof.BitsKReg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 16 segments in order. -/
abbrev ksegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)) ]

set_option backward.isDefEq.respectTransparency.types false in
/-- The launch over the segments, at any post that follows from "every unscoped buffer holds the fold's last
    contents": the last thread state is read against the final state. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (ksegs m ρ)
    (fun c Q => by
      rewrite [main_chain c, Pipeline.Seg.run_eq_chain,
        show (ksegs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m ρ c)
              ∗ (∃ r, prngReg c r) ∗ ∃ W, owes (c : Thread nD τ) (0 : CellTallies nD τ sig Unit) W)
          ⊢ (iprop((StableHlo.held (c : Thread nD τ) (Pipeline.ucRefs τ sig) (W16 m ρ c) ∗ ∃ r, prngReg c r)
              ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- Every weakly fair execution of the program terminates and ends with every unscoped buffer at the fold's last
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  run_of m ρ fun _ h => h

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of m ρ fun s h c => ⟨
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c),
    (h c _ (mem_uc main_arg16 (by decide))).trans (W16_main_arg16 m ρ c),
    (h c _ (mem_uc main_arg17 (by decide))).trans (W16_main_arg17 m ρ c),
    (h c _ (mem_uc main_arg18 (by decide))).trans (W16_main_arg18 m ρ c)⟩

/-- The returned array ends at the fold's last contents, and the argument arrays as launched. -/
theorem run_val : θ_run defs (onTc (τ := τ) (main (F := F))) ⟨m, fun _ => 0, ρ⟩ (fun r => ∀ c : Dev nD,
      r.2.mem ((c.tc : Thread nD τ).loc main_v139) = W16 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of m ρ fun s h c => ⟨
    h c _ (mem_uc main_v139 (by decide)),
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c),
    (h c _ (mem_uc main_arg16 (by decide))).trans (W16_main_arg16 m ρ c),
    (h c _ (mem_uc main_arg17 (by decide))).trans (W16_main_arg17 m ρ c),
    (h c _ (mem_uc main_arg18 (by decide))).trans (W16_main_arg18 m ρ c)⟩

end Cert.Kernel.Hand

end
-- ==== Proof.R0Runs.lean ====
/-
  Launch 0: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.KernelIdeal.Launch
import proofs.«157065_j74259984548393_2_alg».proof.Proof.Gen.KernelIdeal.Skeleton
import proofs.«157065_j74259984548393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first branch's condition: the second coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch's condition: the second coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel

/-- One staging buffer per output window, through which its contents are stated. -/
abbrev VO0_3 : View sig .tc .vmem S512x1024 .f32 := (Memref.whole cc0_stg3_0 : Memref sig .tc .vmem S512x1024 .f32).view
abbrev VO0_4 : View sig .tc .vmem S1x1x1024 .f32 := (Memref.whole cc0_stg4_0 : Memref sig .tc .vmem S1x1x1024 .f32).view
abbrev VO0_5 : View sig .tc .vmem S1x1x1024 .f32 := (Memref.whole cc0_stg5_0 : Memref sig .tc .vmem S1x1x1024 .f32).view
abbrev ms0_0 (t : Fin cfg0.N) : Memref sig .tc .vmem S512x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S784x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
/-- The two running totals: whole scoped buffers of the kernel's own. -/
abbrev scM0_0 : Memref sig .tc .vmem S1x1024 .f32 := Memref.whole cc0_scratch0
abbrev scM0_1 : Memref sig .tc .vmem S1x1024 .f32 := Memref.whole cc0_scratch1
abbrev VS0_0 : View sig .tc .vmem S1x1024 .f32 := scM0_0.view
abbrev VS0_1 : View sig .tc .vmem S1x1024 .f32 := scM0_1.view

/-- The launch's invariant with the two running totals split out, each owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.R0Run.lean ====
/-
  Launch 0, the three cases (A first, then B and C): the body run whole on any staging memrefs — the first point of a half: the running totals are cleared, then the block's column sums added.
  The pieces each buffer ends with are found by the run itself.
-/
import proofs.«157065_j74259984548393_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__matmul_stats_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
noncomputable def kernelRun0_B (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__matmul_stats_kernel i arg2 harg2 arg3 harg3 arg4 harg4 arg5 harg5 arg6 harg6 arg7 harg7 arg8 harg8 arg9 harg9) K } := by
  refine ⟨?_, ?_, ?_, fun xi4 xi5 E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
noncomputable def kernelRun0_C (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__matmul_stats_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__matmul_stats_kernel_eq_skeleton]; unfold cc0__matmul_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.R0Frame.lean ====
/-
  Launch 0: what every buffer holds after each grid point, the launch's proof data, and the obligation the launch
  asks of the body at every point. The running totals are carried from point to point within a half of the grid: the
  contents after a point are the case's pieces read back, over what the point before left.
-/
import proofs.«157065_j74259984548393_2_alg».proof.Proof.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk0_4 : Vec F S1x1x1024 .f32 := VO0_4.read (Elt F) (VO0_4.writes (Elt F) VO0_4.junk [])
def junk0_5 : Vec F S1x1x1024 .f32 := VO0_5.read (Elt F) (VO0_5.writes (Elt F) VO0_5.junk [])

/-! ### Case A -/
theorem cover0_A_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) (y : S512x1024.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S512x1024.size (by sl_kernel_rfl) y
def out0_A_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) : Vec F S512x1024 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)
theorem scover0_A_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1x1024.size (by sl_kernel_rfl) y
def sout0_A_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)
theorem scover0_A_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) (y : S1x1024.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1x1024.size (by sl_kernel_rfl) y
def sout0_A_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)

/-! ### Case B -/
theorem cover0_B_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) (y : S512x1024.Idx) :
    ∃ pc ∈ (kernelRun0_B c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).1 S512x1024.size (by sl_kernel_rfl) y
def out0_B_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) : Vec F S512x1024 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1).1)
theorem scover0_B_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.1 S1x1024.size (by sl_kernel_rfl) y
def sout0_B_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1).2.1)
theorem scover0_B_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_B c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1).2.2.1 S1x1024.size (by sl_kernel_rfl) y
def sout0_B_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1).2.2.1)

/-! ### Case C -/
theorem cover0_C_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).1 S512x1024.size (by sl_kernel_rfl) y
def out0_C_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S512x1024 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1).1)
theorem scover0_C_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.1 S1x1024.size (by sl_kernel_rfl) y
def sout0_C_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1).2.2.2.1)
theorem scover0_C_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.2.2.1 S1x1024.size (by sl_kernel_rfl) y
def sout0_C_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1).2.2.2.2.1)
theorem cover0_C_4 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1x1024.Idx) :
    ∃ pc ∈ (kernelRun0_C c i arg2 harg2 arg3 harg3 arg4 harg4 arg5 harg5 arg6 harg6 arg7 harg7 arg8 harg8 arg9 harg9 hc0 hc1 x0 x1 x2 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.1 S1x1x1024.size (by sl_kernel_rfl) y
def out0_C_4 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1x1024 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1).2.1)
theorem cover0_C_5 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) (y : S1x1x1024.Idx) :
    ∃ pc ∈ (kernelRun0_C c i arg2 harg2 arg3 harg3 arg4 harg4 arg5 harg5 arg6 harg6 arg7 harg7 arg8 harg8 arg9 harg9 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1).2.2.1 S1x1x1024.size (by sl_kernel_rfl) y
def out0_C_5 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) : Vec F S1x1x1024 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 xs0 xs1).2.2.1)

/-! ## What the buffers hold after each point -/

/-- After the body at position `n`: the three outputs' staging buffers, then the two running totals. -/
def outsAt0 (c : Dev nD) : (n : ℕ) → n < cfg0.N → Vec F S512x1024 .f32 × Vec F S1x1x1024 .f32 × Vec F S1x1x1024 .f32 × Vec F S1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), junk0_4, junk0_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), junk0_4, junk0_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, junk0_4, junk0_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 16 = 0) (h1 : ¬t.val % 16 = 15) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), junk0_4, junk0_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, junk0_4, junk0_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The launch's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The obligation on the body, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · by_cases h1 : t.val % 16 = 15
    · exfalso; omega
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [outsAt0_A V c t h0 h1]
    unfold out0_A_3 sout0_A_0 sout0_A_1; (try dsimp only)
    by_cases hz : t.val = 0
    · rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]; · iexists _; iexact H4
      iexists _; iexact H5
    · rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexists _; iexact HS0
      isplitl [HS1]; · iexists _; iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]; · iexists _; iexact H4
      iexists _; iexact H5
  · have hz : t.val ≠ 0 := fun hz => h0 (by rw [hz])
    by_cases h1 : t.val % 16 = 15
    · rw [show (dat0 V c).leavesExact 4 t = owns (c : Thread nD τ) (ms0_4 t) fullShare ((dat0 V c).after 4 t) from by
        unfold Dat.leavesExact; rw [liveAt0_4_C t ((hcond0_1 t).mpr h1)], after0_4]
      rw [show (dat0 V c).leavesExact 5 t = owns (c : Thread nD τ) (ms0_5 t) fullShare ((dat0 V c).after 5 t) from by
        unfold Dat.leavesExact; rw [liveAt0_5_C t ((hcond0_1 t).mpr h1)], after0_5]
      rw [outsAt0_C V c t h0 h1]
      unfold out0_C_3 out0_C_4 out0_C_5 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _)
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 (F := F) V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 (F := F) V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 (F := F) V c).Φ (Fin.last cfg0.N) ⊢ Pipeline.ΦA spec0 c :=
  Phi_out0 V c _ (by rw [Fin.val_last]; have : cfg0.N = 32 := N_0; omega)

end Cert.KernelIdeal.Hand

end
-- ==== Proof.R1Runs.lean ====
/-
  Launch 1: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.KernelIdeal.Launch
import proofs.«157065_j74259984548393_2_alg».proof.Proof.Gen.KernelIdeal.Skeleton
import proofs.«157065_j74259984548393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The first branch's condition: the second coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition: the second coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8_C : ∀ t : Fin cfg1.N, cond1_1 (grid1.coords t) → cfg1.idle 8 (grid1.coords t) = false := by decide +kernel
theorem idleAt1_9 : ∀ t : Fin cfg1.N, ¬cond1_1 (grid1.coords t) → cfg1.idle 9 (grid1.coords t) = true := by decide +kernel
theorem noFlush1_9 : ∀ t : Fin cfg1.N, ¬cond1_1 (grid1.coords t) → (cfg1.win 9).flush t = false := by decide +kernel
theorem liveAt1_9_C : ∀ t : Fin cfg1.N, cond1_1 (grid1.coords t) → cfg1.idle 9 (grid1.coords t) = false := by decide +kernel

/-- One staging buffer per output window, through which its contents are stated. -/
abbrev VO1_7 : View sig .tc .vmem S512x1024 .f32 := (Memref.whole cc1_stg7_0 : Memref sig .tc .vmem S512x1024 .f32).view
abbrev VO1_8 : View sig .tc .vmem S1x1x1024 .f32 := (Memref.whole cc1_stg8_0 : Memref sig .tc .vmem S1x1x1024 .f32).view
abbrev VO1_9 : View sig .tc .vmem S1x1x1024 .f32 := (Memref.whole cc1_stg9_0 : Memref sig .tc .vmem S1x1x1024 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1x1024 .f32 := win1_9.stage (cfg1.slots t 9)
abbrev hs1_9 (t : Fin cfg1.N) : (ms1_9 t).IsWhole := hstage1_9 ((cfg1.slots t 9).cast nbuf1_9)
/-- The two running totals: whole scoped buffers of the kernel's own. -/
abbrev scM1_0 : Memref sig .tc .vmem S1x1024 .f32 := Memref.whole cc1_scratch0
abbrev scM1_1 : Memref sig .tc .vmem S1x1024 .f32 := Memref.whole cc1_scratch1
abbrev VS1_0 : View sig .tc .vmem S1x1024 .f32 := scM1_0.view
abbrev VS1_1 : View sig .tc .vmem S1x1024 .f32 := scM1_1.view

/-- The launch's invariant with the two running totals split out, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.R1Run.lean ====
/-
  Launch 1, the three cases (A first, then B and C): the body run whole on any staging memrefs — the first point of a half: the running totals are cleared, then the block's column sums added.
  The pieces each buffer ends with are found by the run itself.
-/
import proofs.«157065_j74259984548393_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc1__bn_matmul_stats_kernel_eq_skeleton]; unfold cc1__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun1_B (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc1__bn_matmul_stats_kernel_eq_skeleton]; unfold cc1__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun1_C (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1__bn_matmul_stats_kernel_eq_skeleton]; unfold cc1__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]; · iexists _; iexact HO4
    isplitl [HO5]; · iexists _; iexact HO5
    isplitl [HS0]; · iexists _; iexact HS0
    iexists _; iexact HS1

end Cert.KernelIdeal.Hand

end
-- ==== Proof.R1Frame.lean ====
/-
  Launch 1: what every buffer holds after each grid point, the launch's proof data, and the obligation the launch
  asks of the body at every point. The running totals are carried from point to point within a half of the grid: the
  contents after a point are the case's pieces read back, over what the point before left.
-/
import proofs.«157065_j74259984548393_2_alg».proof.Proof.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk1_8 : Vec F S1x1x1024 .f32 := VO1_8.read (Elt F) (VO1_8.writes (Elt F) VO1_8.junk [])
def junk1_9 : Vec F S1x1x1024 .f32 := VO1_9.read (Elt F) (VO1_9.writes (Elt F) VO1_9.junk [])

/-! ### Case A -/
theorem cover1_A_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S512x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1024.size (by sl_kernel_rfl) y
def out1_A_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S512x1024 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
theorem scover1_A_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1x1024.size (by sl_kernel_rfl) y
def sout1_A_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scover1_A_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1x1024.size (by sl_kernel_rfl) y
def sout1_A_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-! ### Case B -/
theorem cover1_B_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out1_B_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover1_B_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1024.size (by sl_kernel_rfl) y
def sout1_B_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem scover1_B_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1024.size (by sl_kernel_rfl) y
def sout1_B_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ### Case C -/
theorem cover1_C_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out1_C_7 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover1_C_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1 S1x1024.size (by sl_kernel_rfl) y
def sout1_C_0 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1)
theorem scover1_C_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1 S1x1024.size (by sl_kernel_rfl) y
def sout1_C_1 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1)
theorem cover1_C_8 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1x1024.size (by sl_kernel_rfl) y
def out1_C_8 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem cover1_C_9 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1x1024.size (by sl_kernel_rfl) y
def out1_C_9 (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ## What the buffers hold after each point -/

/-- After the body at position `n`: the three outputs' staging buffers, then the two running totals. -/
def outsAt1 (c : Dev nD) : (n : ℕ) → n < cfg1.N → Vec F S512x1024 .f32 × Vec F S1x1x1024 .f32 × Vec F S1x1x1024 .f32 × Vec F S1x1024 .f32 × Vec F S1x1024 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), junk1_8, junk1_9, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), junk1_8, junk1_9, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, junk1_8, junk1_9, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.2.1 (outsAt1 c n (Nat.lt_of_succ_lt hn)).2.2.2.2)

theorem outsAt1_A (c : Dev nD) (t : Fin cfg1.N) (h0 : t.val % 16 = 0) (h1 : ¬t.val % 16 = 15) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), junk1_8, junk1_9, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, junk1_8, junk1_9, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The obligation on the body, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 16 = 0
  · by_cases h1 : t.val % 16 = 15
    · exfalso; omega
    rw [Dat.leavesExact_idle (dat1 V c) 8 t (idleAt1_8 t (fun h => h1 ((hcond1_1 t).mp h))) (noFlush1_8 t (fun h => h1 ((hcond1_1 t).mp h)))]
    rw [Dat.leavesExact_idle (dat1 V c) 9 t (idleAt1_9 t (fun h => h1 ((hcond1_1 t).mp h))) (noFlush1_9 t (fun h => h1 ((hcond1_1 t).mp h)))]
    rw [outsAt1_A V c t h0 h1]
    unfold out1_A_7 sout1_A_0 sout1_A_1; (try dsimp only)
    by_cases hz : t.val = 0
    · rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _ _ _ _ _)
      isplitl [H8]; · iexists _; iexact H8
      iexists _; iexact H9
    · rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _ _ _ _ _)
      isplitl [H8]; · iexists _; iexact H8
      iexists _; iexact H9
  · have hz : t.val ≠ 0 := fun hz => h0 (by rw [hz])
    by_cases h1 : t.val % 16 = 15
    · rw [show (dat1 V c).leavesExact 8 t = owns (c : Thread nD τ) (ms1_8 t) fullShare ((dat1 V c).after 8 t) from by
        unfold Dat.leavesExact; rw [liveAt1_8_C t ((hcond1_1 t).mpr h1)], after1_8]
      rw [show (dat1 V c).leavesExact 9 t = owns (c : Thread nD τ) (ms1_9 t) fullShare ((dat1 V c).after 9 t) from by
        unfold Dat.leavesExact; rw [liveAt1_9_C t ((hcond1_1 t).mpr h1)], after1_9]
      rw [outsAt1_C V c t h0 h1]
      unfold out1_C_7 out1_C_8 out1_C_9 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e3, H7⟩, ⟨%e4, H8⟩, ⟨%e5, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [Dat.leavesExact_idle (dat1 V c) 9 t (idleAt1_9 t (fun h => h1 ((hcond1_1 t).mp h))) (noFlush1_9 t (fun h => h1 ((hcond1_1 t).mp h)))]
      rw [outsAt1_B V c t h0 h1]
      unfold out1_B_7 sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _ _ _ _ _ _)
      isplitl [H8]; · iexists _; iexact H8
      iexists _; iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout1 (c : Dev nD) : (dat1 (F := F) V c).Φ (Fin.last cfg1.N) ⊢ Pipeline.ΦA spec1 c :=
  Phi_out1 V c _ (by rw [Fin.val_last]; have : cfg1.N = 32 := N_1; omega)

end Cert.KernelIdeal.Hand

end
-- ==== Proof.R2Runs.lean ====
/-
  Launch 2: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.KernelIdeal.Launch
import proofs.«157065_j74259984548393_2_alg».proof.Proof.Gen.KernelIdeal.Skeleton
import proofs.«157065_j74259984548393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The first branch's condition: the second coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The second branch's condition: the second coordinate is 15. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8_C : ∀ t : Fin cfg2.N, cond2_1 (grid2.coords t) → cfg2.idle 8 (grid2.coords t) = false := by decide +kernel
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
theorem liveAt2_9_C : ∀ t : Fin cfg2.N, cond2_1 (grid2.coords t) → cfg2.idle 9 (grid2.coords t) = false := by decide +kernel

/-- One staging buffer per output window, through which its contents are stated. -/
abbrev VO2_7 : View sig .tc .vmem S512x1024 .f32 := (Memref.whole cc2_stg7_0 : Memref sig .tc .vmem S512x1024 .f32).view
abbrev VO2_8 : View sig .tc .vmem S1x1x1024 .f32 := (Memref.whole cc2_stg8_0 : Memref sig .tc .vmem S1x1x1024 .f32).view
abbrev VO2_9 : View sig .tc .vmem S1x1x1024 .f32 := (Memref.whole cc2_stg9_0 : Memref sig .tc .vmem S1x1x1024 .f32).view
abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x1x1024 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1x1024 .f32 := win2_9.stage (cfg2.slots t 9)
abbrev hs2_9 (t : Fin cfg2.N) : (ms2_9 t).IsWhole := hstage2_9 ((cfg2.slots t 9).cast nbuf2_9)
/-- The two running totals: whole scoped buffers of the kernel's own. -/
abbrev scM2_0 : Memref sig .tc .vmem S1x1024 .f32 := Memref.whole cc2_scratch0
abbrev scM2_1 : Memref sig .tc .vmem S1x1024 .f32 := Memref.whole cc2_scratch1
abbrev VS2_0 : View sig .tc .vmem S1x1024 .f32 := scM2_0.view
abbrev VS2_1 : View sig .tc .vmem S1x1024 .f32 := scM2_1.view

/-- The launch's invariant with the two running totals split out, each owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.R2Run.lean ====
/-
  Launch 2, the three cases (A first, then B and C): the body run whole on any staging memrefs — the first point of a half: the running totals are cleared, then the block's column sums added.
  The pieces each buffer ends with are found by the run itself.
-/
import proofs.«157065_j74259984548393_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc2__bn_matmul_stats_kernel_eq_skeleton]; unfold cc2__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun2_B (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc2__bn_matmul_stats_kernel_eq_skeleton]; unfold cc2__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun2_C (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc2__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc2__bn_matmul_stats_kernel_eq_skeleton]; unfold cc2__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]; · iexists _; iexact HO4
    isplitl [HO5]; · iexists _; iexact HO5
    isplitl [HS0]; · iexists _; iexact HS0
    iexists _; iexact HS1

end Cert.KernelIdeal.Hand

end
-- ==== Proof.R2Frame.lean ====
/-
  Launch 2: what every buffer holds after each grid point, the launch's proof data, and the obligation the launch
  asks of the body at every point. The running totals are carried from point to point within a half of the grid: the
  contents after a point are the case's pieces read back, over what the point before left.
-/
import proofs.«157065_j74259984548393_2_alg».proof.Proof.R2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk2_8 : Vec F S1x1x1024 .f32 := VO2_8.read (Elt F) (VO2_8.writes (Elt F) VO2_8.junk [])
def junk2_9 : Vec F S1x1x1024 .f32 := VO2_9.read (Elt F) (VO2_9.writes (Elt F) VO2_9.junk [])

/-! ### Case A -/
theorem cover2_A_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S512x1024.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1024.size (by sl_kernel_rfl) y
def out2_A_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S512x1024 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
theorem scover2_A_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1x1024.size (by sl_kernel_rfl) y
def sout2_A_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scover2_A_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1x1024.size (by sl_kernel_rfl) y
def sout2_A_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-! ### Case B -/
theorem cover2_B_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out2_B_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover2_B_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1024.size (by sl_kernel_rfl) y
def sout2_B_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem scover2_B_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1024.size (by sl_kernel_rfl) y
def sout2_B_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ### Case C -/
theorem cover2_C_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out2_C_7 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover2_C_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1 S1x1024.size (by sl_kernel_rfl) y
def sout2_C_0 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1)
theorem scover2_C_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1 S1x1024.size (by sl_kernel_rfl) y
def sout2_C_1 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1)
theorem cover2_C_8 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1x1024.size (by sl_kernel_rfl) y
def out2_C_8 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem cover2_C_9 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1x1024.size (by sl_kernel_rfl) y
def out2_C_9 (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ## What the buffers hold after each point -/

/-- After the body at position `n`: the three outputs' staging buffers, then the two running totals. -/
def outsAt2 (c : Dev nD) : (n : ℕ) → n < cfg2.N → Vec F S512x1024 .f32 × Vec F S1x1x1024 .f32 × Vec F S1x1x1024 .f32 × Vec F S1x1024 .f32 × Vec F S1x1024 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), junk2_8, junk2_9, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 16 = 0 then
      if h1 : (n + 1) % 16 = 15 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), junk2_8, junk2_9, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 16 = 15 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, junk2_8, junk2_9, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 16 = 0) (h1 : ¬t.val % 16 = 15) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), junk2_8, junk2_9, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, junk2_8, junk2_9, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The launch's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The obligation on the body, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  by_cases h0 : t.val % 16 = 0
  · by_cases h1 : t.val % 16 = 15
    · exfalso; omega
    rw [Dat.leavesExact_idle (dat2 V c) 8 t (idleAt2_8 t (fun h => h1 ((hcond2_1 t).mp h))) (noFlush2_8 t (fun h => h1 ((hcond2_1 t).mp h)))]
    rw [Dat.leavesExact_idle (dat2 V c) 9 t (idleAt2_9 t (fun h => h1 ((hcond2_1 t).mp h))) (noFlush2_9 t (fun h => h1 ((hcond2_1 t).mp h)))]
    rw [outsAt2_A V c t h0 h1]
    unfold out2_A_7 sout2_A_0 sout2_A_1; (try dsimp only)
    by_cases hz : t.val = 0
    · rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_A_7 c _ _ _ _ _ _ _ _ _ _ _ _ _ _ _ _ _ _ _ _ _ _ _ _ _ _ _ _ _ _ _ _ _ _)
      isplitl [H8]; · iexists _; iexact H8
      iexists _; iexact H9
    · rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_A_7 c _ _ _ _ _ _ _ _ _ _ _ _ _ _ _ _ _ _ _ _ _ _ _ _ _ _ _ _ _ _ _ _ _ _)
      isplitl [H8]; · iexists _; iexact H8
      iexists _; iexact H9
  · have hz : t.val ≠ 0 := fun hz => h0 (by rw [hz])
    by_cases h1 : t.val % 16 = 15
    · rw [show (dat2 V c).leavesExact 8 t = owns (c : Thread nD τ) (ms2_8 t) fullShare ((dat2 V c).after 8 t) from by
        unfold Dat.leavesExact; rw [liveAt2_8_C t ((hcond2_1 t).mpr h1)], after2_8]
      rw [show (dat2 V c).leavesExact 9 t = owns (c : Thread nD τ) (ms2_9 t) fullShare ((dat2 V c).after 9 t) from by
        unfold Dat.leavesExact; rw [liveAt2_9_C t ((hcond2_1 t).mpr h1)], after2_9]
      rw [outsAt2_C V c t h0 h1]
      unfold out2_C_7 out2_C_8 out2_C_9 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e3, H7⟩, ⟨%e4, H8⟩, ⟨%e5, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover2_C_9 c _ _ _ _ _ _ _ _ _ _ _ _ _ _ _ _ _ _ _ _ _ _ _ _ _ _ _ _ _ _ _ _ _ _ _ _)
    · rw [Dat.leavesExact_idle (dat2 V c) 8 t (idleAt2_8 t (fun h => h1 ((hcond2_1 t).mp h))) (noFlush2_8 t (fun h => h1 ((hcond2_1 t).mp h)))]
      rw [Dat.leavesExact_idle (dat2 V c) 9 t (idleAt2_9 t (fun h => h1 ((hcond2_1 t).mp h))) (noFlush2_9 t (fun h => h1 ((hcond2_1 t).mp h)))]
      rw [outsAt2_B V c t h0 h1]
      unfold out2_B_7 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover2_B_7 c _ _ _ _ _ _ _ _ _ _ _ _ _ _ _ _ _ _ _ _ _ _ _ _ _ _ _ _ _ _ _ _ _ _ _ _)
      isplitl [H8]; · iexists _; iexact H8
      iexists _; iexact H9

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 (F := F) V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 (F := F) V c).Φ (Fin.last cfg2.N) ⊢ Pipeline.ΦA spec2 c :=
  Phi_out2 V c _ (by rw [Fin.val_last]; have : cfg2.N = 32 := N_2; omega)

end Cert.KernelIdeal.Hand

end
-- ==== Proof.R3Runs.lean ====
/-
  Launch 3: what its three cases share. The body branches twice on the second grid coordinate: at the
  first point of a half (coordinate 0) it clears the two running totals, at the last (coordinate 15) it
  copies them to the two statistics outputs; a point is of case A (first), B (in between) or C (last).
  Here: the windows' blocks as the region finds them, the two conditions decided over the grid, where the
  statistics windows are idle, and the staging and scratch memrefs the cases are stated over.
-/
import proofs.«157065_j74259984548393_2_alg».proof.Proof.Gen.KernelIdeal.Launch
import proofs.«157065_j74259984548393_2_alg».proof.Proof.Gen.KernelIdeal.Skeleton
import proofs.«157065_j74259984548393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The first branch's condition: the second coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
/-- The second branch's condition: the second coordinate is 15. -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem idleAt3_8 : ∀ t : Fin cfg3.N, ¬cond3_1 (grid3.coords t) → cfg3.idle 8 (grid3.coords t) = true := by decide +kernel
theorem noFlush3_8 : ∀ t : Fin cfg3.N, ¬cond3_1 (grid3.coords t) → (cfg3.win 8).flush t = false := by decide +kernel
theorem liveAt3_8_C : ∀ t : Fin cfg3.N, cond3_1 (grid3.coords t) → cfg3.idle 8 (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9_C : ∀ t : Fin cfg3.N, cond3_1 (grid3.coords t) → cfg3.idle 9 (grid3.coords t) = false := by decide +kernel

/-- One staging buffer per output window, through which its contents are stated. -/
abbrev VO3_7 : View sig .tc .vmem S512x1024 .f32 := (Memref.whole cc3_stg7_0 : Memref sig .tc .vmem S512x1024 .f32).view
abbrev VO3_8 : View sig .tc .vmem S1x1x1024 .f32 := (Memref.whole cc3_stg8_0 : Memref sig .tc .vmem S1x1x1024 .f32).view
abbrev VO3_9 : View sig .tc .vmem S1x1x1024 .f32 := (Memref.whole cc3_stg9_0 : Memref sig .tc .vmem S1x1x1024 .f32).view
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x1024 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x1x1024 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1x1024 .f32 := win3_9.stage (cfg3.slots t 9)
abbrev hs3_9 (t : Fin cfg3.N) : (ms3_9 t).IsWhole := hstage3_9 ((cfg3.slots t 9).cast nbuf3_9)
/-- The two running totals: whole scoped buffers of the kernel's own. -/
abbrev scM3_0 : Memref sig .tc .vmem S1x1024 .f32 := Memref.whole cc3_scratch0
abbrev scM3_1 : Memref sig .tc .vmem S1x1024 .f32 := Memref.whole cc3_scratch1
abbrev VS3_0 : View sig .tc .vmem S1x1024 .f32 := scM3_0.view
abbrev VS3_1 : View sig .tc .vmem S1x1024 .f32 := scM3_1.view

/-- The launch's invariant with the two running totals split out, each owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.R3Run.lean ====
/-
  Launch 3, the three cases (A first, then B and C): the body run whole on any staging memrefs — the first point of a half: the running totals are cleared, then the block's column sums added.
  The pieces each buffer ends with are found by the run itself.
-/
import proofs.«157065_j74259984548393_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc3__bn_matmul_stats_kernel_eq_skeleton]; unfold cc3__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun3_B (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (LS0 : List (View.Piece (Elt F) S1x1024 .f32)), { LS1 : List (View.Piece (Elt F) S1x1024 .f32) //
      ∀ (xi4 xi5 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi4 ∗ owns (c : Thread nD τ) arg11 fullShare xi5 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ owns (c : Thread nD τ) arg10 fullShare xi4 ∗ owns (c : Thread nD τ) arg11 fullShare xi5 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi4 xi5 E K => ?run⟩
  case run =>
    simp only [cc3__bn_matmul_stats_kernel_eq_skeleton]; unfold cc3__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%fo4, %hfo4, HO4⟩, ⟨%fo5, %hfo5, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfo4; obtain rfl := harg11.eq_unread hfo5; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]
    · iexists _; isplitr; · ipureintro; exact harg10.read_unread _
      iexact HO4
    isplitl [HO5]
    · iexists _; isplitr; · ipureintro; exact harg11.read_unread _
      iexact HO5
    isplitl [HS0]; · iexists _; iexact HS0
    iexists _; iexact HS1

set_option maxHeartbeats 4000000 in
noncomputable def kernelRun3_C (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    Σ' (L3 : List (View.Piece (Elt F) S512x1024 .f32)) (L4 : List (View.Piece (Elt F) S1x1x1024 .f32)) (L5 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L3) ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc3__bn_matmul_stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc3__bn_matmul_stats_kernel_eq_skeleton]; unfold cc3__bn_matmul_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do3, %fo3, -, HO3⟩, ⟨%do4, %fo4, -, HO4⟩, ⟨%do5, %fo5, -, HO5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO3]; · iexists _; iexact HO3
    isplitl [HO4]; · iexists _; iexact HO4
    isplitl [HO5]; · iexists _; iexact HO5
    isplitl [HS0]; · iexists _; iexact HS0
    iexists _; iexact HS1

end Cert.KernelIdeal.Hand

end
-- ==== Proof.R3Frame.lean ====
/-
  Launch 3: what every buffer holds after each grid point, the launch's proof data, and the obligation the launch
  asks of the body at every point. The running totals are carried from point to point within a half of the grid: the
  contents after a point are the case's pieces read back, over what the point before left.
-/
import proofs.«157065_j74259984548393_2_alg».proof.Proof.R3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for the statistics windows at the points that leave them idle (nothing consults them). -/
def junk3_8 : Vec F S1x1x1024 .f32 := VO3_8.read (Elt F) (VO3_8.writes (Elt F) VO3_8.junk [])
def junk3_9 : Vec F S1x1x1024 .f32 := VO3_9.read (Elt F) (VO3_9.writes (Elt F) VO3_9.junk [])

/-! ### Case A -/
theorem cover3_A_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S512x1024.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1024.size (by sl_kernel_rfl) y
def out3_A_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S512x1024 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
theorem scover3_A_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S1x1024.size (by sl_kernel_rfl) y
def sout3_A_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
theorem scover3_A_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (y : S1x1024.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1x1024.size (by sl_kernel_rfl) y
def sout3_A_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) : Vec F S1x1024 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-! ### Case B -/
theorem cover3_B_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out3_B_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover3_B_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1024.size (by sl_kernel_rfl) y
def sout3_B_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem scover3_B_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1024.size (by sl_kernel_rfl) y
def sout3_B_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ### Case C -/
theorem cover3_C_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S512x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1 S512x1024.size (by sl_kernel_rfl) y
def out3_C_7 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S512x1024 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).1)
theorem scover3_C_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1 S1x1024.size (by sl_kernel_rfl) y
def sout3_C_0 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.1)
theorem scover3_C_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1 S1x1024.size (by sl_kernel_rfl) y
def sout3_C_1 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1024 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.2.2.1)
theorem cover3_C_8 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1 S1x1x1024.size (by sl_kernel_rfl) y
def out3_C_8 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO3_8.read (Elt F) (VO3_8.writes (Elt F) VO3_8.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.1)
theorem cover3_C_9 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) (y : S1x1x1024.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1 S1x1x1024.size (by sl_kernel_rfl) y
def out3_C_9 (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i)
    (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) : Vec F S1x1x1024 .f32 :=
  VO3_9.read (Elt F) (VO3_9.writes (Elt F) VO3_9.junk (kernelRun3_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1).2.2.1)

/-! ## What the buffers hold after each point -/

/-- After the body at position `n`: the three outputs' staging buffers, then the two running totals. -/
def outsAt3 (c : Dev nD) : (n : ℕ) → n < cfg3.N → Vec F S512x1024 .f32 × Vec F S1x1x1024 .f32 × Vec F S1x1x1024 .f32 × Vec F S1x1024 .f32 × Vec F S1x1024 .f32
  | 0, hn => (out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩), junk3_8, junk3_9, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩))
  | n + 1, hn =>
    if h0 : (n + 1) % 16 = 0 then
      if h1 : (n + 1) % 16 = 15 then
        False.elim (by omega)
      else
        (out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩), junk3_8, junk3_9, sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩))
    else
      if h1 : (n + 1) % 16 = 15 then
        (out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2)
      else
        (out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, junk3_8, junk3_9, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.2.2.1 (outsAt3 c n (Nat.lt_of_succ_lt hn)).2.2.2.2)

theorem outsAt3_A (c : Dev nD) (t : Fin cfg3.N) (h0 : t.val % 16 = 0) (h1 : ¬t.val % 16 = 15) :
    outsAt3 V c t.val t.isLt = (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t), junk3_8, junk3_9, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, junk3_8, junk3_9, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the launch's own (each running total at anything);
    afterwards each running total at what the point before left, the other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The launch's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
    | ⟨8, _⟩ => (outsAt3 V c t.val t.isLt).2.1
    | ⟨9, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]
theorem after3_8 (c : Dev nD) (t : Fin cfg3.N) : (dat3 V c).after 8 t = (outsAt3 V c t.val t.isLt).2.1 := by dsimp only [dat3]
theorem after3_9 (c : Dev nD) (t : Fin cfg3.N) : (dat3 V c).after 9 t = (outsAt3 V c t.val t.isLt).2.2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The obligation on the body, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  rw [show (dat3 V c).leavesExact 7 t = owns (c : Thread nD τ) (ms3_7 t) fullShare ((dat3 V c).after 7 t) from by
    unfold Dat.leavesExact; rw [liveAt3_7 t], after3_7]
  by_cases h0 : t.val % 16 = 0
  · by_cases h1 : t.val % 16 = 15
    · exfalso; omega
    rw [Dat.leavesExact_idle (dat3 V c) 8 t (idleAt3_8 t (fun h => h1 ((hcond3_1 t).mp h))) (noFlush3_8 t (fun h => h1 ((hcond3_1 t).mp h)))]
    rw [Dat.leavesExact_idle (dat3 V c) 9 t (idleAt3_9 t (fun h => h1 ((hcond3_1 t).mp h))) (noFlush3_9 t (fun h => h1 ((hcond3_1 t).mp h)))]
    rw [outsAt3_A V c t h0 h1]
    unfold out3_A_7 sout3_A_0 sout3_A_1; (try dsimp only)
    by_cases hz : t.val = 0
    · rw [PhiS3_castSucc V c t, PhiS3_zero V c _ _ hz, PhiA3_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_A c (grid3.coords t) _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_A_7 c _ _ _ _ _ _ _ _ _ _ _ _ _ _ _ _ _ _ _ _ _ _ _ _ _ _ _ _ _ _ _ _ _ _)
      isplitl [H8]; · iexists _; iexact H8
      iexists _; iexact H9
    · rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_A c (grid3.coords t) _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexists _; iexact HS0
      isplitl [HS1]; · iexists _; iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_A_1 c _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_A_7 c _ _ _ _ _ _ _ _ _ _ _ _ _ _ _ _ _ _ _ _ _ _ _ _ _ _ _ _ _ _ _ _ _ _)
      isplitl [H8]; · iexists _; iexact H8
      iexists _; iexact H9
  · have hz : t.val ≠ 0 := fun hz => h0 (by rw [hz])
    by_cases h1 : t.val % 16 = 15
    · rw [show (dat3 V c).leavesExact 8 t = owns (c : Thread nD τ) (ms3_8 t) fullShare ((dat3 V c).after 8 t) from by
        unfold Dat.leavesExact; rw [liveAt3_8_C t ((hcond3_1 t).mpr h1)], after3_8]
      rw [show (dat3 V c).leavesExact 9 t = owns (c : Thread nD τ) (ms3_9 t) fullShare ((dat3 V c).after 9 t) from by
        unfold Dat.leavesExact; rw [liveAt3_9_C t ((hcond3_1 t).mpr h1)], after3_9]
      rw [outsAt3_C V c t h0 h1]
      unfold out3_C_7 out3_C_8 out3_C_9 sout3_C_0 sout3_C_1; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_C c (grid3.coords t) _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e3, H7⟩, ⟨%e4, H8⟩, ⟨%e5, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_C_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover3_C_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover3_C_9 c _ _ _ _ _ _ _ _ _ _ _ _ _ _ _ _ _ _ _ _ _ _ _ _ _ _ _ _ _ _ _ _ _ _ _ _)
    · rw [Dat.leavesExact_idle (dat3 V c) 8 t (idleAt3_8 t (fun h => h1 ((hcond3_1 t).mp h))) (noFlush3_8 t (fun h => h1 ((hcond3_1 t).mp h)))]
      rw [Dat.leavesExact_idle (dat3 V c) 9 t (idleAt3_9 t (fun h => h1 ((hcond3_1 t).mp h))) (noFlush3_9 t (fun h => h1 ((hcond3_1 t).mp h)))]
      rw [outsAt3_B V c t h0 h1]
      unfold out3_B_7 sout3_B_0 sout3_B_1; (try dsimp only)
      rw [PhiS3_castSucc V c t, PhiS3_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_B c (grid3.coords t) _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e3, H7⟩, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover3_B_7 c _ _ _ _ _ _ _ _ _ _ _ _ _ _ _ _ _ _ _ _ _ _ _ _ _ _ _ _ _ _ _ _ _ _ _ _)
      isplitl [H8]; · iexists _; iexact H8
      iexists _; iexact H9

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 (F := F) V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 (F := F) V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout3 (c : Dev nD) : (dat3 (F := F) V c).Φ (Fin.last cfg3.N) ⊢ Pipeline.ΦA spec3 c :=
  Phi_out3 V c _ (by rw [Fin.val_last]; have : cfg3.N = 32 := N_3; omega)

end Cert.KernelIdeal.Hand

end
-- ==== Proof.Region4.lean ====
/-
  The last layer's launch: at each of the 32 grid points a block of 512 rows of the fourth
  pre-activation is normalised, rectified and multiplied into the (padded) weights, plus the bias.
  What the output block holds after the body, the body's triple, the launch's proof data and the
  obligation the launch asks of the body at every point.
-/
import proofs.«157065_j74259984548393_2_alg».proof.Proof.Gen.KernelIdeal.Launch
import proofs.«157065_j74259984548393_2_alg».proof.Proof.Gen.KernelIdeal.Skeleton
import proofs.«157065_j74259984548393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's staging buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

abbrev r4_A : Rect S512x1024 := Rect.unit (s := S512x1024) ![0, 0] S512x1024.size inb_S512x1024_S512x1024_0_0
abbrev r4_V : Rect S1x1024 := Rect.unit (s := S1x1024) ![0, 0] S1x1024.size inb_S1x1024_S1x1024_0_0
abbrev r4_W : Rect S1024x128 := Rect.unit (s := S1024x128) ![0, 0] S1024x128.size inb_S1024x128_S1024x128_0_0
abbrev r4_B : Rect S1x128 := Rect.unit (s := S1x128) ![0, 0] S1x128.size inb_S1x128_S1x128_0_0
abbrev r4_O : Rect S512x128 := Rect.unit (s := S512x128) ![0, 0] S512x128.size inb_S512x128_S512x128_0_0

/-- The output block after the body, from the seven input blocks (activation, mean, inverse deviation, scale, shift,
    weights, bias): its one store. -/
def out4_7 (x0 : Vec F S512x1024 .f32) (x1 x2 x3 x4 : Vec F S1x1024 .f32) (x5 : Vec F S1024x128 .bf16) (x6 : Vec F S1x128 .f32) : Vec F S512x128 .f32 :=
  View.canon [⟨r4_O, k4_pay1 (View.ld x0 r4_A) (View.ld x3 r4_V) (View.ld x1 r4_V) (View.ld x2 r4_V) (View.ld x4 r4_V) (View.ld x5 r4_W) (View.ld x6 r4_B)⟩]

/-- The store covers the block. -/
theorem cover4_7 (p0 : Vec F S512x128 .f32) (y : S512x128.Idx) :
    ∃ pc ∈ ([⟨r4_O, p0⟩] : List (View.Piece (Elt F) S512x128 .f32)), y ∈ pc.1.set :=
  View.cover_of_tiled [⟨r4_O, p0⟩] S512x128.size (by rfl) y

set_option maxHeartbeats 1000000 in
/-- The body on whole staging memrefs: the inputs kept, the output at `out4_7` of them. -/
theorem sound_kernel4 (c : Dev nD) (E : Set ℕ) (i : grid4.Coords)
    (arg1 : Memref sig .tc .vmem S512x1024 .f32) (harg1 : arg1.IsWhole) (arg2 : Memref sig .tc .vmem S1x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S512x128 .f32) (harg8 : arg8.IsWhole)
    (x0 : Vec F S512x1024 .f32) (x1 x2 x3 x4 : Vec F S1x1024 .f32) (x5 : Vec F S1024x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__bn_matmul_bias_kernel i arg1 harg1 arg2 harg2 arg3 harg3 arg4 harg4 arg5 harg5 arg6 harg6 arg7 harg7 arg8 harg8) K := by
  simp only [cc4__bn_matmul_bias_kernel_eq_skeleton]; unfold cc4__bn_matmul_bias_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The launch's proof data -/

/-- The proof data on core `c`: the arrays as the region finds them; after the body at point `t` each input's buffer
    at its block and the output's at `out4_7` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's obligation on the body, at every point. -/
theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 (F := F) V c).Φ 0 := Idealize.SL.BI.Entails.refl _
theorem hout4 (c : Dev nD) : (dat4 (F := F) V c).Φ (Fin.last cfg4.N) ⊢ Pipeline.ΦA spec4 c := Idealize.SL.BI.Entails.refl _

end Cert.KernelIdeal.Hand

end
-- ==== Proof.KFold.lean ====
/-
  The buffer contents between the sixteen items of the program: a fold from the launch memory
  through the host stretches (each operation's result written over the contents before it) and
  the five launches (each launch's arrays at what its write-backs leave, every other buffer as
  before). The nineteen argument arrays are written by no item, so the fold read at an argument
  walks back to the launch memory.
-/
import proofs.«157065_j74259984548393_2_alg».proof.Proof.R0Frame
import proofs.«157065_j74259984548393_2_alg».proof.Proof.R1Frame
import proofs.«157065_j74259984548393_2_alg».proof.Proof.R2Frame
import proofs.«157065_j74259984548393_2_alg».proof.Proof.R3Frame
import proofs.«157065_j74259984548393_2_alg».proof.Proof.Region4
import proofs.«157065_j74259984548393_2_alg».proof.Proof.Gen.KernelIdeal.Regions
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After the host stretch `hostOps0`. -/
abbrev W1 : Dev nD → Valuation τ sig (Elt F) := fun c => StableHlo.after hostOps0 (W0 m ρ c)
/-- A reference the stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
/-- A reference the stretch does not write keeps its contents. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
/-- A reference the stretch does not write keeps its contents. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- After the host stretch `hostOps0_3`. -/
abbrev W4 : Dev nD → Valuation τ sig (Elt F) := fun c => StableHlo.after hostOps0_3 (W3 m ρ c)
/-- A reference the stretch does not write keeps its contents. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h

/-- After the host stretch `hostOps0_4`. -/
abbrev W5 : Dev nD → Valuation τ sig (Elt F) := fun c => StableHlo.after hostOps0_4 (W4 m ρ c)
/-- A reference the stretch does not write keeps its contents. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
/-- The same read at the TensorCore's references: launch 0's entry contents. -/
abbrev V5 : (c : Dev nD) → (b : Ref sig .tc) → Buf (Elt F) ((c : Thread nD τ).loc b) := fun c b => W5 m ρ c b

/-- At launch 0's exit: its arrays at what the pipeline leaves (the inputs as entered, each output's
    write-backs folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references: launch 0's exit contents. -/
abbrev V6 : (c : Dev nD) → (b : Ref sig .tc) → Buf (Elt F) ((c : Thread nD τ).loc b) := fun c b => W6 m ρ c b
/-- At launch 0's exit each of its arrays holds what the pipeline leaves, and every other buffer what it held
    at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host stretch `hostOps1`. -/
abbrev W7 : Dev nD → Valuation τ sig (Elt F) := fun c => StableHlo.after hostOps1 (W6 m ρ c)
/-- A reference the stretch does not write keeps its contents. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
/-- The same read at the TensorCore's references: launch 1's entry contents. -/
abbrev V7 : (c : Dev nD) → (b : Ref sig .tc) → Buf (Elt F) ((c : Thread nD τ).loc b) := fun c b => W7 m ρ c b

/-- At launch 1's exit: its arrays at what the pipeline leaves (the inputs as entered, each output's
    write-backs folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references: launch 1's exit contents. -/
abbrev V8 : (c : Dev nD) → (b : Ref sig .tc) → Buf (Elt F) ((c : Thread nD τ).loc b) := fun c b => W8 m ρ c b
/-- At launch 1's exit each of its arrays holds what the pipeline leaves, and every other buffer what it held
    at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the host stretch `hostOps2`. -/
abbrev W9 : Dev nD → Valuation τ sig (Elt F) := fun c => StableHlo.after hostOps2 (W8 m ρ c)
/-- A reference the stretch does not write keeps its contents. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
/-- The same read at the TensorCore's references: launch 2's entry contents. -/
abbrev V9 : (c : Dev nD) → (b : Ref sig .tc) → Buf (Elt F) ((c : Thread nD τ).loc b) := fun c b => W9 m ρ c b

/-- At launch 2's exit: its arrays at what the pipeline leaves (the inputs as entered, each output's
    write-backs folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references: launch 2's exit contents. -/
abbrev V10 : (c : Dev nD) → (b : Ref sig .tc) → Buf (Elt F) ((c : Thread nD τ).loc b) := fun c b => W10 m ρ c b
/-- At launch 2's exit each of its arrays holds what the pipeline leaves, and every other buffer what it held
    at entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After the host stretch `hostOps3`. -/
abbrev W11 : Dev nD → Valuation τ sig (Elt F) := fun c => StableHlo.after hostOps3 (W10 m ρ c)
/-- A reference the stretch does not write keeps its contents. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
/-- The same read at the TensorCore's references: launch 3's entry contents. -/
abbrev V11 : (c : Dev nD) → (b : Ref sig .tc) → Buf (Elt F) ((c : Thread nD τ).loc b) := fun c b => W11 m ρ c b

/-- At launch 3's exit: its arrays at what the pipeline leaves (the inputs as entered, each output's
    write-backs folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references: launch 3's exit contents. -/
abbrev V12 : (c : Dev nD) → (b : Ref sig .tc) → Buf (Elt F) ((c : Thread nD τ).loc b) := fun c b => W12 m ρ c b
/-- At launch 3's exit each of its arrays holds what the pipeline leaves, and every other buffer what it held
    at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-- After the host stretch `hostOps4`. -/
abbrev W13 : Dev nD → Valuation τ sig (Elt F) := fun c => StableHlo.after hostOps4 (W12 m ρ c)
/-- A reference the stretch does not write keeps its contents. -/
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
/-- The same read at the TensorCore's references: launch 4's entry contents. -/
abbrev V13 : (c : Dev nD) → (b : Ref sig .tc) → Buf (Elt F) ((c : Thread nD τ).loc b) := fun c b => W13 m ρ c b

/-- At launch 4's exit: its arrays at what the pipeline leaves (the inputs as entered, each output's
    write-backs folded), every other buffer as entered. -/
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- The same read at the TensorCore's references: launch 4's exit contents. -/
abbrev V14 : (c : Dev nD) → (b : Ref sig .tc) → Buf (Elt F) ((c : Thread nD τ).loc b) := fun c b => W14 m ρ c b
/-- At launch 4's exit each of its arrays holds what the pipeline leaves, and every other buffer what it held
    at entry. -/
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

/-- After the host stretch `hostOps5`. -/
abbrev W15 : Dev nD → Valuation τ sig (Elt F) := fun c => StableHlo.after hostOps5 (W14 m ρ c)
/-- A reference the stretch does not write keeps its contents. -/
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h

/-- After the host stretch `hostOps5_1`. -/
abbrev W16 : Dev nD → Valuation τ sig (Elt F) := fun c => StableHlo.after hostOps5_1 (W15 m ρ c)
/-- A reference the stretch does not write keeps its contents. -/
theorem W16_of (c : Dev nD) (r : Ref sig .tc) (h : r ∉ hostOps5_1_W) : W16 m ρ c (Proc.devRef .tc r) = W15 m ρ c (Proc.devRef .tc r) :=
  StableHlo.after_of_writes_sub hostOps5_1 _ hostOps5_1_writes h

/-! ### The arguments end as launched -/

/-- `main_arg0` reaches the end as launched: no host stretch writes it, launch 0 only reads it through an input window, no other launch has it among its arrays. -/
theorem W16_main_arg0 (c : Dev nD) : W16 m ρ c (Proc.devRef .tc main_arg0) = m ((c : Thread nD τ).loc main_arg0) :=
  (W16_of m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  ((W6_arr m ρ c 0).trans (((dat0 (V5 m ρ) c).arrAt_in 0 rfl _).trans (A_eq0 (V5 m ρ) c 0))).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide)).trans rfl

/-- `main_arg1` reaches the end as launched: no host stretch writes it and no launch has it among its arrays. -/
theorem W16_main_arg1 (c : Dev nD) : W16 m ρ c (Proc.devRef .tc main_arg1) = m ((c : Thread nD τ).loc main_arg1) :=
  (W16_of m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of m ρ c main_arg1 (by decide)).trans <|
  (W3_of m ρ c main_arg1 (by decide)).trans <|
  (W2_of m ρ c main_arg1 (by decide)).trans <|
  (W1_of m ρ c main_arg1 (by decide)).trans rfl

/-- `main_arg2` reaches the end as launched: no host stretch writes it and no launch has it among its arrays. -/
theorem W16_main_arg2 (c : Dev nD) : W16 m ρ c (Proc.devRef .tc main_arg2) = m ((c : Thread nD τ).loc main_arg2) :=
  (W16_of m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide)).trans rfl

/-- `main_arg3` reaches the end as launched: no host stretch writes it and no launch has it among its arrays. -/
theorem W16_main_arg3 (c : Dev nD) : W16 m ρ c (Proc.devRef .tc main_arg3) = m ((c : Thread nD τ).loc main_arg3) :=
  (W16_of m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide)).trans rfl

/-- `main_arg4` reaches the end as launched: no host stretch writes it and no launch has it among its arrays. -/
theorem W16_main_arg4 (c : Dev nD) : W16 m ρ c (Proc.devRef .tc main_arg4) = m ((c : Thread nD τ).loc main_arg4) :=
  (W16_of m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of m ρ c main_arg4 (by decide)).trans <|
  (W3_of m ρ c main_arg4 (by decide)).trans <|
  (W2_of m ρ c main_arg4 (by decide)).trans <|
  (W1_of m ρ c main_arg4 (by decide)).trans rfl

/-- `main_arg5` reaches the end as launched: no host stretch writes it and no launch has it among its arrays. -/
theorem W16_main_arg5 (c : Dev nD) : W16 m ρ c (Proc.devRef .tc main_arg5) = m ((c : Thread nD τ).loc main_arg5) :=
  (W16_of m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of m ρ c main_arg5 (by decide)).trans <|
  (W3_of m ρ c main_arg5 (by decide)).trans <|
  (W2_of m ρ c main_arg5 (by decide)).trans <|
  (W1_of m ρ c main_arg5 (by decide)).trans rfl

/-- `main_arg6` reaches the end as launched: no host stretch writes it and no launch has it among its arrays. -/
theorem W16_main_arg6 (c : Dev nD) : W16 m ρ c (Proc.devRef .tc main_arg6) = m ((c : Thread nD τ).loc main_arg6) :=
  (W16_of m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of m ρ c main_arg6 (by decide)).trans <|
  (W3_of m ρ c main_arg6 (by decide)).trans <|
  (W2_of m ρ c main_arg6 (by decide)).trans <|
  (W1_of m ρ c main_arg6 (by decide)).trans rfl

/-- `main_arg7` reaches the end as launched: no host stretch writes it and no launch has it among its arrays. -/
theorem W16_main_arg7 (c : Dev nD) : W16 m ρ c (Proc.devRef .tc main_arg7) = m ((c : Thread nD τ).loc main_arg7) :=
  (W16_of m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of m ρ c main_arg7 (by decide)).trans <|
  (W3_of m ρ c main_arg7 (by decide)).trans <|
  (W2_of m ρ c main_arg7 (by decide)).trans <|
  (W1_of m ρ c main_arg7 (by decide)).trans rfl

/-- `main_arg8` reaches the end as launched: no host stretch writes it and no launch has it among its arrays. -/
theorem W16_main_arg8 (c : Dev nD) : W16 m ρ c (Proc.devRef .tc main_arg8) = m ((c : Thread nD τ).loc main_arg8) :=
  (W16_of m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of m ρ c main_arg8 (by decide)).trans <|
  (W3_of m ρ c main_arg8 (by decide)).trans <|
  (W2_of m ρ c main_arg8 (by decide)).trans <|
  (W1_of m ρ c main_arg8 (by decide)).trans rfl

/-- `main_arg9` reaches the end as launched: no host stretch writes it and no launch has it among its arrays. -/
theorem W16_main_arg9 (c : Dev nD) : W16 m ρ c (Proc.devRef .tc main_arg9) = m ((c : Thread nD τ).loc main_arg9) :=
  (W16_of m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of m ρ c main_arg9 (by decide)).trans <|
  (W3_of m ρ c main_arg9 (by decide)).trans <|
  (W2_of m ρ c main_arg9 (by decide)).trans <|
  (W1_of m ρ c main_arg9 (by decide)).trans rfl

/-- `main_arg10` reaches the end as launched: no host stretch writes it and no launch has it among its arrays. -/
theorem W16_main_arg10 (c : Dev nD) : W16 m ρ c (Proc.devRef .tc main_arg10) = m ((c : Thread nD τ).loc main_arg10) :=
  (W16_of m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of m ρ c main_arg10 (by decide)).trans <|
  (W3_of m ρ c main_arg10 (by decide)).trans <|
  (W2_of m ρ c main_arg10 (by decide)).trans <|
  (W1_of m ρ c main_arg10 (by decide)).trans rfl

/-- `main_arg11` reaches the end as launched: no host stretch writes it and no launch has it among its arrays. -/
theorem W16_main_arg11 (c : Dev nD) : W16 m ρ c (Proc.devRef .tc main_arg11) = m ((c : Thread nD τ).loc main_arg11) :=
  (W16_of m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of m ρ c main_arg11 (by decide)).trans <|
  (W3_of m ρ c main_arg11 (by decide)).trans <|
  (W2_of m ρ c main_arg11 (by decide)).trans <|
  (W1_of m ρ c main_arg11 (by decide)).trans rfl

/-- `main_arg12` reaches the end as launched: no host stretch writes it and no launch has it among its arrays. -/
theorem W16_main_arg12 (c : Dev nD) : W16 m ρ c (Proc.devRef .tc main_arg12) = m ((c : Thread nD τ).loc main_arg12) :=
  (W16_of m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of m ρ c main_arg12 (by decide)).trans <|
  (W3_of m ρ c main_arg12 (by decide)).trans <|
  (W2_of m ρ c main_arg12 (by decide)).trans <|
  (W1_of m ρ c main_arg12 (by decide)).trans rfl

/-- `main_arg13` reaches the end as launched: no host stretch writes it and no launch has it among its arrays. -/
theorem W16_main_arg13 (c : Dev nD) : W16 m ρ c (Proc.devRef .tc main_arg13) = m ((c : Thread nD τ).loc main_arg13) :=
  (W16_of m ρ c main_arg13 (by decide)).trans <|
  (W15_of m ρ c main_arg13 (by decide)).trans <|
  (W14_of_ne m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of_ne m ρ c main_arg13 (by decide)).trans <|
  (W7_of m ρ c main_arg13 (by decide)).trans <|
  (W6_of_ne m ρ c main_arg13 (by decide)).trans <|
  (W5_of m ρ c main_arg13 (by decide)).trans <|
  (W4_of m ρ c main_arg13 (by decide)).trans <|
  (W3_of m ρ c main_arg13 (by decide)).trans <|
  (W2_of m ρ c main_arg13 (by decide)).trans <|
  (W1_of m ρ c main_arg13 (by decide)).trans rfl

/-- `main_arg14` reaches the end as launched: no host stretch writes it and no launch has it among its arrays. -/
theorem W16_main_arg14 (c : Dev nD) : W16 m ρ c (Proc.devRef .tc main_arg14) = m ((c : Thread nD τ).loc main_arg14) :=
  (W16_of m ρ c main_arg14 (by decide)).trans <|
  (W15_of m ρ c main_arg14 (by decide)).trans <|
  (W14_of_ne m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of_ne m ρ c main_arg14 (by decide)).trans <|
  (W7_of m ρ c main_arg14 (by decide)).trans <|
  (W6_of_ne m ρ c main_arg14 (by decide)).trans <|
  (W5_of m ρ c main_arg14 (by decide)).trans <|
  (W4_of m ρ c main_arg14 (by decide)).trans <|
  (W3_of m ρ c main_arg14 (by decide)).trans <|
  (W2_of m ρ c main_arg14 (by decide)).trans <|
  (W1_of m ρ c main_arg14 (by decide)).trans rfl

/-- `main_arg15` reaches the end as launched: no host stretch writes it and no launch has it among its arrays. -/
theorem W16_main_arg15 (c : Dev nD) : W16 m ρ c (Proc.devRef .tc main_arg15) = m ((c : Thread nD τ).loc main_arg15) :=
  (W16_of m ρ c main_arg15 (by decide)).trans <|
  (W15_of m ρ c main_arg15 (by decide)).trans <|
  (W14_of_ne m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of_ne m ρ c main_arg15 (by decide)).trans <|
  (W7_of m ρ c main_arg15 (by decide)).trans <|
  (W6_of_ne m ρ c main_arg15 (by decide)).trans <|
  (W5_of m ρ c main_arg15 (by decide)).trans <|
  (W4_of m ρ c main_arg15 (by decide)).trans <|
  (W3_of m ρ c main_arg15 (by decide)).trans <|
  (W2_of m ρ c main_arg15 (by decide)).trans <|
  (W1_of m ρ c main_arg15 (by decide)).trans rfl

/-- `main_arg16` reaches the end as launched: no host stretch writes it and no launch has it among its arrays. -/
theorem W16_main_arg16 (c : Dev nD) : W16 m ρ c (Proc.devRef .tc main_arg16) = m ((c : Thread nD τ).loc main_arg16) :=
  (W16_of m ρ c main_arg16 (by decide)).trans <|
  (W15_of m ρ c main_arg16 (by decide)).trans <|
  (W14_of_ne m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of_ne m ρ c main_arg16 (by decide)).trans <|
  (W7_of m ρ c main_arg16 (by decide)).trans <|
  (W6_of_ne m ρ c main_arg16 (by decide)).trans <|
  (W5_of m ρ c main_arg16 (by decide)).trans <|
  (W4_of m ρ c main_arg16 (by decide)).trans <|
  (W3_of m ρ c main_arg16 (by decide)).trans <|
  (W2_of m ρ c main_arg16 (by decide)).trans <|
  (W1_of m ρ c main_arg16 (by decide)).trans rfl

/-- `main_arg17` reaches the end as launched: no host stretch writes it and no launch has it among its arrays. -/
theorem W16_main_arg17 (c : Dev nD) : W16 m ρ c (Proc.devRef .tc main_arg17) = m ((c : Thread nD τ).loc main_arg17) :=
  (W16_of m ρ c main_arg17 (by decide)).trans <|
  (W15_of m ρ c main_arg17 (by decide)).trans <|
  (W14_of_ne m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of_ne m ρ c main_arg17 (by decide)).trans <|
  (W7_of m ρ c main_arg17 (by decide)).trans <|
  (W6_of_ne m ρ c main_arg17 (by decide)).trans <|
  (W5_of m ρ c main_arg17 (by decide)).trans <|
  (W4_of m ρ c main_arg17 (by decide)).trans <|
  (W3_of m ρ c main_arg17 (by decide)).trans <|
  (W2_of m ρ c main_arg17 (by decide)).trans <|
  (W1_of m ρ c main_arg17 (by decide)).trans rfl

/-- `main_arg18` reaches the end as launched: no host stretch writes it and no launch has it among its arrays. -/
theorem W16_main_arg18 (c : Dev nD) : W16 m ρ c (Proc.devRef .tc main_arg18) = m ((c : Thread nD τ).loc main_arg18) :=
  (W16_of m ρ c main_arg18 (by decide)).trans <|
  (W15_of m ρ c main_arg18 (by decide)).trans <|
  (W14_of_ne m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of_ne m ρ c main_arg18 (by decide)).trans <|
  (W7_of m ρ c main_arg18 (by decide)).trans <|
  (W6_of_ne m ρ c main_arg18 (by decide)).trans <|
  (W5_of m ρ c main_arg18 (by decide)).trans <|
  (W4_of m ρ c main_arg18 (by decide)).trans <|
  (W3_of m ρ c main_arg18 (by decide)).trans <|
  (W2_of m ρ c main_arg18 (by decide)).trans <|
  (W1_of m ρ c main_arg18 (by decide)).trans rfl

end Cert.KernelIdeal.Hand

end
-- ==== Proof.KBase.lean ====
/-
  What every segment of the run shares: the launches' proof data as one family, the state that rides
  beside the buffers through every segment (the generator register at some state, nothing owed), a
  host stretch as a segment, and the last thread state.
-/
import proofs.«157065_j74259984548393_2_alg».proof.Proof.KFold
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every launch's proof data, each at its launch's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
  | ⟨4, _⟩ => fun c => dat4 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding
    along; it ends with those references at the operations' results over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W16 m ρ c) ∗ ∃ r, prngReg c r)

end Cert.KernelIdeal.Hand

end
-- ==== Proof.KReg0.lean ====
/-
  Launch 0 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    rw [Pipeline.ownSems0_none]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KReg1.lean ====
/-
  Launch 1 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V7 m ρ) c)
    unfold Pipeline.ΦA
    iintro ⟨Hp, -, Hr⟩
    isplitl [Hr]; · iexact Hr
    iexact Hp
  hout c := by
    rw [Pipeline.ownSems0_none]
    refine BIBase.Entails.trans (hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KReg2.lean ====
/-
  Launch 2 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V9 m ρ) c)
    unfold Pipeline.ΦA
    iintro ⟨Hp, -, Hr⟩
    isplitl [Hr]; · iexact Hr
    iexact Hp
  hout c := by
    rw [Pipeline.ownSems0_none]
    refine BIBase.Entails.trans (hout2 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KReg3.lean ====
/-
  Launch 3 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V11 m ρ) c)
    unfold Pipeline.ΦA
    iintro ⟨Hp, -, Hr⟩
    isplitl [Hr]; · iexact Hr
    iexact Hp
  hout c := by
    rw [Pipeline.ownSems0_none]
    refine BIBase.Entails.trans (hout3 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KReg4.lean ====
/-
  Launch 4 as a segment of the run: entered from every unscoped buffer at the contents before it, left at the
  contents after it. Its arrays are split out of the unscoped buffers at entry and put back, at what the
  write-backs leave, at exit; the generator register goes into the launch's invariant and comes back; nothing is
  owed; the kernel has no semaphore of its own.
-/
import proofs.«157065_j74259984548393_2_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V13 m ρ) c)
    unfold Pipeline.ΦA
    iintro ⟨Hp, -, Hr⟩
    isplitl [Hr]; · iexact Hr
    iexact Hp
  hout c := by
    rw [Pipeline.ownSems0_none]
    refine BIBase.Entails.trans (hout4 (V13 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KRun.lean ====
/-
  The run of the whole program: its sixteen items as segments (a host stretch from the contents before it, a
  launch by its record), the program as the run of those segments, and the launch over them. Every weakly fair
  execution from any memory with zero counters terminates, and the final memory holds every unscoped buffer at the
  last contents of the fold; the nineteen arguments, which no item writes, therefore end as launched.
-/
import proofs.«157065_j74259984548393_2_alg».proof.Proof.KReg0
import proofs.«157065_j74259984548393_2_alg».proof.Proof.KReg1
import proofs.«157065_j74259984548393_2_alg».proof.Proof.KReg2
import proofs.«157065_j74259984548393_2_alg».proof.Proof.KReg3
import proofs.«157065_j74259984548393_2_alg».proof.Proof.KReg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's 16 segments in order. -/
abbrev ksegs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .host (hseg hostOps5_1 hostOps5_1_sub hostOps5_1_fresh (W15 m ρ)) ]

set_option backward.isDefEq.respectTransparency.types false in
/-- The launch over the segments, at any post that follows from "every unscoped buffer holds the fold's last
    contents": the last thread state is read against the final state. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (ksegs m ρ)
    (fun c Q => by
      rewrite [main_chain c, Pipeline.Seg.run_eq_chain,
        show (ksegs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W16 m ρ c)
              ∗ (∃ r, prngReg c r) ∗ ∃ W, owes (c : Thread nD τ) (0 : CellTallies nD τ sig Unit) W)
          ⊢ (iprop((StableHlo.held (c : Thread nD τ) (Pipeline.ucRefs τ sig) (W16 m ρ c) ∗ ∃ r, prngReg c r)
              ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- Every weakly fair execution of the program terminates and ends with every unscoped buffer at the fold's last
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  run_of m ρ fun _ h => h

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of m ρ fun s h c => ⟨
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c),
    (h c _ (mem_uc main_arg16 (by decide))).trans (W16_main_arg16 m ρ c),
    (h c _ (mem_uc main_arg17 (by decide))).trans (W16_main_arg17 m ρ c),
    (h c _ (mem_uc main_arg18 (by decide))).trans (W16_main_arg18 m ρ c)⟩

/-- The returned array ends at the fold's last contents, and the argument arrays as launched. -/
theorem run_val : θ_run defs (onTc (τ := τ) (main (F := F))) ⟨m, fun _ => 0, ρ⟩ (fun r => ∀ c : Dev nD,
      r.2.mem ((c.tc : Thread nD τ).loc main_v139) = W16 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of m ρ fun s h c => ⟨
    h c _ (mem_uc main_v139 (by decide)),
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c),
    (h c _ (mem_uc main_arg16 (by decide))).trans (W16_main_arg16 m ρ c),
    (h c _ (mem_uc main_arg17 (by decide))).trans (W16_main_arg17 m ρ c),
    (h c _ (mem_uc main_arg18 (by decide))).trans (W16_main_arg18 m ρ c)⟩

end Cert.KernelIdeal.Hand

end
-- ==== Proof.KEntry.lean ====
/-
  Each launch's input arrays at its entry, read back through the fold to the item that last wrote them: the
  contents after the five stretches before the first launch (weights, biases, scales and shifts), the stretch just
  before the launch (the statistics rows), an earlier launch's output as its write-backs leave it, or (for an
  argument) the launch memory. And each launch's outputs at its exit.
-/
import proofs.«157065_j74259984548393_2_alg».proof.Proof.KFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Launch 0's inputs at its entry -/
theorem entry0_main_arg0 (c : Dev nD) : V5 m ρ c main_arg0 = m ((c : Thread nD τ).loc main_arg0) :=
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide)).trans rfl
theorem entry0_main_v9 (c : Dev nD) : V5 m ρ c main_v9 = W5 m ρ c (Proc.devRef .tc main_v9) :=
  rfl
theorem entry0_main_v53 (c : Dev nD) : V5 m ρ c main_v53 = W5 m ρ c (Proc.devRef .tc main_v53) :=
  rfl

/-! ### Launch 1's inputs at its entry -/
theorem entry1_main_v65_0 (c : Dev nD) : V7 m ρ c main_v65_0 = (dat0 (V5 m ρ) c).arrAt 3 cfg0.N :=
  (W7_of m ρ c main_v65_0 (by decide)).trans (W6_arr m ρ c 3)
theorem entry1_main_v73 (c : Dev nD) : V7 m ρ c main_v73 = StableHlo.after hostOps1 (W6 m ρ c) (Proc.devRef .tc main_v73) :=
  rfl
theorem entry1_main_v82 (c : Dev nD) : V7 m ρ c main_v82 = StableHlo.after hostOps1 (W6 m ρ c) (Proc.devRef .tc main_v82) :=
  rfl
theorem entry1_main_v57 (c : Dev nD) : V7 m ρ c main_v57 = W5 m ρ c (Proc.devRef .tc main_v57) :=
  (W7_of m ρ c main_v57 (by decide)).trans <|
  (W6_of_ne m ρ c main_v57 (by decide)).trans rfl
theorem entry1_main_v58 (c : Dev nD) : V7 m ρ c main_v58 = W5 m ρ c (Proc.devRef .tc main_v58) :=
  (W7_of m ρ c main_v58 (by decide)).trans <|
  (W6_of_ne m ρ c main_v58 (by decide)).trans rfl
theorem entry1_main_v19 (c : Dev nD) : V7 m ρ c main_v19 = W5 m ρ c (Proc.devRef .tc main_v19) :=
  (W7_of m ρ c main_v19 (by decide)).trans <|
  (W6_of_ne m ρ c main_v19 (by decide)).trans rfl
theorem entry1_main_v54 (c : Dev nD) : V7 m ρ c main_v54 = W5 m ρ c (Proc.devRef .tc main_v54) :=
  (W7_of m ρ c main_v54 (by decide)).trans <|
  (W6_of_ne m ρ c main_v54 (by decide)).trans rfl

/-! ### Launch 2's inputs at its entry -/
theorem entry2_main_v83_0 (c : Dev nD) : V9 m ρ c main_v83_0 = (dat1 (V7 m ρ) c).arrAt 7 cfg1.N :=
  (W9_of m ρ c main_v83_0 (by decide)).trans (W8_arr m ρ c 7)
theorem entry2_main_v91 (c : Dev nD) : V9 m ρ c main_v91 = StableHlo.after hostOps2 (W8 m ρ c) (Proc.devRef .tc main_v91) :=
  rfl
theorem entry2_main_v100 (c : Dev nD) : V9 m ρ c main_v100 = StableHlo.after hostOps2 (W8 m ρ c) (Proc.devRef .tc main_v100) :=
  rfl
theorem entry2_main_v59 (c : Dev nD) : V9 m ρ c main_v59 = W5 m ρ c (Proc.devRef .tc main_v59) :=
  (W9_of m ρ c main_v59 (by decide)).trans <|
  (W8_of_ne m ρ c main_v59 (by decide)).trans <|
  (W7_of m ρ c main_v59 (by decide)).trans <|
  (W6_of_ne m ρ c main_v59 (by decide)).trans rfl
theorem entry2_main_v60 (c : Dev nD) : V9 m ρ c main_v60 = W5 m ρ c (Proc.devRef .tc main_v60) :=
  (W9_of m ρ c main_v60 (by decide)).trans <|
  (W8_of_ne m ρ c main_v60 (by decide)).trans <|
  (W7_of m ρ c main_v60 (by decide)).trans <|
  (W6_of_ne m ρ c main_v60 (by decide)).trans rfl
theorem entry2_main_v29 (c : Dev nD) : V9 m ρ c main_v29 = W5 m ρ c (Proc.devRef .tc main_v29) :=
  (W9_of m ρ c main_v29 (by decide)).trans <|
  (W8_of_ne m ρ c main_v29 (by decide)).trans <|
  (W7_of m ρ c main_v29 (by decide)).trans <|
  (W6_of_ne m ρ c main_v29 (by decide)).trans rfl
theorem entry2_main_v55 (c : Dev nD) : V9 m ρ c main_v55 = W5 m ρ c (Proc.devRef .tc main_v55) :=
  (W9_of m ρ c main_v55 (by decide)).trans <|
  (W8_of_ne m ρ c main_v55 (by decide)).trans <|
  (W7_of m ρ c main_v55 (by decide)).trans <|
  (W6_of_ne m ρ c main_v55 (by decide)).trans rfl

/-! ### Launch 3's inputs at its entry -/
theorem entry3_main_v101_0 (c : Dev nD) : V11 m ρ c main_v101_0 = (dat2 (V9 m ρ) c).arrAt 7 cfg2.N :=
  (W11_of m ρ c main_v101_0 (by decide)).trans (W10_arr m ρ c 7)
theorem entry3_main_v109 (c : Dev nD) : V11 m ρ c main_v109 = StableHlo.after hostOps3 (W10 m ρ c) (Proc.devRef .tc main_v109) :=
  rfl
theorem entry3_main_v118 (c : Dev nD) : V11 m ρ c main_v118 = StableHlo.after hostOps3 (W10 m ρ c) (Proc.devRef .tc main_v118) :=
  rfl
theorem entry3_main_v61 (c : Dev nD) : V11 m ρ c main_v61 = W5 m ρ c (Proc.devRef .tc main_v61) :=
  (W11_of m ρ c main_v61 (by decide)).trans <|
  (W10_of_ne m ρ c main_v61 (by decide)).trans <|
  (W9_of m ρ c main_v61 (by decide)).trans <|
  (W8_of_ne m ρ c main_v61 (by decide)).trans <|
  (W7_of m ρ c main_v61 (by decide)).trans <|
  (W6_of_ne m ρ c main_v61 (by decide)).trans rfl
theorem entry3_main_v62 (c : Dev nD) : V11 m ρ c main_v62 = W5 m ρ c (Proc.devRef .tc main_v62) :=
  (W11_of m ρ c main_v62 (by decide)).trans <|
  (W10_of_ne m ρ c main_v62 (by decide)).trans <|
  (W9_of m ρ c main_v62 (by decide)).trans <|
  (W8_of_ne m ρ c main_v62 (by decide)).trans <|
  (W7_of m ρ c main_v62 (by decide)).trans <|
  (W6_of_ne m ρ c main_v62 (by decide)).trans rfl
theorem entry3_main_v39 (c : Dev nD) : V11 m ρ c main_v39 = W5 m ρ c (Proc.devRef .tc main_v39) :=
  (W11_of m ρ c main_v39 (by decide)).trans <|
  (W10_of_ne m ρ c main_v39 (by decide)).trans <|
  (W9_of m ρ c main_v39 (by decide)).trans <|
  (W8_of_ne m ρ c main_v39 (by decide)).trans <|
  (W7_of m ρ c main_v39 (by decide)).trans <|
  (W6_of_ne m ρ c main_v39 (by decide)).trans rfl
theorem entry3_main_v56 (c : Dev nD) : V11 m ρ c main_v56 = W5 m ρ c (Proc.devRef .tc main_v56) :=
  (W11_of m ρ c main_v56 (by decide)).trans <|
  (W10_of_ne m ρ c main_v56 (by decide)).trans <|
  (W9_of m ρ c main_v56 (by decide)).trans <|
  (W8_of_ne m ρ c main_v56 (by decide)).trans <|
  (W7_of m ρ c main_v56 (by decide)).trans <|
  (W6_of_ne m ρ c main_v56 (by decide)).trans rfl

/-! ### Launch 4's inputs at its entry -/
theorem entry4_main_v119_0 (c : Dev nD) : V13 m ρ c main_v119_0 = (dat3 (V11 m ρ) c).arrAt 7 cfg3.N :=
  (W13_of m ρ c main_v119_0 (by decide)).trans (W12_arr m ρ c 7)
theorem entry4_main_v127 (c : Dev nD) : V13 m ρ c main_v127 = StableHlo.after hostOps4 (W12 m ρ c) (Proc.devRef .tc main_v127) :=
  rfl
theorem entry4_main_v136 (c : Dev nD) : V13 m ρ c main_v136 = StableHlo.after hostOps4 (W12 m ρ c) (Proc.devRef .tc main_v136) :=
  rfl
theorem entry4_main_v63 (c : Dev nD) : V13 m ρ c main_v63 = W5 m ρ c (Proc.devRef .tc main_v63) :=
  (W13_of m ρ c main_v63 (by decide)).trans <|
  (W12_of_ne m ρ c main_v63 (by decide)).trans <|
  (W11_of m ρ c main_v63 (by decide)).trans <|
  (W10_of_ne m ρ c main_v63 (by decide)).trans <|
  (W9_of m ρ c main_v63 (by decide)).trans <|
  (W8_of_ne m ρ c main_v63 (by decide)).trans <|
  (W7_of m ρ c main_v63 (by decide)).trans <|
  (W6_of_ne m ρ c main_v63 (by decide)).trans rfl
theorem entry4_main_v64 (c : Dev nD) : V13 m ρ c main_v64 = W5 m ρ c (Proc.devRef .tc main_v64) :=
  (W13_of m ρ c main_v64 (by decide)).trans <|
  (W12_of_ne m ρ c main_v64 (by decide)).trans <|
  (W11_of m ρ c main_v64 (by decide)).trans <|
  (W10_of_ne m ρ c main_v64 (by decide)).trans <|
  (W9_of m ρ c main_v64 (by decide)).trans <|
  (W8_of_ne m ρ c main_v64 (by decide)).trans <|
  (W7_of m ρ c main_v64 (by decide)).trans <|
  (W6_of_ne m ρ c main_v64 (by decide)).trans rfl
theorem entry4_main_v50 (c : Dev nD) : V13 m ρ c main_v50 = W5 m ρ c (Proc.devRef .tc main_v50) :=
  (W13_of m ρ c main_v50 (by decide)).trans <|
  (W12_of_ne m ρ c main_v50 (by decide)).trans <|
  (W11_of m ρ c main_v50 (by decide)).trans <|
  (W10_of_ne m ρ c main_v50 (by decide)).trans <|
  (W9_of m ρ c main_v50 (by decide)).trans <|
  (W8_of_ne m ρ c main_v50 (by decide)).trans <|
  (W7_of m ρ c main_v50 (by decide)).trans <|
  (W6_of_ne m ρ c main_v50 (by decide)).trans rfl
theorem entry4_main_v52 (c : Dev nD) : V13 m ρ c main_v52 = W5 m ρ c (Proc.devRef .tc main_v52) :=
  (W13_of m ρ c main_v52 (by decide)).trans <|
  (W12_of_ne m ρ c main_v52 (by decide)).trans <|
  (W11_of m ρ c main_v52 (by decide)).trans <|
  (W10_of_ne m ρ c main_v52 (by decide)).trans <|
  (W9_of m ρ c main_v52 (by decide)).trans <|
  (W8_of_ne m ρ c main_v52 (by decide)).trans <|
  (W7_of m ρ c main_v52 (by decide)).trans <|
  (W6_of_ne m ρ c main_v52 (by decide)).trans rfl

/-! ### The launches' outputs at their exits -/
theorem W6_main_v65_0 (c : Dev nD) : W6 m ρ c (Proc.devRef .tc main_v65_0) = (dat0 (V5 m ρ) c).arrAt 3 cfg0.N :=
  W6_arr m ρ c 3
theorem W6_main_v65_1 (c : Dev nD) : W6 m ρ c (Proc.devRef .tc main_v65_1) = (dat0 (V5 m ρ) c).arrAt 4 cfg0.N :=
  W6_arr m ρ c 4
theorem W6_main_v65_2 (c : Dev nD) : W6 m ρ c (Proc.devRef .tc main_v65_2) = (dat0 (V5 m ρ) c).arrAt 5 cfg0.N :=
  W6_arr m ρ c 5
theorem W8_main_v83_0 (c : Dev nD) : W8 m ρ c (Proc.devRef .tc main_v83_0) = (dat1 (V7 m ρ) c).arrAt 7 cfg1.N :=
  W8_arr m ρ c 7
theorem W8_main_v83_1 (c : Dev nD) : W8 m ρ c (Proc.devRef .tc main_v83_1) = (dat1 (V7 m ρ) c).arrAt 8 cfg1.N :=
  W8_arr m ρ c 8
theorem W8_main_v83_2 (c : Dev nD) : W8 m ρ c (Proc.devRef .tc main_v83_2) = (dat1 (V7 m ρ) c).arrAt 9 cfg1.N :=
  W8_arr m ρ c 9
theorem W10_main_v101_0 (c : Dev nD) : W10 m ρ c (Proc.devRef .tc main_v101_0) = (dat2 (V9 m ρ) c).arrAt 7 cfg2.N :=
  W10_arr m ρ c 7
theorem W10_main_v101_1 (c : Dev nD) : W10 m ρ c (Proc.devRef .tc main_v101_1) = (dat2 (V9 m ρ) c).arrAt 8 cfg2.N :=
  W10_arr m ρ c 8
theorem W10_main_v101_2 (c : Dev nD) : W10 m ρ c (Proc.devRef .tc main_v101_2) = (dat2 (V9 m ρ) c).arrAt 9 cfg2.N :=
  W10_arr m ρ c 9
theorem W12_main_v119_0 (c : Dev nD) : W12 m ρ c (Proc.devRef .tc main_v119_0) = (dat3 (V11 m ρ) c).arrAt 7 cfg3.N :=
  W12_arr m ρ c 7
theorem W12_main_v119_1 (c : Dev nD) : W12 m ρ c (Proc.devRef .tc main_v119_1) = (dat3 (V11 m ρ) c).arrAt 8 cfg3.N :=
  W12_arr m ρ c 8
theorem W12_main_v119_2 (c : Dev nD) : W12 m ρ c (Proc.devRef .tc main_v119_2) = (dat3 (V11 m ρ) c).arrAt 9 cfg3.N :=
  W12_arr m ρ c 9
theorem W14_main_v137 (c : Dev nD) : W14 m ρ c (Proc.devRef .tc main_v137) = (dat4 (V13 m ρ) c).arrAt 7 cfg4.N :=
  W14_arr m ρ c 7

end Cert.KernelIdeal.Hand

end
-- ==== Proof.KResult.lean ====
/-
  What the program returns: the two host stretches after the last launch, read as one function of that launch's
  output (the first ten of its 128 columns, then the row-wise log-softmax).
-/
import proofs.«157065_j74259984548393_2_alg».proof.Proof.KFold
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first ten of the 128 columns. -/
def slice128 (x : (⟨S16384x128, .f32⟩ : BufTy).Contents (Elt F)) : (⟨S16384x10, .f32⟩ : BufTy).Contents (Elt F) :=
  extractStridedSlice S16384x10 ![0, 0] x slices_S16384x128_S16384x10_0_0

/-- The row-wise log-softmax as the program computes it: each row minus its maximum, minus the logarithm of the
    row sum of the exponentials of that difference. -/
def tail10 (z : (⟨S16384x10, .f32⟩ : BufTy).Contents (Elt F)) : (⟨S16384x10, .f32⟩ : BufTy).Contents (Elt F) :=
  subf (subf z (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf z ((constant S_ .f32 0xFF800000#32 : (⟨S_, .f32⟩ : BufTy).Contents (Elt F))) reducesTo_S16384x10_S16384_d1 h_S_))))) (broadcastInDim S16384x10 ![0, 1] bcast_S16384x1_S16384x10_0_1 (Host.log (broadcastInDim S16384x1 ![0] bcast_S16384_S16384x1_0 (Host.reduceAdd (Host.exp (subf z (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf z ((constant S_ .f32 0xFF800000#32 : (⟨S_, .f32⟩ : BufTy).Contents (Elt F))) reducesTo_S16384x10_S16384_d1 h_S_)))))) ((constant S_ .f32 0x00000000#32 : (⟨S_, .f32⟩ : BufTy).Contents (Elt F))) reducesTo_S16384x10_S16384_d1 h_S_))))

/-- The host tail as a function of the last launch's output. -/
def hostTail (x : (⟨S16384x128, .f32⟩ : BufTy).Contents (Elt F)) : (⟨S16384x10, .f32⟩ : BufTy).Contents (Elt F) :=
  tail10 (slice128 x)

/-- The one operation after the last launch slices its output. -/
theorem after_hostOps5 (V : Valuation τ sig (Elt F)) :
    StableHlo.after hostOps5 V (Proc.devRef .tc main_v138) = slice128 (V (Proc.devRef .tc main_v137)) := by
  simp only [hostOps5]
  after_results_simp <;> rfl

set_option maxHeartbeats 4000000 in
/-- The fifteen operations of the log-softmax, composed. -/
theorem after_hostOps5_1 (V : Valuation τ sig (Elt F)) :
    StableHlo.after hostOps5_1 V (Proc.devRef .tc main_v139) = tail10 (V (Proc.devRef .tc main_v138)) := by
  simp only [hostOps5_1]
  after_results_simp
  simp only [StableHlo.TRef.ofBuf, StableHlo.TRef.toBuf, cast_cast, cast_eq]
  rfl

/-- The returned array is the host tail of the last launch's output. -/
theorem result_eq (c : Dev nD) : W16 m ρ c (Proc.devRef .tc main_v139) = hostTail (W14 m ρ c (Proc.devRef .tc main_v137)) :=
  (after_hostOps5_1 (W15 m ρ c)).trans (congrArg tail10 (after_hostOps5 (W14 m ρ c)))

end Cert.KernelIdeal.Hand

end
-- ==== Proof.RefStages.lean ====
/-
  The reference network as pure functions of its argument arrays, stage by stage, each stage the
  composition of the program's own operations in their printed order: binarised weights, the
  linear layer's pre-activation, the column mean, the column variance, and normalise-scale-shift-
  rectify; then the five layers chained, the logits, and the final log-softmax.
-/
import proofs.«157065_j74259984548393_2_alg».proof.Proof.Gen.ReferenceIdeal

noncomputable section

namespace Cert.RefSide

open Cert.ReferenceIdeal Cert.ReferenceIdeal.Gen Idealize.ShloMosaic Idealize.SL.Sem

variable {F : FTy → Type} [FloatOps F]

/-- The binarised first-layer weights: each weight plus the correction `sign w · α − w`, `α` the row's mean absolute value. -/
def binW784 (w : (⟨S1024x784, .f32⟩ : BufTy).Contents (Elt F)) :
    (⟨S1024x784, .f32⟩ : BufTy).Contents (Elt F) :=
  addf w (subf (mulf (Host.sign w) (broadcastInDim S1024x784 ![0, 1] bcast_S1024x1_S1024x784_0_1 (Host.divf (broadcastInDim S1024x1 ![0] bcast_S1024_S1024x1_0 (Host.reduceAdd (Host.absf w) ((constant S_ .f32 0x00000000#32 : (⟨S_, .f32⟩ : BufTy).Contents (Elt F))) reducesTo_S1024x784_S1024_d1 h_S_)) (broadcastInDim S1024x1 ![] bcast_S_S1024x1 ((constant S_ .f32 0x44440000#32 : (⟨S_, .f32⟩ : BufTy).Contents (Elt F))))))) w)

/-- The first layer's pre-activation: the rows of `h` against the rows of the (binarised) weights, plus the bias. -/
def pre784 (h : (⟨S16384x784, .f32⟩ : BufTy).Contents (Elt F)) (wb : (⟨S1024x784, .f32⟩ : BufTy).Contents (Elt F)) (b : (⟨S1024, .f32⟩ : BufTy).Contents (Elt F)) :
    (⟨S16384x1024, .f32⟩ : BufTy).Contents (Elt F) :=
  addf (Host.dotGeneral dot_S16384x784_S784x1024_S16384x1024_1_0_0_1_n_n none h (transpose S784x1024 [1, 0] wb transposes_S1024x784_S784x1024_1_0)) (broadcastInDim S16384x1024 ![0, 1] bcast_S1x1024_S16384x1024_0_1 (broadcastInDim S1x1024 ![1] bcast_S1024_S1x1024_1 b))

/-- The column means over the 16384 rows. -/
def mean (p : (⟨S16384x1024, .f32⟩ : BufTy).Contents (Elt F)) :
    (⟨S1024, .f32⟩ : BufTy).Contents (Elt F) :=
  Host.divf (Host.reduceAdd p ((constant S_ .f32 0x00000000#32 : (⟨S_, .f32⟩ : BufTy).Contents (Elt F))) reducesTo_S16384x1024_S1024_d0 h_S_) (broadcastInDim S1024 ![] bcast_S_S1024 ((constant S_ .f32 0x46800000#32 : (⟨S_, .f32⟩ : BufTy).Contents (Elt F))))

/-- The column variances: the sum of the squared deviations from the column mean over `16384 − 0`, where that divisor is positive (and the quiet NaN otherwise). -/
def var (p : (⟨S16384x1024, .f32⟩ : BufTy).Contents (Elt F)) :
    (⟨S1024, .f32⟩ : BufTy).Contents (Elt F) :=
  select (broadcastInDim S1024 ![] bcast_S_S1024 (cmpf .ogt (subf ((constant S_ .f32 0x46800000#32 : (⟨S_, .f32⟩ : BufTy).Contents (Elt F))) (sitofp .f32 ((constantI S_ 32 0#32)))) ((constant S_ .f32 0x00000000#32 : (⟨S_, .f32⟩ : BufTy).Contents (Elt F))))) (Host.divf (Host.reduceAdd (mulf (subf p (broadcastInDim S16384x1024 ![0, 1] bcast_S1x1024_S16384x1024_0_1 (Host.divf (broadcastInDim S1x1024 ![1] bcast_S1024_S1x1024_1 (Host.reduceAdd p ((constant S_ .f32 0x00000000#32 : (⟨S_, .f32⟩ : BufTy).Contents (Elt F))) reducesTo_S16384x1024_S1024_d0 h_S_)) (broadcastInDim S1x1024 ![] bcast_S_S1x1024 ((constant S_ .f32 0x46800000#32 : (⟨S_, .f32⟩ : BufTy).Contents (Elt F))))))) (subf p (broadcastInDim S16384x1024 ![0, 1] bcast_S1x1024_S16384x1024_0_1 (Host.divf (broadcastInDim S1x1024 ![1] bcast_S1024_S1x1024_1 (Host.reduceAdd p ((constant S_ .f32 0x00000000#32 : (⟨S_, .f32⟩ : BufTy).Contents (Elt F))) reducesTo_S16384x1024_S1024_d0 h_S_)) (broadcastInDim S1x1024 ![] bcast_S_S1x1024 ((constant S_ .f32 0x46800000#32 : (⟨S_, .f32⟩ : BufTy).Contents (Elt F)))))))) ((constant S_ .f32 0x00000000#32 : (⟨S_, .f32⟩ : BufTy).Contents (Elt F))) reducesTo_S16384x1024_S1024_d0 h_S_) (broadcastInDim S1024 ![] bcast_S_S1024 (subf ((constant S_ .f32 0x46800000#32 : (⟨S_, .f32⟩ : BufTy).Contents (Elt F))) (sitofp .f32 ((constantI S_ 32 0#32)))))) (broadcastInDim S1024 ![] bcast_S_S1024 (id ((constant S_ .f32 0x7FC00000#32 : (⟨S_, .f32⟩ : BufTy).Contents (Elt F)))))

/-- Normalise by a given mean and variance, scale, shift, rectify. -/
def normrelu (p : (⟨S16384x1024, .f32⟩ : BufTy).Contents (Elt F)) (mu : (⟨S1024, .f32⟩ : BufTy).Contents (Elt F)) (vr : (⟨S1024, .f32⟩ : BufTy).Contents (Elt F)) (g : (⟨S1024, .f32⟩ : BufTy).Contents (Elt F)) (be : (⟨S1024, .f32⟩ : BufTy).Contents (Elt F)) :
    (⟨S16384x1024, .f32⟩ : BufTy).Contents (Elt F) :=
  maximumf (addf (mulf (mulf (broadcastInDim S16384x1024 ![0, 1] bcast_S1x1024_S16384x1024_0_1 (broadcastInDim S1x1024 ![1] bcast_S1024_S1x1024_1 g)) (subf p (broadcastInDim S16384x1024 ![0, 1] bcast_S1x1024_S16384x1024_0_1 (broadcastInDim S1x1024 ![1] bcast_S1024_S1x1024_1 mu)))) (broadcastInDim S16384x1024 ![0, 1] bcast_S1x1024_S16384x1024_0_1 (broadcastInDim S1x1024 ![1] bcast_S1024_S1x1024_1 (Host.rsqrt (addf vr (broadcastInDim S1024 ![] bcast_S_S1024 ((constant S_ .f32 0x3727C5AC#32 : (⟨S_, .f32⟩ : BufTy).Contents (Elt F))))))))) (broadcastInDim S16384x1024 ![0, 1] bcast_S1x1024_S16384x1024_0_1 (broadcastInDim S1x1024 ![1] bcast_S1024_S1x1024_1 be))) (broadcastInDim S16384x1024 ![] bcast_S_S16384x1024 ((constant S_ .f32 0x00000000#32 : (⟨S_, .f32⟩ : BufTy).Contents (Elt F))))

/-- Binarised weights of a 1024 × 1024 layer. -/
def binW1024 (w : (⟨S1024x1024, .f32⟩ : BufTy).Contents (Elt F)) :
    (⟨S1024x1024, .f32⟩ : BufTy).Contents (Elt F) :=
  addf w (subf (mulf (Host.sign w) (broadcastInDim S1024x1024 ![0, 1] bcast_S1024x1_S1024x1024_0_1 (Host.divf (broadcastInDim S1024x1 ![0] bcast_S1024_S1024x1_0 (Host.reduceAdd (Host.absf w) ((constant S_ .f32 0x00000000#32 : (⟨S_, .f32⟩ : BufTy).Contents (Elt F))) reducesTo_S1024x1024_S1024_d1 h_S_)) (broadcastInDim S1024x1 ![] bcast_S_S1024x1 ((constant S_ .f32 0x44800000#32 : (⟨S_, .f32⟩ : BufTy).Contents (Elt F))))))) w)

/-- The pre-activation of a 1024 → 1024 layer. -/
def pre1024 (h : (⟨S16384x1024, .f32⟩ : BufTy).Contents (Elt F)) (wb : (⟨S1024x1024, .f32⟩ : BufTy).Contents (Elt F)) (b : (⟨S1024, .f32⟩ : BufTy).Contents (Elt F)) :
    (⟨S16384x1024, .f32⟩ : BufTy).Contents (Elt F) :=
  addf (Host.dotGeneral dot_S16384x1024_S1024x1024_S16384x1024_1_0_0_1_n_n none h (transpose S1024x1024 [1, 0] wb transposes_S1024x1024_S1024x1024_1_0)) (broadcastInDim S16384x1024 ![0, 1] bcast_S1x1024_S16384x1024_0_1 (broadcastInDim S1x1024 ![1] bcast_S1024_S1x1024_1 b))

/-- Binarised weights of the last (10 × 1024) layer. -/
def binW10 (w : (⟨S10x1024, .f32⟩ : BufTy).Contents (Elt F)) :
    (⟨S10x1024, .f32⟩ : BufTy).Contents (Elt F) :=
  addf w (subf (mulf (Host.sign w) (broadcastInDim S10x1024 ![0, 1] bcast_S10x1_S10x1024_0_1 (Host.divf (broadcastInDim S10x1 ![0] bcast_S10_S10x1_0 (Host.reduceAdd (Host.absf w) ((constant S_ .f32 0x00000000#32 : (⟨S_, .f32⟩ : BufTy).Contents (Elt F))) reducesTo_S10x1024_S10_d1 h_S_)) (broadcastInDim S10x1 ![] bcast_S_S10x1 ((constant S_ .f32 0x44800000#32 : (⟨S_, .f32⟩ : BufTy).Contents (Elt F))))))) w)

/-- The last layer's pre-activation: the logits. -/
def pre10 (h : (⟨S16384x1024, .f32⟩ : BufTy).Contents (Elt F)) (wb : (⟨S10x1024, .f32⟩ : BufTy).Contents (Elt F)) (b : (⟨S10, .f32⟩ : BufTy).Contents (Elt F)) :
    (⟨S16384x10, .f32⟩ : BufTy).Contents (Elt F) :=
  addf (Host.dotGeneral dot_S16384x1024_S1024x10_S16384x10_1_0_0_1_n_n none h (transpose S1024x10 [1, 0] wb transposes_S10x1024_S1024x10_1_0)) (broadcastInDim S16384x10 ![0, 1] bcast_S1x10_S16384x10_0_1 (broadcastInDim S1x10 ![1] bcast_S10_S1x10_1 b))

/-- The log-softmax over each row of ten logits, as the program computes it. -/
def tail (z : (⟨S16384x10, .f32⟩ : BufTy).Contents (Elt F)) :
    (⟨S16384x10, .f32⟩ : BufTy).Contents (Elt F) :=
  subf (subf z (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf z ((constant S_ .f32 0xFF800000#32 : (⟨S_, .f32⟩ : BufTy).Contents (Elt F))) reducesTo_S16384x10_S16384_d1 h_S_))))) (broadcastInDim S16384x10 ![0, 1] bcast_S16384x1_S16384x10_0_1 (Host.log (broadcastInDim S16384x1 ![0] bcast_S16384_S16384x1_0 (Host.reduceAdd (Host.exp (subf z (broadcastInDim S16384x10 ![0, 1] bcast_S16384x1_S16384x10_0_1 (broadcastInDim S16384x1 ![0] bcast_S16384_S16384x1_0 (maximumf (broadcastInDim S16384 ![] bcast_S_S16384 ((constant S_ .f32 0xFF800000#32 : (⟨S_, .f32⟩ : BufTy).Contents (Elt F)))) (Host.reduce FloatOps.maximumf z ((constant S_ .f32 0xFF800000#32 : (⟨S_, .f32⟩ : BufTy).Contents (Elt F))) reducesTo_S16384x10_S16384_d1 h_S_)))))) ((constant S_ .f32 0x00000000#32 : (⟨S_, .f32⟩ : BufTy).Contents (Elt F))) reducesTo_S16384x10_S16384_d1 h_S_))))

/-- Batch normalisation over the rows with the batch's own mean and variance, then the rectifier. -/
def bnrelu (p : (⟨S16384x1024, .f32⟩ : BufTy).Contents (Elt F)) (g be : (⟨S1024, .f32⟩ : BufTy).Contents (Elt F)) : (⟨S16384x1024, .f32⟩ : BufTy).Contents (Elt F) :=
  normrelu p (mean p) (var p) g be

/-! The five layers chained over the nineteen argument arrays. -/

def hpre1 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := pre784 a0 (binW784 a1) a2
def hact1 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := bnrelu (hpre1 a0 a1 a2 a3 a4 a5 a6 a7 a8 a9 a10 a11 a12 a13 a14 a15 a16 a17 a18) a11 a12
def hpre2 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := pre1024 (hact1 a0 a1 a2 a3 a4 a5 a6 a7 a8 a9 a10 a11 a12 a13 a14 a15 a16 a17 a18) (binW1024 a3) a4
def hact2 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := bnrelu (hpre2 a0 a1 a2 a3 a4 a5 a6 a7 a8 a9 a10 a11 a12 a13 a14 a15 a16 a17 a18) a13 a14
def hpre3 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := pre1024 (hact2 a0 a1 a2 a3 a4 a5 a6 a7 a8 a9 a10 a11 a12 a13 a14 a15 a16 a17 a18) (binW1024 a5) a6
def hact3 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := bnrelu (hpre3 a0 a1 a2 a3 a4 a5 a6 a7 a8 a9 a10 a11 a12 a13 a14 a15 a16 a17 a18) a15 a16
def hpre4 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := pre1024 (hact3 a0 a1 a2 a3 a4 a5 a6 a7 a8 a9 a10 a11 a12 a13 a14 a15 a16 a17 a18) (binW1024 a7) a8
def hact4 (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x1024, .f32⟩ : BufTy).Contents (Elt F) := bnrelu (hpre4 a0 a1 a2 a3 a4 a5 a6 a7 a8 a9 a10 a11 a12 a13 a14 a15 a16 a17 a18) a17 a18
/-- The logits: the last layer's pre-activation. -/
def logits (a0 : (⟨S16384x784, .f32⟩ : BufTy).Contents (Elt F)) (a1 : (⟨S1024x784, .f32⟩ : BufTy).Contents (Elt F)) (a2 : (⟨S1024, .f32⟩ : BufTy).Contents (Elt F)) (a3 : (⟨S1024x1024, .f32⟩ : BufTy).Contents (Elt F)) (a4 : (⟨S1024, .f32⟩ : BufTy).Contents (Elt F)) (a5 : (⟨S1024x1024, .f32⟩ : BufTy).Contents (Elt F)) (a6 : (⟨S1024, .f32⟩ : BufTy).Contents (Elt F)) (a7 : (⟨S1024x1024, .f32⟩ : BufTy).Contents (Elt F)) (a8 : (⟨S1024, .f32⟩ : BufTy).Contents (Elt F)) (a9 : (⟨S10x1024, .f32⟩ : BufTy).Contents (Elt F)) (a10 : (⟨S10, .f32⟩ : BufTy).Contents (Elt F)) (a11 : (⟨S1024, .f32⟩ : BufTy).Contents (Elt F)) (a12 : (⟨S1024, .f32⟩ : BufTy).Contents (Elt F)) (a13 : (⟨S1024, .f32⟩ : BufTy).Contents (Elt F)) (a14 : (⟨S1024, .f32⟩ : BufTy).Contents (Elt F)) (a15 : (⟨S1024, .f32⟩ : BufTy).Contents (Elt F)) (a16 : (⟨S1024, .f32⟩ : BufTy).Contents (Elt F)) (a17 : (⟨S1024, .f32⟩ : BufTy).Contents (Elt F)) (a18 : (⟨S1024, .f32⟩ : BufTy).Contents (Elt F)) : (⟨S16384x10, .f32⟩ : BufTy).Contents (Elt F) := pre10 (hact4 a0 a1 a2 a3 a4 a5 a6 a7 a8 a9 a10 a11 a12 a13 a14 a15 a16 a17 a18) (binW10 a9) a10

end Cert.RefSide

end
-- ==== Proof.KTailRef.lean ====
/-
  The host tail against the reference's log-softmax: the kernel slices the first ten columns off the padded
  logits and then applies the same chain of operations, in the same order, as the reference does to its logits.
-/
import proofs.«157065_j74259984548393_2_alg».proof.Proof.KResult
import proofs.«157065_j74259984548393_2_alg».proof.Proof.RefStages
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slice of the first ten columns, read at an index. -/
theorem slice10 (z : (⟨S16384x128, .f32⟩ : BufTy).Contents (Elt F)) :
    slice128 z = fun ix => z (ValueIdx.ix2 (ix 0) ⟨(ix 1).val, Nat.lt_of_lt_of_le (ix 1).isLt (by decide)⟩) := by
  funext j
  exact extractStridedSlice_apply ![0, 0] z slices_S16384x128_S16384x10_0_0 j
    (ValueIdx.ix2 (j 0) ⟨(j 1).val, Nat.lt_of_lt_of_le (j 1).isLt (by decide)⟩) (fun a => by
    match a with
    | ⟨0, _⟩ => show (j 0).val = 0 + (j 0).val; omega
    | ⟨1, _⟩ => show (j 1).val = 0 + (j 1).val; omega)

/-- The program's log-softmax is the reference's: the same operations in the same order. -/
theorem tail10_eq (z : (⟨S16384x10, .f32⟩ : BufTy).Contents (Elt F)) : tail10 z = Cert.RefSide.tail z := rfl

/-- The host tail is the reference's log-softmax of the first ten columns. -/
theorem hostTail_eq (z : (⟨S16384x128, .f32⟩ : BufTy).Contents (Elt Ideal)) :
    hostTail (F := Ideal) z = Cert.RefSide.tail (F := Ideal) (fun ix => z (ValueIdx.ix2 (ix 0) ⟨(ix 1).val, Nat.lt_of_lt_of_le (ix 1).isLt (by decide)⟩)) := by
  show tail10 (slice128 z) = _
  rw [slice10 z, tail10_eq]

end Cert.KernelIdeal.Hand

end
-- ==== Proof.Spec.lean ====
/-
  The network both programs compute, as plain functions on the extended reals.

  Five linear layers whose weights are binarised (the sign of each weight times the mean
  absolute value of its row), the first four each followed by a batch normalisation over the
  16384 rows and a rectifier.  Two spellings are stated side by side:

  * the one that keeps running totals: weights `sign w · α`, the column totals gathered as
    2 × 16 blocks of 512 rows, the variance as the clamped difference `max (E h² − (E h)²) 0`;
  * the textbook one: weights `w + (sign w · α − w)`, the column totals over all rows at once,
    the variance as the mean of the squared deviations.

  `cB` is the number of rows as the programs' float constant, `eps` the constant added to the
  variance, `cf` the length of a weight row as a float constant.
-/
import Idealize.ShloMosaic.PureOps.Ideal

noncomputable section

namespace Cert.Spec

open Idealize.ShloMosaic

/-- `|x|` on the extended reals. -/
def absE (x : EReal) : EReal := max x (-x)

/-- The scale of row `r`: the mean absolute value of its `f` entries. -/
def alpha {o f : ℕ} (cf : EReal) (W : Fin o → Fin f → EReal) (r : Fin o) : EReal :=
  Ideal.div (∑ k, absE (W r k)) cf

/-- Binarised weights, written directly. -/
def binK {o f : ℕ} (cf : EReal) (W : Fin o → Fin f → EReal) (r : Fin o) (k : Fin f) : EReal :=
  Ideal.sign (W r k) * alpha cf W r

/-- Binarised weights, written as the weight plus the correction to it. -/
def binR {o f : ℕ} (cf : EReal) (W : Fin o → Fin f → EReal) (r : Fin o) (k : Fin f) : EReal :=
  W r k + (Ideal.sign (W r k) * alpha cf W r - W r k)

/-- A linear layer: row `i` of `A` against row `j` of the weights, plus the bias. -/
def lin {B f o : ℕ} (A : Fin B → Fin f → EReal) (Wb : Fin o → Fin f → EReal) (b : Fin o → EReal)
    (i : Fin B) (j : Fin o) : EReal :=
  (∑ k, A i k * Wb j k) + b j

/-- Row `r` of block `t` of half `c`: the 16384 rows as 2 × 16 blocks of 512. -/
def rowOf (c : Fin 2) (t : Fin 16) (r : Fin 512) : Fin 16384 :=
  ⟨512 * (16 * c.val + t.val) + r.val, by omega⟩

section Stats

variable {n : ℕ} (cB eps : EReal) (H : Fin 16384 → Fin n → EReal) (g be : Fin n → EReal)

/-- Column total, block by block. -/
def sumK (j : Fin n) : EReal := ∑ c : Fin 2, ∑ t : Fin 16, ∑ r : Fin 512, H (rowOf c t r) j
/-- Column total of the squares, block by block. -/
def sumsqK (j : Fin n) : EReal :=
  ∑ c : Fin 2, ∑ t : Fin 16, ∑ r : Fin 512, H (rowOf c t r) j * H (rowOf c t r) j
def meanK (j : Fin n) : EReal := Ideal.div (sumK H j) cB
/-- The variance as the clamped difference of the two means. -/
def varK (j : Fin n) : EReal := max (Ideal.div (sumsqK H j) cB - meanK cB H j * meanK cB H j) 0
/-- Normalise, scale, shift, rectify (running-totals spelling). -/
def bnreluK (i : Fin 16384) (j : Fin n) : EReal :=
  max (g j * (H i j - meanK cB H j) * Ideal.rsqrt (varK cB H j + eps) + be j) 0

def meanR (j : Fin n) : EReal := Ideal.div (∑ i, H i j) cB
/-- The variance as the mean squared deviation. -/
def varR (j : Fin n) : EReal :=
  Ideal.div (∑ i, (H i j - meanR cB H j) * (H i j - meanR cB H j)) cB
/-- Normalise, scale, shift, rectify (textbook spelling). -/
def bnreluR (i : Fin 16384) (j : Fin n) : EReal :=
  max (g j * (H i j - meanR cB H j) * Ideal.rsqrt (varR cB H j + eps) + be j) 0

end Stats

/-- The nineteen argument arrays. -/
structure Args where
  x : Fin 16384 → Fin 784 → EReal
  W1 : Fin 1024 → Fin 784 → EReal
  b1 : Fin 1024 → EReal
  W2 : Fin 1024 → Fin 1024 → EReal
  b2 : Fin 1024 → EReal
  W3 : Fin 1024 → Fin 1024 → EReal
  b3 : Fin 1024 → EReal
  W4 : Fin 1024 → Fin 1024 → EReal
  b4 : Fin 1024 → EReal
  W5 : Fin 10 → Fin 1024 → EReal
  b5 : Fin 10 → EReal
  g1 : Fin 1024 → EReal
  be1 : Fin 1024 → EReal
  g2 : Fin 1024 → EReal
  be2 : Fin 1024 → EReal
  g3 : Fin 1024 → EReal
  be3 : Fin 1024 → EReal
  g4 : Fin 1024 → EReal
  be4 : Fin 1024 → EReal

variable (cB eps c784 c1024 : EReal) (a : Args)

/-! The pre-activations of the five layers, running-totals spelling. -/
def h1K : Fin 16384 → Fin 1024 → EReal := lin a.x (binK c784 a.W1) a.b1
def h2K : Fin 16384 → Fin 1024 → EReal :=
  lin (bnreluK cB eps (h1K c784 a) a.g1 a.be1) (binK c1024 a.W2) a.b2
def h3K : Fin 16384 → Fin 1024 → EReal :=
  lin (bnreluK cB eps (h2K cB eps c784 c1024 a) a.g2 a.be2) (binK c1024 a.W3) a.b3
def h4K : Fin 16384 → Fin 1024 → EReal :=
  lin (bnreluK cB eps (h3K cB eps c784 c1024 a) a.g3 a.be3) (binK c1024 a.W4) a.b4
/-- The logits, running-totals spelling. -/
def h5K : Fin 16384 → Fin 10 → EReal :=
  lin (bnreluK cB eps (h4K cB eps c784 c1024 a) a.g4 a.be4) (binK c1024 a.W5) a.b5

/-! The same, textbook spelling. -/
def h1R : Fin 16384 → Fin 1024 → EReal := lin a.x (binR c784 a.W1) a.b1
def h2R : Fin 16384 → Fin 1024 → EReal :=
  lin (bnreluR cB eps (h1R c784 a) a.g1 a.be1) (binR c1024 a.W2) a.b2
def h3R : Fin 16384 → Fin 1024 → EReal :=
  lin (bnreluR cB eps (h2R cB eps c784 c1024 a) a.g2 a.be2) (binR c1024 a.W3) a.b3
def h4R : Fin 16384 → Fin 1024 → EReal :=
  lin (bnreluR cB eps (h3R cB eps c784 c1024 a) a.g3 a.be3) (binR c1024 a.W4) a.b4
/-- The logits, textbook spelling. -/
def h5R : Fin 16384 → Fin 10 → EReal :=
  lin (bnreluR cB eps (h4R cB eps c784 c1024 a) a.g4 a.be4) (binR c1024 a.W5) a.b5

/-- Every entry of every argument is a real number. -/
def Args.Real (a : Args) : Prop :=
  (∀ i k, ∃ r : ℝ, a.x i k = r) ∧ (∀ i k, ∃ r : ℝ, a.W1 i k = r) ∧ (∀ i, ∃ r : ℝ, a.b1 i = r)
  ∧ (∀ i k, ∃ r : ℝ, a.W2 i k = r) ∧ (∀ i, ∃ r : ℝ, a.b2 i = r)
  ∧ (∀ i k, ∃ r : ℝ, a.W3 i k = r) ∧ (∀ i, ∃ r : ℝ, a.b3 i = r)
  ∧ (∀ i k, ∃ r : ℝ, a.W4 i k = r) ∧ (∀ i, ∃ r : ℝ, a.b4 i = r)
  ∧ (∀ i k, ∃ r : ℝ, a.W5 i k = r) ∧ (∀ i, ∃ r : ℝ, a.b5 i = r)
  ∧ (∀ i, ∃ r : ℝ, a.g1 i = r) ∧ (∀ i, ∃ r : ℝ, a.be1 i = r)
  ∧ (∀ i, ∃ r : ℝ, a.g2 i = r) ∧ (∀ i, ∃ r : ℝ, a.be2 i = r)
  ∧ (∀ i, ∃ r : ℝ, a.g3 i = r) ∧ (∀ i, ∃ r : ℝ, a.be3 i = r)
  ∧ (∀ i, ∃ r : ℝ, a.g4 i = r) ∧ (∀ i, ∃ r : ℝ, a.be4 i = r)

end Cert.Spec

end
-- ==== Proof.SpecArgs.lean ====
/-
  The argument arrays of either program, read by coordinates, as the specification's arguments;
  and the four float constants the network's statistics use, as the programs spell them.
-/
import proofs.«157065_j74259984548393_2_alg».proof.Proof.Spec
import Idealize.ShloMosaic.Lib.ValueIdx

noncomputable section

namespace Cert.Spec

open Idealize.ShloMosaic Idealize.ShloMosaic.ValueIdx

/-- A matrix of extended reals indexed by a rank-2 shape. -/
abbrev Mat (p q : ℕ) : Type := (⟨2, ![p, q]⟩ : Shape).Idx → EReal
/-- A vector of extended reals indexed by a rank-1 shape. -/
abbrev Vc (p : ℕ) : Type := (⟨1, ![p]⟩ : Shape).Idx → EReal

/-- The nineteen arrays, in the programs' argument order, read by coordinates. -/
def argsOf (x : Mat 16384 784) (W1 : Mat 1024 784) (b1 : Vc 1024) (W2 : Mat 1024 1024) (b2 : Vc 1024)
    (W3 : Mat 1024 1024) (b3 : Vc 1024) (W4 : Mat 1024 1024) (b4 : Vc 1024) (W5 : Mat 10 1024) (b5 : Vc 10)
    (g1 be1 g2 be2 g3 be3 g4 be4 : Vc 1024) : Args where
  x i k := x (ix2 i k)
  W1 i k := W1 (ix2 i k)
  b1 i := b1 (ix1 i)
  W2 i k := W2 (ix2 i k)
  b2 i := b2 (ix1 i)
  W3 i k := W3 (ix2 i k)
  b3 i := b3 (ix1 i)
  W4 i k := W4 (ix2 i k)
  b4 i := b4 (ix1 i)
  W5 i k := W5 (ix2 i k)
  b5 i := b5 (ix1 i)
  g1 i := g1 (ix1 i)
  be1 i := be1 (ix1 i)
  g2 i := g2 (ix1 i)
  be2 i := be2 (ix1 i)
  g3 i := g3 (ix1 i)
  be3 i := be3 (ix1 i)
  g4 i := g4 (ix1 i)
  be4 i := be4 (ix1 i)

/-- The number of rows, 16384, as the float constant both programs divide by. -/
def cB : EReal := Ideal.ofBits .f32 0x46800000#32
/-- The constant added to the variance (the float nearest 1e-5). -/
def eps : EReal := Ideal.ofBits .f32 0x3727C5AC#32
/-- 784 as a float constant. -/
def c784 : EReal := Ideal.ofBits .f32 0x44440000#32
/-- 1024 as a float constant. -/
def c1024 : EReal := Ideal.ofBits .f32 0x44800000#32

end Cert.Spec

end
-- ==== Proof.KHostLib.lean ====
/-
  The host's elementwise and layout operations read at an index, at the ideal values: quotient,
  sign, absolute value, reciprocal square root; a scalar or a vector broadcast to a one-row
  matrix; the two halves' partial totals [2, 1, n] seen as [2, n]; the sum over the two halves.
-/
import proofs.«157065_j74259984548393_2_alg».proof.Proof.Gen.KernelIdeal.Launch
import proofs.«157065_j74259984548393_2_alg».proof.Proof.SpecArgs
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.ShloMosaic.ValueIdx Idealize.SL.Sem Idealize.ShloMosaic.StableHlo

/-! ## Elementwise host operations at an index -/

theorem hdivf_apply {s : Shape} {φ : FTy} (a b : FVec Ideal s φ) (i : s.Idx) : Host.divf a b i = Ideal.div (a i) (b i) := rfl
theorem hsign_apply {s : Shape} {φ : FTy} (a : FVec Ideal s φ) (i : s.Idx) : Host.sign a i = Ideal.sign (a i) := rfl
theorem habsf_apply {s : Shape} {φ : FTy} (a : FVec Ideal s φ) (i : s.Idx) : Host.absf a i = max (a i) (-(a i)) := rfl
theorem hrsqrt_apply {s : Shape} {φ : FTy} (a : FVec Ideal s φ) (i : s.Idx) : Host.rsqrt a i = Ideal.rsqrt (a i) := rfl

/-! ## Layout operations at an index -/

/-- A scalar broadcast to any shape reads the scalar everywhere. -/
theorem bscalar {t : Shape} {α : Type} (h : S_.BroadcastsInDim t ![]) (c : S_.Idx → α) (j : t.Idx) :
    @broadcastInDim (no_index S_) (no_index α) (no_index t) (no_index ![]) h c j = c ix0 :=
  broadcastInDim_apply _ h c j ix0 (fun a => a.elim0)

/-- A vector laid out as a one-row matrix reads the vector along the row. -/
theorem brow_1x1024 {α : Type} (x : S1024.Idx → α) (u : Fin 1) (j : Fin 1024) :
    @broadcastInDim (no_index S1024) (no_index α) (no_index S1x1024) (no_index ![1]) bcast_S1024_S1x1024_1 x (ix2 u j) = x (ix1 j) :=
  broadcastInDim_apply _ _ x (ix2 u j) (ix1 j) (fun a => match a with | ⟨0, _⟩ => rfl)

/-- The two halves' partial totals [2, 1, n] seen as [2, n]: row `k` of the latter is half `k` of the former. -/
theorem cast_2x1x1024 {α : Type} (x : S2x1x1024.Idx → α) (k : Fin 2) (j : Fin 1024) :
    shapeCast S2x1024 x shapeCasts_S2x1x1024_S2x1024 (ix2 k j) = x (ix3 k (0 : Fin 1) j) :=
  shapeCast_apply x _ _ _ (by
    rw [Shape.rowMajor_val_three, Shape.rowMajor_val_two]
    show (k.val * 1 + 0) * 1024 + j.val = k.val * 1024 + j.val
    omega)

/-- The host's sum over the two rows of a [2, n] array: the initial value plus both rows' entries. -/
theorem hsum_2x1024 (x : FVec Ideal S2x1024 .f32) (c : FVec Ideal S_ .f32) (j : Fin 1024) :
    Host.reduceAdd (F := Ideal) x c reducesTo_S2x1024_S1024_d0 h_S_ (ix1 j) = c ix0 + (x (ix2 0 j) + x (ix2 1 j)) := by
  simp only [Host.reduceAdd, Ideal.hostReduceAdd_def]
  rw [Ideal.hostReduceAdd_single reducesTo_S2x1024_S1024_d0 (by decide)]
  refine congr (congrArg _ (congrArg c (eq_ix0 _))) ?_
  refine (Fin.sum_univ_two _).trans ?_
  refine congr (congrArg _ ?_) ?_
  · exact congrArg x (funext fun a => Fin.ext (by match a with | ⟨0, _⟩ => rfl | ⟨1, _⟩ => rfl))
  · exact congrArg x (funext fun a => Fin.ext (by match a with | ⟨0, _⟩ => rfl | ⟨1, _⟩ => rfl))

end Cert.KernelIdeal.HostVals

end
-- ==== Proof.KHostStats.lean ====
/-
  The batch statistics the host computes between two layers, read at a column: from the two
  halves' partial column totals and partial totals of squares, the column mean and the inverse
  deviation; and the four stretches of the program that compute them.
-/
import proofs.«157065_j74259984548393_2_alg».proof.Proof.KHostLib

set_option maxRecDepth 16384

noncomputable section

namespace Cert.KernelIdeal.HostVals

open Cert.KernelIdeal Cert.KernelIdeal.Gen Idealize.ShloMosaic Idealize.ShloMosaic.TcCoe Idealize.ShloMosaic.ValueIdx Idealize.SL.Sem Idealize.ShloMosaic.StableHlo

/-! ## The batch statistics the host computes between two layers

From the two halves' partial column totals `s` and partial column totals of squares `ss` (each
[2, 1, n]): the column mean `(s₀ + s₁) / B`, and the inverse deviation
`rsqrt (max ((ss₀ + ss₁) / B − mean²) 0 + ε)`, both as one-row matrices. -/

/-- The column means, as the host's operations compose them. -/
def meanT (s : FVec Ideal S2x1x1024 .f32) : FVec Ideal S1x1024 .f32 :=
  Host.divf (broadcastInDim S1x1024 ![1] bcast_S1024_S1x1024_1
      (Host.reduceAdd (shapeCast S2x1024 s shapeCasts_S2x1x1024_S2x1024) (constant S_ .f32 0x00000000#32) reducesTo_S2x1024_S1024_d0 h_S_))
    (broadcastInDim S1x1024 ![] bcast_S_S1x1024 (constant S_ .f32 0x46800000#32))

/-- The inverse deviations, as the host's operations compose them. -/
def istdT (s ss : FVec Ideal S2x1x1024 .f32) : FVec Ideal S1x1024 .f32 :=
  Host.rsqrt (addf (maximumf (subf
      (Host.divf (broadcastInDim S1x1024 ![1] bcast_S1024_S1x1024_1
          (Host.reduceAdd (shapeCast S2x1024 ss shapeCasts_S2x1x1024_S2x1024) (constant S_ .f32 0x00000000#32) reducesTo_S2x1024_S1024_d0 h_S_))
        (broadcastInDim S1x1024 ![] bcast_S_S1x1024 (constant S_ .f32 0x46800000#32)))
      (mulf (meanT s) (meanT s)))
    (broadcastInDim S1x1024 ![] bcast_S_S1x1024 (constant S_ .f32 0x00000000#32)))
    (broadcastInDim S1x1024 ![] bcast_S_S1x1024 (constant S_ .f32 0x3727C5AC#32)))

/-- The mean of column `j`: both halves' totals over the number of rows. -/
theorem meanT_apply (s : FVec Ideal S2x1x1024 .f32) (u : Fin 1) (j : Fin 1024) :
    meanT s (ix2 u j) = Ideal.div (s (ix3 (0 : Fin 2) (0 : Fin 1) j) + s (ix3 (1 : Fin 2) (0 : Fin 1) j)) Cert.Spec.cB := by
  unfold meanT
  rw [hdivf_apply, brow_1x1024, hsum_2x1024, bscalar, cast_2x1x1024, cast_2x1x1024]
  simp only [constant_apply, Ideal.ofBits_zero_f32, zero_add]
  rfl

/-- The inverse deviation of column `j`. -/
theorem istdT_apply (s ss : FVec Ideal S2x1x1024 .f32) (u : Fin 1) (j : Fin 1024) :
    istdT s ss (ix2 u j)
      = Ideal.rsqrt (max (Ideal.div (ss (ix3 (0 : Fin 2) (0 : Fin 1) j) + ss (ix3 (1 : Fin 2) (0 : Fin 1) j)) Cert.Spec.cB
            - Ideal.div (s (ix3 (0 : Fin 2) (0 : Fin 1) j) + s (ix3 (1 : Fin 2) (0 : Fin 1) j)) Cert.Spec.cB
              * Ideal.div (s (ix3 (0 : Fin 2) (0 : Fin 1) j) + s (ix3 (1 : Fin 2) (0 : Fin 1) j)) Cert.Spec.cB) 0
          + Cert.Spec.eps) := by
  unfold istdT
  rw [hrsqrt_apply, addf_apply, maximumf_apply, subf_apply, mulf_apply, meanT_apply, hdivf_apply, brow_1x1024, hsum_2x1024,
    bscalar, bscalar, bscalar, cast_2x1x1024, cast_2x1x1024]
  simp only [constant_apply, Ideal.ofBits_zero_f32, zero_add]
  rfl

/-! ## The four stretches: what the statistics' buffers hold afterwards -/

theorem after1_mean (W : Valuation τ sig (Elt Ideal)) (s : FVec Ideal S2x1x1024 .f32) (hs : W (Proc.devRef .tc main_v65_1) = s) :
    (StableHlo.after (hostOps1 (F := Ideal)) W) (Proc.devRef .tc main_v73) = meanT s := by
  dsimp only [hostOps1]
  after_results
  rw [hs]
  rfl

set_option maxHeartbeats 1000000 in
theorem after1_istd (W : Valuation τ sig (Elt Ideal)) (s ss : FVec Ideal S2x1x1024 .f32)
    (hs : W (Proc.devRef .tc main_v65_1) = s) (hss : W (Proc.devRef .tc main_v65_2) = ss) :
    (StableHlo.after (hostOps1 (F := Ideal)) W) (Proc.devRef .tc main_v82) = istdT s ss := by
  dsimp only [hostOps1]
  after_results_simp
  rw [hs, hss]
  rfl

theorem after2_mean (W : Valuation τ sig (Elt Ideal)) (s : FVec Ideal S2x1x1024 .f32) (hs : W (Proc.devRef .tc main_v83_1) = s) :
    (StableHlo.after (hostOps2 (F := Ideal)) W) (Proc.devRef .tc main_v91) = meanT s := by
  dsimp only [hostOps2]
  after_results
  rw [hs]
  rfl

set_option maxHeartbeats 1000000 in
theorem after2_istd (W : Valuation τ sig (Elt Ideal)) (s ss : FVec Ideal S2x1x1024 .f32)
    (hs : W (Proc.devRef .tc main_v83_1) = s) (hss : W (Proc.devRef .tc main_v83_2) = ss) :
    (StableHlo.after (hostOps2 (F := Ideal)) W) (Proc.devRef .tc main_v100) = istdT s ss := by
  dsimp only [hostOps2]
  after_results_simp
  rw [hs, hss]
  rfl

theorem after3_mean (W : Valuation τ sig (Elt Ideal)) (s : FVec Ideal S2x1x1024 .f32) (hs : W (Proc.devRef .tc main_v101_1) = s) :
    (StableHlo.after (hostOps3 (F := Ideal)) W) (Proc.devRef .tc main_v109) = meanT s := by
  dsimp only [hostOps3]
  after_results
  rw [hs]
  rfl

set_option maxHeartbeats 1000000 in
theorem after3_istd (W : Valuation τ sig (Elt Ideal)) (s ss : FVec Ideal S2x1x1024 .f32)
    (hs : W (Proc.devRef .tc main_v101_1) = s) (hss : W (Proc.devRef .tc main_v101_2) = ss) :
    (StableHlo.after (hostOps3 (F := Ideal)) W) (Proc.devRef .tc main_v118) = istdT s ss := by
  dsimp only [hostOps3]
  after_results_simp
  rw [hs, hss]
  rfl

theorem after4_mean (W : Valuation τ sig (Elt Ideal)) (s : FVec Ideal S2x1x1024 .f32) (hs : W (Proc.devRef .tc main_v119_1) = s) :
    (StableHlo.after (hostOps4 (F := Ideal)) W) (Proc.devRef .tc main_v127) = meanT s := by
  dsimp only [hostOps4]
  after_results
  rw [hs]
  rfl

set_option maxHeartbeats 1000000 in
theorem after4_istd (W : Valuation τ sig (Elt Ideal)) (s ss : FVec Ideal S2x1x1024 .f32)
    (hs : W (Proc.devRef .tc main_v119_1) = s) (hss : W (Proc.devRef .tc main_v119_2) = ss) :
    (StableHlo.after (hostOps4 (F := Ideal)) W) (Proc.devRef .tc main_v136) = istdT s ss := by
  dsimp only [hostOps4]
  after_results_simp
  rw [hs, hss]
  rfl

end Cert.KernelIdeal.HostVals

end
-- ==== Proof.KStats.lean ====
/-
  The statistics of one layer, from the two per-half column totals: the mean row is the block-wise
  column total over the number of rows, the inverse-deviation row the reciprocal square root of the
  clamped variance plus the small constant.
-/
import proofs.«157065_j74259984548393_2_alg».proof.Proof.KHostStats
import proofs.«157065_j74259984548393_2_alg».proof.Proof.SpecArgs

noncomputable section

namespace Cert.KernelIdeal.Vals

open Idealize.ShloMosaic Idealize.ShloMosaic.ValueIdx
open Cert.KernelIdeal Cert.KernelIdeal.HostVals

/-- The mean row from the per-half totals of the entries. -/
theorem mean_of_totals {H : Fin 16384 → Fin 1024 → EReal} (s : FVec Ideal S2x1x1024 .f32)
    (hs : ∀ (h : Fin 2) (j : Fin 1024), s (ix3 h (0 : Fin 1) j) = ∑ t : Fin 16, ∑ r : Fin 512, H (Cert.Spec.rowOf h t r) j)
    (u : Fin 1) (j : Fin 1024) :
    meanT s (ix2 u j) = Cert.Spec.meanK Cert.Spec.cB H j := by
  rw [meanT_apply, hs, hs]
  unfold Cert.Spec.meanK Cert.Spec.sumK
  rw [Fin.sum_univ_two]

/-- The inverse-deviation row from the per-half totals of the entries and of their squares. -/
theorem istd_of_totals {H : Fin 16384 → Fin 1024 → EReal} (s ss : FVec Ideal S2x1x1024 .f32)
    (hs : ∀ (h : Fin 2) (j : Fin 1024), s (ix3 h (0 : Fin 1) j) = ∑ t : Fin 16, ∑ r : Fin 512, H (Cert.Spec.rowOf h t r) j)
    (hss : ∀ (h : Fin 2) (j : Fin 1024), ss (ix3 h (0 : Fin 1) j)
      = ∑ t : Fin 16, ∑ r : Fin 512, H (Cert.Spec.rowOf h t r) j * H (Cert.Spec.rowOf h t r) j)
    (u : Fin 1) (j : Fin 1024) :
    istdT s ss (ix2 u j) = Ideal.rsqrt (Cert.Spec.varK Cert.Spec.cB H j + Cert.Spec.eps) := by
  rw [istdT_apply, hs, hs, hss, hss]
  unfold Cert.Spec.varK Cert.Spec.meanK Cert.Spec.sumK Cert.Spec.sumsqK
  rw [Fin.sum_univ_two, Fin.sum_univ_two]

end Cert.KernelIdeal.Vals

end
-- ==== Proof.KHostLibW.lean ====
/-
  The operations that binarise a weight matrix, read at an index at the ideal values: a row's
  scale (its sum of absolute values over a constant) broadcast along the row, the transpose,
  and the host's sum along a row — at the three weight shapes of the network.
-/
import proofs.«157065_j74259984548393_2_alg».proof.Proof.KHostLib

set_option maxRecDepth 16384

noncomputable section

namespace Cert.KernelIdeal.HostVals

open Cert.KernelIdeal Cert.KernelIdeal.Gen Idealize.ShloMosaic Idealize.ShloMosaic.TcCoe Idealize.ShloMosaic.ValueIdx Idealize.SL.Sem Idealize.ShloMosaic.StableHlo

/-! ## The binarised weights' operations at an index: the row scale broadcast along the row, the transpose, the row sum -/

theorem bcol_784 (x : FVec Ideal S1024 .f32) (c : FVec Ideal S_ .f32) (r : Fin 1024) (k : Fin 784) :
    @broadcastInDim (no_index S1024x1) (no_index _) (no_index S1024x784) (no_index ![0, 1]) bcast_S1024x1_S1024x784_0_1
      (Host.divf (F := Ideal) (@broadcastInDim (no_index S1024) (no_index _) (no_index S1024x1) (no_index ![0]) bcast_S1024_S1024x1_0 x)
        (@broadcastInDim (no_index S_) (no_index _) (no_index S1024x1) (no_index ![]) bcast_S_S1024x1 c)) (ix2 r k)
      = Ideal.div (x (ix1 r)) (c ix0) := by
  refine (broadcastInDim_apply _ _ _ (ix2 r k) (ix2 r (0 : Fin 1)) (fun a => match a with | ⟨0, _⟩ => rfl | ⟨1, _⟩ => rfl)).trans ?_
  rw [hdivf_apply, broadcastInDim_apply _ _ x (ix2 r (0 : Fin 1)) (ix1 r) (fun a => match a with | ⟨0, _⟩ => rfl),
    broadcastInDim_apply _ _ c (ix2 r (0 : Fin 1)) ix0 (fun a => a.elim0)]

theorem btr_784 {α : Type} (x : S1024x784.Idx → α) (k : Fin 784) (j : Fin 1024) :
    @transpose (no_index S1024x784) (no_index α) (no_index S784x1024) (no_index [1, 0]) x transposes_S1024x784_S784x1024_1_0 (ix2 k j) = x (ix2 j k) :=
  transpose_apply _ x _ (ix2 k j) (ix2 j k) (fun a => match a with | ⟨0, _⟩ => rfl | ⟨1, _⟩ => rfl)

theorem hsum_r784 (x : FVec Ideal S1024x784 .f32) (c : FVec Ideal S_ .f32) (r : Fin 1024) :
    Host.reduceAdd (F := Ideal) x c reducesTo_S1024x784_S1024_d1 h_S_ (ix1 r) = c ix0 + ∑ k : Fin 784, x (ix2 r k) := by
  simp only [Host.reduceAdd, Ideal.hostReduceAdd_def]
  rw [Ideal.hostReduceAdd_single reducesTo_S1024x784_S1024_d1 (by decide)]
  refine congr (congrArg _ (congrArg c (eq_ix0 _))) (Finset.sum_congr rfl fun k _ => ?_)
  exact congrArg x (funext fun a => Fin.ext (by match a with | ⟨0, _⟩ => rfl | ⟨1, _⟩ => rfl))

theorem bcol_1024 (x : FVec Ideal S1024 .f32) (c : FVec Ideal S_ .f32) (r : Fin 1024) (k : Fin 1024) :
    @broadcastInDim (no_index S1024x1) (no_index _) (no_index S1024x1024) (no_index ![0, 1]) bcast_S1024x1_S1024x1024_0_1
      (Host.divf (F := Ideal) (@broadcastInDim (no_index S1024) (no_index _) (no_index S1024x1) (no_index ![0]) bcast_S1024_S1024x1_0 x)
        (@broadcastInDim (no_index S_) (no_index _) (no_index S1024x1) (no_index ![]) bcast_S_S1024x1 c)) (ix2 r k)
      = Ideal.div (x (ix1 r)) (c ix0) := by
  refine (broadcastInDim_apply _ _ _ (ix2 r k) (ix2 r (0 : Fin 1)) (fun a => match a with | ⟨0, _⟩ => rfl | ⟨1, _⟩ => rfl)).trans ?_
  rw [hdivf_apply, broadcastInDim_apply _ _ x (ix2 r (0 : Fin 1)) (ix1 r) (fun a => match a with | ⟨0, _⟩ => rfl),
    broadcastInDim_apply _ _ c (ix2 r (0 : Fin 1)) ix0 (fun a => a.elim0)]

theorem btr_1024 {α : Type} (x : S1024x1024.Idx → α) (k : Fin 1024) (j : Fin 1024) :
    @transpose (no_index S1024x1024) (no_index α) (no_index S1024x1024) (no_index [1, 0]) x transposes_S1024x1024_S1024x1024_1_0 (ix2 k j) = x (ix2 j k) :=
  transpose_apply _ x _ (ix2 k j) (ix2 j k) (fun a => match a with | ⟨0, _⟩ => rfl | ⟨1, _⟩ => rfl)

theorem hsum_r1024 (x : FVec Ideal S1024x1024 .f32) (c : FVec Ideal S_ .f32) (r : Fin 1024) :
    Host.reduceAdd (F := Ideal) x c reducesTo_S1024x1024_S1024_d1 h_S_ (ix1 r) = c ix0 + ∑ k : Fin 1024, x (ix2 r k) := by
  simp only [Host.reduceAdd, Ideal.hostReduceAdd_def]
  rw [Ideal.hostReduceAdd_single reducesTo_S1024x1024_S1024_d1 (by decide)]
  refine congr (congrArg _ (congrArg c (eq_ix0 _))) (Finset.sum_congr rfl fun k _ => ?_)
  exact congrArg x (funext fun a => Fin.ext (by match a with | ⟨0, _⟩ => rfl | ⟨1, _⟩ => rfl))

theorem bcol_10 (x : FVec Ideal S10 .f32) (c : FVec Ideal S_ .f32) (r : Fin 10) (k : Fin 1024) :
    @broadcastInDim (no_index S10x1) (no_index _) (no_index S10x1024) (no_index ![0, 1]) bcast_S10x1_S10x1024_0_1
      (Host.divf (F := Ideal) (@broadcastInDim (no_index S10) (no_index _) (no_index S10x1) (no_index ![0]) bcast_S10_S10x1_0 x)
        (@broadcastInDim (no_index S_) (no_index _) (no_index S10x1) (no_index ![]) bcast_S_S10x1 c)) (ix2 r k)
      = Ideal.div (x (ix1 r)) (c ix0) := by
  refine (broadcastInDim_apply _ _ _ (ix2 r k) (ix2 r (0 : Fin 1)) (fun a => match a with | ⟨0, _⟩ => rfl | ⟨1, _⟩ => rfl)).trans ?_
  rw [hdivf_apply, broadcastInDim_apply _ _ x (ix2 r (0 : Fin 1)) (ix1 r) (fun a => match a with | ⟨0, _⟩ => rfl),
    broadcastInDim_apply _ _ c (ix2 r (0 : Fin 1)) ix0 (fun a => a.elim0)]

theorem btr_10 {α : Type} (x : S10x1024.Idx → α) (k : Fin 1024) (j : Fin 10) :
    @transpose (no_index S10x1024) (no_index α) (no_index S1024x10) (no_index [1, 0]) x transposes_S10x1024_S1024x10_1_0 (ix2 k j) = x (ix2 j k) :=
  transpose_apply _ x _ (ix2 k j) (ix2 j k) (fun a => match a with | ⟨0, _⟩ => rfl | ⟨1, _⟩ => rfl)

theorem hsum_r10 (x : FVec Ideal S10x1024 .f32) (c : FVec Ideal S_ .f32) (r : Fin 10) :
    Host.reduceAdd (F := Ideal) x c reducesTo_S10x1024_S10_d1 h_S_ (ix1 r) = c ix0 + ∑ k : Fin 1024, x (ix2 r k) := by
  simp only [Host.reduceAdd, Ideal.hostReduceAdd_def]
  rw [Ideal.hostReduceAdd_single reducesTo_S10x1024_S10_d1 (by decide)]
  refine congr (congrArg _ (congrArg c (eq_ix0 _))) (Finset.sum_congr rfl fun k _ => ?_)
  exact congrArg x (funext fun a => Fin.ext (by match a with | ⟨0, _⟩ => rfl | ⟨1, _⟩ => rfl))

end Cert.KernelIdeal.HostVals

end
-- ==== Proof.KHostW.lean ====
/-
  The binarised, transposed weight matrices the host prepares before the first layer: each read
  at an index is the sign of the weight times its row's mean absolute value; and what the five
  weight buffers hold after the first stretch of the program.
-/
import proofs.«157065_j74259984548393_2_alg».proof.Proof.KHostLibW

set_option maxRecDepth 16384

noncomputable section

namespace Cert.KernelIdeal.HostVals

open Cert.KernelIdeal Cert.KernelIdeal.Gen Idealize.ShloMosaic Idealize.ShloMosaic.TcCoe Idealize.ShloMosaic.ValueIdx Idealize.SL.Sem Idealize.ShloMosaic.StableHlo

/-- The binarised, transposed weights of a 1024 × 784 layer, as the host's operations compose them: the sign of each
    weight times its row's mean absolute value, rows and columns exchanged, then narrowed (the identity at the ideal values). -/
def binWT784 (w : FVec Ideal S1024x784 .f32) : FVec Ideal S784x1024 .bf16 :=
  truncf .bf16 (transpose S784x1024 [1, 0] (mulf (Host.sign w) (broadcastInDim S1024x784 ![0, 1] bcast_S1024x1_S1024x784_0_1
    (Host.divf (broadcastInDim S1024x1 ![0] bcast_S1024_S1024x1_0 (Host.reduceAdd (Host.absf w) (constant S_ .f32 0x00000000#32) reducesTo_S1024x784_S1024_d1 h_S_))
      (broadcastInDim S1024x1 ![] bcast_S_S1024x1 (constant S_ .f32 0x44440000#32))))) transposes_S1024x784_S784x1024_1_0) bitsLt_bf16_f32

/-- Read at `(k, r)`: the sign of weight `(r, k)` times row `r`'s mean absolute value. -/
theorem binWT784_apply (w : FVec Ideal S1024x784 .f32) (k : Fin 784) (r : Fin 1024) :
    binWT784 w (ix2 k r) = Cert.Spec.binK Cert.Spec.c784 (fun r k => w (ix2 r k)) r k := by
  unfold binWT784
  rw [truncf_apply, btr_784, mulf_apply, hsign_apply, bcol_784, hsum_r784]
  simp only [habsf_apply, constant_apply, Ideal.ofBits_zero_f32, zero_add]
  rfl

/-- The binarised, transposed weights of a 1024 × 1024 layer, as the host's operations compose them: the sign of each
    weight times its row's mean absolute value, rows and columns exchanged, then narrowed (the identity at the ideal values). -/
def binWT1024 (w : FVec Ideal S1024x1024 .f32) : FVec Ideal S1024x1024 .bf16 :=
  truncf .bf16 (transpose S1024x1024 [1, 0] (mulf (Host.sign w) (broadcastInDim S1024x1024 ![0, 1] bcast_S1024x1_S1024x1024_0_1
    (Host.divf (broadcastInDim S1024x1 ![0] bcast_S1024_S1024x1_0 (Host.reduceAdd (Host.absf w) (constant S_ .f32 0x00000000#32) reducesTo_S1024x1024_S1024_d1 h_S_))
      (broadcastInDim S1024x1 ![] bcast_S_S1024x1 (constant S_ .f32 0x44800000#32))))) transposes_S1024x1024_S1024x1024_1_0) bitsLt_bf16_f32

/-- Read at `(k, r)`: the sign of weight `(r, k)` times row `r`'s mean absolute value. -/
theorem binWT1024_apply (w : FVec Ideal S1024x1024 .f32) (k : Fin 1024) (r : Fin 1024) :
    binWT1024 w (ix2 k r) = Cert.Spec.binK Cert.Spec.c1024 (fun r k => w (ix2 r k)) r k := by
  unfold binWT1024
  rw [truncf_apply, btr_1024, mulf_apply, hsign_apply, bcol_1024, hsum_r1024]
  simp only [habsf_apply, constant_apply, Ideal.ofBits_zero_f32, zero_add]
  rfl

/-- The binarised, transposed weights of a 10 × 1024 layer, as the host's operations compose them: the sign of each
    weight times its row's mean absolute value, rows and columns exchanged, then narrowed (the identity at the ideal values). -/
def binWT10 (w : FVec Ideal S10x1024 .f32) : FVec Ideal S1024x10 .bf16 :=
  truncf .bf16 (transpose S1024x10 [1, 0] (mulf (Host.sign w) (broadcastInDim S10x1024 ![0, 1] bcast_S10x1_S10x1024_0_1
    (Host.divf (broadcastInDim S10x1 ![0] bcast_S10_S10x1_0 (Host.reduceAdd (Host.absf w) (constant S_ .f32 0x00000000#32) reducesTo_S10x1024_S10_d1 h_S_))
      (broadcastInDim S10x1 ![] bcast_S_S10x1 (constant S_ .f32 0x44800000#32))))) transposes_S10x1024_S1024x10_1_0) bitsLt_bf16_f32

/-- Read at `(k, r)`: the sign of weight `(r, k)` times row `r`'s mean absolute value. -/
theorem binWT10_apply (w : FVec Ideal S10x1024 .f32) (k : Fin 1024) (r : Fin 10) :
    binWT10 w (ix2 k r) = Cert.Spec.binK Cert.Spec.c1024 (fun r k => w (ix2 r k)) r k := by
  unfold binWT10
  rw [truncf_apply, btr_10, mulf_apply, hsign_apply, bcol_10, hsum_r10]
  simp only [habsf_apply, constant_apply, Ideal.ofBits_zero_f32, zero_add]
  rfl

/-! ## The first stretch: what the five weight buffers hold afterwards -/

set_option maxHeartbeats 4000000 in
theorem after0_v9 (W : Valuation τ sig (Elt Ideal)) (w : FVec Ideal S1024x784 .f32) (hw : W (Proc.devRef .tc main_arg1) = w) :
    (StableHlo.after (hostOps0 (F := Ideal)) W) (Proc.devRef .tc main_v9) = binWT784 w := by
  dsimp only [hostOps0]
  after_results_simp
  rw [hw]
  rfl

set_option maxHeartbeats 4000000 in
theorem after0_v19 (W : Valuation τ sig (Elt Ideal)) (w : FVec Ideal S1024x1024 .f32) (hw : W (Proc.devRef .tc main_arg3) = w) :
    (StableHlo.after (hostOps0 (F := Ideal)) W) (Proc.devRef .tc main_v19) = binWT1024 w := by
  dsimp only [hostOps0]
  after_results_simp
  rw [hw]
  rfl

set_option maxHeartbeats 4000000 in
theorem after0_v29 (W : Valuation τ sig (Elt Ideal)) (w : FVec Ideal S1024x1024 .f32) (hw : W (Proc.devRef .tc main_arg5) = w) :
    (StableHlo.after (hostOps0 (F := Ideal)) W) (Proc.devRef .tc main_v29) = binWT1024 w := by
  dsimp only [hostOps0]
  after_results_simp
  rw [hw]
  rfl

set_option maxHeartbeats 4000000 in
theorem after0_v39 (W : Valuation τ sig (Elt Ideal)) (w : FVec Ideal S1024x1024 .f32) (hw : W (Proc.devRef .tc main_arg7) = w) :
    (StableHlo.after (hostOps0 (F := Ideal)) W) (Proc.devRef .tc main_v39) = binWT1024 w := by
  dsimp only [hostOps0]
  after_results_simp
  rw [hw]
  rfl

set_option maxHeartbeats 4000000 in
theorem after0_v49 (W : Valuation τ sig (Elt Ideal)) (w : FVec Ideal S10x1024 .f32) (hw : W (Proc.devRef .tc main_arg9) = w) :
    (StableHlo.after (hostOps0 (F := Ideal)) W) (Proc.devRef .tc main_v49) = binWT10 w := by
  dsimp only [hostOps0]
  after_results_simp
  rw [hw]
  rfl

/-- The zero word the padding of the last layer's weights is converted from. -/
theorem after0_c (W : Valuation τ sig (Elt Ideal)) :
    (StableHlo.after (hostOps0 (F := Ideal)) W) (Proc.devRef .tc main_c) = constantI S_ 32 0#32 := by
  dsimp only [hostOps0]
  after_results_simp

end Cert.KernelIdeal.HostVals

end
-- ==== Proof.KHostVec.lean ====
/-
  The small host stretches around the layers: the bias, scale and shift vectors laid out as
  one-row matrices, the last layer's weights and bias padded with zeros to 128 columns, and the
  final slice back to the first ten columns — each read at an index.
-/
import proofs.«157065_j74259984548393_2_alg».proof.Proof.KHostLib
import Idealize.ShloMosaic.Lib.KernelVsHost

set_option maxRecDepth 16384

noncomputable section

namespace Cert.KernelIdeal.HostVals

open Cert.KernelIdeal Cert.KernelIdeal.Gen Idealize.ShloMosaic Idealize.ShloMosaic.TcCoe Idealize.ShloMosaic.ValueIdx Idealize.SL.Sem Idealize.ShloMosaic.StableHlo

/-! ## Vectors laid out as one-row matrices -/

/-- A vector of 1024 entries as a one-row matrix. -/
def rowT (b : FVec Ideal S1024 .f32) : FVec Ideal S1x1024 .f32 := shapeCast S1x1024 b shapeCasts_S1024_S1x1024
theorem rowT_apply (b : FVec Ideal S1024 .f32) (u : Fin 1) (j : Fin 1024) : rowT b (ix2 u j) = b (ix1 j) :=
  shapeCast_a_1a_apply b shapeCasts_S1024_S1x1024 u j

/-- A vector of 10 entries as a one-row matrix. -/
def row10T (b : FVec Ideal S10 .f32) : FVec Ideal S1x10 .f32 := shapeCast S1x10 b shapeCasts_S10_S1x10
theorem row10T_apply (b : FVec Ideal S10 .f32) (u : Fin 1) (j : Fin 10) : row10T b (ix2 u j) = b (ix1 j) :=
  shapeCast_a_1a_apply b shapeCasts_S10_S1x10 u j

/-! ## Padding the last layer to 128 columns -/

/-- A one-row matrix of 10 entries padded on the right to 128: the first ten columns. -/
theorem padRow_apply_lt {α : Type} (x : S1x10.Idx → α) (v : S_.Idx → α) (u : Fin 1) (j : Fin 128) (hj : j.val < 10) :
    pad S1x128 ![0, 0] ![0, 118] ![0, 0] x v pads_S1x10_S1x128_000_01180 h_S_ (ix2 u j) = x (ix2 u ⟨j.val, hj⟩) :=
  pad_apply_of_inside _ _ _ x v _ h_S_ (ix2 u j) (ix2 u ⟨j.val, hj⟩) (fun a => match a with
    | ⟨0, _⟩ => by show u.val = 0 + u.val * (0 + 1); omega
    | ⟨1, _⟩ => by show j.val = 0 + j.val * (0 + 1); omega)

/-- … and the padding value in the other columns. -/
theorem padRow_apply_ge {α : Type} (x : S1x10.Idx → α) (v : S_.Idx → α) (u : Fin 1) (j : Fin 128) (hj : 10 ≤ j.val) :
    pad S1x128 ![0, 0] ![0, 118] ![0, 0] x v pads_S1x10_S1x128_000_01180 h_S_ (ix2 u j) = v ix0 :=
  (pad_apply_of_not_inside _ _ _ x v _ h_S_ (ix2 u j) (1 : Fin 2) (by
    show ¬(0 ≤ j.val ∧ (j.val - 0) % (0 + 1) = 0 ∧ (j.val - 0) / (0 + 1) < 10); omega)).trans (congrArg v (eq_ix0 _))

/-- A matrix of 10 columns padded on the right to 128: the first ten columns. -/
theorem padMat_apply_lt {α : Type} (x : S1024x10.Idx → α) (v : S_.Idx → α) (k : Fin 1024) (j : Fin 128) (hj : j.val < 10) :
    pad S1024x128 ![0, 0] ![0, 118] ![0, 0] x v pads_S1024x10_S1024x128_000_01180 h_S_ (ix2 k j) = x (ix2 k ⟨j.val, hj⟩) :=
  pad_apply_of_inside _ _ _ x v _ h_S_ (ix2 k j) (ix2 k ⟨j.val, hj⟩) (fun a => match a with
    | ⟨0, _⟩ => by show k.val = 0 + k.val * (0 + 1); omega
    | ⟨1, _⟩ => by show j.val = 0 + j.val * (0 + 1); omega)

/-- … and the padding value in the other columns. -/
theorem padMat_apply_ge {α : Type} (x : S1024x10.Idx → α) (v : S_.Idx → α) (k : Fin 1024) (j : Fin 128) (hj : 10 ≤ j.val) :
    pad S1024x128 ![0, 0] ![0, 118] ![0, 0] x v pads_S1024x10_S1024x128_000_01180 h_S_ (ix2 k j) = v ix0 :=
  (pad_apply_of_not_inside _ _ _ x v _ h_S_ (ix2 k j) (1 : Fin 2) (by
    show ¬(0 ≤ j.val ∧ (j.val - 0) % (0 + 1) = 0 ∧ (j.val - 0) / (0 + 1) < 10); omega)).trans (congrArg v (eq_ix0 _))

/-- The integer zero converted to a float is zero. -/
theorem sitofp_zero_f32 : (FloatOps.sitofp (F := Ideal) .f32 (0#32 : BitVec 32) : Ideal .f32) = 0 := by
  show (((0#32 : BitVec 32).toInt : ℝ) : EReal) = 0
  simp
theorem sitofp_zero_bf16 : (FloatOps.sitofp (F := Ideal) .bf16 (0#32 : BitVec 32) : Ideal .bf16) = 0 := by
  show (((0#32 : BitVec 32).toInt : ℝ) : EReal) = 0
  simp

/-! ## The stretches before the first layer: the reshaped vectors and the padded last layer -/

theorem after0_4_v53 (W : Valuation τ sig (Elt Ideal)) (b : FVec Ideal S1024 .f32) (hb : W (Proc.devRef .tc main_arg2) = b) :
    (StableHlo.after (hostOps0_4 (F := Ideal)) W) (Proc.devRef .tc main_v53) = rowT b := by
  dsimp only [hostOps0_4]
  after_results
  rw [hb]
  rfl

theorem after0_4_v54 (W : Valuation τ sig (Elt Ideal)) (b : FVec Ideal S1024 .f32) (hb : W (Proc.devRef .tc main_arg4) = b) :
    (StableHlo.after (hostOps0_4 (F := Ideal)) W) (Proc.devRef .tc main_v54) = rowT b := by
  dsimp only [hostOps0_4]
  after_results
  rw [hb]
  rfl

theorem after0_4_v55 (W : Valuation τ sig (Elt Ideal)) (b : FVec Ideal S1024 .f32) (hb : W (Proc.devRef .tc main_arg6) = b) :
    (StableHlo.after (hostOps0_4 (F := Ideal)) W) (Proc.devRef .tc main_v55) = rowT b := by
  dsimp only [hostOps0_4]
  after_results
  rw [hb]
  rfl

theorem after0_4_v56 (W : Valuation τ sig (Elt Ideal)) (b : FVec Ideal S1024 .f32) (hb : W (Proc.devRef .tc main_arg8) = b) :
    (StableHlo.after (hostOps0_4 (F := Ideal)) W) (Proc.devRef .tc main_v56) = rowT b := by
  dsimp only [hostOps0_4]
  after_results
  rw [hb]
  rfl

theorem after0_4_v57 (W : Valuation τ sig (Elt Ideal)) (b : FVec Ideal S1024 .f32) (hb : W (Proc.devRef .tc main_arg11) = b) :
    (StableHlo.after (hostOps0_4 (F := Ideal)) W) (Proc.devRef .tc main_v57) = rowT b := by
  dsimp only [hostOps0_4]
  after_results
  rw [hb]
  rfl

theorem after0_4_v58 (W : Valuation τ sig (Elt Ideal)) (b : FVec Ideal S1024 .f32) (hb : W (Proc.devRef .tc main_arg12) = b) :
    (StableHlo.after (hostOps0_4 (F := Ideal)) W) (Proc.devRef .tc main_v58) = rowT b := by
  dsimp only [hostOps0_4]
  after_results
  rw [hb]
  rfl

theorem after0_4_v59 (W : Valuation τ sig (Elt Ideal)) (b : FVec Ideal S1024 .f32) (hb : W (Proc.devRef .tc main_arg13) = b) :
    (StableHlo.after (hostOps0_4 (F := Ideal)) W) (Proc.devRef .tc main_v59) = rowT b := by
  dsimp only [hostOps0_4]
  after_results
  rw [hb]
  rfl

theorem after0_4_v60 (W : Valuation τ sig (Elt Ideal)) (b : FVec Ideal S1024 .f32) (hb : W (Proc.devRef .tc main_arg14) = b) :
    (StableHlo.after (hostOps0_4 (F := Ideal)) W) (Proc.devRef .tc main_v60) = rowT b := by
  dsimp only [hostOps0_4]
  after_results
  rw [hb]
  rfl

theorem after0_4_v61 (W : Valuation τ sig (Elt Ideal)) (b : FVec Ideal S1024 .f32) (hb : W (Proc.devRef .tc main_arg15) = b) :
    (StableHlo.after (hostOps0_4 (F := Ideal)) W) (Proc.devRef .tc main_v61) = rowT b := by
  dsimp only [hostOps0_4]
  after_results
  rw [hb]
  rfl

theorem after0_4_v62 (W : Valuation τ sig (Elt Ideal)) (b : FVec Ideal S1024 .f32) (hb : W (Proc.devRef .tc main_arg16) = b) :
    (StableHlo.after (hostOps0_4 (F := Ideal)) W) (Proc.devRef .tc main_v62) = rowT b := by
  dsimp only [hostOps0_4]
  after_results
  rw [hb]
  rfl

theorem after0_4_v63 (W : Valuation τ sig (Elt Ideal)) (b : FVec Ideal S1024 .f32) (hb : W (Proc.devRef .tc main_arg17) = b) :
    (StableHlo.after (hostOps0_4 (F := Ideal)) W) (Proc.devRef .tc main_v63) = rowT b := by
  dsimp only [hostOps0_4]
  after_results
  rw [hb]
  rfl

theorem after0_4_v64 (W : Valuation τ sig (Elt Ideal)) (b : FVec Ideal S1024 .f32) (hb : W (Proc.devRef .tc main_arg18) = b) :
    (StableHlo.after (hostOps0_4 (F := Ideal)) W) (Proc.devRef .tc main_v64) = rowT b := by
  dsimp only [hostOps0_4]
  after_results
  rw [hb]
  rfl

theorem after0_2_v51 (W : Valuation τ sig (Elt Ideal)) (b : FVec Ideal S10 .f32) (hb : W (Proc.devRef .tc main_arg10) = b) :
    (StableHlo.after (hostOps0_2 (F := Ideal)) W) (Proc.devRef .tc main_v51) = row10T b := by
  dsimp only [hostOps0_2]
  after_results
  rw [hb]
  rfl

theorem after0_2_c9 (W : Valuation τ sig (Elt Ideal)) :
    (StableHlo.after (hostOps0_2 (F := Ideal)) W) (Proc.devRef .tc main_c_9) = constantI S_ 32 0#32 := by
  dsimp only [hostOps0_2]
  after_results

theorem after0_3_v52 (W : Valuation τ sig (Elt Ideal)) (x : FVec Ideal S1x10 .f32) (c : (⟨S_, .i32⟩ : BufTy).Contents (Elt Ideal))
    (hx : W (Proc.devRef .tc main_v51) = x) (hc : W (Proc.devRef .tc main_c_9) = c) :
    (StableHlo.after (hostOps0_3 (F := Ideal)) W) (Proc.devRef .tc main_v52)
      = pad S1x128 ![0, 0] ![0, 118] ![0, 0] x (sitofp (F := Ideal) .f32 c) pads_S1x10_S1x128_000_01180 h_S_ := by
  dsimp only [hostOps0_3]
  after_results
  rw [hx, hc]
  rfl

theorem after0_1_v50 (W : Valuation τ sig (Elt Ideal)) (x : FVec Ideal S1024x10 .bf16) (c : (⟨S_, .i32⟩ : BufTy).Contents (Elt Ideal))
    (hx : W (Proc.devRef .tc main_v49) = x) (hc : W (Proc.devRef .tc main_c) = c) :
    (StableHlo.after (hostOps0_1 (F := Ideal)) W) (Proc.devRef .tc main_v50)
      = pad S1024x128 ![0, 0] ![0, 118] ![0, 0] x (sitofp (F := Ideal) .bf16 c) pads_S1024x10_S1024x128_000_01180 h_S_ := by
  dsimp only [hostOps0_1]
  after_results
  rw [hx, hc]
  rfl

/-! ## The last stretch's slice: the first ten of the 128 columns -/

theorem after5_v138 (W : Valuation τ sig (Elt Ideal)) (x : FVec Ideal S16384x128 .f32) (hx : W (Proc.devRef .tc main_v137) = x)
    (i : Fin 16384) (j : Fin 10) :
    (StableHlo.after (hostOps5 (F := Ideal)) W) (Proc.devRef .tc main_v138) (ix2 i j) = x (ix2 i ⟨j.val, by omega⟩) := by
  dsimp only [hostOps5]
  after_results
  rw [hx]
  exact extractStridedSlice_apply _ x _ (ix2 i j) (ix2 i ⟨j.val, by omega⟩) (fun a => match a with
    | ⟨0, _⟩ => by show i.val = 0 + i.val; omega
    | ⟨1, _⟩ => by show j.val = 0 + j.val; omega)

end Cert.KernelIdeal.HostVals

end
-- ==== Proof.KHostPre.lean ====
/-
  The buffers when the first layer starts: the five host stretches that precede it, in order,
  from the launch contents — the binarised weights, the last layer's weights and bias padded
  with zeros to 128 columns, and the bias, scale and shift rows, each in terms of the argument
  arrays; the stretches that do not write a buffer leave it as it was.
-/
import proofs.«157065_j74259984548393_2_alg».proof.Proof.KHostW
import proofs.«157065_j74259984548393_2_alg».proof.Proof.KHostVec

set_option maxRecDepth 16384

noncomputable section

namespace Cert.KernelIdeal.HostVals

open Cert.KernelIdeal Cert.KernelIdeal.Gen Idealize.ShloMosaic Idealize.ShloMosaic.TcCoe Idealize.ShloMosaic.ValueIdx Idealize.SL.Sem Idealize.ShloMosaic.StableHlo

/-! ## The buffers when the first layer starts

The five host stretches before the first layer, in order, from the launch contents `W`: the
binarised weights, the padded last layer, and the bias, scale and shift rows, each in terms of
the argument arrays in `W`. -/

set_option maxHeartbeats 4000000 in
/-- The input array is untouched. -/
theorem pre_main_arg0 (W : Valuation τ sig (Elt Ideal)) : StableHlo.after hostOps0_4 (StableHlo.after hostOps0_3 (StableHlo.after hostOps0_2 (StableHlo.after hostOps0_1 (StableHlo.after hostOps0 W)))) (Proc.devRef .tc main_arg0) = W (Proc.devRef .tc main_arg0) := by
  dsimp only [hostOps0, hostOps0_1, hostOps0_2, hostOps0_3, hostOps0_4]
  after_results_simp

theorem pre_main_v9 (W : Valuation τ sig (Elt Ideal)) (w : FVec Ideal S1024x784 .f32) (hw : W (Proc.devRef .tc main_arg1) = w) :
    StableHlo.after hostOps0_4 (StableHlo.after hostOps0_3 (StableHlo.after hostOps0_2 (StableHlo.after hostOps0_1 (StableHlo.after hostOps0 W)))) (Proc.devRef .tc main_v9) = binWT784 w := by
  have k : ∀ V : Valuation τ sig (Elt Ideal), StableHlo.after hostOps0_4 (StableHlo.after hostOps0_3 (StableHlo.after hostOps0_2 (StableHlo.after hostOps0_1 V))) (Proc.devRef .tc main_v9) = V (Proc.devRef .tc main_v9) := by
    intro V; dsimp only [hostOps0_1, hostOps0_2, hostOps0_3, hostOps0_4]; after_results
  rw [k]
  exact after0_v9 W w hw

theorem pre_main_v9_apply (W : Valuation τ sig (Elt Ideal)) (w : FVec Ideal S1024x784 .f32) (hw : W (Proc.devRef .tc main_arg1) = w) (k : Fin 784) (r : Fin 1024) :
    StableHlo.after hostOps0_4 (StableHlo.after hostOps0_3 (StableHlo.after hostOps0_2 (StableHlo.after hostOps0_1 (StableHlo.after hostOps0 W)))) (Proc.devRef .tc main_v9) (ix2 k r) = Cert.Spec.binK Cert.Spec.c784 (fun r k => w (ix2 r k)) r k := by
  rw [pre_main_v9 W w hw, binWT784_apply]

theorem pre_main_v19 (W : Valuation τ sig (Elt Ideal)) (w : FVec Ideal S1024x1024 .f32) (hw : W (Proc.devRef .tc main_arg3) = w) :
    StableHlo.after hostOps0_4 (StableHlo.after hostOps0_3 (StableHlo.after hostOps0_2 (StableHlo.after hostOps0_1 (StableHlo.after hostOps0 W)))) (Proc.devRef .tc main_v19) = binWT1024 w := by
  have k : ∀ V : Valuation τ sig (Elt Ideal), StableHlo.after hostOps0_4 (StableHlo.after hostOps0_3 (StableHlo.after hostOps0_2 (StableHlo.after hostOps0_1 V))) (Proc.devRef .tc main_v19) = V (Proc.devRef .tc main_v19) := by
    intro V; dsimp only [hostOps0_1, hostOps0_2, hostOps0_3, hostOps0_4]; after_results
  rw [k]
  exact after0_v19 W w hw

theorem pre_main_v19_apply (W : Valuation τ sig (Elt Ideal)) (w : FVec Ideal S1024x1024 .f32) (hw : W (Proc.devRef .tc main_arg3) = w) (k : Fin 1024) (r : Fin 1024) :
    StableHlo.after hostOps0_4 (StableHlo.after hostOps0_3 (StableHlo.after hostOps0_2 (StableHlo.after hostOps0_1 (StableHlo.after hostOps0 W)))) (Proc.devRef .tc main_v19) (ix2 k r) = Cert.Spec.binK Cert.Spec.c1024 (fun r k => w (ix2 r k)) r k := by
  rw [pre_main_v19 W w hw, binWT1024_apply]

theorem pre_main_v29 (W : Valuation τ sig (Elt Ideal)) (w : FVec Ideal S1024x1024 .f32) (hw : W (Proc.devRef .tc main_arg5) = w) :
    StableHlo.after hostOps0_4 (StableHlo.after hostOps0_3 (StableHlo.after hostOps0_2 (StableHlo.after hostOps0_1 (StableHlo.after hostOps0 W)))) (Proc.devRef .tc main_v29) = binWT1024 w := by
  have k : ∀ V : Valuation τ sig (Elt Ideal), StableHlo.after hostOps0_4 (StableHlo.after hostOps0_3 (StableHlo.after hostOps0_2 (StableHlo.after hostOps0_1 V))) (Proc.devRef .tc main_v29) = V (Proc.devRef .tc main_v29) := by
    intro V; dsimp only [hostOps0_1, hostOps0_2, hostOps0_3, hostOps0_4]; after_results
  rw [k]
  exact after0_v29 W w hw

theorem pre_main_v29_apply (W : Valuation τ sig (Elt Ideal)) (w : FVec Ideal S1024x1024 .f32) (hw : W (Proc.devRef .tc main_arg5) = w) (k : Fin 1024) (r : Fin 1024) :
    StableHlo.after hostOps0_4 (StableHlo.after hostOps0_3 (StableHlo.after hostOps0_2 (StableHlo.after hostOps0_1 (StableHlo.after hostOps0 W)))) (Proc.devRef .tc main_v29) (ix2 k r) = Cert.Spec.binK Cert.Spec.c1024 (fun r k => w (ix2 r k)) r k := by
  rw [pre_main_v29 W w hw, binWT1024_apply]

theorem pre_main_v39 (W : Valuation τ sig (Elt Ideal)) (w : FVec Ideal S1024x1024 .f32) (hw : W (Proc.devRef .tc main_arg7) = w) :
    StableHlo.after hostOps0_4 (StableHlo.after hostOps0_3 (StableHlo.after hostOps0_2 (StableHlo.after hostOps0_1 (StableHlo.after hostOps0 W)))) (Proc.devRef .tc main_v39) = binWT1024 w := by
  have k : ∀ V : Valuation τ sig (Elt Ideal), StableHlo.after hostOps0_4 (StableHlo.after hostOps0_3 (StableHlo.after hostOps0_2 (StableHlo.after hostOps0_1 V))) (Proc.devRef .tc main_v39) = V (Proc.devRef .tc main_v39) := by
    intro V; dsimp only [hostOps0_1, hostOps0_2, hostOps0_3, hostOps0_4]; after_results
  rw [k]
  exact after0_v39 W w hw

theorem pre_main_v39_apply (W : Valuation τ sig (Elt Ideal)) (w : FVec Ideal S1024x1024 .f32) (hw : W (Proc.devRef .tc main_arg7) = w) (k : Fin 1024) (r : Fin 1024) :
    StableHlo.after hostOps0_4 (StableHlo.after hostOps0_3 (StableHlo.after hostOps0_2 (StableHlo.after hostOps0_1 (StableHlo.after hostOps0 W)))) (Proc.devRef .tc main_v39) (ix2 k r) = Cert.Spec.binK Cert.Spec.c1024 (fun r k => w (ix2 r k)) r k := by
  rw [pre_main_v39 W w hw, binWT1024_apply]

theorem pre_main_v50 (W : Valuation τ sig (Elt Ideal)) (w : FVec Ideal S10x1024 .f32) (hw : W (Proc.devRef .tc main_arg9) = w) :
    StableHlo.after hostOps0_4 (StableHlo.after hostOps0_3 (StableHlo.after hostOps0_2 (StableHlo.after hostOps0_1 (StableHlo.after hostOps0 W)))) (Proc.devRef .tc main_v50)
      = pad S1024x128 ![0, 0] ![0, 118] ![0, 0] (binWT10 w) (sitofp (F := Ideal) .bf16 (constantI S_ 32 0#32)) pads_S1024x10_S1024x128_000_01180 h_S_ := by
  have k : ∀ V : Valuation τ sig (Elt Ideal), StableHlo.after hostOps0_4 (StableHlo.after hostOps0_3 (StableHlo.after hostOps0_2 V)) (Proc.devRef .tc main_v50) = V (Proc.devRef .tc main_v50) := by
    intro V; dsimp only [hostOps0_2, hostOps0_3, hostOps0_4]; after_results
  rw [k]
  exact after0_1_v50 _ _ _ (after0_v49 W w hw) (after0_c W)

/-- The last layer's padded weights: the binarised weights in the first ten columns, zero in the others. -/
theorem pre_main_v50_apply (W : Valuation τ sig (Elt Ideal)) (w : FVec Ideal S10x1024 .f32) (hw : W (Proc.devRef .tc main_arg9) = w) (k : Fin 1024) (j : Fin 128) :
    StableHlo.after hostOps0_4 (StableHlo.after hostOps0_3 (StableHlo.after hostOps0_2 (StableHlo.after hostOps0_1 (StableHlo.after hostOps0 W)))) (Proc.devRef .tc main_v50) (ix2 k j)
      = if h : j.val < 10 then Cert.Spec.binK Cert.Spec.c1024 (fun r k => w (ix2 r k)) ⟨j.val, h⟩ k else 0 := by
  rw [pre_main_v50 W w hw]
  split
  · next h => rw [padMat_apply_lt _ _ k j h, binWT10_apply]
  · next h => rw [padMat_apply_ge _ _ k j (by omega)]; exact sitofp_zero_bf16

set_option maxHeartbeats 4000000 in
theorem pre_main_v52 (W : Valuation τ sig (Elt Ideal)) (b : FVec Ideal S10 .f32) (hb : W (Proc.devRef .tc main_arg10) = b) :
    StableHlo.after hostOps0_4 (StableHlo.after hostOps0_3 (StableHlo.after hostOps0_2 (StableHlo.after hostOps0_1 (StableHlo.after hostOps0 W)))) (Proc.devRef .tc main_v52)
      = pad S1x128 ![0, 0] ![0, 118] ![0, 0] (row10T b) (sitofp (F := Ideal) .f32 (constantI S_ 32 0#32)) pads_S1x10_S1x128_000_01180 h_S_ := by
  have k : ∀ V : Valuation τ sig (Elt Ideal), StableHlo.after hostOps0_4 V (Proc.devRef .tc main_v52) = V (Proc.devRef .tc main_v52) := by
    intro V; dsimp only [hostOps0_4]; after_results
  rw [k]
  refine after0_3_v52 _ _ _ ?_ (after0_2_c9 _)
  refine after0_2_v51 _ b ?_
  rw [← hb]
  dsimp only [hostOps0, hostOps0_1]
  after_results_simp

/-- The last layer's padded bias: the bias in the first ten columns, zero in the others. -/
theorem pre_main_v52_apply (W : Valuation τ sig (Elt Ideal)) (b : FVec Ideal S10 .f32) (hb : W (Proc.devRef .tc main_arg10) = b) (u : Fin 1) (j : Fin 128) :
    StableHlo.after hostOps0_4 (StableHlo.after hostOps0_3 (StableHlo.after hostOps0_2 (StableHlo.after hostOps0_1 (StableHlo.after hostOps0 W)))) (Proc.devRef .tc main_v52) (ix2 u j) = if h : j.val < 10 then b (ix1 ⟨j.val, h⟩) else 0 := by
  rw [pre_main_v52 W b hb]
  split
  · next h => rw [padRow_apply_lt _ _ u j h, row10T_apply]
  · next h => rw [padRow_apply_ge _ _ u j (by omega)]; exact sitofp_zero_f32

set_option maxHeartbeats 4000000 in
theorem pre_main_v53 (W : Valuation τ sig (Elt Ideal)) (b : FVec Ideal S1024 .f32) (hb : W (Proc.devRef .tc main_arg2) = b) :
    StableHlo.after hostOps0_4 (StableHlo.after hostOps0_3 (StableHlo.after hostOps0_2 (StableHlo.after hostOps0_1 (StableHlo.after hostOps0 W)))) (Proc.devRef .tc main_v53) = rowT b := by
  refine after0_4_v53 _ b ?_
  rw [← hb]
  dsimp only [hostOps0, hostOps0_1, hostOps0_2, hostOps0_3]
  after_results_simp

theorem pre_main_v53_apply (W : Valuation τ sig (Elt Ideal)) (b : FVec Ideal S1024 .f32) (hb : W (Proc.devRef .tc main_arg2) = b) (u : Fin 1) (j : Fin 1024) :
    StableHlo.after hostOps0_4 (StableHlo.after hostOps0_3 (StableHlo.after hostOps0_2 (StableHlo.after hostOps0_1 (StableHlo.after hostOps0 W)))) (Proc.devRef .tc main_v53) (ix2 u j) = b (ix1 j) := by
  rw [pre_main_v53 W b hb, rowT_apply]

set_option maxHeartbeats 4000000 in
theorem pre_main_v54 (W : Valuation τ sig (Elt Ideal)) (b : FVec Ideal S1024 .f32) (hb : W (Proc.devRef .tc main_arg4) = b) :
    StableHlo.after hostOps0_4 (StableHlo.after hostOps0_3 (StableHlo.after hostOps0_2 (StableHlo.after hostOps0_1 (StableHlo.after hostOps0 W)))) (Proc.devRef .tc main_v54) = rowT b := by
  refine after0_4_v54 _ b ?_
  rw [← hb]
  dsimp only [hostOps0, hostOps0_1, hostOps0_2, hostOps0_3]
  after_results_simp

theorem pre_main_v54_apply (W : Valuation τ sig (Elt Ideal)) (b : FVec Ideal S1024 .f32) (hb : W (Proc.devRef .tc main_arg4) = b) (u : Fin 1) (j : Fin 1024) :
    StableHlo.after hostOps0_4 (StableHlo.after hostOps0_3 (StableHlo.after hostOps0_2 (StableHlo.after hostOps0_1 (StableHlo.after hostOps0 W)))) (Proc.devRef .tc main_v54) (ix2 u j) = b (ix1 j) := by
  rw [pre_main_v54 W b hb, rowT_apply]

set_option maxHeartbeats 4000000 in
theorem pre_main_v55 (W : Valuation τ sig (Elt Ideal)) (b : FVec Ideal S1024 .f32) (hb : W (Proc.devRef .tc main_arg6) = b) :
    StableHlo.after hostOps0_4 (StableHlo.after hostOps0_3 (StableHlo.after hostOps0_2 (StableHlo.after hostOps0_1 (StableHlo.after hostOps0 W)))) (Proc.devRef .tc main_v55) = rowT b := by
  refine after0_4_v55 _ b ?_
  rw [← hb]
  dsimp only [hostOps0, hostOps0_1, hostOps0_2, hostOps0_3]
  after_results_simp

theorem pre_main_v55_apply (W : Valuation τ sig (Elt Ideal)) (b : FVec Ideal S1024 .f32) (hb : W (Proc.devRef .tc main_arg6) = b) (u : Fin 1) (j : Fin 1024) :
    StableHlo.after hostOps0_4 (StableHlo.after hostOps0_3 (StableHlo.after hostOps0_2 (StableHlo.after hostOps0_1 (StableHlo.after hostOps0 W)))) (Proc.devRef .tc main_v55) (ix2 u j) = b (ix1 j) := by
  rw [pre_main_v55 W b hb, rowT_apply]

set_option maxHeartbeats 4000000 in
theorem pre_main_v56 (W : Valuation τ sig (Elt Ideal)) (b : FVec Ideal S1024 .f32) (hb : W (Proc.devRef .tc main_arg8) = b) :
    StableHlo.after hostOps0_4 (StableHlo.after hostOps0_3 (StableHlo.after hostOps0_2 (StableHlo.after hostOps0_1 (StableHlo.after hostOps0 W)))) (Proc.devRef .tc main_v56) = rowT b := by
  refine after0_4_v56 _ b ?_
  rw [← hb]
  dsimp only [hostOps0, hostOps0_1, hostOps0_2, hostOps0_3]
  after_results_simp

theorem pre_main_v56_apply (W : Valuation τ sig (Elt Ideal)) (b : FVec Ideal S1024 .f32) (hb : W (Proc.devRef .tc main_arg8) = b) (u : Fin 1) (j : Fin 1024) :
    StableHlo.after hostOps0_4 (StableHlo.after hostOps0_3 (StableHlo.after hostOps0_2 (StableHlo.after hostOps0_1 (StableHlo.after hostOps0 W)))) (Proc.devRef .tc main_v56) (ix2 u j) = b (ix1 j) := by
  rw [pre_main_v56 W b hb, rowT_apply]

set_option maxHeartbeats 4000000 in
theorem pre_main_v57 (W : Valuation τ sig (Elt Ideal)) (b : FVec Ideal S1024 .f32) (hb : W (Proc.devRef .tc main_arg11) = b) :
    StableHlo.after hostOps0_4 (StableHlo.after hostOps0_3 (StableHlo.after hostOps0_2 (StableHlo.after hostOps0_1 (StableHlo.after hostOps0 W)))) (Proc.devRef .tc main_v57) = rowT b := by
  refine after0_4_v57 _ b ?_
  rw [← hb]
  dsimp only [hostOps0, hostOps0_1, hostOps0_2, hostOps0_3]
  after_results_simp

theorem pre_main_v57_apply (W : Valuation τ sig (Elt Ideal)) (b : FVec Ideal S1024 .f32) (hb : W (Proc.devRef .tc main_arg11) = b) (u : Fin 1) (j : Fin 1024) :
    StableHlo.after hostOps0_4 (StableHlo.after hostOps0_3 (StableHlo.after hostOps0_2 (StableHlo.after hostOps0_1 (StableHlo.after hostOps0 W)))) (Proc.devRef .tc main_v57) (ix2 u j) = b (ix1 j) := by
  rw [pre_main_v57 W b hb, rowT_apply]

set_option maxHeartbeats 4000000 in
theorem pre_main_v58 (W : Valuation τ sig (Elt Ideal)) (b : FVec Ideal S1024 .f32) (hb : W (Proc.devRef .tc main_arg12) = b) :
    StableHlo.after hostOps0_4 (StableHlo.after hostOps0_3 (StableHlo.after hostOps0_2 (StableHlo.after hostOps0_1 (StableHlo.after hostOps0 W)))) (Proc.devRef .tc main_v58) = rowT b := by
  refine after0_4_v58 _ b ?_
  rw [← hb]
  dsimp only [hostOps0, hostOps0_1, hostOps0_2, hostOps0_3]
  after_results_simp

theorem pre_main_v58_apply (W : Valuation τ sig (Elt Ideal)) (b : FVec Ideal S1024 .f32) (hb : W (Proc.devRef .tc main_arg12) = b) (u : Fin 1) (j : Fin 1024) :
    StableHlo.after hostOps0_4 (StableHlo.after hostOps0_3 (StableHlo.after hostOps0_2 (StableHlo.after hostOps0_1 (StableHlo.after hostOps0 W)))) (Proc.devRef .tc main_v58) (ix2 u j) = b (ix1 j) := by
  rw [pre_main_v58 W b hb, rowT_apply]

set_option maxHeartbeats 4000000 in
theorem pre_main_v59 (W : Valuation τ sig (Elt Ideal)) (b : FVec Ideal S1024 .f32) (hb : W (Proc.devRef .tc main_arg13) = b) :
    StableHlo.after hostOps0_4 (StableHlo.after hostOps0_3 (StableHlo.after hostOps0_2 (StableHlo.after hostOps0_1 (StableHlo.after hostOps0 W)))) (Proc.devRef .tc main_v59) = rowT b := by
  refine after0_4_v59 _ b ?_
  rw [← hb]
  dsimp only [hostOps0, hostOps0_1, hostOps0_2, hostOps0_3]
  after_results_simp

theorem pre_main_v59_apply (W : Valuation τ sig (Elt Ideal)) (b : FVec Ideal S1024 .f32) (hb : W (Proc.devRef .tc main_arg13) = b) (u : Fin 1) (j : Fin 1024) :
    StableHlo.after hostOps0_4 (StableHlo.after hostOps0_3 (StableHlo.after hostOps0_2 (StableHlo.after hostOps0_1 (StableHlo.after hostOps0 W)))) (Proc.devRef .tc main_v59) (ix2 u j) = b (ix1 j) := by
  rw [pre_main_v59 W b hb, rowT_apply]

set_option maxHeartbeats 4000000 in
theorem pre_main_v60 (W : Valuation τ sig (Elt Ideal)) (b : FVec Ideal S1024 .f32) (hb : W (Proc.devRef .tc main_arg14) = b) :
    StableHlo.after hostOps0_4 (StableHlo.after hostOps0_3 (StableHlo.after hostOps0_2 (StableHlo.after hostOps0_1 (StableHlo.after hostOps0 W)))) (Proc.devRef .tc main_v60) = rowT b := by
  refine after0_4_v60 _ b ?_
  rw [← hb]
  dsimp only [hostOps0, hostOps0_1, hostOps0_2, hostOps0_3]
  after_results_simp

theorem pre_main_v60_apply (W : Valuation τ sig (Elt Ideal)) (b : FVec Ideal S1024 .f32) (hb : W (Proc.devRef .tc main_arg14) = b) (u : Fin 1) (j : Fin 1024) :
    StableHlo.after hostOps0_4 (StableHlo.after hostOps0_3 (StableHlo.after hostOps0_2 (StableHlo.after hostOps0_1 (StableHlo.after hostOps0 W)))) (Proc.devRef .tc main_v60) (ix2 u j) = b (ix1 j) := by
  rw [pre_main_v60 W b hb, rowT_apply]

set_option maxHeartbeats 4000000 in
theorem pre_main_v61 (W : Valuation τ sig (Elt Ideal)) (b : FVec Ideal S1024 .f32) (hb : W (Proc.devRef .tc main_arg15) = b) :
    StableHlo.after hostOps0_4 (StableHlo.after hostOps0_3 (StableHlo.after hostOps0_2 (StableHlo.after hostOps0_1 (StableHlo.after hostOps0 W)))) (Proc.devRef .tc main_v61) = rowT b := by
  refine after0_4_v61 _ b ?_
  rw [← hb]
  dsimp only [hostOps0, hostOps0_1, hostOps0_2, hostOps0_3]
  after_results_simp

theorem pre_main_v61_apply (W : Valuation τ sig (Elt Ideal)) (b : FVec Ideal S1024 .f32) (hb : W (Proc.devRef .tc main_arg15) = b) (u : Fin 1) (j : Fin 1024) :
    StableHlo.after hostOps0_4 (StableHlo.after hostOps0_3 (StableHlo.after hostOps0_2 (StableHlo.after hostOps0_1 (StableHlo.after hostOps0 W)))) (Proc.devRef .tc main_v61) (ix2 u j) = b (ix1 j) := by
  rw [pre_main_v61 W b hb, rowT_apply]

set_option maxHeartbeats 4000000 in
theorem pre_main_v62 (W : Valuation τ sig (Elt Ideal)) (b : FVec Ideal S1024 .f32) (hb : W (Proc.devRef .tc main_arg16) = b) :
    StableHlo.after hostOps0_4 (StableHlo.after hostOps0_3 (StableHlo.after hostOps0_2 (StableHlo.after hostOps0_1 (StableHlo.after hostOps0 W)))) (Proc.devRef .tc main_v62) = rowT b := by
  refine after0_4_v62 _ b ?_
  rw [← hb]
  dsimp only [hostOps0, hostOps0_1, hostOps0_2, hostOps0_3]
  after_results_simp

theorem pre_main_v62_apply (W : Valuation τ sig (Elt Ideal)) (b : FVec Ideal S1024 .f32) (hb : W (Proc.devRef .tc main_arg16) = b) (u : Fin 1) (j : Fin 1024) :
    StableHlo.after hostOps0_4 (StableHlo.after hostOps0_3 (StableHlo.after hostOps0_2 (StableHlo.after hostOps0_1 (StableHlo.after hostOps0 W)))) (Proc.devRef .tc main_v62) (ix2 u j) = b (ix1 j) := by
  rw [pre_main_v62 W b hb, rowT_apply]

set_option maxHeartbeats 4000000 in
theorem pre_main_v63 (W : Valuation τ sig (Elt Ideal)) (b : FVec Ideal S1024 .f32) (hb : W (Proc.devRef .tc main_arg17) = b) :
    StableHlo.after hostOps0_4 (StableHlo.after hostOps0_3 (StableHlo.after hostOps0_2 (StableHlo.after hostOps0_1 (StableHlo.after hostOps0 W)))) (Proc.devRef .tc main_v63) = rowT b := by
  refine after0_4_v63 _ b ?_
  rw [← hb]
  dsimp only [hostOps0, hostOps0_1, hostOps0_2, hostOps0_3]
  after_results_simp

theorem pre_main_v63_apply (W : Valuation τ sig (Elt Ideal)) (b : FVec Ideal S1024 .f32) (hb : W (Proc.devRef .tc main_arg17) = b) (u : Fin 1) (j : Fin 1024) :
    StableHlo.after hostOps0_4 (StableHlo.after hostOps0_3 (StableHlo.after hostOps0_2 (StableHlo.after hostOps0_1 (StableHlo.after hostOps0 W)))) (Proc.devRef .tc main_v63) (ix2 u j) = b (ix1 j) := by
  rw [pre_main_v63 W b hb, rowT_apply]

set_option maxHeartbeats 4000000 in
theorem pre_main_v64 (W : Valuation τ sig (Elt Ideal)) (b : FVec Ideal S1024 .f32) (hb : W (Proc.devRef .tc main_arg18) = b) :
    StableHlo.after hostOps0_4 (StableHlo.after hostOps0_3 (StableHlo.after hostOps0_2 (StableHlo.after hostOps0_1 (StableHlo.after hostOps0 W)))) (Proc.devRef .tc main_v64) = rowT b := by
  refine after0_4_v64 _ b ?_
  rw [← hb]
  dsimp only [hostOps0, hostOps0_1, hostOps0_2, hostOps0_3]
  after_results_simp

theorem pre_main_v64_apply (W : Valuation τ sig (Elt Ideal)) (b : FVec Ideal S1024 .f32) (hb : W (Proc.devRef .tc main_arg18) = b) (u : Fin 1) (j : Fin 1024) :
    StableHlo.after hostOps0_4 (StableHlo.after hostOps0_3 (StableHlo.after hostOps0_2 (StableHlo.after hostOps0_1 (StableHlo.after hostOps0 W)))) (Proc.devRef .tc main_v64) (ix2 u j) = b (ix1 j) := by
  rw [pre_main_v64 W b hb, rowT_apply]

/-- The last layer's padded weights at one of the first ten columns. -/
theorem pre_main_v50_lt (W : Valuation τ sig (Elt Ideal)) (w : FVec Ideal S10x1024 .f32) (hw : W (Proc.devRef .tc main_arg9) = w) (k : Fin 1024) (j : Fin 10) :
    StableHlo.after hostOps0_4 (StableHlo.after hostOps0_3 (StableHlo.after hostOps0_2 (StableHlo.after hostOps0_1 (StableHlo.after hostOps0 W)))) (Proc.devRef .tc main_v50) (ix2 k ⟨j.val, Nat.lt_of_lt_of_le j.isLt (by decide)⟩)
      = Cert.Spec.binK Cert.Spec.c1024 (fun r k => w (ix2 r k)) j k := by
  rw [pre_main_v50 W w hw, padMat_apply_lt _ _ k ⟨j.val, Nat.lt_of_lt_of_le j.isLt (by decide)⟩ j.isLt, binWT10_apply]

/-- The last layer's padded bias at one of the first ten columns. -/
theorem pre_main_v52_lt (W : Valuation τ sig (Elt Ideal)) (b : FVec Ideal S10 .f32) (hb : W (Proc.devRef .tc main_arg10) = b) (u : Fin 1) (j : Fin 10) :
    StableHlo.after hostOps0_4 (StableHlo.after hostOps0_3 (StableHlo.after hostOps0_2 (StableHlo.after hostOps0_1 (StableHlo.after hostOps0 W)))) (Proc.devRef .tc main_v52) (ix2 u ⟨j.val, Nat.lt_of_lt_of_le j.isLt (by decide)⟩) = b (ix1 j) := by
  rw [pre_main_v52 W b hb, padRow_apply_lt _ _ u ⟨j.val, Nat.lt_of_lt_of_le j.isLt (by decide)⟩ j.isLt, row10T_apply]

end Cert.KernelIdeal.HostVals

end
-- ==== Proof.R0ValPieces.lean ====
/-
  Launch 0: what each case of the body leaves, as a function of the blocks it loads.

  Every store of the body covers its whole buffer, so what a buffer holds after the body is the
  payload of the last store into it, and every load reads a whole buffer: either the block the
  point was entered with, or (the cleared totals at a half's first point, the copied-out totals at
  its last) the payload of the store just before it.  Writing P for the block's pre-activation
  (the matmul of the block of x against the weights, plus the bias row), the body leaves

    * P in the block output, in every case;
    * s + (column sums of P) and s' + (column sums of P·P) in the two running totals, where s, s'
      are what the totals held on entry, or zero at a half's first point;
    * at a half's last point, those two new totals, reshaped, in the two statistics outputs.
-/
import proofs.«157065_j74259984548393_2_alg».proof.Proof.R0Frame
import Idealize.ShloMosaic.Lib.Pipeline.Value
import Idealize.ShloMosaic.Lib.ValueIdx

set_option maxRecDepth 16384

noncomputable section

namespace Cert.KernelIdeal.Vals.R0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ### First point of a half: the totals start from zero -/

/-- The block output is the block's pre-activation. -/
theorem out_A_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) :
    out0_A_3 c i arg2 harg2 arg3 harg3 arg4 harg4 arg5 harg5 arg6 harg6 arg7 harg7 arg8 harg8 arg9 harg9 hc0 hc1 x0 x1 x2 = k0_pay5 x0 x1 x2 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero (S := S512x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The first total: zero plus the block's column sums. -/
theorem sout_A_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) :
    sout0_A_0 c i arg2 harg2 arg3 harg3 arg4 harg4 arg5 harg5 arg6 harg6 arg7 harg7 arg8 harg8 arg9 harg9 hc0 hc1 x0 x1 x2 = k0_pay6 x0 x1 x2 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The second total: zero plus the column sums of the squares. -/
theorem sout_A_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i) (hc1 : ¬cond0_1 i)
    (x0 : Vec F S512x784 .f32) (x1 : Vec F S784x1024 .bf16) (x2 : Vec F S1x1024 .f32) :
    sout0_A_1 c i arg2 harg2 arg3 harg3 arg4 harg4 arg5 harg5 arg6 harg6 arg7 harg7 arg8 harg8 arg9 harg9 hc0 hc1 x0 x1 x2 = k0_pay7 x0 x1 x2 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-! ### A point in between: the totals grow by the block's column sums -/

/-- The block output is the block's pre-activation. -/
theorem out_B_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) :
    out0_B_3 c i arg2 harg2 arg3 harg3 arg4 harg4 arg5 harg5 arg6 harg6 arg7 harg7 arg8 harg8 arg9 harg9 hc0 hc1 x0 x1 x2 xs0 xs1 = k0_pay5 x0 x1 x2 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero (S := S512x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The first total grows by the block's column sums. -/
theorem sout_B_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) :
    sout0_B_0 c i arg2 harg2 arg3 harg3 arg4 harg4 arg5 harg5 arg6 harg6 arg7 harg7 arg8 harg8 arg9 harg9 hc0 hc1 x0 x1 x2 xs0 xs1 = k0_pay6 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero (S := S1x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The second total grows by the column sums of the squares. -/
theorem sout_B_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : ¬cond0_1 i)
    (x0 : Vec F S512x784 .f32) (x1 : Vec F S784x1024 .bf16) (x2 : Vec F S1x1024 .f32) (xs0 xs1 : Vec F S1x1024 .f32) :
    sout0_B_1 c i arg2 harg2 arg3 harg3 arg4 harg4 arg5 harg5 arg6 harg6 arg7 harg7 arg8 harg8 arg9 harg9 hc0 hc1 x0 x1 x2 xs0 xs1 = k0_pay7 x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero (S := S1x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-! ### Last point of a half: the same, and the new totals are copied out -/

/-- The block output is the block's pre-activation. -/
theorem out_C_3 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    out0_C_3 c i arg2 harg2 arg3 harg3 arg4 harg4 arg5 harg5 arg6 harg6 arg7 harg7 arg8 harg8 arg9 harg9 hc0 hc1 x0 x1 x2 xs0 xs1 = k0_pay5 x0 x1 x2 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero (S := S512x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The first total grows by the block's column sums. -/
theorem sout_C_0 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    sout0_C_0 c i arg2 harg2 arg3 harg3 arg4 harg4 arg5 harg5 arg6 harg6 arg7 harg7 arg8 harg8 arg9 harg9 hc0 hc1 x0 x1 x2 xs0 xs1 = k0_pay6 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero (S := S1x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The second total grows by the column sums of the squares. -/
theorem sout_C_1 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    sout0_C_1 c i arg2 harg2 arg3 harg3 arg4 harg4 arg5 harg5 arg6 harg6 arg7 harg7 arg8 harg8 arg9 harg9 hc0 hc1 x0 x1 x2 xs0 xs1 = k0_pay7 x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero (S := S1x1024) hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The first statistics output receives the new first total. -/
theorem out_C_4 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    out0_C_4 c i arg2 harg2 arg3 harg3 arg4 harg4 arg5 harg5 arg6 harg6 arg7 harg7 arg8 harg8 arg9 harg9 hc0 hc1 x0 x1 x2 xs0 xs1 = k0_pay1 (k0_pay6 x0 x1 x2 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero (S := S1x1x1024) hz3, View.readCov_unit_zero (S := S1x1024) _ hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

/-- The second statistics output receives the new second total. -/
theorem out_C_5 (c : Dev nD) (i : grid0.Coords) (arg2 : Memref sig .tc .vmem S512x784 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i) (hc1 : cond0_1 i)
    (x0 : Vec F S512x784 .f32) (x1 : Vec F S784x1024 .bf16) (x2 : Vec F S1x1024 .f32) (xs0 xs1 : Vec F S1x1024 .f32) :
    out0_C_5 c i arg2 harg2 arg3 harg3 arg4 harg4 arg5 harg5 arg6 harg6 arg7 harg7 arg8 harg8 arg9 harg9 hc0 hc1 x0 x1 x2 xs0 xs1 = k0_pay2 (k0_pay7 x0 x1 x2 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero (S := S1x1x1024) hz3, View.readCov_unit_zero (S := S1x1024) _ hz2]
  simp only [View.readAt_eq_ld, harg2.read_unread, harg3.read_unread, harg4.read_unread, harg8.read_unread, harg9.read_unread, View.ld_unit_zero (S := S512x784) hz2, View.ld_unit_zero (S := S784x1024) hz2, View.ld_unit_zero (S := S1x1024) hz2]

end Cert.KernelIdeal.Vals.R0

end
-- ==== Proof.R0ValPay.lean ====
/-
  Launch 0: the body's arithmetic read entry by entry over the extended reals.

  For a block x of 512 rows of the input, the weights W and the bias row b:

    * the pre-activation P at (r, j) is  ∑ₖ x(r, k) · W(k, j) + b(0, j)  — the narrowing of x on
      its way into the product changes nothing over the extended reals, and the product starts
      from a zero accumulator;
    * the new first total at (0, j) is the old one plus  ∑ᵣ P(r, j),  the new second total the
      old one plus  ∑ᵣ P(r, j) · P(r, j)  (a sum over axis 0 of a [512, 1024] value, read back
      as a row);
    * the cleared totals are zero, and the copy into a statistics output only adds a unit axis.
-/
import proofs.«157065_j74259984548393_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Vals.R0

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

/-! ### The product's index maps -/

theorem dot0_l0 (i : S512x1024.Idx) (q : dot_S512x784_S784x1024_S512x1024_1_0_0_1_n_n.contr.Idx) : (dot_S512x784_S784x1024_S512x1024_1_0_0_1_n_n.lhsIdx i q 0).val = (i 0).val := by
  unfold DotDims.lhsIdx
  rw [dif_neg (show ¬(0 : Fin S512x784.rank) ∈ dot_S512x784_S784x1024_S512x1024_1_0_0_1_n_n.lhsBatch by decide), dif_pos (show (0 : Fin S512x784.rank) ∈ dot_S512x784_S784x1024_S512x1024_1_0_0_1_n_n.lhsNonContracting by decide)]
  rfl
theorem dot0_l1 (i : S512x1024.Idx) (q : dot_S512x784_S784x1024_S512x1024_1_0_0_1_n_n.contr.Idx) : (dot_S512x784_S784x1024_S512x1024_1_0_0_1_n_n.lhsIdx i q 1).val = (q ⟨0, by decide⟩).val :=
  dot_S512x784_S784x1024_S512x1024_1_0_0_1_n_n.lhsIdx_val_of_single rfl i q
theorem dot0_r0 (i : S512x1024.Idx) (q : dot_S512x784_S784x1024_S512x1024_1_0_0_1_n_n.contr.Idx) : (dot_S512x784_S784x1024_S512x1024_1_0_0_1_n_n.rhsIdx i q 0).val = (q ⟨0, by decide⟩).val :=
  dot_S512x784_S784x1024_S512x1024_1_0_0_1_n_n.rhsIdx_val_of_single rfl i q
theorem dot0_r1 (i : S512x1024.Idx) (q : dot_S512x784_S784x1024_S512x1024_1_0_0_1_n_n.contr.Idx) : (dot_S512x784_S784x1024_S512x1024_1_0_0_1_n_n.rhsIdx i q 1).val = (i 1).val := by
  unfold DotDims.rhsIdx
  rw [dif_neg (show ¬(1 : Fin S784x1024.rank) ∈ dot_S512x784_S784x1024_S512x1024_1_0_0_1_n_n.rhsBatch by decide), dif_pos (show (1 : Fin S784x1024.rank) ∈ dot_S512x784_S784x1024_S512x1024_1_0_0_1_n_n.rhsNonContracting by decide)]
  rfl

/-- The product into a zero accumulator, at (r, j): row r of the left operand against column j of the right one. -/
theorem matmul0_apply (l : FVec Ideal S512x784 .bf16) (w : FVec Ideal S784x1024 .bf16) (r : Fin 512) (j : Fin 1024) :
    matmul (F := Ideal) dot_S512x784_S784x1024_S512x1024_1_0_0_1_n_n none l w (constant (F := Ideal) S512x1024 .f32 0x00000000#32) (ix2 r j)
      = ∑ k : Fin 784, l (ix2 r k) * w (ix2 k j) := by
  refine (Ideal.matmul_constant_zero_apply dot_S512x784_S784x1024_S512x1024_1_0_0_1_n_n none l w (ix2 r j)).trans ?_
  rw [← Equiv.sum_comp (contrEquiv1 dot_S512x784_S784x1024_S512x1024_1_0_0_1_n_n 784 rfl rfl).symm]
  refine Finset.sum_congr rfl fun k _ => ?_
  have hk := contrEquiv1_symm_val dot_S512x784_S784x1024_S512x1024_1_0_0_1_n_n 784 rfl rfl k
  have el : dot_S512x784_S784x1024_S512x1024_1_0_0_1_n_n.lhsIdx (ix2 r j) ((contrEquiv1 dot_S512x784_S784x1024_S512x1024_1_0_0_1_n_n 784 rfl rfl).symm k) = ix2 r k := funext fun a => Fin.ext (by
    match a with
    | ⟨0, _⟩ => exact dot0_l0 _ _
    | ⟨1, _⟩ => exact (dot0_l1 _ _).trans hk)
  have er : dot_S512x784_S784x1024_S512x1024_1_0_0_1_n_n.rhsIdx (ix2 r j) ((contrEquiv1 dot_S512x784_S784x1024_S512x1024_1_0_0_1_n_n 784 rfl rfl).symm k) = ix2 k j := funext fun a => Fin.ext (by
    match a with
    | ⟨0, _⟩ => exact (dot0_r0 _ _).trans hk
    | ⟨1, _⟩ => exact dot0_r1 _ _)
  rw [el, er]

/-- The pre-activation of a block at (r, j). -/
theorem pay5_apply (x : Vec Ideal S512x784 .f32) (w : Vec Ideal S784x1024 .bf16) (b : Vec Ideal S1x1024 .f32)
    (r : Fin 512) (j : Fin 1024) :
    k0_pay5 (F := Ideal) x w b (ix2 r j) = (∑ k : Fin 784, x (ix2 r k) * w (ix2 k j)) + b (ix2 0 j) := by
  unfold k0_pay5
  refine (addf_apply _ _ (ix2 r j)).trans ?_
  refine congr (congrArg HAdd.hAdd ?_) ?_
  · rw [shapeCast_self]
    exact matmul0_apply (truncf .bf16 x bitsLt_bf16_f32) w r j
  · rw [shapeCast_self]
    exact broadcastTo_apply b broadcasts_S1x1024_S512x1024 (ix2 r j) (ix2 0 j) (fun a => by
      match a with
      | ⟨0, _⟩ => rfl
      | ⟨1, _⟩ => rfl)

/-- A sum over axis 0 of a [512, 1024] value, read back as a row, at (0, j): the sum of column j. -/
theorem colsum_apply (p : FVec Ideal S512x1024 .f32) (j : Fin 1024) :
    shapeCast S1x1024 (multiReduction (F := Ideal) .add [0] S1024 p 0x00000000#32 reduces_S512x1024_S1024 (.inl rfl) rfl) shapeCasts_S1024_S1x1024 (ix2 0 j)
      = ∑ r : Fin 512, p (ix2 r j) := by
  refine (shapeCast_addUnit_apply ![1024] _ shapeCasts_S1024_S1x1024 (ix2 0 j)).trans ?_
  refine (Ideal.multiReduction_add_single p 0x00000000#32 reduces_S512x1024_S1024 (.inl rfl) rfl _).trans ?_
  refine Finset.sum_congr rfl fun r _ => congrArg p (funext fun a => Fin.ext ?_)
  match a with
  | ⟨0, _⟩ => rfl
  | ⟨1, _⟩ => rfl

/-- The new first total at (0, j): the old one plus the column sum of the pre-activation. -/
theorem pay6_apply (x : Vec Ideal S512x784 .f32) (w : Vec Ideal S784x1024 .bf16) (b : Vec Ideal S1x1024 .f32)
    (s : Vec Ideal S1x1024 .f32) (j : Fin 1024) :
    k0_pay6 (F := Ideal) x w b s (ix2 0 j) = s (ix2 0 j) + ∑ r : Fin 512, k0_pay5 (F := Ideal) x w b (ix2 r j) := by
  unfold k0_pay6
  rw [shapeCast_self]
  refine (addf_apply _ _ (ix2 0 j)).trans ?_
  exact congrArg (s (ix2 0 j) + ·) (colsum_apply (k0_pay5 (F := Ideal) x w b) j)

/-- The new second total at (0, j): the old one plus the column sum of the squares. -/
theorem pay7_apply (x : Vec Ideal S512x784 .f32) (w : Vec Ideal S784x1024 .bf16) (b : Vec Ideal S1x1024 .f32)
    (s : Vec Ideal S1x1024 .f32) (j : Fin 1024) :
    k0_pay7 (F := Ideal) x w b s (ix2 0 j)
      = s (ix2 0 j) + ∑ r : Fin 512, k0_pay5 (F := Ideal) x w b (ix2 r j) * k0_pay5 (F := Ideal) x w b (ix2 r j) := by
  unfold k0_pay7
  rw [shapeCast_self]
  refine (addf_apply _ _ (ix2 0 j)).trans ?_
  exact congrArg (s (ix2 0 j) + ·) (colsum_apply (mulf (k0_pay5 (F := Ideal) x w b) (k0_pay5 (F := Ideal) x w b)) j)

/-- The cleared totals are zero. -/
theorem pay3_apply (j : Fin 1024) : k0_pay3 (F := Ideal) (ix2 0 j) = 0 := by
  unfold k0_pay3
  rw [shapeCast_self]
  exact Ideal.ofBits_zero_f32
theorem pay4_apply (j : Fin 1024) : k0_pay4 (F := Ideal) (ix2 0 j) = 0 := by
  unfold k0_pay4
  rw [shapeCast_self]
  exact Ideal.ofBits_zero_f32

/-- The copy into a statistics output adds a unit axis: entry (0, 0, j) is entry (0, j) of the total. -/
theorem pay1_apply (s : Vec Ideal S1x1024 .f32) (j : Fin 1024) : k0_pay1 (F := Ideal) s (ix3 0 0 j) = s (ix2 0 j) := by
  unfold k0_pay1
  refine (shapeCast_addUnit_apply ![1, 1024] s shapeCasts_S1x1024_S1x1x1024 (ix3 0 0 j)).trans ?_
  refine congrArg s (funext fun a => ?_)
  match a with
  | ⟨0, _⟩ => rfl
  | ⟨1, _⟩ => rfl
theorem pay2_apply (s : Vec Ideal S1x1024 .f32) (j : Fin 1024) : k0_pay2 (F := Ideal) s (ix3 0 0 j) = s (ix2 0 j) := by
  unfold k0_pay2
  refine (shapeCast_addUnit_apply ![1, 1024] s shapeCasts_S1x1024_S1x1x1024 (ix3 0 0 j)).trans ?_
  refine congrArg s (funext fun a => ?_)
  match a with
  | ⟨0, _⟩ => rfl
  | ⟨1, _⟩ => rfl

end Cert.KernelIdeal.Vals.R0

end
-- ==== Proof.R0ValBlocks.lean ====
/-
  Launch 0: where the blocks sit in their arrays, and the pre-activation as one function of the arrays.

  The grid is 2 × 16; point t = 16·h + i (half h, step i) works on row block t of the input and of the
  block output (rows 512·t … 512·t + 511, all columns), on the whole weight matrix and bias row, and on
  block h of each statistics output.  Entry (i, j) of the pre-activation is

      H0 i j = ∑ₖ x(i, k) · W(k, j) + b(0, j).
-/
import proofs.«157065_j74259984548393_2_alg».proof.Proof.R0Runs
import Idealize.ShloMosaic.Lib.Pipeline.Value
import Idealize.ShloMosaic.Lib.ValueIdx

set_option maxRecDepth 16384

noncomputable section

namespace Cert.KernelIdeal.Vals.R0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The input, the weights and the bias row as the launch finds them, entry by entry over the extended reals. -/
abbrev X0 (c : Dev nD) : S16384x784.Idx → EReal := V c main_arg0
abbrev W0 (c : Dev nD) : S784x1024.Idx → EReal := V c main_v9
abbrev B0 (c : Dev nD) : S1x1024.Idx → EReal := V c main_v53

/-- The pre-activation at row i, column j, from the arrays as the launch finds them. -/
def _root_.Cert.KernelIdeal.Vals.H0 (c : Dev nD) (i : Fin 16384) (j : Fin 1024) : EReal :=
  (∑ k : Fin 784, X0 V c (ix2 i k) * W0 V c (ix2 k j)) + B0 V c (ix2 0 j)

/-- The block indices of the six windows at every point of the grid. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-- Row r of the input's block at point t is row 512·t + r of the input. -/
theorem iblk0_0_apply (c : Dev nD) (t : Fin cfg0.N) (r : Fin 512) (k : Fin 784) (i : Fin 16384)
    (hi : i.val = 512 * t.val + r.val) :
    (iblk0 V c 0 t : S512x784.Idx → EReal) (ix2 r k) = X0 V c (ix2 i k) := by
  unfold iblk0
  rw [View.read_apply]
  show X0 V c (((cfg0.win 0).blk t).view.emb (ix2 r k)) = _
  refine congrArg _ (funext fun a => Fin.ext ?_)
  obtain ⟨e0, e1, -⟩ := idx_facts0 t
  match a with
  | ⟨0, _⟩ => show win0_0.index t (0 : Fin 2) * 512 + 1 * r.val = i.val; rw [e0]; omega
  | ⟨1, _⟩ => show win0_0.index t (1 : Fin 2) * 784 + 1 * k.val = k.val; rw [e1]; omega

/-- The weights' block is the whole matrix. -/
theorem iblk0_1_apply (c : Dev nD) (t : Fin cfg0.N) (k : Fin 784) (j : Fin 1024) :
    (iblk0 V c 1 t : S784x1024.Idx → EReal) (ix2 k j) = W0 V c (ix2 k j) := by
  unfold iblk0
  rw [View.read_apply]
  show W0 V c (((cfg0.win 1).blk t).view.emb (ix2 k j)) = _
  refine congrArg _ (funext fun a => Fin.ext ?_)
  obtain ⟨-, -, e0, e1, -⟩ := idx_facts0 t
  match a with
  | ⟨0, _⟩ => show win0_1.index t (0 : Fin 2) * 784 + 1 * k.val = k.val; rw [e0]; omega
  | ⟨1, _⟩ => show win0_1.index t (1 : Fin 2) * 1024 + 1 * j.val = j.val; rw [e1]; omega

/-- The bias's block is the whole row. -/
theorem iblk0_2_apply (c : Dev nD) (t : Fin cfg0.N) (j : Fin 1024) :
    (iblk0 V c 2 t : S1x1024.Idx → EReal) (ix2 0 j) = B0 V c (ix2 0 j) := by
  unfold iblk0
  rw [View.read_apply]
  show B0 V c (((cfg0.win 2).blk t).view.emb (ix2 0 j)) = _
  refine congrArg _ (funext fun a => Fin.ext ?_)
  obtain ⟨-, -, -, -, e0, e1, -⟩ := idx_facts0 t
  match a with
  | ⟨0, _⟩ => show win0_2.index t (0 : Fin 2) * 1 + 1 * 0 = 0; rw [e0]
  | ⟨1, _⟩ => show win0_2.index t (1 : Fin 2) * 1024 + 1 * j.val = j.val; rw [e1]; omega

end Cert.KernelIdeal.Vals.R0

end
-- ==== Proof.R0ValTotals.lean ====
/-
  Launch 0: the running totals as sums.

  Within a half of the grid the first total is cleared at the first point and then grows, point by
  point, by the column sums of the block's pre-activation; the second likewise by the column sums
  of its squares.  By induction on the point, after point n the totals are the sums over the blocks
  of n's half up to n; at the half's last point that is the sum over all sixteen blocks, that is
  over the 16 · 512 rows of the half, and this is what is copied to the statistics outputs.
-/
import proofs.«157065_j74259984548393_2_alg».proof.Proof.R0ValPieces
import proofs.«157065_j74259984548393_2_alg».proof.Proof.R0ValPay
import proofs.«157065_j74259984548393_2_alg».proof.Proof.R0ValBlocks
import proofs.«157065_j74259984548393_2_alg».proof.Proof.Spec

set_option maxRecDepth 16384

noncomputable section

namespace Cert.KernelIdeal.Vals.R0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The pre-activation of the block at point t. -/
def P0 (c : Dev nD) (t : Fin cfg0.N) : Vec Ideal S512x1024 .f32 :=
  k0_pay5 (F := Ideal) (iblk0 V c 0 t) (iblk0 V c 1 t) (iblk0 V c 2 t)

/-- Its entry (r, j) is the pre-activation at row 512·t + r. -/
theorem P0_apply (c : Dev nD) (t : Fin cfg0.N) (r : Fin 512) (j : Fin 1024) (i : Fin 16384)
    (hi : i.val = 512 * t.val + r.val) : P0 V c t (ix2 r j) = H0 V c i j := by
  unfold P0 H0
  refine (pay5_apply (iblk0 V c 0 t) (iblk0 V c 1 t) (iblk0 V c 2 t) r j).trans ?_
  refine congr (congrArg HAdd.hAdd (Finset.sum_congr rfl fun k _ => ?_)) (iblk0_2_apply V c t j)
  rw [iblk0_0_apply V c t r k i hi, iblk0_1_apply V c t k j]

/-- The block output after point t is that block's pre-activation. -/
theorem out3_eq (c : Dev nD) (t : Fin cfg0.N) : (outsAt0 V c t.val t.isLt).1 = P0 V c t := by
  by_cases h0 : t.val % 16 = 0
  · have h1 : ¬t.val % 16 = 15 := by omega
    rw [outsAt0_A V c t h0 h1]
    dsimp only
    unfold P0
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  · by_cases h1 : t.val % 16 = 15
    · rw [outsAt0_C V c t h0 h1]
      dsimp only
      unfold P0
      exact out_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      unfold P0
      exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- The column sums of the block at point n, and of its squares (zero past the grid). -/
def colSum (c : Dev nD) (j : Fin 1024) (n : ℕ) : EReal :=
  if hn : n < cfg0.N then ∑ r : Fin 512, P0 V c ⟨n, hn⟩ (ix2 r j) else 0
def colSq (c : Dev nD) (j : Fin 1024) (n : ℕ) : EReal :=
  if hn : n < cfg0.N then ∑ r : Fin 512, P0 V c ⟨n, hn⟩ (ix2 r j) * P0 V c ⟨n, hn⟩ (ix2 r j) else 0

/-! ### The first running total -/

/-- At a half's first point the first total is the block's column sums. -/
theorem tot0_first (c : Dev nD) (t : Fin cfg0.N) (h0 : t.val % 16 = 0) (j : Fin 1024) :
    (outsAt0 V c t.val t.isLt).2.2.2.1 (ix2 0 j) = colSum V c j t.val := by
  have h1 : ¬t.val % 16 = 15 := by omega
  rw [outsAt0_A V c t h0 h1]
  dsimp only
  refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) (ix2 0 j)).trans ?_
  refine (pay6_apply (iblk0 V c 0 t) (iblk0 V c 1 t) (iblk0 V c 2 t) (k0_pay3 (F := Ideal)) j).trans ?_
  rw [pay3_apply, zero_add]
  unfold colSum
  rw [dif_pos t.isLt]
  rfl

/-- At every other point it grows by the block's column sums. -/
theorem tot0_next (c : Dev nD) (t : Fin cfg0.N) (h0 : ¬t.val % 16 = 0) (j : Fin 1024) :
    (outsAt0 V c t.val t.isLt).2.2.2.1 (ix2 0 j) = (outsAt0 V c (t.val - 1) (Nat.lt_of_le_of_lt (Nat.sub_le _ _) t.isLt)).2.2.2.1 (ix2 0 j) + colSum V c j t.val := by
  have e : colSum V c j t.val = ∑ r : Fin 512, P0 V c t (ix2 r j) := by
    unfold colSum; rw [dif_pos t.isLt]
  rw [e]
  by_cases h1 : t.val % 16 = 15
  · rw [outsAt0_C V c t h0 h1]
    dsimp only
    refine (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 0 j)).trans ?_
    exact pay6_apply (iblk0 V c 0 t) (iblk0 V c 1 t) (iblk0 V c 2 t) (outsAt0 V c (t.val - 1) (Nat.lt_of_le_of_lt (Nat.sub_le _ _) t.isLt)).2.2.2.1 j
  · rw [outsAt0_B V c t h0 h1]
    dsimp only
    refine (congrFun (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 0 j)).trans ?_
    exact pay6_apply (iblk0 V c 0 t) (iblk0 V c 1 t) (iblk0 V c 2 t) (outsAt0 V c (t.val - 1) (Nat.lt_of_le_of_lt (Nat.sub_le _ _) t.isLt)).2.2.2.1 j

/-- So after point n the first total is the sum of the column sums of the blocks of n's half up to n. -/
theorem tot0_eq (c : Dev nD) (j : Fin 1024) : ∀ (n : ℕ) (hn : n < cfg0.N),
    (outsAt0 V c n hn).2.2.2.1 (ix2 0 j) = ∑ m ∈ Finset.Ico (n - n % 16) (n + 1), colSum V c j m
  | 0, hn => by
    refine (tot0_first V c ⟨0, hn⟩ rfl j).trans ?_
    show colSum V c j 0 = ∑ m ∈ Finset.Ico 0 1, colSum V c j m
    rw [Finset.sum_Ico_succ_top (Nat.le_refl 0), Finset.Ico_self, Finset.sum_empty, zero_add]
  | n + 1, hn => by
    by_cases h0 : (n + 1) % 16 = 0
    · refine (tot0_first V c ⟨n + 1, hn⟩ h0 j).trans ?_
      show colSum V c j (n + 1) = _
      rw [h0, Nat.sub_zero, Finset.sum_Ico_succ_top (Nat.le_refl (n + 1)), Finset.Ico_self, Finset.sum_empty, zero_add]
    · refine (tot0_next V c ⟨n + 1, hn⟩ h0 j).trans ?_
      show (outsAt0 V c n _).2.2.2.1 (ix2 0 j) + colSum V c j (n + 1) = _
      rw [tot0_eq c j n (Nat.lt_of_succ_lt hn)]
      have e : n - n % 16 = n + 1 - (n + 1) % 16 := by omega
      rw [e, ← Finset.sum_Ico_succ_top (by omega)]

/-- At a half's last point: the sum over the half's sixteen blocks and their 512 rows. -/
theorem tot0_last (c : Dev nD) (t : Fin cfg0.N) (h1 : t.val % 16 = 15) (h : Fin 2) (hh : h.val = t.val / 16) (j : Fin 1024) :
    (outsAt0 V c t.val t.isLt).2.2.2.1 (ix2 0 j)
      = ∑ t' : Fin 16, ∑ r : Fin 512, H0 V c (Cert.Spec.rowOf h t' r) j := by
  have hN : cfg0.N = 32 := N_0
  have ht := t.isLt
  rw [tot0_eq V c j t.val t.isLt]
  have e1 : t.val - t.val % 16 = 16 * h.val := by omega
  rw [e1, Finset.sum_Ico_eq_sum_range]
  have e2 : t.val + 1 - 16 * h.val = 16 := by omega
  rw [e2, Finset.sum_range]
  refine Finset.sum_congr rfl fun t' _ => ?_
  have hb : 16 * h.val + t'.val < cfg0.N := by have := h.isLt; have := t'.isLt; omega
  unfold colSum
  rw [dif_pos hb]
  refine Finset.sum_congr rfl fun r _ => ?_
  rw [P0_apply V c ⟨16 * h.val + t'.val, hb⟩ r j (Cert.Spec.rowOf h t' r) rfl]

/-! ### The second running total -/

/-- At a half's first point the second total is the block's column sums of the squares. -/
theorem tot1_first (c : Dev nD) (t : Fin cfg0.N) (h0 : t.val % 16 = 0) (j : Fin 1024) :
    (outsAt0 V c t.val t.isLt).2.2.2.2 (ix2 0 j) = colSq V c j t.val := by
  have h1 : ¬t.val % 16 = 15 := by omega
  rw [outsAt0_A V c t h0 h1]
  dsimp only
  refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) (ix2 0 j)).trans ?_
  refine (pay7_apply (iblk0 V c 0 t) (iblk0 V c 1 t) (iblk0 V c 2 t) (k0_pay4 (F := Ideal)) j).trans ?_
  rw [pay4_apply, zero_add]
  unfold colSq
  rw [dif_pos t.isLt]
  rfl

/-- At every other point it grows by the block's column sums of the squares. -/
theorem tot1_next (c : Dev nD) (t : Fin cfg0.N) (h0 : ¬t.val % 16 = 0) (j : Fin 1024) :
    (outsAt0 V c t.val t.isLt).2.2.2.2 (ix2 0 j) = (outsAt0 V c (t.val - 1) (Nat.lt_of_le_of_lt (Nat.sub_le _ _) t.isLt)).2.2.2.2 (ix2 0 j) + colSq V c j t.val := by
  have e : colSq V c j t.val = ∑ r : Fin 512, P0 V c t (ix2 r j) * P0 V c t (ix2 r j) := by
    unfold colSq; rw [dif_pos t.isLt]
  rw [e]
  by_cases h1 : t.val % 16 = 15
  · rw [outsAt0_C V c t h0 h1]
    dsimp only
    refine (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 0 j)).trans ?_
    exact pay7_apply (iblk0 V c 0 t) (iblk0 V c 1 t) (iblk0 V c 2 t) (outsAt0 V c (t.val - 1) (Nat.lt_of_le_of_lt (Nat.sub_le _ _) t.isLt)).2.2.2.2 j
  · rw [outsAt0_B V c t h0 h1]
    dsimp only
    refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 0 j)).trans ?_
    exact pay7_apply (iblk0 V c 0 t) (iblk0 V c 1 t) (iblk0 V c 2 t) (outsAt0 V c (t.val - 1) (Nat.lt_of_le_of_lt (Nat.sub_le _ _) t.isLt)).2.2.2.2 j

/-- So after point n the second total is the sum of the column sums of the squares of the blocks of n's half up to n. -/
theorem tot1_eq (c : Dev nD) (j : Fin 1024) : ∀ (n : ℕ) (hn : n < cfg0.N),
    (outsAt0 V c n hn).2.2.2.2 (ix2 0 j) = ∑ m ∈ Finset.Ico (n - n % 16) (n + 1), colSq V c j m
  | 0, hn => by
    refine (tot1_first V c ⟨0, hn⟩ rfl j).trans ?_
    show colSq V c j 0 = ∑ m ∈ Finset.Ico 0 1, colSq V c j m
    rw [Finset.sum_Ico_succ_top (Nat.le_refl 0), Finset.Ico_self, Finset.sum_empty, zero_add]
  | n + 1, hn => by
    by_cases h0 : (n + 1) % 16 = 0
    · refine (tot1_first V c ⟨n + 1, hn⟩ h0 j).trans ?_
      show colSq V c j (n + 1) = _
      rw [h0, Nat.sub_zero, Finset.sum_Ico_succ_top (Nat.le_refl (n + 1)), Finset.Ico_self, Finset.sum_empty, zero_add]
    · refine (tot1_next V c ⟨n + 1, hn⟩ h0 j).trans ?_
      show (outsAt0 V c n _).2.2.2.2 (ix2 0 j) + colSq V c j (n + 1) = _
      rw [tot1_eq c j n (Nat.lt_of_succ_lt hn)]
      have e : n - n % 16 = n + 1 - (n + 1) % 16 := by omega
      rw [e, ← Finset.sum_Ico_succ_top (by omega)]

/-- At a half's last point: the sum over the half's sixteen blocks and their 512 rows. -/
theorem tot1_last (c : Dev nD) (t : Fin cfg0.N) (h1 : t.val % 16 = 15) (h : Fin 2) (hh : h.val = t.val / 16) (j : Fin 1024) :
    (outsAt0 V c t.val t.isLt).2.2.2.2 (ix2 0 j)
      = ∑ t' : Fin 16, ∑ r : Fin 512, H0 V c (Cert.Spec.rowOf h t' r) j * H0 V c (Cert.Spec.rowOf h t' r) j := by
  have hN : cfg0.N = 32 := N_0
  have ht := t.isLt
  rw [tot1_eq V c j t.val t.isLt]
  have e1 : t.val - t.val % 16 = 16 * h.val := by omega
  rw [e1, Finset.sum_Ico_eq_sum_range]
  have e2 : t.val + 1 - 16 * h.val = 16 := by omega
  rw [e2, Finset.sum_range]
  refine Finset.sum_congr rfl fun t' _ => ?_
  have hb : 16 * h.val + t'.val < cfg0.N := by have := h.isLt; have := t'.isLt; omega
  unfold colSq
  rw [dif_pos hb]
  refine Finset.sum_congr rfl fun r _ => ?_
  rw [P0_apply V c ⟨16 * h.val + t'.val, hb⟩ r j (Cert.Spec.rowOf h t' r) rfl]

/-! ### The copy to the statistics outputs -/

/-- At a half's last point the two statistics outputs receive the two new totals. -/
theorem out4_eq (c : Dev nD) (t : Fin cfg0.N) (h1 : t.val % 16 = 15) (j : Fin 1024) :
    (outsAt0 V c t.val t.isLt).2.1 (ix3 0 0 j) = (outsAt0 V c t.val t.isLt).2.2.2.1 (ix2 0 j) := by
  have h0 : ¬t.val % 16 = 0 := by omega
  rw [outsAt0_C V c t h0 h1]
  dsimp only
  rw [out_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
  exact pay1_apply _ j
theorem out5_eq (c : Dev nD) (t : Fin cfg0.N) (h1 : t.val % 16 = 15) (j : Fin 1024) :
    (outsAt0 V c t.val t.isLt).2.2.1 (ix3 0 0 j) = (outsAt0 V c t.val t.isLt).2.2.2.2 (ix2 0 j) := by
  have h0 : ¬t.val % 16 = 0 := by omega
  rw [outsAt0_C V c t h0 h1]
  dsimp only
  rw [out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
  exact pay2_apply _ j

end Cert.KernelIdeal.Vals.R0

end
-- ==== Proof.R0Val.lean ====
/-
  Launch 0: what its three output arrays hold when it ends.

  Point t writes back row block t of the block output, whose entries are the pre-activation at rows
  512·t … 512·t + 511; the 32 row blocks tile the array, so the block output ends as the
  pre-activation H0 at every (i, j).  The last point 16·h + 15 of half h writes back block h of the two
  statistics outputs: the totals over the half's 16 · 512 rows of H0 and of its square; the two blocks
  tile each statistics output.
-/
import proofs.«157065_j74259984548393_2_alg».proof.Proof.R0ValTotals

set_option maxRecDepth 16384

noncomputable section

namespace Cert.KernelIdeal.Vals.R0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ### The block output -/

/-- What the block output ends holding: the pre-activation, entry by entry. -/
def G3 (c : Dev nD) : S16384x1024.Idx → EReal := fun i => H0 V c ⟨(i 0).val, idx2_lt0 i⟩ ⟨(i 1).val, idx2_lt1 i⟩

/-- Point t writes back row block t of it. -/
theorem flushed3_eq (c : Dev nD) (t : Fin cfg0.N) :
    (dat0 (F := Ideal) V c).flushed 3 t = ((cfg0.win 3).blk t).view.read (Elt Ideal) (G3 V c) := by
  show (cfg0.win 3).cut (grid0.coords t) ((dat0 (F := Ideal) V c).after 3 t) = _
  rw [after0_3, out3_eq]
  obtain ⟨-, -, -, -, -, -, e0, e1, -⟩ := idx_facts0 t
  funext y
  obtain ⟨r, j, rfl⟩ : ∃ (r : Fin 512) (j : Fin 1024), y = ix2 r j := ⟨y 0, y 1, eq_ix2 y⟩
  rw [View.read_apply]
  have hr : ((((cfg0.win 3).blk t).view.emb (ix2 r j)) (0 : Fin 2)).val = 512 * t.val + r.val := by
    show win0_3.index t (0 : Fin 2) * 512 + 1 * r.val = _; rw [e0]; omega
  have hj : ((((cfg0.win 3).blk t).view.emb (ix2 r j)) (1 : Fin 2)).val = j.val := by
    show win0_3.index t (1 : Fin 2) * 1024 + 1 * j.val = _; rw [e1]; omega
  show P0 V c t (ix2 r j) = H0 V c ⟨_, _⟩ ⟨_, _⟩
  exact (P0_apply V c t r j _ hr).trans (congrArg (H0 V c _) (Fin.ext hj.symm))

/-- An entry is in point t's row block exactly when its row is among the block's 512 rows. -/
theorem mem_blk3 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v65_0).slice (win0_3.rect t)).set ↔ _
  rw [View.set_slice_whole, Rect.mem_set_unit]
  exact Iff.rfl

theorem cover3_at (i : S16384x1024.Idx) (t : Fin cfg0.N) (ht : t.val = (i 0).val / 512) :
    (cfg0.win 3).flush t = true ∧ i ∈ ((cfg0.win 3).blk t).view.set := by
  have h1 : (i 1).val < 1024 := (i 1).isLt
  obtain ⟨-, -, -, -, -, -, e0, e1, -⟩ := idx_facts0 t
  refine ⟨flush0_3 t, ?_⟩
  rw [mem_blk3]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1024 ≤ (i 1).val ∧ (i 1).val < win0_3.index t (1 : Fin 2) * 1024 + 1024
    rw [e1]; omega

/-- Every row is in the row block of the point ⌊row / 512⌋. -/
theorem cover3 (i : S16384x1024.Idx) :
    ∃ t : Fin cfg0.N, (cfg0.win 3).flush t = true ∧ i ∈ ((cfg0.win 3).blk t).view.set := by
  have hN : cfg0.N = 32 := N_0
  have h0 : (i 0).val < 16384 := (i 0).isLt
  have hlt : (i 0).val / 512 < cfg0.N := by omega
  exact ⟨⟨(i 0).val / 512, hlt⟩, cover3_at i ⟨(i 0).val / 512, hlt⟩ rfl⟩

/-- The block output after the launch. -/
theorem final3 (c : Dev nD) : (dat0 (F := Ideal) V c).arrAt 3 cfg0.N = G3 V c :=
  (dat0 (F := Ideal) V c).arrAt_eq_of_cover 3 (G3 V c) (fun t _ => flushed3_eq V c t) cover3

/-- Entry (i, j) of the block output is the pre-activation at (i, j). -/
theorem _root_.Cert.KernelIdeal.Vals.r0_h (c : Dev nD) (i : Fin 16384) (j : Fin 1024) :
    (dat0 (F := Ideal) V c).arrAt 3 cfg0.N (ix2 i j) = H0 V c i j := by
  rw [final3]; rfl

/-! ### The two statistics outputs -/

/-- The totals over half h of column j of the pre-activation, and of its square. -/
def stat0 (c : Dev nD) (h : Fin 2) (j : Fin 1024) : EReal :=
  ∑ t : Fin 16, ∑ r : Fin 512, H0 V c (Cert.Spec.rowOf h t r) j
def stat1 (c : Dev nD) (h : Fin 2) (j : Fin 1024) : EReal :=
  ∑ t : Fin 16, ∑ r : Fin 512, H0 V c (Cert.Spec.rowOf h t r) j * H0 V c (Cert.Spec.rowOf h t r) j

/-- What statistics output 1 ends holding: for each half h and column j, the sum over the half's rows of the pre-activation. -/
def G4 (c : Dev nD) : S2x1x1024.Idx → EReal := fun i =>
  stat0 V c ⟨(i 0).val, (i 0).isLt⟩ ⟨(i 2).val, (i 2).isLt⟩

/-- The half's last point writes back block h of it. -/
theorem flushed4_eq (c : Dev nD) (t : Fin cfg0.N) (hf : (cfg0.win 4).flush t = true) :
    (dat0 (F := Ideal) V c).flushed 4 t = ((cfg0.win 4).blk t).view.read (Elt Ideal) (G4 V c) := by
  have h1 : t.val % 16 = 15 := (flush0_4 t).mp hf
  have hN : cfg0.N = 32 := N_0
  have ht := t.isLt
  show (cfg0.win 4).cut (grid0.coords t) ((dat0 (F := Ideal) V c).after 4 t) = _
  rw [after0_4]
  obtain ⟨-, -, -, -, -, -, -, -, e0, e1, e2, -⟩ := idx_facts0 t
  funext y
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  rw [View.read_apply]
  have ha : ((((cfg0.win 4).blk t).view.emb (ix3 0 0 j)) (0 : Fin 3)).val = t.val / 16 := by
    show win0_4.index t (0 : Fin 3) * 1 + 1 * 0 = _; rw [e0]; omega
  have hj : ((((cfg0.win 4).blk t).view.emb (ix3 0 0 j)) (2 : Fin 3)).val = j.val := by
    show win0_4.index t (2 : Fin 3) * 1024 + 1 * j.val = _; rw [e2]; omega
  show (outsAt0 V c t.val t.isLt).2.1 (ix3 0 0 j) = stat0 V c ⟨_, _⟩ ⟨_, _⟩
  have key : (outsAt0 V c t.val t.isLt).2.1 (ix3 0 0 j) = stat0 V c ⟨t.val / 16, by omega⟩ j := by
    rw [out4_eq V c t h1 j, tot0_last V c t h1 ⟨t.val / 16, by omega⟩ rfl j]; rfl
  exact key.trans (congr (congrArg (stat0 V c) (Fin.ext ha.symm)) (Fin.ext hj.symm))

/-- An entry is in point t's block exactly when its half is the block's. -/
theorem mem_blk4 (t : Fin cfg0.N) (i : S2x1x1024.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v65_1).slice (win0_4.rect t)).set ↔ _
  rw [View.set_slice_whole, Rect.mem_set_unit]
  exact Iff.rfl

theorem cover4_at (i : S2x1x1024.Idx) (t : Fin cfg0.N) (ht : t.val = 16 * (i 0).val + 15) :
    (cfg0.win 4).flush t = true ∧ i ∈ ((cfg0.win 4).blk t).view.set := by
  have h1 : (i 1).val < 1 := (i 1).isLt
  have h2 : (i 2).val < 1024 := (i 2).isLt
  obtain ⟨-, -, -, -, -, -, -, -, e0, e1, e2, -⟩ := idx_facts0 t
  refine ⟨(flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 1024 ≤ (i 2).val ∧ (i 2).val < win0_4.index t (2 : Fin 3) * 1024 + 1024
    rw [e2]; omega

/-- Every entry is in the block the last point of its half writes back. -/
theorem cover4 (i : S2x1x1024.Idx) :
    ∃ t : Fin cfg0.N, (cfg0.win 4).flush t = true ∧ i ∈ ((cfg0.win 4).blk t).view.set := by
  have hN : cfg0.N = 32 := N_0
  have h0 : (i 0).val < 2 := (i 0).isLt
  have hlt : 16 * (i 0).val + 15 < cfg0.N := by omega
  exact ⟨⟨16 * (i 0).val + 15, hlt⟩, cover4_at i ⟨16 * (i 0).val + 15, hlt⟩ rfl⟩

/-- Statistics output 1 after the launch. -/
theorem final4 (c : Dev nD) : (dat0 (F := Ideal) V c).arrAt 4 cfg0.N = G4 V c :=
  (dat0 (F := Ideal) V c).arrAt_eq_of_cover 4 (G4 V c) (fun t hf => flushed4_eq V c t hf) cover4

/-- What statistics output 2 ends holding: for each half h and column j, the sum over the half's rows of its square. -/
def G5 (c : Dev nD) : S2x1x1024.Idx → EReal := fun i =>
  stat1 V c ⟨(i 0).val, (i 0).isLt⟩ ⟨(i 2).val, (i 2).isLt⟩

/-- The half's last point writes back block h of it. -/
theorem flushed5_eq (c : Dev nD) (t : Fin cfg0.N) (hf : (cfg0.win 5).flush t = true) :
    (dat0 (F := Ideal) V c).flushed 5 t = ((cfg0.win 5).blk t).view.read (Elt Ideal) (G5 V c) := by
  have h1 : t.val % 16 = 15 := (flush0_5 t).mp hf
  have hN : cfg0.N = 32 := N_0
  have ht := t.isLt
  show (cfg0.win 5).cut (grid0.coords t) ((dat0 (F := Ideal) V c).after 5 t) = _
  rw [after0_5]
  obtain ⟨-, -, -, -, -, -, -, -, -, -, -, e0, e1, e2⟩ := idx_facts0 t
  funext y
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  rw [View.read_apply]
  have ha : ((((cfg0.win 5).blk t).view.emb (ix3 0 0 j)) (0 : Fin 3)).val = t.val / 16 := by
    show win0_5.index t (0 : Fin 3) * 1 + 1 * 0 = _; rw [e0]; omega
  have hj : ((((cfg0.win 5).blk t).view.emb (ix3 0 0 j)) (2 : Fin 3)).val = j.val := by
    show win0_5.index t (2 : Fin 3) * 1024 + 1 * j.val = _; rw [e2]; omega
  show (outsAt0 V c t.val t.isLt).2.2.1 (ix3 0 0 j) = stat1 V c ⟨_, _⟩ ⟨_, _⟩
  have key : (outsAt0 V c t.val t.isLt).2.2.1 (ix3 0 0 j) = stat1 V c ⟨t.val / 16, by omega⟩ j := by
    rw [out5_eq V c t h1 j, tot1_last V c t h1 ⟨t.val / 16, by omega⟩ rfl j]; rfl
  exact key.trans (congr (congrArg (stat1 V c) (Fin.ext ha.symm)) (Fin.ext hj.symm))

/-- An entry is in point t's block exactly when its half is the block's. -/
theorem mem_blk5 (t : Fin cfg0.N) (i : S2x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v65_2).slice (win0_5.rect t)).set ↔ _
  rw [View.set_slice_whole, Rect.mem_set_unit]
  exact Iff.rfl

theorem cover5_at (i : S2x1x1024.Idx) (t : Fin cfg0.N) (ht : t.val = 16 * (i 0).val + 15) :
    (cfg0.win 5).flush t = true ∧ i ∈ ((cfg0.win 5).blk t).view.set := by
  have h1 : (i 1).val < 1 := (i 1).isLt
  have h2 : (i 2).val < 1024 := (i 2).isLt
  obtain ⟨-, -, -, -, -, -, -, -, -, -, -, e0, e1, e2⟩ := idx_facts0 t
  refine ⟨(flush0_5 t).mpr (by omega), ?_⟩
  rw [mem_blk5]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 1 ≤ (i 1).val ∧ (i 1).val < win0_5.index t (1 : Fin 3) * 1 + 1
    rw [e1]; omega
  | ⟨2, _⟩ =>
    show win0_5.index t (2 : Fin 3) * 1024 ≤ (i 2).val ∧ (i 2).val < win0_5.index t (2 : Fin 3) * 1024 + 1024
    rw [e2]; omega

/-- Every entry is in the block the last point of its half writes back. -/
theorem cover5 (i : S2x1x1024.Idx) :
    ∃ t : Fin cfg0.N, (cfg0.win 5).flush t = true ∧ i ∈ ((cfg0.win 5).blk t).view.set := by
  have hN : cfg0.N = 32 := N_0
  have h0 : (i 0).val < 2 := (i 0).isLt
  have hlt : 16 * (i 0).val + 15 < cfg0.N := by omega
  exact ⟨⟨16 * (i 0).val + 15, hlt⟩, cover5_at i ⟨16 * (i 0).val + 15, hlt⟩ rfl⟩

/-- Statistics output 2 after the launch. -/
theorem final5 (c : Dev nD) : (dat0 (F := Ideal) V c).arrAt 5 cfg0.N = G5 V c :=
  (dat0 (F := Ideal) V c).arrAt_eq_of_cover 5 (G5 V c) (fun t hf => flushed5_eq V c t hf) cover5

/-- Entry (h, 0, j) of statistics output 1: the total of column j of the pre-activation over half h. -/
theorem _root_.Cert.KernelIdeal.Vals.r0_s (c : Dev nD) (h : Fin 2) (j : Fin 1024) :
    (dat0 (F := Ideal) V c).arrAt 4 cfg0.N (ix3 h 0 j) = ∑ t : Fin 16, ∑ r : Fin 512, H0 V c (Cert.Spec.rowOf h t r) j := by
  rw [final4]; rfl

/-- Entry (h, 0, j) of statistics output 2: the total of the squares. -/
theorem _root_.Cert.KernelIdeal.Vals.r0_ss (c : Dev nD) (h : Fin 2) (j : Fin 1024) :
    (dat0 (F := Ideal) V c).arrAt 5 cfg0.N (ix3 h 0 j)
      = ∑ t : Fin 16, ∑ r : Fin 512, H0 V c (Cert.Spec.rowOf h t r) j * H0 V c (Cert.Spec.rowOf h t r) j := by
  rw [final5]; rfl

end Cert.KernelIdeal.Vals.R0

end
-- ==== Proof.R1ValPieces.lean ====
import proofs.«157065_j74259984548393_2_alg».proof.Proof.R1Frame
import Idealize.ShloMosaic.Lib.ValueIdx
import Idealize.ShloMosaic.Lib.Pipeline.Value
import Idealize.ShloMosaic.PureOps.Ideal.Laws

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-!
  Launch 1: what each case of the body leaves in each buffer, as the body's arithmetic applied to the blocks
  it loaded. Every store of the body covers its whole buffer, so a buffer ends with the payload of the last
  store to it; a load that follows a store reads that store's payload back.
-/

variable {F : FTy → Type} [FloatOps F]

theorem zeroOff2_r1 : (![0, 0] : Fin 2 → Nat) = fun _ => 0 := funext fun a => by fin_cases a <;> rfl
theorem zeroOff3_r1 : (![0, 0, 0] : Fin 3 → Nat) = fun _ => 0 := funext fun a => by fin_cases a <;> rfl

/-- The block's pre-activation, at the first point of a half. -/
theorem out1_A_7_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    out1_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k1_pay7 x0 x3 x1 x2 x4 x5 x6 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The first running total after the first point of a half: the cleared total plus the block's column sums. -/
theorem sout1_A_0_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    sout1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k1_pay1 (k1_pay7 x0 x3 x1 x2 x4 x5 x6) k1_pay5 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_cons_unit_zero (S := S1x1024) zeroOff2_r1, View.readCov_unit_zero (S := S1x1024) _ zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The second running total after the first point of a half: the cleared total plus the column sums of the squares. -/
theorem sout1_A_1_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond1_0 i) (hc1 : ¬cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    sout1_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k1_pay2 (k1_pay7 x0 x3 x1 x2 x4 x5 x6) k1_pay6 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_cons_unit_zero (S := S1x1024) zeroOff2_r1, View.readCov_unit_zero (S := S1x1024) _ zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The block's pre-activation, at a middle point. -/
theorem out1_B_7_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out1_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay7 x0 x3 x1 x2 x4 x5 x6 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_B
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The first running total after a middle point: the carried total plus the block's column sums. -/
theorem sout1_B_0_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout1_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay1 (k1_pay7 x0 x3 x1 x2 x4 x5 x6) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_B
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The second running total after a middle point. -/
theorem sout1_B_1_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : ¬cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout1_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay2 (k1_pay7 x0 x3 x1 x2 x4 x5 x6) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_B
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The block's pre-activation, at the last point of a half. -/
theorem out1_C_7_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out1_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay7 x0 x3 x1 x2 x4 x5 x6 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_C
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The first running total after the last point of a half. -/
theorem sout1_C_0_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout1_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay1 (k1_pay7 x0 x3 x1 x2 x4 x5 x6) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_C
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The second running total after the last point of a half. -/
theorem sout1_C_1_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout1_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay2 (k1_pay7 x0 x3 x1 x2 x4 x5 x6) xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_C
  dsimp only
  sl_unfold_words
  rw [View.canon_unit_zero zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The first statistics output at the last point of a half: the completed first total, as a [1,1,1024] block. -/
theorem out1_C_8_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out1_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay3 (k1_pay1 (k1_pay7 x0 x3 x1 x2 x4 x5 x6) xs0) := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_C
  dsimp only
  sl_unfold_words
  rw [View.canon_unit_zero zeroOff3_r1, View.readCov_unit_zero (S := S1x1024) _ zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

/-- The second statistics output at the last point of a half: the completed second total. -/
theorem out1_C_9_eq (c : Dev nD) (i : grid1.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond1_0 i) (hc1 : cond1_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out1_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k1_pay4 (k1_pay2 (k1_pay7 x0 x3 x1 x2 x4 x5 x6) xs1) := by
  unfold out1_C_9
  rw [View.read_writes_eq_canon _ _ _ (cover1_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun1_C
  dsimp only
  sl_unfold_words
  rw [View.canon_unit_zero zeroOff3_r1, View.readCov_unit_zero (S := S1x1024) _ zeroOff2_r1]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r1, View.ld_unit_zero (S := S1x1024) zeroOff2_r1, View.ld_unit_zero (S := S1024x1024) zeroOff2_r1]

end Cert.KernelIdeal.Vals

end
-- ==== Proof.R1ValOps.lean ====
import proofs.«157065_j74259984548393_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

set_option maxRecDepth 16384

/-!
  The operations of the batch-norm-and-matmul body read at an index, over the extended reals: a row
  broadcast down 512 rows, the column sums of a [512,1024] block laid out as a row, a row viewed as a
  [1,1,1024] block, and the product of a [512,1024] block with a [1024,1024] matrix.
-/

noncomputable section

namespace Cert.KernelIdeal.Vals

open Cert.KernelIdeal Cert.KernelIdeal.Gen
open Idealize.ShloMosaic Idealize.ShloMosaic.TcCoe Idealize.ShloMosaic.ValueIdx
open Idealize.SL.Sem

/-- A row broadcast down the 512 rows of a block reads the row's entry of the same column. -/
theorem bn_brow_apply {α : Type} (v : S1x1024.Idx → α) (r : Fin 512) (j : Fin 1024) :
    broadcastTo S512x1024 v broadcasts_S1x1024_S512x1024 (ix2 r j) = v (ix2 (0 : Fin 1) j) :=
  broadcastTo_apply v broadcasts_S1x1024_S512x1024 (ix2 r j) (ix2 (0 : Fin 1) j)
    (fun a => match a with | ⟨0, _⟩ => rfl | ⟨1, _⟩ => rfl)

/-- The column sums of a block, laid out as a row: the entry of a column is the sum of that column over the 512 rows. -/
theorem bn_colsum_apply (v : FVec Ideal S512x1024 .f32) (j : Fin 1024) :
    shapeCast S1x1024 (multiReduction (F := Ideal) .add [0] S1024 v 0x00000000#32 reduces_S512x1024_S1024 (.inl rfl) rfl) shapeCasts_S1024_S1x1024 (ix2 (0 : Fin 1) j)
      = ∑ r : Fin 512, v (ix2 r j) := by
  refine (shapeCast_a_1a_apply _ shapeCasts_S1024_S1x1024 (0 : Fin 1) j).trans ?_
  refine (Ideal.multiReduction_add_single v 0x00000000#32 reduces_S512x1024_S1024 (.inl rfl) rfl (ix1 j)).trans ?_
  refine Finset.sum_congr rfl fun r _ => congrArg v ?_
  funext a
  match a with
  | ⟨0, _⟩ => rfl
  | ⟨1, _⟩ => rfl

/-- A row viewed as a [1,1,1024] block keeps its entries. -/
theorem bn_cast3_apply {α : Type} (v : S1x1024.Idx → α) (j : Fin 1024) :
    shapeCast S1x1x1024 v shapeCasts_S1x1024_S1x1x1024 (ix3 (0 : Fin 1) (0 : Fin 1) j) = v (ix2 (0 : Fin 1) j) := by
  refine (shapeCast_addUnit_apply ![1, 1024] v shapeCasts_S1x1024_S1x1x1024 (ix3 (0 : Fin 1) (0 : Fin 1) j)).trans (congrArg v ?_)
  funext a
  match a with
  | ⟨0, _⟩ => rfl
  | ⟨1, _⟩ => rfl

/-! ## The body's matrix product at an index -/

theorem bn_dot_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem bn_dot_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem bn_dot_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem bn_dot_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a [512,1024] block with a [1024,1024] matrix, accumulated into zeros, at an index:
    the row of the block against the column of the matrix. -/
theorem bn_dot_apply (l : FVec Ideal S512x1024 .bf16) (w : FVec Ideal S1024x1024 .bf16) (i : Fin 512) (j : Fin 1024) :
    matmul (F := Ideal) dot_S512x1024_S1024x1024_S512x1024_1_0_0_1_n_n none l w (constant S512x1024 .f32 0x00000000#32) (ix2 i j) = ∑ k : Fin 1024, l (ix2 i k) * w (ix2 k j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 i j) ((contrEquiv1 dot_S512x1024_S1024x1024_S512x1024_1_0_0_1_n_n 1024 rfl rfl).symm k) = ix2 i k := funext fun a => Fin.ext (by
    match a with
    | ⟨0, _⟩ => exact bn_dot_l0 _ _
    | ⟨1, _⟩ => exact (bn_dot_l1 _ _).trans hk)
  have er : dot_S512x1024_S1024x1024_S512x1024_1_0_0_1_n_n.rhsIdx (ix2 i j) ((contrEquiv1 dot_S512x1024_S1024x1024_S512x1024_1_0_0_1_n_n 1024 rfl rfl).symm k) = ix2 k j := funext fun a => Fin.ext (by
    match a with
    | ⟨0, _⟩ => exact (bn_dot_r0 _ _).trans hk
    | ⟨1, _⟩ => exact bn_dot_r1 _ _)
  rw [el, er]

/-! ## The layer as a function of its seven arrays -/

/-- The normalised, scaled, shifted and rectified activation of row i, feature k: from the activation
    array, the mean row, the inverse-deviation row, the scale row and the shift row. -/
def bnAct (x : S16384x1024.Idx → EReal) (mu isd g be : S1x1024.Idx → EReal) (i : Fin 16384) (k : Fin 1024) : EReal :=
  max (g (ix2 (0 : Fin 1) k) * (x (ix2 i k) - mu (ix2 (0 : Fin 1) k)) * isd (ix2 (0 : Fin 1) k) + be (ix2 (0 : Fin 1) k)) 0

/-- The layer's pre-activation of row i, column j: that activation row against column j of the
    (transposed) weights, plus the bias. -/
def bnLin (x : S16384x1024.Idx → EReal) (mu isd g be : S1x1024.Idx → EReal) (W : S1024x1024.Idx → EReal) (b : S1x1024.Idx → EReal)
    (i : Fin 16384) (j : Fin 1024) : EReal :=
  (∑ k : Fin 1024, bnAct x mu isd g be i k * W (ix2 k j)) + b (ix2 (0 : Fin 1) j)

end Cert.KernelIdeal.Vals

end
-- ==== Proof.R1ValPay.lean ====
import proofs.«157065_j74259984548393_2_alg».proof.Proof.R1ValOps

set_option maxRecDepth 16384

/-!
  Launch 1: the body's arithmetic read at an index, over the extended reals. The block's
  pre-activation is the normalised, scaled, shifted and rectified activation row against a column of
  the weights, plus the bias; the running totals grow by the block's column sums (of the entries, and
  of their squares); the statistics outputs are the totals laid out as [1,1,1024] blocks.
-/

noncomputable section

namespace Cert.KernelIdeal.Vals

open Cert.KernelIdeal Cert.KernelIdeal.Gen
open Idealize.ShloMosaic Idealize.ShloMosaic.TcCoe Idealize.ShloMosaic.ValueIdx
open Idealize.SL.Sem

/-- The block's pre-activation at row r, column j. -/
theorem pay7_r1_apply (v3 : Vec Ideal S512x1024 .f32) (v5 v7 v13 v17 : Vec Ideal S1x1024 .f32) (v24 : Vec Ideal S1024x1024 .bf16) (v27 : Vec Ideal S1x1024 .f32) (r : Fin 512) (j : Fin 1024) :
    k1_pay7 (F := Ideal) v3 v5 v7 v13 v17 v24 v27 (ix2 r j)
      = (∑ k : Fin 1024, max (v5 (ix2 (0 : Fin 1) k) * (v3 (ix2 r k) - v7 (ix2 (0 : Fin 1) k)) * v13 (ix2 (0 : Fin 1) k) + v17 (ix2 (0 : Fin 1) k)) 0 * v24 (ix2 k j)) + v27 (ix2 (0 : Fin 1) j) := by
  unfold k1_pay7
  simp only [shapeCast_self]
  refine (addf_apply _ _ (ix2 r j)).trans ?_
  refine congrArg₂ (· + ·) ?_ (bn_brow_apply v27 r j)
  refine (bn_dot_apply _ _ r j).trans ?_
  refine Finset.sum_congr rfl fun k _ => ?_
  refine congrArg (· * v24 (ix2 k j)) ?_
  refine (truncf_apply (ψ := .bf16) _ bitsLt_bf16_f32 (ix2 r k)).trans ?_
  refine (maximumf_apply _ _ (ix2 r k)).trans ?_
  refine congrArg₂ max ?_ Ideal.ofBits_zero_f32
  refine (addf_apply _ _ (ix2 r k)).trans ?_
  refine congrArg₂ (· + ·) ?_ (bn_brow_apply v17 r k)
  refine (mulf_apply _ _ (ix2 r k)).trans ?_
  refine congrArg₂ (· * ·) ?_ (bn_brow_apply v13 r k)
  refine (mulf_apply _ _ (ix2 r k)).trans ?_
  refine congrArg₂ (· * ·) (bn_brow_apply v5 r k) ?_
  refine (subf_apply _ _ (ix2 r k)).trans ?_
  exact congrArg (v3 (ix2 r k) - ·) (bn_brow_apply v7 r k)

/-- The first running total after a block: what it was plus the block's column sums. -/
theorem pay1_r1_apply (v30 : FVec Ideal S512x1024 .f32) (s : Vec Ideal S1x1024 .f32) (j : Fin 1024) :
    k1_pay1 (F := Ideal) v30 s (ix2 (0 : Fin 1) j) = s (ix2 (0 : Fin 1) j) + ∑ r : Fin 512, v30 (ix2 r j) := by
  unfold k1_pay1
  simp only [shapeCast_self]
  refine (addf_apply _ _ (ix2 (0 : Fin 1) j)).trans ?_
  exact congrArg (s (ix2 (0 : Fin 1) j) + ·) (bn_colsum_apply v30 j)

/-- The second running total after a block: what it was plus the column sums of the block's squares. -/
theorem pay2_r1_apply (v30 : FVec Ideal S512x1024 .f32) (s : Vec Ideal S1x1024 .f32) (j : Fin 1024) :
    k1_pay2 (F := Ideal) v30 s (ix2 (0 : Fin 1) j) = s (ix2 (0 : Fin 1) j) + ∑ r : Fin 512, v30 (ix2 r j) * v30 (ix2 r j) := by
  unfold k1_pay2
  simp only [shapeCast_self]
  refine (addf_apply _ _ (ix2 (0 : Fin 1) j)).trans ?_
  exact congrArg (s (ix2 (0 : Fin 1) j) + ·) (bn_colsum_apply (mulf v30 v30) j)

/-- The statistics outputs: the totals as [1,1,1024] blocks. -/
theorem pay3_r1_apply (v : Vec Ideal S1x1024 .f32) (j : Fin 1024) :
    k1_pay3 (F := Ideal) v (ix3 (0 : Fin 1) (0 : Fin 1) j) = v (ix2 (0 : Fin 1) j) := by
  unfold k1_pay3
  exact bn_cast3_apply v j
theorem pay4_r1_apply (v : Vec Ideal S1x1024 .f32) (j : Fin 1024) :
    k1_pay4 (F := Ideal) v (ix3 (0 : Fin 1) (0 : Fin 1) j) = v (ix2 (0 : Fin 1) j) := by
  unfold k1_pay4
  exact bn_cast3_apply v j

/-- The cleared totals are zero. -/
theorem pay5_r1_apply (j : Fin 1024) : k1_pay5 (F := Ideal) (ix2 (0 : Fin 1) j) = 0 := by
  unfold k1_pay5
  simp only [shapeCast_self]
  exact Ideal.ofBits_zero_f32
theorem pay6_r1_apply (j : Fin 1024) : k1_pay6 (F := Ideal) (ix2 (0 : Fin 1) j) = 0 := by
  unfold k1_pay6
  simp only [shapeCast_self]
  exact Ideal.ofBits_zero_f32

end Cert.KernelIdeal.Vals

end
-- ==== Proof.R1ValBlocks.lean ====
import proofs.«157065_j74259984548393_2_alg».proof.Proof.R1ValPieces
import proofs.«157065_j74259984548393_2_alg».proof.Proof.R1ValPay
import proofs.«157065_j74259984548393_2_alg».proof.Proof.Spec

set_option maxRecDepth 16384

/-!
  Launch 1: the blocks the body loads, read off the arrays the launch finds, and the block of
  pre-activations a grid point computes as rows of one function of those arrays: row r of the block
  at point t is row 512 t + r of the whole pre-activation.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The rectified, normalised activation of row i, feature k, from the arrays the launch finds. -/
def act1 (c : Dev nD) (i : Fin 16384) (k : Fin 1024) : EReal :=
  bnAct (V c main_v65_0) (V c main_v73) (V c main_v82) (V c main_v57) (V c main_v58) i k

/-- The layer's pre-activation of row i, column j, from the arrays the launch finds. -/
def H1 (c : Dev nD) (i : Fin 16384) (j : Fin 1024) : EReal :=
  bnLin (V c main_v65_0) (V c main_v73) (V c main_v82) (V c main_v57) (V c main_v58) (V c main_v19) (V c main_v54) i j

theorem H1_eq (c : Dev nD) (i : Fin 16384) (j : Fin 1024) :
    H1 V c i j = (∑ k : Fin 1024, act1 V c i k * (show S1024x1024.Idx → EReal from V c main_v19) (ix2 k j)) + (show S1x1024.Idx → EReal from V c main_v54) (ix2 (0 : Fin 1) j) := rfl

/-! ## Where each window's block sits, decided over the grid -/

theorem idx_rows1 : ∀ t : Fin cfg1.N, win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)
theorem idx_whole1_1 : ∀ t : Fin cfg1.N, win1_1.index t (0 : Fin 2) = 0 ∧ win1_1.index t (1 : Fin 2) = 0 :=
  (by decide +kernel : ∀ t : Fin grid1.N, _)
theorem idx_whole1_2 : ∀ t : Fin cfg1.N, win1_2.index t (0 : Fin 2) = 0 ∧ win1_2.index t (1 : Fin 2) = 0 :=
  (by decide +kernel : ∀ t : Fin grid1.N, _)
theorem idx_whole1_3 : ∀ t : Fin cfg1.N, win1_3.index t (0 : Fin 2) = 0 ∧ win1_3.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_whole1_6 : ∀ t : Fin cfg1.N, win1_6.index t (0 : Fin 2) = 0 ∧ win1_6.index t (1 : Fin 2) = 0 :=
  (by decide +kernel : ∀ t : Fin grid1.N, _)
theorem idx_stats1 : ∀ t : Fin cfg1.N, win1_8.index t (0 : Fin 3) = t.val / 16 ∧ win1_8.index t (1 : Fin 3) = 0 ∧ win1_8.index t (2 : Fin 3) = 0
    ∧ win1_9.index t (0 : Fin 3) = t.val / 16 ∧ win1_9.index t (1 : Fin 3) = 0 ∧ win1_9.index t (2 : Fin 3) = 0 :=
  (by decide +kernel : ∀ t : Fin grid1.N, _)

/-! ## The loaded blocks at an index -/

theorem iblk1_0_apply (c : Dev nD) (t : Fin cfg1.N) (r : Fin 512) (k : Fin 1024) (i : Fin 16384) (hi : i.val = 512 * t.val + r.val) :
    iblk1 V c 0 t (ix2 r k) = V c main_v65_0 (ix2 i k) := by
  obtain ⟨e0, e1, -, -⟩ := idx_rows1 t
  unfold iblk1
  rw [View.read_apply]
  show V c main_v65_0 _ = V c main_v65_0 _
  congr 1
  funext x
  apply Fin.ext
  match x with
  | ⟨0, _⟩ => show win1_0.index t (0 : Fin 2) * 512 + 1 * r.val = i.val; rw [e0]; omega
  | ⟨1, _⟩ => show win1_0.index t (1 : Fin 2) * 1024 + 1 * k.val = k.val; rw [e1]; omega

theorem iblk1_1_apply (c : Dev nD) (t : Fin cfg1.N) (a : Fin 1) (b : Fin 1024) :
    iblk1 V c 1 t (ix2 a b) = V c main_v73 (ix2 a b) := by
  obtain ⟨e0, e1⟩ := idx_whole1_1 t
  unfold iblk1
  rw [View.read_apply]
  show V c main_v73 _ = V c main_v73 _
  congr 1
  funext x
  apply Fin.ext
  match x with
  | ⟨0, _⟩ => show win1_1.index t (0 : Fin 2) * 1 + 1 * a.val = a.val; rw [e0]; omega
  | ⟨1, _⟩ => show win1_1.index t (1 : Fin 2) * 1024 + 1 * b.val = b.val; rw [e1]; omega

theorem iblk1_2_apply (c : Dev nD) (t : Fin cfg1.N) (a : Fin 1) (b : Fin 1024) :
    iblk1 V c 2 t (ix2 a b) = V c main_v82 (ix2 a b) := by
  obtain ⟨e0, e1⟩ := idx_whole1_2 t
  unfold iblk1
  rw [View.read_apply]
  show V c main_v82 _ = V c main_v82 _
  congr 1
  funext x
  apply Fin.ext
  match x with
  | ⟨0, _⟩ => show win1_2.index t (0 : Fin 2) * 1 + 1 * a.val = a.val; rw [e0]; omega
  | ⟨1, _⟩ => show win1_2.index t (1 : Fin 2) * 1024 + 1 * b.val = b.val; rw [e1]; omega

theorem iblk1_3_apply (c : Dev nD) (t : Fin cfg1.N) (a : Fin 1) (b : Fin 1024) :
    iblk1 V c 3 t (ix2 a b) = V c main_v57 (ix2 a b) := by
  obtain ⟨e0, e1⟩ := idx_whole1_3 t
  unfold iblk1
  rw [View.read_apply]
  show V c main_v57 _ = V c main_v57 _
  congr 1
  funext x
  apply Fin.ext
  match x with
  | ⟨0, _⟩ => show win1_3.index t (0 : Fin 2) * 1 + 1 * a.val = a.val; rw [e0]; omega
  | ⟨1, _⟩ => show win1_3.index t (1 : Fin 2) * 1024 + 1 * b.val = b.val; rw [e1]; omega

theorem iblk1_4_apply (c : Dev nD) (t : Fin cfg1.N) (a : Fin 1) (b : Fin 1024) :
    iblk1 V c 4 t (ix2 a b) = V c main_v58 (ix2 a b) := by
  obtain ⟨e0, e1⟩ := idx_whole1_4 t
  unfold iblk1
  rw [View.read_apply]
  show V c main_v58 _ = V c main_v58 _
  congr 1
  funext x
  apply Fin.ext
  match x with
  | ⟨0, _⟩ => show win1_4.index t (0 : Fin 2) * 1 + 1 * a.val = a.val; rw [e0]; omega
  | ⟨1, _⟩ => show win1_4.index t (1 : Fin 2) * 1024 + 1 * b.val = b.val; rw [e1]; omega

theorem iblk1_5_apply (c : Dev nD) (t : Fin cfg1.N) (a : Fin 1024) (b : Fin 1024) :
    iblk1 V c 5 t (ix2 a b) = V c main_v19 (ix2 a b) := by
  obtain ⟨e0, e1⟩ := idx_whole1_5 t
  unfold iblk1
  rw [View.read_apply]
  show V c main_v19 _ = V c main_v19 _
  congr 1
  funext x
  apply Fin.ext
  match x with
  | ⟨0, _⟩ => show win1_5.index t (0 : Fin 2) * 1024 + 1 * a.val = a.val; rw [e0]; omega
  | ⟨1, _⟩ => show win1_5.index t (1 : Fin 2) * 1024 + 1 * b.val = b.val; rw [e1]; omega

theorem iblk1_6_apply (c : Dev nD) (t : Fin cfg1.N) (a : Fin 1) (b : Fin 1024) :
    iblk1 V c 6 t (ix2 a b) = V c main_v54 (ix2 a b) := by
  obtain ⟨e0, e1⟩ := idx_whole1_6 t
  unfold iblk1
  rw [View.read_apply]
  show V c main_v54 _ = V c main_v54 _
  congr 1
  funext x
  apply Fin.ext
  match x with
  | ⟨0, _⟩ => show win1_6.index t (0 : Fin 2) * 1 + 1 * a.val = a.val; rw [e0]; omega
  | ⟨1, _⟩ => show win1_6.index t (1 : Fin 2) * 1024 + 1 * b.val = b.val; rw [e1]; omega

/-- The block of pre-activations point t computes. -/
def blk1 (c : Dev nD) (t : Fin cfg1.N) : FVec Ideal S512x1024 .f32 :=
  k1_pay7 (F := Ideal) (iblk1 V c 0 t) (iblk1 V c 3 t) (iblk1 V c 1 t) (iblk1 V c 2 t) (iblk1 V c 4 t) (iblk1 V c 5 t) (iblk1 V c 6 t)

/-- Row r of the block at point t is row 512 t + r of the layer's pre-activation. -/
theorem blk1_apply (c : Dev nD) (t : Fin cfg1.N) (r : Fin 512) (j : Fin 1024) (i : Fin 16384) (hi : i.val = 512 * t.val + r.val) :
    blk1 V c t (ix2 r j) = H1 V c i j := by
  unfold blk1
  refine (pay7_r1_apply (iblk1 V c 0 t) (iblk1 V c 3 t) (iblk1 V c 1 t) (iblk1 V c 2 t) (iblk1 V c 4 t) (iblk1 V c 5 t) (iblk1 V c 6 t) r j).trans ?_
  unfold H1 bnLin bnAct
  simp only [iblk1_0_apply V c t r _ i hi, iblk1_1_apply, iblk1_2_apply, iblk1_3_apply, iblk1_4_apply, iblk1_5_apply, iblk1_6_apply]

end Cert.KernelIdeal.Vals

end
-- ==== Proof.R1ValTotals.lean ====
import proofs.«157065_j74259984548393_2_alg».proof.Proof.R1ValBlocks

set_option maxRecDepth 16384

/-!
  Launch 1: what the buffers hold after each grid point. The block output is the block of
  pre-activations; each running total, cleared at the first point of a half and grown by every
  point, is after point n the sum of the column sums of the half's blocks up to n; at the last point
  of a half the statistics outputs receive the completed totals.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The column sums of the block at point n (zero beyond the grid). -/
def colS1 (c : Dev nD) (j : Fin 1024) (n : ℕ) : EReal :=
  if h : n < cfg1.N then ∑ r : Fin 512, blk1 V c ⟨n, h⟩ (ix2 r j) else 0
/-- The column sums of the squares of the block at point n (zero beyond the grid). -/
def colQ1 (c : Dev nD) (j : Fin 1024) (n : ℕ) : EReal :=
  if h : n < cfg1.N then ∑ r : Fin 512, blk1 V c ⟨n, h⟩ (ix2 r j) * blk1 V c ⟨n, h⟩ (ix2 r j) else 0

/-- Every point leaves its block of pre-activations in the block output. -/
theorem outs1_7 (c : Dev nD) (t : Fin cfg1.N) : (outsAt1 V c t.val t.isLt).1 = blk1 V c t := by
  by_cases h0 : t.val % 16 = 0
  · have h1 : ¬t.val % 16 = 15 := by omega
    rw [outsAt1_A V c t h0 h1]
    dsimp only
    exact out1_A_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
  · by_cases h1 : t.val % 16 = 15
    · rw [outsAt1_C V c t h0 h1]
      dsimp only
      exact out1_C_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]
      dsimp only
      exact out1_B_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At the first point of a half the first running total is the block's column sums. -/
theorem tot1_0_A (c : Dev nD) (t : Fin cfg1.N) (h0 : t.val % 16 = 0) (j : Fin 1024) :
    (outsAt1 V c t.val t.isLt).2.2.2.1 (ix2 (0 : Fin 1) j) = colS1 V c j t.val := by
  have h1 : ¬t.val % 16 = 15 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) (ix2 (0 : Fin 1) j)).trans ?_
  refine (pay1_r1_apply _ _ j).trans ?_
  rw [pay5_r1_apply, zero_add]
  unfold colS1
  rw [dif_pos t.isLt]
  rfl

/-- At every other point it grows by the block's column sums. -/
theorem tot1_0_step (c : Dev nD) (t : Fin cfg1.N) (h0 : ¬t.val % 16 = 0) (j : Fin 1024) :
    (outsAt1 V c t.val t.isLt).2.2.2.1 (ix2 (0 : Fin 1) j)
      = (outsAt1 V c (t.val - 1) (Nat.lt_of_le_of_lt (Nat.sub_le _ _) t.isLt)).2.2.2.1 (ix2 (0 : Fin 1) j) + colS1 V c j t.val := by
  have hcol : colS1 V c j t.val = ∑ r : Fin 512, blk1 V c t (ix2 r j) := by
    unfold colS1
    rw [dif_pos t.isLt]
  rw [hcol]
  by_cases h1 : t.val % 16 = 15
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) j)).trans ?_
    exact pay1_r1_apply _ _ j
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) j)).trans ?_
    exact pay1_r1_apply _ _ j

/-- So after point n the total is the sum of the column sums of the half's blocks up to n. -/
theorem tot1_0_eq (c : Dev nD) (j : Fin 1024) : ∀ (n : ℕ) (hn : n < cfg1.N),
    (outsAt1 V c n hn).2.2.2.1 (ix2 (0 : Fin 1) j) = ∑ t' ∈ Finset.range (n % 16 + 1), colS1 V c j (16 * (n / 16) + t')
  | 0, hn => by
    rw [tot1_0_A V c ⟨0, hn⟩ rfl j]
    simp
  | n + 1, hn => by
    by_cases h0 : (n + 1) % 16 = 0
    · rw [tot1_0_A V c ⟨n + 1, hn⟩ h0 j, h0, Finset.sum_range_one]
      congr 1
      dsimp only
      omega
    · rw [tot1_0_step V c ⟨n + 1, hn⟩ h0 j]
      show (outsAt1 V c n _).2.2.2.1 (ix2 (0 : Fin 1) j) + _ = _
      rw [tot1_0_eq c j n (Nat.lt_of_succ_lt hn)]
      have e1 : (n + 1) / 16 = n / 16 := by omega
      have e2 : (n + 1) % 16 = n % 16 + 1 := by omega
      rw [e1, e2, Finset.sum_range_succ _ (n % 16 + 1)]
      congr 2
      dsimp only
      omega

/-- At the first point of a half the second running total is the block's column sums of squares. -/
theorem tot1_1_A (c : Dev nD) (t : Fin cfg1.N) (h0 : t.val % 16 = 0) (j : Fin 1024) :
    (outsAt1 V c t.val t.isLt).2.2.2.2 (ix2 (0 : Fin 1) j) = colQ1 V c j t.val := by
  have h1 : ¬t.val % 16 = 15 := by omega
  rw [outsAt1_A V c t h0 h1]
  dsimp only
  refine (congrFun (sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) (ix2 (0 : Fin 1) j)).trans ?_
  refine (pay2_r1_apply _ _ j).trans ?_
  rw [pay6_r1_apply, zero_add]
  unfold colQ1
  rw [dif_pos t.isLt]
  rfl

/-- At every other point it grows by the block's column sums of squares. -/
theorem tot1_1_step (c : Dev nD) (t : Fin cfg1.N) (h0 : ¬t.val % 16 = 0) (j : Fin 1024) :
    (outsAt1 V c t.val t.isLt).2.2.2.2 (ix2 (0 : Fin 1) j)
      = (outsAt1 V c (t.val - 1) (Nat.lt_of_le_of_lt (Nat.sub_le _ _) t.isLt)).2.2.2.2 (ix2 (0 : Fin 1) j) + colQ1 V c j t.val := by
  have hcol : colQ1 V c j t.val = ∑ r : Fin 512, blk1 V c t (ix2 r j) * blk1 V c t (ix2 r j) := by
    unfold colQ1
    rw [dif_pos t.isLt]
  rw [hcol]
  by_cases h1 : t.val % 16 = 15
  · rw [outsAt1_C V c t h0 h1]
    dsimp only
    refine (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) j)).trans ?_
    exact pay2_r1_apply _ _ j
  · rw [outsAt1_B V c t h0 h1]
    dsimp only
    refine (congrFun (sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) j)).trans ?_
    exact pay2_r1_apply _ _ j

/-- So after point n the total is the sum of the column sums of squares of the half's blocks up to n. -/
theorem tot1_1_eq (c : Dev nD) (j : Fin 1024) : ∀ (n : ℕ) (hn : n < cfg1.N),
    (outsAt1 V c n hn).2.2.2.2 (ix2 (0 : Fin 1) j) = ∑ t' ∈ Finset.range (n % 16 + 1), colQ1 V c j (16 * (n / 16) + t')
  | 0, hn => by
    rw [tot1_1_A V c ⟨0, hn⟩ rfl j]
    simp
  | n + 1, hn => by
    by_cases h0 : (n + 1) % 16 = 0
    · rw [tot1_1_A V c ⟨n + 1, hn⟩ h0 j, h0, Finset.sum_range_one]
      congr 1
      dsimp only
      omega
    · rw [tot1_1_step V c ⟨n + 1, hn⟩ h0 j]
      show (outsAt1 V c n _).2.2.2.2 (ix2 (0 : Fin 1) j) + _ = _
      rw [tot1_1_eq c j n (Nat.lt_of_succ_lt hn)]
      have e1 : (n + 1) / 16 = n / 16 := by omega
      have e2 : (n + 1) % 16 = n % 16 + 1 := by omega
      rw [e1, e2, Finset.sum_range_succ _ (n % 16 + 1)]
      congr 2
      dsimp only
      omega

/-- At the last point of a half the first statistics output receives the completed first total … -/
theorem outs1_8 (c : Dev nD) (t : Fin cfg1.N) (h1 : t.val % 16 = 15) (j : Fin 1024) :
    (outsAt1 V c t.val t.isLt).2.1 (ix3 (0 : Fin 1) (0 : Fin 1) j) = (outsAt1 V c t.val t.isLt).2.2.2.1 (ix2 (0 : Fin 1) j) := by
  have h0 : ¬t.val % 16 = 0 := by omega
  rw [outsAt1_C V c t h0 h1]
  dsimp only
  refine (congrFun (out1_C_8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix3 (0 : Fin 1) (0 : Fin 1) j)).trans ?_
  refine (pay3_r1_apply _ j).trans ?_
  exact (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) j)).symm

/-- … and the second one the completed second total. -/
theorem outs1_9 (c : Dev nD) (t : Fin cfg1.N) (h1 : t.val % 16 = 15) (j : Fin 1024) :
    (outsAt1 V c t.val t.isLt).2.2.1 (ix3 (0 : Fin 1) (0 : Fin 1) j) = (outsAt1 V c t.val t.isLt).2.2.2.2 (ix2 (0 : Fin 1) j) := by
  have h0 : ¬t.val % 16 = 0 := by omega
  rw [outsAt1_C V c t h0 h1]
  dsimp only
  refine (congrFun (out1_C_9_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix3 (0 : Fin 1) (0 : Fin 1) j)).trans ?_
  refine (pay4_r1_apply _ j).trans ?_
  exact (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) j)).symm

end Cert.KernelIdeal.Vals

end
-- ==== Proof.R1Val.lean ====
import proofs.«157065_j74259984548393_2_alg».proof.Proof.R1ValTotals
import proofs.«157065_j74259984548393_2_alg».proof.Proof.Gen.KernelIdeal.Points

set_option maxRecDepth 16384

/-!
  Launch 1: its three output arrays after the launch, as functions of the arrays it found. The
  block output's 32 blocks of 512 rows tile the pre-activation array; each statistics array has one
  [1,1,1024] block per half of the grid, written back at the half's last point, holding the column
  totals over the half's 16 blocks.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The pre-activation array -/

/-- The pre-activation array, entry by entry. -/
def G1_7 (c : Dev nD) : S16384x1024.Idx → EReal := fun i => H1 V c (i 0) (i 1)

theorem blk1_row (c : Dev nD) (t : Fin cfg1.N) (y : S512x1024.Idx) (i : Fin 16384) (j : Fin 1024)
    (hi : i.val = 512 * t.val + (y 0).val) (hj : j.val = (y 1).val) : blk1 V c t y = H1 V c i j := by
  obtain ⟨r, k, rfl⟩ : ∃ (r : Fin 512) (k : Fin 1024), y = ix2 r k := ⟨y 0, y 1, eq_ix2 y⟩
  obtain rfl : j = k := Fin.ext hj
  exact blk1_apply V c t r j i hi

/-- What point t writes back is block t of the pre-activation array. -/
theorem flushed1_7 (c : Dev nD) (t : Fin cfg1.N) (hf : (cfg1.win 7).flush t = true) :
    (dat1 (F := Ideal) V c).flushed 7 t = ((cfg1.win 7).blk t).view.read (Elt Ideal) (G1_7 V c) := by
  have hN : grid1.N = 32 := N_1
  have ht : t.val < grid1.N := t.isLt
  show (cfg1.win 7).cut (grid1.coords t) ((dat1 (F := Ideal) V c).after 7 t) = _
  rw [after1_7, outs1_7]
  obtain ⟨-, -, e0, e1⟩ := idx_rows1 t
  funext y
  have hy0 : (y 0).val < 512 := (y 0).isLt
  have hy1 : (y 1).val < 1024 := (y 1).isLt
  show blk1 V c t y = H1 V c ((((cfg1.win 7).blk t).view.emb y) 0) ((((cfg1.win 7).blk t).view.emb y) 1)
  refine blk1_row V c t y _ _ ?_ ?_
  · show win1_7.index t (0 : Fin 2) * 512 + 1 * (y 0).val = 512 * t.val + (y 0).val
    rw [e0]; omega
  · show win1_7.index t (1 : Fin 2) * 1024 + 1 * (y 1).val = (y 1).val
    rw [e1]; omega

theorem mem_blk1_7 (t : Fin cfg1.N) (i : S16384x1024.Idx) :
    i ∈ ((cfg1.win 7).blk t).view.set ↔ ∀ a : Fin 2, win1_7.index t a * S512x1024.size a ≤ (i a).val ∧ (i a).val < win1_7.index t a * S512x1024.size a + S512x1024.size a := by
  show i ∈ ((View.whole main_v83_0).slice (win1_7.rect t)).set ↔ _
  rw [View.set_slice_whole, Rect.mem_set_unit]
  exact Iff.rfl

theorem final1_7 (c : Dev nD) : (dat1 (F := Ideal) V c).arrAt 7 cfg1.N = G1_7 V c :=
  (dat1 (F := Ideal) V c).arrAt_eq_of_cover 7 (G1_7 V c) (flushed1_7 V c) fun i => by
    have hN : grid1.N = 32 := N_1
    have hi0 : (i 0).val < 16384 := (i 0).isLt
    have hi1 : (i 1).val < 1024 := (i 1).isLt
    refine ⟨⟨(i 0).val / 512, by show _ < grid1.N; omega⟩, flush1_7 _, ?_⟩
    rw [mem_blk1_7]
    obtain ⟨-, -, e0, e1⟩ := idx_rows1 ⟨(i 0).val / 512, by show _ < grid1.N; omega⟩
    intro a
    match a with
    | ⟨0, _⟩ => show win1_7.index _ (0 : Fin 2) * 512 ≤ (i 0).val ∧ (i 0).val < win1_7.index _ (0 : Fin 2) * 512 + 512; rw [e0]; dsimp only; omega
    | ⟨1, _⟩ => show win1_7.index _ (1 : Fin 2) * 1024 ≤ (i 1).val ∧ (i 1).val < win1_7.index _ (1 : Fin 2) * 1024 + 1024; rw [e1]; omega

/-! ## The two statistics arrays -/

/-- The first statistics array, entry by entry: the column total over a half's 16 blocks of 512 rows. -/
def G1_8 (c : Dev nD) : S2x1x1024.Idx → EReal :=
  fun i => ∑ t' : Fin 16, ∑ r : Fin 512, H1 V c (Cert.Spec.rowOf (i 0) t' r) (i 2)

theorem half_sum1_0 (c : Dev nD) (h : Fin 2) (j : Fin 1024) :
    ∑ t' ∈ Finset.range 16, colS1 V c j (16 * h.val + t') = ∑ t' : Fin 16, ∑ r : Fin 512, H1 V c (Cert.Spec.rowOf h t' r) j := by
  rw [Finset.sum_range]
  refine Finset.sum_congr rfl fun t' _ => ?_
  have hlt : 16 * h.val + t'.val < cfg1.N := by
    have := N_1
    show _ < grid1.N
    omega
  unfold colS1
  rw [dif_pos hlt]
  refine Finset.sum_congr rfl fun r _ => ?_
  rw [blk1_apply V c ⟨_, hlt⟩ r j (Cert.Spec.rowOf h t' r) rfl]

theorem outs1_8_idx (c : Dev nD) (t : Fin cfg1.N) (h1 : t.val % 16 = 15) (y : S1x1x1024.Idx) :
    (outsAt1 V c t.val t.isLt).2.1 y = ∑ t' ∈ Finset.range 16, colS1 V c (y 2) (16 * (t.val / 16) + t') := by
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  refine (outs1_8 V c t h1 j).trans ?_
  rw [tot1_0_eq V c j t.val t.isLt, h1]

/-- What a half's last point writes back to the first statistics array is that half's entry of it. -/
theorem flushed1_8 (c : Dev nD) (t : Fin cfg1.N) (hf : (cfg1.win 8).flush t = true) :
    (dat1 (F := Ideal) V c).flushed 8 t = ((cfg1.win 8).blk t).view.read (Elt Ideal) (G1_8 V c) := by
  have h15 : t.val % 16 = 15 := (flush1_8 t).mp hf
  have hN : grid1.N = 32 := N_1
  have ht : t.val < grid1.N := t.isLt
  show (cfg1.win 8).cut (grid1.coords t) ((dat1 (F := Ideal) V c).after 8 t) = _
  rw [after1_8]
  obtain ⟨e0, e1, e2, -, -, -⟩ := idx_stats1 t
  funext y
  have hy0 : (y 0).val < 1 := (y 0).isLt
  have hh : (((cfg1.win 8).blk t).view.emb y) 0 = (⟨t.val / 16, by omega⟩ : Fin 2) :=
    Fin.ext (by show win1_8.index t (0 : Fin 3) * 1 + 1 * (y 0).val = t.val / 16; rw [e0]; omega)
  have hj : (((cfg1.win 8).blk t).view.emb y) 2 = y 2 :=
    Fin.ext (by show win1_8.index t (2 : Fin 3) * 1024 + 1 * (y 2).val = (y 2).val; rw [e2]; omega)
  refine (outs1_8_idx V c t h15 y).trans ?_
  show _ = G1_8 V c (((cfg1.win 8).blk t).view.emb y)
  unfold G1_8
  rw [hh, hj]
  exact half_sum1_0 V c ⟨t.val / 16, by omega⟩ (y 2)

theorem mem_blk1_8 (t : Fin cfg1.N) (i : S2x1x1024.Idx) :
    i ∈ ((cfg1.win 8).blk t).view.set ↔ ∀ a : Fin 3, win1_8.index t a * S1x1x1024.size a ≤ (i a).val ∧ (i a).val < win1_8.index t a * S1x1x1024.size a + S1x1x1024.size a := by
  show i ∈ ((View.whole main_v83_1).slice (win1_8.rect t)).set ↔ _
  rw [View.set_slice_whole, Rect.mem_set_unit]
  exact Iff.rfl

theorem final1_8 (c : Dev nD) : (dat1 (F := Ideal) V c).arrAt 8 cfg1.N = G1_8 V c :=
  (dat1 (F := Ideal) V c).arrAt_eq_of_cover 8 (G1_8 V c) (flushed1_8 V c) fun i => by
    have hN : grid1.N = 32 := N_1
    have hi0 : (i 0).val < 2 := (i 0).isLt
    have hi1 : (i 1).val < 1 := (i 1).isLt
    have hi2 : (i 2).val < 1024 := (i 2).isLt
    refine ⟨⟨16 * (i 0).val + 15, by show _ < grid1.N; omega⟩, (flush1_8 _).mpr (by dsimp only; omega), ?_⟩
    rw [mem_blk1_8]
    obtain ⟨e0, e1, e2, -, -, -⟩ := idx_stats1 ⟨16 * (i 0).val + 15, by show _ < grid1.N; omega⟩
    intro a
    match a with
    | ⟨0, _⟩ => show win1_8.index _ (0 : Fin 3) * 1 ≤ (i 0).val ∧ (i 0).val < win1_8.index _ (0 : Fin 3) * 1 + 1; rw [e0]; dsimp only; omega
    | ⟨1, _⟩ => show win1_8.index _ (1 : Fin 3) * 1 ≤ (i 1).val ∧ (i 1).val < win1_8.index _ (1 : Fin 3) * 1 + 1; rw [e1]; omega
    | ⟨2, _⟩ => show win1_8.index _ (2 : Fin 3) * 1024 ≤ (i 2).val ∧ (i 2).val < win1_8.index _ (2 : Fin 3) * 1024 + 1024; rw [e2]; omega

/-- The second statistics array, entry by entry: the column total of squares over a half's 16 blocks of 512 rows. -/
def G1_9 (c : Dev nD) : S2x1x1024.Idx → EReal :=
  fun i => ∑ t' : Fin 16, ∑ r : Fin 512, H1 V c (Cert.Spec.rowOf (i 0) t' r) (i 2) * H1 V c (Cert.Spec.rowOf (i 0) t' r) (i 2)

theorem half_sum1_1 (c : Dev nD) (h : Fin 2) (j : Fin 1024) :
    ∑ t' ∈ Finset.range 16, colQ1 V c j (16 * h.val + t') = ∑ t' : Fin 16, ∑ r : Fin 512, H1 V c (Cert.Spec.rowOf h t' r) j * H1 V c (Cert.Spec.rowOf h t' r) j := by
  rw [Finset.sum_range]
  refine Finset.sum_congr rfl fun t' _ => ?_
  have hlt : 16 * h.val + t'.val < cfg1.N := by
    have := N_1
    show _ < grid1.N
    omega
  unfold colQ1
  rw [dif_pos hlt]
  refine Finset.sum_congr rfl fun r _ => ?_
  rw [blk1_apply V c ⟨_, hlt⟩ r j (Cert.Spec.rowOf h t' r) rfl]

theorem outs1_9_idx (c : Dev nD) (t : Fin cfg1.N) (h1 : t.val % 16 = 15) (y : S1x1x1024.Idx) :
    (outsAt1 V c t.val t.isLt).2.2.1 y = ∑ t' ∈ Finset.range 16, colQ1 V c (y 2) (16 * (t.val / 16) + t') := by
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  refine (outs1_9 V c t h1 j).trans ?_
  rw [tot1_1_eq V c j t.val t.isLt, h1]

/-- What a half's last point writes back to the second statistics array is that half's entry of it. -/
theorem flushed1_9 (c : Dev nD) (t : Fin cfg1.N) (hf : (cfg1.win 9).flush t = true) :
    (dat1 (F := Ideal) V c).flushed 9 t = ((cfg1.win 9).blk t).view.read (Elt Ideal) (G1_9 V c) := by
  have h15 : t.val % 16 = 15 := (flush1_9 t).mp hf
  have hN : grid1.N = 32 := N_1
  have ht : t.val < grid1.N := t.isLt
  show (cfg1.win 9).cut (grid1.coords t) ((dat1 (F := Ideal) V c).after 9 t) = _
  rw [after1_9]
  obtain ⟨-, -, -, e0, e1, e2⟩ := idx_stats1 t
  funext y
  have hy0 : (y 0).val < 1 := (y 0).isLt
  have hh : (((cfg1.win 9).blk t).view.emb y) 0 = (⟨t.val / 16, by omega⟩ : Fin 2) :=
    Fin.ext (by show win1_9.index t (0 : Fin 3) * 1 + 1 * (y 0).val = t.val / 16; rw [e0]; omega)
  have hj : (((cfg1.win 9).blk t).view.emb y) 2 = y 2 :=
    Fin.ext (by show win1_9.index t (2 : Fin 3) * 1024 + 1 * (y 2).val = (y 2).val; rw [e2]; omega)
  refine (outs1_9_idx V c t h15 y).trans ?_
  show _ = G1_9 V c (((cfg1.win 9).blk t).view.emb y)
  unfold G1_9
  rw [hh, hj]
  exact half_sum1_1 V c ⟨t.val / 16, by omega⟩ (y 2)

theorem mem_blk1_9 (t : Fin cfg1.N) (i : S2x1x1024.Idx) :
    i ∈ ((cfg1.win 9).blk t).view.set ↔ ∀ a : Fin 3, win1_9.index t a * S1x1x1024.size a ≤ (i a).val ∧ (i a).val < win1_9.index t a * S1x1x1024.size a + S1x1x1024.size a := by
  show i ∈ ((View.whole main_v83_2).slice (win1_9.rect t)).set ↔ _
  rw [View.set_slice_whole, Rect.mem_set_unit]
  exact Iff.rfl

theorem final1_9 (c : Dev nD) : (dat1 (F := Ideal) V c).arrAt 9 cfg1.N = G1_9 V c :=
  (dat1 (F := Ideal) V c).arrAt_eq_of_cover 9 (G1_9 V c) (flushed1_9 V c) fun i => by
    have hN : grid1.N = 32 := N_1
    have hi0 : (i 0).val < 2 := (i 0).isLt
    have hi1 : (i 1).val < 1 := (i 1).isLt
    have hi2 : (i 2).val < 1024 := (i 2).isLt
    refine ⟨⟨16 * (i 0).val + 15, by show _ < grid1.N; omega⟩, (flush1_9 _).mpr (by dsimp only; omega), ?_⟩
    rw [mem_blk1_9]
    obtain ⟨-, -, -, e0, e1, e2⟩ := idx_stats1 ⟨16 * (i 0).val + 15, by show _ < grid1.N; omega⟩
    intro a
    match a with
    | ⟨0, _⟩ => show win1_9.index _ (0 : Fin 3) * 1 ≤ (i 0).val ∧ (i 0).val < win1_9.index _ (0 : Fin 3) * 1 + 1; rw [e0]; dsimp only; omega
    | ⟨1, _⟩ => show win1_9.index _ (1 : Fin 3) * 1 ≤ (i 1).val ∧ (i 1).val < win1_9.index _ (1 : Fin 3) * 1 + 1; rw [e1]; omega
    | ⟨2, _⟩ => show win1_9.index _ (2 : Fin 3) * 1024 ≤ (i 2).val ∧ (i 2).val < win1_9.index _ (2 : Fin 3) * 1024 + 1024; rw [e2]; omega

/-! ## The launch's outputs -/

theorem r1_h (c : Dev nD) (i : Fin 16384) (j : Fin 1024) :
    (dat1 (F := Ideal) V c).arrAt 7 cfg1.N (ix2 i j) = H1 V c i j :=
  congrFun (final1_7 V c) (ix2 i j)

theorem r1_s (c : Dev nD) (h : Fin 2) (j : Fin 1024) :
    (dat1 (F := Ideal) V c).arrAt 8 cfg1.N (ix3 h (0 : Fin 1) j) = ∑ t : Fin 16, ∑ r : Fin 512, H1 V c (Cert.Spec.rowOf h t r) j :=
  congrFun (final1_8 V c) (ix3 h (0 : Fin 1) j)

theorem r1_ss (c : Dev nD) (h : Fin 2) (j : Fin 1024) :
    (dat1 (F := Ideal) V c).arrAt 9 cfg1.N (ix3 h (0 : Fin 1) j) = ∑ t : Fin 16, ∑ r : Fin 512, H1 V c (Cert.Spec.rowOf h t r) j * H1 V c (Cert.Spec.rowOf h t r) j :=
  congrFun (final1_9 V c) (ix3 h (0 : Fin 1) j)

end Cert.KernelIdeal.Vals

end
-- ==== Proof.R2ValPieces.lean ====
import proofs.«157065_j74259984548393_2_alg».proof.Proof.R2Frame
import Idealize.ShloMosaic.Lib.ValueIdx
import Idealize.ShloMosaic.Lib.Pipeline.Value
import Idealize.ShloMosaic.PureOps.Ideal.Laws

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-!
  Launch 2: what each case of the body leaves in each buffer, as the body's arithmetic applied to the blocks
  it loaded. Every store of the body covers its whole buffer, so a buffer ends with the payload of the last
  store to it; a load that follows a store reads that store's payload back.
-/

variable {F : FTy → Type} [FloatOps F]

theorem zeroOff2_r2 : (![0, 0] : Fin 2 → Nat) = fun _ => 0 := funext fun a => by fin_cases a <;> rfl
theorem zeroOff3_r2 : (![0, 0, 0] : Fin 3 → Nat) = fun _ => 0 := funext fun a => by fin_cases a <;> rfl

/-- The block's pre-activation, at the first point of a half. -/
theorem out2_A_7_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    out2_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k2_pay7 x0 x3 x1 x2 x4 x5 x6 := by
  unfold out2_A_7
  rw [View.read_writes_eq_canon _ _ _ (cover2_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun2_A
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The first running total after the first point of a half: the cleared total plus the block's column sums. -/
theorem sout2_A_0_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    sout2_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k2_pay1 (k2_pay7 x0 x3 x1 x2 x4 x5 x6) k2_pay5 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun2_A
  dsimp only
  sl_unfold_words
  rw [View.canon_cons_unit_zero (S := S1x1024) zeroOff2_r2, View.readCov_unit_zero (S := S1x1024) _ zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The second running total after the first point of a half: the cleared total plus the column sums of the squares. -/
theorem sout2_A_1_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond2_0 i) (hc1 : ¬cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    sout2_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k2_pay2 (k2_pay7 x0 x3 x1 x2 x4 x5 x6) k2_pay6 := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun2_A
  dsimp only
  sl_unfold_words
  rw [View.canon_cons_unit_zero (S := S1x1024) zeroOff2_r2, View.readCov_unit_zero (S := S1x1024) _ zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The block's pre-activation, at a middle point. -/
theorem out2_B_7_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out2_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay7 x0 x3 x1 x2 x4 x5 x6 := by
  unfold out2_B_7
  rw [View.read_writes_eq_canon _ _ _ (cover2_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_B
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The first running total after a middle point: the carried total plus the block's column sums. -/
theorem sout2_B_0_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout2_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay1 (k2_pay7 x0 x3 x1 x2 x4 x5 x6) xs0 := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_B
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The second running total after a middle point. -/
theorem sout2_B_1_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : ¬cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout2_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay2 (k2_pay7 x0 x3 x1 x2 x4 x5 x6) xs1 := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_B
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The block's pre-activation, at the last point of a half. -/
theorem out2_C_7_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out2_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay7 x0 x3 x1 x2 x4 x5 x6 := by
  unfold out2_C_7
  rw [View.read_writes_eq_canon _ _ _ (cover2_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_C
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The first running total after the last point of a half. -/
theorem sout2_C_0_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout2_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay1 (k2_pay7 x0 x3 x1 x2 x4 x5 x6) xs0 := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_C
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The second running total after the last point of a half. -/
theorem sout2_C_1_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout2_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay2 (k2_pay7 x0 x3 x1 x2 x4 x5 x6) xs1 := by
  unfold sout2_C_1
  rw [View.read_writes_eq_canon _ _ _ (scover2_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_C
  dsimp only
  sl_unfold_words
  rw [View.canon_unit_zero zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The first statistics output at the last point of a half: the completed first total, as a [1,1,1024] block. -/
theorem out2_C_8_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out2_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay3 (k2_pay1 (k2_pay7 x0 x3 x1 x2 x4 x5 x6) xs0) := by
  unfold out2_C_8
  rw [View.read_writes_eq_canon _ _ _ (cover2_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_C
  dsimp only
  sl_unfold_words
  rw [View.canon_unit_zero zeroOff3_r2, View.readCov_unit_zero (S := S1x1024) _ zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

/-- The second statistics output at the last point of a half: the completed second total. -/
theorem out2_C_9_eq (c : Dev nD) (i : grid2.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond2_0 i) (hc1 : cond2_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out2_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k2_pay4 (k2_pay2 (k2_pay7 x0 x3 x1 x2 x4 x5 x6) xs1) := by
  unfold out2_C_9
  rw [View.read_writes_eq_canon _ _ _ (cover2_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun2_C
  dsimp only
  sl_unfold_words
  rw [View.canon_unit_zero zeroOff3_r2, View.readCov_unit_zero (S := S1x1024) _ zeroOff2_r2]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r2, View.ld_unit_zero (S := S1x1024) zeroOff2_r2, View.ld_unit_zero (S := S1024x1024) zeroOff2_r2]

end Cert.KernelIdeal.Vals

end
-- ==== Proof.R2ValPay.lean ====
import proofs.«157065_j74259984548393_2_alg».proof.Proof.R1ValOps

set_option maxRecDepth 16384

/-!
  Launch 2: the body's arithmetic read at an index, over the extended reals. The block's
  pre-activation is the normalised, scaled, shifted and rectified activation row against a column of
  the weights, plus the bias; the running totals grow by the block's column sums (of the entries, and
  of their squares); the statistics outputs are the totals laid out as [1,1,1024] blocks.
-/

noncomputable section

namespace Cert.KernelIdeal.Vals

open Cert.KernelIdeal Cert.KernelIdeal.Gen
open Idealize.ShloMosaic Idealize.ShloMosaic.TcCoe Idealize.ShloMosaic.ValueIdx
open Idealize.SL.Sem

/-- The block's pre-activation at row r, column j. -/
theorem pay7_r2_apply (v3 : Vec Ideal S512x1024 .f32) (v5 v7 v13 v17 : Vec Ideal S1x1024 .f32) (v24 : Vec Ideal S1024x1024 .bf16) (v27 : Vec Ideal S1x1024 .f32) (r : Fin 512) (j : Fin 1024) :
    k2_pay7 (F := Ideal) v3 v5 v7 v13 v17 v24 v27 (ix2 r j)
      = (∑ k : Fin 1024, max (v5 (ix2 (0 : Fin 1) k) * (v3 (ix2 r k) - v7 (ix2 (0 : Fin 1) k)) * v13 (ix2 (0 : Fin 1) k) + v17 (ix2 (0 : Fin 1) k)) 0 * v24 (ix2 k j)) + v27 (ix2 (0 : Fin 1) j) := by
  unfold k2_pay7
  simp only [shapeCast_self]
  refine (addf_apply _ _ (ix2 r j)).trans ?_
  refine congrArg₂ (· + ·) ?_ (bn_brow_apply v27 r j)
  refine (bn_dot_apply _ _ r j).trans ?_
  refine Finset.sum_congr rfl fun k _ => ?_
  refine congrArg (· * v24 (ix2 k j)) ?_
  refine (truncf_apply (ψ := .bf16) _ bitsLt_bf16_f32 (ix2 r k)).trans ?_
  refine (maximumf_apply _ _ (ix2 r k)).trans ?_
  refine congrArg₂ max ?_ Ideal.ofBits_zero_f32
  refine (addf_apply _ _ (ix2 r k)).trans ?_
  refine congrArg₂ (· + ·) ?_ (bn_brow_apply v17 r k)
  refine (mulf_apply _ _ (ix2 r k)).trans ?_
  refine congrArg₂ (· * ·) ?_ (bn_brow_apply v13 r k)
  refine (mulf_apply _ _ (ix2 r k)).trans ?_
  refine congrArg₂ (· * ·) (bn_brow_apply v5 r k) ?_
  refine (subf_apply _ _ (ix2 r k)).trans ?_
  exact congrArg (v3 (ix2 r k) - ·) (bn_brow_apply v7 r k)

/-- The first running total after a block: what it was plus the block's column sums. -/
theorem pay1_r2_apply (v30 : FVec Ideal S512x1024 .f32) (s : Vec Ideal S1x1024 .f32) (j : Fin 1024) :
    k2_pay1 (F := Ideal) v30 s (ix2 (0 : Fin 1) j) = s (ix2 (0 : Fin 1) j) + ∑ r : Fin 512, v30 (ix2 r j) := by
  unfold k2_pay1
  simp only [shapeCast_self]
  refine (addf_apply _ _ (ix2 (0 : Fin 1) j)).trans ?_
  exact congrArg (s (ix2 (0 : Fin 1) j) + ·) (bn_colsum_apply v30 j)

/-- The second running total after a block: what it was plus the column sums of the block's squares. -/
theorem pay2_r2_apply (v30 : FVec Ideal S512x1024 .f32) (s : Vec Ideal S1x1024 .f32) (j : Fin 1024) :
    k2_pay2 (F := Ideal) v30 s (ix2 (0 : Fin 1) j) = s (ix2 (0 : Fin 1) j) + ∑ r : Fin 512, v30 (ix2 r j) * v30 (ix2 r j) := by
  unfold k2_pay2
  simp only [shapeCast_self]
  refine (addf_apply _ _ (ix2 (0 : Fin 1) j)).trans ?_
  exact congrArg (s (ix2 (0 : Fin 1) j) + ·) (bn_colsum_apply (mulf v30 v30) j)

/-- The statistics outputs: the totals as [1,1,1024] blocks. -/
theorem pay3_r2_apply (v : Vec Ideal S1x1024 .f32) (j : Fin 1024) :
    k2_pay3 (F := Ideal) v (ix3 (0 : Fin 1) (0 : Fin 1) j) = v (ix2 (0 : Fin 1) j) := by
  unfold k2_pay3
  exact bn_cast3_apply v j
theorem pay4_r2_apply (v : Vec Ideal S1x1024 .f32) (j : Fin 1024) :
    k2_pay4 (F := Ideal) v (ix3 (0 : Fin 1) (0 : Fin 1) j) = v (ix2 (0 : Fin 1) j) := by
  unfold k2_pay4
  exact bn_cast3_apply v j

/-- The cleared totals are zero. -/
theorem pay5_r2_apply (j : Fin 1024) : k2_pay5 (F := Ideal) (ix2 (0 : Fin 1) j) = 0 := by
  unfold k2_pay5
  simp only [shapeCast_self]
  exact Ideal.ofBits_zero_f32
theorem pay6_r2_apply (j : Fin 1024) : k2_pay6 (F := Ideal) (ix2 (0 : Fin 1) j) = 0 := by
  unfold k2_pay6
  simp only [shapeCast_self]
  exact Ideal.ofBits_zero_f32

end Cert.KernelIdeal.Vals

end
-- ==== Proof.R2ValBlocks.lean ====
import proofs.«157065_j74259984548393_2_alg».proof.Proof.R2ValPieces
import proofs.«157065_j74259984548393_2_alg».proof.Proof.R2ValPay
import proofs.«157065_j74259984548393_2_alg».proof.Proof.Spec

set_option maxRecDepth 16384

/-!
  Launch 2: the blocks the body loads, read off the arrays the launch finds, and the block of
  pre-activations a grid point computes as rows of one function of those arrays: row r of the block
  at point t is row 512 t + r of the whole pre-activation.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The rectified, normalised activation of row i, feature k, from the arrays the launch finds. -/
def act2 (c : Dev nD) (i : Fin 16384) (k : Fin 1024) : EReal :=
  bnAct (V c main_v83_0) (V c main_v91) (V c main_v100) (V c main_v59) (V c main_v60) i k

/-- The layer's pre-activation of row i, column j, from the arrays the launch finds. -/
def H2 (c : Dev nD) (i : Fin 16384) (j : Fin 1024) : EReal :=
  bnLin (V c main_v83_0) (V c main_v91) (V c main_v100) (V c main_v59) (V c main_v60) (V c main_v29) (V c main_v55) i j

theorem H2_eq (c : Dev nD) (i : Fin 16384) (j : Fin 1024) :
    H2 V c i j = (∑ k : Fin 1024, act2 V c i k * (show S1024x1024.Idx → EReal from V c main_v29) (ix2 k j)) + (show S1x1024.Idx → EReal from V c main_v55) (ix2 (0 : Fin 1) j) := rfl

/-! ## Where each window's block sits, decided over the grid -/

theorem idx_rows2 : ∀ t : Fin cfg2.N, win2_0.index t (0 : Fin 2) = t.val ∧ win2_0.index t (1 : Fin 2) = 0
    ∧ win2_7.index t (0 : Fin 2) = t.val ∧ win2_7.index t (1 : Fin 2) = 0 :=
  (by decide +kernel : ∀ t : Fin grid2.N, _)
theorem idx_whole2_1 : ∀ t : Fin cfg2.N, win2_1.index t (0 : Fin 2) = 0 ∧ win2_1.index t (1 : Fin 2) = 0 :=
  (by decide +kernel : ∀ t : Fin grid2.N, _)
theorem idx_whole2_2 : ∀ t : Fin cfg2.N, win2_2.index t (0 : Fin 2) = 0 ∧ win2_2.index t (1 : Fin 2) = 0 :=
  (by decide +kernel : ∀ t : Fin grid2.N, _)
theorem idx_whole2_3 : ∀ t : Fin cfg2.N, win2_3.index t (0 : Fin 2) = 0 ∧ win2_3.index t (1 : Fin 2) = 0 :=
  (by decide +kernel : ∀ t : Fin grid2.N, _)
theorem idx_whole2_4 : ∀ t : Fin cfg2.N, win2_4.index t (0 : Fin 2) = 0 ∧ win2_4.index t (1 : Fin 2) = 0 :=
  (by decide +kernel : ∀ t : Fin grid2.N, _)
theorem idx_whole2_5 : ∀ t : Fin cfg2.N, win2_5.index t (0 : Fin 2) = 0 ∧ win2_5.index t (1 : Fin 2) = 0 :=
  (by decide +kernel : ∀ t : Fin grid2.N, _)
theorem idx_whole2_6 : ∀ t : Fin cfg2.N, win2_6.index t (0 : Fin 2) = 0 ∧ win2_6.index t (1 : Fin 2) = 0 :=
  (by decide +kernel : ∀ t : Fin grid2.N, _)
theorem idx_stats2 : ∀ t : Fin cfg2.N, win2_8.index t (0 : Fin 3) = t.val / 16 ∧ win2_8.index t (1 : Fin 3) = 0 ∧ win2_8.index t (2 : Fin 3) = 0
    ∧ win2_9.index t (0 : Fin 3) = t.val / 16 ∧ win2_9.index t (1 : Fin 3) = 0 ∧ win2_9.index t (2 : Fin 3) = 0 :=
  (by decide +kernel : ∀ t : Fin grid2.N, _)

/-! ## The loaded blocks at an index -/

theorem iblk2_0_apply (c : Dev nD) (t : Fin cfg2.N) (r : Fin 512) (k : Fin 1024) (i : Fin 16384) (hi : i.val = 512 * t.val + r.val) :
    iblk2 V c 0 t (ix2 r k) = V c main_v83_0 (ix2 i k) := by
  obtain ⟨e0, e1, -, -⟩ := idx_rows2 t
  unfold iblk2
  rw [View.read_apply]
  show V c main_v83_0 _ = V c main_v83_0 _
  congr 1
  funext x
  apply Fin.ext
  match x with
  | ⟨0, _⟩ => show win2_0.index t (0 : Fin 2) * 512 + 1 * r.val = i.val; rw [e0]; omega
  | ⟨1, _⟩ => show win2_0.index t (1 : Fin 2) * 1024 + 1 * k.val = k.val; rw [e1]; omega

theorem iblk2_1_apply (c : Dev nD) (t : Fin cfg2.N) (a : Fin 1) (b : Fin 1024) :
    iblk2 V c 1 t (ix2 a b) = V c main_v91 (ix2 a b) := by
  obtain ⟨e0, e1⟩ := idx_whole2_1 t
  unfold iblk2
  rw [View.read_apply]
  show V c main_v91 _ = V c main_v91 _
  congr 1
  funext x
  apply Fin.ext
  match x with
  | ⟨0, _⟩ => show win2_1.index t (0 : Fin 2) * 1 + 1 * a.val = a.val; rw [e0]; omega
  | ⟨1, _⟩ => show win2_1.index t (1 : Fin 2) * 1024 + 1 * b.val = b.val; rw [e1]; omega

theorem iblk2_2_apply (c : Dev nD) (t : Fin cfg2.N) (a : Fin 1) (b : Fin 1024) :
    iblk2 V c 2 t (ix2 a b) = V c main_v100 (ix2 a b) := by
  obtain ⟨e0, e1⟩ := idx_whole2_2 t
  unfold iblk2
  rw [View.read_apply]
  show V c main_v100 _ = V c main_v100 _
  congr 1
  funext x
  apply Fin.ext
  match x with
  | ⟨0, _⟩ => show win2_2.index t (0 : Fin 2) * 1 + 1 * a.val = a.val; rw [e0]; omega
  | ⟨1, _⟩ => show win2_2.index t (1 : Fin 2) * 1024 + 1 * b.val = b.val; rw [e1]; omega

theorem iblk2_3_apply (c : Dev nD) (t : Fin cfg2.N) (a : Fin 1) (b : Fin 1024) :
    iblk2 V c 3 t (ix2 a b) = V c main_v59 (ix2 a b) := by
  obtain ⟨e0, e1⟩ := idx_whole2_3 t
  unfold iblk2
  rw [View.read_apply]
  show V c main_v59 _ = V c main_v59 _
  congr 1
  funext x
  apply Fin.ext
  match x with
  | ⟨0, _⟩ => show win2_3.index t (0 : Fin 2) * 1 + 1 * a.val = a.val; rw [e0]; omega
  | ⟨1, _⟩ => show win2_3.index t (1 : Fin 2) * 1024 + 1 * b.val = b.val; rw [e1]; omega

theorem iblk2_4_apply (c : Dev nD) (t : Fin cfg2.N) (a : Fin 1) (b : Fin 1024) :
    iblk2 V c 4 t (ix2 a b) = V c main_v60 (ix2 a b) := by
  obtain ⟨e0, e1⟩ := idx_whole2_4 t
  unfold iblk2
  rw [View.read_apply]
  show V c main_v60 _ = V c main_v60 _
  congr 1
  funext x
  apply Fin.ext
  match x with
  | ⟨0, _⟩ => show win2_4.index t (0 : Fin 2) * 1 + 1 * a.val = a.val; rw [e0]; omega
  | ⟨1, _⟩ => show win2_4.index t (1 : Fin 2) * 1024 + 1 * b.val = b.val; rw [e1]; omega

theorem iblk2_5_apply (c : Dev nD) (t : Fin cfg2.N) (a : Fin 1024) (b : Fin 1024) :
    iblk2 V c 5 t (ix2 a b) = V c main_v29 (ix2 a b) := by
  obtain ⟨e0, e1⟩ := idx_whole2_5 t
  unfold iblk2
  rw [View.read_apply]
  show V c main_v29 _ = V c main_v29 _
  congr 1
  funext x
  apply Fin.ext
  match x with
  | ⟨0, _⟩ => show win2_5.index t (0 : Fin 2) * 1024 + 1 * a.val = a.val; rw [e0]; omega
  | ⟨1, _⟩ => show win2_5.index t (1 : Fin 2) * 1024 + 1 * b.val = b.val; rw [e1]; omega

theorem iblk2_6_apply (c : Dev nD) (t : Fin cfg2.N) (a : Fin 1) (b : Fin 1024) :
    iblk2 V c 6 t (ix2 a b) = V c main_v55 (ix2 a b) := by
  obtain ⟨e0, e1⟩ := idx_whole2_6 t
  unfold iblk2
  rw [View.read_apply]
  show V c main_v55 _ = V c main_v55 _
  congr 1
  funext x
  apply Fin.ext
  match x with
  | ⟨0, _⟩ => show win2_6.index t (0 : Fin 2) * 1 + 1 * a.val = a.val; rw [e0]; omega
  | ⟨1, _⟩ => show win2_6.index t (1 : Fin 2) * 1024 + 1 * b.val = b.val; rw [e1]; omega

/-- The block of pre-activations point t computes. -/
def blk2 (c : Dev nD) (t : Fin cfg2.N) : FVec Ideal S512x1024 .f32 :=
  k2_pay7 (F := Ideal) (iblk2 V c 0 t) (iblk2 V c 3 t) (iblk2 V c 1 t) (iblk2 V c 2 t) (iblk2 V c 4 t) (iblk2 V c 5 t) (iblk2 V c 6 t)

/-- Row r of the block at point t is row 512 t + r of the layer's pre-activation. -/
theorem blk2_apply (c : Dev nD) (t : Fin cfg2.N) (r : Fin 512) (j : Fin 1024) (i : Fin 16384) (hi : i.val = 512 * t.val + r.val) :
    blk2 V c t (ix2 r j) = H2 V c i j := by
  unfold blk2
  refine (pay7_r2_apply (iblk2 V c 0 t) (iblk2 V c 3 t) (iblk2 V c 1 t) (iblk2 V c 2 t) (iblk2 V c 4 t) (iblk2 V c 5 t) (iblk2 V c 6 t) r j).trans ?_
  unfold H2 bnLin bnAct
  simp only [iblk2_0_apply V c t r _ i hi, iblk2_1_apply, iblk2_2_apply, iblk2_3_apply, iblk2_4_apply, iblk2_5_apply, iblk2_6_apply]

end Cert.KernelIdeal.Vals

end
-- ==== Proof.R2ValTotals.lean ====
import proofs.«157065_j74259984548393_2_alg».proof.Proof.R2ValBlocks

set_option maxRecDepth 16384

/-!
  Launch 2: what the buffers hold after each grid point. The block output is the block of
  pre-activations; each running total, cleared at the first point of a half and grown by every
  point, is after point n the sum of the column sums of the half's blocks up to n; at the last point
  of a half the statistics outputs receive the completed totals.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The column sums of the block at point n (zero beyond the grid). -/
def colS2 (c : Dev nD) (j : Fin 1024) (n : ℕ) : EReal :=
  if h : n < cfg2.N then ∑ r : Fin 512, blk2 V c ⟨n, h⟩ (ix2 r j) else 0
/-- The column sums of the squares of the block at point n (zero beyond the grid). -/
def colQ2 (c : Dev nD) (j : Fin 1024) (n : ℕ) : EReal :=
  if h : n < cfg2.N then ∑ r : Fin 512, blk2 V c ⟨n, h⟩ (ix2 r j) * blk2 V c ⟨n, h⟩ (ix2 r j) else 0

/-- Every point leaves its block of pre-activations in the block output. -/
theorem outs2_7 (c : Dev nD) (t : Fin cfg2.N) : (outsAt2 V c t.val t.isLt).1 = blk2 V c t := by
  by_cases h0 : t.val % 16 = 0
  · have h1 : ¬t.val % 16 = 15 := by omega
    rw [outsAt2_A V c t h0 h1]
    dsimp only
    exact out2_A_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)
  · by_cases h1 : t.val % 16 = 15
    · rw [outsAt2_C V c t h0 h1]
      dsimp only
      exact out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]
      dsimp only
      exact out2_B_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- At the first point of a half the first running total is the block's column sums. -/
theorem tot2_0_A (c : Dev nD) (t : Fin cfg2.N) (h0 : t.val % 16 = 0) (j : Fin 1024) :
    (outsAt2 V c t.val t.isLt).2.2.2.1 (ix2 (0 : Fin 1) j) = colS2 V c j t.val := by
  have h1 : ¬t.val % 16 = 15 := by omega
  rw [outsAt2_A V c t h0 h1]
  dsimp only
  refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 (0 : Fin 1) j)).trans ?_
  refine (pay1_r2_apply _ _ j).trans ?_
  rw [pay5_r2_apply, zero_add]
  unfold colS2
  rw [dif_pos t.isLt]
  rfl

/-- At every other point it grows by the block's column sums. -/
theorem tot2_0_step (c : Dev nD) (t : Fin cfg2.N) (h0 : ¬t.val % 16 = 0) (j : Fin 1024) :
    (outsAt2 V c t.val t.isLt).2.2.2.1 (ix2 (0 : Fin 1) j)
      = (outsAt2 V c (t.val - 1) (Nat.lt_of_le_of_lt (Nat.sub_le _ _) t.isLt)).2.2.2.1 (ix2 (0 : Fin 1) j) + colS2 V c j t.val := by
  have hcol : colS2 V c j t.val = ∑ r : Fin 512, blk2 V c t (ix2 r j) := by
    unfold colS2
    rw [dif_pos t.isLt]
  rw [hcol]
  by_cases h1 : t.val % 16 = 15
  · rw [outsAt2_C V c t h0 h1]
    dsimp only
    refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) j)).trans ?_
    exact pay1_r2_apply _ _ j
  · rw [outsAt2_B V c t h0 h1]
    dsimp only
    refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) j)).trans ?_
    exact pay1_r2_apply _ _ j

/-- So after point n the total is the sum of the column sums of the half's blocks up to n. -/
theorem tot2_0_eq (c : Dev nD) (j : Fin 1024) : ∀ (n : ℕ) (hn : n < cfg2.N),
    (outsAt2 V c n hn).2.2.2.1 (ix2 (0 : Fin 1) j) = ∑ t' ∈ Finset.range (n % 16 + 1), colS2 V c j (16 * (n / 16) + t')
  | 0, hn => by
    rw [tot2_0_A V c ⟨0, hn⟩ rfl j]
    simp
  | n + 1, hn => by
    by_cases h0 : (n + 1) % 16 = 0
    · rw [tot2_0_A V c ⟨n + 1, hn⟩ h0 j, h0, Finset.sum_range_one]
      congr 1
      dsimp only
      omega
    · rw [tot2_0_step V c ⟨n + 1, hn⟩ h0 j]
      show (outsAt2 V c n _).2.2.2.1 (ix2 (0 : Fin 1) j) + _ = _
      rw [tot2_0_eq c j n (Nat.lt_of_succ_lt hn)]
      have e1 : (n + 1) / 16 = n / 16 := by omega
      have e2 : (n + 1) % 16 = n % 16 + 1 := by omega
      rw [e1, e2, Finset.sum_range_succ _ (n % 16 + 1)]
      congr 2
      dsimp only
      omega

/-- At the first point of a half the second running total is the block's column sums of squares. -/
theorem tot2_1_A (c : Dev nD) (t : Fin cfg2.N) (h0 : t.val % 16 = 0) (j : Fin 1024) :
    (outsAt2 V c t.val t.isLt).2.2.2.2 (ix2 (0 : Fin 1) j) = colQ2 V c j t.val := by
  have h1 : ¬t.val % 16 = 15 := by omega
  rw [outsAt2_A V c t h0 h1]
  dsimp only
  refine (congrFun (sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 (0 : Fin 1) j)).trans ?_
  refine (pay2_r2_apply _ _ j).trans ?_
  rw [pay6_r2_apply, zero_add]
  unfold colQ2
  rw [dif_pos t.isLt]
  rfl

/-- At every other point it grows by the block's column sums of squares. -/
theorem tot2_1_step (c : Dev nD) (t : Fin cfg2.N) (h0 : ¬t.val % 16 = 0) (j : Fin 1024) :
    (outsAt2 V c t.val t.isLt).2.2.2.2 (ix2 (0 : Fin 1) j)
      = (outsAt2 V c (t.val - 1) (Nat.lt_of_le_of_lt (Nat.sub_le _ _) t.isLt)).2.2.2.2 (ix2 (0 : Fin 1) j) + colQ2 V c j t.val := by
  have hcol : colQ2 V c j t.val = ∑ r : Fin 512, blk2 V c t (ix2 r j) * blk2 V c t (ix2 r j) := by
    unfold colQ2
    rw [dif_pos t.isLt]
  rw [hcol]
  by_cases h1 : t.val % 16 = 15
  · rw [outsAt2_C V c t h0 h1]
    dsimp only
    refine (congrFun (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) j)).trans ?_
    exact pay2_r2_apply _ _ j
  · rw [outsAt2_B V c t h0 h1]
    dsimp only
    refine (congrFun (sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) j)).trans ?_
    exact pay2_r2_apply _ _ j

/-- So after point n the total is the sum of the column sums of squares of the half's blocks up to n. -/
theorem tot2_1_eq (c : Dev nD) (j : Fin 1024) : ∀ (n : ℕ) (hn : n < cfg2.N),
    (outsAt2 V c n hn).2.2.2.2 (ix2 (0 : Fin 1) j) = ∑ t' ∈ Finset.range (n % 16 + 1), colQ2 V c j (16 * (n / 16) + t')
  | 0, hn => by
    rw [tot2_1_A V c ⟨0, hn⟩ rfl j]
    simp
  | n + 1, hn => by
    by_cases h0 : (n + 1) % 16 = 0
    · rw [tot2_1_A V c ⟨n + 1, hn⟩ h0 j, h0, Finset.sum_range_one]
      congr 1
      dsimp only
      omega
    · rw [tot2_1_step V c ⟨n + 1, hn⟩ h0 j]
      show (outsAt2 V c n _).2.2.2.2 (ix2 (0 : Fin 1) j) + _ = _
      rw [tot2_1_eq c j n (Nat.lt_of_succ_lt hn)]
      have e1 : (n + 1) / 16 = n / 16 := by omega
      have e2 : (n + 1) % 16 = n % 16 + 1 := by omega
      rw [e1, e2, Finset.sum_range_succ _ (n % 16 + 1)]
      congr 2
      dsimp only
      omega

/-- At the last point of a half the first statistics output receives the completed first total … -/
theorem outs2_8 (c : Dev nD) (t : Fin cfg2.N) (h1 : t.val % 16 = 15) (j : Fin 1024) :
    (outsAt2 V c t.val t.isLt).2.1 (ix3 (0 : Fin 1) (0 : Fin 1) j) = (outsAt2 V c t.val t.isLt).2.2.2.1 (ix2 (0 : Fin 1) j) := by
  have h0 : ¬t.val % 16 = 0 := by omega
  rw [outsAt2_C V c t h0 h1]
  dsimp only
  refine (congrFun (out2_C_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix3 (0 : Fin 1) (0 : Fin 1) j)).trans ?_
  refine (pay3_r2_apply _ j).trans ?_
  exact (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) j)).symm

/-- … and the second one the completed second total. -/
theorem outs2_9 (c : Dev nD) (t : Fin cfg2.N) (h1 : t.val % 16 = 15) (j : Fin 1024) :
    (outsAt2 V c t.val t.isLt).2.2.1 (ix3 (0 : Fin 1) (0 : Fin 1) j) = (outsAt2 V c t.val t.isLt).2.2.2.2 (ix2 (0 : Fin 1) j) := by
  have h0 : ¬t.val % 16 = 0 := by omega
  rw [outsAt2_C V c t h0 h1]
  dsimp only
  refine (congrFun (out2_C_9_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix3 (0 : Fin 1) (0 : Fin 1) j)).trans ?_
  refine (pay4_r2_apply _ j).trans ?_
  exact (congrFun (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) j)).symm

end Cert.KernelIdeal.Vals

end
-- ==== Proof.R2Val.lean ====
import proofs.«157065_j74259984548393_2_alg».proof.Proof.R2ValTotals
import proofs.«157065_j74259984548393_2_alg».proof.Proof.Gen.KernelIdeal.Points

set_option maxRecDepth 16384

/-!
  Launch 2: its three output arrays after the launch, as functions of the arrays it found. The
  block output's 32 blocks of 512 rows tile the pre-activation array; each statistics array has one
  [1,1,1024] block per half of the grid, written back at the half's last point, holding the column
  totals over the half's 16 blocks.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The pre-activation array -/

/-- The pre-activation array, entry by entry. -/
def G2_7 (c : Dev nD) : S16384x1024.Idx → EReal := fun i => H2 V c (i 0) (i 1)

theorem blk2_row (c : Dev nD) (t : Fin cfg2.N) (y : S512x1024.Idx) (i : Fin 16384) (j : Fin 1024)
    (hi : i.val = 512 * t.val + (y 0).val) (hj : j.val = (y 1).val) : blk2 V c t y = H2 V c i j := by
  obtain ⟨r, k, rfl⟩ : ∃ (r : Fin 512) (k : Fin 1024), y = ix2 r k := ⟨y 0, y 1, eq_ix2 y⟩
  obtain rfl : j = k := Fin.ext hj
  exact blk2_apply V c t r j i hi

/-- What point t writes back is block t of the pre-activation array. -/
theorem flushed2_7 (c : Dev nD) (t : Fin cfg2.N) (hf : (cfg2.win 7).flush t = true) :
    (dat2 (F := Ideal) V c).flushed 7 t = ((cfg2.win 7).blk t).view.read (Elt Ideal) (G2_7 V c) := by
  have hN : grid2.N = 32 := N_2
  have ht : t.val < grid2.N := t.isLt
  show (cfg2.win 7).cut (grid2.coords t) ((dat2 (F := Ideal) V c).after 7 t) = _
  rw [after2_7, outs2_7]
  obtain ⟨-, -, e0, e1⟩ := idx_rows2 t
  funext y
  have hy0 : (y 0).val < 512 := (y 0).isLt
  have hy1 : (y 1).val < 1024 := (y 1).isLt
  show blk2 V c t y = H2 V c ((((cfg2.win 7).blk t).view.emb y) 0) ((((cfg2.win 7).blk t).view.emb y) 1)
  refine blk2_row V c t y _ _ ?_ ?_
  · show win2_7.index t (0 : Fin 2) * 512 + 1 * (y 0).val = 512 * t.val + (y 0).val
    rw [e0]; omega
  · show win2_7.index t (1 : Fin 2) * 1024 + 1 * (y 1).val = (y 1).val
    rw [e1]; omega

theorem mem_blk2_7 (t : Fin cfg2.N) (i : S16384x1024.Idx) :
    i ∈ ((cfg2.win 7).blk t).view.set ↔ ∀ a : Fin 2, win2_7.index t a * S512x1024.size a ≤ (i a).val ∧ (i a).val < win2_7.index t a * S512x1024.size a + S512x1024.size a := by
  show i ∈ ((View.whole main_v101_0).slice (win2_7.rect t)).set ↔ _
  rw [View.set_slice_whole, Rect.mem_set_unit]
  exact Iff.rfl

theorem final2_7 (c : Dev nD) : (dat2 (F := Ideal) V c).arrAt 7 cfg2.N = G2_7 V c :=
  (dat2 (F := Ideal) V c).arrAt_eq_of_cover 7 (G2_7 V c) (flushed2_7 V c) fun i => by
    have hN : grid2.N = 32 := N_2
    have hi0 : (i 0).val < 16384 := (i 0).isLt
    have hi1 : (i 1).val < 1024 := (i 1).isLt
    refine ⟨⟨(i 0).val / 512, by show _ < grid2.N; omega⟩, flush2_7 _, ?_⟩
    rw [mem_blk2_7]
    obtain ⟨-, -, e0, e1⟩ := idx_rows2 ⟨(i 0).val / 512, by show _ < grid2.N; omega⟩
    intro a
    match a with
    | ⟨0, _⟩ => show win2_7.index _ (0 : Fin 2) * 512 ≤ (i 0).val ∧ (i 0).val < win2_7.index _ (0 : Fin 2) * 512 + 512; rw [e0]; dsimp only; omega
    | ⟨1, _⟩ => show win2_7.index _ (1 : Fin 2) * 1024 ≤ (i 1).val ∧ (i 1).val < win2_7.index _ (1 : Fin 2) * 1024 + 1024; rw [e1]; omega

/-! ## The two statistics arrays -/

/-- The first statistics array, entry by entry: the column total over a half's 16 blocks of 512 rows. -/
def G2_8 (c : Dev nD) : S2x1x1024.Idx → EReal :=
  fun i => ∑ t' : Fin 16, ∑ r : Fin 512, H2 V c (Cert.Spec.rowOf (i 0) t' r) (i 2)

theorem half_sum2_0 (c : Dev nD) (h : Fin 2) (j : Fin 1024) :
    ∑ t' ∈ Finset.range 16, colS2 V c j (16 * h.val + t') = ∑ t' : Fin 16, ∑ r : Fin 512, H2 V c (Cert.Spec.rowOf h t' r) j := by
  rw [Finset.sum_range]
  refine Finset.sum_congr rfl fun t' _ => ?_
  have hlt : 16 * h.val + t'.val < cfg2.N := by
    have := N_2
    show _ < grid2.N
    omega
  unfold colS2
  rw [dif_pos hlt]
  refine Finset.sum_congr rfl fun r _ => ?_
  rw [blk2_apply V c ⟨_, hlt⟩ r j (Cert.Spec.rowOf h t' r) rfl]

theorem outs2_8_idx (c : Dev nD) (t : Fin cfg2.N) (h1 : t.val % 16 = 15) (y : S1x1x1024.Idx) :
    (outsAt2 V c t.val t.isLt).2.1 y = ∑ t' ∈ Finset.range 16, colS2 V c (y 2) (16 * (t.val / 16) + t') := by
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  refine (outs2_8 V c t h1 j).trans ?_
  rw [tot2_0_eq V c j t.val t.isLt, h1]

/-- What a half's last point writes back to the first statistics array is that half's entry of it. -/
theorem flushed2_8 (c : Dev nD) (t : Fin cfg2.N) (hf : (cfg2.win 8).flush t = true) :
    (dat2 (F := Ideal) V c).flushed 8 t = ((cfg2.win 8).blk t).view.read (Elt Ideal) (G2_8 V c) := by
  have h15 : t.val % 16 = 15 := (flush2_8 t).mp hf
  have hN : grid2.N = 32 := N_2
  have ht : t.val < grid2.N := t.isLt
  show (cfg2.win 8).cut (grid2.coords t) ((dat2 (F := Ideal) V c).after 8 t) = _
  rw [after2_8]
  obtain ⟨e0, e1, e2, -, -, -⟩ := idx_stats2 t
  funext y
  have hy0 : (y 0).val < 1 := (y 0).isLt
  have hh : (((cfg2.win 8).blk t).view.emb y) 0 = (⟨t.val / 16, by omega⟩ : Fin 2) :=
    Fin.ext (by show win2_8.index t (0 : Fin 3) * 1 + 1 * (y 0).val = t.val / 16; rw [e0]; omega)
  have hj : (((cfg2.win 8).blk t).view.emb y) 2 = y 2 :=
    Fin.ext (by show win2_8.index t (2 : Fin 3) * 1024 + 1 * (y 2).val = (y 2).val; rw [e2]; omega)
  refine (outs2_8_idx V c t h15 y).trans ?_
  show _ = G2_8 V c (((cfg2.win 8).blk t).view.emb y)
  unfold G2_8
  rw [hh, hj]
  exact half_sum2_0 V c ⟨t.val / 16, by omega⟩ (y 2)

theorem mem_blk2_8 (t : Fin cfg2.N) (i : S2x1x1024.Idx) :
    i ∈ ((cfg2.win 8).blk t).view.set ↔ ∀ a : Fin 3, win2_8.index t a * S1x1x1024.size a ≤ (i a).val ∧ (i a).val < win2_8.index t a * S1x1x1024.size a + S1x1x1024.size a := by
  show i ∈ ((View.whole main_v101_1).slice (win2_8.rect t)).set ↔ _
  rw [View.set_slice_whole, Rect.mem_set_unit]
  exact Iff.rfl

theorem final2_8 (c : Dev nD) : (dat2 (F := Ideal) V c).arrAt 8 cfg2.N = G2_8 V c :=
  (dat2 (F := Ideal) V c).arrAt_eq_of_cover 8 (G2_8 V c) (flushed2_8 V c) fun i => by
    have hN : grid2.N = 32 := N_2
    have hi0 : (i 0).val < 2 := (i 0).isLt
    have hi1 : (i 1).val < 1 := (i 1).isLt
    have hi2 : (i 2).val < 1024 := (i 2).isLt
    refine ⟨⟨16 * (i 0).val + 15, by show _ < grid2.N; omega⟩, (flush2_8 _).mpr (by dsimp only; omega), ?_⟩
    rw [mem_blk2_8]
    obtain ⟨e0, e1, e2, -, -, -⟩ := idx_stats2 ⟨16 * (i 0).val + 15, by show _ < grid2.N; omega⟩
    intro a
    match a with
    | ⟨0, _⟩ => show win2_8.index _ (0 : Fin 3) * 1 ≤ (i 0).val ∧ (i 0).val < win2_8.index _ (0 : Fin 3) * 1 + 1; rw [e0]; dsimp only; omega
    | ⟨1, _⟩ => show win2_8.index _ (1 : Fin 3) * 1 ≤ (i 1).val ∧ (i 1).val < win2_8.index _ (1 : Fin 3) * 1 + 1; rw [e1]; omega
    | ⟨2, _⟩ => show win2_8.index _ (2 : Fin 3) * 1024 ≤ (i 2).val ∧ (i 2).val < win2_8.index _ (2 : Fin 3) * 1024 + 1024; rw [e2]; omega

/-- The second statistics array, entry by entry: the column total of squares over a half's 16 blocks of 512 rows. -/
def G2_9 (c : Dev nD) : S2x1x1024.Idx → EReal :=
  fun i => ∑ t' : Fin 16, ∑ r : Fin 512, H2 V c (Cert.Spec.rowOf (i 0) t' r) (i 2) * H2 V c (Cert.Spec.rowOf (i 0) t' r) (i 2)

theorem half_sum2_1 (c : Dev nD) (h : Fin 2) (j : Fin 1024) :
    ∑ t' ∈ Finset.range 16, colQ2 V c j (16 * h.val + t') = ∑ t' : Fin 16, ∑ r : Fin 512, H2 V c (Cert.Spec.rowOf h t' r) j * H2 V c (Cert.Spec.rowOf h t' r) j := by
  rw [Finset.sum_range]
  refine Finset.sum_congr rfl fun t' _ => ?_
  have hlt : 16 * h.val + t'.val < cfg2.N := by
    have := N_2
    show _ < grid2.N
    omega
  unfold colQ2
  rw [dif_pos hlt]
  refine Finset.sum_congr rfl fun r _ => ?_
  rw [blk2_apply V c ⟨_, hlt⟩ r j (Cert.Spec.rowOf h t' r) rfl]

theorem outs2_9_idx (c : Dev nD) (t : Fin cfg2.N) (h1 : t.val % 16 = 15) (y : S1x1x1024.Idx) :
    (outsAt2 V c t.val t.isLt).2.2.1 y = ∑ t' ∈ Finset.range 16, colQ2 V c (y 2) (16 * (t.val / 16) + t') := by
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  refine (outs2_9 V c t h1 j).trans ?_
  rw [tot2_1_eq V c j t.val t.isLt, h1]

/-- What a half's last point writes back to the second statistics array is that half's entry of it. -/
theorem flushed2_9 (c : Dev nD) (t : Fin cfg2.N) (hf : (cfg2.win 9).flush t = true) :
    (dat2 (F := Ideal) V c).flushed 9 t = ((cfg2.win 9).blk t).view.read (Elt Ideal) (G2_9 V c) := by
  have h15 : t.val % 16 = 15 := (flush2_9 t).mp hf
  have hN : grid2.N = 32 := N_2
  have ht : t.val < grid2.N := t.isLt
  show (cfg2.win 9).cut (grid2.coords t) ((dat2 (F := Ideal) V c).after 9 t) = _
  rw [after2_9]
  obtain ⟨-, -, -, e0, e1, e2⟩ := idx_stats2 t
  funext y
  have hy0 : (y 0).val < 1 := (y 0).isLt
  have hh : (((cfg2.win 9).blk t).view.emb y) 0 = (⟨t.val / 16, by omega⟩ : Fin 2) :=
    Fin.ext (by show win2_9.index t (0 : Fin 3) * 1 + 1 * (y 0).val = t.val / 16; rw [e0]; omega)
  have hj : (((cfg2.win 9).blk t).view.emb y) 2 = y 2 :=
    Fin.ext (by show win2_9.index t (2 : Fin 3) * 1024 + 1 * (y 2).val = (y 2).val; rw [e2]; omega)
  refine (outs2_9_idx V c t h15 y).trans ?_
  show _ = G2_9 V c (((cfg2.win 9).blk t).view.emb y)
  unfold G2_9
  rw [hh, hj]
  exact half_sum2_1 V c ⟨t.val / 16, by omega⟩ (y 2)

theorem mem_blk2_9 (t : Fin cfg2.N) (i : S2x1x1024.Idx) :
    i ∈ ((cfg2.win 9).blk t).view.set ↔ ∀ a : Fin 3, win2_9.index t a * S1x1x1024.size a ≤ (i a).val ∧ (i a).val < win2_9.index t a * S1x1x1024.size a + S1x1x1024.size a := by
  show i ∈ ((View.whole main_v101_2).slice (win2_9.rect t)).set ↔ _
  rw [View.set_slice_whole, Rect.mem_set_unit]
  exact Iff.rfl

theorem final2_9 (c : Dev nD) : (dat2 (F := Ideal) V c).arrAt 9 cfg2.N = G2_9 V c :=
  (dat2 (F := Ideal) V c).arrAt_eq_of_cover 9 (G2_9 V c) (flushed2_9 V c) fun i => by
    have hN : grid2.N = 32 := N_2
    have hi0 : (i 0).val < 2 := (i 0).isLt
    have hi1 : (i 1).val < 1 := (i 1).isLt
    have hi2 : (i 2).val < 1024 := (i 2).isLt
    refine ⟨⟨16 * (i 0).val + 15, by show _ < grid2.N; omega⟩, (flush2_9 _).mpr (by dsimp only; omega), ?_⟩
    rw [mem_blk2_9]
    obtain ⟨-, -, -, e0, e1, e2⟩ := idx_stats2 ⟨16 * (i 0).val + 15, by show _ < grid2.N; omega⟩
    intro a
    match a with
    | ⟨0, _⟩ => show win2_9.index _ (0 : Fin 3) * 1 ≤ (i 0).val ∧ (i 0).val < win2_9.index _ (0 : Fin 3) * 1 + 1; rw [e0]; dsimp only; omega
    | ⟨1, _⟩ => show win2_9.index _ (1 : Fin 3) * 1 ≤ (i 1).val ∧ (i 1).val < win2_9.index _ (1 : Fin 3) * 1 + 1; rw [e1]; omega
    | ⟨2, _⟩ => show win2_9.index _ (2 : Fin 3) * 1024 ≤ (i 2).val ∧ (i 2).val < win2_9.index _ (2 : Fin 3) * 1024 + 1024; rw [e2]; omega

/-! ## The launch's outputs -/

theorem r2_h (c : Dev nD) (i : Fin 16384) (j : Fin 1024) :
    (dat2 (F := Ideal) V c).arrAt 7 cfg2.N (ix2 i j) = H2 V c i j :=
  congrFun (final2_7 V c) (ix2 i j)

theorem r2_s (c : Dev nD) (h : Fin 2) (j : Fin 1024) :
    (dat2 (F := Ideal) V c).arrAt 8 cfg2.N (ix3 h (0 : Fin 1) j) = ∑ t : Fin 16, ∑ r : Fin 512, H2 V c (Cert.Spec.rowOf h t r) j :=
  congrFun (final2_8 V c) (ix3 h (0 : Fin 1) j)

theorem r2_ss (c : Dev nD) (h : Fin 2) (j : Fin 1024) :
    (dat2 (F := Ideal) V c).arrAt 9 cfg2.N (ix3 h (0 : Fin 1) j) = ∑ t : Fin 16, ∑ r : Fin 512, H2 V c (Cert.Spec.rowOf h t r) j * H2 V c (Cert.Spec.rowOf h t r) j :=
  congrFun (final2_9 V c) (ix3 h (0 : Fin 1) j)

end Cert.KernelIdeal.Vals

end
-- ==== Proof.R3ValPieces.lean ====
import proofs.«157065_j74259984548393_2_alg».proof.Proof.R3Frame
import Idealize.ShloMosaic.Lib.ValueIdx
import Idealize.ShloMosaic.Lib.Pipeline.Value
import Idealize.ShloMosaic.PureOps.Ideal.Laws

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

/-!
  Launch 3: what each case of the body leaves in each buffer, as the body's arithmetic applied to the blocks
  it loaded. Every store of the body covers its whole buffer, so a buffer ends with the payload of the last
  store to it; a load that follows a store reads that store's payload back.
-/

variable {F : FTy → Type} [FloatOps F]

theorem zeroOff2_r3 : (![0, 0] : Fin 2 → Nat) = fun _ => 0 := funext fun a => by fin_cases a <;> rfl
theorem zeroOff3_r3 : (![0, 0, 0] : Fin 3 → Nat) = fun _ => 0 := funext fun a => by fin_cases a <;> rfl

/-- The block's pre-activation, at the first point of a half. -/
theorem out3_A_7_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    out3_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k3_pay7 x0 x3 x1 x2 x4 x5 x6 := by
  unfold out3_A_7
  rw [View.read_writes_eq_canon _ _ _ (cover3_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun3_A
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The first running total after the first point of a half: the cleared total plus the block's column sums. -/
theorem sout3_A_0_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    sout3_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k3_pay1 (k3_pay7 x0 x3 x1 x2 x4 x5 x6) k3_pay5 := by
  unfold sout3_A_0
  rw [View.read_writes_eq_canon _ _ _ (scover3_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun3_A
  dsimp only
  sl_unfold_words
  rw [View.canon_cons_unit_zero (S := S1x1024) zeroOff2_r3, View.readCov_unit_zero (S := S1x1024) _ zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The second running total after the first point of a half: the cleared total plus the column sums of the squares. -/
theorem sout3_A_1_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : cond3_0 i) (hc1 : ¬cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) :
    sout3_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k3_pay2 (k3_pay7 x0 x3 x1 x2 x4 x5 x6) k3_pay6 := by
  unfold sout3_A_1
  rw [View.read_writes_eq_canon _ _ _ (scover3_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun3_A
  dsimp only
  sl_unfold_words
  rw [View.canon_cons_unit_zero (S := S1x1024) zeroOff2_r3, View.readCov_unit_zero (S := S1x1024) _ zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The block's pre-activation, at a middle point. -/
theorem out3_B_7_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out3_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay7 x0 x3 x1 x2 x4 x5 x6 := by
  unfold out3_B_7
  rw [View.read_writes_eq_canon _ _ _ (cover3_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_B
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The first running total after a middle point: the carried total plus the block's column sums. -/
theorem sout3_B_0_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout3_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay1 (k3_pay7 x0 x3 x1 x2 x4 x5 x6) xs0 := by
  unfold sout3_B_0
  rw [View.read_writes_eq_canon _ _ _ (scover3_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_B
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The second running total after a middle point. -/
theorem sout3_B_1_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : ¬cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout3_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay2 (k3_pay7 x0 x3 x1 x2 x4 x5 x6) xs1 := by
  unfold sout3_B_1
  rw [View.read_writes_eq_canon _ _ _ (scover3_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_B
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The block's pre-activation, at the last point of a half. -/
theorem out3_C_7_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out3_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay7 x0 x3 x1 x2 x4 x5 x6 := by
  unfold out3_C_7
  rw [View.read_writes_eq_canon _ _ _ (cover3_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_C
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The first running total after the last point of a half. -/
theorem sout3_C_0_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout3_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay1 (k3_pay7 x0 x3 x1 x2 x4 x5 x6) xs0 := by
  unfold sout3_C_0
  rw [View.read_writes_eq_canon _ _ _ (scover3_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_C
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The second running total after the last point of a half. -/
theorem sout3_C_1_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    sout3_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay2 (k3_pay7 x0 x3 x1 x2 x4 x5 x6) xs1 := by
  unfold sout3_C_1
  rw [View.read_writes_eq_canon _ _ _ (scover3_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_C
  dsimp only
  sl_unfold_words
  rw [View.canon_unit_zero zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The first statistics output at the last point of a half: the completed first total, as a [1,1,1024] block. -/
theorem out3_C_8_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out3_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay3 (k3_pay1 (k3_pay7 x0 x3 x1 x2 x4 x5 x6) xs0) := by
  unfold out3_C_8
  rw [View.read_writes_eq_canon _ _ _ (cover3_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_C
  dsimp only
  sl_unfold_words
  rw [View.canon_unit_zero zeroOff3_r3, View.readCov_unit_zero (S := S1x1024) _ zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

/-- The second statistics output at the last point of a half: the completed second total. -/
theorem out3_C_9_eq (c : Dev nD) (i : grid3.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (hc0 : ¬cond3_0 i) (hc1 : cond3_1 i) (x0 : Vec F S512x1024 .f32) (x1 : Vec F S1x1024 .f32) (x2 : Vec F S1x1024 .f32) (x3 : Vec F S1x1024 .f32) (x4 : Vec F S1x1024 .f32) (x5 : Vec F S1024x1024 .bf16) (x6 : Vec F S1x1024 .f32) (xs0 xs1 : Vec F S1x1024 .f32) :
    out3_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = k3_pay4 (k3_pay2 (k3_pay7 x0 x3 x1 x2 x4 x5 x6) xs1) := by
  unfold out3_C_9
  rw [View.read_writes_eq_canon _ _ _ (cover3_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1)]
  unfold kernelRun3_C
  dsimp only
  sl_unfold_words
  rw [View.canon_unit_zero zeroOff3_r3, View.readCov_unit_zero (S := S1x1024) _ zeroOff2_r3]
  simp only [View.readAt_eq_ld, harg2.read_unread, harg3.read_unread, harg4.read_unread, harg5.read_unread, harg6.read_unread, harg7.read_unread, harg8.read_unread, harg12.read_unread, harg13.read_unread, View.ld_unit_zero (S := S512x1024) zeroOff2_r3, View.ld_unit_zero (S := S1x1024) zeroOff2_r3, View.ld_unit_zero (S := S1024x1024) zeroOff2_r3]

end Cert.KernelIdeal.Vals

end
-- ==== Proof.R3ValPay.lean ====
import proofs.«157065_j74259984548393_2_alg».proof.Proof.R1ValOps

set_option maxRecDepth 16384

/-!
  Launch 3: the body's arithmetic read at an index, over the extended reals. The block's
  pre-activation is the normalised, scaled, shifted and rectified activation row against a column of
  the weights, plus the bias; the running totals grow by the block's column sums (of the entries, and
  of their squares); the statistics outputs are the totals laid out as [1,1,1024] blocks.
-/

noncomputable section

namespace Cert.KernelIdeal.Vals

open Cert.KernelIdeal Cert.KernelIdeal.Gen
open Idealize.ShloMosaic Idealize.ShloMosaic.TcCoe Idealize.ShloMosaic.ValueIdx
open Idealize.SL.Sem

/-- The block's pre-activation at row r, column j. -/
theorem pay7_r3_apply (v3 : Vec Ideal S512x1024 .f32) (v5 v7 v13 v17 : Vec Ideal S1x1024 .f32) (v24 : Vec Ideal S1024x1024 .bf16) (v27 : Vec Ideal S1x1024 .f32) (r : Fin 512) (j : Fin 1024) :
    k3_pay7 (F := Ideal) v3 v5 v7 v13 v17 v24 v27 (ix2 r j)
      = (∑ k : Fin 1024, max (v5 (ix2 (0 : Fin 1) k) * (v3 (ix2 r k) - v7 (ix2 (0 : Fin 1) k)) * v13 (ix2 (0 : Fin 1) k) + v17 (ix2 (0 : Fin 1) k)) 0 * v24 (ix2 k j)) + v27 (ix2 (0 : Fin 1) j) := by
  unfold k3_pay7
  simp only [shapeCast_self]
  refine (addf_apply _ _ (ix2 r j)).trans ?_
  refine congrArg₂ (· + ·) ?_ (bn_brow_apply v27 r j)
  refine (bn_dot_apply _ _ r j).trans ?_
  refine Finset.sum_congr rfl fun k _ => ?_
  refine congrArg (· * v24 (ix2 k j)) ?_
  refine (truncf_apply (ψ := .bf16) _ bitsLt_bf16_f32 (ix2 r k)).trans ?_
  refine (maximumf_apply _ _ (ix2 r k)).trans ?_
  refine congrArg₂ max ?_ Ideal.ofBits_zero_f32
  refine (addf_apply _ _ (ix2 r k)).trans ?_
  refine congrArg₂ (· + ·) ?_ (bn_brow_apply v17 r k)
  refine (mulf_apply _ _ (ix2 r k)).trans ?_
  refine congrArg₂ (· * ·) ?_ (bn_brow_apply v13 r k)
  refine (mulf_apply _ _ (ix2 r k)).trans ?_
  refine congrArg₂ (· * ·) (bn_brow_apply v5 r k) ?_
  refine (subf_apply _ _ (ix2 r k)).trans ?_
  exact congrArg (v3 (ix2 r k) - ·) (bn_brow_apply v7 r k)

/-- The first running total after a block: what it was plus the block's column sums. -/
theorem pay1_r3_apply (v30 : FVec Ideal S512x1024 .f32) (s : Vec Ideal S1x1024 .f32) (j : Fin 1024) :
    k3_pay1 (F := Ideal) v30 s (ix2 (0 : Fin 1) j) = s (ix2 (0 : Fin 1) j) + ∑ r : Fin 512, v30 (ix2 r j) := by
  unfold k3_pay1
  simp only [shapeCast_self]
  refine (addf_apply _ _ (ix2 (0 : Fin 1) j)).trans ?_
  exact congrArg (s (ix2 (0 : Fin 1) j) + ·) (bn_colsum_apply v30 j)

/-- The second running total after a block: what it was plus the column sums of the block's squares. -/
theorem pay2_r3_apply (v30 : FVec Ideal S512x1024 .f32) (s : Vec Ideal S1x1024 .f32) (j : Fin 1024) :
    k3_pay2 (F := Ideal) v30 s (ix2 (0 : Fin 1) j) = s (ix2 (0 : Fin 1) j) + ∑ r : Fin 512, v30 (ix2 r j) * v30 (ix2 r j) := by
  unfold k3_pay2
  simp only [shapeCast_self]
  refine (addf_apply _ _ (ix2 (0 : Fin 1) j)).trans ?_
  exact congrArg (s (ix2 (0 : Fin 1) j) + ·) (bn_colsum_apply (mulf v30 v30) j)

/-- The statistics outputs: the totals as [1,1,1024] blocks. -/
theorem pay3_r3_apply (v : Vec Ideal S1x1024 .f32) (j : Fin 1024) :
    k3_pay3 (F := Ideal) v (ix3 (0 : Fin 1) (0 : Fin 1) j) = v (ix2 (0 : Fin 1) j) := by
  unfold k3_pay3
  exact bn_cast3_apply v j
theorem pay4_r3_apply (v : Vec Ideal S1x1024 .f32) (j : Fin 1024) :
    k3_pay4 (F := Ideal) v (ix3 (0 : Fin 1) (0 : Fin 1) j) = v (ix2 (0 : Fin 1) j) := by
  unfold k3_pay4
  exact bn_cast3_apply v j

/-- The cleared totals are zero. -/
theorem pay5_r3_apply (j : Fin 1024) : k3_pay5 (F := Ideal) (ix2 (0 : Fin 1) j) = 0 := by
  unfold k3_pay5
  simp only [shapeCast_self]
  exact Ideal.ofBits_zero_f32
theorem pay6_r3_apply (j : Fin 1024) : k3_pay6 (F := Ideal) (ix2 (0 : Fin 1) j) = 0 := by
  unfold k3_pay6
  simp only [shapeCast_self]
  exact Ideal.ofBits_zero_f32

end Cert.KernelIdeal.Vals

end
-- ==== Proof.R3ValBlocks.lean ====
import proofs.«157065_j74259984548393_2_alg».proof.Proof.R3ValPieces
import proofs.«157065_j74259984548393_2_alg».proof.Proof.R3ValPay
import proofs.«157065_j74259984548393_2_alg».proof.Proof.Spec

set_option maxRecDepth 16384

/-!
  Launch 3: the blocks the body loads, read off the arrays the launch finds, and the block of
  pre-activations a grid point computes as rows of one function of those arrays: row r of the block
  at point t is row 512 t + r of the whole pre-activation.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The rectified, normalised activation of row i, feature k, from the arrays the launch finds. -/
def act3 (c : Dev nD) (i : Fin 16384) (k : Fin 1024) : EReal :=
  bnAct (V c main_v101_0) (V c main_v109) (V c main_v118) (V c main_v61) (V c main_v62) i k

/-- The layer's pre-activation of row i, column j, from the arrays the launch finds. -/
def H3 (c : Dev nD) (i : Fin 16384) (j : Fin 1024) : EReal :=
  bnLin (V c main_v101_0) (V c main_v109) (V c main_v118) (V c main_v61) (V c main_v62) (V c main_v39) (V c main_v56) i j

theorem H3_eq (c : Dev nD) (i : Fin 16384) (j : Fin 1024) :
    H3 V c i j = (∑ k : Fin 1024, act3 V c i k * (show S1024x1024.Idx → EReal from V c main_v39) (ix2 k j)) + (show S1x1024.Idx → EReal from V c main_v56) (ix2 (0 : Fin 1) j) := rfl

/-! ## Where each window's block sits, decided over the grid -/

theorem idx_rows3 : ∀ t : Fin cfg3.N, win3_0.index t (0 : Fin 2) = t.val ∧ win3_0.index t (1 : Fin 2) = 0
    ∧ win3_7.index t (0 : Fin 2) = t.val ∧ win3_7.index t (1 : Fin 2) = 0 :=
  (by decide +kernel : ∀ t : Fin grid3.N, _)
theorem idx_whole3_1 : ∀ t : Fin cfg3.N, win3_1.index t (0 : Fin 2) = 0 ∧ win3_1.index t (1 : Fin 2) = 0 :=
  (by decide +kernel : ∀ t : Fin grid3.N, _)
theorem idx_whole3_2 : ∀ t : Fin cfg3.N, win3_2.index t (0 : Fin 2) = 0 ∧ win3_2.index t (1 : Fin 2) = 0 :=
  (by decide +kernel : ∀ t : Fin grid3.N, _)
theorem idx_whole3_3 : ∀ t : Fin cfg3.N, win3_3.index t (0 : Fin 2) = 0 ∧ win3_3.index t (1 : Fin 2) = 0 :=
  (by decide +kernel : ∀ t : Fin grid3.N, _)
theorem idx_whole3_4 : ∀ t : Fin cfg3.N, win3_4.index t (0 : Fin 2) = 0 ∧ win3_4.index t (1 : Fin 2) = 0 :=
  (by decide +kernel : ∀ t : Fin grid3.N, _)
theorem idx_whole3_5 : ∀ t : Fin cfg3.N, win3_5.index t (0 : Fin 2) = 0 ∧ win3_5.index t (1 : Fin 2) = 0 :=
  (by decide +kernel : ∀ t : Fin grid3.N, _)
theorem idx_whole3_6 : ∀ t : Fin cfg3.N, win3_6.index t (0 : Fin 2) = 0 ∧ win3_6.index t (1 : Fin 2) = 0 :=
  (by decide +kernel : ∀ t : Fin grid3.N, _)
theorem idx_stats3 : ∀ t : Fin cfg3.N, win3_8.index t (0 : Fin 3) = t.val / 16 ∧ win3_8.index t (1 : Fin 3) = 0 ∧ win3_8.index t (2 : Fin 3) = 0
    ∧ win3_9.index t (0 : Fin 3) = t.val / 16 ∧ win3_9.index t (1 : Fin 3) = 0 ∧ win3_9.index t (2 : Fin 3) = 0 :=
  (by decide +kernel : ∀ t : Fin grid3.N, _)

/-! ## The loaded blocks at an index -/

theorem iblk3_0_apply (c : Dev nD) (t : Fin cfg3.N) (r : Fin 512) (k : Fin 1024) (i : Fin 16384) (hi : i.val = 512 * t.val + r.val) :
    iblk3 V c 0 t (ix2 r k) = V c main_v101_0 (ix2 i k) := by
  obtain ⟨e0, e1, -, -⟩ := idx_rows3 t
  unfold iblk3
  rw [View.read_apply]
  show V c main_v101_0 _ = V c main_v101_0 _
  congr 1
  funext x
  apply Fin.ext
  match x with
  | ⟨0, _⟩ => show win3_0.index t (0 : Fin 2) * 512 + 1 * r.val = i.val; rw [e0]; omega
  | ⟨1, _⟩ => show win3_0.index t (1 : Fin 2) * 1024 + 1 * k.val = k.val; rw [e1]; omega

theorem iblk3_1_apply (c : Dev nD) (t : Fin cfg3.N) (a : Fin 1) (b : Fin 1024) :
    iblk3 V c 1 t (ix2 a b) = V c main_v109 (ix2 a b) := by
  obtain ⟨e0, e1⟩ := idx_whole3_1 t
  unfold iblk3
  rw [View.read_apply]
  show V c main_v109 _ = V c main_v109 _
  congr 1
  funext x
  apply Fin.ext
  match x with
  | ⟨0, _⟩ => show win3_1.index t (0 : Fin 2) * 1 + 1 * a.val = a.val; rw [e0]; omega
  | ⟨1, _⟩ => show win3_1.index t (1 : Fin 2) * 1024 + 1 * b.val = b.val; rw [e1]; omega

theorem iblk3_2_apply (c : Dev nD) (t : Fin cfg3.N) (a : Fin 1) (b : Fin 1024) :
    iblk3 V c 2 t (ix2 a b) = V c main_v118 (ix2 a b) := by
  obtain ⟨e0, e1⟩ := idx_whole3_2 t
  unfold iblk3
  rw [View.read_apply]
  show V c main_v118 _ = V c main_v118 _
  congr 1
  funext x
  apply Fin.ext
  match x with
  | ⟨0, _⟩ => show win3_2.index t (0 : Fin 2) * 1 + 1 * a.val = a.val; rw [e0]; omega
  | ⟨1, _⟩ => show win3_2.index t (1 : Fin 2) * 1024 + 1 * b.val = b.val; rw [e1]; omega

theorem iblk3_3_apply (c : Dev nD) (t : Fin cfg3.N) (a : Fin 1) (b : Fin 1024) :
    iblk3 V c 3 t (ix2 a b) = V c main_v61 (ix2 a b) := by
  obtain ⟨e0, e1⟩ := idx_whole3_3 t
  unfold iblk3
  rw [View.read_apply]
  show V c main_v61 _ = V c main_v61 _
  congr 1
  funext x
  apply Fin.ext
  match x with
  | ⟨0, _⟩ => show win3_3.index t (0 : Fin 2) * 1 + 1 * a.val = a.val; rw [e0]; omega
  | ⟨1, _⟩ => show win3_3.index t (1 : Fin 2) * 1024 + 1 * b.val = b.val; rw [e1]; omega

theorem iblk3_4_apply (c : Dev nD) (t : Fin cfg3.N) (a : Fin 1) (b : Fin 1024) :
    iblk3 V c 4 t (ix2 a b) = V c main_v62 (ix2 a b) := by
  obtain ⟨e0, e1⟩ := idx_whole3_4 t
  unfold iblk3
  rw [View.read_apply]
  show V c main_v62 _ = V c main_v62 _
  congr 1
  funext x
  apply Fin.ext
  match x with
  | ⟨0, _⟩ => show win3_4.index t (0 : Fin 2) * 1 + 1 * a.val = a.val; rw [e0]; omega
  | ⟨1, _⟩ => show win3_4.index t (1 : Fin 2) * 1024 + 1 * b.val = b.val; rw [e1]; omega

theorem iblk3_5_apply (c : Dev nD) (t : Fin cfg3.N) (a : Fin 1024) (b : Fin 1024) :
    iblk3 V c 5 t (ix2 a b) = V c main_v39 (ix2 a b) := by
  obtain ⟨e0, e1⟩ := idx_whole3_5 t
  unfold iblk3
  rw [View.read_apply]
  show V c main_v39 _ = V c main_v39 _
  congr 1
  funext x
  apply Fin.ext
  match x with
  | ⟨0, _⟩ => show win3_5.index t (0 : Fin 2) * 1024 + 1 * a.val = a.val; rw [e0]; omega
  | ⟨1, _⟩ => show win3_5.index t (1 : Fin 2) * 1024 + 1 * b.val = b.val; rw [e1]; omega

theorem iblk3_6_apply (c : Dev nD) (t : Fin cfg3.N) (a : Fin 1) (b : Fin 1024) :
    iblk3 V c 6 t (ix2 a b) = V c main_v56 (ix2 a b) := by
  obtain ⟨e0, e1⟩ := idx_whole3_6 t
  unfold iblk3
  rw [View.read_apply]
  show V c main_v56 _ = V c main_v56 _
  congr 1
  funext x
  apply Fin.ext
  match x with
  | ⟨0, _⟩ => show win3_6.index t (0 : Fin 2) * 1 + 1 * a.val = a.val; rw [e0]; omega
  | ⟨1, _⟩ => show win3_6.index t (1 : Fin 2) * 1024 + 1 * b.val = b.val; rw [e1]; omega

/-- The block of pre-activations point t computes. -/
def blk3 (c : Dev nD) (t : Fin cfg3.N) : FVec Ideal S512x1024 .f32 :=
  k3_pay7 (F := Ideal) (iblk3 V c 0 t) (iblk3 V c 3 t) (iblk3 V c 1 t) (iblk3 V c 2 t) (iblk3 V c 4 t) (iblk3 V c 5 t) (iblk3 V c 6 t)

/-- Row r of the block at point t is row 512 t + r of the layer's pre-activation. -/
theorem blk3_apply (c : Dev nD) (t : Fin cfg3.N) (r : Fin 512) (j : Fin 1024) (i : Fin 16384) (hi : i.val = 512 * t.val + r.val) :
    blk3 V c t (ix2 r j) = H3 V c i j := by
  unfold blk3
  refine (pay7_r3_apply (iblk3 V c 0 t) (iblk3 V c 3 t) (iblk3 V c 1 t) (iblk3 V c 2 t) (iblk3 V c 4 t) (iblk3 V c 5 t) (iblk3 V c 6 t) r j).trans ?_
  unfold H3 bnLin bnAct
  simp only [iblk3_0_apply V c t r _ i hi, iblk3_1_apply, iblk3_2_apply, iblk3_3_apply, iblk3_4_apply, iblk3_5_apply, iblk3_6_apply]

end Cert.KernelIdeal.Vals

end
-- ==== Proof.R3ValTotals.lean ====
import proofs.«157065_j74259984548393_2_alg».proof.Proof.R3ValBlocks

set_option maxRecDepth 16384

/-!
  Launch 3: what the buffers hold after each grid point. The block output is the block of
  pre-activations; each running total, cleared at the first point of a half and grown by every
  point, is after point n the sum of the column sums of the half's blocks up to n; at the last point
  of a half the statistics outputs receive the completed totals.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The column sums of the block at point n (zero beyond the grid). -/
def colS3 (c : Dev nD) (j : Fin 1024) (n : ℕ) : EReal :=
  if h : n < cfg3.N then ∑ r : Fin 512, blk3 V c ⟨n, h⟩ (ix2 r j) else 0
/-- The column sums of the squares of the block at point n (zero beyond the grid). -/
def colQ3 (c : Dev nD) (j : Fin 1024) (n : ℕ) : EReal :=
  if h : n < cfg3.N then ∑ r : Fin 512, blk3 V c ⟨n, h⟩ (ix2 r j) * blk3 V c ⟨n, h⟩ (ix2 r j) else 0

/-- Every point leaves its block of pre-activations in the block output. -/
theorem outs3_7 (c : Dev nD) (t : Fin cfg3.N) : (outsAt3 V c t.val t.isLt).1 = blk3 V c t := by
  by_cases h0 : t.val % 16 = 0
  · have h1 : ¬t.val % 16 = 15 := by omega
    rw [outsAt3_A V c t h0 h1]
    dsimp only
    exact out3_A_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)
  · by_cases h1 : t.val % 16 = 15
    · rw [outsAt3_C V c t h0 h1]
      dsimp only
      exact out3_C_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2
    · rw [outsAt3_B V c t h0 h1]
      dsimp only
      exact out3_B_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2

/-- At the first point of a half the first running total is the block's column sums. -/
theorem tot3_0_A (c : Dev nD) (t : Fin cfg3.N) (h0 : t.val % 16 = 0) (j : Fin 1024) :
    (outsAt3 V c t.val t.isLt).2.2.2.1 (ix2 (0 : Fin 1) j) = colS3 V c j t.val := by
  have h1 : ¬t.val % 16 = 15 := by omega
  rw [outsAt3_A V c t h0 h1]
  dsimp only
  refine (congrFun (sout3_A_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)) (ix2 (0 : Fin 1) j)).trans ?_
  refine (pay1_r3_apply _ _ j).trans ?_
  rw [pay5_r3_apply, zero_add]
  unfold colS3
  rw [dif_pos t.isLt]
  rfl

/-- At every other point it grows by the block's column sums. -/
theorem tot3_0_step (c : Dev nD) (t : Fin cfg3.N) (h0 : ¬t.val % 16 = 0) (j : Fin 1024) :
    (outsAt3 V c t.val t.isLt).2.2.2.1 (ix2 (0 : Fin 1) j)
      = (outsAt3 V c (t.val - 1) (Nat.lt_of_le_of_lt (Nat.sub_le _ _) t.isLt)).2.2.2.1 (ix2 (0 : Fin 1) j) + colS3 V c j t.val := by
  have hcol : colS3 V c j t.val = ∑ r : Fin 512, blk3 V c t (ix2 r j) := by
    unfold colS3
    rw [dif_pos t.isLt]
  rw [hcol]
  by_cases h1 : t.val % 16 = 15
  · rw [outsAt3_C V c t h0 h1]
    dsimp only
    refine (congrFun (sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) j)).trans ?_
    exact pay1_r3_apply _ _ j
  · rw [outsAt3_B V c t h0 h1]
    dsimp only
    refine (congrFun (sout3_B_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) j)).trans ?_
    exact pay1_r3_apply _ _ j

/-- So after point n the total is the sum of the column sums of the half's blocks up to n. -/
theorem tot3_0_eq (c : Dev nD) (j : Fin 1024) : ∀ (n : ℕ) (hn : n < cfg3.N),
    (outsAt3 V c n hn).2.2.2.1 (ix2 (0 : Fin 1) j) = ∑ t' ∈ Finset.range (n % 16 + 1), colS3 V c j (16 * (n / 16) + t')
  | 0, hn => by
    rw [tot3_0_A V c ⟨0, hn⟩ rfl j]
    simp
  | n + 1, hn => by
    by_cases h0 : (n + 1) % 16 = 0
    · rw [tot3_0_A V c ⟨n + 1, hn⟩ h0 j, h0, Finset.sum_range_one]
      congr 1
      dsimp only
      omega
    · rw [tot3_0_step V c ⟨n + 1, hn⟩ h0 j]
      show (outsAt3 V c n _).2.2.2.1 (ix2 (0 : Fin 1) j) + _ = _
      rw [tot3_0_eq c j n (Nat.lt_of_succ_lt hn)]
      have e1 : (n + 1) / 16 = n / 16 := by omega
      have e2 : (n + 1) % 16 = n % 16 + 1 := by omega
      rw [e1, e2, Finset.sum_range_succ _ (n % 16 + 1)]
      congr 2
      dsimp only
      omega

/-- At the first point of a half the second running total is the block's column sums of squares. -/
theorem tot3_1_A (c : Dev nD) (t : Fin cfg3.N) (h0 : t.val % 16 = 0) (j : Fin 1024) :
    (outsAt3 V c t.val t.isLt).2.2.2.2 (ix2 (0 : Fin 1) j) = colQ3 V c j t.val := by
  have h1 : ¬t.val % 16 = 15 := by omega
  rw [outsAt3_A V c t h0 h1]
  dsimp only
  refine (congrFun (sout3_A_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)) (ix2 (0 : Fin 1) j)).trans ?_
  refine (pay2_r3_apply _ _ j).trans ?_
  rw [pay6_r3_apply, zero_add]
  unfold colQ3
  rw [dif_pos t.isLt]
  rfl

/-- At every other point it grows by the block's column sums of squares. -/
theorem tot3_1_step (c : Dev nD) (t : Fin cfg3.N) (h0 : ¬t.val % 16 = 0) (j : Fin 1024) :
    (outsAt3 V c t.val t.isLt).2.2.2.2 (ix2 (0 : Fin 1) j)
      = (outsAt3 V c (t.val - 1) (Nat.lt_of_le_of_lt (Nat.sub_le _ _) t.isLt)).2.2.2.2 (ix2 (0 : Fin 1) j) + colQ3 V c j t.val := by
  have hcol : colQ3 V c j t.val = ∑ r : Fin 512, blk3 V c t (ix2 r j) * blk3 V c t (ix2 r j) := by
    unfold colQ3
    rw [dif_pos t.isLt]
  rw [hcol]
  by_cases h1 : t.val % 16 = 15
  · rw [outsAt3_C V c t h0 h1]
    dsimp only
    refine (congrFun (sout3_C_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) j)).trans ?_
    exact pay2_r3_apply _ _ j
  · rw [outsAt3_B V c t h0 h1]
    dsimp only
    refine (congrFun (sout3_B_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) j)).trans ?_
    exact pay2_r3_apply _ _ j

/-- So after point n the total is the sum of the column sums of squares of the half's blocks up to n. -/
theorem tot3_1_eq (c : Dev nD) (j : Fin 1024) : ∀ (n : ℕ) (hn : n < cfg3.N),
    (outsAt3 V c n hn).2.2.2.2 (ix2 (0 : Fin 1) j) = ∑ t' ∈ Finset.range (n % 16 + 1), colQ3 V c j (16 * (n / 16) + t')
  | 0, hn => by
    rw [tot3_1_A V c ⟨0, hn⟩ rfl j]
    simp
  | n + 1, hn => by
    by_cases h0 : (n + 1) % 16 = 0
    · rw [tot3_1_A V c ⟨n + 1, hn⟩ h0 j, h0, Finset.sum_range_one]
      congr 1
      dsimp only
      omega
    · rw [tot3_1_step V c ⟨n + 1, hn⟩ h0 j]
      show (outsAt3 V c n _).2.2.2.2 (ix2 (0 : Fin 1) j) + _ = _
      rw [tot3_1_eq c j n (Nat.lt_of_succ_lt hn)]
      have e1 : (n + 1) / 16 = n / 16 := by omega
      have e2 : (n + 1) % 16 = n % 16 + 1 := by omega
      rw [e1, e2, Finset.sum_range_succ _ (n % 16 + 1)]
      congr 2
      dsimp only
      omega

/-- At the last point of a half the first statistics output receives the completed first total … -/
theorem outs3_8 (c : Dev nD) (t : Fin cfg3.N) (h1 : t.val % 16 = 15) (j : Fin 1024) :
    (outsAt3 V c t.val t.isLt).2.1 (ix3 (0 : Fin 1) (0 : Fin 1) j) = (outsAt3 V c t.val t.isLt).2.2.2.1 (ix2 (0 : Fin 1) j) := by
  have h0 : ¬t.val % 16 = 0 := by omega
  rw [outsAt3_C V c t h0 h1]
  dsimp only
  refine (congrFun (out3_C_8_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix3 (0 : Fin 1) (0 : Fin 1) j)).trans ?_
  refine (pay3_r3_apply _ j).trans ?_
  exact (congrFun (sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) j)).symm

/-- … and the second one the completed second total. -/
theorem outs3_9 (c : Dev nD) (t : Fin cfg3.N) (h1 : t.val % 16 = 15) (j : Fin 1024) :
    (outsAt3 V c t.val t.isLt).2.2.1 (ix3 (0 : Fin 1) (0 : Fin 1) j) = (outsAt3 V c t.val t.isLt).2.2.2.2 (ix2 (0 : Fin 1) j) := by
  have h0 : ¬t.val % 16 = 0 := by omega
  rw [outsAt3_C V c t h0 h1]
  dsimp only
  refine (congrFun (out3_C_9_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix3 (0 : Fin 1) (0 : Fin 1) j)).trans ?_
  refine (pay4_r3_apply _ j).trans ?_
  exact (congrFun (sout3_C_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) j)).symm

end Cert.KernelIdeal.Vals

end
-- ==== Proof.R3Val.lean ====
import proofs.«157065_j74259984548393_2_alg».proof.Proof.R3ValTotals
import proofs.«157065_j74259984548393_2_alg».proof.Proof.Gen.KernelIdeal.Points

set_option maxRecDepth 16384

/-!
  Launch 3: its three output arrays after the launch, as functions of the arrays it found. The
  block output's 32 blocks of 512 rows tile the pre-activation array; each statistics array has one
  [1,1,1024] block per half of the grid, written back at the half's last point, holding the column
  totals over the half's 16 blocks.
-/

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The pre-activation array -/

/-- The pre-activation array, entry by entry. -/
def G3_7 (c : Dev nD) : S16384x1024.Idx → EReal := fun i => H3 V c (i 0) (i 1)

theorem blk3_row (c : Dev nD) (t : Fin cfg3.N) (y : S512x1024.Idx) (i : Fin 16384) (j : Fin 1024)
    (hi : i.val = 512 * t.val + (y 0).val) (hj : j.val = (y 1).val) : blk3 V c t y = H3 V c i j := by
  obtain ⟨r, k, rfl⟩ : ∃ (r : Fin 512) (k : Fin 1024), y = ix2 r k := ⟨y 0, y 1, eq_ix2 y⟩
  obtain rfl : j = k := Fin.ext hj
  exact blk3_apply V c t r j i hi

/-- What point t writes back is block t of the pre-activation array. -/
theorem flushed3_7 (c : Dev nD) (t : Fin cfg3.N) (hf : (cfg3.win 7).flush t = true) :
    (dat3 (F := Ideal) V c).flushed 7 t = ((cfg3.win 7).blk t).view.read (Elt Ideal) (G3_7 V c) := by
  have hN : grid3.N = 32 := N_3
  have ht : t.val < grid3.N := t.isLt
  show (cfg3.win 7).cut (grid3.coords t) ((dat3 (F := Ideal) V c).after 7 t) = _
  rw [after3_7, outs3_7]
  obtain ⟨-, -, e0, e1⟩ := idx_rows3 t
  funext y
  have hy0 : (y 0).val < 512 := (y 0).isLt
  have hy1 : (y 1).val < 1024 := (y 1).isLt
  show blk3 V c t y = H3 V c ((((cfg3.win 7).blk t).view.emb y) 0) ((((cfg3.win 7).blk t).view.emb y) 1)
  refine blk3_row V c t y _ _ ?_ ?_
  · show win3_7.index t (0 : Fin 2) * 512 + 1 * (y 0).val = 512 * t.val + (y 0).val
    rw [e0]; omega
  · show win3_7.index t (1 : Fin 2) * 1024 + 1 * (y 1).val = (y 1).val
    rw [e1]; omega

theorem mem_blk3_7 (t : Fin cfg3.N) (i : S16384x1024.Idx) :
    i ∈ ((cfg3.win 7).blk t).view.set ↔ ∀ a : Fin 2, win3_7.index t a * S512x1024.size a ≤ (i a).val ∧ (i a).val < win3_7.index t a * S512x1024.size a + S512x1024.size a := by
  show i ∈ ((View.whole main_v119_0).slice (win3_7.rect t)).set ↔ _
  rw [View.set_slice_whole, Rect.mem_set_unit]
  exact Iff.rfl

theorem final3_7 (c : Dev nD) : (dat3 (F := Ideal) V c).arrAt 7 cfg3.N = G3_7 V c :=
  (dat3 (F := Ideal) V c).arrAt_eq_of_cover 7 (G3_7 V c) (flushed3_7 V c) fun i => by
    have hN : grid3.N = 32 := N_3
    have hi0 : (i 0).val < 16384 := (i 0).isLt
    have hi1 : (i 1).val < 1024 := (i 1).isLt
    refine ⟨⟨(i 0).val / 512, by show _ < grid3.N; omega⟩, flush3_7 _, ?_⟩
    rw [mem_blk3_7]
    obtain ⟨-, -, e0, e1⟩ := idx_rows3 ⟨(i 0).val / 512, by show _ < grid3.N; omega⟩
    intro a
    match a with
    | ⟨0, _⟩ => show win3_7.index _ (0 : Fin 2) * 512 ≤ (i 0).val ∧ (i 0).val < win3_7.index _ (0 : Fin 2) * 512 + 512; rw [e0]; dsimp only; omega
    | ⟨1, _⟩ => show win3_7.index _ (1 : Fin 2) * 1024 ≤ (i 1).val ∧ (i 1).val < win3_7.index _ (1 : Fin 2) * 1024 + 1024; rw [e1]; omega

/-! ## The two statistics arrays -/

/-- The first statistics array, entry by entry: the column total over a half's 16 blocks of 512 rows. -/
def G3_8 (c : Dev nD) : S2x1x1024.Idx → EReal :=
  fun i => ∑ t' : Fin 16, ∑ r : Fin 512, H3 V c (Cert.Spec.rowOf (i 0) t' r) (i 2)

theorem half_sum3_0 (c : Dev nD) (h : Fin 2) (j : Fin 1024) :
    ∑ t' ∈ Finset.range 16, colS3 V c j (16 * h.val + t') = ∑ t' : Fin 16, ∑ r : Fin 512, H3 V c (Cert.Spec.rowOf h t' r) j := by
  rw [Finset.sum_range]
  refine Finset.sum_congr rfl fun t' _ => ?_
  have hlt : 16 * h.val + t'.val < cfg3.N := by
    have := N_3
    show _ < grid3.N
    omega
  unfold colS3
  rw [dif_pos hlt]
  refine Finset.sum_congr rfl fun r _ => ?_
  rw [blk3_apply V c ⟨_, hlt⟩ r j (Cert.Spec.rowOf h t' r) rfl]

theorem outs3_8_idx (c : Dev nD) (t : Fin cfg3.N) (h1 : t.val % 16 = 15) (y : S1x1x1024.Idx) :
    (outsAt3 V c t.val t.isLt).2.1 y = ∑ t' ∈ Finset.range 16, colS3 V c (y 2) (16 * (t.val / 16) + t') := by
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  refine (outs3_8 V c t h1 j).trans ?_
  rw [tot3_0_eq V c j t.val t.isLt, h1]

/-- What a half's last point writes back to the first statistics array is that half's entry of it. -/
theorem flushed3_8 (c : Dev nD) (t : Fin cfg3.N) (hf : (cfg3.win 8).flush t = true) :
    (dat3 (F := Ideal) V c).flushed 8 t = ((cfg3.win 8).blk t).view.read (Elt Ideal) (G3_8 V c) := by
  have h15 : t.val % 16 = 15 := (flush3_8 t).mp hf
  have hN : grid3.N = 32 := N_3
  have ht : t.val < grid3.N := t.isLt
  show (cfg3.win 8).cut (grid3.coords t) ((dat3 (F := Ideal) V c).after 8 t) = _
  rw [after3_8]
  obtain ⟨e0, e1, e2, -, -, -⟩ := idx_stats3 t
  funext y
  have hy0 : (y 0).val < 1 := (y 0).isLt
  have hh : (((cfg3.win 8).blk t).view.emb y) 0 = (⟨t.val / 16, by omega⟩ : Fin 2) :=
    Fin.ext (by show win3_8.index t (0 : Fin 3) * 1 + 1 * (y 0).val = t.val / 16; rw [e0]; omega)
  have hj : (((cfg3.win 8).blk t).view.emb y) 2 = y 2 :=
    Fin.ext (by show win3_8.index t (2 : Fin 3) * 1024 + 1 * (y 2).val = (y 2).val; rw [e2]; omega)
  refine (outs3_8_idx V c t h15 y).trans ?_
  show _ = G3_8 V c (((cfg3.win 8).blk t).view.emb y)
  unfold G3_8
  rw [hh, hj]
  exact half_sum3_0 V c ⟨t.val / 16, by omega⟩ (y 2)

theorem mem_blk3_8 (t : Fin cfg3.N) (i : S2x1x1024.Idx) :
    i ∈ ((cfg3.win 8).blk t).view.set ↔ ∀ a : Fin 3, win3_8.index t a * S1x1x1024.size a ≤ (i a).val ∧ (i a).val < win3_8.index t a * S1x1x1024.size a + S1x1x1024.size a := by
  show i ∈ ((View.whole main_v119_1).slice (win3_8.rect t)).set ↔ _
  rw [View.set_slice_whole, Rect.mem_set_unit]
  exact Iff.rfl

theorem final3_8 (c : Dev nD) : (dat3 (F := Ideal) V c).arrAt 8 cfg3.N = G3_8 V c :=
  (dat3 (F := Ideal) V c).arrAt_eq_of_cover 8 (G3_8 V c) (flushed3_8 V c) fun i => by
    have hN : grid3.N = 32 := N_3
    have hi0 : (i 0).val < 2 := (i 0).isLt
    have hi1 : (i 1).val < 1 := (i 1).isLt
    have hi2 : (i 2).val < 1024 := (i 2).isLt
    refine ⟨⟨16 * (i 0).val + 15, by show _ < grid3.N; omega⟩, (flush3_8 _).mpr (by dsimp only; omega), ?_⟩
    rw [mem_blk3_8]
    obtain ⟨e0, e1, e2, -, -, -⟩ := idx_stats3 ⟨16 * (i 0).val + 15, by show _ < grid3.N; omega⟩
    intro a
    match a with
    | ⟨0, _⟩ => show win3_8.index _ (0 : Fin 3) * 1 ≤ (i 0).val ∧ (i 0).val < win3_8.index _ (0 : Fin 3) * 1 + 1; rw [e0]; dsimp only; omega
    | ⟨1, _⟩ => show win3_8.index _ (1 : Fin 3) * 1 ≤ (i 1).val ∧ (i 1).val < win3_8.index _ (1 : Fin 3) * 1 + 1; rw [e1]; omega
    | ⟨2, _⟩ => show win3_8.index _ (2 : Fin 3) * 1024 ≤ (i 2).val ∧ (i 2).val < win3_8.index _ (2 : Fin 3) * 1024 + 1024; rw [e2]; omega

/-- The second statistics array, entry by entry: the column total of squares over a half's 16 blocks of 512 rows. -/
def G3_9 (c : Dev nD) : S2x1x1024.Idx → EReal :=
  fun i => ∑ t' : Fin 16, ∑ r : Fin 512, H3 V c (Cert.Spec.rowOf (i 0) t' r) (i 2) * H3 V c (Cert.Spec.rowOf (i 0) t' r) (i 2)

theorem half_sum3_1 (c : Dev nD) (h : Fin 2) (j : Fin 1024) :
    ∑ t' ∈ Finset.range 16, colQ3 V c j (16 * h.val + t') = ∑ t' : Fin 16, ∑ r : Fin 512, H3 V c (Cert.Spec.rowOf h t' r) j * H3 V c (Cert.Spec.rowOf h t' r) j := by
  rw [Finset.sum_range]
  refine Finset.sum_congr rfl fun t' _ => ?_
  have hlt : 16 * h.val + t'.val < cfg3.N := by
    have := N_3
    show _ < grid3.N
    omega
  unfold colQ3
  rw [dif_pos hlt]
  refine Finset.sum_congr rfl fun r _ => ?_
  rw [blk3_apply V c ⟨_, hlt⟩ r j (Cert.Spec.rowOf h t' r) rfl]

theorem outs3_9_idx (c : Dev nD) (t : Fin cfg3.N) (h1 : t.val % 16 = 15) (y : S1x1x1024.Idx) :
    (outsAt3 V c t.val t.isLt).2.2.1 y = ∑ t' ∈ Finset.range 16, colQ3 V c (y 2) (16 * (t.val / 16) + t') := by
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  refine (outs3_9 V c t h1 j).trans ?_
  rw [tot3_1_eq V c j t.val t.isLt, h1]

/-- What a half's last point writes back to the second statistics array is that half's entry of it. -/
theorem flushed3_9 (c : Dev nD) (t : Fin cfg3.N) (hf : (cfg3.win 9).flush t = true) :
    (dat3 (F := Ideal) V c).flushed 9 t = ((cfg3.win 9).blk t).view.read (Elt Ideal) (G3_9 V c) := by
  have h15 : t.val % 16 = 15 := (flush3_9 t).mp hf
  have hN : grid3.N = 32 := N_3
  have ht : t.val < grid3.N := t.isLt
  show (cfg3.win 9).cut (grid3.coords t) ((dat3 (F := Ideal) V c).after 9 t) = _
  rw [after3_9]
  obtain ⟨-, -, -, e0, e1, e2⟩ := idx_stats3 t
  funext y
  have hy0 : (y 0).val < 1 := (y 0).isLt
  have hh : (((cfg3.win 9).blk t).view.emb y) 0 = (⟨t.val / 16, by omega⟩ : Fin 2) :=
    Fin.ext (by show win3_9.index t (0 : Fin 3) * 1 + 1 * (y 0).val = t.val / 16; rw [e0]; omega)
  have hj : (((cfg3.win 9).blk t).view.emb y) 2 = y 2 :=
    Fin.ext (by show win3_9.index t (2 : Fin 3) * 1024 + 1 * (y 2).val = (y 2).val; rw [e2]; omega)
  refine (outs3_9_idx V c t h15 y).trans ?_
  show _ = G3_9 V c (((cfg3.win 9).blk t).view.emb y)
  unfold G3_9
  rw [hh, hj]
  exact half_sum3_1 V c ⟨t.val / 16, by omega⟩ (y 2)

theorem mem_blk3_9 (t : Fin cfg3.N) (i : S2x1x1024.Idx) :
    i ∈ ((cfg3.win 9).blk t).view.set ↔ ∀ a : Fin 3, win3_9.index t a * S1x1x1024.size a ≤ (i a).val ∧ (i a).val < win3_9.index t a * S1x1x1024.size a + S1x1x1024.size a := by
  show i ∈ ((View.whole main_v119_2).slice (win3_9.rect t)).set ↔ _
  rw [View.set_slice_whole, Rect.mem_set_unit]
  exact Iff.rfl

theorem final3_9 (c : Dev nD) : (dat3 (F := Ideal) V c).arrAt 9 cfg3.N = G3_9 V c :=
  (dat3 (F := Ideal) V c).arrAt_eq_of_cover 9 (G3_9 V c) (flushed3_9 V c) fun i => by
    have hN : grid3.N = 32 := N_3
    have hi0 : (i 0).val < 2 := (i 0).isLt
    have hi1 : (i 1).val < 1 := (i 1).isLt
    have hi2 : (i 2).val < 1024 := (i 2).isLt
    refine ⟨⟨16 * (i 0).val + 15, by show _ < grid3.N; omega⟩, (flush3_9 _).mpr (by dsimp only; omega), ?_⟩
    rw [mem_blk3_9]
    obtain ⟨-, -, -, e0, e1, e2⟩ := idx_stats3 ⟨16 * (i 0).val + 15, by show _ < grid3.N; omega⟩
    intro a
    match a with
    | ⟨0, _⟩ => show win3_9.index _ (0 : Fin 3) * 1 ≤ (i 0).val ∧ (i 0).val < win3_9.index _ (0 : Fin 3) * 1 + 1; rw [e0]; dsimp only; omega
    | ⟨1, _⟩ => show win3_9.index _ (1 : Fin 3) * 1 ≤ (i 1).val ∧ (i 1).val < win3_9.index _ (1 : Fin 3) * 1 + 1; rw [e1]; omega
    | ⟨2, _⟩ => show win3_9.index _ (2 : Fin 3) * 1024 ≤ (i 2).val ∧ (i 2).val < win3_9.index _ (2 : Fin 3) * 1024 + 1024; rw [e2]; omega

/-! ## The launch's outputs -/

theorem r3_h (c : Dev nD) (i : Fin 16384) (j : Fin 1024) :
    (dat3 (F := Ideal) V c).arrAt 7 cfg3.N (ix2 i j) = H3 V c i j :=
  congrFun (final3_7 V c) (ix2 i j)

theorem r3_s (c : Dev nD) (h : Fin 2) (j : Fin 1024) :
    (dat3 (F := Ideal) V c).arrAt 8 cfg3.N (ix3 h (0 : Fin 1) j) = ∑ t : Fin 16, ∑ r : Fin 512, H3 V c (Cert.Spec.rowOf h t r) j :=
  congrFun (final3_8 V c) (ix3 h (0 : Fin 1) j)

theorem r3_ss (c : Dev nD) (h : Fin 2) (j : Fin 1024) :
    (dat3 (F := Ideal) V c).arrAt 9 cfg3.N (ix3 h (0 : Fin 1) j) = ∑ t : Fin 16, ∑ r : Fin 512, H3 V c (Cert.Spec.rowOf h t r) j * H3 V c (Cert.Spec.rowOf h t r) j :=
  congrFun (final3_9 V c) (ix3 h (0 : Fin 1) j)

end Cert.KernelIdeal.Vals

end
-- ==== Proof.R4ValPay.lean ====
/-
  The last layer's block arithmetic read at one entry: entry (r, j) of the output block is the
  sum over k of the rectified, normalised activation (r, k) times the weight (k, j), plus the
  bias j.
-/
import proofs.«157065_j74259984548393_2_alg».proof.Proof.Region4
import Idealize.ShloMosaic.Lib.ValueIdx
import Idealize.ShloMosaic.Lib.Pipeline.Value
import Idealize.ShloMosaic.PureOps.Ideal.Laws

noncomputable section

namespace Cert.KernelIdeal.Vals

open Cert.KernelIdeal Cert.KernelIdeal.Gen Cert.KernelIdeal.Hand
open Idealize.ShloMosaic Idealize.ShloMosaic.ValueIdx

/-- The contraction of the last layer's product: rows of the left operand against columns of the right one. -/
abbrev D4 : DotDims S512x1024 S1024x128 S512x128 := dot_S512x1024_S1024x128_S512x128_1_0_0_1_n_n

theorem D4_l0 (i : S512x128.Idx) (q : D4.contr.Idx) : (D4.lhsIdx i q 0).val = (i 0).val := by
  unfold DotDims.lhsIdx
  rw [dif_neg (show ¬(0 : Fin S512x1024.rank) ∈ D4.lhsBatch by decide), dif_pos (show (0 : Fin S512x1024.rank) ∈ D4.lhsNonContracting by decide)]
  rfl
theorem D4_l1 (i : S512x128.Idx) (q : D4.contr.Idx) : (D4.lhsIdx i q 1).val = (q ⟨0, by decide⟩).val :=
  D4.lhsIdx_val_of_single rfl i q
theorem D4_r0 (i : S512x128.Idx) (q : D4.contr.Idx) : (D4.rhsIdx i q 0).val = (q ⟨0, by decide⟩).val :=
  D4.rhsIdx_val_of_single rfl i q
theorem D4_r1 (i : S512x128.Idx) (q : D4.contr.Idx) : (D4.rhsIdx i q 1).val = (i 1).val := by
  unfold DotDims.rhsIdx
  rw [dif_neg (show ¬(1 : Fin S1024x128.rank) ∈ D4.rhsBatch by decide), dif_pos (show (1 : Fin S1024x128.rank) ∈ D4.rhsNonContracting by decide)]
  rfl

/-- The product into a zero accumulator read at an entry: row r of the left operand against column j of the right one. -/
theorem matmul4_apply (l : FVec Ideal S512x1024 .bf16) (w : FVec Ideal S1024x128 .bf16) (r : Fin 512) (j : Fin 128) :
    FloatOps.matmul D4 none l w (constant (F := Ideal) S512x128 .f32 0x00000000#32) (ix2 r j) = ∑ k : Fin 1024, l (ix2 r k) * w (ix2 k j) := by
  rw [Ideal.matmul_constant_zero_apply, ← Equiv.sum_comp (contrEquiv1 D4 1024 rfl rfl).symm]
  refine Finset.sum_congr rfl fun k _ => ?_
  have hk := contrEquiv1_symm_val D4 1024 rfl rfl k
  have el : D4.lhsIdx (ix2 r j) ((contrEquiv1 D4 1024 rfl rfl).symm k) = ix2 r k := funext fun a => Fin.ext (by
    match a with
    | ⟨0, _⟩ => exact D4_l0 _ _
    | ⟨1, _⟩ => exact (D4_l1 _ _).trans hk)
  have er : D4.rhsIdx (ix2 r j) ((contrEquiv1 D4 1024 rfl rfl).symm k) = ix2 k j := funext fun a => Fin.ext (by
    match a with
    | ⟨0, _⟩ => exact (D4_r0 _ _).trans hk
    | ⟨1, _⟩ => exact D4_r1 _ _)
  rw [el, er]

/-- A row broadcast down the 512 rows, read at an entry. -/
theorem bcastRow1024_apply (x : FVec Ideal S1x1024 .f32) (r : Fin 512) (k : Fin 1024) :
    broadcastTo S512x1024 x broadcasts_S1x1024_S512x1024 (ix2 r k) = x (ix2 0 k) := by
  refine broadcastTo_apply x _ _ _ fun a => ?_
  match a with
  | ⟨0, _⟩ => rfl
  | ⟨1, _⟩ => rfl

/-- A row broadcast down the 512 rows, read at an entry. -/
theorem bcastRow128_apply (x : FVec Ideal S1x128 .f32) (r : Fin 512) (j : Fin 128) :
    broadcastTo S512x128 x broadcasts_S1x128_S512x128 (ix2 r j) = x (ix2 0 j) := by
  refine broadcastTo_apply x _ _ _ fun a => ?_
  match a with
  | ⟨0, _⟩ => rfl
  | ⟨1, _⟩ => rfl

/-- The block arithmetic at entry (r, j). -/
theorem pay4_apply (v0 : Vec Ideal S512x1024 .f32) (v2 v4 v10 v14 : Vec Ideal S1x1024 .f32) (v21 : Vec Ideal S1024x128 .bf16)
    (v24 : Vec Ideal S1x128 .f32) (r : Fin 512) (j : Fin 128) :
    k4_pay1 (F := Ideal) v0 v2 v4 v10 v14 v21 v24 (ix2 r j)
      = (∑ k : Fin 1024, max (v2 (ix2 0 k) * (v0 (ix2 r k) - v4 (ix2 0 k)) * v10 (ix2 0 k) + v14 (ix2 0 k)) 0 * v21 (ix2 k j))
        + v24 (ix2 0 j) := by
  unfold k4_pay1
  simp only [shapeCast_self]
  show FloatOps.matmul D4 none _ v21 (constant (F := Ideal) S512x128 .f32 0x00000000#32) (ix2 r j)
      + broadcastTo S512x128 v24 broadcasts_S1x128_S512x128 (ix2 r j) = _
  rw [matmul4_apply, bcastRow128_apply]
  refine congrArg (· + v24 (ix2 0 j)) (Finset.sum_congr rfl fun k _ => ?_)
  show max (broadcastTo S512x1024 v2 broadcasts_S1x1024_S512x1024 (ix2 r k)
        * (v0 (ix2 r k) - broadcastTo S512x1024 v4 broadcasts_S1x1024_S512x1024 (ix2 r k))
        * broadcastTo S512x1024 v10 broadcasts_S1x1024_S512x1024 (ix2 r k)
        + broadcastTo S512x1024 v14 broadcasts_S1x1024_S512x1024 (ix2 r k)) (Ideal.ofBits .f32 0x00000000#32) * v21 (ix2 k j) = _
  rw [bcastRow1024_apply, bcastRow1024_apply, bcastRow1024_apply, bcastRow1024_apply, Ideal.ofBits_zero_f32]

end Cert.KernelIdeal.Vals

end
-- ==== Proof.R4Val.lean ====
/-
  The last layer's output array: entry (i, j) is the sum over k of the rectified, normalised
  fourth pre-activation (i, k) times the padded weight (k, j), plus the padded bias j.

  Each of the 32 grid points writes one block of 512 rows; row i lies in block i / 512, whose
  input block of the pre-activation is the same 512 rows, the other six inputs being whole arrays.
-/
import proofs.«157065_j74259984548393_2_alg».proof.Proof.R4ValPay

set_option maxRecDepth 16384

noncomputable section

namespace Cert.KernelIdeal.Vals

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- Entry (a, b) of a matrix of extended reals given on a rank-2 index set. -/
abbrev at2 {p q : ℕ} (X : (⟨2, ![p, q]⟩ : Shape).Idx → EReal) (a : Fin p) (b : Fin q) : EReal := X (ix2 a b)

/-- The rectified, normalised fourth pre-activation: scale · (h − mean) · inverse deviation + shift, clamped at 0. -/
def act4 (c : Dev nD) (i : Fin 16384) (k : Fin 1024) : EReal :=
  max (at2 (V c main_v63) 0 k * (at2 (V c main_v119_0) i k - at2 (V c main_v127) 0 k) * at2 (V c main_v136) 0 k
    + at2 (V c main_v64) 0 k) 0

/-- The array the last launch leaves: the activation's rows against the weights' columns, plus the bias. -/
def out4 (c : Dev nD) : S16384x128.Idx → EReal := fun y =>
  (∑ k : Fin 1024, act4 V c (y 0) k * at2 (V c main_v50) k (y 1)) + at2 (V c main_v52) 0 (y 1)

theorem zero_offset : (![0, 0] : Fin 2 → Nat) = fun _ => 0 := funext fun a => by fin_cases a <;> rfl

/-- The index maps over the grid: the pre-activation's and the output's row block is the point itself, every other
    block index is 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row p of block t. -/
def row4 (t : Fin cfg4.N) (p : Fin 512) : Fin 16384 :=
  ⟨512 * t.val + p.val, by have := lt_of_lt_of_eq t.isLt N_4; omega⟩

/-- Block t of the pre-activation holds rows 512 t … 512 t + 511 of the array. -/
theorem blk4_0 (c : Dev nD) (t : Fin cfg4.N) (p : Fin 512) (k : Fin 1024) :
    iblk4 V c 0 t (ix2 p k) = (V c main_v119_0 : S16384x1024.Idx → EReal) (ix2 (row4 t p) k) := by
  obtain ⟨e0, e1, -⟩ := idx_facts4 t
  show (V c main_v119_0 : S16384x1024.Idx → EReal) (((cfg4.win 0).blk t).view.emb (ix2 p k)) = _
  refine congrArg _ (funext fun a => Fin.ext ?_)
  match a with
  | ⟨0, _⟩ => show win4_0.index t (0 : Fin 2) * 512 + 1 * p.val = 512 * t.val + p.val; omega
  | ⟨1, _⟩ => show win4_0.index t (1 : Fin 2) * 1024 + 1 * k.val = k.val; omega

/-- Window 1 is the whole array at every point. -/
theorem blk4_1 (c : Dev nD) (t : Fin cfg4.N) (k : Fin 1024) :
    iblk4 V c 1 t (ix2 (0 : Fin 1) k) = (V c main_v127 : S1x1024.Idx → EReal) (ix2 (0 : Fin 1) k) := by
  obtain ⟨-, -, e0, e1, -⟩ := idx_facts4 t
  show (V c main_v127 : S1x1024.Idx → EReal) (((cfg4.win 1).blk t).view.emb (ix2 (0 : Fin 1) k)) = _
  refine congrArg _ (funext fun a => Fin.ext ?_)
  match a with
  | ⟨0, _⟩ => show win4_1.index t (0 : Fin 2) * 1 + 1 * 0 = 0; omega
  | ⟨1, _⟩ => show win4_1.index t (1 : Fin 2) * 1024 + 1 * k.val = k.val; omega

/-- Window 2 is the whole array at every point. -/
theorem blk4_2 (c : Dev nD) (t : Fin cfg4.N) (k : Fin 1024) :
    iblk4 V c 2 t (ix2 (0 : Fin 1) k) = (V c main_v136 : S1x1024.Idx → EReal) (ix2 (0 : Fin 1) k) := by
  obtain ⟨-, -, -, -, e0, e1, -⟩ := idx_facts4 t
  show (V c main_v136 : S1x1024.Idx → EReal) (((cfg4.win 2).blk t).view.emb (ix2 (0 : Fin 1) k)) = _
  refine congrArg _ (funext fun a => Fin.ext ?_)
  match a with
  | ⟨0, _⟩ => show win4_2.index t (0 : Fin 2) * 1 + 1 * 0 = 0; omega
  | ⟨1, _⟩ => show win4_2.index t (1 : Fin 2) * 1024 + 1 * k.val = k.val; omega

/-- Window 3 is the whole array at every point. -/
theorem blk4_3 (c : Dev nD) (t : Fin cfg4.N) (k : Fin 1024) :
    iblk4 V c 3 t (ix2 (0 : Fin 1) k) = (V c main_v63 : S1x1024.Idx → EReal) (ix2 (0 : Fin 1) k) := by
  obtain ⟨-, -, -, -, -, -, e0, e1, -⟩ := idx_facts4 t
  show (V c main_v63 : S1x1024.Idx → EReal) (((cfg4.win 3).blk t).view.emb (ix2 (0 : Fin 1) k)) = _
  refine congrArg _ (funext fun a => Fin.ext ?_)
  match a with
  | ⟨0, _⟩ => show win4_3.index t (0 : Fin 2) * 1 + 1 * 0 = 0; omega
  | ⟨1, _⟩ => show win4_3.index t (1 : Fin 2) * 1024 + 1 * k.val = k.val; omega

/-- Window 4 is the whole array at every point. -/
theorem blk4_4 (c : Dev nD) (t : Fin cfg4.N) (k : Fin 1024) :
    iblk4 V c 4 t (ix2 (0 : Fin 1) k) = (V c main_v64 : S1x1024.Idx → EReal) (ix2 (0 : Fin 1) k) := by
  obtain ⟨-, -, -, -, -, -, -, -, e0, e1, -⟩ := idx_facts4 t
  show (V c main_v64 : S1x1024.Idx → EReal) (((cfg4.win 4).blk t).view.emb (ix2 (0 : Fin 1) k)) = _
  refine congrArg _ (funext fun a => Fin.ext ?_)
  match a with
  | ⟨0, _⟩ => show win4_4.index t (0 : Fin 2) * 1 + 1 * 0 = 0; omega
  | ⟨1, _⟩ => show win4_4.index t (1 : Fin 2) * 1024 + 1 * k.val = k.val; omega

/-- Window 5 is the whole array at every point. -/
theorem blk4_5 (c : Dev nD) (t : Fin cfg4.N) (r : Fin 1024) (k : Fin 128) :
    iblk4 V c 5 t (ix2 r k) = (V c main_v50 : S1024x128.Idx → EReal) (ix2 r k) := by
  obtain ⟨-, -, -, -, -, -, -, -, -, -, e0, e1, -⟩ := idx_facts4 t
  show (V c main_v50 : S1024x128.Idx → EReal) (((cfg4.win 5).blk t).view.emb (ix2 r k)) = _
  refine congrArg _ (funext fun a => Fin.ext ?_)
  match a with
  | ⟨0, _⟩ => show win4_5.index t (0 : Fin 2) * 1024 + 1 * r.val = r.val; omega
  | ⟨1, _⟩ => show win4_5.index t (1 : Fin 2) * 128 + 1 * k.val = k.val; omega

/-- Window 6 is the whole array at every point. -/
theorem blk4_6 (c : Dev nD) (t : Fin cfg4.N) (k : Fin 128) :
    iblk4 V c 6 t (ix2 (0 : Fin 1) k) = (V c main_v52 : S1x128.Idx → EReal) (ix2 (0 : Fin 1) k) := by
  obtain ⟨-, -, -, -, -, -, -, -, -, -, -, -, e0, e1, -⟩ := idx_facts4 t
  show (V c main_v52 : S1x128.Idx → EReal) (((cfg4.win 6).blk t).view.emb (ix2 (0 : Fin 1) k)) = _
  refine congrArg _ (funext fun a => Fin.ext ?_)
  match a with
  | ⟨0, _⟩ => show win4_6.index t (0 : Fin 2) * 1 + 1 * 0 = 0; omega
  | ⟨1, _⟩ => show win4_6.index t (1 : Fin 2) * 128 + 1 * k.val = k.val; omega

/-- Entry (p, q) of the output's block t is entry (512 t + p, q) of the array. -/
theorem emb4_7 (t : Fin cfg4.N) (p : Fin 512) (q : Fin 128) :
    ((cfg4.win 7).blk t).view.emb (ix2 p q) = (ix2 (row4 t p) q : S16384x128.Idx) := by
  obtain ⟨-, -, -, -, -, -, -, -, -, -, -, -, -, -, e0, e1⟩ := idx_facts4 t
  refine funext fun a => Fin.ext ?_
  match a with
  | ⟨0, _⟩ => show win4_7.index t (0 : Fin 2) * 512 + 1 * p.val = 512 * t.val + p.val; omega
  | ⟨1, _⟩ => show win4_7.index t (1 : Fin 2) * 128 + 1 * q.val = q.val; omega

/-- What point t writes back is block t of the array. -/
theorem flushed4_eq (c : Dev nD) (t : Fin cfg4.N) :
    (dat4 (F := Ideal) V c).flushed 7 t = ((cfg4.win 7).blk t).view.read (Elt Ideal) (out4 V c) := by
  show (cfg4.win 7).cut (grid4.coords t) ((dat4 (F := Ideal) V c).after 7 t) = _
  rw [after4_7]
  unfold out4_7
  rw [View.canon_unit_zero zero_offset]
  simp only [View.ld_unit_zero (S := S512x1024) zero_offset, View.ld_unit_zero (S := S1x1024) zero_offset,
    View.ld_unit_zero (S := S1024x128) zero_offset, View.ld_unit_zero (S := S1x128) zero_offset]
  funext y
  obtain ⟨p, q, rfl⟩ : ∃ (p : Fin 512) (q : Fin 128), y = ix2 p q := ⟨y 0, y 1, eq_ix2 y⟩
  show k4_pay1 (F := Ideal) (iblk4 V c 0 t) (iblk4 V c 3 t) (iblk4 V c 1 t) (iblk4 V c 2 t) (iblk4 V c 4 t) (iblk4 V c 5 t)
      (iblk4 V c 6 t) (ix2 p q) = out4 V c (((cfg4.win 7).blk t).view.emb (ix2 p q))
  refine (pay4_apply (iblk4 V c 0 t) (iblk4 V c 3 t) (iblk4 V c 1 t) (iblk4 V c 2 t) (iblk4 V c 4 t) (iblk4 V c 5 t)
      (iblk4 V c 6 t) p q).trans ?_
  rw [emb4_7]
  show _ = (∑ k : Fin 1024, act4 V c (row4 t p) k * at2 (V c main_v50) k q) + at2 (V c main_v52) 0 q
  refine congr (congrArg _ (Finset.sum_congr rfl fun k _ => ?_)) (blk4_6 V c t q)
  rw [blk4_0 V c t p k, blk4_1 V c t k, blk4_2 V c t k, blk4_3 V c t k, blk4_4 V c t k, blk4_5 V c t k q]
  rfl

/-- An index of the array is in point t's block iff each coordinate is in the block's range on its axis. -/
theorem mem_blk4 (t : Fin cfg4.N) (i : S16384x128.Idx) :
    i ∈ ((cfg4.win 7).blk t).view.set ↔ ∀ a : Fin 2, win4_7.index t a * S512x128.size a ≤ (i a).val ∧ (i a).val < win4_7.index t a * S512x128.size a + S512x128.size a := by
  show i ∈ ((View.whole main_v137).slice (win4_7.rect t)).set ↔ _
  rw [View.set_slice_whole, Rect.mem_set_unit]
  exact Iff.rfl

/-- Every entry of the array lies in the block of the point its row's block number names. -/
theorem cover4 (i : S16384x128.Idx) : ∃ t : Fin cfg4.N, (cfg4.win 7).flush t = true ∧ i ∈ ((cfg4.win 7).blk t).view.set := by
  have hi0 : (i 0).val < 16384 := (i 0).isLt
  have hi1 : (i 1).val < 128 := (i 1).isLt
  let t : Fin cfg4.N := ⟨(i 0).val / 512, by rw [show cfg4.N = 32 from N_4]; omega⟩
  obtain ⟨-, -, -, -, -, -, -, -, -, -, -, -, -, -, e0, e1⟩ := idx_facts4 t
  have e0' : win4_7.index t (0 : Fin 2) = (i 0).val / 512 := e0
  refine ⟨t, flush4_7 t, ?_⟩
  rw [mem_blk4]
  intro a
  match a with
  | ⟨0, _⟩ => show win4_7.index t (0 : Fin 2) * 512 ≤ (i 0).val ∧ (i 0).val < win4_7.index t (0 : Fin 2) * 512 + 512; omega
  | ⟨1, _⟩ => show win4_7.index t (1 : Fin 2) * 128 ≤ (i 1).val ∧ (i 1).val < win4_7.index t (1 : Fin 2) * 128 + 128; omega

/-- The output array after the launch. -/
theorem final4 (c : Dev nD) : (dat4 (F := Ideal) V c).arrAt 7 cfg4.N = out4 V c :=
  (dat4 (F := Ideal) V c).arrAt_eq_of_cover 7 (out4 V c) (fun t _ => flushed4_eq V c t) cover4

/-- Entry (i, j) of the last launch's output: the rectified, normalised fourth pre-activation's row i against column j
    of the padded weights, plus the padded bias. -/
theorem r4_h (c : Dev nD) (i : Fin 16384) (j : Fin 128) :
    (dat4 (F := Ideal) V c).arrAt 7 cfg4.N (ix2 i j)
      = (∑ k : Fin 1024, act4 V c i k * at2 (V c main_v50) k j) + at2 (V c main_v52) 0 j := by
  rw [final4]
  rfl

end Cert.KernelIdeal.Vals

end
-- ==== Proof.KValue.lean ====
/-
  The kernel program's result, layer by layer: each launch's pre-activation array is the specification's
  (running-totals spelling), its two per-half totals are the block-wise column totals of that array and of its
  squares, the host lines between two launches turn them into the mean and inverse-deviation rows, and the last
  launch's first ten columns are the logits.
-/
import proofs.«157065_j74259984548393_2_alg».proof.Proof.KEntry
import proofs.«157065_j74259984548393_2_alg».proof.Proof.KResult
import proofs.«157065_j74259984548393_2_alg».proof.Proof.KTailRef
import proofs.«157065_j74259984548393_2_alg».proof.Proof.KStats
import proofs.«157065_j74259984548393_2_alg».proof.Proof.KHostPre
import proofs.«157065_j74259984548393_2_alg».proof.Proof.R0Val
import proofs.«157065_j74259984548393_2_alg».proof.Proof.R1Val
import proofs.«157065_j74259984548393_2_alg».proof.Proof.R2Val
import proofs.«157065_j74259984548393_2_alg».proof.Proof.R3Val
import proofs.«157065_j74259984548393_2_alg».proof.Proof.R4Val

set_option maxRecDepth 16384

noncomputable section

namespace Cert.KernelIdeal.Vals

open Idealize.ShloMosaic Idealize.ShloMosaic.TcCoe Idealize.ShloMosaic.ValueIdx
open Idealize.SL.Sem
open Cert.KernelIdeal Cert.KernelIdeal.Gen Cert.KernelIdeal.Hand Cert.KernelIdeal.HostVals

variable (m : (ℓ : Loc nD τ sig) → Buf (Elt Ideal) ℓ) (ρ : Dev nD → PrngReg) (c : Dev nD)

/-- The specification's arguments: the nineteen argument arrays of the launch memory on core `c`. -/
abbrev args : Cert.Spec.Args := Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-! ## Layer 1 -/

theorem spec_H0 (i : Fin 16384) (j : Fin 1024) : H0 (V5 m ρ) c i j = Cert.Spec.h1K Cert.Spec.c784 (args m c) i j := by
  unfold H0 Cert.Spec.h1K Cert.Spec.lin
  dsimp only [R0.X0, R0.W0, R0.B0]
  have e_main_v9 : W5 m ρ c (Proc.devRef .tc main_v9) = binWT784 (W0 m ρ c (Proc.devRef .tc main_arg1)) := pre_main_v9 (W0 m ρ c) _ rfl
  have e_main_v53 : W5 m ρ c (Proc.devRef .tc main_v53) = rowT (W0 m ρ c (Proc.devRef .tc main_arg2)) := pre_main_v53 (W0 m ρ c) _ rfl
  rw [entry0_main_arg0, entry0_main_v9, entry0_main_v53, e_main_v9, e_main_v53]
  simp only [binWT784_apply, rowT_apply]
  rfl

theorem L1 (i : Fin 16384) (j : Fin 1024) :
    (dat0 (F := Ideal) (V5 m ρ) c).arrAt 3 cfg0.N (ix2 i j) = Cert.Spec.h1K Cert.Spec.c784 (args m c) i j :=
  (r0_h (V5 m ρ) c i j).trans (spec_H0 m ρ c i j)
theorem S1 (h : Fin 2) (j : Fin 1024) : (dat0 (F := Ideal) (V5 m ρ) c).arrAt 4 cfg0.N (ix3 h (0 : Fin 1) j)
    = ∑ t : Fin 16, ∑ r : Fin 512, Cert.Spec.h1K Cert.Spec.c784 (args m c) (Cert.Spec.rowOf h t r) j := by
  rw [r0_s]; simp only [spec_H0 m ρ c]
theorem SS1 (h : Fin 2) (j : Fin 1024) : (dat0 (F := Ideal) (V5 m ρ) c).arrAt 5 cfg0.N (ix3 h (0 : Fin 1) j)
    = ∑ t : Fin 16, ∑ r : Fin 512, Cert.Spec.h1K Cert.Spec.c784 (args m c) (Cert.Spec.rowOf h t r) j * Cert.Spec.h1K Cert.Spec.c784 (args m c) (Cert.Spec.rowOf h t r) j := by
  rw [r0_ss]; simp only [spec_H0 m ρ c]

/-! ## The statistics of layer 1 and layer 2 -/

theorem M1 (u : Fin 1) (j : Fin 1024) : V7 m ρ c main_v73 (ix2 u j) = Cert.Spec.meanK Cert.Spec.cB (Cert.Spec.h1K Cert.Spec.c784 (args m c)) j := by
  rw [entry1_main_v73, after1_mean (W6 m ρ c) _ (W6_main_v65_1 m ρ c)]
  exact mean_of_totals _ (fun h j => S1 m ρ c h j) u j
theorem I1 (u : Fin 1) (j : Fin 1024) : V7 m ρ c main_v82 (ix2 u j)
    = Ideal.rsqrt (Cert.Spec.varK Cert.Spec.cB (Cert.Spec.h1K Cert.Spec.c784 (args m c)) j + Cert.Spec.eps) := by
  rw [entry1_main_v82, after1_istd (W6 m ρ c) _ _ (W6_main_v65_1 m ρ c) (W6_main_v65_2 m ρ c)]
  exact istd_of_totals _ _ (fun h j => S1 m ρ c h j) (fun h j => SS1 m ρ c h j) u j

theorem spec_H1 (i : Fin 16384) (j : Fin 1024) : H1 (V7 m ρ) c i j = Cert.Spec.h2K Cert.Spec.cB Cert.Spec.eps Cert.Spec.c784 Cert.Spec.c1024 (args m c) i j := by
  unfold H1 bnLin bnAct Cert.Spec.h2K Cert.Spec.lin Cert.Spec.bnreluK
  have e_main_v57 : W5 m ρ c (Proc.devRef .tc main_v57) = rowT (W0 m ρ c (Proc.devRef .tc main_arg11)) := pre_main_v57 (W0 m ρ c) _ rfl
  have e_main_v58 : W5 m ρ c (Proc.devRef .tc main_v58) = rowT (W0 m ρ c (Proc.devRef .tc main_arg12)) := pre_main_v58 (W0 m ρ c) _ rfl
  have e_main_v19 : W5 m ρ c (Proc.devRef .tc main_v19) = binWT1024 (W0 m ρ c (Proc.devRef .tc main_arg3)) := pre_main_v19 (W0 m ρ c) _ rfl
  have e_main_v54 : W5 m ρ c (Proc.devRef .tc main_v54) = rowT (W0 m ρ c (Proc.devRef .tc main_arg4)) := pre_main_v54 (W0 m ρ c) _ rfl
  rw [entry1_main_v65_0, entry1_main_v57, entry1_main_v58, entry1_main_v19, entry1_main_v54, e_main_v57, e_main_v58, e_main_v19, e_main_v54]
  simp only [L1 m ρ c, M1 m ρ c, I1 m ρ c, binWT1024_apply, rowT_apply]
  rfl

theorem L2 (i : Fin 16384) (j : Fin 1024) :
    (dat1 (F := Ideal) (V7 m ρ) c).arrAt 7 cfg1.N (ix2 i j) = Cert.Spec.h2K Cert.Spec.cB Cert.Spec.eps Cert.Spec.c784 Cert.Spec.c1024 (args m c) i j :=
  (r1_h (V7 m ρ) c i j).trans (spec_H1 m ρ c i j)
theorem S2 (h : Fin 2) (j : Fin 1024) : (dat1 (F := Ideal) (V7 m ρ) c).arrAt 8 cfg1.N (ix3 h (0 : Fin 1) j)
    = ∑ t : Fin 16, ∑ r : Fin 512, Cert.Spec.h2K Cert.Spec.cB Cert.Spec.eps Cert.Spec.c784 Cert.Spec.c1024 (args m c) (Cert.Spec.rowOf h t r) j := by
  rw [r1_s]; simp only [spec_H1 m ρ c]
theorem SS2 (h : Fin 2) (j : Fin 1024) : (dat1 (F := Ideal) (V7 m ρ) c).arrAt 9 cfg1.N (ix3 h (0 : Fin 1) j)
    = ∑ t : Fin 16, ∑ r : Fin 512, Cert.Spec.h2K Cert.Spec.cB Cert.Spec.eps Cert.Spec.c784 Cert.Spec.c1024 (args m c) (Cert.Spec.rowOf h t r) j * Cert.Spec.h2K Cert.Spec.cB Cert.Spec.eps Cert.Spec.c784 Cert.Spec.c1024 (args m c) (Cert.Spec.rowOf h t r) j := by
  rw [r1_ss]; simp only [spec_H1 m ρ c]

/-! ## The statistics of layer 2 and layer 3 -/

theorem M2 (u : Fin 1) (j : Fin 1024) : V9 m ρ c main_v91 (ix2 u j) = Cert.Spec.meanK Cert.Spec.cB (Cert.Spec.h2K Cert.Spec.cB Cert.Spec.eps Cert.Spec.c784 Cert.Spec.c1024 (args m c)) j := by
  rw [entry2_main_v91, after2_mean (W8 m ρ c) _ (W8_main_v83_1 m ρ c)]
  exact mean_of_totals _ (fun h j => S2 m ρ c h j) u j
theorem I2 (u : Fin 1) (j : Fin 1024) : V9 m ρ c main_v100 (ix2 u j)
    = Ideal.rsqrt (Cert.Spec.varK Cert.Spec.cB (Cert.Spec.h2K Cert.Spec.cB Cert.Spec.eps Cert.Spec.c784 Cert.Spec.c1024 (args m c)) j + Cert.Spec.eps) := by
  rw [entry2_main_v100, after2_istd (W8 m ρ c) _ _ (W8_main_v83_1 m ρ c) (W8_main_v83_2 m ρ c)]
  exact istd_of_totals _ _ (fun h j => S2 m ρ c h j) (fun h j => SS2 m ρ c h j) u j

theorem spec_H2 (i : Fin 16384) (j : Fin 1024) : H2 (V9 m ρ) c i j = Cert.Spec.h3K Cert.Spec.cB Cert.Spec.eps Cert.Spec.c784 Cert.Spec.c1024 (args m c) i j := by
  unfold H2 bnLin bnAct Cert.Spec.h3K Cert.Spec.lin Cert.Spec.bnreluK
  have e_main_v59 : W5 m ρ c (Proc.devRef .tc main_v59) = rowT (W0 m ρ c (Proc.devRef .tc main_arg13)) := pre_main_v59 (W0 m ρ c) _ rfl
  have e_main_v60 : W5 m ρ c (Proc.devRef .tc main_v60) = rowT (W0 m ρ c (Proc.devRef .tc main_arg14)) := pre_main_v60 (W0 m ρ c) _ rfl
  have e_main_v29 : W5 m ρ c (Proc.devRef .tc main_v29) = binWT1024 (W0 m ρ c (Proc.devRef .tc main_arg5)) := pre_main_v29 (W0 m ρ c) _ rfl
  have e_main_v55 : W5 m ρ c (Proc.devRef .tc main_v55) = rowT (W0 m ρ c (Proc.devRef .tc main_arg6)) := pre_main_v55 (W0 m ρ c) _ rfl
  rw [entry2_main_v83_0, entry2_main_v59, entry2_main_v60, entry2_main_v29, entry2_main_v55, e_main_v59, e_main_v60, e_main_v29, e_main_v55]
  simp only [L2 m ρ c, M2 m ρ c, I2 m ρ c, binWT1024_apply, rowT_apply]
  rfl

theorem L3 (i : Fin 16384) (j : Fin 1024) :
    (dat2 (F := Ideal) (V9 m ρ) c).arrAt 7 cfg2.N (ix2 i j) = Cert.Spec.h3K Cert.Spec.cB Cert.Spec.eps Cert.Spec.c784 Cert.Spec.c1024 (args m c) i j :=
  (r2_h (V9 m ρ) c i j).trans (spec_H2 m ρ c i j)
theorem S3 (h : Fin 2) (j : Fin 1024) : (dat2 (F := Ideal) (V9 m ρ) c).arrAt 8 cfg2.N (ix3 h (0 : Fin 1) j)
    = ∑ t : Fin 16, ∑ r : Fin 512, Cert.Spec.h3K Cert.Spec.cB Cert.Spec.eps Cert.Spec.c784 Cert.Spec.c1024 (args m c) (Cert.Spec.rowOf h t r) j := by
  rw [r2_s]; simp only [spec_H2 m ρ c]
theorem SS3 (h : Fin 2) (j : Fin 1024) : (dat2 (F := Ideal) (V9 m ρ) c).arrAt 9 cfg2.N (ix3 h (0 : Fin 1) j)
    = ∑ t : Fin 16, ∑ r : Fin 512, Cert.Spec.h3K Cert.Spec.cB Cert.Spec.eps Cert.Spec.c784 Cert.Spec.c1024 (args m c) (Cert.Spec.rowOf h t r) j * Cert.Spec.h3K Cert.Spec.cB Cert.Spec.eps Cert.Spec.c784 Cert.Spec.c1024 (args m c) (Cert.Spec.rowOf h t r) j := by
  rw [r2_ss]; simp only [spec_H2 m ρ c]

/-! ## The statistics of layer 3 and layer 4 -/

theorem M3 (u : Fin 1) (j : Fin 1024) : V11 m ρ c main_v109 (ix2 u j) = Cert.Spec.meanK Cert.Spec.cB (Cert.Spec.h3K Cert.Spec.cB Cert.Spec.eps Cert.Spec.c784 Cert.Spec.c1024 (args m c)) j := by
  rw [entry3_main_v109, after3_mean (W10 m ρ c) _ (W10_main_v101_1 m ρ c)]
  exact mean_of_totals _ (fun h j => S3 m ρ c h j) u j
theorem I3 (u : Fin 1) (j : Fin 1024) : V11 m ρ c main_v118 (ix2 u j)
    = Ideal.rsqrt (Cert.Spec.varK Cert.Spec.cB (Cert.Spec.h3K Cert.Spec.cB Cert.Spec.eps Cert.Spec.c784 Cert.Spec.c1024 (args m c)) j + Cert.Spec.eps) := by
  rw [entry3_main_v118, after3_istd (W10 m ρ c) _ _ (W10_main_v101_1 m ρ c) (W10_main_v101_2 m ρ c)]
  exact istd_of_totals _ _ (fun h j => S3 m ρ c h j) (fun h j => SS3 m ρ c h j) u j

theorem spec_H3 (i : Fin 16384) (j : Fin 1024) : H3 (V11 m ρ) c i j = Cert.Spec.h4K Cert.Spec.cB Cert.Spec.eps Cert.Spec.c784 Cert.Spec.c1024 (args m c) i j := by
  unfold H3 bnLin bnAct Cert.Spec.h4K Cert.Spec.lin Cert.Spec.bnreluK
  have e_main_v61 : W5 m ρ c (Proc.devRef .tc main_v61) = rowT (W0 m ρ c (Proc.devRef .tc main_arg15)) := pre_main_v61 (W0 m ρ c) _ rfl
  have e_main_v62 : W5 m ρ c (Proc.devRef .tc main_v62) = rowT (W0 m ρ c (Proc.devRef .tc main_arg16)) := pre_main_v62 (W0 m ρ c) _ rfl
  have e_main_v39 : W5 m ρ c (Proc.devRef .tc main_v39) = binWT1024 (W0 m ρ c (Proc.devRef .tc main_arg7)) := pre_main_v39 (W0 m ρ c) _ rfl
  have e_main_v56 : W5 m ρ c (Proc.devRef .tc main_v56) = rowT (W0 m ρ c (Proc.devRef .tc main_arg8)) := pre_main_v56 (W0 m ρ c) _ rfl
  rw [entry3_main_v101_0, entry3_main_v61, entry3_main_v62, entry3_main_v39, entry3_main_v56, e_main_v61, e_main_v62, e_main_v39, e_main_v56]
  simp only [L3 m ρ c, M3 m ρ c, I3 m ρ c, binWT1024_apply, rowT_apply]
  rfl

theorem L4 (i : Fin 16384) (j : Fin 1024) :
    (dat3 (F := Ideal) (V11 m ρ) c).arrAt 7 cfg3.N (ix2 i j) = Cert.Spec.h4K Cert.Spec.cB Cert.Spec.eps Cert.Spec.c784 Cert.Spec.c1024 (args m c) i j :=
  (r3_h (V11 m ρ) c i j).trans (spec_H3 m ρ c i j)
theorem S4 (h : Fin 2) (j : Fin 1024) : (dat3 (F := Ideal) (V11 m ρ) c).arrAt 8 cfg3.N (ix3 h (0 : Fin 1) j)
    = ∑ t : Fin 16, ∑ r : Fin 512, Cert.Spec.h4K Cert.Spec.cB Cert.Spec.eps Cert.Spec.c784 Cert.Spec.c1024 (args m c) (Cert.Spec.rowOf h t r) j := by
  rw [r3_s]; simp only [spec_H3 m ρ c]
theorem SS4 (h : Fin 2) (j : Fin 1024) : (dat3 (F := Ideal) (V11 m ρ) c).arrAt 9 cfg3.N (ix3 h (0 : Fin 1) j)
    = ∑ t : Fin 16, ∑ r : Fin 512, Cert.Spec.h4K Cert.Spec.cB Cert.Spec.eps Cert.Spec.c784 Cert.Spec.c1024 (args m c) (Cert.Spec.rowOf h t r) j * Cert.Spec.h4K Cert.Spec.cB Cert.Spec.eps Cert.Spec.c784 Cert.Spec.c1024 (args m c) (Cert.Spec.rowOf h t r) j := by
  rw [r3_ss]; simp only [spec_H3 m ρ c]

/-! ## The statistics of layer 4 -/

theorem M4 (u : Fin 1) (j : Fin 1024) : V13 m ρ c main_v127 (ix2 u j) = Cert.Spec.meanK Cert.Spec.cB (Cert.Spec.h4K Cert.Spec.cB Cert.Spec.eps Cert.Spec.c784 Cert.Spec.c1024 (args m c)) j := by
  rw [entry4_main_v127, after4_mean (W12 m ρ c) _ (W12_main_v119_1 m ρ c)]
  exact mean_of_totals _ (fun h j => S4 m ρ c h j) u j
theorem I4 (u : Fin 1) (j : Fin 1024) : V13 m ρ c main_v136 (ix2 u j)
    = Ideal.rsqrt (Cert.Spec.varK Cert.Spec.cB (Cert.Spec.h4K Cert.Spec.cB Cert.Spec.eps Cert.Spec.c784 Cert.Spec.c1024 (args m c)) j + Cert.Spec.eps) := by
  rw [entry4_main_v136, after4_istd (W12 m ρ c) _ _ (W12_main_v119_1 m ρ c) (W12_main_v119_2 m ρ c)]
  exact istd_of_totals _ _ (fun h j => S4 m ρ c h j) (fun h j => SS4 m ρ c h j) u j

/-! ## The logits: the last launch's first ten columns -/

theorem L5 (i : Fin 16384) (j : Fin 10) :
    (dat4 (F := Ideal) (V13 m ρ) c).arrAt 7 cfg4.N (ix2 i ⟨j.val, Nat.lt_of_lt_of_le j.isLt (by decide)⟩)
      = Cert.Spec.h5K Cert.Spec.cB Cert.Spec.eps Cert.Spec.c784 Cert.Spec.c1024 (args m c) i j := by
  rw [r4_h]
  unfold act4 Cert.Spec.h5K Cert.Spec.lin Cert.Spec.bnreluK
  dsimp only [at2]
  have e_main_v63 : W5 m ρ c (Proc.devRef .tc main_v63) = rowT (W0 m ρ c (Proc.devRef .tc main_arg17)) := pre_main_v63 (W0 m ρ c) _ rfl
  have e_main_v64 : W5 m ρ c (Proc.devRef .tc main_v64) = rowT (W0 m ρ c (Proc.devRef .tc main_arg18)) := pre_main_v64 (W0 m ρ c) _ rfl
  rw [entry4_main_v119_0, entry4_main_v63, entry4_main_v64, entry4_main_v50, entry4_main_v52, e_main_v63, e_main_v64]
  have e50 : ∀ k : Fin 1024, W5 m ρ c (Proc.devRef .tc main_v50) (ix2 k ⟨j.val, Nat.lt_of_lt_of_le j.isLt (by decide)⟩)
      = Cert.Spec.binK Cert.Spec.c1024 (fun r k => W0 m ρ c (Proc.devRef .tc main_arg9) (ix2 r k)) j k :=
    fun k => pre_main_v50_lt (W0 m ρ c) _ rfl k j
  have e52 : W5 m ρ c (Proc.devRef .tc main_v52) (ix2 (0 : Fin 1) ⟨j.val, Nat.lt_of_lt_of_le j.isLt (by decide)⟩)
      = W0 m ρ c (Proc.devRef .tc main_arg10) (ix1 j) := pre_main_v52_lt (W0 m ρ c) _ rfl 0 j
  simp only [L4 m ρ c, M4 m ρ c, I4 m ρ c, rowT_apply, e50, e52]
  rfl

/-- The result buffer after the run: the shared tail of the specification's logits. -/
theorem kernel_value : W16 m ρ c (Proc.devRef .tc main_v139)
    = Cert.RefSide.tail (F := Ideal) (fun ix => Cert.Spec.h5K Cert.Spec.cB Cert.Spec.eps Cert.Spec.c784 Cert.Spec.c1024 (args m c) (ix 0) (ix 1)) := by
  rw [result_eq, hostTail_eq, W14_main_v137]
  congr 1
  funext ix
  exact L5 m ρ c (ix 0) (ix 1)

end Cert.KernelIdeal.Vals

end
-- ==== Proof.PreReal.lean ====
/-
  From the precondition to the real-valuedness of the arguments.

  The precondition says that a conjunction of nineteen tests "every entry x of the array has
  |x| < +∞" is true.  On the extended reals, |x| = max x (-x) is below +∞ exactly when x is
  neither +∞ nor -∞, that is, when x is a real number.
-/
import proofs.«157065_j74259984548393_2_alg».proof.Defs
import proofs.«157065_j74259984548393_2_alg».proof.Proof.SpecArgs
import Idealize.ShloMosaic.Lib.ReduceAll
import Idealize.ShloMosaic.Lib.ValueIdx

noncomputable section

namespace Cert.KernelIdeal.Vals

open Idealize.ShloMosaic Idealize.ShloMosaic.ValueIdx

/-- The scalar shape has one index. -/
instance subsingleton_scalar_idx : Subsingleton (Cert.Pre_finite_inputs.S_).Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

/-- One test: if "all |x| < +∞" came out true then every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr h0 ix0 = 1#1) (i : s.Idx) : ∃ r : ℝ, x i = r :=
  real_of_abs_lt (x i) (Host.reduce_andi_all _ _ hr h0 ix0 h i)

/-- Under the precondition every entry of every argument array is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Cert.Spec.argsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))).Real := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  simp only [IntOp.andi_eq_one] at h0
  obtain ⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩ := h0
  exact ⟨fun i k => real_of_all _ _ _ _ h0 (ix2 i k),
    fun i k => real_of_all _ _ _ _ h1 (ix2 i k),
    fun i => real_of_all _ _ _ _ h2 (ix1 i),
    fun i k => real_of_all _ _ _ _ h3 (ix2 i k),
    fun i => real_of_all _ _ _ _ h4 (ix1 i),
    fun i k => real_of_all _ _ _ _ h5 (ix2 i k),
    fun i => real_of_all _ _ _ _ h6 (ix1 i),
    fun i k => real_of_all _ _ _ _ h7 (ix2 i k),
    fun i => real_of_all _ _ _ _ h8 (ix1 i),
    fun i k => real_of_all _ _ _ _ h9 (ix2 i k),
    fun i => real_of_all _ _ _ _ h10 (ix1 i),
    fun i => real_of_all _ _ _ _ h11 (ix1 i),
    fun i => real_of_all _ _ _ _ h12 (ix1 i),
    fun i => real_of_all _ _ _ _ h13 (ix1 i),
    fun i => real_of_all _ _ _ _ h14 (ix1 i),
    fun i => real_of_all _ _ _ _ h15 (ix1 i),
    fun i => real_of_all _ _ _ _ h16 (ix1 i),
    fun i => real_of_all _ _ _ _ h17 (ix1 i),
    fun i => real_of_all _ _ _ _ h18 (ix1 i)⟩

end Cert.KernelIdeal.Vals

end
-- ==== Proof.RefOps.lean ====
/-
  The reference program as one straight line of its 288 host operations, the outlined functions'
  operations written at their call sites over each call's own buffers, cut into 26 consecutive
  pieces at the stage boundaries (binarised weights, pre-activation, mean, variance,
  normalise-and-rectify of each layer; a piece also ends where the printed program's windows end).
  For each piece: the buffers it touches are TensorCore references, no operation leaves its
  result undetermined, and the list of the buffers it writes.
-/
import proofs.«157065_j74259984548393_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 … 12 of the flattened program (the values `main_v0` … `main_v9`). -/
abbrev p01 : List (HloOp τ sig (Elt F)) :=
  [ StableHlo.unary main_arg1 main_v0 (Host.absf : (⟨S1024x784, .f32⟩ : BufTy).Contents (Elt F) → (⟨S1024x784, .f32⟩ : BufTy).Contents (Elt F)),
    StableHlo.nullary main_cst (constant S_ .f32 0x00000000#32),
    StableHlo.binary main_v0 main_cst main_v1 ((fun x v => Host.reduceAdd x v reducesTo_S1024x784_S1024_d1 h_S_) : (⟨S1024x784, .f32⟩ : BufTy).Contents (Elt F) → (⟨S_, .f32⟩ : BufTy).Contents (Elt F) → (⟨S1024, .f32⟩ : BufTy).Contents (Elt F)),
    StableHlo.unary main_v1 main_v2 (broadcastInDim S1024x1 ![0] bcast_S1024_S1024x1_0 : (⟨S1024, .f32⟩ : BufTy).Contents (Elt F) → (⟨S1024x1, .f32⟩ : BufTy).Contents (Elt F)),
    StableHlo.nullary main_cst_0 (constant S_ .f32 0x44440000#32),
    StableHlo.unary main_cst_0 main_v3 (broadcastInDim S1024x1 ![] bcast_S_S1024x1 : (⟨S_, .f32⟩ : BufTy).Contents (Elt F) → (⟨S1024x1, .f32⟩ : BufTy).Contents (Elt F)),
    StableHlo.binary main_v2 main_v3 main_v4 (Host.divf : (⟨S1024x1, .f32⟩ : BufTy).Contents (Elt F) → (⟨S1024x1, .f32⟩ : BufTy).Contents (Elt F) → (⟨S1024x1, .f32⟩ : BufTy).Contents (Elt F)),
    StableHlo.unary main_arg1 main_v5 (Host.sign : (⟨S1024x784, .f32⟩ : BufTy).Contents (Elt F) → (⟨S1024x784, .f32⟩ : BufTy).Contents (Elt F)),
    StableHlo.unary main_v4 main_v6 (broadcastInDim S1024x784 ![0, 1] bcast_S1024x1_S1024x784_0_1 : (⟨S1024x1, .f32⟩ : BufTy).Contents (Elt F) → (⟨S1024x784, .f32⟩ : BufTy).Contents (Elt F)),
    StableHlo.binary main_v5 main_v6 main_v7 (mulf : (⟨S1024x784, .f32⟩ : BufTy).Contents (Elt F) → (⟨S1024x784, .f32⟩ : BufTy).Contents (Elt F) → (⟨S1024x784, .f32⟩ : BufTy).Contents (Elt F)),
    StableHlo.binary main_v7 main_arg1 main_v8 (subf : (⟨S1024x784, .f32⟩ : BufTy).Contents (Elt F) → (⟨S1024x784, .f32⟩ : BufTy).Contents (Elt F) → (⟨S1024x784, .f32⟩ : BufTy).Contents (Elt F)),
    StableHlo.binary main_arg1 main_v8 main_v9 (addf : (⟨S1024x784, .f32⟩ : BufTy).Contents (Elt F) → (⟨S1024x784, .f32⟩ : BufTy).Contents (Elt F) → (⟨S1024x784, .f32⟩ : BufTy).Contents (Elt F)) ]

theorem p01_sub : (p01 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., binary_bufs_sub .., binary_bufs_sub .., binary_bufs_sub ..⟩

theorem p01_fresh : ∀ op ∈ (p01 : List (HloOp τ sig (Elt F))), op.fresh = ∅ := by intro _ h; (repeat (cases h with | head => rfl | tail _ h => ?_)); exact nomatch h

/-- The buffers the piece writes. -/
abbrev p01_W : List (Ref sig .tc) := [main_v0, main_cst, main_v1, main_v2, main_cst_0, main_v3, main_v4, main_v5, main_v6, main_v7, main_v8, main_v9]

theorem p01_writes : (p01 : List (HloOp τ sig (Elt F))).Forall fun op =>
    op.writes ⊆ (p01_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 13 … 17 of the flattened program (the values `main_v10` … `main_v14`). -/
abbrev p02 : List (HloOp τ sig (Elt F)) :=
  [ StableHlo.unary main_v9 main_v10 ((transpose S784x1024 [1, 0] · transposes_S1024x784_S784x1024_1_0) : (⟨S1024x784, .f32⟩ : BufTy).Contents (Elt F) → (⟨S784x1024, .f32⟩ : BufTy).Contents (Elt F)),
    StableHlo.binary main_arg0 main_v10 main_v11 ((fun l r => Host.dotGeneral dot_S16384x784_S784x1024_S16384x1024_1_0_0_1_n_n none l r) : (⟨S16384x784, .f32⟩ : BufTy).Contents (Elt F) → (⟨S784x1024, .f32⟩ : BufTy).Contents (Elt F) → (⟨S16384x1024, .f32⟩ : BufTy).Contents (Elt F)),
    StableHlo.unary main_arg2 main_v12 (broadcastInDim S1x1024 ![1] bcast_S1024_S1x1024_1 : (⟨S1024, .f32⟩ : BufTy).Contents (Elt F) → (⟨S1x1024, .f32⟩ : BufTy).Contents (Elt F)),
    StableHlo.unary main_v12 main_v13 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v11 main_v13 main_v14 (addf : (⟨S16384x1024, .f32⟩ : BufTy).Contents (Elt F) → (⟨S16384x1024, .f32⟩ : BufTy).Contents (Elt F) → (⟨S16384x1024, .f32⟩ : BufTy).Contents (Elt F)) ]

theorem p02_sub : (p02 : List (HloOp τ sig (Elt F))).Forall fun op => op.bufs ⊆ tcRefs τ sig :=
  ⟨unary_bufs_sub .., binary_bufs_sub .., unary_bufs_sub .., unary_bufs_sub .., binary_bufs_sub ..⟩

theorem p02_fresh : ∀ op ∈ (p02 : List (HloOp τ sig (Elt F))), op.fresh = ∅ := by intro _ h; (repeat (cases h with | head => rfl | tail _ h => ?_)); exact nomatch h

/-- The buffers the piece writes. -/
abbrev p02_W : List (Ref sig .tc) := [main_v10, main_v11, main_v12, main_v13, main_v14]

theorem p02_writes : (p02 : List (HloOp τ sig (Elt F))).Forall fun op =>
    op.writes ⊆ (p02_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 18 … 22 of the flattened program (the values `main_cst_1` … `main_v17`). -/
abbrev p03 : List (HloOp τ sig (Elt F)) :=
  [ StableHlo.nullary main_cst_1 (constant S_ .f32 0x00000000#32),
    StableHlo.binary main_v14 main_cst_1 main_v15 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_2 (constant S_ .f32 0x46800000#32),
    StableHlo.unary main_cst_2 main_v16 (broadcastInDim S1024 ![] bcast_S_S1024 : (⟨S_, .f32⟩ : BufTy).Contents (Elt F) → (⟨S1024, .f32⟩ : BufTy).Contents (Elt F)),
    StableHlo.binary main_v15 main_v16 main_v17 (Host.divf : (⟨S1024, .f32⟩ : BufTy).Contents (Elt F) → (⟨S1024, .f32⟩ : BufTy).Contents (Elt F) → (⟨S1024, .f32⟩ : BufTy).Contents (Elt F)) ]

theorem p03_sub : (p03 : List (HloOp τ sig (Elt F))).Forall fun op => op.bufs ⊆ tcRefs τ sig :=
  ⟨nullary_bufs_sub .., binary_bufs_sub .., nullary_bufs_sub .., unary_bufs_sub .., binary_bufs_sub ..⟩

theorem p03_fresh : ∀ op ∈ (p03 : List (HloOp τ sig (Elt F))), op.fresh = ∅ := by intro _ h; (repeat (cases h with | head => rfl | tail _ h => ?_)); exact nomatch h

/-- The buffers the piece writes. -/
abbrev p03_W : List (Ref sig .tc) := [main_cst_1, main_v15, main_cst_2, main_v16, main_v17]

theorem p03_writes : (p03 : List (HloOp τ sig (Elt F))).Forall fun op =>
    op.writes ⊆ (p03_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 23 … 45 of the flattened program (the values `main_c` … `main_v18`). -/
abbrev p04 : List (HloOp τ sig (Elt F)) :=
  [ StableHlo.nullary main_c (constantI S_ 32 0#32),
    StableHlo.TRef.nullary main_call0.cst (constant S_ .f32 0x00000000#32),
    StableHlo.TRef.binary (TRef.of main_v14 : TRef sig ⟨S16384x1024, .f32⟩) main_call0.cst main_call0.v0 (fun x v => Host.reduceAdd x v reducesTo_S16384x1024_S1024_d0 h_S_),
    StableHlo.TRef.unary main_call0.v0 main_call0.v1 (broadcastInDim S1x1024 ![1] bcast_S1024_S1x1024_1),
    StableHlo.TRef.nullary main_call0.cst_0 (constant S_ .f32 0x46800000#32),
    StableHlo.TRef.unary main_call0.cst_0 main_call0.v2 (broadcastInDim S1x1024 ![] bcast_S_S1x1024),
    StableHlo.TRef.binary main_call0.v1 main_call0.v2 main_call0.v3 Host.divf,
    StableHlo.TRef.unary main_call0.v3 main_call0.v4 (broadcastInDim S16384x1024 ![0, 1] bcast_S1x1024_S16384x1024_0_1),
    StableHlo.TRef.binary (TRef.of main_v14 : TRef sig ⟨S16384x1024, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x1024_S1024_d0 h_S_),
    StableHlo.TRef.unary main_call0.v8 main_call0.v10 (broadcastInDim S1024 ![] bcast_S_S1024),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S1024 ![] bcast_S_S1024),
    StableHlo.TRef.ternary main_call0.v12 main_call0.v11 main_call0_call0.v1 main_call0_call0.v2 (fun p a b => select (broadcastInDim S1024 ![] bcast_S_S1024 p) a b) ]

theorem p04_sub : (p04 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p04_fresh : ∀ op ∈ (p04 : List (HloOp τ sig (Elt F))), op.fresh = ∅ := by intro _ h; (repeat (cases h with | head => rfl | tail _ h => ?_)); exact nomatch h

/-- The buffers the piece writes. -/
abbrev p04_W : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v18]

theorem p04_writes : (p04 : List (HloOp τ sig (Elt F))).Forall fun op =>
    op.writes ⊆ (p04_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 46 … 64 of the flattened program (the values `main_v19` … `main_v34`). -/
abbrev p05 : List (HloOp τ sig (Elt F)) :=
  [ StableHlo.unary main_v17 main_v19 (broadcastInDim S1x1024 ![1] bcast_S1024_S1x1024_1 : (⟨S1024, .f32⟩ : BufTy).Contents (Elt F) → (⟨S1x1024, .f32⟩ : BufTy).Contents (Elt F)),
    StableHlo.unary main_v19 main_v20 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v14 main_v20 main_v21 (subf : (⟨S16384x1024, .f32⟩ : BufTy).Contents (Elt F) → (⟨S16384x1024, .f32⟩ : BufTy).Contents (Elt F) → (⟨S16384x1024, .f32⟩ : BufTy).Contents (Elt F)),
    StableHlo.unary main_arg11 main_v22 (broadcastInDim S1x1024 ![1] bcast_S1024_S1x1024_1 : (⟨S1024, .f32⟩ : BufTy).Contents (Elt F) → (⟨S1x1024, .f32⟩ : BufTy).Contents (Elt F)),
    StableHlo.unary main_v22 main_v23 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v23 main_v21 main_v24 (mulf : (⟨S16384x1024, .f32⟩ : BufTy).Contents (Elt F) → (⟨S16384x1024, .f32⟩ : BufTy).Contents (Elt F) → (⟨S16384x1024, .f32⟩ : BufTy).Contents (Elt F)),
    StableHlo.nullary main_cst_3 (constant S_ .f32 0x3727C5AC#32),
    StableHlo.unary main_cst_3 main_v25 (broadcastInDim S1024 ![] bcast_S_S1024 : (⟨S_, .f32⟩ : BufTy).Contents (Elt F) → (⟨S1024, .f32⟩ : BufTy).Contents (Elt F)),
    StableHlo.binary main_v18 main_v25 main_v26 (addf : (⟨S1024, .f32⟩ : BufTy).Contents (Elt F) → (⟨S1024, .f32⟩ : BufTy).Contents (Elt F) → (⟨S1024, .f32⟩ : BufTy).Contents (Elt F)),
    StableHlo.unary main_v26 main_v27 (Host.rsqrt : (⟨S1024, .f32⟩ : BufTy).Contents (Elt F) → (⟨S1024, .f32⟩ : BufTy).Contents (Elt F)),
    StableHlo.unary main_v27 main_v28 (broadcastInDim S1x1024 ![1] bcast_S1024_S1x1024_1 : (⟨S1024, .f32⟩ : BufTy).Contents (Elt F) → (⟨S1x1024, .f32⟩ : BufTy).Contents (Elt F)),
    StableHlo.unary main_v28 main_v29 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v24 main_v29 main_v30 (mulf : (⟨S16384x1024, .f32⟩ : BufTy).Contents (Elt F) → (⟨S16384x1024, .f32⟩ : BufTy).Contents (Elt F) → (⟨S16384x1024, .f32⟩ : BufTy).Contents (Elt F)),
    StableHlo.unary main_arg12 main_v31 (broadcastInDim S1x1024 ![1] bcast_S1024_S1x1024_1 : (⟨S1024, .f32⟩ : BufTy).Contents (Elt F) → (⟨S1x1024, .f32⟩ : BufTy).Contents (Elt F)),
    StableHlo.unary main_v31 main_v32 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v30 main_v32 main_v33 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call1.cst (constant S_ .f32 0x00000000#32),
    StableHlo.TRef.unary main_call1.cst main_call1.v0 (broadcastInDim S16384x1024 ![] bcast_S_S16384x1024),
    StableHlo.TRef.binary (TRef.of main_v33 : TRef sig ⟨S16384x1024, .f32⟩) main_call1.v0 main_call1.v1 maximumf ]

theorem p05_sub : (p05 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem p05_fresh : ∀ op ∈ (p05 : List (HloOp τ sig (Elt F))), op.fresh = ∅ := by intro _ h; (repeat (cases h with | head => rfl | tail _ h => ?_)); exact nomatch h

/-- The buffers the piece writes. -/
abbrev p05_W : List (Ref sig .tc) := [main_v19, main_v20, main_v21, main_v22, main_v23, main_v24, main_cst_3, main_v25, main_v26, main_v27, main_v28, main_v29, main_v30, main_v31, main_v32, main_v33, main_call1_cst, main_call1_v0, main_v34]

theorem p05_writes : (p05 : List (HloOp τ sig (Elt F))).Forall fun op =>
    op.writes ⊆ (p05_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 65 … 76 of the flattened program (the values `main_v35` … `main_v44`). -/
abbrev p06 : List (HloOp τ sig (Elt F)) :=
  [ StableHlo.unary main_arg3 main_v35 (Host.absf : (⟨S1024x1024, .f32⟩ : BufTy).Contents (Elt F) → (⟨S1024x1024, .f32⟩ : BufTy).Contents (Elt F)),
    StableHlo.nullary main_cst_4 (constant S_ .f32 0x00000000#32),
    StableHlo.binary main_v35 main_cst_4 main_v36 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.unary main_v36 main_v37 (broadcastInDim S1024x1 ![0] bcast_S1024_S1024x1_0 : (⟨S1024, .f32⟩ : BufTy).Contents (Elt F) → (⟨S1024x1, .f32⟩ : BufTy).Contents (Elt F)),
    StableHlo.nullary main_cst_5 (constant S_ .f32 0x44800000#32),
    StableHlo.unary main_cst_5 main_v38 (broadcastInDim S1024x1 ![] bcast_S_S1024x1 : (⟨S_, .f32⟩ : BufTy).Contents (Elt F) → (⟨S1024x1, .f32⟩ : BufTy).Contents (Elt F)),
    StableHlo.binary main_v37 main_v38 main_v39 (Host.divf : (⟨S1024x1, .f32⟩ : BufTy).Contents (Elt F) → (⟨S1024x1, .f32⟩ : BufTy).Contents (Elt F) → (⟨S1024x1, .f32⟩ : BufTy).Contents (Elt F)),
    StableHlo.unary main_arg3 main_v40 (Host.sign : (⟨S1024x1024, .f32⟩ : BufTy).Contents (Elt F) → (⟨S1024x1024, .f32⟩ : BufTy).Contents (Elt F)),
    StableHlo.unary main_v39 main_v41 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v40 main_v41 main_v42 (mulf : (⟨S1024x1024, .f32⟩ : BufTy).Contents (Elt F) → (⟨S1024x1024, .f32⟩ : BufTy).Contents (Elt F) → (⟨S1024x1024, .f32⟩ : BufTy).Contents (Elt F)),
    StableHlo.binary main_v42 main_arg3 main_v43 (subf : (⟨S1024x1024, .f32⟩ : BufTy).Contents (Elt F) → (⟨S1024x1024, .f32⟩ : BufTy).Contents (Elt F) → (⟨S1024x1024, .f32⟩ : BufTy).Contents (Elt F)),
    StableHlo.binary main_arg3 main_v43 main_v44 (addf : (⟨S1024x1024, .f32⟩ : BufTy).Contents (Elt F) → (⟨S1024x1024, .f32⟩ : BufTy).Contents (Elt F) → (⟨S1024x1024, .f32⟩ : BufTy).Contents (Elt F)) ]

theorem p06_sub : (p06 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., binary_bufs_sub .., binary_bufs_sub .., binary_bufs_sub ..⟩

theorem p06_fresh : ∀ op ∈ (p06 : List (HloOp τ sig (Elt F))), op.fresh = ∅ := by intro _ h; (repeat (cases h with | head => rfl | tail _ h => ?_)); exact nomatch h

/-- The buffers the piece writes. -/
abbrev p06_W : List (Ref sig .tc) := [main_v35, main_cst_4, main_v36, main_v37, main_cst_5, main_v38, main_v39, main_v40, main_v41, main_v42, main_v43, main_v44]

theorem p06_writes : (p06 : List (HloOp τ sig (Elt F))).Forall fun op =>
    op.writes ⊆ (p06_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 77 … 81 of the flattened program (the values `main_v45` … `main_v49`). -/
abbrev p07 : List (HloOp τ sig (Elt F)) :=
  [ StableHlo.unary main_v44 main_v45 ((transpose S1024x1024 [1, 0] · transposes_S1024x1024_S1024x1024_1_0) : (⟨S1024x1024, .f32⟩ : BufTy).Contents (Elt F) → (⟨S1024x1024, .f32⟩ : BufTy).Contents (Elt F)),
    StableHlo.binary main_v34 main_v45 main_v46 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    StableHlo.unary main_arg4 main_v47 (broadcastInDim S1x1024 ![1] bcast_S1024_S1x1024_1 : (⟨S1024, .f32⟩ : BufTy).Contents (Elt F) → (⟨S1x1024, .f32⟩ : BufTy).Contents (Elt F)),
    StableHlo.unary main_v47 main_v48 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v46 main_v48 main_v49 (addf : (⟨S16384x1024, .f32⟩ : BufTy).Contents (Elt F) → (⟨S16384x1024, .f32⟩ : BufTy).Contents (Elt F) → (⟨S16384x1024, .f32⟩ : BufTy).Contents (Elt F)) ]

theorem p07_sub : (p07 : List (HloOp τ sig (Elt F))).Forall fun op => op.bufs ⊆ tcRefs τ sig :=
  ⟨unary_bufs_sub .., binary_bufs_sub .., unary_bufs_sub .., unary_bufs_sub .., binary_bufs_sub ..⟩

theorem p07_fresh : ∀ op ∈ (p07 : List (HloOp τ sig (Elt F))), op.fresh = ∅ := by intro _ h; (repeat (cases h with | head => rfl | tail _ h => ?_)); exact nomatch h

/-- The buffers the piece writes. -/
abbrev p07_W : List (Ref sig .tc) := [main_v45, main_v46, main_v47, main_v48, main_v49]

theorem p07_writes : (p07 : List (HloOp τ sig (Elt F))).Forall fun op =>
    op.writes ⊆ (p07_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 82 … 83 of the flattened program (the values `main_cst_6` … `main_v50`). -/
abbrev p08 : List (HloOp τ sig (Elt F)) :=
  [ StableHlo.nullary main_cst_6 (constant S_ .f32 0x00000000#32),
    StableHlo.binary main_v49 main_cst_6 main_v50 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)) ]

theorem p08_sub : (p08 : List (HloOp τ sig (Elt F))).Forall fun op => op.bufs ⊆ tcRefs τ sig :=
  ⟨nullary_bufs_sub .., binary_bufs_sub ..⟩

theorem p08_fresh : ∀ op ∈ (p08 : List (HloOp τ sig (Elt F))), op.fresh = ∅ := by intro _ h; (repeat (cases h with | head => rfl | tail _ h => ?_)); exact nomatch h

/-- The buffers the piece writes. -/
abbrev p08_W : List (Ref sig .tc) := [main_cst_6, main_v50]

theorem p08_writes : (p08 : List (HloOp τ sig (Elt F))).Forall fun op =>
    op.writes ⊆ (p08_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 84 … 86 of the flattened program (the values `main_cst_7` … `main_v52`). -/
abbrev p09 : List (HloOp τ sig (Elt F)) :=
  [ StableHlo.nullary main_cst_7 (constant S_ .f32 0x46800000#32),
    StableHlo.unary main_cst_7 main_v51 (broadcastInDim S1024 ![] bcast_S_S1024 : (⟨S_, .f32⟩ : BufTy).Contents (Elt F) → (⟨S1024, .f32⟩ : BufTy).Contents (Elt F)),
    StableHlo.binary main_v50 main_v51 main_v52 (Host.divf : (⟨S1024, .f32⟩ : BufTy).Contents (Elt F) → (⟨S1024, .f32⟩ : BufTy).Contents (Elt F) → (⟨S1024, .f32⟩ : BufTy).Contents (Elt F)) ]

theorem p09_sub : (p09 : List (HloOp τ sig (Elt F))).Forall fun op => op.bufs ⊆ tcRefs τ sig :=
  ⟨nullary_bufs_sub .., unary_bufs_sub .., binary_bufs_sub ..⟩

theorem p09_fresh : ∀ op ∈ (p09 : List (HloOp τ sig (Elt F))), op.fresh = ∅ := by intro _ h; (repeat (cases h with | head => rfl | tail _ h => ?_)); exact nomatch h

/-- The buffers the piece writes. -/
abbrev p09_W : List (Ref sig .tc) := [main_cst_7, main_v51, main_v52]

theorem p09_writes : (p09 : List (HloOp τ sig (Elt F))).Forall fun op =>
    op.writes ⊆ (p09_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 87 … 109 of the flattened program (the values `main_c_8` … `main_v53`). -/
abbrev p10 : List (HloOp τ sig (Elt F)) :=
  [ StableHlo.nullary main_c_8 (constantI S_ 32 0#32),
    StableHlo.TRef.nullary main_call2.cst (constant S_ .f32 0x00000000#32),
    StableHlo.TRef.binary (TRef.of main_v49 : TRef sig ⟨S16384x1024, .f32⟩) main_call2.cst main_call2.v0 (fun x v => Host.reduceAdd x v reducesTo_S16384x1024_S1024_d0 h_S_),
    StableHlo.TRef.unary main_call2.v0 main_call2.v1 (broadcastInDim S1x1024 ![1] bcast_S1024_S1x1024_1),
    StableHlo.TRef.nullary main_call2.cst_0 (constant S_ .f32 0x46800000#32),
    StableHlo.TRef.unary main_call2.cst_0 main_call2.v2 (broadcastInDim S1x1024 ![] bcast_S_S1x1024),
    StableHlo.TRef.binary main_call2.v1 main_call2.v2 main_call2.v3 Host.divf,
    StableHlo.TRef.unary main_call2.v3 main_call2.v4 (broadcastInDim S16384x1024 ![0, 1] bcast_S1x1024_S16384x1024_0_1),
    StableHlo.TRef.binary (TRef.of main_v49 : TRef sig ⟨S16384x1024, .f32⟩) main_call2.v4 main_call2.v5 subf,
    StableHlo.TRef.binary main_call2.v5 main_call2.v5 main_call2.v6 mulf,
    StableHlo.TRef.unary (TRef.of main_c_8 : TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16384x1024_S1024_d0 h_S_),
    StableHlo.TRef.unary main_call2.v8 main_call2.v10 (broadcastInDim S1024 ![] bcast_S_S1024),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2_call0.v0 id,
    StableHlo.TRef.unary main_call2_call0.v0 main_call2_call0.v1 (broadcastInDim S1024 ![] bcast_S_S1024),
    StableHlo.TRef.ternary main_call2.v12 main_call2.v11 main_call2_call0.v1 main_call2_call0.v2 (fun p a b => select (broadcastInDim S1024 ![] bcast_S_S1024 p) a b) ]

theorem p10_sub : (p10 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p10_fresh : ∀ op ∈ (p10 : List (HloOp τ sig (Elt F))), op.fresh = ∅ := by intro _ h; (repeat (cases h with | head => rfl | tail _ h => ?_)); exact nomatch h

/-- The buffers the piece writes. -/
abbrev p10_W : List (Ref sig .tc) := [main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v53]

theorem p10_writes : (p10 : List (HloOp τ sig (Elt F))).Forall fun op =>
    op.writes ⊆ (p10_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 110 … 128 of the flattened program (the values `main_v54` … `main_v69`). -/
abbrev p11 : List (HloOp τ sig (Elt F)) :=
  [ StableHlo.unary main_v52 main_v54 (broadcastInDim S1x1024 ![1] bcast_S1024_S1x1024_1 : (⟨S1024, .f32⟩ : BufTy).Contents (Elt F) → (⟨S1x1024, .f32⟩ : BufTy).Contents (Elt F)),
    StableHlo.unary main_v54 main_v55 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v49 main_v55 main_v56 (subf : (⟨S16384x1024, .f32⟩ : BufTy).Contents (Elt F) → (⟨S16384x1024, .f32⟩ : BufTy).Contents (Elt F) → (⟨S16384x1024, .f32⟩ : BufTy).Contents (Elt F)),
    StableHlo.unary main_arg13 main_v57 (broadcastInDim S1x1024 ![1] bcast_S1024_S1x1024_1 : (⟨S1024, .f32⟩ : BufTy).Contents (Elt F) → (⟨S1x1024, .f32⟩ : BufTy).Contents (Elt F)),
    StableHlo.unary main_v57 main_v58 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v58 main_v56 main_v59 (mulf : (⟨S16384x1024, .f32⟩ : BufTy).Contents (Elt F) → (⟨S16384x1024, .f32⟩ : BufTy).Contents (Elt F) → (⟨S16384x1024, .f32⟩ : BufTy).Contents (Elt F)),
    StableHlo.nullary main_cst_9 (constant S_ .f32 0x3727C5AC#32),
    StableHlo.unary main_cst_9 main_v60 (broadcastInDim S1024 ![] bcast_S_S1024 : (⟨S_, .f32⟩ : BufTy).Contents (Elt F) → (⟨S1024, .f32⟩ : BufTy).Contents (Elt F)),
    StableHlo.binary main_v53 main_v60 main_v61 (addf : (⟨S1024, .f32⟩ : BufTy).Contents (Elt F) → (⟨S1024, .f32⟩ : BufTy).Contents (Elt F) → (⟨S1024, .f32⟩ : BufTy).Contents (Elt F)),
    StableHlo.unary main_v61 main_v62 (Host.rsqrt : (⟨S1024, .f32⟩ : BufTy).Contents (Elt F) → (⟨S1024, .f32⟩ : BufTy).Contents (Elt F)),
    StableHlo.unary main_v62 main_v63 (broadcastInDim S1x1024 ![1] bcast_S1024_S1x1024_1 : (⟨S1024, .f32⟩ : BufTy).Contents (Elt F) → (⟨S1x1024, .f32⟩ : BufTy).Contents (Elt F)),
    StableHlo.unary main_v63 main_v64 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v59 main_v64 main_v65 (mulf : (⟨S16384x1024, .f32⟩ : BufTy).Contents (Elt F) → (⟨S16384x1024, .f32⟩ : BufTy).Contents (Elt F) → (⟨S16384x1024, .f32⟩ : BufTy).Contents (Elt F)),
    StableHlo.unary main_arg14 main_v66 (broadcastInDim S1x1024 ![1] bcast_S1024_S1x1024_1 : (⟨S1024, .f32⟩ : BufTy).Contents (Elt F) → (⟨S1x1024, .f32⟩ : BufTy).Contents (Elt F)),
    StableHlo.unary main_v66 main_v67 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v65 main_v67 main_v68 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call3.cst (constant S_ .f32 0x00000000#32),
    StableHlo.TRef.unary main_call3.cst main_call3.v0 (broadcastInDim S16384x1024 ![] bcast_S_S16384x1024),
    StableHlo.TRef.binary (TRef.of main_v68 : TRef sig ⟨S16384x1024, .f32⟩) main_call3.v0 main_call3.v1 maximumf ]

theorem p11_sub : (p11 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem p11_fresh : ∀ op ∈ (p11 : List (HloOp τ sig (Elt F))), op.fresh = ∅ := by intro _ h; (repeat (cases h with | head => rfl | tail _ h => ?_)); exact nomatch h

/-- The buffers the piece writes. -/
abbrev p11_W : List (Ref sig .tc) := [main_v54, main_v55, main_v56, main_v57, main_v58, main_v59, main_cst_9, main_v60, main_v61, main_v62, main_v63, main_v64, main_v65, main_v66, main_v67, main_v68, main_call3_cst, main_call3_v0, main_v69]

theorem p11_writes : (p11 : List (HloOp τ sig (Elt F))).Forall fun op =>
    op.writes ⊆ (p11_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 129 … 140 of the flattened program (the values `main_v70` … `main_v79`). -/
abbrev p12 : List (HloOp τ sig (Elt F)) :=
  [ StableHlo.unary main_arg5 main_v70 (Host.absf : (⟨S1024x1024, .f32⟩ : BufTy).Contents (Elt F) → (⟨S1024x1024, .f32⟩ : BufTy).Contents (Elt F)),
    StableHlo.nullary main_cst_10 (constant S_ .f32 0x00000000#32),
    StableHlo.binary main_v70 main_cst_10 main_v71 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.unary main_v71 main_v72 (broadcastInDim S1024x1 ![0] bcast_S1024_S1024x1_0 : (⟨S1024, .f32⟩ : BufTy).Contents (Elt F) → (⟨S1024x1, .f32⟩ : BufTy).Contents (Elt F)),
    StableHlo.nullary main_cst_11 (constant S_ .f32 0x44800000#32),
    StableHlo.unary main_cst_11 main_v73 (broadcastInDim S1024x1 ![] bcast_S_S1024x1 : (⟨S_, .f32⟩ : BufTy).Contents (Elt F) → (⟨S1024x1, .f32⟩ : BufTy).Contents (Elt F)),
    StableHlo.binary main_v72 main_v73 main_v74 (Host.divf : (⟨S1024x1, .f32⟩ : BufTy).Contents (Elt F) → (⟨S1024x1, .f32⟩ : BufTy).Contents (Elt F) → (⟨S1024x1, .f32⟩ : BufTy).Contents (Elt F)),
    StableHlo.unary main_arg5 main_v75 (Host.sign : (⟨S1024x1024, .f32⟩ : BufTy).Contents (Elt F) → (⟨S1024x1024, .f32⟩ : BufTy).Contents (Elt F)),
    StableHlo.unary main_v74 main_v76 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v75 main_v76 main_v77 (mulf : (⟨S1024x1024, .f32⟩ : BufTy).Contents (Elt F) → (⟨S1024x1024, .f32⟩ : BufTy).Contents (Elt F) → (⟨S1024x1024, .f32⟩ : BufTy).Contents (Elt F)),
    StableHlo.binary main_v77 main_arg5 main_v78 (subf : (⟨S1024x1024, .f32⟩ : BufTy).Contents (Elt F) → (⟨S1024x1024, .f32⟩ : BufTy).Contents (Elt F) → (⟨S1024x1024, .f32⟩ : BufTy).Contents (Elt F)),
    StableHlo.binary main_arg5 main_v78 main_v79 (addf : (⟨S1024x1024, .f32⟩ : BufTy).Contents (Elt F) → (⟨S1024x1024, .f32⟩ : BufTy).Contents (Elt F) → (⟨S1024x1024, .f32⟩ : BufTy).Contents (Elt F)) ]

theorem p12_sub : (p12 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., binary_bufs_sub .., binary_bufs_sub .., binary_bufs_sub ..⟩

theorem p12_fresh : ∀ op ∈ (p12 : List (HloOp τ sig (Elt F))), op.fresh = ∅ := by intro _ h; (repeat (cases h with | head => rfl | tail _ h => ?_)); exact nomatch h

/-- The buffers the piece writes. -/
abbrev p12_W : List (Ref sig .tc) := [main_v70, main_cst_10, main_v71, main_v72, main_cst_11, main_v73, main_v74, main_v75, main_v76, main_v77, main_v78, main_v79]

theorem p12_writes : (p12 : List (HloOp τ sig (Elt F))).Forall fun op =>
    op.writes ⊆ (p12_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 141 … 145 of the flattened program (the values `main_v80` … `main_v84`). -/
abbrev p13 : List (HloOp τ sig (Elt F)) :=
  [ StableHlo.unary main_v79 main_v80 ((transpose S1024x1024 [1, 0] · transposes_S1024x1024_S1024x1024_1_0) : (⟨S1024x1024, .f32⟩ : BufTy).Contents (Elt F) → (⟨S1024x1024, .f32⟩ : BufTy).Contents (Elt F)),
    StableHlo.binary main_v69 main_v80 main_v81 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    StableHlo.unary main_arg6 main_v82 (broadcastInDim S1x1024 ![1] bcast_S1024_S1x1024_1 : (⟨S1024, .f32⟩ : BufTy).Contents (Elt F) → (⟨S1x1024, .f32⟩ : BufTy).Contents (Elt F)),
    StableHlo.unary main_v82 main_v83 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v81 main_v83 main_v84 (addf : (⟨S16384x1024, .f32⟩ : BufTy).Contents (Elt F) → (⟨S16384x1024, .f32⟩ : BufTy).Contents (Elt F) → (⟨S16384x1024, .f32⟩ : BufTy).Contents (Elt F)) ]

theorem p13_sub : (p13 : List (HloOp τ sig (Elt F))).Forall fun op => op.bufs ⊆ tcRefs τ sig :=
  ⟨unary_bufs_sub .., binary_bufs_sub .., unary_bufs_sub .., unary_bufs_sub .., binary_bufs_sub ..⟩

theorem p13_fresh : ∀ op ∈ (p13 : List (HloOp τ sig (Elt F))), op.fresh = ∅ := by intro _ h; (repeat (cases h with | head => rfl | tail _ h => ?_)); exact nomatch h

/-- The buffers the piece writes. -/
abbrev p13_W : List (Ref sig .tc) := [main_v80, main_v81, main_v82, main_v83, main_v84]

theorem p13_writes : (p13 : List (HloOp τ sig (Elt F))).Forall fun op =>
    op.writes ⊆ (p13_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 146 … 150 of the flattened program (the values `main_cst_12` … `main_v87`). -/
abbrev p14 : List (HloOp τ sig (Elt F)) :=
  [ StableHlo.nullary main_cst_12 (constant S_ .f32 0x00000000#32),
    StableHlo.binary main_v84 main_cst_12 main_v85 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_13 (constant S_ .f32 0x46800000#32),
    StableHlo.unary main_cst_13 main_v86 (broadcastInDim S1024 ![] bcast_S_S1024 : (⟨S_, .f32⟩ : BufTy).Contents (Elt F) → (⟨S1024, .f32⟩ : BufTy).Contents (Elt F)),
    StableHlo.binary main_v85 main_v86 main_v87 (Host.divf : (⟨S1024, .f32⟩ : BufTy).Contents (Elt F) → (⟨S1024, .f32⟩ : BufTy).Contents (Elt F) → (⟨S1024, .f32⟩ : BufTy).Contents (Elt F)) ]

theorem p14_sub : (p14 : List (HloOp τ sig (Elt F))).Forall fun op => op.bufs ⊆ tcRefs τ sig :=
  ⟨nullary_bufs_sub .., binary_bufs_sub .., nullary_bufs_sub .., unary_bufs_sub .., binary_bufs_sub ..⟩

theorem p14_fresh : ∀ op ∈ (p14 : List (HloOp τ sig (Elt F))), op.fresh = ∅ := by intro _ h; (repeat (cases h with | head => rfl | tail _ h => ?_)); exact nomatch h

/-- The buffers the piece writes. -/
abbrev p14_W : List (Ref sig .tc) := [main_cst_12, main_v85, main_cst_13, main_v86, main_v87]

theorem p14_writes : (p14 : List (HloOp τ sig (Elt F))).Forall fun op =>
    op.writes ⊆ (p14_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 151 … 173 of the flattened program (the values `main_c_14` … `main_v88`). -/
abbrev p15 : List (HloOp τ sig (Elt F)) :=
  [ StableHlo.nullary main_c_14 (constantI S_ 32 0#32),
    StableHlo.TRef.nullary main_call4.cst (constant S_ .f32 0x00000000#32),
    StableHlo.TRef.binary (TRef.of main_v84 : TRef sig ⟨S16384x1024, .f32⟩) main_call4.cst main_call4.v0 (fun x v => Host.reduceAdd x v reducesTo_S16384x1024_S1024_d0 h_S_),
    StableHlo.TRef.unary main_call4.v0 main_call4.v1 (broadcastInDim S1x1024 ![1] bcast_S1024_S1x1024_1),
    StableHlo.TRef.nullary main_call4.cst_0 (constant S_ .f32 0x46800000#32),
    StableHlo.TRef.unary main_call4.cst_0 main_call4.v2 (broadcastInDim S1x1024 ![] bcast_S_S1x1024),
    StableHlo.TRef.binary main_call4.v1 main_call4.v2 main_call4.v3 Host.divf,
    StableHlo.TRef.unary main_call4.v3 main_call4.v4 (broadcastInDim S16384x1024 ![0, 1] bcast_S1x1024_S16384x1024_0_1),
    StableHlo.TRef.binary (TRef.of main_v84 : TRef sig ⟨S16384x1024, .f32⟩) main_call4.v4 main_call4.v5 subf,
    StableHlo.TRef.binary main_call4.v5 main_call4.v5 main_call4.v6 mulf,
    StableHlo.TRef.unary (TRef.of main_c_14 : TRef sig ⟨S_, .i32⟩) main_call4.v7 (sitofp .f32),
    StableHlo.TRef.nullary main_call4.cst_1 (constant S_ .f32 0x46800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16384x1024_S1024_d0 h_S_),
    StableHlo.TRef.unary main_call4.v8 main_call4.v10 (broadcastInDim S1024 ![] bcast_S_S1024),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4_call0.v0 id,
    StableHlo.TRef.unary main_call4_call0.v0 main_call4_call0.v1 (broadcastInDim S1024 ![] bcast_S_S1024),
    StableHlo.TRef.ternary main_call4.v12 main_call4.v11 main_call4_call0.v1 main_call4_call0.v2 (fun p a b => select (broadcastInDim S1024 ![] bcast_S_S1024 p) a b) ]

theorem p15_sub : (p15 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p15_fresh : ∀ op ∈ (p15 : List (HloOp τ sig (Elt F))), op.fresh = ∅ := by intro _ h; (repeat (cases h with | head => rfl | tail _ h => ?_)); exact nomatch h

/-- The buffers the piece writes. -/
abbrev p15_W : List (Ref sig .tc) := [main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v88]

theorem p15_writes : (p15 : List (HloOp τ sig (Elt F))).Forall fun op =>
    op.writes ⊆ (p15_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 174 … 187 of the flattened program (the values `main_v89` … `main_v101`). -/
abbrev p16 : List (HloOp τ sig (Elt F)) :=
  [ StableHlo.unary main_v87 main_v89 (broadcastInDim S1x1024 ![1] bcast_S1024_S1x1024_1 : (⟨S1024, .f32⟩ : BufTy).Contents (Elt F) → (⟨S1x1024, .f32⟩ : BufTy).Contents (Elt F)),
    StableHlo.unary main_v89 main_v90 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v84 main_v90 main_v91 (subf : (⟨S16384x1024, .f32⟩ : BufTy).Contents (Elt F) → (⟨S16384x1024, .f32⟩ : BufTy).Contents (Elt F) → (⟨S16384x1024, .f32⟩ : BufTy).Contents (Elt F)),
    StableHlo.unary main_arg15 main_v92 (broadcastInDim S1x1024 ![1] bcast_S1024_S1x1024_1 : (⟨S1024, .f32⟩ : BufTy).Contents (Elt F) → (⟨S1x1024, .f32⟩ : BufTy).Contents (Elt F)),
    StableHlo.unary main_v92 main_v93 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v93 main_v91 main_v94 (mulf : (⟨S16384x1024, .f32⟩ : BufTy).Contents (Elt F) → (⟨S16384x1024, .f32⟩ : BufTy).Contents (Elt F) → (⟨S16384x1024, .f32⟩ : BufTy).Contents (Elt F)),
    StableHlo.nullary main_cst_15 (constant S_ .f32 0x3727C5AC#32),
    StableHlo.unary main_cst_15 main_v95 (broadcastInDim S1024 ![] bcast_S_S1024 : (⟨S_, .f32⟩ : BufTy).Contents (Elt F) → (⟨S1024, .f32⟩ : BufTy).Contents (Elt F)),
    StableHlo.binary main_v88 main_v95 main_v96 (addf : (⟨S1024, .f32⟩ : BufTy).Contents (Elt F) → (⟨S1024, .f32⟩ : BufTy).Contents (Elt F) → (⟨S1024, .f32⟩ : BufTy).Contents (Elt F)),
    StableHlo.unary main_v96 main_v97 (Host.rsqrt : (⟨S1024, .f32⟩ : BufTy).Contents (Elt F) → (⟨S1024, .f32⟩ : BufTy).Contents (Elt F)),
    StableHlo.unary main_v97 main_v98 (broadcastInDim S1x1024 ![1] bcast_S1024_S1x1024_1 : (⟨S1024, .f32⟩ : BufTy).Contents (Elt F) → (⟨S1x1024, .f32⟩ : BufTy).Contents (Elt F)),
    StableHlo.unary main_v98 main_v99 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v94 main_v99 main_v100 (mulf : (⟨S16384x1024, .f32⟩ : BufTy).Contents (Elt F) → (⟨S16384x1024, .f32⟩ : BufTy).Contents (Elt F) → (⟨S16384x1024, .f32⟩ : BufTy).Contents (Elt F)),
    StableHlo.unary main_arg16 main_v101 (broadcastInDim S1x1024 ![1] bcast_S1024_S1x1024_1 : (⟨S1024, .f32⟩ : BufTy).Contents (Elt F) → (⟨S1x1024, .f32⟩ : BufTy).Contents (Elt F)) ]

theorem p16_sub : (p16 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

theorem p16_fresh : ∀ op ∈ (p16 : List (HloOp τ sig (Elt F))), op.fresh = ∅ := by intro _ h; (repeat (cases h with | head => rfl | tail _ h => ?_)); exact nomatch h

/-- The buffers the piece writes. -/
abbrev p16_W : List (Ref sig .tc) := [main_v89, main_v90, main_v91, main_v92, main_v93, main_v94, main_cst_15, main_v95, main_v96, main_v97, main_v98, main_v99, main_v100, main_v101]

theorem p16_writes : (p16 : List (HloOp τ sig (Elt F))).Forall fun op =>
    op.writes ⊆ (p16_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 188 … 192 of the flattened program (the values `main_v102` … `main_v104`). -/
abbrev p17 : List (HloOp τ sig (Elt F)) :=
  [ StableHlo.unary main_v101 main_v102 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v100 main_v102 main_v103 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call5.cst (constant S_ .f32 0x00000000#32),
    StableHlo.TRef.unary main_call5.cst main_call5.v0 (broadcastInDim S16384x1024 ![] bcast_S_S16384x1024),
    StableHlo.TRef.binary (TRef.of main_v103 : TRef sig ⟨S16384x1024, .f32⟩) main_call5.v0 main_call5.v1 maximumf ]

theorem p17_sub : (p17 : List (HloOp τ sig (Elt F))).Forall fun op => op.bufs ⊆ tcRefs τ sig :=
  ⟨unary_bufs_sub .., binary_bufs_sub .., nullary_bufs_sub .., unary_bufs_sub .., binary_bufs_sub ..⟩

theorem p17_fresh : ∀ op ∈ (p17 : List (HloOp τ sig (Elt F))), op.fresh = ∅ := by intro _ h; (repeat (cases h with | head => rfl | tail _ h => ?_)); exact nomatch h

/-- The buffers the piece writes. -/
abbrev p17_W : List (Ref sig .tc) := [main_v102, main_v103, main_call5_cst, main_call5_v0, main_v104]

theorem p17_writes : (p17 : List (HloOp τ sig (Elt F))).Forall fun op =>
    op.writes ⊆ (p17_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 193 … 204 of the flattened program (the values `main_v105` … `main_v114`). -/
abbrev p18 : List (HloOp τ sig (Elt F)) :=
  [ StableHlo.unary main_arg7 main_v105 (Host.absf : (⟨S1024x1024, .f32⟩ : BufTy).Contents (Elt F) → (⟨S1024x1024, .f32⟩ : BufTy).Contents (Elt F)),
    StableHlo.nullary main_cst_16 (constant S_ .f32 0x00000000#32),
    StableHlo.binary main_v105 main_cst_16 main_v106 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.unary main_v106 main_v107 (broadcastInDim S1024x1 ![0] bcast_S1024_S1024x1_0 : (⟨S1024, .f32⟩ : BufTy).Contents (Elt F) → (⟨S1024x1, .f32⟩ : BufTy).Contents (Elt F)),
    StableHlo.nullary main_cst_17 (constant S_ .f32 0x44800000#32),
    StableHlo.unary main_cst_17 main_v108 (broadcastInDim S1024x1 ![] bcast_S_S1024x1 : (⟨S_, .f32⟩ : BufTy).Contents (Elt F) → (⟨S1024x1, .f32⟩ : BufTy).Contents (Elt F)),
    StableHlo.binary main_v107 main_v108 main_v109 (Host.divf : (⟨S1024x1, .f32⟩ : BufTy).Contents (Elt F) → (⟨S1024x1, .f32⟩ : BufTy).Contents (Elt F) → (⟨S1024x1, .f32⟩ : BufTy).Contents (Elt F)),
    StableHlo.unary main_arg7 main_v110 (Host.sign : (⟨S1024x1024, .f32⟩ : BufTy).Contents (Elt F) → (⟨S1024x1024, .f32⟩ : BufTy).Contents (Elt F)),
    StableHlo.unary main_v109 main_v111 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v110 main_v111 main_v112 (mulf : (⟨S1024x1024, .f32⟩ : BufTy).Contents (Elt F) → (⟨S1024x1024, .f32⟩ : BufTy).Contents (Elt F) → (⟨S1024x1024, .f32⟩ : BufTy).Contents (Elt F)),
    StableHlo.binary main_v112 main_arg7 main_v113 (subf : (⟨S1024x1024, .f32⟩ : BufTy).Contents (Elt F) → (⟨S1024x1024, .f32⟩ : BufTy).Contents (Elt F) → (⟨S1024x1024, .f32⟩ : BufTy).Contents (Elt F)),
    StableHlo.binary main_arg7 main_v113 main_v114 (addf : (⟨S1024x1024, .f32⟩ : BufTy).Contents (Elt F) → (⟨S1024x1024, .f32⟩ : BufTy).Contents (Elt F) → (⟨S1024x1024, .f32⟩ : BufTy).Contents (Elt F)) ]

theorem p18_sub : (p18 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., binary_bufs_sub .., binary_bufs_sub .., binary_bufs_sub ..⟩

theorem p18_fresh : ∀ op ∈ (p18 : List (HloOp τ sig (Elt F))), op.fresh = ∅ := by intro _ h; (repeat (cases h with | head => rfl | tail _ h => ?_)); exact nomatch h

/-- The buffers the piece writes. -/
abbrev p18_W : List (Ref sig .tc) := [main_v105, main_cst_16, main_v106, main_v107, main_cst_17, main_v108, main_v109, main_v110, main_v111, main_v112, main_v113, main_v114]

theorem p18_writes : (p18 : List (HloOp τ sig (Elt F))).Forall fun op =>
    op.writes ⊆ (p18_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 205 … 209 of the flattened program (the values `main_v115` … `main_v119`). -/
abbrev p19 : List (HloOp τ sig (Elt F)) :=
  [ StableHlo.unary main_v114 main_v115 ((transpose S1024x1024 [1, 0] · transposes_S1024x1024_S1024x1024_1_0) : (⟨S1024x1024, .f32⟩ : BufTy).Contents (Elt F) → (⟨S1024x1024, .f32⟩ : BufTy).Contents (Elt F)),
    StableHlo.binary main_v104 main_v115 main_v116 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    StableHlo.unary main_arg8 main_v117 (broadcastInDim S1x1024 ![1] bcast_S1024_S1x1024_1 : (⟨S1024, .f32⟩ : BufTy).Contents (Elt F) → (⟨S1x1024, .f32⟩ : BufTy).Contents (Elt F)),
    StableHlo.unary main_v117 main_v118 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v116 main_v118 main_v119 (addf : (⟨S16384x1024, .f32⟩ : BufTy).Contents (Elt F) → (⟨S16384x1024, .f32⟩ : BufTy).Contents (Elt F) → (⟨S16384x1024, .f32⟩ : BufTy).Contents (Elt F)) ]

theorem p19_sub : (p19 : List (HloOp τ sig (Elt F))).Forall fun op => op.bufs ⊆ tcRefs τ sig :=
  ⟨unary_bufs_sub .., binary_bufs_sub .., unary_bufs_sub .., unary_bufs_sub .., binary_bufs_sub ..⟩

theorem p19_fresh : ∀ op ∈ (p19 : List (HloOp τ sig (Elt F))), op.fresh = ∅ := by intro _ h; (repeat (cases h with | head => rfl | tail _ h => ?_)); exact nomatch h

/-- The buffers the piece writes. -/
abbrev p19_W : List (Ref sig .tc) := [main_v115, main_v116, main_v117, main_v118, main_v119]

theorem p19_writes : (p19 : List (HloOp τ sig (Elt F))).Forall fun op =>
    op.writes ⊆ (p19_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 210 … 214 of the flattened program (the values `main_cst_18` … `main_v122`). -/
abbrev p20 : List (HloOp τ sig (Elt F)) :=
  [ StableHlo.nullary main_cst_18 (constant S_ .f32 0x00000000#32),
    StableHlo.binary main_v119 main_cst_18 main_v120 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_19 (constant S_ .f32 0x46800000#32),
    StableHlo.unary main_cst_19 main_v121 (broadcastInDim S1024 ![] bcast_S_S1024 : (⟨S_, .f32⟩ : BufTy).Contents (Elt F) → (⟨S1024, .f32⟩ : BufTy).Contents (Elt F)),
    StableHlo.binary main_v120 main_v121 main_v122 (Host.divf : (⟨S1024, .f32⟩ : BufTy).Contents (Elt F) → (⟨S1024, .f32⟩ : BufTy).Contents (Elt F) → (⟨S1024, .f32⟩ : BufTy).Contents (Elt F)) ]

theorem p20_sub : (p20 : List (HloOp τ sig (Elt F))).Forall fun op => op.bufs ⊆ tcRefs τ sig :=
  ⟨nullary_bufs_sub .., binary_bufs_sub .., nullary_bufs_sub .., unary_bufs_sub .., binary_bufs_sub ..⟩

theorem p20_fresh : ∀ op ∈ (p20 : List (HloOp τ sig (Elt F))), op.fresh = ∅ := by intro _ h; (repeat (cases h with | head => rfl | tail _ h => ?_)); exact nomatch h

/-- The buffers the piece writes. -/
abbrev p20_W : List (Ref sig .tc) := [main_cst_18, main_v120, main_cst_19, main_v121, main_v122]

theorem p20_writes : (p20 : List (HloOp τ sig (Elt F))).Forall fun op =>
    op.writes ⊆ (p20_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 215 … 237 of the flattened program (the values `main_c_20` … `main_v123`). -/
abbrev p21 : List (HloOp τ sig (Elt F)) :=
  [ StableHlo.nullary main_c_20 (constantI S_ 32 0#32),
    StableHlo.TRef.nullary main_call6.cst (constant S_ .f32 0x00000000#32),
    StableHlo.TRef.binary (TRef.of main_v119 : TRef sig ⟨S16384x1024, .f32⟩) main_call6.cst main_call6.v0 (fun x v => Host.reduceAdd x v reducesTo_S16384x1024_S1024_d0 h_S_),
    StableHlo.TRef.unary main_call6.v0 main_call6.v1 (broadcastInDim S1x1024 ![1] bcast_S1024_S1x1024_1),
    StableHlo.TRef.nullary main_call6.cst_0 (constant S_ .f32 0x46800000#32),
    StableHlo.TRef.unary main_call6.cst_0 main_call6.v2 (broadcastInDim S1x1024 ![] bcast_S_S1x1024),
    StableHlo.TRef.binary main_call6.v1 main_call6.v2 main_call6.v3 Host.divf,
    StableHlo.TRef.unary main_call6.v3 main_call6.v4 (broadcastInDim S16384x1024 ![0, 1] bcast_S1x1024_S16384x1024_0_1),
    StableHlo.TRef.binary (TRef.of main_v119 : TRef sig ⟨S16384x1024, .f32⟩) main_call6.v4 main_call6.v5 subf,
    StableHlo.TRef.binary main_call6.v5 main_call6.v5 main_call6.v6 mulf,
    StableHlo.TRef.unary (TRef.of main_c_20 : TRef sig ⟨S_, .i32⟩) main_call6.v7 (sitofp .f32),
    StableHlo.TRef.nullary main_call6.cst_1 (constant S_ .f32 0x46800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S16384x1024_S1024_d0 h_S_),
    StableHlo.TRef.unary main_call6.v8 main_call6.v10 (broadcastInDim S1024 ![] bcast_S_S1024),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6_call0.v0 id,
    StableHlo.TRef.unary main_call6_call0.v0 main_call6_call0.v1 (broadcastInDim S1024 ![] bcast_S_S1024),
    StableHlo.TRef.ternary main_call6.v12 main_call6.v11 main_call6_call0.v1 main_call6_call0.v2 (fun p a b => select (broadcastInDim S1024 ![] bcast_S_S1024 p) a b) ]

theorem p21_sub : (p21 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem p21_fresh : ∀ op ∈ (p21 : List (HloOp τ sig (Elt F))), op.fresh = ∅ := by intro _ h; (repeat (cases h with | head => rfl | tail _ h => ?_)); exact nomatch h

/-- The buffers the piece writes. -/
abbrev p21_W : List (Ref sig .tc) := [main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v123]

theorem p21_writes : (p21 : List (HloOp τ sig (Elt F))).Forall fun op =>
    op.writes ⊆ (p21_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 238 … 256 of the flattened program (the values `main_v124` … `main_v139`). -/
abbrev p22 : List (HloOp τ sig (Elt F)) :=
  [ StableHlo.unary main_v122 main_v124 (broadcastInDim S1x1024 ![1] bcast_S1024_S1x1024_1 : (⟨S1024, .f32⟩ : BufTy).Contents (Elt F) → (⟨S1x1024, .f32⟩ : BufTy).Contents (Elt F)),
    StableHlo.unary main_v124 main_v125 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v119 main_v125 main_v126 (subf : (⟨S16384x1024, .f32⟩ : BufTy).Contents (Elt F) → (⟨S16384x1024, .f32⟩ : BufTy).Contents (Elt F) → (⟨S16384x1024, .f32⟩ : BufTy).Contents (Elt F)),
    StableHlo.unary main_arg17 main_v127 (broadcastInDim S1x1024 ![1] bcast_S1024_S1x1024_1 : (⟨S1024, .f32⟩ : BufTy).Contents (Elt F) → (⟨S1x1024, .f32⟩ : BufTy).Contents (Elt F)),
    StableHlo.unary main_v127 main_v128 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v128 main_v126 main_v129 (mulf : (⟨S16384x1024, .f32⟩ : BufTy).Contents (Elt F) → (⟨S16384x1024, .f32⟩ : BufTy).Contents (Elt F) → (⟨S16384x1024, .f32⟩ : BufTy).Contents (Elt F)),
    StableHlo.nullary main_cst_21 (constant S_ .f32 0x3727C5AC#32),
    StableHlo.unary main_cst_21 main_v130 (broadcastInDim S1024 ![] bcast_S_S1024 : (⟨S_, .f32⟩ : BufTy).Contents (Elt F) → (⟨S1024, .f32⟩ : BufTy).Contents (Elt F)),
    StableHlo.binary main_v123 main_v130 main_v131 (addf : (⟨S1024, .f32⟩ : BufTy).Contents (Elt F) → (⟨S1024, .f32⟩ : BufTy).Contents (Elt F) → (⟨S1024, .f32⟩ : BufTy).Contents (Elt F)),
    StableHlo.unary main_v131 main_v132 (Host.rsqrt : (⟨S1024, .f32⟩ : BufTy).Contents (Elt F) → (⟨S1024, .f32⟩ : BufTy).Contents (Elt F)),
    StableHlo.unary main_v132 main_v133 (broadcastInDim S1x1024 ![1] bcast_S1024_S1x1024_1 : (⟨S1024, .f32⟩ : BufTy).Contents (Elt F) → (⟨S1x1024, .f32⟩ : BufTy).Contents (Elt F)),
    StableHlo.unary main_v133 main_v134 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v129 main_v134 main_v135 (mulf : (⟨S16384x1024, .f32⟩ : BufTy).Contents (Elt F) → (⟨S16384x1024, .f32⟩ : BufTy).Contents (Elt F) → (⟨S16384x1024, .f32⟩ : BufTy).Contents (Elt F)),
    StableHlo.unary main_arg18 main_v136 (broadcastInDim S1x1024 ![1] bcast_S1024_S1x1024_1 : (⟨S1024, .f32⟩ : BufTy).Contents (Elt F) → (⟨S1x1024, .f32⟩ : BufTy).Contents (Elt F)),
    StableHlo.unary main_v136 main_v137 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v135 main_v137 main_v138 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call7.cst (constant S_ .f32 0x00000000#32),
    StableHlo.TRef.unary main_call7.cst main_call7.v0 (broadcastInDim S16384x1024 ![] bcast_S_S16384x1024),
    StableHlo.TRef.binary (TRef.of main_v138 : TRef sig ⟨S16384x1024, .f32⟩) main_call7.v0 main_call7.v1 maximumf ]

theorem p22_sub : (p22 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem p22_fresh : ∀ op ∈ (p22 : List (HloOp τ sig (Elt F))), op.fresh = ∅ := by intro _ h; (repeat (cases h with | head => rfl | tail _ h => ?_)); exact nomatch h

/-- The buffers the piece writes. -/
abbrev p22_W : List (Ref sig .tc) := [main_v124, main_v125, main_v126, main_v127, main_v128, main_v129, main_cst_21, main_v130, main_v131, main_v132, main_v133, main_v134, main_v135, main_v136, main_v137, main_v138, main_call7_cst, main_call7_v0, main_v139]

theorem p22_writes : (p22 : List (HloOp τ sig (Elt F))).Forall fun op =>
    op.writes ⊆ (p22_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 257 … 268 of the flattened program (the values `main_v140` … `main_v149`). -/
abbrev p23 : List (HloOp τ sig (Elt F)) :=
  [ StableHlo.unary main_arg9 main_v140 (Host.absf : (⟨S10x1024, .f32⟩ : BufTy).Contents (Elt F) → (⟨S10x1024, .f32⟩ : BufTy).Contents (Elt F)),
    StableHlo.nullary main_cst_22 (constant S_ .f32 0x00000000#32),
    StableHlo.binary main_v140 main_cst_22 main_v141 ((fun x v => Host.reduceAdd x v reducesTo_S10x1024_S10_d1 h_S_) : (⟨S10x1024, .f32⟩ : BufTy).Contents (Elt F) → (⟨S_, .f32⟩ : BufTy).Contents (Elt F) → (⟨S10, .f32⟩ : BufTy).Contents (Elt F)),
    StableHlo.unary main_v141 main_v142 (broadcastInDim S10x1 ![0] bcast_S10_S10x1_0 : (⟨S10, .f32⟩ : BufTy).Contents (Elt F) → (⟨S10x1, .f32⟩ : BufTy).Contents (Elt F)),
    StableHlo.nullary main_cst_23 (constant S_ .f32 0x44800000#32),
    StableHlo.unary main_cst_23 main_v143 (broadcastInDim S10x1 ![] bcast_S_S10x1 : (⟨S_, .f32⟩ : BufTy).Contents (Elt F) → (⟨S10x1, .f32⟩ : BufTy).Contents (Elt F)),
    StableHlo.binary main_v142 main_v143 main_v144 (Host.divf : (⟨S10x1, .f32⟩ : BufTy).Contents (Elt F) → (⟨S10x1, .f32⟩ : BufTy).Contents (Elt F) → (⟨S10x1, .f32⟩ : BufTy).Contents (Elt F)),
    StableHlo.unary main_arg9 main_v145 (Host.sign : (⟨S10x1024, .f32⟩ : BufTy).Contents (Elt F) → (⟨S10x1024, .f32⟩ : BufTy).Contents (Elt F)),
    StableHlo.unary main_v144 main_v146 (broadcastInDim S10x1024 ![0, 1] bcast_S10x1_S10x1024_0_1 : (⟨S10x1, .f32⟩ : BufTy).Contents (Elt F) → (⟨S10x1024, .f32⟩ : BufTy).Contents (Elt F)),
    StableHlo.binary main_v145 main_v146 main_v147 (mulf : (⟨S10x1024, .f32⟩ : BufTy).Contents (Elt F) → (⟨S10x1024, .f32⟩ : BufTy).Contents (Elt F) → (⟨S10x1024, .f32⟩ : BufTy).Contents (Elt F)),
    StableHlo.binary main_v147 main_arg9 main_v148 (subf : (⟨S10x1024, .f32⟩ : BufTy).Contents (Elt F) → (⟨S10x1024, .f32⟩ : BufTy).Contents (Elt F) → (⟨S10x1024, .f32⟩ : BufTy).Contents (Elt F)),
    StableHlo.binary main_arg9 main_v148 main_v149 (addf : (⟨S10x1024, .f32⟩ : BufTy).Contents (Elt F) → (⟨S10x1024, .f32⟩ : BufTy).Contents (Elt F) → (⟨S10x1024, .f32⟩ : BufTy).Contents (Elt F)) ]

theorem p23_sub : (p23 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., binary_bufs_sub .., binary_bufs_sub .., binary_bufs_sub ..⟩

theorem p23_fresh : ∀ op ∈ (p23 : List (HloOp τ sig (Elt F))), op.fresh = ∅ := by intro _ h; (repeat (cases h with | head => rfl | tail _ h => ?_)); exact nomatch h

/-- The buffers the piece writes. -/
abbrev p23_W : List (Ref sig .tc) := [main_v140, main_cst_22, main_v141, main_v142, main_cst_23, main_v143, main_v144, main_v145, main_v146, main_v147, main_v148, main_v149]

theorem p23_writes : (p23 : List (HloOp τ sig (Elt F))).Forall fun op =>
    op.writes ⊆ (p23_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 269 … 272 of the flattened program (the values `main_v150` … `main_v153`). -/
abbrev p24 : List (HloOp τ sig (Elt F)) :=
  [ StableHlo.unary main_v149 main_v150 ((transpose S1024x10 [1, 0] · transposes_S10x1024_S1024x10_1_0) : (⟨S10x1024, .f32⟩ : BufTy).Contents (Elt F) → (⟨S1024x10, .f32⟩ : BufTy).Contents (Elt F)),
    StableHlo.binary main_v139 main_v150 main_v151 ((fun l r => Host.dotGeneral dot_S16384x1024_S1024x10_S16384x10_1_0_0_1_n_n none l r) : (⟨S16384x1024, .f32⟩ : BufTy).Contents (Elt F) → (⟨S1024x10, .f32⟩ : BufTy).Contents (Elt F) → (⟨S16384x10, .f32⟩ : BufTy).Contents (Elt F)),
    StableHlo.unary main_arg10 main_v152 (broadcastInDim S1x10 ![1] bcast_S10_S1x10_1 : (⟨S10, .f32⟩ : BufTy).Contents (Elt F) → (⟨S1x10, .f32⟩ : BufTy).Contents (Elt F)),
    StableHlo.unary main_v152 main_v153 (broadcastInDim S16384x10 ![0, 1] bcast_S1x10_S16384x10_0_1 : (⟨S1x10, .f32⟩ : BufTy).Contents (Elt F) → (⟨S16384x10, .f32⟩ : BufTy).Contents (Elt F)) ]

theorem p24_sub : (p24 : List (HloOp τ sig (Elt F))).Forall fun op => op.bufs ⊆ tcRefs τ sig :=
  ⟨unary_bufs_sub .., binary_bufs_sub .., unary_bufs_sub .., unary_bufs_sub ..⟩

theorem p24_fresh : ∀ op ∈ (p24 : List (HloOp τ sig (Elt F))), op.fresh = ∅ := by intro _ h; (repeat (cases h with | head => rfl | tail _ h => ?_)); exact nomatch h

/-- The buffers the piece writes. -/
abbrev p24_W : List (Ref sig .tc) := [main_v150, main_v151, main_v152, main_v153]

theorem p24_writes : (p24 : List (HloOp τ sig (Elt F))).Forall fun op =>
    op.writes ⊆ (p24_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- Operations 273 … 273 of the flattened program (the values `main_v154` … `main_v154`). -/
abbrev p25 : List (HloOp τ sig (Elt F)) :=
  [ StableHlo.binary main_v151 main_v153 main_v154 (addf : (⟨S16384x10, .f32⟩ : BufTy).Contents (Elt F) → (⟨S16384x10, .f32⟩ : BufTy).Contents (Elt F) → (⟨S16384x10, .f32⟩ : BufTy).Contents (Elt F)) ]

theorem p25_sub : (p25 : List (HloOp τ sig (Elt F))).Forall fun op => op.bufs ⊆ tcRefs τ sig :=
  binary_bufs_sub ..

theorem p25_fresh : ∀ op ∈ (p25 : List (HloOp τ sig (Elt F))), op.fresh = ∅ := by intro _ h; (repeat (cases h with | head => rfl | tail _ h => ?_)); exact nomatch h

/-- The buffers the piece writes. -/
abbrev p25_W : List (Ref sig .tc) := [main_v154]

theorem p25_writes : (p25 : List (HloOp τ sig (Elt F))).Forall fun op =>
    op.writes ⊆ (p25_W.map (Proc.devRef (τ := τ) .tc)).toFinset := by
  simp only [List.Forall]; exact (by simp only [nullary_writes, unary_writes, binary_writes, ternary_writes, Finset.singleton_subset_iff, List.mem_toFinset]; exact List.mem_map_of_mem (by decide))

/-- Operations 274 … 288 of the flattened program (the values `main_call8_cst` … `main_v155`). -/
abbrev p26 : List (HloOp τ sig (Elt F)) :=
  [ StableHlo.TRef.nullary main_call8.cst (constant S_ .f32 0xFF800000#32),
    StableHlo.TRef.binary (TRef.of main_v154 : TRef sig ⟨S16384x10, .f32⟩) main_call8.cst main_call8.v0 (fun x v => Host.reduce FloatOps.maximumf x v reducesTo_S16384x10_S16384_d1 h_S_),
    StableHlo.TRef.nullary main_call8.cst_0 (constant S_ .f32 0xFF800000#32),
    StableHlo.TRef.unary main_call8.cst_0 main_call8.v1 (broadcastInDim S16384 ![] bcast_S_S16384),
    StableHlo.TRef.binary main_call8.v1 main_call8.v0 main_call8.v2 maximumf,
    StableHlo.TRef.unary main_call8.v2 main_call8.v3 (broadcastInDim S16384x1 ![0] bcast_S16384_S16384x1_0),
    StableHlo.TRef.unary main_call8.v3 main_call8.v4 (broadcastInDim S16384x10 ![0, 1] bcast_S16384x1_S16384x10_0_1),
    StableHlo.TRef.binary (TRef.of main_v154 : TRef sig ⟨S16384x10, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S16384x10_S16384_d1 h_S_),
    StableHlo.TRef.unary main_call8.v7 main_call8.v8 (broadcastInDim S16384x1 ![0] bcast_S16384_S16384x1_0),
    StableHlo.TRef.unary main_call8.v8 main_call8.v9 Host.log,
    StableHlo.TRef.unary main_call8.v9 main_call8.v10 (broadcastInDim S16384x10 ![0, 1] bcast_S16384x1_S16384x10_0_1),
    StableHlo.TRef.binary main_call8.v5 main_call8.v10 main_call8.v11 subf ]

theorem p26_sub : (p26 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem p26_fresh : ∀ op ∈ (p26 : List (HloOp τ sig (Elt F))), op.fresh = ∅ := by intro _ h; (repeat (cases h with | head => rfl | tail _ h => ?_)); exact nomatch h

/-- The buffers the piece writes. -/
abbrev p26_W : List (Ref sig .tc) := [main_call8_cst, main_call8_v0, main_call8_cst_0, main_call8_v1, main_call8_v2, main_call8_v3, main_call8_v4, main_call8_v5, main_call8_v6, main_call8_cst_1, main_call8_v7, main_call8_v8, main_call8_v9, main_call8_v10, main_v155]

theorem p26_writes : (p26 : List (HloOp τ sig (Elt F))).Forall fun op =>
    op.writes ⊆ (p26_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

end Cert.RefSide

end
-- ==== Proof.RefMain.lean ====
/-
  The printed program's four windows are the consecutive pieces of RefOps run one after the
  other, and @main is the windows in order: @main is one straight line of host operations.
-/
import proofs.«157065_j74259984548393_2_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations of the printed window `main_part0`. -/
abbrev w0 : List (HloOp τ sig (Elt F)) := p01 ++ (p02 ++ (p03 ++ (p04 ++ (p05 ++ (p06 ++ (p07 ++ (p08)))))))

/-- The operations of the printed window `main_part1`. -/
abbrev w1 : List (HloOp τ sig (Elt F)) := p09 ++ (p10 ++ (p11 ++ (p12 ++ (p13 ++ (p14 ++ (p15 ++ (p16)))))))

/-- The operations of the printed window `main_part2`. -/
abbrev w2 : List (HloOp τ sig (Elt F)) := p17 ++ (p18 ++ (p19 ++ (p20 ++ (p21 ++ (p22 ++ (p23 ++ (p24)))))))

/-- The operations of the printed window `main_part3`. -/
abbrev w3 : List (HloOp τ sig (Elt F)) := p25 ++ (p26)

/-- @main's operations, in order. -/
abbrev ops : List (HloOp τ sig (Elt F)) := w0 ++ (w1 ++ (w2 ++ (w3)))

set_option maxRecDepth 16384 in
set_option maxHeartbeats 4000000 in
theorem main_part0_eq (c : Dev nD) : main_part0 (F := F) c = seq w0 := rfl

set_option maxRecDepth 16384 in
set_option maxHeartbeats 4000000 in
theorem main_part1_eq (c : Dev nD) : main_part1 (F := F) c = seq w1 := rfl

set_option maxRecDepth 16384 in
set_option maxHeartbeats 4000000 in
theorem main_part2_eq (c : Dev nD) : main_part2 (F := F) c = seq w2 := rfl

set_option maxRecDepth 16384 in
set_option maxHeartbeats 4000000 in
theorem main_part3_eq (c : Dev nD) : main_part3 (F := F) c = seq w3 := rfl

set_option maxRecDepth 16384 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (p01 : List (HloOp τ sig (Elt F))) ∨ op ∈ (p02 : List (HloOp τ sig (Elt F))) ∨ op ∈ (p03 : List (HloOp τ sig (Elt F))) ∨ op ∈ (p04 : List (HloOp τ sig (Elt F))) ∨ op ∈ (p05 : List (HloOp τ sig (Elt F))) ∨ op ∈ (p06 : List (HloOp τ sig (Elt F))) ∨ op ∈ (p07 : List (HloOp τ sig (Elt F))) ∨ op ∈ (p08 : List (HloOp τ sig (Elt F))) ∨ op ∈ (p09 : List (HloOp τ sig (Elt F))) ∨ op ∈ (p10 : List (HloOp τ sig (Elt F))) ∨ op ∈ (p11 : List (HloOp τ sig (Elt F))) ∨ op ∈ (p12 : List (HloOp τ sig (Elt F))) ∨ op ∈ (p13 : List (HloOp τ sig (Elt F))) ∨ op ∈ (p14 : List (HloOp τ sig (Elt F))) ∨ op ∈ (p15 : List (HloOp τ sig (Elt F))) ∨ op ∈ (p16 : List (HloOp τ sig (Elt F))) ∨ op ∈ (p17 : List (HloOp τ sig (Elt F))) ∨ op ∈ (p18 : List (HloOp τ sig (Elt F))) ∨ op ∈ (p19 : List (HloOp τ sig (Elt F))) ∨ op ∈ (p20 : List (HloOp τ sig (Elt F))) ∨ op ∈ (p21 : List (HloOp τ sig (Elt F))) ∨ op ∈ (p22 : List (HloOp τ sig (Elt F))) ∨ op ∈ (p23 : List (HloOp τ sig (Elt F))) ∨ op ∈ (p24 : List (HloOp τ sig (Elt F))) ∨ op ∈ (p25 : List (HloOp τ sig (Elt F))) ∨ op ∈ (p26 : List (HloOp τ sig (Elt F))) := by
  simpa only [ops, w0, w1, w2, w3, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h | h | h | h | h | h | h | h | h | h | h | h | h | h | h | h
    exacts [List.forall_iff_forall_mem.mp p01_sub op h, List.forall_iff_forall_mem.mp p02_sub op h, List.forall_iff_forall_mem.mp p03_sub op h, List.forall_iff_forall_mem.mp p04_sub op h, List.forall_iff_forall_mem.mp p05_sub op h, List.forall_iff_forall_mem.mp p06_sub op h, List.forall_iff_forall_mem.mp p07_sub op h, List.forall_iff_forall_mem.mp p08_sub op h, List.forall_iff_forall_mem.mp p09_sub op h, List.forall_iff_forall_mem.mp p10_sub op h, List.forall_iff_forall_mem.mp p11_sub op h, List.forall_iff_forall_mem.mp p12_sub op h, List.forall_iff_forall_mem.mp p13_sub op h, List.forall_iff_forall_mem.mp p14_sub op h, List.forall_iff_forall_mem.mp p15_sub op h, List.forall_iff_forall_mem.mp p16_sub op h, List.forall_iff_forall_mem.mp p17_sub op h, List.forall_iff_forall_mem.mp p18_sub op h, List.forall_iff_forall_mem.mp p19_sub op h, List.forall_iff_forall_mem.mp p20_sub op h, List.forall_iff_forall_mem.mp p21_sub op h, List.forall_iff_forall_mem.mp p22_sub op h, List.forall_iff_forall_mem.mp p23_sub op h, List.forall_iff_forall_mem.mp p24_sub op h, List.forall_iff_forall_mem.mp p25_sub op h, List.forall_iff_forall_mem.mp p26_sub op h]

theorem ops_fresh : ∀ op ∈ (ops : List (HloOp τ sig (Elt F))), op.fresh = ∅ := fun op h => by
  rcases mem_ops h with h | h | h | h | h | h | h | h | h | h | h | h | h | h | h | h | h | h | h | h | h | h | h | h | h | h
  exacts [p01_fresh op h, p02_fresh op h, p03_fresh op h, p04_fresh op h, p05_fresh op h, p06_fresh op h, p07_fresh op h, p08_fresh op h, p09_fresh op h, p10_fresh op h, p11_fresh op h, p12_fresh op h, p13_fresh op h, p14_fresh op h, p15_fresh op h, p16_fresh op h, p17_fresh op h, p18_fresh op h, p19_fresh op h, p20_fresh op h, p21_fresh op h, p22_fresh op h, p23_fresh op h, p24_fresh op h, p25_fresh op h, p26_fresh op h]

end Cert.RefSide

end
-- ==== Proof.RefVals0.lean ====
/-
  What the buffers hold after the pieces 1 … 8 of the reference's straight line, from any
  contents `V0`: each buffer still needed later at its stage's function of the argument arrays
  (RefStages), every other buffer untouched.
-/
import proofs.«157065_j74259984548393_2_alg».proof.Proof.RefOps
import proofs.«157065_j74259984548393_2_alg».proof.Proof.RefStages

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before the first piece. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl
theorem val0_main_arg7 (V0 : Valuation τ sig (Elt F)) : val0 V0 (no_index (Proc.devRef .tc main_arg7)) = (V0 (Proc.devRef .tc main_arg7)) := rfl
theorem val0_main_arg8 (V0 : Valuation τ sig (Elt F)) : val0 V0 (no_index (Proc.devRef .tc main_arg8)) = (V0 (Proc.devRef .tc main_arg8)) := rfl
theorem val0_main_arg9 (V0 : Valuation τ sig (Elt F)) : val0 V0 (no_index (Proc.devRef .tc main_arg9)) = (V0 (Proc.devRef .tc main_arg9)) := rfl
theorem val0_main_arg10 (V0 : Valuation τ sig (Elt F)) : val0 V0 (no_index (Proc.devRef .tc main_arg10)) = (V0 (Proc.devRef .tc main_arg10)) := rfl
theorem val0_main_arg11 (V0 : Valuation τ sig (Elt F)) : val0 V0 (no_index (Proc.devRef .tc main_arg11)) = (V0 (Proc.devRef .tc main_arg11)) := rfl
theorem val0_main_arg12 (V0 : Valuation τ sig (Elt F)) : val0 V0 (no_index (Proc.devRef .tc main_arg12)) = (V0 (Proc.devRef .tc main_arg12)) := rfl
theorem val0_main_arg13 (V0 : Valuation τ sig (Elt F)) : val0 V0 (no_index (Proc.devRef .tc main_arg13)) = (V0 (Proc.devRef .tc main_arg13)) := rfl
theorem val0_main_arg14 (V0 : Valuation τ sig (Elt F)) : val0 V0 (no_index (Proc.devRef .tc main_arg14)) = (V0 (Proc.devRef .tc main_arg14)) := rfl
theorem val0_main_arg15 (V0 : Valuation τ sig (Elt F)) : val0 V0 (no_index (Proc.devRef .tc main_arg15)) = (V0 (Proc.devRef .tc main_arg15)) := rfl
theorem val0_main_arg16 (V0 : Valuation τ sig (Elt F)) : val0 V0 (no_index (Proc.devRef .tc main_arg16)) = (V0 (Proc.devRef .tc main_arg16)) := rfl
theorem val0_main_arg17 (V0 : Valuation τ sig (Elt F)) : val0 V0 (no_index (Proc.devRef .tc main_arg17)) = (V0 (Proc.devRef .tc main_arg17)) := rfl
theorem val0_main_arg18 (V0 : Valuation τ sig (Elt F)) : val0 V0 (no_index (Proc.devRef .tc main_arg18)) = (V0 (Proc.devRef .tc main_arg18)) := rfl

/-- The device's buffer contents after the first 1 piece. -/
def val1 (V0 : Valuation τ sig (Elt F)) : Valuation τ sig (Elt F) := after p01 (val0 V0)
/-- A buffer that piece 1 does not write keeps its contents through it. -/
theorem val1_keep (V0 : Valuation τ sig (Elt F)) (r : Ref sig .tc) (h : r ∉ p01_W) :
    val1 V0 (Proc.devRef .tc r) = val0 V0 (Proc.devRef .tc r) :=
  after_of_writes_sub p01 _ p01_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_arg2 (V0 : Valuation τ sig (Elt F)) : val1 V0 (no_index (Proc.devRef .tc main_arg2)) = (V0 (Proc.devRef .tc main_arg2)) :=
  (val1_keep V0 main_arg2 (by decide)).trans (val0_main_arg2 V0)
theorem val1_main_arg3 (V0 : Valuation τ sig (Elt F)) : val1 V0 (no_index (Proc.devRef .tc main_arg3)) = (V0 (Proc.devRef .tc main_arg3)) :=
  (val1_keep V0 main_arg3 (by decide)).trans (val0_main_arg3 V0)
theorem val1_main_arg4 (V0 : Valuation τ sig (Elt F)) : val1 V0 (no_index (Proc.devRef .tc main_arg4)) = (V0 (Proc.devRef .tc main_arg4)) :=
  (val1_keep V0 main_arg4 (by decide)).trans (val0_main_arg4 V0)
theorem val1_main_arg5 (V0 : Valuation τ sig (Elt F)) : val1 V0 (no_index (Proc.devRef .tc main_arg5)) = (V0 (Proc.devRef .tc main_arg5)) :=
  (val1_keep V0 main_arg5 (by decide)).trans (val0_main_arg5 V0)
theorem val1_main_arg6 (V0 : Valuation τ sig (Elt F)) : val1 V0 (no_index (Proc.devRef .tc main_arg6)) = (V0 (Proc.devRef .tc main_arg6)) :=
  (val1_keep V0 main_arg6 (by decide)).trans (val0_main_arg6 V0)
theorem val1_main_arg7 (V0 : Valuation τ sig (Elt F)) : val1 V0 (no_index (Proc.devRef .tc main_arg7)) = (V0 (Proc.devRef .tc main_arg7)) :=
  (val1_keep V0 main_arg7 (by decide)).trans (val0_main_arg7 V0)
theorem val1_main_arg8 (V0 : Valuation τ sig (Elt F)) : val1 V0 (no_index (Proc.devRef .tc main_arg8)) = (V0 (Proc.devRef .tc main_arg8)) :=
  (val1_keep V0 main_arg8 (by decide)).trans (val0_main_arg8 V0)
theorem val1_main_arg9 (V0 : Valuation τ sig (Elt F)) : val1 V0 (no_index (Proc.devRef .tc main_arg9)) = (V0 (Proc.devRef .tc main_arg9)) :=
  (val1_keep V0 main_arg9 (by decide)).trans (val0_main_arg9 V0)
theorem val1_main_arg10 (V0 : Valuation τ sig (Elt F)) : val1 V0 (no_index (Proc.devRef .tc main_arg10)) = (V0 (Proc.devRef .tc main_arg10)) :=
  (val1_keep V0 main_arg10 (by decide)).trans (val0_main_arg10 V0)
theorem val1_main_arg11 (V0 : Valuation τ sig (Elt F)) : val1 V0 (no_index (Proc.devRef .tc main_arg11)) = (V0 (Proc.devRef .tc main_arg11)) :=
  (val1_keep V0 main_arg11 (by decide)).trans (val0_main_arg11 V0)
theorem val1_main_arg12 (V0 : Valuation τ sig (Elt F)) : val1 V0 (no_index (Proc.devRef .tc main_arg12)) = (V0 (Proc.devRef .tc main_arg12)) :=
  (val1_keep V0 main_arg12 (by decide)).trans (val0_main_arg12 V0)
theorem val1_main_arg13 (V0 : Valuation τ sig (Elt F)) : val1 V0 (no_index (Proc.devRef .tc main_arg13)) = (V0 (Proc.devRef .tc main_arg13)) :=
  (val1_keep V0 main_arg13 (by decide)).trans (val0_main_arg13 V0)
theorem val1_main_arg14 (V0 : Valuation τ sig (Elt F)) : val1 V0 (no_index (Proc.devRef .tc main_arg14)) = (V0 (Proc.devRef .tc main_arg14)) :=
  (val1_keep V0 main_arg14 (by decide)).trans (val0_main_arg14 V0)
theorem val1_main_arg15 (V0 : Valuation τ sig (Elt F)) : val1 V0 (no_index (Proc.devRef .tc main_arg15)) = (V0 (Proc.devRef .tc main_arg15)) :=
  (val1_keep V0 main_arg15 (by decide)).trans (val0_main_arg15 V0)
theorem val1_main_arg16 (V0 : Valuation τ sig (Elt F)) : val1 V0 (no_index (Proc.devRef .tc main_arg16)) = (V0 (Proc.devRef .tc main_arg16)) :=
  (val1_keep V0 main_arg16 (by decide)).trans (val0_main_arg16 V0)
theorem val1_main_arg17 (V0 : Valuation τ sig (Elt F)) : val1 V0 (no_index (Proc.devRef .tc main_arg17)) = (V0 (Proc.devRef .tc main_arg17)) :=
  (val1_keep V0 main_arg17 (by decide)).trans (val0_main_arg17 V0)
theorem val1_main_arg18 (V0 : Valuation τ sig (Elt F)) : val1 V0 (no_index (Proc.devRef .tc main_arg18)) = (V0 (Proc.devRef .tc main_arg18)) :=
  (val1_keep V0 main_arg18 (by decide)).trans (val0_main_arg18 V0)
set_option maxRecDepth 16384 in
set_option maxHeartbeats 2400000 in
theorem val1_main_v9 (V0 : Valuation τ sig (Elt F)) : val1 V0 (no_index (Proc.devRef .tc main_v9)) = binW784 (V0 (Proc.devRef .tc main_arg1)) := by
  unfold val1
  simp only [p01]
  after_results_simp
  simp only [val0_main_arg1] <;> rfl

/-- The device's buffer contents after the first 2 pieces. -/
def val2 (V0 : Valuation τ sig (Elt F)) : Valuation τ sig (Elt F) := after p02 (val1 V0)
/-- A buffer that piece 2 does not write keeps its contents through it. -/
theorem val2_keep (V0 : Valuation τ sig (Elt F)) (r : Ref sig .tc) (h : r ∉ p02_W) :
    val2 V0 (Proc.devRef .tc r) = val1 V0 (Proc.devRef .tc r) :=
  after_of_writes_sub p02 _ p02_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
theorem val2_main_arg4 (V0 : Valuation τ sig (Elt F)) : val2 V0 (no_index (Proc.devRef .tc main_arg4)) = (V0 (Proc.devRef .tc main_arg4)) :=
  (val2_keep V0 main_arg4 (by decide)).trans (val1_main_arg4 V0)
theorem val2_main_arg5 (V0 : Valuation τ sig (Elt F)) : val2 V0 (no_index (Proc.devRef .tc main_arg5)) = (V0 (Proc.devRef .tc main_arg5)) :=
  (val2_keep V0 main_arg5 (by decide)).trans (val1_main_arg5 V0)
theorem val2_main_arg6 (V0 : Valuation τ sig (Elt F)) : val2 V0 (no_index (Proc.devRef .tc main_arg6)) = (V0 (Proc.devRef .tc main_arg6)) :=
  (val2_keep V0 main_arg6 (by decide)).trans (val1_main_arg6 V0)
theorem val2_main_arg7 (V0 : Valuation τ sig (Elt F)) : val2 V0 (no_index (Proc.devRef .tc main_arg7)) = (V0 (Proc.devRef .tc main_arg7)) :=
  (val2_keep V0 main_arg7 (by decide)).trans (val1_main_arg7 V0)
theorem val2_main_arg8 (V0 : Valuation τ sig (Elt F)) : val2 V0 (no_index (Proc.devRef .tc main_arg8)) = (V0 (Proc.devRef .tc main_arg8)) :=
  (val2_keep V0 main_arg8 (by decide)).trans (val1_main_arg8 V0)
theorem val2_main_arg9 (V0 : Valuation τ sig (Elt F)) : val2 V0 (no_index (Proc.devRef .tc main_arg9)) = (V0 (Proc.devRef .tc main_arg9)) :=
  (val2_keep V0 main_arg9 (by decide)).trans (val1_main_arg9 V0)
theorem val2_main_arg10 (V0 : Valuation τ sig (Elt F)) : val2 V0 (no_index (Proc.devRef .tc main_arg10)) = (V0 (Proc.devRef .tc main_arg10)) :=
  (val2_keep V0 main_arg10 (by decide)).trans (val1_main_arg10 V0)
theorem val2_main_arg11 (V0 : Valuation τ sig (Elt F)) : val2 V0 (no_index (Proc.devRef .tc main_arg11)) = (V0 (Proc.devRef .tc main_arg11)) :=
  (val2_keep V0 main_arg11 (by decide)).trans (val1_main_arg11 V0)
theorem val2_main_arg12 (V0 : Valuation τ sig (Elt F)) : val2 V0 (no_index (Proc.devRef .tc main_arg12)) = (V0 (Proc.devRef .tc main_arg12)) :=
  (val2_keep V0 main_arg12 (by decide)).trans (val1_main_arg12 V0)
theorem val2_main_arg13 (V0 : Valuation τ sig (Elt F)) : val2 V0 (no_index (Proc.devRef .tc main_arg13)) = (V0 (Proc.devRef .tc main_arg13)) :=
  (val2_keep V0 main_arg13 (by decide)).trans (val1_main_arg13 V0)
theorem val2_main_arg14 (V0 : Valuation τ sig (Elt F)) : val2 V0 (no_index (Proc.devRef .tc main_arg14)) = (V0 (Proc.devRef .tc main_arg14)) :=
  (val2_keep V0 main_arg14 (by decide)).trans (val1_main_arg14 V0)
theorem val2_main_arg15 (V0 : Valuation τ sig (Elt F)) : val2 V0 (no_index (Proc.devRef .tc main_arg15)) = (V0 (Proc.devRef .tc main_arg15)) :=
  (val2_keep V0 main_arg15 (by decide)).trans (val1_main_arg15 V0)
theorem val2_main_arg16 (V0 : Valuation τ sig (Elt F)) : val2 V0 (no_index (Proc.devRef .tc main_arg16)) = (V0 (Proc.devRef .tc main_arg16)) :=
  (val2_keep V0 main_arg16 (by decide)).trans (val1_main_arg16 V0)
theorem val2_main_arg17 (V0 : Valuation τ sig (Elt F)) : val2 V0 (no_index (Proc.devRef .tc main_arg17)) = (V0 (Proc.devRef .tc main_arg17)) :=
  (val2_keep V0 main_arg17 (by decide)).trans (val1_main_arg17 V0)
theorem val2_main_arg18 (V0 : Valuation τ sig (Elt F)) : val2 V0 (no_index (Proc.devRef .tc main_arg18)) = (V0 (Proc.devRef .tc main_arg18)) :=
  (val2_keep V0 main_arg18 (by decide)).trans (val1_main_arg18 V0)
set_option maxRecDepth 16384 in
set_option maxHeartbeats 1000000 in
theorem val2_main_v14 (V0 : Valuation τ sig (Elt F)) : val2 V0 (no_index (Proc.devRef .tc main_v14)) = hpre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val2
  simp only [p02]
  after_results_simp
  simp only [val1_main_arg2, val1_main_v9, val1_main_arg0] <;> rfl

/-- The device's buffer contents after the first 3 pieces. -/
def val3 (V0 : Valuation τ sig (Elt F)) : Valuation τ sig (Elt F) := after p03 (val2 V0)
/-- A buffer that piece 3 does not write keeps its contents through it. -/
theorem val3_keep (V0 : Valuation τ sig (Elt F)) (r : Ref sig .tc) (h : r ∉ p03_W) :
    val3 V0 (Proc.devRef .tc r) = val2 V0 (Proc.devRef .tc r) :=
  after_of_writes_sub p03 _ p03_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
theorem val3_main_arg4 (V0 : Valuation τ sig (Elt F)) : val3 V0 (no_index (Proc.devRef .tc main_arg4)) = (V0 (Proc.devRef .tc main_arg4)) :=
  (val3_keep V0 main_arg4 (by decide)).trans (val2_main_arg4 V0)
theorem val3_main_arg5 (V0 : Valuation τ sig (Elt F)) : val3 V0 (no_index (Proc.devRef .tc main_arg5)) = (V0 (Proc.devRef .tc main_arg5)) :=
  (val3_keep V0 main_arg5 (by decide)).trans (val2_main_arg5 V0)
theorem val3_main_arg6 (V0 : Valuation τ sig (Elt F)) : val3 V0 (no_index (Proc.devRef .tc main_arg6)) = (V0 (Proc.devRef .tc main_arg6)) :=
  (val3_keep V0 main_arg6 (by decide)).trans (val2_main_arg6 V0)
theorem val3_main_arg7 (V0 : Valuation τ sig (Elt F)) : val3 V0 (no_index (Proc.devRef .tc main_arg7)) = (V0 (Proc.devRef .tc main_arg7)) :=
  (val3_keep V0 main_arg7 (by decide)).trans (val2_main_arg7 V0)
theorem val3_main_arg8 (V0 : Valuation τ sig (Elt F)) : val3 V0 (no_index (Proc.devRef .tc main_arg8)) = (V0 (Proc.devRef .tc main_arg8)) :=
  (val3_keep V0 main_arg8 (by decide)).trans (val2_main_arg8 V0)
theorem val3_main_arg9 (V0 : Valuation τ sig (Elt F)) : val3 V0 (no_index (Proc.devRef .tc main_arg9)) = (V0 (Proc.devRef .tc main_arg9)) :=
  (val3_keep V0 main_arg9 (by decide)).trans (val2_main_arg9 V0)
theorem val3_main_arg10 (V0 : Valuation τ sig (Elt F)) : val3 V0 (no_index (Proc.devRef .tc main_arg10)) = (V0 (Proc.devRef .tc main_arg10)) :=
  (val3_keep V0 main_arg10 (by decide)).trans (val2_main_arg10 V0)
theorem val3_main_arg11 (V0 : Valuation τ sig (Elt F)) : val3 V0 (no_index (Proc.devRef .tc main_arg11)) = (V0 (Proc.devRef .tc main_arg11)) :=
  (val3_keep V0 main_arg11 (by decide)).trans (val2_main_arg11 V0)
theorem val3_main_arg12 (V0 : Valuation τ sig (Elt F)) : val3 V0 (no_index (Proc.devRef .tc main_arg12)) = (V0 (Proc.devRef .tc main_arg12)) :=
  (val3_keep V0 main_arg12 (by decide)).trans (val2_main_arg12 V0)
theorem val3_main_arg13 (V0 : Valuation τ sig (Elt F)) : val3 V0 (no_index (Proc.devRef .tc main_arg13)) = (V0 (Proc.devRef .tc main_arg13)) :=
  (val3_keep V0 main_arg13 (by decide)).trans (val2_main_arg13 V0)
theorem val3_main_arg14 (V0 : Valuation τ sig (Elt F)) : val3 V0 (no_index (Proc.devRef .tc main_arg14)) = (V0 (Proc.devRef .tc main_arg14)) :=
  (val3_keep V0 main_arg14 (by decide)).trans (val2_main_arg14 V0)
theorem val3_main_arg15 (V0 : Valuation τ sig (Elt F)) : val3 V0 (no_index (Proc.devRef .tc main_arg15)) = (V0 (Proc.devRef .tc main_arg15)) :=
  (val3_keep V0 main_arg15 (by decide)).trans (val2_main_arg15 V0)
theorem val3_main_arg16 (V0 : Valuation τ sig (Elt F)) : val3 V0 (no_index (Proc.devRef .tc main_arg16)) = (V0 (Proc.devRef .tc main_arg16)) :=
  (val3_keep V0 main_arg16 (by decide)).trans (val2_main_arg16 V0)
theorem val3_main_arg17 (V0 : Valuation τ sig (Elt F)) : val3 V0 (no_index (Proc.devRef .tc main_arg17)) = (V0 (Proc.devRef .tc main_arg17)) :=
  (val3_keep V0 main_arg17 (by decide)).trans (val2_main_arg17 V0)
theorem val3_main_arg18 (V0 : Valuation τ sig (Elt F)) : val3 V0 (no_index (Proc.devRef .tc main_arg18)) = (V0 (Proc.devRef .tc main_arg18)) :=
  (val3_keep V0 main_arg18 (by decide)).trans (val2_main_arg18 V0)
theorem val3_main_v14 (V0 : Valuation τ sig (Elt F)) : val3 V0 (no_index (Proc.devRef .tc main_v14)) = hpre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val3_keep V0 main_v14 (by decide)).trans (val2_main_v14 V0)
set_option maxRecDepth 16384 in
set_option maxHeartbeats 1000000 in
theorem val3_main_v17 (V0 : Valuation τ sig (Elt F)) : val3 V0 (no_index (Proc.devRef .tc main_v17)) = mean (hpre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val3
  simp only [p03]
  after_results_simp
  simp only [val2_main_v14] <;> rfl

/-- The device's buffer contents after the first 4 pieces. -/
def val4 (V0 : Valuation τ sig (Elt F)) : Valuation τ sig (Elt F) := after p04 (val3 V0)
/-- A buffer that piece 4 does not write keeps its contents through it. -/
theorem val4_keep (V0 : Valuation τ sig (Elt F)) (r : Ref sig .tc) (h : r ∉ p04_W) :
    val4 V0 (Proc.devRef .tc r) = val3 V0 (Proc.devRef .tc r) :=
  after_of_writes_sub p04 _ p04_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_arg4 (V0 : Valuation τ sig (Elt F)) : val4 V0 (no_index (Proc.devRef .tc main_arg4)) = (V0 (Proc.devRef .tc main_arg4)) :=
  (val4_keep V0 main_arg4 (by decide)).trans (val3_main_arg4 V0)
theorem val4_main_arg5 (V0 : Valuation τ sig (Elt F)) : val4 V0 (no_index (Proc.devRef .tc main_arg5)) = (V0 (Proc.devRef .tc main_arg5)) :=
  (val4_keep V0 main_arg5 (by decide)).trans (val3_main_arg5 V0)
theorem val4_main_arg6 (V0 : Valuation τ sig (Elt F)) : val4 V0 (no_index (Proc.devRef .tc main_arg6)) = (V0 (Proc.devRef .tc main_arg6)) :=
  (val4_keep V0 main_arg6 (by decide)).trans (val3_main_arg6 V0)
theorem val4_main_arg7 (V0 : Valuation τ sig (Elt F)) : val4 V0 (no_index (Proc.devRef .tc main_arg7)) = (V0 (Proc.devRef .tc main_arg7)) :=
  (val4_keep V0 main_arg7 (by decide)).trans (val3_main_arg7 V0)
theorem val4_main_arg8 (V0 : Valuation τ sig (Elt F)) : val4 V0 (no_index (Proc.devRef .tc main_arg8)) = (V0 (Proc.devRef .tc main_arg8)) :=
  (val4_keep V0 main_arg8 (by decide)).trans (val3_main_arg8 V0)
theorem val4_main_arg9 (V0 : Valuation τ sig (Elt F)) : val4 V0 (no_index (Proc.devRef .tc main_arg9)) = (V0 (Proc.devRef .tc main_arg9)) :=
  (val4_keep V0 main_arg9 (by decide)).trans (val3_main_arg9 V0)
theorem val4_main_arg10 (V0 : Valuation τ sig (Elt F)) : val4 V0 (no_index (Proc.devRef .tc main_arg10)) = (V0 (Proc.devRef .tc main_arg10)) :=
  (val4_keep V0 main_arg10 (by decide)).trans (val3_main_arg10 V0)
theorem val4_main_arg11 (V0 : Valuation τ sig (Elt F)) : val4 V0 (no_index (Proc.devRef .tc main_arg11)) = (V0 (Proc.devRef .tc main_arg11)) :=
  (val4_keep V0 main_arg11 (by decide)).trans (val3_main_arg11 V0)
theorem val4_main_arg12 (V0 : Valuation τ sig (Elt F)) : val4 V0 (no_index (Proc.devRef .tc main_arg12)) = (V0 (Proc.devRef .tc main_arg12)) :=
  (val4_keep V0 main_arg12 (by decide)).trans (val3_main_arg12 V0)
theorem val4_main_arg13 (V0 : Valuation τ sig (Elt F)) : val4 V0 (no_index (Proc.devRef .tc main_arg13)) = (V0 (Proc.devRef .tc main_arg13)) :=
  (val4_keep V0 main_arg13 (by decide)).trans (val3_main_arg13 V0)
theorem val4_main_arg14 (V0 : Valuation τ sig (Elt F)) : val4 V0 (no_index (Proc.devRef .tc main_arg14)) = (V0 (Proc.devRef .tc main_arg14)) :=
  (val4_keep V0 main_arg14 (by decide)).trans (val3_main_arg14 V0)
theorem val4_main_arg15 (V0 : Valuation τ sig (Elt F)) : val4 V0 (no_index (Proc.devRef .tc main_arg15)) = (V0 (Proc.devRef .tc main_arg15)) :=
  (val4_keep V0 main_arg15 (by decide)).trans (val3_main_arg15 V0)
theorem val4_main_arg16 (V0 : Valuation τ sig (Elt F)) : val4 V0 (no_index (Proc.devRef .tc main_arg16)) = (V0 (Proc.devRef .tc main_arg16)) :=
  (val4_keep V0 main_arg16 (by decide)).trans (val3_main_arg16 V0)
theorem val4_main_arg17 (V0 : Valuation τ sig (Elt F)) : val4 V0 (no_index (Proc.devRef .tc main_arg17)) = (V0 (Proc.devRef .tc main_arg17)) :=
  (val4_keep V0 main_arg17 (by decide)).trans (val3_main_arg17 V0)
theorem val4_main_arg18 (V0 : Valuation τ sig (Elt F)) : val4 V0 (no_index (Proc.devRef .tc main_arg18)) = (V0 (Proc.devRef .tc main_arg18)) :=
  (val4_keep V0 main_arg18 (by decide)).trans (val3_main_arg18 V0)
theorem val4_main_v14 (V0 : Valuation τ sig (Elt F)) : val4 V0 (no_index (Proc.devRef .tc main_v14)) = hpre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val4_keep V0 main_v14 (by decide)).trans (val3_main_v14 V0)
theorem val4_main_v17 (V0 : Valuation τ sig (Elt F)) : val4 V0 (no_index (Proc.devRef .tc main_v17)) = mean (hpre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) :=
  (val4_keep V0 main_v17 (by decide)).trans (val3_main_v17 V0)
set_option maxRecDepth 16384 in
set_option maxHeartbeats 4000000 in
theorem val4_main_v18 (V0 : Valuation τ sig (Elt F)) : val4 V0 (no_index (Proc.devRef .tc main_v18)) = var (hpre1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val4
  simp only [p04]
  after_results_simp
  simp only [val3_main_v14] <;> rfl

/-- The device's buffer contents after the first 5 pieces. -/
def val5 (V0 : Valuation τ sig (Elt F)) : Valuation τ sig (Elt F) := after p05 (val4 V0)
/-- A buffer that piece 5 does not write keeps its contents through it. -/
theorem val5_keep (V0 : Valuation τ sig (Elt F)) (r : Ref sig .tc) (h : r ∉ p05_W) :
    val5 V0 (Proc.devRef .tc r) = val4 V0 (Proc.devRef .tc r) :=
  after_of_writes_sub p05 _ p05_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_arg4 (V0 : Valuation τ sig (Elt F)) : val5 V0 (no_index (Proc.devRef .tc main_arg4)) = (V0 (Proc.devRef .tc main_arg4)) :=
  (val5_keep V0 main_arg4 (by decide)).trans (val4_main_arg4 V0)
theorem val5_main_arg5 (V0 : Valuation τ sig (Elt F)) : val5 V0 (no_index (Proc.devRef .tc main_arg5)) = (V0 (Proc.devRef .tc main_arg5)) :=
  (val5_keep V0 main_arg5 (by decide)).trans (val4_main_arg5 V0)
theorem val5_main_arg6 (V0 : Valuation τ sig (Elt F)) : val5 V0 (no_index (Proc.devRef .tc main_arg6)) = (V0 (Proc.devRef .tc main_arg6)) :=
  (val5_keep V0 main_arg6 (by decide)).trans (val4_main_arg6 V0)
theorem val5_main_arg7 (V0 : Valuation τ sig (Elt F)) : val5 V0 (no_index (Proc.devRef .tc main_arg7)) = (V0 (Proc.devRef .tc main_arg7)) :=
  (val5_keep V0 main_arg7 (by decide)).trans (val4_main_arg7 V0)
theorem val5_main_arg8 (V0 : Valuation τ sig (Elt F)) : val5 V0 (no_index (Proc.devRef .tc main_arg8)) = (V0 (Proc.devRef .tc main_arg8)) :=
  (val5_keep V0 main_arg8 (by decide)).trans (val4_main_arg8 V0)
theorem val5_main_arg9 (V0 : Valuation τ sig (Elt F)) : val5 V0 (no_index (Proc.devRef .tc main_arg9)) = (V0 (Proc.devRef .tc main_arg9)) :=
  (val5_keep V0 main_arg9 (by decide)).trans (val4_main_arg9 V0)
theorem val5_main_arg10 (V0 : Valuation τ sig (Elt F)) : val5 V0 (no_index (Proc.devRef .tc main_arg10)) = (V0 (Proc.devRef .tc main_arg10)) :=
  (val5_keep V0 main_arg10 (by decide)).trans (val4_main_arg10 V0)
theorem val5_main_arg11 (V0 : Valuation τ sig (Elt F)) : val5 V0 (no_index (Proc.devRef .tc main_arg11)) = (V0 (Proc.devRef .tc main_arg11)) :=
  (val5_keep V0 main_arg11 (by decide)).trans (val4_main_arg11 V0)
theorem val5_main_arg12 (V0 : Valuation τ sig (Elt F)) : val5 V0 (no_index (Proc.devRef .tc main_arg12)) = (V0 (Proc.devRef .tc main_arg12)) :=
  (val5_keep V0 main_arg12 (by decide)).trans (val4_main_arg12 V0)
theorem val5_main_arg13 (V0 : Valuation τ sig (Elt F)) : val5 V0 (no_index (Proc.devRef .tc main_arg13)) = (V0 (Proc.devRef .tc main_arg13)) :=
  (val5_keep V0 main_arg13 (by decide)).trans (val4_main_arg13 V0)
theorem val5_main_arg14 (V0 : Valuation τ sig (Elt F)) : val5 V0 (no_index (Proc.devRef .tc main_arg14)) = (V0 (Proc.devRef .tc main_arg14)) :=
  (val5_keep V0 main_arg14 (by decide)).trans (val4_main_arg14 V0)
theorem val5_main_arg15 (V0 : Valuation τ sig (Elt F)) : val5 V0 (no_index (Proc.devRef .tc main_arg15)) = (V0 (Proc.devRef .tc main_arg15)) :=
  (val5_keep V0 main_arg15 (by decide)).trans (val4_main_arg15 V0)
theorem val5_main_arg16 (V0 : Valuation τ sig (Elt F)) : val5 V0 (no_index (Proc.devRef .tc main_arg16)) = (V0 (Proc.devRef .tc main_arg16)) :=
  (val5_keep V0 main_arg16 (by decide)).trans (val4_main_arg16 V0)
theorem val5_main_arg17 (V0 : Valuation τ sig (Elt F)) : val5 V0 (no_index (Proc.devRef .tc main_arg17)) = (V0 (Proc.devRef .tc main_arg17)) :=
  (val5_keep V0 main_arg17 (by decide)).trans (val4_main_arg17 V0)
theorem val5_main_arg18 (V0 : Valuation τ sig (Elt F)) : val5 V0 (no_index (Proc.devRef .tc main_arg18)) = (V0 (Proc.devRef .tc main_arg18)) :=
  (val5_keep V0 main_arg18 (by decide)).trans (val4_main_arg18 V0)
set_option maxRecDepth 16384 in
set_option maxHeartbeats 3800000 in
theorem val5_main_v34 (V0 : Valuation τ sig (Elt F)) : val5 V0 (no_index (Proc.devRef .tc main_v34)) = hact1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val5
  simp only [p05]
  after_results_simp
  simp only [val4_main_arg12, val4_main_v18, val4_main_v17, val4_main_v14, val4_main_arg11] <;> rfl

/-- The device's buffer contents after the first 6 pieces. -/
def val6 (V0 : Valuation τ sig (Elt F)) : Valuation τ sig (Elt F) := after p06 (val5 V0)
/-- A buffer that piece 6 does not write keeps its contents through it. -/
theorem val6_keep (V0 : Valuation τ sig (Elt F)) (r : Ref sig .tc) (h : r ∉ p06_W) :
    val6 V0 (Proc.devRef .tc r) = val5 V0 (Proc.devRef .tc r) :=
  after_of_writes_sub p06 _ p06_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5_main_arg1 V0)
theorem val6_main_arg2 (V0 : Valuation τ sig (Elt F)) : val6 V0 (no_index (Proc.devRef .tc main_arg2)) = (V0 (Proc.devRef .tc main_arg2)) :=
  (val6_keep V0 main_arg2 (by decide)).trans (val5_main_arg2 V0)
theorem val6_main_arg3 (V0 : Valuation τ sig (Elt F)) : val6 V0 (no_index (Proc.devRef .tc main_arg3)) = (V0 (Proc.devRef .tc main_arg3)) :=
  (val6_keep V0 main_arg3 (by decide)).trans (val5_main_arg3 V0)
theorem val6_main_arg4 (V0 : Valuation τ sig (Elt F)) : val6 V0 (no_index (Proc.devRef .tc main_arg4)) = (V0 (Proc.devRef .tc main_arg4)) :=
  (val6_keep V0 main_arg4 (by decide)).trans (val5_main_arg4 V0)
theorem val6_main_arg5 (V0 : Valuation τ sig (Elt F)) : val6 V0 (no_index (Proc.devRef .tc main_arg5)) = (V0 (Proc.devRef .tc main_arg5)) :=
  (val6_keep V0 main_arg5 (by decide)).trans (val5_main_arg5 V0)
theorem val6_main_arg6 (V0 : Valuation τ sig (Elt F)) : val6 V0 (no_index (Proc.devRef .tc main_arg6)) = (V0 (Proc.devRef .tc main_arg6)) :=
  (val6_keep V0 main_arg6 (by decide)).trans (val5_main_arg6 V0)
theorem val6_main_arg7 (V0 : Valuation τ sig (Elt F)) : val6 V0 (no_index (Proc.devRef .tc main_arg7)) = (V0 (Proc.devRef .tc main_arg7)) :=
  (val6_keep V0 main_arg7 (by decide)).trans (val5_main_arg7 V0)
theorem val6_main_arg8 (V0 : Valuation τ sig (Elt F)) : val6 V0 (no_index (Proc.devRef .tc main_arg8)) = (V0 (Proc.devRef .tc main_arg8)) :=
  (val6_keep V0 main_arg8 (by decide)).trans (val5_main_arg8 V0)
theorem val6_main_arg9 (V0 : Valuation τ sig (Elt F)) : val6 V0 (no_index (Proc.devRef .tc main_arg9)) = (V0 (Proc.devRef .tc main_arg9)) :=
  (val6_keep V0 main_arg9 (by decide)).trans (val5_main_arg9 V0)
theorem val6_main_arg10 (V0 : Valuation τ sig (Elt F)) : val6 V0 (no_index (Proc.devRef .tc main_arg10)) = (V0 (Proc.devRef .tc main_arg10)) :=
  (val6_keep V0 main_arg10 (by decide)).trans (val5_main_arg10 V0)
theorem val6_main_arg11 (V0 : Valuation τ sig (Elt F)) : val6 V0 (no_index (Proc.devRef .tc main_arg11)) = (V0 (Proc.devRef .tc main_arg11)) :=
  (val6_keep V0 main_arg11 (by decide)).trans (val5_main_arg11 V0)
theorem val6_main_arg12 (V0 : Valuation τ sig (Elt F)) : val6 V0 (no_index (Proc.devRef .tc main_arg12)) = (V0 (Proc.devRef .tc main_arg12)) :=
  (val6_keep V0 main_arg12 (by decide)).trans (val5_main_arg12 V0)
theorem val6_main_arg13 (V0 : Valuation τ sig (Elt F)) : val6 V0 (no_index (Proc.devRef .tc main_arg13)) = (V0 (Proc.devRef .tc main_arg13)) :=
  (val6_keep V0 main_arg13 (by decide)).trans (val5_main_arg13 V0)
theorem val6_main_arg14 (V0 : Valuation τ sig (Elt F)) : val6 V0 (no_index (Proc.devRef .tc main_arg14)) = (V0 (Proc.devRef .tc main_arg14)) :=
  (val6_keep V0 main_arg14 (by decide)).trans (val5_main_arg14 V0)
theorem val6_main_arg15 (V0 : Valuation τ sig (Elt F)) : val6 V0 (no_index (Proc.devRef .tc main_arg15)) = (V0 (Proc.devRef .tc main_arg15)) :=
  (val6_keep V0 main_arg15 (by decide)).trans (val5_main_arg15 V0)
theorem val6_main_arg16 (V0 : Valuation τ sig (Elt F)) : val6 V0 (no_index (Proc.devRef .tc main_arg16)) = (V0 (Proc.devRef .tc main_arg16)) :=
  (val6_keep V0 main_arg16 (by decide)).trans (val5_main_arg16 V0)
theorem val6_main_arg17 (V0 : Valuation τ sig (Elt F)) : val6 V0 (no_index (Proc.devRef .tc main_arg17)) = (V0 (Proc.devRef .tc main_arg17)) :=
  (val6_keep V0 main_arg17 (by decide)).trans (val5_main_arg17 V0)
theorem val6_main_arg18 (V0 : Valuation τ sig (Elt F)) : val6 V0 (no_index (Proc.devRef .tc main_arg18)) = (V0 (Proc.devRef .tc main_arg18)) :=
  (val6_keep V0 main_arg18 (by decide)).trans (val5_main_arg18 V0)
theorem val6_main_v34 (V0 : Valuation τ sig (Elt F)) : val6 V0 (no_index (Proc.devRef .tc main_v34)) = hact1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val6_keep V0 main_v34 (by decide)).trans (val5_main_v34 V0)
set_option maxRecDepth 16384 in
set_option maxHeartbeats 2400000 in
theorem val6_main_v44 (V0 : Valuation τ sig (Elt F)) : val6 V0 (no_index (Proc.devRef .tc main_v44)) = binW1024 (V0 (Proc.devRef .tc main_arg3)) := by
  unfold val6
  simp only [p06]
  after_results_simp
  simp only [val5_main_arg3] <;> rfl

/-- The device's buffer contents after the first 7 pieces. -/
def val7 (V0 : Valuation τ sig (Elt F)) : Valuation τ sig (Elt F) := after p07 (val6 V0)
/-- A buffer that piece 7 does not write keeps its contents through it. -/
theorem val7_keep (V0 : Valuation τ sig (Elt F)) (r : Ref sig .tc) (h : r ∉ p07_W) :
    val7 V0 (Proc.devRef .tc r) = val6 V0 (Proc.devRef .tc r) :=
  after_of_writes_sub p07 _ p07_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6_main_arg1 V0)
theorem val7_main_arg2 (V0 : Valuation τ sig (Elt F)) : val7 V0 (no_index (Proc.devRef .tc main_arg2)) = (V0 (Proc.devRef .tc main_arg2)) :=
  (val7_keep V0 main_arg2 (by decide)).trans (val6_main_arg2 V0)
theorem val7_main_arg3 (V0 : Valuation τ sig (Elt F)) : val7 V0 (no_index (Proc.devRef .tc main_arg3)) = (V0 (Proc.devRef .tc main_arg3)) :=
  (val7_keep V0 main_arg3 (by decide)).trans (val6_main_arg3 V0)
theorem val7_main_arg4 (V0 : Valuation τ sig (Elt F)) : val7 V0 (no_index (Proc.devRef .tc main_arg4)) = (V0 (Proc.devRef .tc main_arg4)) :=
  (val7_keep V0 main_arg4 (by decide)).trans (val6_main_arg4 V0)
theorem val7_main_arg5 (V0 : Valuation τ sig (Elt F)) : val7 V0 (no_index (Proc.devRef .tc main_arg5)) = (V0 (Proc.devRef .tc main_arg5)) :=
  (val7_keep V0 main_arg5 (by decide)).trans (val6_main_arg5 V0)
theorem val7_main_arg6 (V0 : Valuation τ sig (Elt F)) : val7 V0 (no_index (Proc.devRef .tc main_arg6)) = (V0 (Proc.devRef .tc main_arg6)) :=
  (val7_keep V0 main_arg6 (by decide)).trans (val6_main_arg6 V0)
theorem val7_main_arg7 (V0 : Valuation τ sig (Elt F)) : val7 V0 (no_index (Proc.devRef .tc main_arg7)) = (V0 (Proc.devRef .tc main_arg7)) :=
  (val7_keep V0 main_arg7 (by decide)).trans (val6_main_arg7 V0)
theorem val7_main_arg8 (V0 : Valuation τ sig (Elt F)) : val7 V0 (no_index (Proc.devRef .tc main_arg8)) = (V0 (Proc.devRef .tc main_arg8)) :=
  (val7_keep V0 main_arg8 (by decide)).trans (val6_main_arg8 V0)
theorem val7_main_arg9 (V0 : Valuation τ sig (Elt F)) : val7 V0 (no_index (Proc.devRef .tc main_arg9)) = (V0 (Proc.devRef .tc main_arg9)) :=
  (val7_keep V0 main_arg9 (by decide)).trans (val6_main_arg9 V0)
theorem val7_main_arg10 (V0 : Valuation τ sig (Elt F)) : val7 V0 (no_index (Proc.devRef .tc main_arg10)) = (V0 (Proc.devRef .tc main_arg10)) :=
  (val7_keep V0 main_arg10 (by decide)).trans (val6_main_arg10 V0)
theorem val7_main_arg11 (V0 : Valuation τ sig (Elt F)) : val7 V0 (no_index (Proc.devRef .tc main_arg11)) = (V0 (Proc.devRef .tc main_arg11)) :=
  (val7_keep V0 main_arg11 (by decide)).trans (val6_main_arg11 V0)
theorem val7_main_arg12 (V0 : Valuation τ sig (Elt F)) : val7 V0 (no_index (Proc.devRef .tc main_arg12)) = (V0 (Proc.devRef .tc main_arg12)) :=
  (val7_keep V0 main_arg12 (by decide)).trans (val6_main_arg12 V0)
theorem val7_main_arg13 (V0 : Valuation τ sig (Elt F)) : val7 V0 (no_index (Proc.devRef .tc main_arg13)) = (V0 (Proc.devRef .tc main_arg13)) :=
  (val7_keep V0 main_arg13 (by decide)).trans (val6_main_arg13 V0)
theorem val7_main_arg14 (V0 : Valuation τ sig (Elt F)) : val7 V0 (no_index (Proc.devRef .tc main_arg14)) = (V0 (Proc.devRef .tc main_arg14)) :=
  (val7_keep V0 main_arg14 (by decide)).trans (val6_main_arg14 V0)
theorem val7_main_arg15 (V0 : Valuation τ sig (Elt F)) : val7 V0 (no_index (Proc.devRef .tc main_arg15)) = (V0 (Proc.devRef .tc main_arg15)) :=
  (val7_keep V0 main_arg15 (by decide)).trans (val6_main_arg15 V0)
theorem val7_main_arg16 (V0 : Valuation τ sig (Elt F)) : val7 V0 (no_index (Proc.devRef .tc main_arg16)) = (V0 (Proc.devRef .tc main_arg16)) :=
  (val7_keep V0 main_arg16 (by decide)).trans (val6_main_arg16 V0)
theorem val7_main_arg17 (V0 : Valuation τ sig (Elt F)) : val7 V0 (no_index (Proc.devRef .tc main_arg17)) = (V0 (Proc.devRef .tc main_arg17)) :=
  (val7_keep V0 main_arg17 (by decide)).trans (val6_main_arg17 V0)
theorem val7_main_arg18 (V0 : Valuation τ sig (Elt F)) : val7 V0 (no_index (Proc.devRef .tc main_arg18)) = (V0 (Proc.devRef .tc main_arg18)) :=
  (val7_keep V0 main_arg18 (by decide)).trans (val6_main_arg18 V0)
set_option maxRecDepth 16384 in
set_option maxHeartbeats 1000000 in
theorem val7_main_v49 (V0 : Valuation τ sig (Elt F)) : val7 V0 (no_index (Proc.devRef .tc main_v49)) = hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val7
  simp only [p07]
  after_results_simp
  simp only [val6_main_arg4, val6_main_v44, val6_main_v34] <;> rfl

/-- The device's buffer contents after the first 8 pieces. -/
def val8 (V0 : Valuation τ sig (Elt F)) : Valuation τ sig (Elt F) := after p08 (val7 V0)
/-- A buffer that piece 8 does not write keeps its contents through it. -/
theorem val8_keep (V0 : Valuation τ sig (Elt F)) (r : Ref sig .tc) (h : r ∉ p08_W) :
    val8 V0 (Proc.devRef .tc r) = val7 V0 (Proc.devRef .tc r) :=
  after_of_writes_sub p08 _ p08_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_arg1 (V0 : Valuation τ sig (Elt F)) : val8 V0 (no_index (Proc.devRef .tc main_arg1)) = (V0 (Proc.devRef .tc main_arg1)) :=
  (val8_keep V0 main_arg1 (by decide)).trans (val7_main_arg1 V0)
theorem val8_main_arg2 (V0 : Valuation τ sig (Elt F)) : val8 V0 (no_index (Proc.devRef .tc main_arg2)) = (V0 (Proc.devRef .tc main_arg2)) :=
  (val8_keep V0 main_arg2 (by decide)).trans (val7_main_arg2 V0)
theorem val8_main_arg3 (V0 : Valuation τ sig (Elt F)) : val8 V0 (no_index (Proc.devRef .tc main_arg3)) = (V0 (Proc.devRef .tc main_arg3)) :=
  (val8_keep V0 main_arg3 (by decide)).trans (val7_main_arg3 V0)
theorem val8_main_arg4 (V0 : Valuation τ sig (Elt F)) : val8 V0 (no_index (Proc.devRef .tc main_arg4)) = (V0 (Proc.devRef .tc main_arg4)) :=
  (val8_keep V0 main_arg4 (by decide)).trans (val7_main_arg4 V0)
theorem val8_main_arg5 (V0 : Valuation τ sig (Elt F)) : val8 V0 (no_index (Proc.devRef .tc main_arg5)) = (V0 (Proc.devRef .tc main_arg5)) :=
  (val8_keep V0 main_arg5 (by decide)).trans (val7_main_arg5 V0)
theorem val8_main_arg6 (V0 : Valuation τ sig (Elt F)) : val8 V0 (no_index (Proc.devRef .tc main_arg6)) = (V0 (Proc.devRef .tc main_arg6)) :=
  (val8_keep V0 main_arg6 (by decide)).trans (val7_main_arg6 V0)
theorem val8_main_arg7 (V0 : Valuation τ sig (Elt F)) : val8 V0 (no_index (Proc.devRef .tc main_arg7)) = (V0 (Proc.devRef .tc main_arg7)) :=
  (val8_keep V0 main_arg7 (by decide)).trans (val7_main_arg7 V0)
theorem val8_main_arg8 (V0 : Valuation τ sig (Elt F)) : val8 V0 (no_index (Proc.devRef .tc main_arg8)) = (V0 (Proc.devRef .tc main_arg8)) :=
  (val8_keep V0 main_arg8 (by decide)).trans (val7_main_arg8 V0)
theorem val8_main_arg9 (V0 : Valuation τ sig (Elt F)) : val8 V0 (no_index (Proc.devRef .tc main_arg9)) = (V0 (Proc.devRef .tc main_arg9)) :=
  (val8_keep V0 main_arg9 (by decide)).trans (val7_main_arg9 V0)
theorem val8_main_arg10 (V0 : Valuation τ sig (Elt F)) : val8 V0 (no_index (Proc.devRef .tc main_arg10)) = (V0 (Proc.devRef .tc main_arg10)) :=
  (val8_keep V0 main_arg10 (by decide)).trans (val7_main_arg10 V0)
theorem val8_main_arg11 (V0 : Valuation τ sig (Elt F)) : val8 V0 (no_index (Proc.devRef .tc main_arg11)) = (V0 (Proc.devRef .tc main_arg11)) :=
  (val8_keep V0 main_arg11 (by decide)).trans (val7_main_arg11 V0)
theorem val8_main_arg12 (V0 : Valuation τ sig (Elt F)) : val8 V0 (no_index (Proc.devRef .tc main_arg12)) = (V0 (Proc.devRef .tc main_arg12)) :=
  (val8_keep V0 main_arg12 (by decide)).trans (val7_main_arg12 V0)
theorem val8_main_arg13 (V0 : Valuation τ sig (Elt F)) : val8 V0 (no_index (Proc.devRef .tc main_arg13)) = (V0 (Proc.devRef .tc main_arg13)) :=
  (val8_keep V0 main_arg13 (by decide)).trans (val7_main_arg13 V0)
theorem val8_main_arg14 (V0 : Valuation τ sig (Elt F)) : val8 V0 (no_index (Proc.devRef .tc main_arg14)) = (V0 (Proc.devRef .tc main_arg14)) :=
  (val8_keep V0 main_arg14 (by decide)).trans (val7_main_arg14 V0)
theorem val8_main_arg15 (V0 : Valuation τ sig (Elt F)) : val8 V0 (no_index (Proc.devRef .tc main_arg15)) = (V0 (Proc.devRef .tc main_arg15)) :=
  (val8_keep V0 main_arg15 (by decide)).trans (val7_main_arg15 V0)
theorem val8_main_arg16 (V0 : Valuation τ sig (Elt F)) : val8 V0 (no_index (Proc.devRef .tc main_arg16)) = (V0 (Proc.devRef .tc main_arg16)) :=
  (val8_keep V0 main_arg16 (by decide)).trans (val7_main_arg16 V0)
theorem val8_main_arg17 (V0 : Valuation τ sig (Elt F)) : val8 V0 (no_index (Proc.devRef .tc main_arg17)) = (V0 (Proc.devRef .tc main_arg17)) :=
  (val8_keep V0 main_arg17 (by decide)).trans (val7_main_arg17 V0)
theorem val8_main_arg18 (V0 : Valuation τ sig (Elt F)) : val8 V0 (no_index (Proc.devRef .tc main_arg18)) = (V0 (Proc.devRef .tc main_arg18)) :=
  (val8_keep V0 main_arg18 (by decide)).trans (val7_main_arg18 V0)
theorem val8_main_v49 (V0 : Valuation τ sig (Elt F)) : val8 V0 (no_index (Proc.devRef .tc main_v49)) = hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val8_keep V0 main_v49 (by decide)).trans (val7_main_v49 V0)
set_option maxRecDepth 16384 in
set_option maxHeartbeats 400000 in
theorem val8_main_v50 (V0 : Valuation τ sig (Elt F)) : val8 V0 (no_index (Proc.devRef .tc main_v50)) = Host.reduceAdd (hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) ((constant S_ .f32 0x00000000#32 : (⟨S_, .f32⟩ : BufTy).Contents (Elt F))) reducesTo_S16384x1024_S1024_d0 h_S_ := by
  unfold val8
  simp only [p08]
  after_results_simp
  simp only [val7_main_v49] <;> rfl

end Cert.RefSide

end
-- ==== Proof.RefVals1.lean ====
/-
  What the buffers hold after the pieces 9 … 16 of the reference's straight line, from any
  contents `V0`: each buffer still needed later at its stage's function of the argument arrays
  (RefStages), every other buffer untouched.
-/
import proofs.«157065_j74259984548393_2_alg».proof.Proof.RefVals0

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 9 pieces. -/
def val9 (V0 : Valuation τ sig (Elt F)) : Valuation τ sig (Elt F) := after p09 (val8 V0)
/-- A buffer that piece 9 does not write keeps its contents through it. -/
theorem val9_keep (V0 : Valuation τ sig (Elt F)) (r : Ref sig .tc) (h : r ∉ p09_W) :
    val9 V0 (Proc.devRef .tc r) = val8 V0 (Proc.devRef .tc r) :=
  after_of_writes_sub p09 _ p09_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_arg1 (V0 : Valuation τ sig (Elt F)) : val9 V0 (no_index (Proc.devRef .tc main_arg1)) = (V0 (Proc.devRef .tc main_arg1)) :=
  (val9_keep V0 main_arg1 (by decide)).trans (val8_main_arg1 V0)
theorem val9_main_arg2 (V0 : Valuation τ sig (Elt F)) : val9 V0 (no_index (Proc.devRef .tc main_arg2)) = (V0 (Proc.devRef .tc main_arg2)) :=
  (val9_keep V0 main_arg2 (by decide)).trans (val8_main_arg2 V0)
theorem val9_main_arg3 (V0 : Valuation τ sig (Elt F)) : val9 V0 (no_index (Proc.devRef .tc main_arg3)) = (V0 (Proc.devRef .tc main_arg3)) :=
  (val9_keep V0 main_arg3 (by decide)).trans (val8_main_arg3 V0)
theorem val9_main_arg4 (V0 : Valuation τ sig (Elt F)) : val9 V0 (no_index (Proc.devRef .tc main_arg4)) = (V0 (Proc.devRef .tc main_arg4)) :=
  (val9_keep V0 main_arg4 (by decide)).trans (val8_main_arg4 V0)
theorem val9_main_arg5 (V0 : Valuation τ sig (Elt F)) : val9 V0 (no_index (Proc.devRef .tc main_arg5)) = (V0 (Proc.devRef .tc main_arg5)) :=
  (val9_keep V0 main_arg5 (by decide)).trans (val8_main_arg5 V0)
theorem val9_main_arg6 (V0 : Valuation τ sig (Elt F)) : val9 V0 (no_index (Proc.devRef .tc main_arg6)) = (V0 (Proc.devRef .tc main_arg6)) :=
  (val9_keep V0 main_arg6 (by decide)).trans (val8_main_arg6 V0)
theorem val9_main_arg7 (V0 : Valuation τ sig (Elt F)) : val9 V0 (no_index (Proc.devRef .tc main_arg7)) = (V0 (Proc.devRef .tc main_arg7)) :=
  (val9_keep V0 main_arg7 (by decide)).trans (val8_main_arg7 V0)
theorem val9_main_arg8 (V0 : Valuation τ sig (Elt F)) : val9 V0 (no_index (Proc.devRef .tc main_arg8)) = (V0 (Proc.devRef .tc main_arg8)) :=
  (val9_keep V0 main_arg8 (by decide)).trans (val8_main_arg8 V0)
theorem val9_main_arg9 (V0 : Valuation τ sig (Elt F)) : val9 V0 (no_index (Proc.devRef .tc main_arg9)) = (V0 (Proc.devRef .tc main_arg9)) :=
  (val9_keep V0 main_arg9 (by decide)).trans (val8_main_arg9 V0)
theorem val9_main_arg10 (V0 : Valuation τ sig (Elt F)) : val9 V0 (no_index (Proc.devRef .tc main_arg10)) = (V0 (Proc.devRef .tc main_arg10)) :=
  (val9_keep V0 main_arg10 (by decide)).trans (val8_main_arg10 V0)
theorem val9_main_arg11 (V0 : Valuation τ sig (Elt F)) : val9 V0 (no_index (Proc.devRef .tc main_arg11)) = (V0 (Proc.devRef .tc main_arg11)) :=
  (val9_keep V0 main_arg11 (by decide)).trans (val8_main_arg11 V0)
theorem val9_main_arg12 (V0 : Valuation τ sig (Elt F)) : val9 V0 (no_index (Proc.devRef .tc main_arg12)) = (V0 (Proc.devRef .tc main_arg12)) :=
  (val9_keep V0 main_arg12 (by decide)).trans (val8_main_arg12 V0)
theorem val9_main_arg13 (V0 : Valuation τ sig (Elt F)) : val9 V0 (no_index (Proc.devRef .tc main_arg13)) = (V0 (Proc.devRef .tc main_arg13)) :=
  (val9_keep V0 main_arg13 (by decide)).trans (val8_main_arg13 V0)
theorem val9_main_arg14 (V0 : Valuation τ sig (Elt F)) : val9 V0 (no_index (Proc.devRef .tc main_arg14)) = (V0 (Proc.devRef .tc main_arg14)) :=
  (val9_keep V0 main_arg14 (by decide)).trans (val8_main_arg14 V0)
theorem val9_main_arg15 (V0 : Valuation τ sig (Elt F)) : val9 V0 (no_index (Proc.devRef .tc main_arg15)) = (V0 (Proc.devRef .tc main_arg15)) :=
  (val9_keep V0 main_arg15 (by decide)).trans (val8_main_arg15 V0)
theorem val9_main_arg16 (V0 : Valuation τ sig (Elt F)) : val9 V0 (no_index (Proc.devRef .tc main_arg16)) = (V0 (Proc.devRef .tc main_arg16)) :=
  (val9_keep V0 main_arg16 (by decide)).trans (val8_main_arg16 V0)
theorem val9_main_arg17 (V0 : Valuation τ sig (Elt F)) : val9 V0 (no_index (Proc.devRef .tc main_arg17)) = (V0 (Proc.devRef .tc main_arg17)) :=
  (val9_keep V0 main_arg17 (by decide)).trans (val8_main_arg17 V0)
theorem val9_main_arg18 (V0 : Valuation τ sig (Elt F)) : val9 V0 (no_index (Proc.devRef .tc main_arg18)) = (V0 (Proc.devRef .tc main_arg18)) :=
  (val9_keep V0 main_arg18 (by decide)).trans (val8_main_arg18 V0)
theorem val9_main_v49 (V0 : Valuation τ sig (Elt F)) : val9 V0 (no_index (Proc.devRef .tc main_v49)) = hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val9_keep V0 main_v49 (by decide)).trans (val8_main_v49 V0)
set_option maxRecDepth 16384 in
set_option maxHeartbeats 600000 in
theorem val9_main_v52 (V0 : Valuation τ sig (Elt F)) : val9 V0 (no_index (Proc.devRef .tc main_v52)) = mean (hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val9
  simp only [p09]
  after_results_simp
  simp only [val8_main_v50] <;> rfl

/-- The device's buffer contents after the first 10 pieces. -/
def val10 (V0 : Valuation τ sig (Elt F)) : Valuation τ sig (Elt F) := after p10 (val9 V0)
/-- A buffer that piece 10 does not write keeps its contents through it. -/
theorem val10_keep (V0 : Valuation τ sig (Elt F)) (r : Ref sig .tc) (h : r ∉ p10_W) :
    val10 V0 (Proc.devRef .tc r) = val9 V0 (Proc.devRef .tc r) :=
  after_of_writes_sub p10 _ p10_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_arg1 (V0 : Valuation τ sig (Elt F)) : val10 V0 (no_index (Proc.devRef .tc main_arg1)) = (V0 (Proc.devRef .tc main_arg1)) :=
  (val10_keep V0 main_arg1 (by decide)).trans (val9_main_arg1 V0)
theorem val10_main_arg2 (V0 : Valuation τ sig (Elt F)) : val10 V0 (no_index (Proc.devRef .tc main_arg2)) = (V0 (Proc.devRef .tc main_arg2)) :=
  (val10_keep V0 main_arg2 (by decide)).trans (val9_main_arg2 V0)
theorem val10_main_arg3 (V0 : Valuation τ sig (Elt F)) : val10 V0 (no_index (Proc.devRef .tc main_arg3)) = (V0 (Proc.devRef .tc main_arg3)) :=
  (val10_keep V0 main_arg3 (by decide)).trans (val9_main_arg3 V0)
theorem val10_main_arg4 (V0 : Valuation τ sig (Elt F)) : val10 V0 (no_index (Proc.devRef .tc main_arg4)) = (V0 (Proc.devRef .tc main_arg4)) :=
  (val10_keep V0 main_arg4 (by decide)).trans (val9_main_arg4 V0)
theorem val10_main_arg5 (V0 : Valuation τ sig (Elt F)) : val10 V0 (no_index (Proc.devRef .tc main_arg5)) = (V0 (Proc.devRef .tc main_arg5)) :=
  (val10_keep V0 main_arg5 (by decide)).trans (val9_main_arg5 V0)
theorem val10_main_arg6 (V0 : Valuation τ sig (Elt F)) : val10 V0 (no_index (Proc.devRef .tc main_arg6)) = (V0 (Proc.devRef .tc main_arg6)) :=
  (val10_keep V0 main_arg6 (by decide)).trans (val9_main_arg6 V0)
theorem val10_main_arg7 (V0 : Valuation τ sig (Elt F)) : val10 V0 (no_index (Proc.devRef .tc main_arg7)) = (V0 (Proc.devRef .tc main_arg7)) :=
  (val10_keep V0 main_arg7 (by decide)).trans (val9_main_arg7 V0)
theorem val10_main_arg8 (V0 : Valuation τ sig (Elt F)) : val10 V0 (no_index (Proc.devRef .tc main_arg8)) = (V0 (Proc.devRef .tc main_arg8)) :=
  (val10_keep V0 main_arg8 (by decide)).trans (val9_main_arg8 V0)
theorem val10_main_arg9 (V0 : Valuation τ sig (Elt F)) : val10 V0 (no_index (Proc.devRef .tc main_arg9)) = (V0 (Proc.devRef .tc main_arg9)) :=
  (val10_keep V0 main_arg9 (by decide)).trans (val9_main_arg9 V0)
theorem val10_main_arg10 (V0 : Valuation τ sig (Elt F)) : val10 V0 (no_index (Proc.devRef .tc main_arg10)) = (V0 (Proc.devRef .tc main_arg10)) :=
  (val10_keep V0 main_arg10 (by decide)).trans (val9_main_arg10 V0)
theorem val10_main_arg11 (V0 : Valuation τ sig (Elt F)) : val10 V0 (no_index (Proc.devRef .tc main_arg11)) = (V0 (Proc.devRef .tc main_arg11)) :=
  (val10_keep V0 main_arg11 (by decide)).trans (val9_main_arg11 V0)
theorem val10_main_arg12 (V0 : Valuation τ sig (Elt F)) : val10 V0 (no_index (Proc.devRef .tc main_arg12)) = (V0 (Proc.devRef .tc main_arg12)) :=
  (val10_keep V0 main_arg12 (by decide)).trans (val9_main_arg12 V0)
theorem val10_main_arg13 (V0 : Valuation τ sig (Elt F)) : val10 V0 (no_index (Proc.devRef .tc main_arg13)) = (V0 (Proc.devRef .tc main_arg13)) :=
  (val10_keep V0 main_arg13 (by decide)).trans (val9_main_arg13 V0)
theorem val10_main_arg14 (V0 : Valuation τ sig (Elt F)) : val10 V0 (no_index (Proc.devRef .tc main_arg14)) = (V0 (Proc.devRef .tc main_arg14)) :=
  (val10_keep V0 main_arg14 (by decide)).trans (val9_main_arg14 V0)
theorem val10_main_arg15 (V0 : Valuation τ sig (Elt F)) : val10 V0 (no_index (Proc.devRef .tc main_arg15)) = (V0 (Proc.devRef .tc main_arg15)) :=
  (val10_keep V0 main_arg15 (by decide)).trans (val9_main_arg15 V0)
theorem val10_main_arg16 (V0 : Valuation τ sig (Elt F)) : val10 V0 (no_index (Proc.devRef .tc main_arg16)) = (V0 (Proc.devRef .tc main_arg16)) :=
  (val10_keep V0 main_arg16 (by decide)).trans (val9_main_arg16 V0)
theorem val10_main_arg17 (V0 : Valuation τ sig (Elt F)) : val10 V0 (no_index (Proc.devRef .tc main_arg17)) = (V0 (Proc.devRef .tc main_arg17)) :=
  (val10_keep V0 main_arg17 (by decide)).trans (val9_main_arg17 V0)
theorem val10_main_arg18 (V0 : Valuation τ sig (Elt F)) : val10 V0 (no_index (Proc.devRef .tc main_arg18)) = (V0 (Proc.devRef .tc main_arg18)) :=
  (val10_keep V0 main_arg18 (by decide)).trans (val9_main_arg18 V0)
theorem val10_main_v49 (V0 : Valuation τ sig (Elt F)) : val10 V0 (no_index (Proc.devRef .tc main_v49)) = hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val10_keep V0 main_v49 (by decide)).trans (val9_main_v49 V0)
theorem val10_main_v52 (V0 : Valuation τ sig (Elt F)) : val10 V0 (no_index (Proc.devRef .tc main_v52)) = mean (hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) :=
  (val10_keep V0 main_v52 (by decide)).trans (val9_main_v52 V0)
set_option maxRecDepth 16384 in
set_option maxHeartbeats 4000000 in
theorem val10_main_v53 (V0 : Valuation τ sig (Elt F)) : val10 V0 (no_index (Proc.devRef .tc main_v53)) = var (hpre2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val10
  simp only [p10]
  after_results_simp
  simp only [val9_main_v49] <;> rfl

/-- The device's buffer contents after the first 11 pieces. -/
def val11 (V0 : Valuation τ sig (Elt F)) : Valuation τ sig (Elt F) := after p11 (val10 V0)
/-- A buffer that piece 11 does not write keeps its contents through it. -/
theorem val11_keep (V0 : Valuation τ sig (Elt F)) (r : Ref sig .tc) (h : r ∉ p11_W) :
    val11 V0 (Proc.devRef .tc r) = val10 V0 (Proc.devRef .tc r) :=
  after_of_writes_sub p11 _ p11_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_arg1 (V0 : Valuation τ sig (Elt F)) : val11 V0 (no_index (Proc.devRef .tc main_arg1)) = (V0 (Proc.devRef .tc main_arg1)) :=
  (val11_keep V0 main_arg1 (by decide)).trans (val10_main_arg1 V0)
theorem val11_main_arg2 (V0 : Valuation τ sig (Elt F)) : val11 V0 (no_index (Proc.devRef .tc main_arg2)) = (V0 (Proc.devRef .tc main_arg2)) :=
  (val11_keep V0 main_arg2 (by decide)).trans (val10_main_arg2 V0)
theorem val11_main_arg3 (V0 : Valuation τ sig (Elt F)) : val11 V0 (no_index (Proc.devRef .tc main_arg3)) = (V0 (Proc.devRef .tc main_arg3)) :=
  (val11_keep V0 main_arg3 (by decide)).trans (val10_main_arg3 V0)
theorem val11_main_arg4 (V0 : Valuation τ sig (Elt F)) : val11 V0 (no_index (Proc.devRef .tc main_arg4)) = (V0 (Proc.devRef .tc main_arg4)) :=
  (val11_keep V0 main_arg4 (by decide)).trans (val10_main_arg4 V0)
theorem val11_main_arg5 (V0 : Valuation τ sig (Elt F)) : val11 V0 (no_index (Proc.devRef .tc main_arg5)) = (V0 (Proc.devRef .tc main_arg5)) :=
  (val11_keep V0 main_arg5 (by decide)).trans (val10_main_arg5 V0)
theorem val11_main_arg6 (V0 : Valuation τ sig (Elt F)) : val11 V0 (no_index (Proc.devRef .tc main_arg6)) = (V0 (Proc.devRef .tc main_arg6)) :=
  (val11_keep V0 main_arg6 (by decide)).trans (val10_main_arg6 V0)
theorem val11_main_arg7 (V0 : Valuation τ sig (Elt F)) : val11 V0 (no_index (Proc.devRef .tc main_arg7)) = (V0 (Proc.devRef .tc main_arg7)) :=
  (val11_keep V0 main_arg7 (by decide)).trans (val10_main_arg7 V0)
theorem val11_main_arg8 (V0 : Valuation τ sig (Elt F)) : val11 V0 (no_index (Proc.devRef .tc main_arg8)) = (V0 (Proc.devRef .tc main_arg8)) :=
  (val11_keep V0 main_arg8 (by decide)).trans (val10_main_arg8 V0)
theorem val11_main_arg9 (V0 : Valuation τ sig (Elt F)) : val11 V0 (no_index (Proc.devRef .tc main_arg9)) = (V0 (Proc.devRef .tc main_arg9)) :=
  (val11_keep V0 main_arg9 (by decide)).trans (val10_main_arg9 V0)
theorem val11_main_arg10 (V0 : Valuation τ sig (Elt F)) : val11 V0 (no_index (Proc.devRef .tc main_arg10)) = (V0 (Proc.devRef .tc main_arg10)) :=
  (val11_keep V0 main_arg10 (by decide)).trans (val10_main_arg10 V0)
theorem val11_main_arg11 (V0 : Valuation τ sig (Elt F)) : val11 V0 (no_index (Proc.devRef .tc main_arg11)) = (V0 (Proc.devRef .tc main_arg11)) :=
  (val11_keep V0 main_arg11 (by decide)).trans (val10_main_arg11 V0)
theorem val11_main_arg12 (V0 : Valuation τ sig (Elt F)) : val11 V0 (no_index (Proc.devRef .tc main_arg12)) = (V0 (Proc.devRef .tc main_arg12)) :=
  (val11_keep V0 main_arg12 (by decide)).trans (val10_main_arg12 V0)
theorem val11_main_arg13 (V0 : Valuation τ sig (Elt F)) : val11 V0 (no_index (Proc.devRef .tc main_arg13)) = (V0 (Proc.devRef .tc main_arg13)) :=
  (val11_keep V0 main_arg13 (by decide)).trans (val10_main_arg13 V0)
theorem val11_main_arg14 (V0 : Valuation τ sig (Elt F)) : val11 V0 (no_index (Proc.devRef .tc main_arg14)) = (V0 (Proc.devRef .tc main_arg14)) :=
  (val11_keep V0 main_arg14 (by decide)).trans (val10_main_arg14 V0)
theorem val11_main_arg15 (V0 : Valuation τ sig (Elt F)) : val11 V0 (no_index (Proc.devRef .tc main_arg15)) = (V0 (Proc.devRef .tc main_arg15)) :=
  (val11_keep V0 main_arg15 (by decide)).trans (val10_main_arg15 V0)
theorem val11_main_arg16 (V0 : Valuation τ sig (Elt F)) : val11 V0 (no_index (Proc.devRef .tc main_arg16)) = (V0 (Proc.devRef .tc main_arg16)) :=
  (val11_keep V0 main_arg16 (by decide)).trans (val10_main_arg16 V0)
theorem val11_main_arg17 (V0 : Valuation τ sig (Elt F)) : val11 V0 (no_index (Proc.devRef .tc main_arg17)) = (V0 (Proc.devRef .tc main_arg17)) :=
  (val11_keep V0 main_arg17 (by decide)).trans (val10_main_arg17 V0)
theorem val11_main_arg18 (V0 : Valuation τ sig (Elt F)) : val11 V0 (no_index (Proc.devRef .tc main_arg18)) = (V0 (Proc.devRef .tc main_arg18)) :=
  (val11_keep V0 main_arg18 (by decide)).trans (val10_main_arg18 V0)
set_option maxRecDepth 16384 in
set_option maxHeartbeats 3800000 in
theorem val11_main_v69 (V0 : Valuation τ sig (Elt F)) : val11 V0 (no_index (Proc.devRef .tc main_v69)) = hact2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val11
  simp only [p11]
  after_results_simp
  simp only [val10_main_arg14, val10_main_v53, val10_main_v52, val10_main_v49, val10_main_arg13] <;> rfl

/-- The device's buffer contents after the first 12 pieces. -/
def val12 (V0 : Valuation τ sig (Elt F)) : Valuation τ sig (Elt F) := after p12 (val11 V0)
/-- A buffer that piece 12 does not write keeps its contents through it. -/
theorem val12_keep (V0 : Valuation τ sig (Elt F)) (r : Ref sig .tc) (h : r ∉ p12_W) :
    val12 V0 (Proc.devRef .tc r) = val11 V0 (Proc.devRef .tc r) :=
  after_of_writes_sub p12 _ p12_writes h
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_arg1 (V0 : Valuation τ sig (Elt F)) : val12 V0 (no_index (Proc.devRef .tc main_arg1)) = (V0 (Proc.devRef .tc main_arg1)) :=
  (val12_keep V0 main_arg1 (by decide)).trans (val11_main_arg1 V0)
theorem val12_main_arg2 (V0 : Valuation τ sig (Elt F)) : val12 V0 (no_index (Proc.devRef .tc main_arg2)) = (V0 (Proc.devRef .tc main_arg2)) :=
  (val12_keep V0 main_arg2 (by decide)).trans (val11_main_arg2 V0)
theorem val12_main_arg3 (V0 : Valuation τ sig (Elt F)) : val12 V0 (no_index (Proc.devRef .tc main_arg3)) = (V0 (Proc.devRef .tc main_arg3)) :=
  (val12_keep V0 main_arg3 (by decide)).trans (val11_main_arg3 V0)
theorem val12_main_arg4 (V0 : Valuation τ sig (Elt F)) : val12 V0 (no_index (Proc.devRef .tc main_arg4)) = (V0 (Proc.devRef .tc main_arg4)) :=
  (val12_keep V0 main_arg4 (by decide)).trans (val11_main_arg4 V0)
theorem val12_main_arg5 (V0 : Valuation τ sig (Elt F)) : val12 V0 (no_index (Proc.devRef .tc main_arg5)) = (V0 (Proc.devRef .tc main_arg5)) :=
  (val12_keep V0 main_arg5 (by decide)).trans (val11_main_arg5 V0)
theorem val12_main_arg6 (V0 : Valuation τ sig (Elt F)) : val12 V0 (no_index (Proc.devRef .tc main_arg6)) = (V0 (Proc.devRef .tc main_arg6)) :=
  (val12_keep V0 main_arg6 (by decide)).trans (val11_main_arg6 V0)
theorem val12_main_arg7 (V0 : Valuation τ sig (Elt F)) : val12 V0 (no_index (Proc.devRef .tc main_arg7)) = (V0 (Proc.devRef .tc main_arg7)) :=
  (val12_keep V0 main_arg7 (by decide)).trans (val11_main_arg7 V0)
theorem val12_main_arg8 (V0 : Valuation τ sig (Elt F)) : val12 V0 (no_index (Proc.devRef .tc main_arg8)) = (V0 (Proc.devRef .tc main_arg8)) :=
  (val12_keep V0 main_arg8 (by decide)).trans (val11_main_arg8 V0)
theorem val12_main_arg9 (V0 : Valuation τ sig (Elt F)) : val12 V0 (no_index (Proc.devRef .tc main_arg9)) = (V0 (Proc.devRef .tc main_arg9)) :=
  (val12_keep V0 main_arg9 (by decide)).trans (val11_main_arg9 V0)
theorem val12_main_arg10 (V0 : Valuation τ sig (Elt F)) : val12 V0 (no_index (Proc.devRef .tc main_arg10)) = (V0 (Proc.devRef .tc main_arg10)) :=
  (val12_keep V0 main_arg10 (by decide)).trans (val11_main_arg10 V0)
theorem val12_main_arg11 (V0 : Valuation τ sig (Elt F)) : val12 V0 (no_index (Proc.devRef .tc main_arg11)) = (V0 (Proc.devRef .tc main_arg11)) :=
  (val12_keep V0 main_arg11 (by decide)).trans (val11_main_arg11 V0)
theorem val12_main_arg12 (V0 : Valuation τ sig (Elt F)) : val12 V0 (no_index (Proc.devRef .tc main_arg12)) = (V0 (Proc.devRef .tc main_arg12)) :=
  (val12_keep V0 main_arg12 (by decide)).trans (val11_main_arg12 V0)
theorem val12_main_arg13 (V0 : Valuation τ sig (Elt F)) : val12 V0 (no_index (Proc.devRef .tc main_arg13)) = (V0 (Proc.devRef .tc main_arg13)) :=
  (val12_keep V0 main_arg13 (by decide)).trans (val11_main_arg13 V0)
theorem val12_main_arg14 (V0 : Valuation τ sig (Elt F)) : val12 V0 (no_index (Proc.devRef .tc main_arg14)) = (V0 (Proc.devRef .tc main_arg14)) :=
  (val12_keep V0 main_arg14 (by decide)).trans (val11_main_arg14 V0)
theorem val12_main_arg15 (V0 : Valuation τ sig (Elt F)) : val12 V0 (no_index (Proc.devRef .tc main_arg15)) = (V0 (Proc.devRef .tc main_arg15)) :=
  (val12_keep V0 main_arg15 (by decide)).trans (val11_main_arg15 V0)
theorem val12_main_arg16 (V0 : Valuation τ sig (Elt F)) : val12 V0 (no_index (Proc.devRef .tc main_arg16)) = (V0 (Proc.devRef .tc main_arg16)) :=
  (val12_keep V0 main_arg16 (by decide)).trans (val11_main_arg16 V0)
theorem val12_main_arg17 (V0 : Valuation τ sig (Elt F)) : val12 V0 (no_index (Proc.devRef .tc main_arg17)) = (V0 (Proc.devRef .tc main_arg17)) :=
  (val12_keep V0 main_arg17 (by decide)).trans (val11_main_arg17 V0)
theorem val12_main_arg18 (V0 : Valuation τ sig (Elt F)) : val12 V0 (no_index (Proc.devRef .tc main_arg18)) = (V0 (Proc.devRef .tc main_arg18)) :=
  (val12_keep V0 main_arg18 (by decide)).trans (val11_main_arg18 V0)
theorem val12_main_v69 (V0 : Valuation τ sig (Elt F)) : val12 V0 (no_index (Proc.devRef .tc main_v69)) = hact2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val12_keep V0 main_v69 (by decide)).trans (val11_main_v69 V0)
set_option maxRecDepth 16384 in
set_option maxHeartbeats 2400000 in
theorem val12_main_v79 (V0 : Valuation τ sig (Elt F)) : val12 V0 (no_index (Proc.devRef .tc main_v79)) = binW1024 (V0 (Proc.devRef .tc main_arg5)) := by
  unfold val12
  simp only [p12]
  after_results_simp
  simp only [val11_main_arg5] <;> rfl

/-- The device's buffer contents after the first 13 pieces. -/
def val13 (V0 : Valuation τ sig (Elt F)) : Valuation τ sig (Elt F) := after p13 (val12 V0)
/-- A buffer that piece 13 does not write keeps its contents through it. -/
theorem val13_keep (V0 : Valuation τ sig (Elt F)) (r : Ref sig .tc) (h : r ∉ p13_W) :
    val13 V0 (Proc.devRef .tc r) = val12 V0 (Proc.devRef .tc r) :=
  after_of_writes_sub p13 _ p13_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_arg1 (V0 : Valuation τ sig (Elt F)) : val13 V0 (no_index (Proc.devRef .tc main_arg1)) = (V0 (Proc.devRef .tc main_arg1)) :=
  (val13_keep V0 main_arg1 (by decide)).trans (val12_main_arg1 V0)
theorem val13_main_arg2 (V0 : Valuation τ sig (Elt F)) : val13 V0 (no_index (Proc.devRef .tc main_arg2)) = (V0 (Proc.devRef .tc main_arg2)) :=
  (val13_keep V0 main_arg2 (by decide)).trans (val12_main_arg2 V0)
theorem val13_main_arg3 (V0 : Valuation τ sig (Elt F)) : val13 V0 (no_index (Proc.devRef .tc main_arg3)) = (V0 (Proc.devRef .tc main_arg3)) :=
  (val13_keep V0 main_arg3 (by decide)).trans (val12_main_arg3 V0)
theorem val13_main_arg4 (V0 : Valuation τ sig (Elt F)) : val13 V0 (no_index (Proc.devRef .tc main_arg4)) = (V0 (Proc.devRef .tc main_arg4)) :=
  (val13_keep V0 main_arg4 (by decide)).trans (val12_main_arg4 V0)
theorem val13_main_arg5 (V0 : Valuation τ sig (Elt F)) : val13 V0 (no_index (Proc.devRef .tc main_arg5)) = (V0 (Proc.devRef .tc main_arg5)) :=
  (val13_keep V0 main_arg5 (by decide)).trans (val12_main_arg5 V0)
theorem val13_main_arg6 (V0 : Valuation τ sig (Elt F)) : val13 V0 (no_index (Proc.devRef .tc main_arg6)) = (V0 (Proc.devRef .tc main_arg6)) :=
  (val13_keep V0 main_arg6 (by decide)).trans (val12_main_arg6 V0)
theorem val13_main_arg7 (V0 : Valuation τ sig (Elt F)) : val13 V0 (no_index (Proc.devRef .tc main_arg7)) = (V0 (Proc.devRef .tc main_arg7)) :=
  (val13_keep V0 main_arg7 (by decide)).trans (val12_main_arg7 V0)
theorem val13_main_arg8 (V0 : Valuation τ sig (Elt F)) : val13 V0 (no_index (Proc.devRef .tc main_arg8)) = (V0 (Proc.devRef .tc main_arg8)) :=
  (val13_keep V0 main_arg8 (by decide)).trans (val12_main_arg8 V0)
theorem val13_main_arg9 (V0 : Valuation τ sig (Elt F)) : val13 V0 (no_index (Proc.devRef .tc main_arg9)) = (V0 (Proc.devRef .tc main_arg9)) :=
  (val13_keep V0 main_arg9 (by decide)).trans (val12_main_arg9 V0)
theorem val13_main_arg10 (V0 : Valuation τ sig (Elt F)) : val13 V0 (no_index (Proc.devRef .tc main_arg10)) = (V0 (Proc.devRef .tc main_arg10)) :=
  (val13_keep V0 main_arg10 (by decide)).trans (val12_main_arg10 V0)
theorem val13_main_arg11 (V0 : Valuation τ sig (Elt F)) : val13 V0 (no_index (Proc.devRef .tc main_arg11)) = (V0 (Proc.devRef .tc main_arg11)) :=
  (val13_keep V0 main_arg11 (by decide)).trans (val12_main_arg11 V0)
theorem val13_main_arg12 (V0 : Valuation τ sig (Elt F)) : val13 V0 (no_index (Proc.devRef .tc main_arg12)) = (V0 (Proc.devRef .tc main_arg12)) :=
  (val13_keep V0 main_arg12 (by decide)).trans (val12_main_arg12 V0)
theorem val13_main_arg13 (V0 : Valuation τ sig (Elt F)) : val13 V0 (no_index (Proc.devRef .tc main_arg13)) = (V0 (Proc.devRef .tc main_arg13)) :=
  (val13_keep V0 main_arg13 (by decide)).trans (val12_main_arg13 V0)
theorem val13_main_arg14 (V0 : Valuation τ sig (Elt F)) : val13 V0 (no_index (Proc.devRef .tc main_arg14)) = (V0 (Proc.devRef .tc main_arg14)) :=
  (val13_keep V0 main_arg14 (by decide)).trans (val12_main_arg14 V0)
theorem val13_main_arg15 (V0 : Valuation τ sig (Elt F)) : val13 V0 (no_index (Proc.devRef .tc main_arg15)) = (V0 (Proc.devRef .tc main_arg15)) :=
  (val13_keep V0 main_arg15 (by decide)).trans (val12_main_arg15 V0)
theorem val13_main_arg16 (V0 : Valuation τ sig (Elt F)) : val13 V0 (no_index (Proc.devRef .tc main_arg16)) = (V0 (Proc.devRef .tc main_arg16)) :=
  (val13_keep V0 main_arg16 (by decide)).trans (val12_main_arg16 V0)
theorem val13_main_arg17 (V0 : Valuation τ sig (Elt F)) : val13 V0 (no_index (Proc.devRef .tc main_arg17)) = (V0 (Proc.devRef .tc main_arg17)) :=
  (val13_keep V0 main_arg17 (by decide)).trans (val12_main_arg17 V0)
theorem val13_main_arg18 (V0 : Valuation τ sig (Elt F)) : val13 V0 (no_index (Proc.devRef .tc main_arg18)) = (V0 (Proc.devRef .tc main_arg18)) :=
  (val13_keep V0 main_arg18 (by decide)).trans (val12_main_arg18 V0)
set_option maxRecDepth 16384 in
set_option maxHeartbeats 1000000 in
theorem val13_main_v84 (V0 : Valuation τ sig (Elt F)) : val13 V0 (no_index (Proc.devRef .tc main_v84)) = hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val13
  simp only [p13]
  after_results_simp
  simp only [val12_main_arg6, val12_main_v79, val12_main_v69] <;> rfl

/-- The device's buffer contents after the first 14 pieces. -/
def val14 (V0 : Valuation τ sig (Elt F)) : Valuation τ sig (Elt F) := after p14 (val13 V0)
/-- A buffer that piece 14 does not write keeps its contents through it. -/
theorem val14_keep (V0 : Valuation τ sig (Elt F)) (r : Ref sig .tc) (h : r ∉ p14_W) :
    val14 V0 (Proc.devRef .tc r) = val13 V0 (Proc.devRef .tc r) :=
  after_of_writes_sub p14 _ p14_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
theorem val14_main_arg1 (V0 : Valuation τ sig (Elt F)) : val14 V0 (no_index (Proc.devRef .tc main_arg1)) = (V0 (Proc.devRef .tc main_arg1)) :=
  (val14_keep V0 main_arg1 (by decide)).trans (val13_main_arg1 V0)
theorem val14_main_arg2 (V0 : Valuation τ sig (Elt F)) : val14 V0 (no_index (Proc.devRef .tc main_arg2)) = (V0 (Proc.devRef .tc main_arg2)) :=
  (val14_keep V0 main_arg2 (by decide)).trans (val13_main_arg2 V0)
theorem val14_main_arg3 (V0 : Valuation τ sig (Elt F)) : val14 V0 (no_index (Proc.devRef .tc main_arg3)) = (V0 (Proc.devRef .tc main_arg3)) :=
  (val14_keep V0 main_arg3 (by decide)).trans (val13_main_arg3 V0)
theorem val14_main_arg4 (V0 : Valuation τ sig (Elt F)) : val14 V0 (no_index (Proc.devRef .tc main_arg4)) = (V0 (Proc.devRef .tc main_arg4)) :=
  (val14_keep V0 main_arg4 (by decide)).trans (val13_main_arg4 V0)
theorem val14_main_arg5 (V0 : Valuation τ sig (Elt F)) : val14 V0 (no_index (Proc.devRef .tc main_arg5)) = (V0 (Proc.devRef .tc main_arg5)) :=
  (val14_keep V0 main_arg5 (by decide)).trans (val13_main_arg5 V0)
theorem val14_main_arg6 (V0 : Valuation τ sig (Elt F)) : val14 V0 (no_index (Proc.devRef .tc main_arg6)) = (V0 (Proc.devRef .tc main_arg6)) :=
  (val14_keep V0 main_arg6 (by decide)).trans (val13_main_arg6 V0)
theorem val14_main_arg7 (V0 : Valuation τ sig (Elt F)) : val14 V0 (no_index (Proc.devRef .tc main_arg7)) = (V0 (Proc.devRef .tc main_arg7)) :=
  (val14_keep V0 main_arg7 (by decide)).trans (val13_main_arg7 V0)
theorem val14_main_arg8 (V0 : Valuation τ sig (Elt F)) : val14 V0 (no_index (Proc.devRef .tc main_arg8)) = (V0 (Proc.devRef .tc main_arg8)) :=
  (val14_keep V0 main_arg8 (by decide)).trans (val13_main_arg8 V0)
theorem val14_main_arg9 (V0 : Valuation τ sig (Elt F)) : val14 V0 (no_index (Proc.devRef .tc main_arg9)) = (V0 (Proc.devRef .tc main_arg9)) :=
  (val14_keep V0 main_arg9 (by decide)).trans (val13_main_arg9 V0)
theorem val14_main_arg10 (V0 : Valuation τ sig (Elt F)) : val14 V0 (no_index (Proc.devRef .tc main_arg10)) = (V0 (Proc.devRef .tc main_arg10)) :=
  (val14_keep V0 main_arg10 (by decide)).trans (val13_main_arg10 V0)
theorem val14_main_arg11 (V0 : Valuation τ sig (Elt F)) : val14 V0 (no_index (Proc.devRef .tc main_arg11)) = (V0 (Proc.devRef .tc main_arg11)) :=
  (val14_keep V0 main_arg11 (by decide)).trans (val13_main_arg11 V0)
theorem val14_main_arg12 (V0 : Valuation τ sig (Elt F)) : val14 V0 (no_index (Proc.devRef .tc main_arg12)) = (V0 (Proc.devRef .tc main_arg12)) :=
  (val14_keep V0 main_arg12 (by decide)).trans (val13_main_arg12 V0)
theorem val14_main_arg13 (V0 : Valuation τ sig (Elt F)) : val14 V0 (no_index (Proc.devRef .tc main_arg13)) = (V0 (Proc.devRef .tc main_arg13)) :=
  (val14_keep V0 main_arg13 (by decide)).trans (val13_main_arg13 V0)
theorem val14_main_arg14 (V0 : Valuation τ sig (Elt F)) : val14 V0 (no_index (Proc.devRef .tc main_arg14)) = (V0 (Proc.devRef .tc main_arg14)) :=
  (val14_keep V0 main_arg14 (by decide)).trans (val13_main_arg14 V0)
theorem val14_main_arg15 (V0 : Valuation τ sig (Elt F)) : val14 V0 (no_index (Proc.devRef .tc main_arg15)) = (V0 (Proc.devRef .tc main_arg15)) :=
  (val14_keep V0 main_arg15 (by decide)).trans (val13_main_arg15 V0)
theorem val14_main_arg16 (V0 : Valuation τ sig (Elt F)) : val14 V0 (no_index (Proc.devRef .tc main_arg16)) = (V0 (Proc.devRef .tc main_arg16)) :=
  (val14_keep V0 main_arg16 (by decide)).trans (val13_main_arg16 V0)
theorem val14_main_arg17 (V0 : Valuation τ sig (Elt F)) : val14 V0 (no_index (Proc.devRef .tc main_arg17)) = (V0 (Proc.devRef .tc main_arg17)) :=
  (val14_keep V0 main_arg17 (by decide)).trans (val13_main_arg17 V0)
theorem val14_main_arg18 (V0 : Valuation τ sig (Elt F)) : val14 V0 (no_index (Proc.devRef .tc main_arg18)) = (V0 (Proc.devRef .tc main_arg18)) :=
  (val14_keep V0 main_arg18 (by decide)).trans (val13_main_arg18 V0)
theorem val14_main_v84 (V0 : Valuation τ sig (Elt F)) : val14 V0 (no_index (Proc.devRef .tc main_v84)) = hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val14_keep V0 main_v84 (by decide)).trans (val13_main_v84 V0)
set_option maxRecDepth 16384 in
set_option maxHeartbeats 1000000 in
theorem val14_main_v87 (V0 : Valuation τ sig (Elt F)) : val14 V0 (no_index (Proc.devRef .tc main_v87)) = mean (hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val14
  simp only [p14]
  after_results_simp
  simp only [val13_main_v84] <;> rfl

/-- The device's buffer contents after the first 15 pieces. -/
def val15 (V0 : Valuation τ sig (Elt F)) : Valuation τ sig (Elt F) := after p15 (val14 V0)
/-- A buffer that piece 15 does not write keeps its contents through it. -/
theorem val15_keep (V0 : Valuation τ sig (Elt F)) (r : Ref sig .tc) (h : r ∉ p15_W) :
    val15 V0 (Proc.devRef .tc r) = val14 V0 (Proc.devRef .tc r) :=
  after_of_writes_sub p15 _ p15_writes h
theorem val15_main_arg0 (V0 : Valuation τ sig (Elt F)) : val15 V0 (no_index (Proc.devRef .tc main_arg0)) = (V0 (Proc.devRef .tc main_arg0)) :=
  (val15_keep V0 main_arg0 (by decide)).trans (val14_main_arg0 V0)
theorem val15_main_arg1 (V0 : Valuation τ sig (Elt F)) : val15 V0 (no_index (Proc.devRef .tc main_arg1)) = (V0 (Proc.devRef .tc main_arg1)) :=
  (val15_keep V0 main_arg1 (by decide)).trans (val14_main_arg1 V0)
theorem val15_main_arg2 (V0 : Valuation τ sig (Elt F)) : val15 V0 (no_index (Proc.devRef .tc main_arg2)) = (V0 (Proc.devRef .tc main_arg2)) :=
  (val15_keep V0 main_arg2 (by decide)).trans (val14_main_arg2 V0)
theorem val15_main_arg3 (V0 : Valuation τ sig (Elt F)) : val15 V0 (no_index (Proc.devRef .tc main_arg3)) = (V0 (Proc.devRef .tc main_arg3)) :=
  (val15_keep V0 main_arg3 (by decide)).trans (val14_main_arg3 V0)
theorem val15_main_arg4 (V0 : Valuation τ sig (Elt F)) : val15 V0 (no_index (Proc.devRef .tc main_arg4)) = (V0 (Proc.devRef .tc main_arg4)) :=
  (val15_keep V0 main_arg4 (by decide)).trans (val14_main_arg4 V0)
theorem val15_main_arg5 (V0 : Valuation τ sig (Elt F)) : val15 V0 (no_index (Proc.devRef .tc main_arg5)) = (V0 (Proc.devRef .tc main_arg5)) :=
  (val15_keep V0 main_arg5 (by decide)).trans (val14_main_arg5 V0)
theorem val15_main_arg6 (V0 : Valuation τ sig (Elt F)) : val15 V0 (no_index (Proc.devRef .tc main_arg6)) = (V0 (Proc.devRef .tc main_arg6)) :=
  (val15_keep V0 main_arg6 (by decide)).trans (val14_main_arg6 V0)
theorem val15_main_arg7 (V0 : Valuation τ sig (Elt F)) : val15 V0 (no_index (Proc.devRef .tc main_arg7)) = (V0 (Proc.devRef .tc main_arg7)) :=
  (val15_keep V0 main_arg7 (by decide)).trans (val14_main_arg7 V0)
theorem val15_main_arg8 (V0 : Valuation τ sig (Elt F)) : val15 V0 (no_index (Proc.devRef .tc main_arg8)) = (V0 (Proc.devRef .tc main_arg8)) :=
  (val15_keep V0 main_arg8 (by decide)).trans (val14_main_arg8 V0)
theorem val15_main_arg9 (V0 : Valuation τ sig (Elt F)) : val15 V0 (no_index (Proc.devRef .tc main_arg9)) = (V0 (Proc.devRef .tc main_arg9)) :=
  (val15_keep V0 main_arg9 (by decide)).trans (val14_main_arg9 V0)
theorem val15_main_arg10 (V0 : Valuation τ sig (Elt F)) : val15 V0 (no_index (Proc.devRef .tc main_arg10)) = (V0 (Proc.devRef .tc main_arg10)) :=
  (val15_keep V0 main_arg10 (by decide)).trans (val14_main_arg10 V0)
theorem val15_main_arg11 (V0 : Valuation τ sig (Elt F)) : val15 V0 (no_index (Proc.devRef .tc main_arg11)) = (V0 (Proc.devRef .tc main_arg11)) :=
  (val15_keep V0 main_arg11 (by decide)).trans (val14_main_arg11 V0)
theorem val15_main_arg12 (V0 : Valuation τ sig (Elt F)) : val15 V0 (no_index (Proc.devRef .tc main_arg12)) = (V0 (Proc.devRef .tc main_arg12)) :=
  (val15_keep V0 main_arg12 (by decide)).trans (val14_main_arg12 V0)
theorem val15_main_arg13 (V0 : Valuation τ sig (Elt F)) : val15 V0 (no_index (Proc.devRef .tc main_arg13)) = (V0 (Proc.devRef .tc main_arg13)) :=
  (val15_keep V0 main_arg13 (by decide)).trans (val14_main_arg13 V0)
theorem val15_main_arg14 (V0 : Valuation τ sig (Elt F)) : val15 V0 (no_index (Proc.devRef .tc main_arg14)) = (V0 (Proc.devRef .tc main_arg14)) :=
  (val15_keep V0 main_arg14 (by decide)).trans (val14_main_arg14 V0)
theorem val15_main_arg15 (V0 : Valuation τ sig (Elt F)) : val15 V0 (no_index (Proc.devRef .tc main_arg15)) = (V0 (Proc.devRef .tc main_arg15)) :=
  (val15_keep V0 main_arg15 (by decide)).trans (val14_main_arg15 V0)
theorem val15_main_arg16 (V0 : Valuation τ sig (Elt F)) : val15 V0 (no_index (Proc.devRef .tc main_arg16)) = (V0 (Proc.devRef .tc main_arg16)) :=
  (val15_keep V0 main_arg16 (by decide)).trans (val14_main_arg16 V0)
theorem val15_main_arg17 (V0 : Valuation τ sig (Elt F)) : val15 V0 (no_index (Proc.devRef .tc main_arg17)) = (V0 (Proc.devRef .tc main_arg17)) :=
  (val15_keep V0 main_arg17 (by decide)).trans (val14_main_arg17 V0)
theorem val15_main_arg18 (V0 : Valuation τ sig (Elt F)) : val15 V0 (no_index (Proc.devRef .tc main_arg18)) = (V0 (Proc.devRef .tc main_arg18)) :=
  (val15_keep V0 main_arg18 (by decide)).trans (val14_main_arg18 V0)
theorem val15_main_v84 (V0 : Valuation τ sig (Elt F)) : val15 V0 (no_index (Proc.devRef .tc main_v84)) = hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val15_keep V0 main_v84 (by decide)).trans (val14_main_v84 V0)
theorem val15_main_v87 (V0 : Valuation τ sig (Elt F)) : val15 V0 (no_index (Proc.devRef .tc main_v87)) = mean (hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) :=
  (val15_keep V0 main_v87 (by decide)).trans (val14_main_v87 V0)
set_option maxRecDepth 16384 in
set_option maxHeartbeats 4000000 in
theorem val15_main_v88 (V0 : Valuation τ sig (Elt F)) : val15 V0 (no_index (Proc.devRef .tc main_v88)) = var (hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val15
  simp only [p15]
  after_results_simp
  simp only [val14_main_v84] <;> rfl

/-- The device's buffer contents after the first 16 pieces. -/
def val16 (V0 : Valuation τ sig (Elt F)) : Valuation τ sig (Elt F) := after p16 (val15 V0)
/-- A buffer that piece 16 does not write keeps its contents through it. -/
theorem val16_keep (V0 : Valuation τ sig (Elt F)) (r : Ref sig .tc) (h : r ∉ p16_W) :
    val16 V0 (Proc.devRef .tc r) = val15 V0 (Proc.devRef .tc r) :=
  after_of_writes_sub p16 _ p16_writes h
theorem val16_main_arg0 (V0 : Valuation τ sig (Elt F)) : val16 V0 (no_index (Proc.devRef .tc main_arg0)) = (V0 (Proc.devRef .tc main_arg0)) :=
  (val16_keep V0 main_arg0 (by decide)).trans (val15_main_arg0 V0)
theorem val16_main_arg1 (V0 : Valuation τ sig (Elt F)) : val16 V0 (no_index (Proc.devRef .tc main_arg1)) = (V0 (Proc.devRef .tc main_arg1)) :=
  (val16_keep V0 main_arg1 (by decide)).trans (val15_main_arg1 V0)
theorem val16_main_arg2 (V0 : Valuation τ sig (Elt F)) : val16 V0 (no_index (Proc.devRef .tc main_arg2)) = (V0 (Proc.devRef .tc main_arg2)) :=
  (val16_keep V0 main_arg2 (by decide)).trans (val15_main_arg2 V0)
theorem val16_main_arg3 (V0 : Valuation τ sig (Elt F)) : val16 V0 (no_index (Proc.devRef .tc main_arg3)) = (V0 (Proc.devRef .tc main_arg3)) :=
  (val16_keep V0 main_arg3 (by decide)).trans (val15_main_arg3 V0)
theorem val16_main_arg4 (V0 : Valuation τ sig (Elt F)) : val16 V0 (no_index (Proc.devRef .tc main_arg4)) = (V0 (Proc.devRef .tc main_arg4)) :=
  (val16_keep V0 main_arg4 (by decide)).trans (val15_main_arg4 V0)
theorem val16_main_arg5 (V0 : Valuation τ sig (Elt F)) : val16 V0 (no_index (Proc.devRef .tc main_arg5)) = (V0 (Proc.devRef .tc main_arg5)) :=
  (val16_keep V0 main_arg5 (by decide)).trans (val15_main_arg5 V0)
theorem val16_main_arg6 (V0 : Valuation τ sig (Elt F)) : val16 V0 (no_index (Proc.devRef .tc main_arg6)) = (V0 (Proc.devRef .tc main_arg6)) :=
  (val16_keep V0 main_arg6 (by decide)).trans (val15_main_arg6 V0)
theorem val16_main_arg7 (V0 : Valuation τ sig (Elt F)) : val16 V0 (no_index (Proc.devRef .tc main_arg7)) = (V0 (Proc.devRef .tc main_arg7)) :=
  (val16_keep V0 main_arg7 (by decide)).trans (val15_main_arg7 V0)
theorem val16_main_arg8 (V0 : Valuation τ sig (Elt F)) : val16 V0 (no_index (Proc.devRef .tc main_arg8)) = (V0 (Proc.devRef .tc main_arg8)) :=
  (val16_keep V0 main_arg8 (by decide)).trans (val15_main_arg8 V0)
theorem val16_main_arg9 (V0 : Valuation τ sig (Elt F)) : val16 V0 (no_index (Proc.devRef .tc main_arg9)) = (V0 (Proc.devRef .tc main_arg9)) :=
  (val16_keep V0 main_arg9 (by decide)).trans (val15_main_arg9 V0)
theorem val16_main_arg10 (V0 : Valuation τ sig (Elt F)) : val16 V0 (no_index (Proc.devRef .tc main_arg10)) = (V0 (Proc.devRef .tc main_arg10)) :=
  (val16_keep V0 main_arg10 (by decide)).trans (val15_main_arg10 V0)
theorem val16_main_arg11 (V0 : Valuation τ sig (Elt F)) : val16 V0 (no_index (Proc.devRef .tc main_arg11)) = (V0 (Proc.devRef .tc main_arg11)) :=
  (val16_keep V0 main_arg11 (by decide)).trans (val15_main_arg11 V0)
theorem val16_main_arg12 (V0 : Valuation τ sig (Elt F)) : val16 V0 (no_index (Proc.devRef .tc main_arg12)) = (V0 (Proc.devRef .tc main_arg12)) :=
  (val16_keep V0 main_arg12 (by decide)).trans (val15_main_arg12 V0)
theorem val16_main_arg13 (V0 : Valuation τ sig (Elt F)) : val16 V0 (no_index (Proc.devRef .tc main_arg13)) = (V0 (Proc.devRef .tc main_arg13)) :=
  (val16_keep V0 main_arg13 (by decide)).trans (val15_main_arg13 V0)
theorem val16_main_arg14 (V0 : Valuation τ sig (Elt F)) : val16 V0 (no_index (Proc.devRef .tc main_arg14)) = (V0 (Proc.devRef .tc main_arg14)) :=
  (val16_keep V0 main_arg14 (by decide)).trans (val15_main_arg14 V0)
theorem val16_main_arg15 (V0 : Valuation τ sig (Elt F)) : val16 V0 (no_index (Proc.devRef .tc main_arg15)) = (V0 (Proc.devRef .tc main_arg15)) :=
  (val16_keep V0 main_arg15 (by decide)).trans (val15_main_arg15 V0)
theorem val16_main_arg16 (V0 : Valuation τ sig (Elt F)) : val16 V0 (no_index (Proc.devRef .tc main_arg16)) = (V0 (Proc.devRef .tc main_arg16)) :=
  (val16_keep V0 main_arg16 (by decide)).trans (val15_main_arg16 V0)
theorem val16_main_arg17 (V0 : Valuation τ sig (Elt F)) : val16 V0 (no_index (Proc.devRef .tc main_arg17)) = (V0 (Proc.devRef .tc main_arg17)) :=
  (val16_keep V0 main_arg17 (by decide)).trans (val15_main_arg17 V0)
theorem val16_main_arg18 (V0 : Valuation τ sig (Elt F)) : val16 V0 (no_index (Proc.devRef .tc main_arg18)) = (V0 (Proc.devRef .tc main_arg18)) :=
  (val16_keep V0 main_arg18 (by decide)).trans (val15_main_arg18 V0)
set_option maxRecDepth 16384 in
set_option maxHeartbeats 2800000 in
theorem val16_main_v100 (V0 : Valuation τ sig (Elt F)) : val16 V0 (no_index (Proc.devRef .tc main_v100)) = mulf (mulf (broadcastInDim S16384x1024 ![0, 1] bcast_S1x1024_S16384x1024_0_1 (broadcastInDim S1x1024 ![1] bcast_S1024_S1x1024_1 ((V0 (Proc.devRef .tc main_arg15))))) (subf (hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) (broadcastInDim S16384x1024 ![0, 1] bcast_S1x1024_S16384x1024_0_1 (broadcastInDim S1x1024 ![1] bcast_S1024_S1x1024_1 (mean (hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)))))))) (broadcastInDim S16384x1024 ![0, 1] bcast_S1x1024_S16384x1024_0_1 (broadcastInDim S1x1024 ![1] bcast_S1024_S1x1024_1 (Host.rsqrt (addf (var (hpre3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)))) (broadcastInDim S1024 ![] bcast_S_S1024 ((constant S_ .f32 0x3727C5AC#32 : (⟨S_, .f32⟩ : BufTy).Contents (Elt F)))))))) := by
  unfold val16
  simp only [p16]
  after_results_simp
  simp only [val15_main_v88, val15_main_v87, val15_main_v84, val15_main_arg15] <;> rfl
set_option maxRecDepth 16384 in
set_option maxHeartbeats 2800000 in
theorem val16_main_v101 (V0 : Valuation τ sig (Elt F)) : val16 V0 (no_index (Proc.devRef .tc main_v101)) = broadcastInDim S1x1024 ![1] bcast_S1024_S1x1024_1 ((V0 (Proc.devRef .tc main_arg16))) := by
  unfold val16
  simp only [p16]
  after_results_simp
  simp only [val15_main_arg16] <;> rfl

end Cert.RefSide

end
-- ==== Proof.RefVals2.lean ====
/-
  What the buffers hold after the pieces 17 … 24 of the reference's straight line, from any
  contents `V0`: each buffer still needed later at its stage's function of the argument arrays
  (RefStages), every other buffer untouched.
-/
import proofs.«157065_j74259984548393_2_alg».proof.Proof.RefVals1

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 17 pieces. -/
def val17 (V0 : Valuation τ sig (Elt F)) : Valuation τ sig (Elt F) := after p17 (val16 V0)
/-- A buffer that piece 17 does not write keeps its contents through it. -/
theorem val17_keep (V0 : Valuation τ sig (Elt F)) (r : Ref sig .tc) (h : r ∉ p17_W) :
    val17 V0 (Proc.devRef .tc r) = val16 V0 (Proc.devRef .tc r) :=
  after_of_writes_sub p17 _ p17_writes h
theorem val17_main_arg0 (V0 : Valuation τ sig (Elt F)) : val17 V0 (no_index (Proc.devRef .tc main_arg0)) = (V0 (Proc.devRef .tc main_arg0)) :=
  (val17_keep V0 main_arg0 (by decide)).trans (val16_main_arg0 V0)
theorem val17_main_arg1 (V0 : Valuation τ sig (Elt F)) : val17 V0 (no_index (Proc.devRef .tc main_arg1)) = (V0 (Proc.devRef .tc main_arg1)) :=
  (val17_keep V0 main_arg1 (by decide)).trans (val16_main_arg1 V0)
theorem val17_main_arg2 (V0 : Valuation τ sig (Elt F)) : val17 V0 (no_index (Proc.devRef .tc main_arg2)) = (V0 (Proc.devRef .tc main_arg2)) :=
  (val17_keep V0 main_arg2 (by decide)).trans (val16_main_arg2 V0)
theorem val17_main_arg3 (V0 : Valuation τ sig (Elt F)) : val17 V0 (no_index (Proc.devRef .tc main_arg3)) = (V0 (Proc.devRef .tc main_arg3)) :=
  (val17_keep V0 main_arg3 (by decide)).trans (val16_main_arg3 V0)
theorem val17_main_arg4 (V0 : Valuation τ sig (Elt F)) : val17 V0 (no_index (Proc.devRef .tc main_arg4)) = (V0 (Proc.devRef .tc main_arg4)) :=
  (val17_keep V0 main_arg4 (by decide)).trans (val16_main_arg4 V0)
theorem val17_main_arg5 (V0 : Valuation τ sig (Elt F)) : val17 V0 (no_index (Proc.devRef .tc main_arg5)) = (V0 (Proc.devRef .tc main_arg5)) :=
  (val17_keep V0 main_arg5 (by decide)).trans (val16_main_arg5 V0)
theorem val17_main_arg6 (V0 : Valuation τ sig (Elt F)) : val17 V0 (no_index (Proc.devRef .tc main_arg6)) = (V0 (Proc.devRef .tc main_arg6)) :=
  (val17_keep V0 main_arg6 (by decide)).trans (val16_main_arg6 V0)
theorem val17_main_arg7 (V0 : Valuation τ sig (Elt F)) : val17 V0 (no_index (Proc.devRef .tc main_arg7)) = (V0 (Proc.devRef .tc main_arg7)) :=
  (val17_keep V0 main_arg7 (by decide)).trans (val16_main_arg7 V0)
theorem val17_main_arg8 (V0 : Valuation τ sig (Elt F)) : val17 V0 (no_index (Proc.devRef .tc main_arg8)) = (V0 (Proc.devRef .tc main_arg8)) :=
  (val17_keep V0 main_arg8 (by decide)).trans (val16_main_arg8 V0)
theorem val17_main_arg9 (V0 : Valuation τ sig (Elt F)) : val17 V0 (no_index (Proc.devRef .tc main_arg9)) = (V0 (Proc.devRef .tc main_arg9)) :=
  (val17_keep V0 main_arg9 (by decide)).trans (val16_main_arg9 V0)
theorem val17_main_arg10 (V0 : Valuation τ sig (Elt F)) : val17 V0 (no_index (Proc.devRef .tc main_arg10)) = (V0 (Proc.devRef .tc main_arg10)) :=
  (val17_keep V0 main_arg10 (by decide)).trans (val16_main_arg10 V0)
theorem val17_main_arg11 (V0 : Valuation τ sig (Elt F)) : val17 V0 (no_index (Proc.devRef .tc main_arg11)) = (V0 (Proc.devRef .tc main_arg11)) :=
  (val17_keep V0 main_arg11 (by decide)).trans (val16_main_arg11 V0)
theorem val17_main_arg12 (V0 : Valuation τ sig (Elt F)) : val17 V0 (no_index (Proc.devRef .tc main_arg12)) = (V0 (Proc.devRef .tc main_arg12)) :=
  (val17_keep V0 main_arg12 (by decide)).trans (val16_main_arg12 V0)
theorem val17_main_arg13 (V0 : Valuation τ sig (Elt F)) : val17 V0 (no_index (Proc.devRef .tc main_arg13)) = (V0 (Proc.devRef .tc main_arg13)) :=
  (val17_keep V0 main_arg13 (by decide)).trans (val16_main_arg13 V0)
theorem val17_main_arg14 (V0 : Valuation τ sig (Elt F)) : val17 V0 (no_index (Proc.devRef .tc main_arg14)) = (V0 (Proc.devRef .tc main_arg14)) :=
  (val17_keep V0 main_arg14 (by decide)).trans (val16_main_arg14 V0)
theorem val17_main_arg15 (V0 : Valuation τ sig (Elt F)) : val17 V0 (no_index (Proc.devRef .tc main_arg15)) = (V0 (Proc.devRef .tc main_arg15)) :=
  (val17_keep V0 main_arg15 (by decide)).trans (val16_main_arg15 V0)
theorem val17_main_arg16 (V0 : Valuation τ sig (Elt F)) : val17 V0 (no_index (Proc.devRef .tc main_arg16)) = (V0 (Proc.devRef .tc main_arg16)) :=
  (val17_keep V0 main_arg16 (by decide)).trans (val16_main_arg16 V0)
theorem val17_main_arg17 (V0 : Valuation τ sig (Elt F)) : val17 V0 (no_index (Proc.devRef .tc main_arg17)) = (V0 (Proc.devRef .tc main_arg17)) :=
  (val17_keep V0 main_arg17 (by decide)).trans (val16_main_arg17 V0)
theorem val17_main_arg18 (V0 : Valuation τ sig (Elt F)) : val17 V0 (no_index (Proc.devRef .tc main_arg18)) = (V0 (Proc.devRef .tc main_arg18)) :=
  (val17_keep V0 main_arg18 (by decide)).trans (val16_main_arg18 V0)
set_option maxRecDepth 16384 in
set_option maxHeartbeats 1000000 in
theorem val17_main_v104 (V0 : Valuation τ sig (Elt F)) : val17 V0 (no_index (Proc.devRef .tc main_v104)) = hact3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val17
  simp only [p17]
  after_results_simp
  simp only [val16_main_v101, val16_main_v100] <;> rfl

/-- The device's buffer contents after the first 18 pieces. -/
def val18 (V0 : Valuation τ sig (Elt F)) : Valuation τ sig (Elt F) := after p18 (val17 V0)
/-- A buffer that piece 18 does not write keeps its contents through it. -/
theorem val18_keep (V0 : Valuation τ sig (Elt F)) (r : Ref sig .tc) (h : r ∉ p18_W) :
    val18 V0 (Proc.devRef .tc r) = val17 V0 (Proc.devRef .tc r) :=
  after_of_writes_sub p18 _ p18_writes h
theorem val18_main_arg0 (V0 : Valuation τ sig (Elt F)) : val18 V0 (no_index (Proc.devRef .tc main_arg0)) = (V0 (Proc.devRef .tc main_arg0)) :=
  (val18_keep V0 main_arg0 (by decide)).trans (val17_main_arg0 V0)
theorem val18_main_arg1 (V0 : Valuation τ sig (Elt F)) : val18 V0 (no_index (Proc.devRef .tc main_arg1)) = (V0 (Proc.devRef .tc main_arg1)) :=
  (val18_keep V0 main_arg1 (by decide)).trans (val17_main_arg1 V0)
theorem val18_main_arg2 (V0 : Valuation τ sig (Elt F)) : val18 V0 (no_index (Proc.devRef .tc main_arg2)) = (V0 (Proc.devRef .tc main_arg2)) :=
  (val18_keep V0 main_arg2 (by decide)).trans (val17_main_arg2 V0)
theorem val18_main_arg3 (V0 : Valuation τ sig (Elt F)) : val18 V0 (no_index (Proc.devRef .tc main_arg3)) = (V0 (Proc.devRef .tc main_arg3)) :=
  (val18_keep V0 main_arg3 (by decide)).trans (val17_main_arg3 V0)
theorem val18_main_arg4 (V0 : Valuation τ sig (Elt F)) : val18 V0 (no_index (Proc.devRef .tc main_arg4)) = (V0 (Proc.devRef .tc main_arg4)) :=
  (val18_keep V0 main_arg4 (by decide)).trans (val17_main_arg4 V0)
theorem val18_main_arg5 (V0 : Valuation τ sig (Elt F)) : val18 V0 (no_index (Proc.devRef .tc main_arg5)) = (V0 (Proc.devRef .tc main_arg5)) :=
  (val18_keep V0 main_arg5 (by decide)).trans (val17_main_arg5 V0)
theorem val18_main_arg6 (V0 : Valuation τ sig (Elt F)) : val18 V0 (no_index (Proc.devRef .tc main_arg6)) = (V0 (Proc.devRef .tc main_arg6)) :=
  (val18_keep V0 main_arg6 (by decide)).trans (val17_main_arg6 V0)
theorem val18_main_arg7 (V0 : Valuation τ sig (Elt F)) : val18 V0 (no_index (Proc.devRef .tc main_arg7)) = (V0 (Proc.devRef .tc main_arg7)) :=
  (val18_keep V0 main_arg7 (by decide)).trans (val17_main_arg7 V0)
theorem val18_main_arg8 (V0 : Valuation τ sig (Elt F)) : val18 V0 (no_index (Proc.devRef .tc main_arg8)) = (V0 (Proc.devRef .tc main_arg8)) :=
  (val18_keep V0 main_arg8 (by decide)).trans (val17_main_arg8 V0)
theorem val18_main_arg9 (V0 : Valuation τ sig (Elt F)) : val18 V0 (no_index (Proc.devRef .tc main_arg9)) = (V0 (Proc.devRef .tc main_arg9)) :=
  (val18_keep V0 main_arg9 (by decide)).trans (val17_main_arg9 V0)
theorem val18_main_arg10 (V0 : Valuation τ sig (Elt F)) : val18 V0 (no_index (Proc.devRef .tc main_arg10)) = (V0 (Proc.devRef .tc main_arg10)) :=
  (val18_keep V0 main_arg10 (by decide)).trans (val17_main_arg10 V0)
theorem val18_main_arg11 (V0 : Valuation τ sig (Elt F)) : val18 V0 (no_index (Proc.devRef .tc main_arg11)) = (V0 (Proc.devRef .tc main_arg11)) :=
  (val18_keep V0 main_arg11 (by decide)).trans (val17_main_arg11 V0)
theorem val18_main_arg12 (V0 : Valuation τ sig (Elt F)) : val18 V0 (no_index (Proc.devRef .tc main_arg12)) = (V0 (Proc.devRef .tc main_arg12)) :=
  (val18_keep V0 main_arg12 (by decide)).trans (val17_main_arg12 V0)
theorem val18_main_arg13 (V0 : Valuation τ sig (Elt F)) : val18 V0 (no_index (Proc.devRef .tc main_arg13)) = (V0 (Proc.devRef .tc main_arg13)) :=
  (val18_keep V0 main_arg13 (by decide)).trans (val17_main_arg13 V0)
theorem val18_main_arg14 (V0 : Valuation τ sig (Elt F)) : val18 V0 (no_index (Proc.devRef .tc main_arg14)) = (V0 (Proc.devRef .tc main_arg14)) :=
  (val18_keep V0 main_arg14 (by decide)).trans (val17_main_arg14 V0)
theorem val18_main_arg15 (V0 : Valuation τ sig (Elt F)) : val18 V0 (no_index (Proc.devRef .tc main_arg15)) = (V0 (Proc.devRef .tc main_arg15)) :=
  (val18_keep V0 main_arg15 (by decide)).trans (val17_main_arg15 V0)
theorem val18_main_arg16 (V0 : Valuation τ sig (Elt F)) : val18 V0 (no_index (Proc.devRef .tc main_arg16)) = (V0 (Proc.devRef .tc main_arg16)) :=
  (val18_keep V0 main_arg16 (by decide)).trans (val17_main_arg16 V0)
theorem val18_main_arg17 (V0 : Valuation τ sig (Elt F)) : val18 V0 (no_index (Proc.devRef .tc main_arg17)) = (V0 (Proc.devRef .tc main_arg17)) :=
  (val18_keep V0 main_arg17 (by decide)).trans (val17_main_arg17 V0)
theorem val18_main_arg18 (V0 : Valuation τ sig (Elt F)) : val18 V0 (no_index (Proc.devRef .tc main_arg18)) = (V0 (Proc.devRef .tc main_arg18)) :=
  (val18_keep V0 main_arg18 (by decide)).trans (val17_main_arg18 V0)
theorem val18_main_v104 (V0 : Valuation τ sig (Elt F)) : val18 V0 (no_index (Proc.devRef .tc main_v104)) = hact3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val18_keep V0 main_v104 (by decide)).trans (val17_main_v104 V0)
set_option maxRecDepth 16384 in
set_option maxHeartbeats 2400000 in
theorem val18_main_v114 (V0 : Valuation τ sig (Elt F)) : val18 V0 (no_index (Proc.devRef .tc main_v114)) = binW1024 (V0 (Proc.devRef .tc main_arg7)) := by
  unfold val18
  simp only [p18]
  after_results_simp
  simp only [val17_main_arg7] <;> rfl

/-- The device's buffer contents after the first 19 pieces. -/
def val19 (V0 : Valuation τ sig (Elt F)) : Valuation τ sig (Elt F) := after p19 (val18 V0)
/-- A buffer that piece 19 does not write keeps its contents through it. -/
theorem val19_keep (V0 : Valuation τ sig (Elt F)) (r : Ref sig .tc) (h : r ∉ p19_W) :
    val19 V0 (Proc.devRef .tc r) = val18 V0 (Proc.devRef .tc r) :=
  after_of_writes_sub p19 _ p19_writes h
theorem val19_main_arg0 (V0 : Valuation τ sig (Elt F)) : val19 V0 (no_index (Proc.devRef .tc main_arg0)) = (V0 (Proc.devRef .tc main_arg0)) :=
  (val19_keep V0 main_arg0 (by decide)).trans (val18_main_arg0 V0)
theorem val19_main_arg1 (V0 : Valuation τ sig (Elt F)) : val19 V0 (no_index (Proc.devRef .tc main_arg1)) = (V0 (Proc.devRef .tc main_arg1)) :=
  (val19_keep V0 main_arg1 (by decide)).trans (val18_main_arg1 V0)
theorem val19_main_arg2 (V0 : Valuation τ sig (Elt F)) : val19 V0 (no_index (Proc.devRef .tc main_arg2)) = (V0 (Proc.devRef .tc main_arg2)) :=
  (val19_keep V0 main_arg2 (by decide)).trans (val18_main_arg2 V0)
theorem val19_main_arg3 (V0 : Valuation τ sig (Elt F)) : val19 V0 (no_index (Proc.devRef .tc main_arg3)) = (V0 (Proc.devRef .tc main_arg3)) :=
  (val19_keep V0 main_arg3 (by decide)).trans (val18_main_arg3 V0)
theorem val19_main_arg4 (V0 : Valuation τ sig (Elt F)) : val19 V0 (no_index (Proc.devRef .tc main_arg4)) = (V0 (Proc.devRef .tc main_arg4)) :=
  (val19_keep V0 main_arg4 (by decide)).trans (val18_main_arg4 V0)
theorem val19_main_arg5 (V0 : Valuation τ sig (Elt F)) : val19 V0 (no_index (Proc.devRef .tc main_arg5)) = (V0 (Proc.devRef .tc main_arg5)) :=
  (val19_keep V0 main_arg5 (by decide)).trans (val18_main_arg5 V0)
theorem val19_main_arg6 (V0 : Valuation τ sig (Elt F)) : val19 V0 (no_index (Proc.devRef .tc main_arg6)) = (V0 (Proc.devRef .tc main_arg6)) :=
  (val19_keep V0 main_arg6 (by decide)).trans (val18_main_arg6 V0)
theorem val19_main_arg7 (V0 : Valuation τ sig (Elt F)) : val19 V0 (no_index (Proc.devRef .tc main_arg7)) = (V0 (Proc.devRef .tc main_arg7)) :=
  (val19_keep V0 main_arg7 (by decide)).trans (val18_main_arg7 V0)
theorem val19_main_arg8 (V0 : Valuation τ sig (Elt F)) : val19 V0 (no_index (Proc.devRef .tc main_arg8)) = (V0 (Proc.devRef .tc main_arg8)) :=
  (val19_keep V0 main_arg8 (by decide)).trans (val18_main_arg8 V0)
theorem val19_main_arg9 (V0 : Valuation τ sig (Elt F)) : val19 V0 (no_index (Proc.devRef .tc main_arg9)) = (V0 (Proc.devRef .tc main_arg9)) :=
  (val19_keep V0 main_arg9 (by decide)).trans (val18_main_arg9 V0)
theorem val19_main_arg10 (V0 : Valuation τ sig (Elt F)) : val19 V0 (no_index (Proc.devRef .tc main_arg10)) = (V0 (Proc.devRef .tc main_arg10)) :=
  (val19_keep V0 main_arg10 (by decide)).trans (val18_main_arg10 V0)
theorem val19_main_arg11 (V0 : Valuation τ sig (Elt F)) : val19 V0 (no_index (Proc.devRef .tc main_arg11)) = (V0 (Proc.devRef .tc main_arg11)) :=
  (val19_keep V0 main_arg11 (by decide)).trans (val18_main_arg11 V0)
theorem val19_main_arg12 (V0 : Valuation τ sig (Elt F)) : val19 V0 (no_index (Proc.devRef .tc main_arg12)) = (V0 (Proc.devRef .tc main_arg12)) :=
  (val19_keep V0 main_arg12 (by decide)).trans (val18_main_arg12 V0)
theorem val19_main_arg13 (V0 : Valuation τ sig (Elt F)) : val19 V0 (no_index (Proc.devRef .tc main_arg13)) = (V0 (Proc.devRef .tc main_arg13)) :=
  (val19_keep V0 main_arg13 (by decide)).trans (val18_main_arg13 V0)
theorem val19_main_arg14 (V0 : Valuation τ sig (Elt F)) : val19 V0 (no_index (Proc.devRef .tc main_arg14)) = (V0 (Proc.devRef .tc main_arg14)) :=
  (val19_keep V0 main_arg14 (by decide)).trans (val18_main_arg14 V0)
theorem val19_main_arg15 (V0 : Valuation τ sig (Elt F)) : val19 V0 (no_index (Proc.devRef .tc main_arg15)) = (V0 (Proc.devRef .tc main_arg15)) :=
  (val19_keep V0 main_arg15 (by decide)).trans (val18_main_arg15 V0)
theorem val19_main_arg16 (V0 : Valuation τ sig (Elt F)) : val19 V0 (no_index (Proc.devRef .tc main_arg16)) = (V0 (Proc.devRef .tc main_arg16)) :=
  (val19_keep V0 main_arg16 (by decide)).trans (val18_main_arg16 V0)
theorem val19_main_arg17 (V0 : Valuation τ sig (Elt F)) : val19 V0 (no_index (Proc.devRef .tc main_arg17)) = (V0 (Proc.devRef .tc main_arg17)) :=
  (val19_keep V0 main_arg17 (by decide)).trans (val18_main_arg17 V0)
theorem val19_main_arg18 (V0 : Valuation τ sig (Elt F)) : val19 V0 (no_index (Proc.devRef .tc main_arg18)) = (V0 (Proc.devRef .tc main_arg18)) :=
  (val19_keep V0 main_arg18 (by decide)).trans (val18_main_arg18 V0)
set_option maxRecDepth 16384 in
set_option maxHeartbeats 1000000 in
theorem val19_main_v119 (V0 : Valuation τ sig (Elt F)) : val19 V0 (no_index (Proc.devRef .tc main_v119)) = hpre4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val19
  simp only [p19]
  after_results_simp
  simp only [val18_main_arg8, val18_main_v114, val18_main_v104] <;> rfl

/-- The device's buffer contents after the first 20 pieces. -/
def val20 (V0 : Valuation τ sig (Elt F)) : Valuation τ sig (Elt F) := after p20 (val19 V0)
/-- A buffer that piece 20 does not write keeps its contents through it. -/
theorem val20_keep (V0 : Valuation τ sig (Elt F)) (r : Ref sig .tc) (h : r ∉ p20_W) :
    val20 V0 (Proc.devRef .tc r) = val19 V0 (Proc.devRef .tc r) :=
  after_of_writes_sub p20 _ p20_writes h
theorem val20_main_arg0 (V0 : Valuation τ sig (Elt F)) : val20 V0 (no_index (Proc.devRef .tc main_arg0)) = (V0 (Proc.devRef .tc main_arg0)) :=
  (val20_keep V0 main_arg0 (by decide)).trans (val19_main_arg0 V0)
theorem val20_main_arg1 (V0 : Valuation τ sig (Elt F)) : val20 V0 (no_index (Proc.devRef .tc main_arg1)) = (V0 (Proc.devRef .tc main_arg1)) :=
  (val20_keep V0 main_arg1 (by decide)).trans (val19_main_arg1 V0)
theorem val20_main_arg2 (V0 : Valuation τ sig (Elt F)) : val20 V0 (no_index (Proc.devRef .tc main_arg2)) = (V0 (Proc.devRef .tc main_arg2)) :=
  (val20_keep V0 main_arg2 (by decide)).trans (val19_main_arg2 V0)
theorem val20_main_arg3 (V0 : Valuation τ sig (Elt F)) : val20 V0 (no_index (Proc.devRef .tc main_arg3)) = (V0 (Proc.devRef .tc main_arg3)) :=
  (val20_keep V0 main_arg3 (by decide)).trans (val19_main_arg3 V0)
theorem val20_main_arg4 (V0 : Valuation τ sig (Elt F)) : val20 V0 (no_index (Proc.devRef .tc main_arg4)) = (V0 (Proc.devRef .tc main_arg4)) :=
  (val20_keep V0 main_arg4 (by decide)).trans (val19_main_arg4 V0)
theorem val20_main_arg5 (V0 : Valuation τ sig (Elt F)) : val20 V0 (no_index (Proc.devRef .tc main_arg5)) = (V0 (Proc.devRef .tc main_arg5)) :=
  (val20_keep V0 main_arg5 (by decide)).trans (val19_main_arg5 V0)
theorem val20_main_arg6 (V0 : Valuation τ sig (Elt F)) : val20 V0 (no_index (Proc.devRef .tc main_arg6)) = (V0 (Proc.devRef .tc main_arg6)) :=
  (val20_keep V0 main_arg6 (by decide)).trans (val19_main_arg6 V0)
theorem val20_main_arg7 (V0 : Valuation τ sig (Elt F)) : val20 V0 (no_index (Proc.devRef .tc main_arg7)) = (V0 (Proc.devRef .tc main_arg7)) :=
  (val20_keep V0 main_arg7 (by decide)).trans (val19_main_arg7 V0)
theorem val20_main_arg8 (V0 : Valuation τ sig (Elt F)) : val20 V0 (no_index (Proc.devRef .tc main_arg8)) = (V0 (Proc.devRef .tc main_arg8)) :=
  (val20_keep V0 main_arg8 (by decide)).trans (val19_main_arg8 V0)
theorem val20_main_arg9 (V0 : Valuation τ sig (Elt F)) : val20 V0 (no_index (Proc.devRef .tc main_arg9)) = (V0 (Proc.devRef .tc main_arg9)) :=
  (val20_keep V0 main_arg9 (by decide)).trans (val19_main_arg9 V0)
theorem val20_main_arg10 (V0 : Valuation τ sig (Elt F)) : val20 V0 (no_index (Proc.devRef .tc main_arg10)) = (V0 (Proc.devRef .tc main_arg10)) :=
  (val20_keep V0 main_arg10 (by decide)).trans (val19_main_arg10 V0)
theorem val20_main_arg11 (V0 : Valuation τ sig (Elt F)) : val20 V0 (no_index (Proc.devRef .tc main_arg11)) = (V0 (Proc.devRef .tc main_arg11)) :=
  (val20_keep V0 main_arg11 (by decide)).trans (val19_main_arg11 V0)
theorem val20_main_arg12 (V0 : Valuation τ sig (Elt F)) : val20 V0 (no_index (Proc.devRef .tc main_arg12)) = (V0 (Proc.devRef .tc main_arg12)) :=
  (val20_keep V0 main_arg12 (by decide)).trans (val19_main_arg12 V0)
theorem val20_main_arg13 (V0 : Valuation τ sig (Elt F)) : val20 V0 (no_index (Proc.devRef .tc main_arg13)) = (V0 (Proc.devRef .tc main_arg13)) :=
  (val20_keep V0 main_arg13 (by decide)).trans (val19_main_arg13 V0)
theorem val20_main_arg14 (V0 : Valuation τ sig (Elt F)) : val20 V0 (no_index (Proc.devRef .tc main_arg14)) = (V0 (Proc.devRef .tc main_arg14)) :=
  (val20_keep V0 main_arg14 (by decide)).trans (val19_main_arg14 V0)
theorem val20_main_arg15 (V0 : Valuation τ sig (Elt F)) : val20 V0 (no_index (Proc.devRef .tc main_arg15)) = (V0 (Proc.devRef .tc main_arg15)) :=
  (val20_keep V0 main_arg15 (by decide)).trans (val19_main_arg15 V0)
theorem val20_main_arg16 (V0 : Valuation τ sig (Elt F)) : val20 V0 (no_index (Proc.devRef .tc main_arg16)) = (V0 (Proc.devRef .tc main_arg16)) :=
  (val20_keep V0 main_arg16 (by decide)).trans (val19_main_arg16 V0)
theorem val20_main_arg17 (V0 : Valuation τ sig (Elt F)) : val20 V0 (no_index (Proc.devRef .tc main_arg17)) = (V0 (Proc.devRef .tc main_arg17)) :=
  (val20_keep V0 main_arg17 (by decide)).trans (val19_main_arg17 V0)
theorem val20_main_arg18 (V0 : Valuation τ sig (Elt F)) : val20 V0 (no_index (Proc.devRef .tc main_arg18)) = (V0 (Proc.devRef .tc main_arg18)) :=
  (val20_keep V0 main_arg18 (by decide)).trans (val19_main_arg18 V0)
theorem val20_main_v119 (V0 : Valuation τ sig (Elt F)) : val20 V0 (no_index (Proc.devRef .tc main_v119)) = hpre4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val20_keep V0 main_v119 (by decide)).trans (val19_main_v119 V0)
set_option maxRecDepth 16384 in
set_option maxHeartbeats 1000000 in
theorem val20_main_v122 (V0 : Valuation τ sig (Elt F)) : val20 V0 (no_index (Proc.devRef .tc main_v122)) = mean (hpre4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val20
  simp only [p20]
  after_results_simp
  simp only [val19_main_v119] <;> rfl

/-- The device's buffer contents after the first 21 pieces. -/
def val21 (V0 : Valuation τ sig (Elt F)) : Valuation τ sig (Elt F) := after p21 (val20 V0)
/-- A buffer that piece 21 does not write keeps its contents through it. -/
theorem val21_keep (V0 : Valuation τ sig (Elt F)) (r : Ref sig .tc) (h : r ∉ p21_W) :
    val21 V0 (Proc.devRef .tc r) = val20 V0 (Proc.devRef .tc r) :=
  after_of_writes_sub p21 _ p21_writes h
theorem val21_main_arg0 (V0 : Valuation τ sig (Elt F)) : val21 V0 (no_index (Proc.devRef .tc main_arg0)) = (V0 (Proc.devRef .tc main_arg0)) :=
  (val21_keep V0 main_arg0 (by decide)).trans (val20_main_arg0 V0)
theorem val21_main_arg1 (V0 : Valuation τ sig (Elt F)) : val21 V0 (no_index (Proc.devRef .tc main_arg1)) = (V0 (Proc.devRef .tc main_arg1)) :=
  (val21_keep V0 main_arg1 (by decide)).trans (val20_main_arg1 V0)
theorem val21_main_arg2 (V0 : Valuation τ sig (Elt F)) : val21 V0 (no_index (Proc.devRef .tc main_arg2)) = (V0 (Proc.devRef .tc main_arg2)) :=
  (val21_keep V0 main_arg2 (by decide)).trans (val20_main_arg2 V0)
theorem val21_main_arg3 (V0 : Valuation τ sig (Elt F)) : val21 V0 (no_index (Proc.devRef .tc main_arg3)) = (V0 (Proc.devRef .tc main_arg3)) :=
  (val21_keep V0 main_arg3 (by decide)).trans (val20_main_arg3 V0)
theorem val21_main_arg4 (V0 : Valuation τ sig (Elt F)) : val21 V0 (no_index (Proc.devRef .tc main_arg4)) = (V0 (Proc.devRef .tc main_arg4)) :=
  (val21_keep V0 main_arg4 (by decide)).trans (val20_main_arg4 V0)
theorem val21_main_arg5 (V0 : Valuation τ sig (Elt F)) : val21 V0 (no_index (Proc.devRef .tc main_arg5)) = (V0 (Proc.devRef .tc main_arg5)) :=
  (val21_keep V0 main_arg5 (by decide)).trans (val20_main_arg5 V0)
theorem val21_main_arg6 (V0 : Valuation τ sig (Elt F)) : val21 V0 (no_index (Proc.devRef .tc main_arg6)) = (V0 (Proc.devRef .tc main_arg6)) :=
  (val21_keep V0 main_arg6 (by decide)).trans (val20_main_arg6 V0)
theorem val21_main_arg7 (V0 : Valuation τ sig (Elt F)) : val21 V0 (no_index (Proc.devRef .tc main_arg7)) = (V0 (Proc.devRef .tc main_arg7)) :=
  (val21_keep V0 main_arg7 (by decide)).trans (val20_main_arg7 V0)
theorem val21_main_arg8 (V0 : Valuation τ sig (Elt F)) : val21 V0 (no_index (Proc.devRef .tc main_arg8)) = (V0 (Proc.devRef .tc main_arg8)) :=
  (val21_keep V0 main_arg8 (by decide)).trans (val20_main_arg8 V0)
theorem val21_main_arg9 (V0 : Valuation τ sig (Elt F)) : val21 V0 (no_index (Proc.devRef .tc main_arg9)) = (V0 (Proc.devRef .tc main_arg9)) :=
  (val21_keep V0 main_arg9 (by decide)).trans (val20_main_arg9 V0)
theorem val21_main_arg10 (V0 : Valuation τ sig (Elt F)) : val21 V0 (no_index (Proc.devRef .tc main_arg10)) = (V0 (Proc.devRef .tc main_arg10)) :=
  (val21_keep V0 main_arg10 (by decide)).trans (val20_main_arg10 V0)
theorem val21_main_arg11 (V0 : Valuation τ sig (Elt F)) : val21 V0 (no_index (Proc.devRef .tc main_arg11)) = (V0 (Proc.devRef .tc main_arg11)) :=
  (val21_keep V0 main_arg11 (by decide)).trans (val20_main_arg11 V0)
theorem val21_main_arg12 (V0 : Valuation τ sig (Elt F)) : val21 V0 (no_index (Proc.devRef .tc main_arg12)) = (V0 (Proc.devRef .tc main_arg12)) :=
  (val21_keep V0 main_arg12 (by decide)).trans (val20_main_arg12 V0)
theorem val21_main_arg13 (V0 : Valuation τ sig (Elt F)) : val21 V0 (no_index (Proc.devRef .tc main_arg13)) = (V0 (Proc.devRef .tc main_arg13)) :=
  (val21_keep V0 main_arg13 (by decide)).trans (val20_main_arg13 V0)
theorem val21_main_arg14 (V0 : Valuation τ sig (Elt F)) : val21 V0 (no_index (Proc.devRef .tc main_arg14)) = (V0 (Proc.devRef .tc main_arg14)) :=
  (val21_keep V0 main_arg14 (by decide)).trans (val20_main_arg14 V0)
theorem val21_main_arg15 (V0 : Valuation τ sig (Elt F)) : val21 V0 (no_index (Proc.devRef .tc main_arg15)) = (V0 (Proc.devRef .tc main_arg15)) :=
  (val21_keep V0 main_arg15 (by decide)).trans (val20_main_arg15 V0)
theorem val21_main_arg16 (V0 : Valuation τ sig (Elt F)) : val21 V0 (no_index (Proc.devRef .tc main_arg16)) = (V0 (Proc.devRef .tc main_arg16)) :=
  (val21_keep V0 main_arg16 (by decide)).trans (val20_main_arg16 V0)
theorem val21_main_arg17 (V0 : Valuation τ sig (Elt F)) : val21 V0 (no_index (Proc.devRef .tc main_arg17)) = (V0 (Proc.devRef .tc main_arg17)) :=
  (val21_keep V0 main_arg17 (by decide)).trans (val20_main_arg17 V0)
theorem val21_main_arg18 (V0 : Valuation τ sig (Elt F)) : val21 V0 (no_index (Proc.devRef .tc main_arg18)) = (V0 (Proc.devRef .tc main_arg18)) :=
  (val21_keep V0 main_arg18 (by decide)).trans (val20_main_arg18 V0)
theorem val21_main_v119 (V0 : Valuation τ sig (Elt F)) : val21 V0 (no_index (Proc.devRef .tc main_v119)) = hpre4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val21_keep V0 main_v119 (by decide)).trans (val20_main_v119 V0)
theorem val21_main_v122 (V0 : Valuation τ sig (Elt F)) : val21 V0 (no_index (Proc.devRef .tc main_v122)) = mean (hpre4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) :=
  (val21_keep V0 main_v122 (by decide)).trans (val20_main_v122 V0)
set_option maxRecDepth 16384 in
set_option maxHeartbeats 4000000 in
theorem val21_main_v123 (V0 : Valuation τ sig (Elt F)) : val21 V0 (no_index (Proc.devRef .tc main_v123)) = var (hpre4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val21
  simp only [p21]
  after_results_simp
  simp only [val20_main_v119] <;> rfl

/-- The device's buffer contents after the first 22 pieces. -/
def val22 (V0 : Valuation τ sig (Elt F)) : Valuation τ sig (Elt F) := after p22 (val21 V0)
/-- A buffer that piece 22 does not write keeps its contents through it. -/
theorem val22_keep (V0 : Valuation τ sig (Elt F)) (r : Ref sig .tc) (h : r ∉ p22_W) :
    val22 V0 (Proc.devRef .tc r) = val21 V0 (Proc.devRef .tc r) :=
  after_of_writes_sub p22 _ p22_writes h
theorem val22_main_arg0 (V0 : Valuation τ sig (Elt F)) : val22 V0 (no_index (Proc.devRef .tc main_arg0)) = (V0 (Proc.devRef .tc main_arg0)) :=
  (val22_keep V0 main_arg0 (by decide)).trans (val21_main_arg0 V0)
theorem val22_main_arg1 (V0 : Valuation τ sig (Elt F)) : val22 V0 (no_index (Proc.devRef .tc main_arg1)) = (V0 (Proc.devRef .tc main_arg1)) :=
  (val22_keep V0 main_arg1 (by decide)).trans (val21_main_arg1 V0)
theorem val22_main_arg2 (V0 : Valuation τ sig (Elt F)) : val22 V0 (no_index (Proc.devRef .tc main_arg2)) = (V0 (Proc.devRef .tc main_arg2)) :=
  (val22_keep V0 main_arg2 (by decide)).trans (val21_main_arg2 V0)
theorem val22_main_arg3 (V0 : Valuation τ sig (Elt F)) : val22 V0 (no_index (Proc.devRef .tc main_arg3)) = (V0 (Proc.devRef .tc main_arg3)) :=
  (val22_keep V0 main_arg3 (by decide)).trans (val21_main_arg3 V0)
theorem val22_main_arg4 (V0 : Valuation τ sig (Elt F)) : val22 V0 (no_index (Proc.devRef .tc main_arg4)) = (V0 (Proc.devRef .tc main_arg4)) :=
  (val22_keep V0 main_arg4 (by decide)).trans (val21_main_arg4 V0)
theorem val22_main_arg5 (V0 : Valuation τ sig (Elt F)) : val22 V0 (no_index (Proc.devRef .tc main_arg5)) = (V0 (Proc.devRef .tc main_arg5)) :=
  (val22_keep V0 main_arg5 (by decide)).trans (val21_main_arg5 V0)
theorem val22_main_arg6 (V0 : Valuation τ sig (Elt F)) : val22 V0 (no_index (Proc.devRef .tc main_arg6)) = (V0 (Proc.devRef .tc main_arg6)) :=
  (val22_keep V0 main_arg6 (by decide)).trans (val21_main_arg6 V0)
theorem val22_main_arg7 (V0 : Valuation τ sig (Elt F)) : val22 V0 (no_index (Proc.devRef .tc main_arg7)) = (V0 (Proc.devRef .tc main_arg7)) :=
  (val22_keep V0 main_arg7 (by decide)).trans (val21_main_arg7 V0)
theorem val22_main_arg8 (V0 : Valuation τ sig (Elt F)) : val22 V0 (no_index (Proc.devRef .tc main_arg8)) = (V0 (Proc.devRef .tc main_arg8)) :=
  (val22_keep V0 main_arg8 (by decide)).trans (val21_main_arg8 V0)
theorem val22_main_arg9 (V0 : Valuation τ sig (Elt F)) : val22 V0 (no_index (Proc.devRef .tc main_arg9)) = (V0 (Proc.devRef .tc main_arg9)) :=
  (val22_keep V0 main_arg9 (by decide)).trans (val21_main_arg9 V0)
theorem val22_main_arg10 (V0 : Valuation τ sig (Elt F)) : val22 V0 (no_index (Proc.devRef .tc main_arg10)) = (V0 (Proc.devRef .tc main_arg10)) :=
  (val22_keep V0 main_arg10 (by decide)).trans (val21_main_arg10 V0)
theorem val22_main_arg11 (V0 : Valuation τ sig (Elt F)) : val22 V0 (no_index (Proc.devRef .tc main_arg11)) = (V0 (Proc.devRef .tc main_arg11)) :=
  (val22_keep V0 main_arg11 (by decide)).trans (val21_main_arg11 V0)
theorem val22_main_arg12 (V0 : Valuation τ sig (Elt F)) : val22 V0 (no_index (Proc.devRef .tc main_arg12)) = (V0 (Proc.devRef .tc main_arg12)) :=
  (val22_keep V0 main_arg12 (by decide)).trans (val21_main_arg12 V0)
theorem val22_main_arg13 (V0 : Valuation τ sig (Elt F)) : val22 V0 (no_index (Proc.devRef .tc main_arg13)) = (V0 (Proc.devRef .tc main_arg13)) :=
  (val22_keep V0 main_arg13 (by decide)).trans (val21_main_arg13 V0)
theorem val22_main_arg14 (V0 : Valuation τ sig (Elt F)) : val22 V0 (no_index (Proc.devRef .tc main_arg14)) = (V0 (Proc.devRef .tc main_arg14)) :=
  (val22_keep V0 main_arg14 (by decide)).trans (val21_main_arg14 V0)
theorem val22_main_arg15 (V0 : Valuation τ sig (Elt F)) : val22 V0 (no_index (Proc.devRef .tc main_arg15)) = (V0 (Proc.devRef .tc main_arg15)) :=
  (val22_keep V0 main_arg15 (by decide)).trans (val21_main_arg15 V0)
theorem val22_main_arg16 (V0 : Valuation τ sig (Elt F)) : val22 V0 (no_index (Proc.devRef .tc main_arg16)) = (V0 (Proc.devRef .tc main_arg16)) :=
  (val22_keep V0 main_arg16 (by decide)).trans (val21_main_arg16 V0)
theorem val22_main_arg17 (V0 : Valuation τ sig (Elt F)) : val22 V0 (no_index (Proc.devRef .tc main_arg17)) = (V0 (Proc.devRef .tc main_arg17)) :=
  (val22_keep V0 main_arg17 (by decide)).trans (val21_main_arg17 V0)
theorem val22_main_arg18 (V0 : Valuation τ sig (Elt F)) : val22 V0 (no_index (Proc.devRef .tc main_arg18)) = (V0 (Proc.devRef .tc main_arg18)) :=
  (val22_keep V0 main_arg18 (by decide)).trans (val21_main_arg18 V0)
set_option maxRecDepth 16384 in
set_option maxHeartbeats 3800000 in
theorem val22_main_v139 (V0 : Valuation τ sig (Elt F)) : val22 V0 (no_index (Proc.devRef .tc main_v139)) = hact4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val22
  simp only [p22]
  after_results_simp
  simp only [val21_main_arg18, val21_main_v123, val21_main_v122, val21_main_v119, val21_main_arg17] <;> rfl

/-- The device's buffer contents after the first 23 pieces. -/
def val23 (V0 : Valuation τ sig (Elt F)) : Valuation τ sig (Elt F) := after p23 (val22 V0)
/-- A buffer that piece 23 does not write keeps its contents through it. -/
theorem val23_keep (V0 : Valuation τ sig (Elt F)) (r : Ref sig .tc) (h : r ∉ p23_W) :
    val23 V0 (Proc.devRef .tc r) = val22 V0 (Proc.devRef .tc r) :=
  after_of_writes_sub p23 _ p23_writes h
theorem val23_main_arg0 (V0 : Valuation τ sig (Elt F)) : val23 V0 (no_index (Proc.devRef .tc main_arg0)) = (V0 (Proc.devRef .tc main_arg0)) :=
  (val23_keep V0 main_arg0 (by decide)).trans (val22_main_arg0 V0)
theorem val23_main_arg1 (V0 : Valuation τ sig (Elt F)) : val23 V0 (no_index (Proc.devRef .tc main_arg1)) = (V0 (Proc.devRef .tc main_arg1)) :=
  (val23_keep V0 main_arg1 (by decide)).trans (val22_main_arg1 V0)
theorem val23_main_arg2 (V0 : Valuation τ sig (Elt F)) : val23 V0 (no_index (Proc.devRef .tc main_arg2)) = (V0 (Proc.devRef .tc main_arg2)) :=
  (val23_keep V0 main_arg2 (by decide)).trans (val22_main_arg2 V0)
theorem val23_main_arg3 (V0 : Valuation τ sig (Elt F)) : val23 V0 (no_index (Proc.devRef .tc main_arg3)) = (V0 (Proc.devRef .tc main_arg3)) :=
  (val23_keep V0 main_arg3 (by decide)).trans (val22_main_arg3 V0)
theorem val23_main_arg4 (V0 : Valuation τ sig (Elt F)) : val23 V0 (no_index (Proc.devRef .tc main_arg4)) = (V0 (Proc.devRef .tc main_arg4)) :=
  (val23_keep V0 main_arg4 (by decide)).trans (val22_main_arg4 V0)
theorem val23_main_arg5 (V0 : Valuation τ sig (Elt F)) : val23 V0 (no_index (Proc.devRef .tc main_arg5)) = (V0 (Proc.devRef .tc main_arg5)) :=
  (val23_keep V0 main_arg5 (by decide)).trans (val22_main_arg5 V0)
theorem val23_main_arg6 (V0 : Valuation τ sig (Elt F)) : val23 V0 (no_index (Proc.devRef .tc main_arg6)) = (V0 (Proc.devRef .tc main_arg6)) :=
  (val23_keep V0 main_arg6 (by decide)).trans (val22_main_arg6 V0)
theorem val23_main_arg7 (V0 : Valuation τ sig (Elt F)) : val23 V0 (no_index (Proc.devRef .tc main_arg7)) = (V0 (Proc.devRef .tc main_arg7)) :=
  (val23_keep V0 main_arg7 (by decide)).trans (val22_main_arg7 V0)
theorem val23_main_arg8 (V0 : Valuation τ sig (Elt F)) : val23 V0 (no_index (Proc.devRef .tc main_arg8)) = (V0 (Proc.devRef .tc main_arg8)) :=
  (val23_keep V0 main_arg8 (by decide)).trans (val22_main_arg8 V0)
theorem val23_main_arg9 (V0 : Valuation τ sig (Elt F)) : val23 V0 (no_index (Proc.devRef .tc main_arg9)) = (V0 (Proc.devRef .tc main_arg9)) :=
  (val23_keep V0 main_arg9 (by decide)).trans (val22_main_arg9 V0)
theorem val23_main_arg10 (V0 : Valuation τ sig (Elt F)) : val23 V0 (no_index (Proc.devRef .tc main_arg10)) = (V0 (Proc.devRef .tc main_arg10)) :=
  (val23_keep V0 main_arg10 (by decide)).trans (val22_main_arg10 V0)
theorem val23_main_arg11 (V0 : Valuation τ sig (Elt F)) : val23 V0 (no_index (Proc.devRef .tc main_arg11)) = (V0 (Proc.devRef .tc main_arg11)) :=
  (val23_keep V0 main_arg11 (by decide)).trans (val22_main_arg11 V0)
theorem val23_main_arg12 (V0 : Valuation τ sig (Elt F)) : val23 V0 (no_index (Proc.devRef .tc main_arg12)) = (V0 (Proc.devRef .tc main_arg12)) :=
  (val23_keep V0 main_arg12 (by decide)).trans (val22_main_arg12 V0)
theorem val23_main_arg13 (V0 : Valuation τ sig (Elt F)) : val23 V0 (no_index (Proc.devRef .tc main_arg13)) = (V0 (Proc.devRef .tc main_arg13)) :=
  (val23_keep V0 main_arg13 (by decide)).trans (val22_main_arg13 V0)
theorem val23_main_arg14 (V0 : Valuation τ sig (Elt F)) : val23 V0 (no_index (Proc.devRef .tc main_arg14)) = (V0 (Proc.devRef .tc main_arg14)) :=
  (val23_keep V0 main_arg14 (by decide)).trans (val22_main_arg14 V0)
theorem val23_main_arg15 (V0 : Valuation τ sig (Elt F)) : val23 V0 (no_index (Proc.devRef .tc main_arg15)) = (V0 (Proc.devRef .tc main_arg15)) :=
  (val23_keep V0 main_arg15 (by decide)).trans (val22_main_arg15 V0)
theorem val23_main_arg16 (V0 : Valuation τ sig (Elt F)) : val23 V0 (no_index (Proc.devRef .tc main_arg16)) = (V0 (Proc.devRef .tc main_arg16)) :=
  (val23_keep V0 main_arg16 (by decide)).trans (val22_main_arg16 V0)
theorem val23_main_arg17 (V0 : Valuation τ sig (Elt F)) : val23 V0 (no_index (Proc.devRef .tc main_arg17)) = (V0 (Proc.devRef .tc main_arg17)) :=
  (val23_keep V0 main_arg17 (by decide)).trans (val22_main_arg17 V0)
theorem val23_main_arg18 (V0 : Valuation τ sig (Elt F)) : val23 V0 (no_index (Proc.devRef .tc main_arg18)) = (V0 (Proc.devRef .tc main_arg18)) :=
  (val23_keep V0 main_arg18 (by decide)).trans (val22_main_arg18 V0)
theorem val23_main_v139 (V0 : Valuation τ sig (Elt F)) : val23 V0 (no_index (Proc.devRef .tc main_v139)) = hact4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  (val23_keep V0 main_v139 (by decide)).trans (val22_main_v139 V0)
set_option maxRecDepth 16384 in
set_option maxHeartbeats 2400000 in
theorem val23_main_v149 (V0 : Valuation τ sig (Elt F)) : val23 V0 (no_index (Proc.devRef .tc main_v149)) = binW10 (V0 (Proc.devRef .tc main_arg9)) := by
  unfold val23
  simp only [p23]
  after_results_simp
  simp only [val22_main_arg9] <;> rfl

/-- The device's buffer contents after the first 24 pieces. -/
def val24 (V0 : Valuation τ sig (Elt F)) : Valuation τ sig (Elt F) := after p24 (val23 V0)
/-- A buffer that piece 24 does not write keeps its contents through it. -/
theorem val24_keep (V0 : Valuation τ sig (Elt F)) (r : Ref sig .tc) (h : r ∉ p24_W) :
    val24 V0 (Proc.devRef .tc r) = val23 V0 (Proc.devRef .tc r) :=
  after_of_writes_sub p24 _ p24_writes h
theorem val24_main_arg0 (V0 : Valuation τ sig (Elt F)) : val24 V0 (no_index (Proc.devRef .tc main_arg0)) = (V0 (Proc.devRef .tc main_arg0)) :=
  (val24_keep V0 main_arg0 (by decide)).trans (val23_main_arg0 V0)
theorem val24_main_arg1 (V0 : Valuation τ sig (Elt F)) : val24 V0 (no_index (Proc.devRef .tc main_arg1)) = (V0 (Proc.devRef .tc main_arg1)) :=
  (val24_keep V0 main_arg1 (by decide)).trans (val23_main_arg1 V0)
theorem val24_main_arg2 (V0 : Valuation τ sig (Elt F)) : val24 V0 (no_index (Proc.devRef .tc main_arg2)) = (V0 (Proc.devRef .tc main_arg2)) :=
  (val24_keep V0 main_arg2 (by decide)).trans (val23_main_arg2 V0)
theorem val24_main_arg3 (V0 : Valuation τ sig (Elt F)) : val24 V0 (no_index (Proc.devRef .tc main_arg3)) = (V0 (Proc.devRef .tc main_arg3)) :=
  (val24_keep V0 main_arg3 (by decide)).trans (val23_main_arg3 V0)
theorem val24_main_arg4 (V0 : Valuation τ sig (Elt F)) : val24 V0 (no_index (Proc.devRef .tc main_arg4)) = (V0 (Proc.devRef .tc main_arg4)) :=
  (val24_keep V0 main_arg4 (by decide)).trans (val23_main_arg4 V0)
theorem val24_main_arg5 (V0 : Valuation τ sig (Elt F)) : val24 V0 (no_index (Proc.devRef .tc main_arg5)) = (V0 (Proc.devRef .tc main_arg5)) :=
  (val24_keep V0 main_arg5 (by decide)).trans (val23_main_arg5 V0)
theorem val24_main_arg6 (V0 : Valuation τ sig (Elt F)) : val24 V0 (no_index (Proc.devRef .tc main_arg6)) = (V0 (Proc.devRef .tc main_arg6)) :=
  (val24_keep V0 main_arg6 (by decide)).trans (val23_main_arg6 V0)
theorem val24_main_arg7 (V0 : Valuation τ sig (Elt F)) : val24 V0 (no_index (Proc.devRef .tc main_arg7)) = (V0 (Proc.devRef .tc main_arg7)) :=
  (val24_keep V0 main_arg7 (by decide)).trans (val23_main_arg7 V0)
theorem val24_main_arg8 (V0 : Valuation τ sig (Elt F)) : val24 V0 (no_index (Proc.devRef .tc main_arg8)) = (V0 (Proc.devRef .tc main_arg8)) :=
  (val24_keep V0 main_arg8 (by decide)).trans (val23_main_arg8 V0)
theorem val24_main_arg9 (V0 : Valuation τ sig (Elt F)) : val24 V0 (no_index (Proc.devRef .tc main_arg9)) = (V0 (Proc.devRef .tc main_arg9)) :=
  (val24_keep V0 main_arg9 (by decide)).trans (val23_main_arg9 V0)
theorem val24_main_arg10 (V0 : Valuation τ sig (Elt F)) : val24 V0 (no_index (Proc.devRef .tc main_arg10)) = (V0 (Proc.devRef .tc main_arg10)) :=
  (val24_keep V0 main_arg10 (by decide)).trans (val23_main_arg10 V0)
theorem val24_main_arg11 (V0 : Valuation τ sig (Elt F)) : val24 V0 (no_index (Proc.devRef .tc main_arg11)) = (V0 (Proc.devRef .tc main_arg11)) :=
  (val24_keep V0 main_arg11 (by decide)).trans (val23_main_arg11 V0)
theorem val24_main_arg12 (V0 : Valuation τ sig (Elt F)) : val24 V0 (no_index (Proc.devRef .tc main_arg12)) = (V0 (Proc.devRef .tc main_arg12)) :=
  (val24_keep V0 main_arg12 (by decide)).trans (val23_main_arg12 V0)
theorem val24_main_arg13 (V0 : Valuation τ sig (Elt F)) : val24 V0 (no_index (Proc.devRef .tc main_arg13)) = (V0 (Proc.devRef .tc main_arg13)) :=
  (val24_keep V0 main_arg13 (by decide)).trans (val23_main_arg13 V0)
theorem val24_main_arg14 (V0 : Valuation τ sig (Elt F)) : val24 V0 (no_index (Proc.devRef .tc main_arg14)) = (V0 (Proc.devRef .tc main_arg14)) :=
  (val24_keep V0 main_arg14 (by decide)).trans (val23_main_arg14 V0)
theorem val24_main_arg15 (V0 : Valuation τ sig (Elt F)) : val24 V0 (no_index (Proc.devRef .tc main_arg15)) = (V0 (Proc.devRef .tc main_arg15)) :=
  (val24_keep V0 main_arg15 (by decide)).trans (val23_main_arg15 V0)
theorem val24_main_arg16 (V0 : Valuation τ sig (Elt F)) : val24 V0 (no_index (Proc.devRef .tc main_arg16)) = (V0 (Proc.devRef .tc main_arg16)) :=
  (val24_keep V0 main_arg16 (by decide)).trans (val23_main_arg16 V0)
theorem val24_main_arg17 (V0 : Valuation τ sig (Elt F)) : val24 V0 (no_index (Proc.devRef .tc main_arg17)) = (V0 (Proc.devRef .tc main_arg17)) :=
  (val24_keep V0 main_arg17 (by decide)).trans (val23_main_arg17 V0)
theorem val24_main_arg18 (V0 : Valuation τ sig (Elt F)) : val24 V0 (no_index (Proc.devRef .tc main_arg18)) = (V0 (Proc.devRef .tc main_arg18)) :=
  (val24_keep V0 main_arg18 (by decide)).trans (val23_main_arg18 V0)
set_option maxRecDepth 16384 in
set_option maxHeartbeats 800000 in
theorem val24_main_v151 (V0 : Valuation τ sig (Elt F)) : val24 V0 (no_index (Proc.devRef .tc main_v151)) = Host.dotGeneral dot_S16384x1024_S1024x10_S16384x10_1_0_0_1_n_n none (hact4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) (transpose S1024x10 [1, 0] (binW10 (V0 (Proc.devRef .tc main_arg9))) transposes_S10x1024_S1024x10_1_0) := by
  unfold val24
  simp only [p24]
  after_results_simp
  simp only [val23_main_v149, val23_main_v139] <;> rfl
set_option maxRecDepth 16384 in
set_option maxHeartbeats 800000 in
theorem val24_main_v153 (V0 : Valuation τ sig (Elt F)) : val24 V0 (no_index (Proc.devRef .tc main_v153)) = broadcastInDim S16384x10 ![0, 1] bcast_S1x10_S16384x10_0_1 (broadcastInDim S1x10 ![1] bcast_S10_S1x10_1 ((V0 (Proc.devRef .tc main_arg10)))) := by
  unfold val24
  simp only [p24]
  after_results_simp
  simp only [val23_main_arg10] <;> rfl

end Cert.RefSide

end
-- ==== Proof.RefVals3.lean ====
/-
  What the buffers hold after the pieces 25 … 26 of the reference's straight line, from any
  contents `V0`: each buffer still needed later at its stage's function of the argument arrays
  (RefStages), every other buffer untouched.
-/
import proofs.«157065_j74259984548393_2_alg».proof.Proof.RefVals2

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 25 pieces. -/
def val25 (V0 : Valuation τ sig (Elt F)) : Valuation τ sig (Elt F) := after p25 (val24 V0)
/-- A buffer that piece 25 does not write keeps its contents through it. -/
theorem val25_keep (V0 : Valuation τ sig (Elt F)) (r : Ref sig .tc) (h : r ∉ p25_W) :
    val25 V0 (Proc.devRef .tc r) = val24 V0 (Proc.devRef .tc r) :=
  after_of_writes_sub p25 _ p25_writes h
theorem val25_main_arg0 (V0 : Valuation τ sig (Elt F)) : val25 V0 (no_index (Proc.devRef .tc main_arg0)) = (V0 (Proc.devRef .tc main_arg0)) :=
  (val25_keep V0 main_arg0 (by decide)).trans (val24_main_arg0 V0)
theorem val25_main_arg1 (V0 : Valuation τ sig (Elt F)) : val25 V0 (no_index (Proc.devRef .tc main_arg1)) = (V0 (Proc.devRef .tc main_arg1)) :=
  (val25_keep V0 main_arg1 (by decide)).trans (val24_main_arg1 V0)
theorem val25_main_arg2 (V0 : Valuation τ sig (Elt F)) : val25 V0 (no_index (Proc.devRef .tc main_arg2)) = (V0 (Proc.devRef .tc main_arg2)) :=
  (val25_keep V0 main_arg2 (by decide)).trans (val24_main_arg2 V0)
theorem val25_main_arg3 (V0 : Valuation τ sig (Elt F)) : val25 V0 (no_index (Proc.devRef .tc main_arg3)) = (V0 (Proc.devRef .tc main_arg3)) :=
  (val25_keep V0 main_arg3 (by decide)).trans (val24_main_arg3 V0)
theorem val25_main_arg4 (V0 : Valuation τ sig (Elt F)) : val25 V0 (no_index (Proc.devRef .tc main_arg4)) = (V0 (Proc.devRef .tc main_arg4)) :=
  (val25_keep V0 main_arg4 (by decide)).trans (val24_main_arg4 V0)
theorem val25_main_arg5 (V0 : Valuation τ sig (Elt F)) : val25 V0 (no_index (Proc.devRef .tc main_arg5)) = (V0 (Proc.devRef .tc main_arg5)) :=
  (val25_keep V0 main_arg5 (by decide)).trans (val24_main_arg5 V0)
theorem val25_main_arg6 (V0 : Valuation τ sig (Elt F)) : val25 V0 (no_index (Proc.devRef .tc main_arg6)) = (V0 (Proc.devRef .tc main_arg6)) :=
  (val25_keep V0 main_arg6 (by decide)).trans (val24_main_arg6 V0)
theorem val25_main_arg7 (V0 : Valuation τ sig (Elt F)) : val25 V0 (no_index (Proc.devRef .tc main_arg7)) = (V0 (Proc.devRef .tc main_arg7)) :=
  (val25_keep V0 main_arg7 (by decide)).trans (val24_main_arg7 V0)
theorem val25_main_arg8 (V0 : Valuation τ sig (Elt F)) : val25 V0 (no_index (Proc.devRef .tc main_arg8)) = (V0 (Proc.devRef .tc main_arg8)) :=
  (val25_keep V0 main_arg8 (by decide)).trans (val24_main_arg8 V0)
theorem val25_main_arg9 (V0 : Valuation τ sig (Elt F)) : val25 V0 (no_index (Proc.devRef .tc main_arg9)) = (V0 (Proc.devRef .tc main_arg9)) :=
  (val25_keep V0 main_arg9 (by decide)).trans (val24_main_arg9 V0)
theorem val25_main_arg10 (V0 : Valuation τ sig (Elt F)) : val25 V0 (no_index (Proc.devRef .tc main_arg10)) = (V0 (Proc.devRef .tc main_arg10)) :=
  (val25_keep V0 main_arg10 (by decide)).trans (val24_main_arg10 V0)
theorem val25_main_arg11 (V0 : Valuation τ sig (Elt F)) : val25 V0 (no_index (Proc.devRef .tc main_arg11)) = (V0 (Proc.devRef .tc main_arg11)) :=
  (val25_keep V0 main_arg11 (by decide)).trans (val24_main_arg11 V0)
theorem val25_main_arg12 (V0 : Valuation τ sig (Elt F)) : val25 V0 (no_index (Proc.devRef .tc main_arg12)) = (V0 (Proc.devRef .tc main_arg12)) :=
  (val25_keep V0 main_arg12 (by decide)).trans (val24_main_arg12 V0)
theorem val25_main_arg13 (V0 : Valuation τ sig (Elt F)) : val25 V0 (no_index (Proc.devRef .tc main_arg13)) = (V0 (Proc.devRef .tc main_arg13)) :=
  (val25_keep V0 main_arg13 (by decide)).trans (val24_main_arg13 V0)
theorem val25_main_arg14 (V0 : Valuation τ sig (Elt F)) : val25 V0 (no_index (Proc.devRef .tc main_arg14)) = (V0 (Proc.devRef .tc main_arg14)) :=
  (val25_keep V0 main_arg14 (by decide)).trans (val24_main_arg14 V0)
theorem val25_main_arg15 (V0 : Valuation τ sig (Elt F)) : val25 V0 (no_index (Proc.devRef .tc main_arg15)) = (V0 (Proc.devRef .tc main_arg15)) :=
  (val25_keep V0 main_arg15 (by decide)).trans (val24_main_arg15 V0)
theorem val25_main_arg16 (V0 : Valuation τ sig (Elt F)) : val25 V0 (no_index (Proc.devRef .tc main_arg16)) = (V0 (Proc.devRef .tc main_arg16)) :=
  (val25_keep V0 main_arg16 (by decide)).trans (val24_main_arg16 V0)
theorem val25_main_arg17 (V0 : Valuation τ sig (Elt F)) : val25 V0 (no_index (Proc.devRef .tc main_arg17)) = (V0 (Proc.devRef .tc main_arg17)) :=
  (val25_keep V0 main_arg17 (by decide)).trans (val24_main_arg17 V0)
theorem val25_main_arg18 (V0 : Valuation τ sig (Elt F)) : val25 V0 (no_index (Proc.devRef .tc main_arg18)) = (V0 (Proc.devRef .tc main_arg18)) :=
  (val25_keep V0 main_arg18 (by decide)).trans (val24_main_arg18 V0)
set_option maxRecDepth 16384 in
set_option maxHeartbeats 400000 in
theorem val25_main_v154 (V0 : Valuation τ sig (Elt F)) : val25 V0 (no_index (Proc.devRef .tc main_v154)) = logits (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold val25
  simp only [p25]
  after_results_simp
  simp only [val24_main_v153, val24_main_v151] <;> rfl

/-- The device's buffer contents after the first 26 pieces. -/
def val26 (V0 : Valuation τ sig (Elt F)) : Valuation τ sig (Elt F) := after p26 (val25 V0)
/-- A buffer that piece 26 does not write keeps its contents through it. -/
theorem val26_keep (V0 : Valuation τ sig (Elt F)) (r : Ref sig .tc) (h : r ∉ p26_W) :
    val26 V0 (Proc.devRef .tc r) = val25 V0 (Proc.devRef .tc r) :=
  after_of_writes_sub p26 _ p26_writes h
theorem val26_main_arg0 (V0 : Valuation τ sig (Elt F)) : val26 V0 (no_index (Proc.devRef .tc main_arg0)) = (V0 (Proc.devRef .tc main_arg0)) :=
  (val26_keep V0 main_arg0 (by decide)).trans (val25_main_arg0 V0)
theorem val26_main_arg1 (V0 : Valuation τ sig (Elt F)) : val26 V0 (no_index (Proc.devRef .tc main_arg1)) = (V0 (Proc.devRef .tc main_arg1)) :=
  (val26_keep V0 main_arg1 (by decide)).trans (val25_main_arg1 V0)
theorem val26_main_arg2 (V0 : Valuation τ sig (Elt F)) : val26 V0 (no_index (Proc.devRef .tc main_arg2)) = (V0 (Proc.devRef .tc main_arg2)) :=
  (val26_keep V0 main_arg2 (by decide)).trans (val25_main_arg2 V0)
theorem val26_main_arg3 (V0 : Valuation τ sig (Elt F)) : val26 V0 (no_index (Proc.devRef .tc main_arg3)) = (V0 (Proc.devRef .tc main_arg3)) :=
  (val26_keep V0 main_arg3 (by decide)).trans (val25_main_arg3 V0)
theorem val26_main_arg4 (V0 : Valuation τ sig (Elt F)) : val26 V0 (no_index (Proc.devRef .tc main_arg4)) = (V0 (Proc.devRef .tc main_arg4)) :=
  (val26_keep V0 main_arg4 (by decide)).trans (val25_main_arg4 V0)
theorem val26_main_arg5 (V0 : Valuation τ sig (Elt F)) : val26 V0 (no_index (Proc.devRef .tc main_arg5)) = (V0 (Proc.devRef .tc main_arg5)) :=
  (val26_keep V0 main_arg5 (by decide)).trans (val25_main_arg5 V0)
theorem val26_main_arg6 (V0 : Valuation τ sig (Elt F)) : val26 V0 (no_index (Proc.devRef .tc main_arg6)) = (V0 (Proc.devRef .tc main_arg6)) :=
  (val26_keep V0 main_arg6 (by decide)).trans (val25_main_arg6 V0)
theorem val26_main_arg7 (V0 : Valuation τ sig (Elt F)) : val26 V0 (no_index (Proc.devRef .tc main_arg7)) = (V0 (Proc.devRef .tc main_arg7)) :=
  (val26_keep V0 main_arg7 (by decide)).trans (val25_main_arg7 V0)
theorem val26_main_arg8 (V0 : Valuation τ sig (Elt F)) : val26 V0 (no_index (Proc.devRef .tc main_arg8)) = (V0 (Proc.devRef .tc main_arg8)) :=
  (val26_keep V0 main_arg8 (by decide)).trans (val25_main_arg8 V0)
theorem val26_main_arg9 (V0 : Valuation τ sig (Elt F)) : val26 V0 (no_index (Proc.devRef .tc main_arg9)) = (V0 (Proc.devRef .tc main_arg9)) :=
  (val26_keep V0 main_arg9 (by decide)).trans (val25_main_arg9 V0)
theorem val26_main_arg10 (V0 : Valuation τ sig (Elt F)) : val26 V0 (no_index (Proc.devRef .tc main_arg10)) = (V0 (Proc.devRef .tc main_arg10)) :=
  (val26_keep V0 main_arg10 (by decide)).trans (val25_main_arg10 V0)
theorem val26_main_arg11 (V0 : Valuation τ sig (Elt F)) : val26 V0 (no_index (Proc.devRef .tc main_arg11)) = (V0 (Proc.devRef .tc main_arg11)) :=
  (val26_keep V0 main_arg11 (by decide)).trans (val25_main_arg11 V0)
theorem val26_main_arg12 (V0 : Valuation τ sig (Elt F)) : val26 V0 (no_index (Proc.devRef .tc main_arg12)) = (V0 (Proc.devRef .tc main_arg12)) :=
  (val26_keep V0 main_arg12 (by decide)).trans (val25_main_arg12 V0)
theorem val26_main_arg13 (V0 : Valuation τ sig (Elt F)) : val26 V0 (no_index (Proc.devRef .tc main_arg13)) = (V0 (Proc.devRef .tc main_arg13)) :=
  (val26_keep V0 main_arg13 (by decide)).trans (val25_main_arg13 V0)
theorem val26_main_arg14 (V0 : Valuation τ sig (Elt F)) : val26 V0 (no_index (Proc.devRef .tc main_arg14)) = (V0 (Proc.devRef .tc main_arg14)) :=
  (val26_keep V0 main_arg14 (by decide)).trans (val25_main_arg14 V0)
theorem val26_main_arg15 (V0 : Valuation τ sig (Elt F)) : val26 V0 (no_index (Proc.devRef .tc main_arg15)) = (V0 (Proc.devRef .tc main_arg15)) :=
  (val26_keep V0 main_arg15 (by decide)).trans (val25_main_arg15 V0)
theorem val26_main_arg16 (V0 : Valuation τ sig (Elt F)) : val26 V0 (no_index (Proc.devRef .tc main_arg16)) = (V0 (Proc.devRef .tc main_arg16)) :=
  (val26_keep V0 main_arg16 (by decide)).trans (val25_main_arg16 V0)
theorem val26_main_arg17 (V0 : Valuation τ sig (Elt F)) : val26 V0 (no_index (Proc.devRef .tc main_arg17)) = (V0 (Proc.devRef .tc main_arg17)) :=
  (val26_keep V0 main_arg17 (by decide)).trans (val25_main_arg17 V0)
theorem val26_main_arg18 (V0 : Valuation τ sig (Elt F)) : val26 V0 (no_index (Proc.devRef .tc main_arg18)) = (V0 (Proc.devRef .tc main_arg18)) :=
  (val26_keep V0 main_arg18 (by decide)).trans (val25_main_arg18 V0)
attribute [local irreducible] Host.reduce Host.reduceAdd in
set_option maxRecDepth 65536 in
set_option maxHeartbeats 3000000 in
theorem val26_main_v155 (V0 : Valuation τ sig (Elt F)) : val26 V0 (no_index (Proc.devRef .tc main_v155)) = tail (logits (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))) := by
  unfold val26
  simp only [p26]
  after_results_simp
  simp only [val25_main_v154] <;> rfl

end Cert.RefSide

end
-- ==== Proof.RefRun.lean ====
/-
  The reference's run: from any memory with zero counters every weakly fair execution of @main
  terminates with the result buffer at the log-softmax of the logits of the argument arrays
  (RefStages) and the argument arrays unchanged; hence the reference's frame claim.
-/
import proofs.«157065_j74259984548393_2_alg».proof.Proof.RefMain
import proofs.«157065_j74259984548393_2_alg».proof.Proof.RefVals3
import proofs.«157065_j74259984548393_2_alg».proof.Defs
import proofs.«157065_j74259984548393_2_alg».proof.Proof.Gen.Pre_finite_inputs
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem after_ops (V0 : Valuation τ sig (Elt F)) : after ops V0 = val26 V0 := by
  simp only [ops, w0, w1, w2, w3, after_append]
  rfl

/-- On every device, for any float values, from any memory with zero counters: every weakly fair execution of
    @main terminates with the result at the log-softmax of the logits of the arguments, the arguments unchanged. -/
theorem run_any (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155) = tail (logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v155).trans (by simp only [after_ops]; exact val26_main_v155 (launchContents m c)),
      (h c main_arg0).trans (by simp only [after_ops]; exact val26_main_arg0 (launchContents m c)),
      (h c main_arg1).trans (by simp only [after_ops]; exact val26_main_arg1 (launchContents m c)),
      (h c main_arg2).trans (by simp only [after_ops]; exact val26_main_arg2 (launchContents m c)),
      (h c main_arg3).trans (by simp only [after_ops]; exact val26_main_arg3 (launchContents m c)),
      (h c main_arg4).trans (by simp only [after_ops]; exact val26_main_arg4 (launchContents m c)),
      (h c main_arg5).trans (by simp only [after_ops]; exact val26_main_arg5 (launchContents m c)),
      (h c main_arg6).trans (by simp only [after_ops]; exact val26_main_arg6 (launchContents m c)),
      (h c main_arg7).trans (by simp only [after_ops]; exact val26_main_arg7 (launchContents m c)),
      (h c main_arg8).trans (by simp only [after_ops]; exact val26_main_arg8 (launchContents m c)),
      (h c main_arg9).trans (by simp only [after_ops]; exact val26_main_arg9 (launchContents m c)),
      (h c main_arg10).trans (by simp only [after_ops]; exact val26_main_arg10 (launchContents m c)),
      (h c main_arg11).trans (by simp only [after_ops]; exact val26_main_arg11 (launchContents m c)),
      (h c main_arg12).trans (by simp only [after_ops]; exact val26_main_arg12 (launchContents m c)),
      (h c main_arg13).trans (by simp only [after_ops]; exact val26_main_arg13 (launchContents m c)),
      (h c main_arg14).trans (by simp only [after_ops]; exact val26_main_arg14 (launchContents m c)),
      (h c main_arg15).trans (by simp only [after_ops]; exact val26_main_arg15 (launchContents m c)),
      (h c main_arg16).trans (by simp only [after_ops]; exact val26_main_arg16 (launchContents m c)),
      (h c main_arg17).trans (by simp only [after_ops]; exact val26_main_arg17 (launchContents m c)),
      (h c main_arg18).trans (by simp only [after_ops]; exact val26_main_arg18 (launchContents m c))⟩)
    (run_seq scopedRefs_eq scopedSems_eq defs main (fun _ => ops) main_eq (fun _ => ops_sub) m ρ (fun _ => ops_fresh))

/-- The same at the extended reals, spelled as the certificate's claims spell the reference's run. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v155) = tail (F := Ideal) (logits (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)) :=
  run_any (F := Ideal) m ρ

/-- The reference runs and leaves its argument arrays unchanged. -/
theorem frame_ri : Cert.frame_ReferenceIdeal := fun m ρ _ =>
  (θ_run Cert.ReferenceIdeal.defs _ _).mono (fun _ h c => (h c).2) (run m ρ)

end Cert.RefSide

end
-- ==== Proof.SpecConsts.lean ====
/-
  The four float constants of the network's statistics, as the real numbers their patterns denote.
-/
import proofs.«157065_j74259984548393_2_alg».proof.Proof.SpecArgs

noncomputable section

namespace Cert.Spec

open Idealize.ShloMosaic

/-- The number of rows: the pattern denotes `2 ^ 14 = 16384`. -/
theorem cB_eq : cB = ((16384 : ℝ) : EReal) := by
  simp [cB, Ideal.ofBits, Ideal.ieee, -EReal.coe_mul]; norm_num

/-- The length of a first-layer weight row: the pattern denotes `784`. -/
theorem c784_eq : c784 = ((784 : ℝ) : EReal) := by
  simp [c784, Ideal.ofBits, Ideal.ieee, -EReal.coe_mul]; norm_num

/-- The length of the other weight rows: the pattern denotes `2 ^ 10 = 1024`. -/
theorem c1024_eq : c1024 = ((1024 : ℝ) : EReal) := by
  simp [c1024, Ideal.ofBits, Ideal.ieee, -EReal.coe_mul]; norm_num

/-- The constant added to the variance: the pattern denotes `10995116 · 2 ^ (-40)`, a positive real. -/
theorem eps_eq : eps = (((10995116 : ℝ) * (2 : ℝ) ^ (-40 : ℤ) : ℝ) : EReal) := by
  simp [eps, Ideal.ofBits, Ideal.ieee, -EReal.coe_mul]

theorem eps_pos : ∃ e : ℝ, 0 < e ∧ eps = (e : EReal) :=
  ⟨_, by positivity, eps_eq⟩

end Cert.Spec

end
-- ==== Proof.RefValue.lean ====
/-
  The reference's logits read index by index: each stage of RefStages at an index is the textbook
  formula of Spec (binarised weights `w + (sign w · α − w)`, the linear layer, the column mean, the
  mean squared deviation, normalise-scale-shift-rectify), and the five layers chained are `h5R`.
-/
import proofs.«157065_j74259984548393_2_alg».proof.Proof.RefStages
import proofs.«157065_j74259984548393_2_alg».proof.Proof.SpecConsts
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx Idealize.SL.Sem

/-! ## The operations at an index -/

theorem hdivf_apply {s : Shape} {φ : FTy} (a b : FVec Ideal s φ) (i : s.Idx) : Host.divf a b i = Ideal.div (a i) (b i) := rfl
theorem hsign_apply {s : Shape} {φ : FTy} (a : FVec Ideal s φ) (i : s.Idx) : Host.sign a i = Ideal.sign (a i) := rfl
theorem habsf_apply {s : Shape} {φ : FTy} (a : FVec Ideal s φ) (i : s.Idx) : Host.absf a i = max (a i) (-(a i)) := rfl
theorem hrsqrt_apply {s : Shape} {φ : FTy} (a : FVec Ideal s φ) (i : s.Idx) : Host.rsqrt a i = Ideal.rsqrt (a i) := rfl
theorem constantI_apply {s : Shape} {w : Nat} (b : BitVec w) (i : s.Idx) : constantI s w b i = b := rfl

/-- A scalar broadcast to any shape reads the scalar everywhere. -/
theorem bscalar {t : Shape} {α : Type} (h : S_.BroadcastsInDim t ![]) (c : S_.Idx → α) (j : t.Idx) :
    @broadcastInDim (no_index S_) (no_index α) (no_index t) (no_index ![]) h c j = c ix0 :=
  broadcastInDim_apply _ h c j ix0 (fun a => a.elim0)

theorem brow_16384x1024 {α : Type} (x : S1024.Idx → α) (i : Fin 16384) (j : Fin 1024) :
    @broadcastInDim (no_index S1x1024) (no_index α) (no_index S16384x1024) (no_index ![0, 1]) bcast_S1x1024_S16384x1024_0_1
      (@broadcastInDim (no_index S1024) (no_index α) (no_index S1x1024) (no_index ![1]) bcast_S1024_S1x1024_1 x) (ix2 i j) = x (ix1 j) :=
  (broadcastInDim_apply _ _ _ (ix2 i j) (ix2 (0 : Fin 1) j) (fun a => match a with | ⟨0, _⟩ => rfl | ⟨1, _⟩ => rfl)).trans
    (broadcastInDim_apply _ _ x (ix2 (0 : Fin 1) j) (ix1 j) (fun a => match a with | ⟨0, _⟩ => rfl))

theorem brow_16384x10 {α : Type} (x : S10.Idx → α) (i : Fin 16384) (j : Fin 10) :
    @broadcastInDim (no_index S1x10) (no_index α) (no_index S16384x10) (no_index ![0, 1]) bcast_S1x10_S16384x10_0_1
      (@broadcastInDim (no_index S10) (no_index α) (no_index S1x10) (no_index ![1]) bcast_S10_S1x10_1 x) (ix2 i j) = x (ix1 j) :=
  (broadcastInDim_apply _ _ _ (ix2 i j) (ix2 (0 : Fin 1) j) (fun a => match a with | ⟨0, _⟩ => rfl | ⟨1, _⟩ => rfl)).trans
    (broadcastInDim_apply _ _ x (ix2 (0 : Fin 1) j) (ix1 j) (fun a => match a with | ⟨0, _⟩ => rfl))

/-- A row vector broadcast down the rows after a division by a broadcast scalar, read at an index. -/
theorem browdiv (x : FVec Ideal S1024 .f32) (c : FVec Ideal S_ .f32) (i : Fin 16384) (j : Fin 1024) :
    @broadcastInDim (no_index S1x1024) (no_index _) (no_index S16384x1024) (no_index ![0, 1]) bcast_S1x1024_S16384x1024_0_1
      (Host.divf (F := Ideal) (@broadcastInDim (no_index S1024) (no_index _) (no_index S1x1024) (no_index ![1]) bcast_S1024_S1x1024_1 x)
        (@broadcastInDim (no_index S_) (no_index _) (no_index S1x1024) (no_index ![]) bcast_S_S1x1024 c)) (ix2 i j)
      = Ideal.div (x (ix1 j)) (c ix0) := by
  refine (broadcastInDim_apply _ _ _ (ix2 i j) (ix2 (0 : Fin 1) j) (fun a => match a with | ⟨0, _⟩ => rfl | ⟨1, _⟩ => rfl)).trans ?_
  rw [hdivf_apply, broadcastInDim_apply _ _ x (ix2 (0 : Fin 1) j) (ix1 j) (fun a => match a with | ⟨0, _⟩ => rfl),
    broadcastInDim_apply _ _ c (ix2 (0 : Fin 1) j) ix0 (fun a => a.elim0)]

theorem bcol_1024x784 (x : FVec Ideal S1024 .f32) (c : FVec Ideal S_ .f32) (r : Fin 1024) (k : Fin 784) :
    @broadcastInDim (no_index S1024x1) (no_index _) (no_index S1024x784) (no_index ![0, 1]) bcast_S1024x1_S1024x784_0_1
      (Host.divf (F := Ideal) (@broadcastInDim (no_index S1024) (no_index _) (no_index S1024x1) (no_index ![0]) bcast_S1024_S1024x1_0 x)
        (@broadcastInDim (no_index S_) (no_index _) (no_index S1024x1) (no_index ![]) bcast_S_S1024x1 c)) (ix2 r k)
      = Ideal.div (x (ix1 r)) (c ix0) := by
  refine (broadcastInDim_apply _ _ _ (ix2 r k) (ix2 r (0 : Fin 1)) (fun a => match a with | ⟨0, _⟩ => rfl | ⟨1, _⟩ => rfl)).trans ?_
  rw [hdivf_apply, broadcastInDim_apply _ _ x (ix2 r (0 : Fin 1)) (ix1 r) (fun a => match a with | ⟨0, _⟩ => rfl),
    broadcastInDim_apply _ _ c (ix2 r (0 : Fin 1)) ix0 (fun a => a.elim0)]

theorem bcol_1024x1024 (x : FVec Ideal S1024 .f32) (c : FVec Ideal S_ .f32) (r : Fin 1024) (k : Fin 1024) :
    @broadcastInDim (no_index S1024x1) (no_index _) (no_index S1024x1024) (no_index ![0, 1]) bcast_S1024x1_S1024x1024_0_1
      (Host.divf (F := Ideal) (@broadcastInDim (no_index S1024) (no_index _) (no_index S1024x1) (no_index ![0]) bcast_S1024_S1024x1_0 x)
        (@broadcastInDim (no_index S_) (no_index _) (no_index S1024x1) (no_index ![]) bcast_S_S1024x1 c)) (ix2 r k)
      = Ideal.div (x (ix1 r)) (c ix0) := by
  refine (broadcastInDim_apply _ _ _ (ix2 r k) (ix2 r (0 : Fin 1)) (fun a => match a with | ⟨0, _⟩ => rfl | ⟨1, _⟩ => rfl)).trans ?_
  rw [hdivf_apply, broadcastInDim_apply _ _ x (ix2 r (0 : Fin 1)) (ix1 r) (fun a => match a with | ⟨0, _⟩ => rfl),
    broadcastInDim_apply _ _ c (ix2 r (0 : Fin 1)) ix0 (fun a => a.elim0)]

theorem bcol_10x1024 (x : FVec Ideal S10 .f32) (c : FVec Ideal S_ .f32) (r : Fin 10) (k : Fin 1024) :
    @broadcastInDim (no_index S10x1) (no_index _) (no_index S10x1024) (no_index ![0, 1]) bcast_S10x1_S10x1024_0_1
      (Host.divf (F := Ideal) (@broadcastInDim (no_index S10) (no_index _) (no_index S10x1) (no_index ![0]) bcast_S10_S10x1_0 x)
        (@broadcastInDim (no_index S_) (no_index _) (no_index S10x1) (no_index ![]) bcast_S_S10x1 c)) (ix2 r k)
      = Ideal.div (x (ix1 r)) (c ix0) := by
  refine (broadcastInDim_apply _ _ _ (ix2 r k) (ix2 r (0 : Fin 1)) (fun a => match a with | ⟨0, _⟩ => rfl | ⟨1, _⟩ => rfl)).trans ?_
  rw [hdivf_apply, broadcastInDim_apply _ _ x (ix2 r (0 : Fin 1)) (ix1 r) (fun a => match a with | ⟨0, _⟩ => rfl),
    broadcastInDim_apply _ _ c (ix2 r (0 : Fin 1)) ix0 (fun a => a.elim0)]

theorem btr_1024x784 {α : Type} (x : S1024x784.Idx → α) (k : Fin 784) (j : Fin 1024) :
    @transpose (no_index S1024x784) (no_index α) (no_index S784x1024) (no_index [1, 0]) x transposes_S1024x784_S784x1024_1_0 (ix2 k j) = x (ix2 j k) :=
  transpose_apply _ x _ (ix2 k j) (ix2 j k) (fun a => match a with | ⟨0, _⟩ => rfl | ⟨1, _⟩ => rfl)

theorem btr_1024x1024 {α : Type} (x : S1024x1024.Idx → α) (k : Fin 1024) (j : Fin 1024) :
    @transpose (no_index S1024x1024) (no_index α) (no_index S1024x1024) (no_index [1, 0]) x transposes_S1024x1024_S1024x1024_1_0 (ix2 k j) = x (ix2 j k) :=
  transpose_apply _ x _ (ix2 k j) (ix2 j k) (fun a => match a with | ⟨0, _⟩ => rfl | ⟨1, _⟩ => rfl)

theorem btr_10x1024 {α : Type} (x : S10x1024.Idx → α) (k : Fin 1024) (j : Fin 10) :
    @transpose (no_index S10x1024) (no_index α) (no_index S1024x10) (no_index [1, 0]) x transposes_S10x1024_S1024x10_1_0 (ix2 k j) = x (ix2 j k) :=
  transpose_apply _ x _ (ix2 k j) (ix2 j k) (fun a => match a with | ⟨0, _⟩ => rfl | ⟨1, _⟩ => rfl)

theorem hsum_r1024x784 (x : FVec Ideal S1024x784 .f32) (c : FVec Ideal S_ .f32) (r : Fin 1024) :
    Host.reduceAdd (F := Ideal) x c reducesTo_S1024x784_S1024_d1 h_S_ (ix1 r) = c ix0 + ∑ k : Fin 784, x (ix2 r k) := by
  simp only [Host.reduceAdd, Ideal.hostReduceAdd_def]
  rw [Ideal.hostReduceAdd_single reducesTo_S1024x784_S1024_d1 (by decide)]
  refine congr (congrArg _ (congrArg c (eq_ix0 _))) (Finset.sum_congr rfl fun k _ => ?_)
  exact congrArg x (funext fun a => Fin.ext (by match a with | ⟨0, _⟩ => rfl | ⟨1, _⟩ => rfl))

theorem hsum_r1024x1024 (x : FVec Ideal S1024x1024 .f32) (c : FVec Ideal S_ .f32) (r : Fin 1024) :
    Host.reduceAdd (F := Ideal) x c reducesTo_S1024x1024_S1024_d1 h_S_ (ix1 r) = c ix0 + ∑ k : Fin 1024, x (ix2 r k) := by
  simp only [Host.reduceAdd, Ideal.hostReduceAdd_def]
  rw [Ideal.hostReduceAdd_single reducesTo_S1024x1024_S1024_d1 (by decide)]
  refine congr (congrArg _ (congrArg c (eq_ix0 _))) (Finset.sum_congr rfl fun k _ => ?_)
  exact congrArg x (funext fun a => Fin.ext (by match a with | ⟨0, _⟩ => rfl | ⟨1, _⟩ => rfl))

theorem hsum_r10x1024 (x : FVec Ideal S10x1024 .f32) (c : FVec Ideal S_ .f32) (r : Fin 10) :
    Host.reduceAdd (F := Ideal) x c reducesTo_S10x1024_S10_d1 h_S_ (ix1 r) = c ix0 + ∑ k : Fin 1024, x (ix2 r k) := by
  simp only [Host.reduceAdd, Ideal.hostReduceAdd_def]
  rw [Ideal.hostReduceAdd_single reducesTo_S10x1024_S10_d1 (by decide)]
  refine congr (congrArg _ (congrArg c (eq_ix0 _))) (Finset.sum_congr rfl fun k _ => ?_)
  exact congrArg x (funext fun a => Fin.ext (by match a with | ⟨0, _⟩ => rfl | ⟨1, _⟩ => rfl))

theorem hsum_c (x : FVec Ideal S16384x1024 .f32) (c : FVec Ideal S_ .f32) (j : Fin 1024) :
    Host.reduceAdd (F := Ideal) x c reducesTo_S16384x1024_S1024_d0 h_S_ (ix1 j) = c ix0 + ∑ k : Fin 16384, x (ix2 k j) := by
  simp only [Host.reduceAdd, Ideal.hostReduceAdd_def]
  rw [Ideal.hostReduceAdd_single reducesTo_S16384x1024_S1024_d0 (by decide)]
  refine congr (congrArg _ (congrArg c (eq_ix0 _))) (Finset.sum_congr rfl fun k _ => ?_)
  exact congrArg x (funext fun a => Fin.ext (by match a with | ⟨0, _⟩ => rfl | ⟨1, _⟩ => rfl))

theorem dot_16384x784x1024_l0 (i : S16384x1024.Idx) (q : dot_S16384x784_S784x1024_S16384x1024_1_0_0_1_n_n.contr.Idx) : (dot_S16384x784_S784x1024_S16384x1024_1_0_0_1_n_n.lhsIdx i q 0).val = (i 0).val := by
  unfold DotDims.lhsIdx
  rw [dif_neg (show ¬(0 : Fin S16384x784.rank) ∈ dot_S16384x784_S784x1024_S16384x1024_1_0_0_1_n_n.lhsBatch by decide), dif_pos (show (0 : Fin S16384x784.rank) ∈ dot_S16384x784_S784x1024_S16384x1024_1_0_0_1_n_n.lhsNonContracting by decide)]
  rfl
theorem dot_16384x784x1024_l1 (i : S16384x1024.Idx) (q : dot_S16384x784_S784x1024_S16384x1024_1_0_0_1_n_n.contr.Idx) : (dot_S16384x784_S784x1024_S16384x1024_1_0_0_1_n_n.lhsIdx i q 1).val = (q ⟨0, by decide⟩).val :=
  dot_S16384x784_S784x1024_S16384x1024_1_0_0_1_n_n.lhsIdx_val_of_single rfl i q
theorem dot_16384x784x1024_r0 (i : S16384x1024.Idx) (q : dot_S16384x784_S784x1024_S16384x1024_1_0_0_1_n_n.contr.Idx) : (dot_S16384x784_S784x1024_S16384x1024_1_0_0_1_n_n.rhsIdx i q 0).val = (q ⟨0, by decide⟩).val :=
  dot_S16384x784_S784x1024_S16384x1024_1_0_0_1_n_n.rhsIdx_val_of_single rfl i q
theorem dot_16384x784x1024_r1 (i : S16384x1024.Idx) (q : dot_S16384x784_S784x1024_S16384x1024_1_0_0_1_n_n.contr.Idx) : (dot_S16384x784_S784x1024_S16384x1024_1_0_0_1_n_n.rhsIdx i q 1).val = (i 1).val := by
  unfold DotDims.rhsIdx
  rw [dif_neg (show ¬(1 : Fin S784x1024.rank) ∈ dot_S16384x784_S784x1024_S16384x1024_1_0_0_1_n_n.rhsBatch by decide), dif_pos (show (1 : Fin S784x1024.rank) ∈ dot_S16384x784_S784x1024_S16384x1024_1_0_0_1_n_n.rhsNonContracting by decide)]
  rfl
/-- The host's contraction read at an index: the row of the left operand against the column of the right one. -/
theorem dot_16384x784x1024 (l : FVec Ideal S16384x784 .f32) (r : FVec Ideal S784x1024 .f32) (i : Fin 16384) (j : Fin 1024) :
    Host.dotGeneral (F := Ideal) dot_S16384x784_S784x1024_S16384x1024_1_0_0_1_n_n none l r (ix2 i j) = ∑ k : Fin 784, l (ix2 i k) * r (ix2 k j) := by
  simp only [Host.dotGeneral]
  rw [Ideal.dotGeneral_apply, ← Equiv.sum_comp (contrEquiv1 dot_S16384x784_S784x1024_S16384x1024_1_0_0_1_n_n 784 rfl rfl).symm]
  refine Finset.sum_congr rfl fun k _ => ?_
  have hk := contrEquiv1_symm_val dot_S16384x784_S784x1024_S16384x1024_1_0_0_1_n_n 784 rfl rfl k
  have el : dot_S16384x784_S784x1024_S16384x1024_1_0_0_1_n_n.lhsIdx (ix2 i j) ((contrEquiv1 dot_S16384x784_S784x1024_S16384x1024_1_0_0_1_n_n 784 rfl rfl).symm k) = ix2 i k := funext fun a => Fin.ext (by
    match a with
    | ⟨0, _⟩ => exact dot_16384x784x1024_l0 _ _
    | ⟨1, _⟩ => exact (dot_16384x784x1024_l1 _ _).trans hk)
  have er : dot_S16384x784_S784x1024_S16384x1024_1_0_0_1_n_n.rhsIdx (ix2 i j) ((contrEquiv1 dot_S16384x784_S784x1024_S16384x1024_1_0_0_1_n_n 784 rfl rfl).symm k) = ix2 k j := funext fun a => Fin.ext (by
    match a with
    | ⟨0, _⟩ => exact (dot_16384x784x1024_r0 _ _).trans hk
    | ⟨1, _⟩ => exact dot_16384x784x1024_r1 _ _)
  rw [el, er]

theorem dot_16384x1024x1024_l0 (i : S16384x1024.Idx) (q : dot_S16384x1024_S1024x1024_S16384x1024_1_0_0_1_n_n.contr.Idx) : (dot_S16384x1024_S1024x1024_S16384x1024_1_0_0_1_n_n.lhsIdx i q 0).val = (i 0).val := by
  unfold DotDims.lhsIdx
  rw [dif_neg (show ¬(0 : Fin S16384x1024.rank) ∈ dot_S16384x1024_S1024x1024_S16384x1024_1_0_0_1_n_n.lhsBatch by decide), dif_pos (show (0 : Fin S16384x1024.rank) ∈ dot_S16384x1024_S1024x1024_S16384x1024_1_0_0_1_n_n.lhsNonContracting by decide)]
  rfl
theorem dot_16384x1024x1024_l1 (i : S16384x1024.Idx) (q : dot_S16384x1024_S1024x1024_S16384x1024_1_0_0_1_n_n.contr.Idx) : (dot_S16384x1024_S1024x1024_S16384x1024_1_0_0_1_n_n.lhsIdx i q 1).val = (q ⟨0, by decide⟩).val :=
  dot_S16384x1024_S1024x1024_S16384x1024_1_0_0_1_n_n.lhsIdx_val_of_single rfl i q
theorem dot_16384x1024x1024_r0 (i : S16384x1024.Idx) (q : dot_S16384x1024_S1024x1024_S16384x1024_1_0_0_1_n_n.contr.Idx) : (dot_S16384x1024_S1024x1024_S16384x1024_1_0_0_1_n_n.rhsIdx i q 0).val = (q ⟨0, by decide⟩).val :=
  dot_S16384x1024_S1024x1024_S16384x1024_1_0_0_1_n_n.rhsIdx_val_of_single rfl i q
theorem dot_16384x1024x1024_r1 (i : S16384x1024.Idx) (q : dot_S16384x1024_S1024x1024_S16384x1024_1_0_0_1_n_n.contr.Idx) : (dot_S16384x1024_S1024x1024_S16384x1024_1_0_0_1_n_n.rhsIdx i q 1).val = (i 1).val := by
  unfold DotDims.rhsIdx
  rw [dif_neg (show ¬(1 : Fin S1024x1024.rank) ∈ dot_S16384x1024_S1024x1024_S16384x1024_1_0_0_1_n_n.rhsBatch by decide), dif_pos (show (1 : Fin S1024x1024.rank) ∈ dot_S16384x1024_S1024x1024_S16384x1024_1_0_0_1_n_n.rhsNonContracting by decide)]
  rfl
/-- The host's contraction read at an index: the row of the left operand against the column of the right one. -/
theorem dot_16384x1024x1024 (l : FVec Ideal S16384x1024 .f32) (r : FVec Ideal S1024x1024 .f32) (i : Fin 16384) (j : Fin 1024) :
    Host.dotGeneral (F := Ideal) dot_S16384x1024_S1024x1024_S16384x1024_1_0_0_1_n_n none l r (ix2 i j) = ∑ k : Fin 1024, l (ix2 i k) * r (ix2 k j) := by
  simp only [Host.dotGeneral]
  rw [Ideal.dotGeneral_apply, ← Equiv.sum_comp (contrEquiv1 dot_S16384x1024_S1024x1024_S16384x1024_1_0_0_1_n_n 1024 rfl rfl).symm]
  refine Finset.sum_congr rfl fun k _ => ?_
  have hk := contrEquiv1_symm_val dot_S16384x1024_S1024x1024_S16384x1024_1_0_0_1_n_n 1024 rfl rfl k
  have el : dot_S16384x1024_S1024x1024_S16384x1024_1_0_0_1_n_n.lhsIdx (ix2 i j) ((contrEquiv1 dot_S16384x1024_S1024x1024_S16384x1024_1_0_0_1_n_n 1024 rfl rfl).symm k) = ix2 i k := funext fun a => Fin.ext (by
    match a with
    | ⟨0, _⟩ => exact dot_16384x1024x1024_l0 _ _
    | ⟨1, _⟩ => exact (dot_16384x1024x1024_l1 _ _).trans hk)
  have er : dot_S16384x1024_S1024x1024_S16384x1024_1_0_0_1_n_n.rhsIdx (ix2 i j) ((contrEquiv1 dot_S16384x1024_S1024x1024_S16384x1024_1_0_0_1_n_n 1024 rfl rfl).symm k) = ix2 k j := funext fun a => Fin.ext (by
    match a with
    | ⟨0, _⟩ => exact (dot_16384x1024x1024_r0 _ _).trans hk
    | ⟨1, _⟩ => exact dot_16384x1024x1024_r1 _ _)
  rw [el, er]

theorem dot_16384x1024x10_l0 (i : S16384x10.Idx) (q : dot_S16384x1024_S1024x10_S16384x10_1_0_0_1_n_n.contr.Idx) : (dot_S16384x1024_S1024x10_S16384x10_1_0_0_1_n_n.lhsIdx i q 0).val = (i 0).val := by
  unfold DotDims.lhsIdx
  rw [dif_neg (show ¬(0 : Fin S16384x1024.rank) ∈ dot_S16384x1024_S1024x10_S16384x10_1_0_0_1_n_n.lhsBatch by decide), dif_pos (show (0 : Fin S16384x1024.rank) ∈ dot_S16384x1024_S1024x10_S16384x10_1_0_0_1_n_n.lhsNonContracting by decide)]
  rfl
theorem dot_16384x1024x10_l1 (i : S16384x10.Idx) (q : dot_S16384x1024_S1024x10_S16384x10_1_0_0_1_n_n.contr.Idx) : (dot_S16384x1024_S1024x10_S16384x10_1_0_0_1_n_n.lhsIdx i q 1).val = (q ⟨0, by decide⟩).val :=
  dot_S16384x1024_S1024x10_S16384x10_1_0_0_1_n_n.lhsIdx_val_of_single rfl i q
theorem dot_16384x1024x10_r0 (i : S16384x10.Idx) (q : dot_S16384x1024_S1024x10_S16384x10_1_0_0_1_n_n.contr.Idx) : (dot_S16384x1024_S1024x10_S16384x10_1_0_0_1_n_n.rhsIdx i q 0).val = (q ⟨0, by decide⟩).val :=
  dot_S16384x1024_S1024x10_S16384x10_1_0_0_1_n_n.rhsIdx_val_of_single rfl i q
theorem dot_16384x1024x10_r1 (i : S16384x10.Idx) (q : dot_S16384x1024_S1024x10_S16384x10_1_0_0_1_n_n.contr.Idx) : (dot_S16384x1024_S1024x10_S16384x10_1_0_0_1_n_n.rhsIdx i q 1).val = (i 1).val := by
  unfold DotDims.rhsIdx
  rw [dif_neg (show ¬(1 : Fin S1024x10.rank) ∈ dot_S16384x1024_S1024x10_S16384x10_1_0_0_1_n_n.rhsBatch by decide), dif_pos (show (1 : Fin S1024x10.rank) ∈ dot_S16384x1024_S1024x10_S16384x10_1_0_0_1_n_n.rhsNonContracting by decide)]
  rfl
/-- The host's contraction read at an index: the row of the left operand against the column of the right one. -/
theorem dot_16384x1024x10 (l : FVec Ideal S16384x1024 .f32) (r : FVec Ideal S1024x10 .f32) (i : Fin 16384) (j : Fin 10) :
    Host.dotGeneral (F := Ideal) dot_S16384x1024_S1024x10_S16384x10_1_0_0_1_n_n none l r (ix2 i j) = ∑ k : Fin 1024, l (ix2 i k) * r (ix2 k j) := by
  simp only [Host.dotGeneral]
  rw [Ideal.dotGeneral_apply, ← Equiv.sum_comp (contrEquiv1 dot_S16384x1024_S1024x10_S16384x10_1_0_0_1_n_n 1024 rfl rfl).symm]
  refine Finset.sum_congr rfl fun k _ => ?_
  have hk := contrEquiv1_symm_val dot_S16384x1024_S1024x10_S16384x10_1_0_0_1_n_n 1024 rfl rfl k
  have el : dot_S16384x1024_S1024x10_S16384x10_1_0_0_1_n_n.lhsIdx (ix2 i j) ((contrEquiv1 dot_S16384x1024_S1024x10_S16384x10_1_0_0_1_n_n 1024 rfl rfl).symm k) = ix2 i k := funext fun a => Fin.ext (by
    match a with
    | ⟨0, _⟩ => exact dot_16384x1024x10_l0 _ _
    | ⟨1, _⟩ => exact (dot_16384x1024x10_l1 _ _).trans hk)
  have er : dot_S16384x1024_S1024x10_S16384x10_1_0_0_1_n_n.rhsIdx (ix2 i j) ((contrEquiv1 dot_S16384x1024_S1024x10_S16384x10_1_0_0_1_n_n 1024 rfl rfl).symm k) = ix2 k j := funext fun a => Fin.ext (by
    match a with
    | ⟨0, _⟩ => exact (dot_16384x1024x10_r0 _ _).trans hk
    | ⟨1, _⟩ => exact dot_16384x1024x10_r1 _ _)
  rw [el, er]

/-! ## The constants of the variance's divisor -/

theorem sitofp_zero : (FloatOps.sitofp (F := Ideal) .f32 (0#32 : BitVec 32) : Ideal .f32) = 0 := by
  show (((0#32 : BitVec 32).toInt : ℝ) : EReal) = 0
  simp

theorem cB_pos : (0 : EReal) < Ideal.ofBits .f32 0x46800000#32 := by
  have h := Spec.cB_eq
  unfold Spec.cB at h
  rw [h]
  exact_mod_cast (by norm_num : (0 : ℝ) < 16384)

theorem cmp_cB : Ideal.cmp .ogt (Ideal.ofBits .f32 0x46800000#32) 0 = 1#1 := by
  unfold Ideal.cmp
  simp [cB_pos]

/-! ## The stages at an index -/

/-- The binarised weights read at an index: the weight plus `sign w · α − w`, `α` the row's mean absolute value. -/
theorem binW784_apply (w : (⟨S1024x784, .f32⟩ : BufTy).Contents (Elt Ideal)) (r : Fin 1024) (k : Fin 784) :
    binW784 (F := Ideal) w (ix2 r k) = Spec.binR Spec.c784 (fun r k => w (ix2 r k)) r k := by
  unfold binW784
  simp only [addf_apply, subf_apply, mulf_apply, hsign_apply]
  rw [bcol_1024x784, hsum_r1024x784]
  simp only [constant_apply, Ideal.ofBits_zero_f32, zero_add]
  rfl

/-- The binarised weights read at an index: the weight plus `sign w · α − w`, `α` the row's mean absolute value. -/
theorem binW1024_apply (w : (⟨S1024x1024, .f32⟩ : BufTy).Contents (Elt Ideal)) (r : Fin 1024) (k : Fin 1024) :
    binW1024 (F := Ideal) w (ix2 r k) = Spec.binR Spec.c1024 (fun r k => w (ix2 r k)) r k := by
  unfold binW1024
  simp only [addf_apply, subf_apply, mulf_apply, hsign_apply]
  rw [bcol_1024x1024, hsum_r1024x1024]
  simp only [constant_apply, Ideal.ofBits_zero_f32, zero_add]
  rfl

/-- The binarised weights read at an index: the weight plus `sign w · α − w`, `α` the row's mean absolute value. -/
theorem binW10_apply (w : (⟨S10x1024, .f32⟩ : BufTy).Contents (Elt Ideal)) (r : Fin 10) (k : Fin 1024) :
    binW10 (F := Ideal) w (ix2 r k) = Spec.binR Spec.c1024 (fun r k => w (ix2 r k)) r k := by
  unfold binW10
  simp only [addf_apply, subf_apply, mulf_apply, hsign_apply]
  rw [bcol_10x1024, hsum_r10x1024]
  simp only [constant_apply, Ideal.ofBits_zero_f32, zero_add]
  rfl

/-- The pre-activation read at an index: the row of the input against the row of the weights, plus the bias. -/
theorem pre784_apply (h : (⟨S16384x784, .f32⟩ : BufTy).Contents (Elt Ideal)) (wb : (⟨S1024x784, .f32⟩ : BufTy).Contents (Elt Ideal))
    (b : (⟨S1024, .f32⟩ : BufTy).Contents (Elt Ideal)) (i : Fin 16384) (j : Fin 1024) :
    pre784 (F := Ideal) h wb b (ix2 i j)
      = Spec.lin (fun i k => h (ix2 i k)) (fun j k => wb (ix2 j k)) (fun j => b (ix1 j)) i j := by
  unfold pre784
  simp only [addf_apply]
  rw [dot_16384x784x1024, brow_16384x1024]
  simp only [btr_1024x784]
  rfl

/-- The pre-activation read at an index: the row of the input against the row of the weights, plus the bias. -/
theorem pre1024_apply (h : (⟨S16384x1024, .f32⟩ : BufTy).Contents (Elt Ideal)) (wb : (⟨S1024x1024, .f32⟩ : BufTy).Contents (Elt Ideal))
    (b : (⟨S1024, .f32⟩ : BufTy).Contents (Elt Ideal)) (i : Fin 16384) (j : Fin 1024) :
    pre1024 (F := Ideal) h wb b (ix2 i j)
      = Spec.lin (fun i k => h (ix2 i k)) (fun j k => wb (ix2 j k)) (fun j => b (ix1 j)) i j := by
  unfold pre1024
  simp only [addf_apply]
  rw [dot_16384x1024x1024, brow_16384x1024]
  simp only [btr_1024x1024]
  rfl

/-- The pre-activation read at an index: the row of the input against the row of the weights, plus the bias. -/
theorem pre10_apply (h : (⟨S16384x1024, .f32⟩ : BufTy).Contents (Elt Ideal)) (wb : (⟨S10x1024, .f32⟩ : BufTy).Contents (Elt Ideal))
    (b : (⟨S10, .f32⟩ : BufTy).Contents (Elt Ideal)) (i : Fin 16384) (j : Fin 10) :
    pre10 (F := Ideal) h wb b (ix2 i j)
      = Spec.lin (fun i k => h (ix2 i k)) (fun j k => wb (ix2 j k)) (fun j => b (ix1 j)) i j := by
  unfold pre10
  simp only [addf_apply]
  rw [dot_16384x1024x10, brow_16384x10]
  simp only [btr_10x1024]
  rfl

/-- The column mean read at a column. -/
theorem mean_apply (p : (⟨S16384x1024, .f32⟩ : BufTy).Contents (Elt Ideal)) (j : Fin 1024) :
    mean (F := Ideal) p (ix1 j) = Spec.meanR Spec.cB (fun i j => p (ix2 i j)) j := by
  unfold mean
  rw [hdivf_apply, hsum_c, bscalar]
  simp only [constant_apply, Ideal.ofBits_zero_f32, zero_add]
  rfl

/-- The column variance read at a column: the divisor `16384 − 0` is positive, so the selection takes the quotient. -/
theorem var_apply (p : (⟨S16384x1024, .f32⟩ : BufTy).Contents (Elt Ideal)) (j : Fin 1024) :
    var (F := Ideal) p (ix1 j) = Spec.varR Spec.cB (fun i j => p (ix2 i j)) j := by
  unfold var
  simp only [select_apply, bscalar, hdivf_apply, hsum_c, mulf_apply, subf_apply, browdiv, cmpf_apply, Ideal.cmpf_def,
    sitofp_apply, constantI_apply, sitofp_zero, constant_apply, Ideal.ofBits_zero_f32, zero_add, sub_zero, cmp_cB, select_one]
  rfl

/-- Normalise, scale, shift, rectify, read at an index. -/
theorem normrelu_apply (p : (⟨S16384x1024, .f32⟩ : BufTy).Contents (Elt Ideal)) (mu vr g be : (⟨S1024, .f32⟩ : BufTy).Contents (Elt Ideal)) (i : Fin 16384) (j : Fin 1024) :
    normrelu (F := Ideal) p mu vr g be (ix2 i j)
      = max (g (ix1 j) * (p (ix2 i j) - mu (ix1 j)) * Ideal.rsqrt (vr (ix1 j) + Spec.eps) + be (ix1 j)) 0 := by
  unfold normrelu
  simp only [maximumf_apply, addf_apply, mulf_apply, subf_apply, brow_16384x1024, hrsqrt_apply, bscalar, constant_apply,
    Ideal.ofBits_zero_f32]
  rfl

/-- Batch normalisation and rectifier read at an index: the textbook formula. -/
theorem bnrelu_apply (p : (⟨S16384x1024, .f32⟩ : BufTy).Contents (Elt Ideal)) (g be : (⟨S1024, .f32⟩ : BufTy).Contents (Elt Ideal)) (i : Fin 16384) (j : Fin 1024) :
    bnrelu (F := Ideal) p g be (ix2 i j)
      = Spec.bnreluR Spec.cB Spec.eps (fun i j => p (ix2 i j)) (fun j => g (ix1 j)) (fun j => be (ix1 j)) i j := by
  unfold bnrelu
  rw [normrelu_apply, mean_apply, var_apply]
  rfl

/-! ## The five layers -/

theorem hpre1_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hpre1 (F := Ideal) a0 a1 a2 a3 a4 a5 a6 a7 a8 a9 a10 a11 a12 a13 a14 a15 a16 a17 a18 (ix2 i j) = Spec.h1R Spec.c784 (Spec.argsOf a0 a1 a2 a3 a4 a5 a6 a7 a8 a9 a10 a11 a12 a13 a14 a15 a16 a17 a18) i j := by
  unfold hpre1
  rw [pre784_apply]
  simp only [binW784_apply]
  rfl

theorem hact1_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hact1 (F := Ideal) a0 a1 a2 a3 a4 a5 a6 a7 a8 a9 a10 a11 a12 a13 a14 a15 a16 a17 a18 (ix2 i j)
      = Spec.bnreluR Spec.cB Spec.eps (Spec.h1R Spec.c784 (Spec.argsOf a0 a1 a2 a3 a4 a5 a6 a7 a8 a9 a10 a11 a12 a13 a14 a15 a16 a17 a18))
          (Spec.argsOf a0 a1 a2 a3 a4 a5 a6 a7 a8 a9 a10 a11 a12 a13 a14 a15 a16 a17 a18).g1 (Spec.argsOf a0 a1 a2 a3 a4 a5 a6 a7 a8 a9 a10 a11 a12 a13 a14 a15 a16 a17 a18).be1 i j := by
  unfold hact1
  rw [bnrelu_apply]
  simp only [hpre1_apply]
  rfl

theorem hpre2_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hpre2 (F := Ideal) a0 a1 a2 a3 a4 a5 a6 a7 a8 a9 a10 a11 a12 a13 a14 a15 a16 a17 a18 (ix2 i j) = Spec.h2R Spec.cB Spec.eps Spec.c784 Spec.c1024 (Spec.argsOf a0 a1 a2 a3 a4 a5 a6 a7 a8 a9 a10 a11 a12 a13 a14 a15 a16 a17 a18) i j := by
  unfold hpre2
  rw [pre1024_apply]
  simp only [hact1_apply, binW1024_apply]
  rfl

theorem hact2_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hact2 (F := Ideal) a0 a1 a2 a3 a4 a5 a6 a7 a8 a9 a10 a11 a12 a13 a14 a15 a16 a17 a18 (ix2 i j)
      = Spec.bnreluR Spec.cB Spec.eps (Spec.h2R Spec.cB Spec.eps Spec.c784 Spec.c1024 (Spec.argsOf a0 a1 a2 a3 a4 a5 a6 a7 a8 a9 a10 a11 a12 a13 a14 a15 a16 a17 a18))
          (Spec.argsOf a0 a1 a2 a3 a4 a5 a6 a7 a8 a9 a10 a11 a12 a13 a14 a15 a16 a17 a18).g2 (Spec.argsOf a0 a1 a2 a3 a4 a5 a6 a7 a8 a9 a10 a11 a12 a13 a14 a15 a16 a17 a18).be2 i j := by
  unfold hact2
  rw [bnrelu_apply]
  simp only [hpre2_apply]
  rfl

theorem hpre3_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hpre3 (F := Ideal) a0 a1 a2 a3 a4 a5 a6 a7 a8 a9 a10 a11 a12 a13 a14 a15 a16 a17 a18 (ix2 i j) = Spec.h3R Spec.cB Spec.eps Spec.c784 Spec.c1024 (Spec.argsOf a0 a1 a2 a3 a4 a5 a6 a7 a8 a9 a10 a11 a12 a13 a14 a15 a16 a17 a18) i j := by
  unfold hpre3
  rw [pre1024_apply]
  simp only [hact2_apply, binW1024_apply]
  rfl

theorem hact3_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hact3 (F := Ideal) a0 a1 a2 a3 a4 a5 a6 a7 a8 a9 a10 a11 a12 a13 a14 a15 a16 a17 a18 (ix2 i j)
      = Spec.bnreluR Spec.cB Spec.eps (Spec.h3R Spec.cB Spec.eps Spec.c784 Spec.c1024 (Spec.argsOf a0 a1 a2 a3 a4 a5 a6 a7 a8 a9 a10 a11 a12 a13 a14 a15 a16 a17 a18))
          (Spec.argsOf a0 a1 a2 a3 a4 a5 a6 a7 a8 a9 a10 a11 a12 a13 a14 a15 a16 a17 a18).g3 (Spec.argsOf a0 a1 a2 a3 a4 a5 a6 a7 a8 a9 a10 a11 a12 a13 a14 a15 a16 a17 a18).be3 i j := by
  unfold hact3
  rw [bnrelu_apply]
  simp only [hpre3_apply]
  rfl

theorem hpre4_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hpre4 (F := Ideal) a0 a1 a2 a3 a4 a5 a6 a7 a8 a9 a10 a11 a12 a13 a14 a15 a16 a17 a18 (ix2 i j) = Spec.h4R Spec.cB Spec.eps Spec.c784 Spec.c1024 (Spec.argsOf a0 a1 a2 a3 a4 a5 a6 a7 a8 a9 a10 a11 a12 a13 a14 a15 a16 a17 a18) i j := by
  unfold hpre4
  rw [pre1024_apply]
  simp only [hact3_apply, binW1024_apply]
  rfl

theorem hact4_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 1024) :
    hact4 (F := Ideal) a0 a1 a2 a3 a4 a5 a6 a7 a8 a9 a10 a11 a12 a13 a14 a15 a16 a17 a18 (ix2 i j)
      = Spec.bnreluR Spec.cB Spec.eps (Spec.h4R Spec.cB Spec.eps Spec.c784 Spec.c1024 (Spec.argsOf a0 a1 a2 a3 a4 a5 a6 a7 a8 a9 a10 a11 a12 a13 a14 a15 a16 a17 a18))
          (Spec.argsOf a0 a1 a2 a3 a4 a5 a6 a7 a8 a9 a10 a11 a12 a13 a14 a15 a16 a17 a18).g4 (Spec.argsOf a0 a1 a2 a3 a4 a5 a6 a7 a8 a9 a10 a11 a12 a13 a14 a15 a16 a17 a18).be4 i j := by
  unfold hact4
  rw [bnrelu_apply]
  simp only [hpre4_apply]
  rfl

/-- The reference's logits, read index by index, are the textbook network of Spec. -/
theorem logits_apply (a0 : (⟨S16384x784, .f32⟩ : BufTy).Contents (Elt Ideal)) (a1 : (⟨S1024x784, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) (a9 : (⟨S10x1024, .f32⟩ : BufTy).Contents (Elt Ideal)) (a10 : (⟨S10, .f32⟩ : BufTy).Contents (Elt Ideal)) (a11 : (⟨S1024, .f32⟩ : BufTy).Contents (Elt Ideal)) (a12 : (⟨S1024, .f32⟩ : BufTy).Contents (Elt Ideal)) (a13 : (⟨S1024, .f32⟩ : BufTy).Contents (Elt Ideal)) (a14 : (⟨S1024, .f32⟩ : BufTy).Contents (Elt Ideal)) (a15 : (⟨S1024, .f32⟩ : BufTy).Contents (Elt Ideal)) (a16 : (⟨S1024, .f32⟩ : BufTy).Contents (Elt Ideal)) (a17 : (⟨S1024, .f32⟩ : BufTy).Contents (Elt Ideal)) (a18 : (⟨S1024, .f32⟩ : BufTy).Contents (Elt Ideal)) (i : Fin 16384) (j : Fin 10) :
    logits (F := Ideal) a0 a1 a2 a3 a4 a5 a6 a7 a8 a9 a10 a11 a12 a13 a14 a15 a16 a17 a18 (ix2 i j)
      = Spec.h5R Spec.cB Spec.eps Spec.c784 Spec.c1024 (Spec.argsOf a0 a1 a2 a3 a4 a5 a6 a7 a8 a9 a10 a11 a12 a13 a14 a15 a16 a17 a18) i j := by
  unfold logits
  rw [pre10_apply]
  simp only [hact4_apply, binW10_apply]
  rfl

end Cert.RefSide

end
-- ==== Proof.LibRealSum.lean ====
/-
# Extended reals with real entries

The extended reals EReal = ℝ ∪ {⊥, ⊤} contain ℝ through the coercion r ↦ (r : EReal), which is
injective and commutes with 0, +, * and negation.  This file collects what is needed to move a
computation on EReal-valued arrays whose entries all happen to be real down to ℝ:

* the coercion commutes with finite sums, and with finite sums of products (dot products),
  optionally with one more real added;
* the predicate IsReal v ("every entry of the array v is (the coercion of) a real number"), its
  closure under 0, +, *, negation, subtraction, finite sums and sums of products read through
  arbitrary index maps (so: under matrix products read entry by entry);
* injectivity of the coercion on arrays, and the fact that an extended real which is neither ⊤
  nor ⊥ is real.
-/
import Mathlib

namespace RealSum

/-! ## The coercion and finite sums -/

/-- The coercion ℝ → EReal commutes with a finite sum. -/
@[simp, norm_cast]
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion commutes with a sum over a whole finite type. -/
theorem coe_sum_univ {ι : Type*} [Fintype ι] (f : ι → ℝ) :
    ((∑ k, f k : ℝ) : EReal) = ∑ k, ((f k : ℝ) : EReal) :=
  coe_sum Finset.univ f

/-- A finite sum of products of coerced reals is the coercion of the real sum of products. -/
theorem coe_sum_mul' {ι : Type*} (s : Finset ι) (a b : ι → ℝ) :
    ∑ k ∈ s, ((a k : ℝ) : EReal) * ((b k : ℝ) : EReal) = ((∑ k ∈ s, a k * b k : ℝ) : EReal) := by
  rw [coe_sum]
  simp only [EReal.coe_mul]

/-- A dot product of coerced reals is the coercion of the real dot product. -/
theorem coe_sum_mul {ι : Type*} [Fintype ι] (a b : ι → ℝ) :
    ∑ k, ((a k : ℝ) : EReal) * ((b k : ℝ) : EReal) = ((∑ k, a k * b k : ℝ) : EReal) :=
  coe_sum_mul' Finset.univ a b

/-- A finite sum of products of coerced reals plus a coerced real. -/
theorem coe_sum_mul_add' {ι : Type*} (s : Finset ι) (a b : ι → ℝ) (c : ℝ) :
    (∑ k ∈ s, ((a k : ℝ) : EReal) * ((b k : ℝ) : EReal)) + (c : EReal)
      = (((∑ k ∈ s, a k * b k) + c : ℝ) : EReal) := by
  rw [coe_sum_mul', EReal.coe_add]

/-- A dot product of coerced reals plus a coerced real. -/
theorem coe_sum_mul_add {ι : Type*} [Fintype ι] (a b : ι → ℝ) (c : ℝ) :
    (∑ k, ((a k : ℝ) : EReal) * ((b k : ℝ) : EReal)) + (c : EReal)
      = (((∑ k, a k * b k) + c : ℝ) : EReal) :=
  coe_sum_mul_add' Finset.univ a b c

/-- A coerced real plus a dot product of coerced reals. -/
theorem coe_add_sum_mul {ι : Type*} [Fintype ι] (a b : ι → ℝ) (c : ℝ) :
    (c : EReal) + (∑ k, ((a k : ℝ) : EReal) * ((b k : ℝ) : EReal))
      = ((c + (∑ k, a k * b k) : ℝ) : EReal) := by
  rw [coe_sum_mul, EReal.coe_add]

/-! ## Real and non-real extended reals -/

/-- An extended real that is neither ⊤ nor ⊥ is a real number. -/
theorem exists_real_of_ne_top_of_ne_bot {x : EReal} (h : x ≠ ⊤ ∧ x ≠ ⊥) : ∃ r : ℝ, x = (r : EReal) :=
  ⟨x.toReal, (EReal.coe_toReal h.1 h.2).symm⟩

/-- An extended real is a real number exactly when it is neither ⊤ nor ⊥. -/
theorem exists_real_iff {x : EReal} : (∃ r : ℝ, x = (r : EReal)) ↔ x ≠ ⊤ ∧ x ≠ ⊥ := by
  constructor
  · rintro ⟨r, rfl⟩
    exact ⟨EReal.coe_ne_top r, EReal.coe_ne_bot r⟩
  · exact exists_real_of_ne_top_of_ne_bot

/-- Two real arrays with the same coercions are equal (pointwise form). -/
theorem coe_fun_inj {ι : Type*} {f g : ι → ℝ} :
    (∀ i, ((f i : ℝ) : EReal) = ((g i : ℝ) : EReal)) ↔ f = g := by
  constructor
  · intro h
    funext i
    exact EReal.coe_injective (h i)
  · rintro rfl i
    rfl

/-- Two real arrays with the same coercions are equal (form with the arrays as functions). -/
theorem coe_fun_inj' {ι : Type*} {f g : ι → ℝ} :
    ((fun i => ((f i : ℝ) : EReal)) = fun i => ((g i : ℝ) : EReal)) ↔ f = g := by
  rw [← coe_fun_inj]
  exact ⟨fun h i => congrFun h i, fun h => funext h⟩

/-! ## Arrays with real entries -/

/-- The array v of extended reals has only real entries: it is the coercion of a real array. -/
def IsReal {ι : Type*} (v : ι → EReal) : Prop := ∃ f : ι → ℝ, v = fun i => ((f i : ℝ) : EReal)

section IsReal

variable {ι : Type*}

/-- The coercion of a real array has real entries. -/
theorem isReal_coe (f : ι → ℝ) : IsReal fun i => ((f i : ℝ) : EReal) := ⟨f, rfl⟩

/-- An array has real entries exactly when each entry is a real number. -/
theorem isReal_iff_forall {v : ι → EReal} : IsReal v ↔ ∀ i, ∃ r : ℝ, v i = (r : EReal) := by
  constructor
  · rintro ⟨f, rfl⟩ i
    exact ⟨f i, rfl⟩
  · intro h
    choose f hf using h
    exact ⟨f, funext hf⟩

/-- Each entry of an array with real entries is a real number. -/
theorem IsReal.apply {v : ι → EReal} (h : IsReal v) (i : ι) : ∃ r : ℝ, v i = (r : EReal) :=
  isReal_iff_forall.1 h i

/-- An array none of whose entries is ⊤ or ⊥ has real entries. -/
theorem isReal_of_forall_ne {v : ι → EReal} (h : ∀ i, v i ≠ ⊤ ∧ v i ≠ ⊥) : IsReal v :=
  isReal_iff_forall.2 fun i => exists_real_of_ne_top_of_ne_bot (h i)

/-- An array has real entries exactly when none of its entries is ⊤ or ⊥. -/
theorem isReal_iff_forall_ne {v : ι → EReal} : IsReal v ↔ ∀ i, v i ≠ ⊤ ∧ v i ≠ ⊥ := by
  rw [isReal_iff_forall]
  exact forall_congr' fun i => exists_real_iff

theorem IsReal.ne_top {v : ι → EReal} (h : IsReal v) (i : ι) : v i ≠ ⊤ :=
  (isReal_iff_forall_ne.1 h i).1

theorem IsReal.ne_bot {v : ι → EReal} (h : IsReal v) (i : ι) : v i ≠ ⊥ :=
  (isReal_iff_forall_ne.1 h i).2

/-- Reading an array with real entries through any index map gives an array with real
entries. -/
theorem IsReal.comp {κ : Type*} {v : ι → EReal} (h : IsReal v) (φ : κ → ι) :
    IsReal fun j => v (φ j) := by
  obtain ⟨f, rfl⟩ := h
  exact ⟨fun j => f (φ j), rfl⟩

/-- The zero array has real entries. -/
theorem isReal_zero : IsReal fun _ : ι => (0 : EReal) := ⟨fun _ => 0, rfl⟩

/-- A constant real array has real entries. -/
theorem isReal_const (c : ℝ) : IsReal fun _ : ι => (c : EReal) := ⟨fun _ => c, rfl⟩

/-- The pointwise sum of two arrays with real entries has real entries. -/
theorem IsReal.add {v w : ι → EReal} (hv : IsReal v) (hw : IsReal w) :
    IsReal fun i => v i + w i := by
  obtain ⟨f, rfl⟩ := hv
  obtain ⟨g, rfl⟩ := hw
  exact ⟨fun i => f i + g i, funext fun i => (EReal.coe_add _ _).symm⟩

/-- The pointwise product of two arrays with real entries has real entries. -/
theorem IsReal.mul {v w : ι → EReal} (hv : IsReal v) (hw : IsReal w) :
    IsReal fun i => v i * w i := by
  obtain ⟨f, rfl⟩ := hv
  obtain ⟨g, rfl⟩ := hw
  exact ⟨fun i => f i * g i, funext fun i => (EReal.coe_mul _ _).symm⟩

/-- The pointwise negation of an array with real entries has real entries. -/
theorem IsReal.neg {v : ι → EReal} (hv : IsReal v) : IsReal fun i => -v i := by
  obtain ⟨f, rfl⟩ := hv
  exact ⟨fun i => -f i, funext fun i => (EReal.coe_neg _).symm⟩

/-- The pointwise difference of two arrays with real entries has real entries. -/
theorem IsReal.sub {v w : ι → EReal} (hv : IsReal v) (hw : IsReal w) :
    IsReal fun i => v i - w i := by
  obtain ⟨f, rfl⟩ := hv
  obtain ⟨g, rfl⟩ := hw
  exact ⟨fun i => f i - g i, funext fun i => (EReal.coe_sub _ _).symm⟩

/-- A finite pointwise sum of arrays with real entries has real entries. -/
theorem IsReal.sum {κ : Type*} (s : Finset κ) {v : κ → ι → EReal} (h : ∀ k ∈ s, IsReal (v k)) :
    IsReal fun i => ∑ k ∈ s, v k i := by
  classical
  induction s using Finset.induction_on with
  | empty => simpa using (isReal_zero (ι := ι))
  | insert a s ha ih =>
    have h1 : IsReal (v a) := h a (Finset.mem_insert_self a s)
    have h2 : IsReal fun i => ∑ k ∈ s, v k i :=
      ih fun k hk => h k (Finset.mem_insert_of_mem hk)
    simpa [Finset.sum_insert ha] using h1.add h2

/-- **Sum of products through index maps, as an equation.**  If A and B are the coercions of the
real arrays a and b, then the array o ↦ ∑ k ∈ s, A (φ o k) * B (ψ o k) is the coercion of the real
array o ↦ ∑ k ∈ s, a (φ o k) * b (ψ o k).  With o = (i, j), φ o k = (i, k), ψ o k = (k, j) this
is a matrix product read entry by entry. -/
theorem sum_mul_coe_eq {ι₁ ι₂ κ ο : Type*} (s : Finset κ) (a : ι₁ → ℝ) (b : ι₂ → ℝ)
    (φ : ο → κ → ι₁) (ψ : ο → κ → ι₂) :
    (fun o => ∑ k ∈ s, ((a (φ o k) : ℝ) : EReal) * ((b (ψ o k) : ℝ) : EReal))
      = fun o => ((∑ k ∈ s, a (φ o k) * b (ψ o k) : ℝ) : EReal) :=
  funext fun o => coe_sum_mul' s (fun k => a (φ o k)) (fun k => b (ψ o k))

/-- **Sum of products through index maps.**  If A and B have real entries, so does
o ↦ ∑ k ∈ s, A (φ o k) * B (ψ o k); in particular a matrix product read entry by entry. -/
theorem IsReal.sum_mul {ι₁ ι₂ κ ο : Type*} (s : Finset κ) {A : ι₁ → EReal} {B : ι₂ → EReal}
    (hA : IsReal A) (hB : IsReal B) (φ : ο → κ → ι₁) (ψ : ο → κ → ι₂) :
    IsReal fun o => ∑ k ∈ s, A (φ o k) * B (ψ o k) := by
  obtain ⟨a, rfl⟩ := hA
  obtain ⟨b, rfl⟩ := hB
  exact ⟨_, sum_mul_coe_eq s a b φ ψ⟩

/-- Sum of products through index maps over a whole finite type. -/
theorem IsReal.sum_mul_univ {ι₁ ι₂ κ ο : Type*} [Fintype κ] {A : ι₁ → EReal} {B : ι₂ → EReal}
    (hA : IsReal A) (hB : IsReal B) (φ : ο → κ → ι₁) (ψ : ο → κ → ι₂) :
    IsReal fun o => ∑ k, A (φ o k) * B (ψ o k) :=
  hA.sum_mul Finset.univ hB φ ψ

end IsReal

end RealSum
-- ==== Proof.LibVariance.lean ====
/-
# The variance of a finite family of reals, two ways

For a family `h` of real numbers indexed by a finite type of `N > 0` elements, with mean
`m = (∑ i, h i) / N`:

* `sum_sq_dev`: the total squared deviation `∑ i, (h i - m) * (h i - m)` is `∑ i, h i * h i - N * m * m`;
* `mean_sq_dev_eq`: the mean squared deviation is the mean of the squares minus the square of the mean;
* `mean_sq_dev_nonneg`: the mean squared deviation is non-negative;
* `max_sub_sq_mean_eq`: hence clamping "mean of squares minus square of mean" below at `0` changes nothing:
  it is the mean squared deviation.
-/
import Mathlib

namespace Variance

variable {ι : Type*} [Fintype ι]

/-- The total squared deviation from the mean, expanded. -/
theorem sum_sq_dev (h : ι → ℝ) (N : ℝ) (hN : (Fintype.card ι : ℝ) = N) (hN0 : N ≠ 0) :
    ∑ i, (h i - (∑ i, h i) / N) * (h i - (∑ i, h i) / N)
      = (∑ i, h i * h i) - N * ((∑ i, h i) / N) * ((∑ i, h i) / N) := by
  set S : ℝ := ∑ i, h i with hS
  have e : ∀ i, (h i - S / N) * (h i - S / N) = h i * h i - (2 * (S / N)) * h i + (S / N) * (S / N) := by
    intro i; ring
  rw [Finset.sum_congr rfl (fun i _ => e i), Finset.sum_add_distrib, Finset.sum_sub_distrib,
    ← Finset.mul_sum, Finset.sum_const, Finset.card_univ, nsmul_eq_mul, hN, ← hS]
  field_simp
  ring

/-- The mean squared deviation is the mean of the squares minus the square of the mean. -/
theorem mean_sq_dev_eq (h : ι → ℝ) (N : ℝ) (hN : (Fintype.card ι : ℝ) = N) (hN0 : N ≠ 0) :
    (∑ i, (h i - (∑ i, h i) / N) * (h i - (∑ i, h i) / N)) / N
      = (∑ i, h i * h i) / N - ((∑ i, h i) / N) * ((∑ i, h i) / N) := by
  rw [sum_sq_dev h N hN hN0]
  field_simp

/-- The mean squared deviation about any centre is non-negative. -/
theorem mean_sq_dev_nonneg (h : ι → ℝ) (c N : ℝ) (hN0 : 0 < N) :
    0 ≤ (∑ i, (h i - c) * (h i - c)) / N :=
  div_nonneg (Finset.sum_nonneg fun i _ => mul_self_nonneg _) hN0.le

/-- Clamping the difference "mean of squares minus square of mean" below at zero gives the mean
squared deviation. -/
theorem max_sub_sq_mean_eq (h : ι → ℝ) (N : ℝ) (hN : (Fintype.card ι : ℝ) = N) (hN0 : 0 < N) :
    max ((∑ i, h i * h i) / N - ((∑ i, h i) / N) * ((∑ i, h i) / N)) 0
      = (∑ i, (h i - (∑ i, h i) / N) * (h i - (∑ i, h i) / N)) / N := by
  rw [← mean_sq_dev_eq h N hN hN0.ne']
  exact max_eq_left (mean_sq_dev_nonneg h _ N hN0)

end Variance
-- ==== Proof.LibERealMax.lean ====
/-
# The coercion of the reals into the extended reals, with `max` and the absolute value

The coercion `ℝ → EReal` is monotone, hence commutes with `max`:

* `coe_max`: `↑(max x y) = max ↑x ↑y`;
* `max_coe_zero`: clamping a real below at `0` can be done before or after the coercion;
* `max_coe_neg`: `max ↑x (-↑x) = ↑|x|`, the absolute value written with `max`.
-/
import Mathlib

namespace ERealCoe

/-- The coercion commutes with `max`. -/
theorem coe_max (x y : ℝ) : ((max x y : ℝ) : EReal) = max (x : EReal) (y : EReal) :=
  EReal.coe_strictMono.monotone.map_max

/-- Clamping a real below at zero, on either side of the coercion. -/
theorem max_coe_zero (x : ℝ) : max (x : EReal) 0 = ((max x 0 : ℝ) : EReal) := by
  rw [coe_max, EReal.coe_zero]

/-- The absolute value written as the larger of a number and its negation. -/
theorem max_coe_neg (x : ℝ) : max (x : EReal) (-(x : EReal)) = ((|x| : ℝ) : EReal) := by
  rw [← EReal.coe_neg, ← coe_max, abs_eq_max_neg]

end ERealCoe
-- ==== Proof.AlgebraReal.lean ====
/-
  The network on real numbers.  When every entry is real, each piece of the specification is the
  coercion of the same piece computed in ℝ; and in ℝ the two spellings agree:

  * `w + (s · α − w) = s · α`;
  * the clamped difference `max (E h² − (E h)²) 0` is the mean squared deviation.

  Both spellings of each piece are therefore the coercion of ONE real function (`rBin`, `rLin`,
  `rBnrelu`), which is what the layer-by-layer comparison uses.
-/
import proofs.«157065_j74259984548393_2_alg».proof.Proof.Spec
import proofs.«157065_j74259984548393_2_alg».proof.Proof.LibRealSum
import proofs.«157065_j74259984548393_2_alg».proof.Proof.LibVariance
import proofs.«157065_j74259984548393_2_alg».proof.Proof.LibERealMax

noncomputable section

namespace Cert.Spec

open Idealize.ShloMosaic

/-! ## The scalar operations on reals -/

/-- `|x|` of a real is the real absolute value. -/
theorem absE_coe (r : ℝ) : absE (r : EReal) = ((|r| : ℝ) : EReal) :=
  ERealCoe.max_coe_neg r

/-- The quotient of two reals by a non-zero divisor is the real quotient. -/
theorem div_real (x y : ℝ) (hy : y ≠ 0) :
    Ideal.div (x : EReal) (y : EReal) = ((x / y : ℝ) : EReal) := by
  rw [Ideal.div_coe hy, ← EReal.coe_mul, mul_one_div]

/-- The reciprocal square root of a positive real is the real one. -/
theorem rsqrt_pos (r : ℝ) (hr : 0 < r) :
    Ideal.rsqrt (r : EReal) = (((Real.sqrt r)⁻¹ : ℝ) : EReal) := by
  rw [Ideal.rsqrt_coe, if_neg (not_lt.2 hr.le), if_neg hr.ne']

/-! ## The real network -/

/-- The scale of a real weight row. -/
def rAlpha {o f : ℕ} (cf : ℝ) (W : Fin o → Fin f → ℝ) (r : Fin o) : ℝ := (∑ k, |W r k|) / cf

/-- Real binarised weights. -/
def rBin {o f : ℕ} (cf : ℝ) (W : Fin o → Fin f → ℝ) (r : Fin o) (k : Fin f) : ℝ :=
  (SignType.sign (W r k) : ℝ) * rAlpha cf W r

/-- A real linear layer. -/
def rLin {B f o : ℕ} (A : Fin B → Fin f → ℝ) (Wb : Fin o → Fin f → ℝ) (b : Fin o → ℝ)
    (i : Fin B) (j : Fin o) : ℝ :=
  (∑ k, A i k * Wb j k) + b j

section Stats

variable {n : ℕ}

/-- The column mean over the 16384 rows. -/
def rMean (H : Fin 16384 → Fin n → ℝ) (j : Fin n) : ℝ := (∑ i, H i j) / 16384

/-- The column variance: the mean squared deviation. -/
def rVar (H : Fin 16384 → Fin n → ℝ) (j : Fin n) : ℝ :=
  (∑ i, (H i j - rMean H j) * (H i j - rMean H j)) / 16384

/-- Normalise, scale, shift, rectify, on reals. -/
def rBnrelu (e : ℝ) (H : Fin 16384 → Fin n → ℝ) (g be : Fin n → ℝ) (i : Fin 16384) (j : Fin n) : ℝ :=
  max (g j * (H i j - rMean H j) * (Real.sqrt (rVar H j + e))⁻¹ + be j) 0

theorem rVar_nonneg (H : Fin 16384 → Fin n → ℝ) (j : Fin n) : 0 ≤ rVar H j :=
  Variance.mean_sq_dev_nonneg (fun i => H i j) (rMean H j) 16384 (by norm_num)

end Stats

/-! ## Weights -/

section Weights

variable {o f : ℕ} (cf : ℝ) (hcf : cf ≠ 0) (W : Fin o → Fin f → ℝ)

include hcf

/-- The scale of a real row is real. -/
theorem alpha_coe (r : Fin o) :
    alpha (cf : EReal) (fun i k => ((W i k : ℝ) : EReal)) r = ((rAlpha cf W r : ℝ) : EReal) := by
  simp only [alpha, absE_coe]
  rw [← RealSum.coe_sum_univ, div_real _ _ hcf]
  rfl

/-- The directly written binarised weights of real weights. -/
theorem binK_coe :
    binK (cf : EReal) (fun i k => ((W i k : ℝ) : EReal)) = fun r k => ((rBin cf W r k : ℝ) : EReal) := by
  funext r k
  simp only [binK, alpha_coe cf hcf W, Ideal.sign_coe]
  rw [← EReal.coe_mul]
  rfl

/-- The binarised weights written as weight plus correction: on reals `w + (s · α − w) = s · α`. -/
theorem binR_coe :
    binR (cf : EReal) (fun i k => ((W i k : ℝ) : EReal)) = fun r k => ((rBin cf W r k : ℝ) : EReal) := by
  funext r k
  simp only [binR, alpha_coe cf hcf W, Ideal.sign_coe]
  rw [← EReal.coe_mul, ← EReal.coe_sub, ← EReal.coe_add]
  congr 1
  unfold rBin
  ring

end Weights

/-! ## Linear layers -/

/-- A linear layer on real entries is the real linear layer. -/
theorem lin_coe {B f o : ℕ} (A : Fin B → Fin f → ℝ) (Wb : Fin o → Fin f → ℝ) (b : Fin o → ℝ) :
    lin (fun i k => ((A i k : ℝ) : EReal)) (fun j k => ((Wb j k : ℝ) : EReal)) (fun j => ((b j : ℝ) : EReal))
      = fun i j => ((rLin A Wb b i j : ℝ) : EReal) := by
  funext i j
  simp only [lin]
  rw [RealSum.coe_sum_mul_add]
  rfl

end Cert.Spec

end
-- ==== Proof.LibBlocks.lean ====
/- A sum over a range, cut into consecutive blocks of equal length. -/
import Mathlib.Algebra.BigOperators.Fin
import Mathlib.Logic.Equiv.Fin.Basic

open scoped BigOperators

namespace Cert.Spec

/-- The `t`-th index of the `k`-th block of length `n` is below `b * n`. -/
theorem block_lt {b n : ℕ} (k : Fin b) (t : Fin n) : k.val * n + t.val < b * n :=
  calc k.val * n + t.val < k.val * n + n := Nat.add_lt_add_left t.isLt _
    _ = (k.val + 1) * n := (Nat.succ_mul _ _).symm
    _ ≤ b * n := Nat.mul_le_mul_right n k.isLt

/-- A sum over `b * n` consecutive indices is the sum over the `b` blocks of the sums over each block's `n` indices. -/
theorem sum_blocks {M : Type*} [AddCommMonoid M] (b n : ℕ) (f : Fin (b * n) → M) :
    ∑ j, f j = ∑ k : Fin b, ∑ t : Fin n, f ⟨k.val * n + t.val, block_lt k t⟩ := by
  rw [← Fintype.sum_prod_type', ← Equiv.sum_comp (finProdFinEquiv (m := b) (n := n)) f]
  refine Finset.sum_congr rfl fun p _ => congrArg f (Fin.ext ?_)
  simp [finProdFinEquiv, Nat.mul_comm, Nat.add_comm]

/-- The rows and columns of this certificate: 8192 indices are 8 blocks of 1024. -/
theorem sum_8192 {M : Type*} [AddCommMonoid M] (f : Fin 8192 → M) :
    ∑ j, f j = ∑ k : Fin 8, ∑ t : Fin 1024, f ⟨k.val * 1024 + t.val, block_lt (b := 8) k t⟩ :=
  sum_blocks 8 1024 f

end Cert.Spec
-- ==== Proof.AlgebraRows.lean ====
/-
  The 16384 rows gathered as 2 × 16 blocks of 512 are all the rows, each once: a total taken block
  by block is the total over the rows.  Addition only has to be commutative and associative, so
  this holds for extended reals whatever the entries are.
-/
import proofs.«157065_j74259984548393_2_alg».proof.Proof.Spec
import proofs.«157065_j74259984548393_2_alg».proof.Proof.LibBlocks

namespace Cert.Spec

/-- Summing block by block along `rowOf` is summing over all rows. -/
theorem sum_rowOf {M : Type*} [AddCommMonoid M] (F : Fin 16384 → M) :
    ∑ c : Fin 2, ∑ t : Fin 16, ∑ r : Fin 512, F (rowOf c t r) = ∑ i, F i := by
  have h1 : ∑ i, F i = ∑ k : Fin 32, ∑ r : Fin 512, F ⟨k.val * 512 + r.val, block_lt k r⟩ :=
    sum_blocks 32 512 F
  have h2 : ∑ k : Fin 32, ∑ r : Fin 512, F ⟨k.val * 512 + r.val, block_lt k r⟩
      = ∑ c : Fin 2, ∑ t : Fin 16, ∑ r : Fin 512,
          F ⟨(⟨c.val * 16 + t.val, block_lt c t⟩ : Fin 32).val * 512 + r.val, block_lt _ r⟩ :=
    sum_blocks 2 16 (fun k : Fin 32 => ∑ r : Fin 512, F ⟨k.val * 512 + r.val, block_lt k r⟩)
  rw [h1, h2]
  refine Finset.sum_congr rfl fun c _ => Finset.sum_congr rfl fun t _ =>
    Finset.sum_congr rfl fun r _ => congrArg F (Fin.ext ?_)
  simp only [rowOf]
  omega

variable {n : ℕ}

/-- The column total taken block by block is the column total. -/
theorem sumK_eq (H : Fin 16384 → Fin n → EReal) (j : Fin n) : sumK H j = ∑ i, H i j :=
  sum_rowOf fun i => H i j

/-- The column total of the squares taken block by block is the column total of the squares. -/
theorem sumsqK_eq (H : Fin 16384 → Fin n → EReal) (j : Fin n) :
    sumsqK H j = ∑ i, H i j * H i j :=
  sum_rowOf fun i => H i j * H i j

end Cert.Spec
-- ==== Proof.AlgebraStats.lean ====
/-
  Batch normalisation on real entries.  Over the 16384 rows, with the row count `16384` as divisor
  and a positive real `e` added to the variance, both spellings of "normalise, scale, shift,
  rectify" are the coercion of the real function `rBnrelu`:

  * the running-totals one because the block totals are the totals (`sumK_eq`, `sumsqK_eq`) and
    the clamped difference `max (E h² − (E h)²) 0` is the mean squared deviation — this is where
    the divisor being the number of rows is used;
  * the textbook one directly.

  The variance plus `e` is a positive real, so its reciprocal square root is a real number.
-/
import proofs.«157065_j74259984548393_2_alg».proof.Proof.AlgebraReal
import proofs.«157065_j74259984548393_2_alg».proof.Proof.AlgebraRows

noncomputable section

namespace Cert.Spec

open Idealize.ShloMosaic

variable {n : ℕ} (H : Fin 16384 → Fin n → ℝ)

theorem c16384_ne : (16384 : ℝ) ≠ 0 := by norm_num

/-- The column mean, running-totals spelling. -/
theorem meanK_coe (j : Fin n) :
    meanK ((16384 : ℝ) : EReal) (fun i j => ((H i j : ℝ) : EReal)) j = ((rMean H j : ℝ) : EReal) := by
  simp only [meanK, sumK_eq]
  rw [← RealSum.coe_sum_univ, div_real _ _ c16384_ne]
  rfl

/-- The column mean, textbook spelling. -/
theorem meanR_coe (j : Fin n) :
    meanR ((16384 : ℝ) : EReal) (fun i j => ((H i j : ℝ) : EReal)) j = ((rMean H j : ℝ) : EReal) := by
  simp only [meanR]
  rw [← RealSum.coe_sum_univ, div_real _ _ c16384_ne]
  rfl

/-- The clamped difference of the two means is the mean squared deviation. -/
theorem varK_coe (j : Fin n) :
    varK ((16384 : ℝ) : EReal) (fun i j => ((H i j : ℝ) : EReal)) j = ((rVar H j : ℝ) : EReal) := by
  simp only [varK, meanK_coe, sumsqK_eq]
  rw [RealSum.coe_sum_mul, div_real _ _ c16384_ne, ← EReal.coe_mul, ← EReal.coe_sub,
    ERealCoe.max_coe_zero]
  congr 1
  exact Variance.max_sub_sq_mean_eq (fun i => H i j) 16384 (by simp) (by norm_num)

/-- The mean squared deviation, textbook spelling. -/
theorem varR_coe (j : Fin n) :
    varR ((16384 : ℝ) : EReal) (fun i j => ((H i j : ℝ) : EReal)) j = ((rVar H j : ℝ) : EReal) := by
  simp only [varR, meanR_coe, ← EReal.coe_sub]
  rw [RealSum.coe_sum_mul, div_real _ _ c16384_ne]
  rfl

variable (e : ℝ) (he : 0 < e) (g be : Fin n → ℝ)

include he

/-- The common last step: real mean `m`, real variance `v ≥ 0`. -/
theorem bn_step (x gj bj m v : ℝ) (hv : 0 ≤ v) :
    max ((gj : EReal) * ((x : EReal) - (m : EReal)) * Ideal.rsqrt ((v : EReal) + (e : EReal)) + (bj : EReal)) 0
      = ((max (gj * (x - m) * (Real.sqrt (v + e))⁻¹ + bj) 0 : ℝ) : EReal) := by
  rw [← EReal.coe_add v e, rsqrt_pos _ (add_pos_of_nonneg_of_pos hv he), ← EReal.coe_sub,
    ← EReal.coe_mul, ← EReal.coe_mul, ← EReal.coe_add, ERealCoe.max_coe_zero]

/-- Running-totals spelling of the normalisation, on real entries. -/
theorem bnreluK_coe :
    bnreluK ((16384 : ℝ) : EReal) (e : EReal) (fun i j => ((H i j : ℝ) : EReal))
        (fun j => ((g j : ℝ) : EReal)) (fun j => ((be j : ℝ) : EReal))
      = fun i j => ((rBnrelu e H g be i j : ℝ) : EReal) := by
  funext i j
  simp only [bnreluK, meanK_coe, varK_coe]
  exact bn_step e he _ _ _ _ _ (rVar_nonneg H j)

/-- Textbook spelling of the normalisation, on real entries. -/
theorem bnreluR_coe :
    bnreluR ((16384 : ℝ) : EReal) (e : EReal) (fun i j => ((H i j : ℝ) : EReal))
        (fun j => ((g j : ℝ) : EReal)) (fun j => ((be j : ℝ) : EReal))
      = fun i j => ((rBnrelu e H g be i j : ℝ) : EReal) := by
  funext i j
  simp only [bnreluR, meanR_coe, varR_coe]
  exact bn_step e he _ _ _ _ _ (rVar_nonneg H j)

end Cert.Spec

end
-- ==== Proof.Algebra.lean ====
/-
  The two spellings of the network agree on real arguments.

  Choose real arrays for the nineteen arguments.  Layer by layer, the pre-activations of BOTH
  spellings are then the coercion of one and the same real array: the binarised weights by
  `binK_coe` / `binR_coe`, the normalisations by `bnreluK_coe` / `bnreluR_coe`, the linear
  layers by `lin_coe`.  Equality of the logits follows.
-/
import proofs.«157065_j74259984548393_2_alg».proof.Proof.AlgebraStats

noncomputable section

namespace Cert.Spec

open Idealize.ShloMosaic

/-- An array each of whose entries is real is the coercion of a real array. -/
theorem mat_real {p q : ℕ} {M : Fin p → Fin q → EReal} (h : ∀ i k, ∃ r : ℝ, M i k = r) :
    ∃ m : Fin p → Fin q → ℝ, M = fun i k => ((m i k : ℝ) : EReal) := by
  choose m hm using h
  exact ⟨m, funext fun i => funext fun k => hm i k⟩

/-- A vector each of whose entries is real is the coercion of a real vector. -/
theorem vec_real {p : ℕ} {v : Fin p → EReal} (h : ∀ i, ∃ r : ℝ, v i = r) :
    ∃ m : Fin p → ℝ, v = fun i => ((m i : ℝ) : EReal) := by
  choose m hm using h
  exact ⟨m, funext hm⟩

theorem h5K_eq_h5R (cB eps c784 c1024 : EReal) (hB : cB = ((16384 : ℝ) : EReal))
    (heps : ∃ e : ℝ, 0 < e ∧ eps = (e : EReal))
    (h784 : c784 = ((784 : ℝ) : EReal)) (h1024 : c1024 = ((1024 : ℝ) : EReal))
    (a : Args) (ha : a.Real) :
    h5K cB eps c784 c1024 a = h5R cB eps c784 c1024 a := by
  obtain ⟨e, he, rfl⟩ := heps
  subst hB h784 h1024
  obtain ⟨hx, hW1, hb1, hW2, hb2, hW3, hb3, hW4, hb4, hW5, hb5,
    hg1, hbe1, hg2, hbe2, hg3, hbe3, hg4, hbe4⟩ := ha
  obtain ⟨x, ex⟩ := mat_real hx
  obtain ⟨W1, eW1⟩ := mat_real hW1
  obtain ⟨b1, eb1⟩ := vec_real hb1
  obtain ⟨W2, eW2⟩ := mat_real hW2
  obtain ⟨b2, eb2⟩ := vec_real hb2
  obtain ⟨W3, eW3⟩ := mat_real hW3
  obtain ⟨b3, eb3⟩ := vec_real hb3
  obtain ⟨W4, eW4⟩ := mat_real hW4
  obtain ⟨b4, eb4⟩ := vec_real hb4
  obtain ⟨W5, eW5⟩ := mat_real hW5
  obtain ⟨b5, eb5⟩ := vec_real hb5
  obtain ⟨g1, eg1⟩ := vec_real hg1
  obtain ⟨be1, ebe1⟩ := vec_real hbe1
  obtain ⟨g2, eg2⟩ := vec_real hg2
  obtain ⟨be2, ebe2⟩ := vec_real hbe2
  obtain ⟨g3, eg3⟩ := vec_real hg3
  obtain ⟨be3, ebe3⟩ := vec_real hbe3
  obtain ⟨g4, eg4⟩ := vec_real hg4
  obtain ⟨be4, ebe4⟩ := vec_real hbe4
  have n784 : (784 : ℝ) ≠ 0 := by norm_num
  have n1024 : (1024 : ℝ) ≠ 0 := by norm_num
  -- layer 1
  have k1 : h1K ((784 : ℝ) : EReal) a = fun i j => ((rLin x (rBin 784 W1) b1 i j : ℝ) : EReal) := by
    rw [h1K, ex, eW1, eb1, binK_coe 784 n784, lin_coe]
  have r1 : h1R ((784 : ℝ) : EReal) a = fun i j => ((rLin x (rBin 784 W1) b1 i j : ℝ) : EReal) := by
    rw [h1R, ex, eW1, eb1, binR_coe 784 n784, lin_coe]
  -- layer 2
  have k2 : h2K ((16384 : ℝ) : EReal) (e : EReal) ((784 : ℝ) : EReal) ((1024 : ℝ) : EReal) a
      = fun i j => ((rLin (rBnrelu e (rLin x (rBin 784 W1) b1) g1 be1) (rBin 1024 W2) b2 i j : ℝ) : EReal) := by
    rw [h2K, k1, eg1, ebe1, bnreluK_coe _ e he, eW2, eb2, binK_coe 1024 n1024, lin_coe]
  have r2 : h2R ((16384 : ℝ) : EReal) (e : EReal) ((784 : ℝ) : EReal) ((1024 : ℝ) : EReal) a
      = fun i j => ((rLin (rBnrelu e (rLin x (rBin 784 W1) b1) g1 be1) (rBin 1024 W2) b2 i j : ℝ) : EReal) := by
    rw [h2R, r1, eg1, ebe1, bnreluR_coe _ e he, eW2, eb2, binR_coe 1024 n1024, lin_coe]
  -- layer 3
  have k3 : h3K ((16384 : ℝ) : EReal) (e : EReal) ((784 : ℝ) : EReal) ((1024 : ℝ) : EReal) a
      = fun i j => ((rLin (rBnrelu e (rLin (rBnrelu e (rLin x (rBin 784 W1) b1) g1 be1)
          (rBin 1024 W2) b2) g2 be2) (rBin 1024 W3) b3 i j : ℝ) : EReal) := by
    rw [h3K, k2, eg2, ebe2, bnreluK_coe _ e he, eW3, eb3, binK_coe 1024 n1024, lin_coe]
  have r3 : h3R ((16384 : ℝ) : EReal) (e : EReal) ((784 : ℝ) : EReal) ((1024 : ℝ) : EReal) a
      = fun i j => ((rLin (rBnrelu e (rLin (rBnrelu e (rLin x (rBin 784 W1) b1) g1 be1)
          (rBin 1024 W2) b2) g2 be2) (rBin 1024 W3) b3 i j : ℝ) : EReal) := by
    rw [h3R, r2, eg2, ebe2, bnreluR_coe _ e he, eW3, eb3, binR_coe 1024 n1024, lin_coe]
  -- layer 4
  have k4 : h4K ((16384 : ℝ) : EReal) (e : EReal) ((784 : ℝ) : EReal) ((1024 : ℝ) : EReal) a
      = fun i j => ((rLin (rBnrelu e (rLin (rBnrelu e (rLin (rBnrelu e (rLin x (rBin 784 W1) b1) g1 be1)
          (rBin 1024 W2) b2) g2 be2) (rBin 1024 W3) b3) g3 be3) (rBin 1024 W4) b4 i j : ℝ) : EReal) := by
    rw [h4K, k3, eg3, ebe3, bnreluK_coe _ e he, eW4, eb4, binK_coe 1024 n1024, lin_coe]
  have r4 : h4R ((16384 : ℝ) : EReal) (e : EReal) ((784 : ℝ) : EReal) ((1024 : ℝ) : EReal) a
      = fun i j => ((rLin (rBnrelu e (rLin (rBnrelu e (rLin (rBnrelu e (rLin x (rBin 784 W1) b1) g1 be1)
          (rBin 1024 W2) b2) g2 be2) (rBin 1024 W3) b3) g3 be3) (rBin 1024 W4) b4 i j : ℝ) : EReal) := by
    rw [h4R, r3, eg3, ebe3, bnreluR_coe _ e he, eW4, eb4, binR_coe 1024 n1024, lin_coe]
  -- the logits
  rw [h5K, h5R, k4, r4, eg4, ebe4, bnreluK_coe _ e he, bnreluR_coe _ e he, eW5, eb5,
    binK_coe 1024 n1024, binR_coe 1024 n1024]

end Cert.Spec

end
-- ==== Proof.lean ====
/-
  A five-layer perceptron with binarised weights and training-mode batch normalisation, as a pipeline of five
  launches, against its textbook reference: the three programs run to the end leaving their arguments as they
  were, and at the extended reals the pipeline's result is the reference's.

  The pipeline keeps, per layer, the column totals of the pre-activation and of its squares in two halves of
  sixteen blocks of 512 rows, and forms the variance as the clamped difference of the mean of the squares and the
  squared mean; the reference takes the mean of the squared deviations. On real entries the two agree (the
  difference is the mean squared deviation, which is not negative), and the binarised weight written as
  w + (sign w · α − w) is sign w · α. Both are the specification's two spellings (Proof/Spec.lean), proved equal
  in Proof/Algebra.lean; the pipeline's value is read launch by launch in Proof/KValue.lean, the reference's
  operation by operation in Proof/RefValue.lean; the final log-softmax is one shared function of the logits.
-/
import proofs.«157065_j74259984548393_2_alg».proof.Defs
import proofs.«157065_j74259984548393_2_alg».proof.Proof.Gen.Kernel
import proofs.«157065_j74259984548393_2_alg».proof.Proof.Gen.KernelIdeal
import proofs.«157065_j74259984548393_2_alg».proof.Proof.Gen.ReferenceIdeal
import proofs.«157065_j74259984548393_2_alg».proof.Proof.Gen.Pre_finite_inputs
import proofs.«157065_j74259984548393_2_alg».proof.Proof.BitsKRun
import proofs.«157065_j74259984548393_2_alg».proof.Proof.KRun
import proofs.«157065_j74259984548393_2_alg».proof.Proof.KValue
import proofs.«157065_j74259984548393_2_alg».proof.Proof.KTailRef
import proofs.«157065_j74259984548393_2_alg».proof.Proof.PreReal
import proofs.«157065_j74259984548393_2_alg».proof.Proof.RefRun
import proofs.«157065_j74259984548393_2_alg».proof.Proof.RefValue
import proofs.«157065_j74259984548393_2_alg».proof.Proof.Algebra
import proofs.«157065_j74259984548393_2_alg».proof.Proof.SpecConsts
import Idealize.ShloMosaic.Adequacy
import Idealize.ShloMosaic.Init

noncomputable section

namespace Cert.Proof

open Idealize.ShloMosaic Idealize.SL.Sem Idealize.ShloMosaic.ValueIdx

/-- The word-level pipeline runs to the end with its arguments unchanged. -/
theorem frame_k : Cert.frame_Kernel := fun m ρ _ => Cert.Kernel.Hand.frame (F := Bits) m ρ
/-- So does the pipeline read at the extended reals. -/
theorem frame_ki : Cert.frame_KernelIdeal := fun m ρ _ => Cert.KernelIdeal.Hand.frame (F := Ideal) m ρ

/-- At the extended reals, from memories agreeing on real arguments, both programs end at the shared log-softmax
    of the specification's logits: the pipeline by its launches' values, the reference by its operations, the two
    spellings of the logits equal on real entries. -/
theorem algebraic : Cert.algebraic_KernelIdeal_ReferenceIdeal := by
  intro m ρ m' ρ' hpre hagree
  refine ⟨fun c => Cert.RefSide.tail (F := Ideal) (fun ix =>
    Cert.Spec.h5K Cert.Spec.cB Cert.Spec.eps Cert.Spec.c784 Cert.Spec.c1024 (Cert.KernelIdeal.Vals.args m c) (ix 0) (ix 1)), ?_, ?_⟩
  · exact (θ_run (Cert.KernelIdeal.defs (F := Ideal)) _ _).mono
      (fun r h c => ⟨(h c).1.trans (Cert.KernelIdeal.Vals.kernel_value m ρ c), (h c).2⟩)
      (Cert.KernelIdeal.Hand.run_val (F := Ideal) m ρ)
  · refine (θ_run (Cert.ReferenceIdeal.defs (F := Ideal)) _ _).mono
      (fun r h c => ⟨(h c).1.trans ?_, (h c).2⟩) (Cert.RefSide.run m' ρ')
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    congr 1
    funext ix
    obtain ⟨i, j, rfl⟩ : ∃ (i : Fin 16384) (j : Fin 10), ix = ix2 i j := ⟨ix 0, ix 1, eq_ix2 ix⟩
    rw [Cert.RefSide.logits_apply]
    exact (congrFun (congrFun (Cert.Spec.h5K_eq_h5R _ _ _ _ Cert.Spec.cB_eq Cert.Spec.eps_pos Cert.Spec.c784_eq
      Cert.Spec.c1024_eq _ (Cert.KernelIdeal.Vals.real_of_pre m hpre c)) _) _).symm

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
